-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x64 : Shape := ⟨3, ![8, 16, 64]⟩
abbrev S32x64 : Shape := ⟨2, ![32, 64]⟩
abbrev S64 : Shape := ⟨1, ![64]⟩
abbrev S1600x64 : Shape := ⟨2, ![1600, 64]⟩
abbrev S1600x128 : Shape := ⟨2, ![1600, 128]⟩
abbrev S128 : Shape := ⟨1, ![128]⟩
abbrev S3200x128 : Shape := ⟨2, ![3200, 128]⟩
abbrev S3200x256 : Shape := ⟨2, ![3200, 256]⟩
abbrev S256 : Shape := ⟨1, ![256]⟩
abbrev S6400x256 : Shape := ⟨2, ![6400, 256]⟩
abbrev S6400x2048 : Shape := ⟨2, ![6400, 2048]⟩
abbrev S2048 : Shape := ⟨1, ![2048]⟩
abbrev S2048x512 : Shape := ⟨2, ![2048, 512]⟩
abbrev S512 : Shape := ⟨1, ![512]⟩
abbrev S512x1024 : Shape := ⟨2, ![512, 1024]⟩
abbrev S1024 : Shape := ⟨1, ![1024]⟩
abbrev S1024x16 : Shape := ⟨2, ![1024, 16]⟩
abbrev S16 : Shape := ⟨1, ![16]⟩
abbrev S_ : Shape := ⟨0, ![]⟩

class Facts : Prop where
  bcast_S_S8x16x64 : S_.BroadcastsInDim S8x16x64 (![] : Fin 0 → Fin S8x16x64.rank)
  reducesTo_S8x16x64_S_d0_1_2 : S8x16x64.ReducesTo [0, 1, 2] S_
  h_S_ : 0 < S_.numel
  bitsLt_bf16_f32 : FTy.bits .bf16 < FTy.bits .f32
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S1600x64 : S_.BroadcastsInDim S1600x64 (![] : Fin 0 → Fin S1600x64.rank)
  reducesTo_S1600x64_S_d0_1 : S1600x64.ReducesTo [0, 1] S_
  bcast_S_S1600x128 : S_.BroadcastsInDim S1600x128 (![] : Fin 0 → Fin S1600x128.rank)
  reducesTo_S1600x128_S_d0_1 : S1600x128.ReducesTo [0, 1] S_
  bcast_S_S128 : S_.BroadcastsInDim S128 (![] : Fin 0 → Fin S128.rank)
  reducesTo_S128_S_d0 : S128.ReducesTo [0] S_
  bcast_S_S3200x128 : S_.BroadcastsInDim S3200x128 (![] : Fin 0 → Fin S3200x128.rank)
  reducesTo_S3200x128_S_d0_1 : S3200x128.ReducesTo [0, 1] S_
  bcast_S_S3200x256 : S_.BroadcastsInDim S3200x256 (![] : Fin 0 → Fin S3200x256.rank)
  reducesTo_S3200x256_S_d0_1 : S3200x256.ReducesTo [0, 1] S_
  bcast_S_S256 : S_.BroadcastsInDim S256 (![] : Fin 0 → Fin S256.rank)
  reducesTo_S256_S_d0 : S256.ReducesTo [0] S_
  bcast_S_S6400x256 : S_.BroadcastsInDim S6400x256 (![] : Fin 0 → Fin S6400x256.rank)
  reducesTo_S6400x256_S_d0_1 : S6400x256.ReducesTo [0, 1] S_
  bcast_S_S6400x2048 : S_.BroadcastsInDim S6400x2048 (![] : Fin 0 → Fin S6400x2048.rank)
  reducesTo_S6400x2048_S_d0_1 : S6400x2048.ReducesTo [0, 1] S_
  bcast_S_S2048 : S_.BroadcastsInDim S2048 (![] : Fin 0 → Fin S2048.rank)
  reducesTo_S2048_S_d0 : S2048.ReducesTo [0] S_
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x16 : S_.BroadcastsInDim S1024x16 (![] : Fin 0 → Fin S1024x16.rank)
  reducesTo_S1024x16_S_d0_1 : S1024x16.ReducesTo [0, 1] S_
  bcast_S_S16 : S_.BroadcastsInDim S16 (![] : Fin 0 → Fin S16.rank)
  reducesTo_S16_S_d0 : S16.ReducesTo [0] S_

variable [Facts]

def fn_part6 {F : FTy → Type} [FloatOps F] (main_arg20 : FVec F S16 .f32) (main_v102 : IVec S_ 1) (main_v104 : FVec F S1024x16 .f32) (main_cst_36 : FVec F S_ .f32) : IVec S_ 1 :=
  let main_v105 : FVec F S1024x16 .f32 := broadcastInDim S1024x16 ![] bcast_S_S1024x16 main_cst_36
  let main_v106 : IVec S1024x16 1 := cmpf .olt main_v104 main_v105
  let main_c_37 : IVec S_ 1 := constantI S_ 1 1#1
  let main_v107 : IVec S_ 1 := (fun x v => Host.reduce IntOp.andi x v reducesTo_S1024x16_S_d0_1 h_S_) main_v106 main_c_37
  let main_v108 : IVec S_ 1 := andi main_v102 main_v107
  let main_v109 : FVec F S16 .f32 := Host.absf main_arg20
  let main_cst_38 : FVec F S_ .f32 := constant S_ .f32 0x7F800000#32
  let main_v110 : FVec F S16 .f32 := broadcastInDim S16 ![] bcast_S_S16 main_cst_38
  let main_v111 : IVec S16 1 := cmpf .olt main_v109 main_v110
  let main_c_39 : IVec S_ 1 := constantI S_ 1 1#1
  let main_v112 : IVec S_ 1 := (fun x v => Host.reduce IntOp.andi x v reducesTo_S16_S_d0 h_S_) main_v111 main_c_39
  let main_v113 : IVec S_ 1 := andi main_v108 main_v112
  main_v113

def fn_part5 {F : FTy → Type} [FloatOps F] (main_arg17 : FVec F S512x1024 .bf16) (main_arg18 : FVec F S1024 .f32) (main_arg19 : FVec F S1024x16 .bf16) (main_arg20 : FVec F S16 .f32) (main_v86 : IVec S_ 1) (main_v87 : FVec F S512 .f32) : IVec S_ 1 :=
  let main_cst_30 : FVec F S_ .f32 := constant S_ .f32 0x7F800000#32
  let main_v88 : FVec F S512 .f32 := broadcastInDim S512 ![] bcast_S_S512 main_cst_30
  let main_v89 : IVec S512 1 := cmpf .olt main_v87 main_v88
  let main_c_31 : IVec S_ 1 := constantI S_ 1 1#1
  let main_v90 : IVec S_ 1 := (fun x v => Host.reduce IntOp.andi x v reducesTo_S512_S_d0 h_S_) main_v89 main_c_31
  let main_v91 : IVec S_ 1 := andi main_v86 main_v90
  let main_v92 : FVec F S512x1024 .f32 := (extf .f32 · bitsLt_bf16_f32) main_arg17
  let main_v93 : FVec F S512x1024 .f32 := Host.absf main_v92
  let main_cst_32 : FVec F S_ .f32 := constant S_ .f32 0x7F800000#32
  let main_v94 : FVec F S512x1024 .f32 := broadcastInDim S512x1024 ![] bcast_S_S512x1024 main_cst_32
  let main_v95 : IVec S512x1024 1 := cmpf .olt main_v93 main_v94
  let main_c_33 : IVec S_ 1 := constantI S_ 1 1#1
  let main_v96 : IVec S_ 1 := (fun x v => Host.reduce IntOp.andi x v reducesTo_S512x1024_S_d0_1 h_S_) main_v95 main_c_33
  let main_v97 : IVec S_ 1 := andi main_v91 main_v96
  let main_v98 : FVec F S1024 .f32 := Host.absf main_arg18
  let main_cst_34 : FVec F S_ .f32 := constant S_ .f32 0x7F800000#32
  let main_v99 : FVec F S1024 .f32 := broadcastInDim S1024 ![] bcast_S_S1024 main_cst_34
  let main_v100 : IVec S1024 1 := cmpf .olt main_v98 main_v99
  let main_c_35 : IVec S_ 1 := constantI S_ 1 1#1
  let main_v101 : IVec S_ 1 := (fun x v => Host.reduce IntOp.andi x v reducesTo_S1024_S_d0 h_S_) main_v100 main_c_35
  let main_v102 : IVec S_ 1 := andi main_v97 main_v101
  let main_v103 : FVec F S1024x16 .f32 := (extf .f32 · bitsLt_bf16_f32) main_arg19
  let main_v104 : FVec F S1024x16 .f32 := Host.absf main_v103
  let main_cst_36 : FVec F S_ .f32 := constant S_ .f32 0x7F800000#32
  fn_part6 (F := F) main_arg20 main_v102 main_v104 main_cst_36

def fn_part4 {F : FTy → Type} [FloatOps F] (main_arg13 : FVec F S6400x2048 .bf16) (main_arg14 : FVec F S2048 .f32) (main_arg15 : FVec F S2048x512 .bf16) (main_arg16 : FVec F S512 .f32) (main_arg17 : FVec F S512x1024 .bf16) (main_arg18 : FVec F S1024 .f32) (main_arg19 : FVec F S1024x16 .bf16) (main_arg20 : FVec F S16 .f32) (main_v69 : IVec S_ 1) : IVec S_ 1 :=
  let main_v70 : FVec F S6400x2048 .f32 := (extf .f32 · bitsLt_bf16_f32) main_arg13
  let main_v71 : FVec F S6400x2048 .f32 := Host.absf main_v70
  let main_cst_24 : FVec F S_ .f32 := constant S_ .f32 0x7F800000#32
  let main_v72 : FVec F S6400x2048 .f32 := broadcastInDim S6400x2048 ![] bcast_S_S6400x2048 main_cst_24
  let main_v73 : IVec S6400x2048 1 := cmpf .olt main_v71 main_v72
  let main_c_25 : IVec S_ 1 := constantI S_ 1 1#1
  let main_v74 : IVec S_ 1 := (fun x v => Host.reduce IntOp.andi x v reducesTo_S6400x2048_S_d0_1 h_S_) main_v73 main_c_25
  let main_v75 : IVec S_ 1 := andi main_v69 main_v74
  let main_v76 : FVec F S2048 .f32 := Host.absf main_arg14
  let main_cst_26 : FVec F S_ .f32 := constant S_ .f32 0x7F800000#32
  let main_v77 : FVec F S2048 .f32 := broadcastInDim S2048 ![] bcast_S_S2048 main_cst_26
  let main_v78 : IVec S2048 1 := cmpf .olt main_v76 main_v77
  let main_c_27 : IVec S_ 1 := constantI S_ 1 1#1
  let main_v79 : IVec S_ 1 := (fun x v => Host.reduce IntOp.andi x v reducesTo_S2048_S_d0 h_S_) main_v78 main_c_27
  let main_v80 : IVec S_ 1 := andi main_v75 main_v79
  let main_v81 : FVec F S2048x512 .f32 := (extf .f32 · bitsLt_bf16_f32) main_arg15
  let main_v82 : FVec F S2048x512 .f32 := Host.absf main_v81
  let main_cst_28 : FVec F S_ .f32 := constant S_ .f32 0x7F800000#32
  let main_v83 : FVec F S2048x512 .f32 := broadcastInDim S2048x512 ![] bcast_S_S2048x512 main_cst_28
  let main_v84 : IVec S2048x512 1 := cmpf .olt main_v82 main_v83
  let main_c_29 : IVec S_ 1 := constantI S_ 1 1#1
  let main_v85 : IVec S_ 1 := (fun x v => Host.reduce IntOp.andi x v reducesTo_S2048x512_S_d0_1 h_S_) main_v84 main_c_29
  let main_v86 : IVec S_ 1 := andi main_v80 main_v85
  let main_v87 : FVec F S512 .f32 := Host.absf main_arg16
  fn_part5 (F := F) main_arg17 main_arg18 main_arg19 main_arg20 main_v86 main_v87

def fn_part3 {F : FTy → Type} [FloatOps F] (main_arg10 : FVec F S256 .f32) (main_arg11 : FVec F S6400x256 .bf16) (main_arg12 : FVec F S256 .f32) (main_arg13 : FVec F S6400x2048 .bf16) (main_arg14 : FVec F S2048 .f32) (main_arg15 : FVec F S2048x512 .bf16) (main_arg16 : FVec F S512 .f32) (main_arg17 : FVec F S512x1024 .bf16) (main_arg18 : FVec F S1024 .f32) (main_arg19 : FVec F S1024x16 .bf16) (main_arg20 : FVec F S16 .f32) (main_v47 : IVec S_ 1) (main_v51 : IVec S3200x256 1) (main_c_17 : IVec S_ 1) : IVec S_ 1 :=
  let main_v52 : IVec S_ 1 := (fun x v => Host.reduce IntOp.andi x v reducesTo_S3200x256_S_d0_1 h_S_) main_v51 main_c_17
  let main_v53 : IVec S_ 1 := andi main_v47 main_v52
  let main_v54 : FVec F S256 .f32 := Host.absf main_arg10
  let main_cst_18 : FVec F S_ .f32 := constant S_ .f32 0x7F800000#32
  let main_v55 : FVec F S256 .f32 := broadcastInDim S256 ![] bcast_S_S256 main_cst_18
  let main_v56 : IVec S256 1 := cmpf .olt main_v54 main_v55
  let main_c_19 : IVec S_ 1 := constantI S_ 1 1#1
  let main_v57 : IVec S_ 1 := (fun x v => Host.reduce IntOp.andi x v reducesTo_S256_S_d0 h_S_) main_v56 main_c_19
  let main_v58 : IVec S_ 1 := andi main_v53 main_v57
  let main_v59 : FVec F S6400x256 .f32 := (extf .f32 · bitsLt_bf16_f32) main_arg11
  let main_v60 : FVec F S6400x256 .f32 := Host.absf main_v59
  let main_cst_20 : FVec F S_ .f32 := constant S_ .f32 0x7F800000#32
  let main_v61 : FVec F S6400x256 .f32 := broadcastInDim S6400x256 ![] bcast_S_S6400x256 main_cst_20
  let main_v62 : IVec S6400x256 1 := cmpf .olt main_v60 main_v61
  let main_c_21 : IVec S_ 1 := constantI S_ 1 1#1
  let main_v63 : IVec S_ 1 := (fun x v => Host.reduce IntOp.andi x v reducesTo_S6400x256_S_d0_1 h_S_) main_v62 main_c_21
  let main_v64 : IVec S_ 1 := andi main_v58 main_v63
  let main_v65 : FVec F S256 .f32 := Host.absf main_arg12
  let main_cst_22 : FVec F S_ .f32 := constant S_ .f32 0x7F800000#32
  let main_v66 : FVec F S256 .f32 := broadcastInDim S256 ![] bcast_S_S256 main_cst_22
  let main_v67 : IVec S256 1 := cmpf .olt main_v65 main_v66
  let main_c_23 : IVec S_ 1 := constantI S_ 1 1#1
  let main_v68 : IVec S_ 1 := (fun x v => Host.reduce IntOp.andi x v reducesTo_S256_S_d0 h_S_) main_v67 main_c_23
  let main_v69 : IVec S_ 1 := andi main_v64 main_v68
  fn_part4 (F := F) main_arg13 main_arg14 main_arg15 main_arg16 main_arg17 main_arg18 main_arg19 main_arg20 main_v69

def fn_part2 {F : FTy → Type} [FloatOps F] (main_arg7 : FVec F S3200x128 .bf16) (main_arg8 : FVec F S128 .f32) (main_arg9 : FVec F S3200x256 .bf16) (main_arg10 : FVec F S256 .f32) (main_arg11 : FVec F S6400x256 .bf16) (main_arg12 : FVec F S256 .f32) (main_arg13 : FVec F S6400x2048 .bf16) (main_arg14 : FVec F S2048 .f32) (main_arg15 : FVec F S2048x512 .bf16) (main_arg16 : FVec F S512 .f32) (main_arg17 : FVec F S512x1024 .bf16) (main_arg18 : FVec F S1024 .f32) (main_arg19 : FVec F S1024x16 .bf16) (main_arg20 : FVec F S16 .f32) (main_v31 : IVec S_ 1) (main_v34 : IVec S128 1) : IVec S_ 1 :=
  let main_c_11 : IVec S_ 1 := constantI S_ 1 1#1
  let main_v35 : IVec S_ 1 := (fun x v => Host.reduce IntOp.andi x v reducesTo_S128_S_d0 h_S_) main_v34 main_c_11
  let main_v36 : IVec S_ 1 := andi main_v31 main_v35
  let main_v37 : FVec F S3200x128 .f32 := (extf .f32 · bitsLt_bf16_f32) main_arg7
  let main_v38 : FVec F S3200x128 .f32 := Host.absf main_v37
  let main_cst_12 : FVec F S_ .f32 := constant S_ .f32 0x7F800000#32
  let main_v39 : FVec F S3200x128 .f32 := broadcastInDim S3200x128 ![] bcast_S_S3200x128 main_cst_12
  let main_v40 : IVec S3200x128 1 := cmpf .olt main_v38 main_v39
  let main_c_13 : IVec S_ 1 := constantI S_ 1 1#1
  let main_v41 : IVec S_ 1 := (fun x v => Host.reduce IntOp.andi x v reducesTo_S3200x128_S_d0_1 h_S_) main_v40 main_c_13
  let main_v42 : IVec S_ 1 := andi main_v36 main_v41
  let main_v43 : FVec F S128 .f32 := Host.absf main_arg8
  let main_cst_14 : FVec F S_ .f32 := constant S_ .f32 0x7F800000#32
  let main_v44 : FVec F S128 .f32 := broadcastInDim S128 ![] bcast_S_S128 main_cst_14
  let main_v45 : IVec S128 1 := cmpf .olt main_v43 main_v44
  let main_c_15 : IVec S_ 1 := constantI S_ 1 1#1
  let main_v46 : IVec S_ 1 := (fun x v => Host.reduce IntOp.andi x v reducesTo_S128_S_d0 h_S_) main_v45 main_c_15
  let main_v47 : IVec S_ 1 := andi main_v42 main_v46
  let main_v48 : FVec F S3200x256 .f32 := (extf .f32 · bitsLt_bf16_f32) main_arg9
  let main_v49 : FVec F S3200x256 .f32 := Host.absf main_v48
  let main_cst_16 : FVec F S_ .f32 := constant S_ .f32 0x7F800000#32
  let main_v50 : FVec F S3200x256 .f32 := broadcastInDim S3200x256 ![] bcast_S_S3200x256 main_cst_16
  let main_v51 : IVec S3200x256 1 := cmpf .olt main_v49 main_v50
  let main_c_17 : IVec S_ 1 := constantI S_ 1 1#1
  fn_part3 (F := F) main_arg10 main_arg11 main_arg12 main_arg13 main_arg14 main_arg15 main_arg16 main_arg17 main_arg18 main_arg19 main_arg20 main_v47 main_v51 main_c_17

def fn_part1 {F : FTy → Type} [FloatOps F] (main_arg4 : FVec F S64 .f32) (main_arg5 : FVec F S1600x128 .bf16) (main_arg6 : FVec F S128 .f32) (main_arg7 : FVec F S3200x128 .bf16) (main_arg8 : FVec F S128 .f32) (main_arg9 : FVec F S3200x256 .bf16) (main_arg10 : FVec F S256 .f32) (main_arg11 : FVec F S6400x256 .bf16) (main_arg12 : FVec F S256 .f32) (main_arg13 : FVec F S6400x2048 .bf16) (main_arg14 : FVec F S2048 .f32) (main_arg15 : FVec F S2048x512 .bf16) (main_arg16 : FVec F S512 .f32) (main_arg17 : FVec F S512x1024 .bf16) (main_arg18 : FVec F S1024 .f32) (main_arg19 : FVec F S1024x16 .bf16) (main_arg20 : FVec F S16 .f32) (main_v14 : IVec S_ 1) (main_v16 : FVec F S1600x64 .f32) (main_cst_4 : FVec F S_ .f32) : IVec S_ 1 :=
  let main_v17 : FVec F S1600x64 .f32 := broadcastInDim S1600x64 ![] bcast_S_S1600x64 main_cst_4
  let main_v18 : IVec S1600x64 1 := cmpf .olt main_v16 main_v17
  let main_c_5 : IVec S_ 1 := constantI S_ 1 1#1
  let main_v19 : IVec S_ 1 := (fun x v => Host.reduce IntOp.andi x v reducesTo_S1600x64_S_d0_1 h_S_) main_v18 main_c_5
  let main_v20 : IVec S_ 1 := andi main_v14 main_v19
  let main_v21 : FVec F S64 .f32 := Host.absf main_arg4
  let main_cst_6 : FVec F S_ .f32 := constant S_ .f32 0x7F800000#32
  let main_v22 : FVec F S64 .f32 := broadcastInDim S64 ![] bcast_S_S64 main_cst_6
  let main_v23 : IVec S64 1 := cmpf .olt main_v21 main_v22
  let main_c_7 : IVec S_ 1 := constantI S_ 1 1#1
  let main_v24 : IVec S_ 1 := (fun x v => Host.reduce IntOp.andi x v reducesTo_S64_S_d0 h_S_) main_v23 main_c_7
  let main_v25 : IVec S_ 1 := andi main_v20 main_v24
  let main_v26 : FVec F S1600x128 .f32 := (extf .f32 · bitsLt_bf16_f32) main_arg5
  let main_v27 : FVec F S1600x128 .f32 := Host.absf main_v26
  let main_cst_8 : FVec F S_ .f32 := constant S_ .f32 0x7F800000#32
  let main_v28 : FVec F S1600x128 .f32 := broadcastInDim S1600x128 ![] bcast_S_S1600x128 main_cst_8
  let main_v29 : IVec S1600x128 1 := cmpf .olt main_v27 main_v28
  let main_c_9 : IVec S_ 1 := constantI S_ 1 1#1
  let main_v30 : IVec S_ 1 := (fun x v => Host.reduce IntOp.andi x v reducesTo_S1600x128_S_d0_1 h_S_) main_v29 main_c_9
  let main_v31 : IVec S_ 1 := andi main_v25 main_v30
  let main_v32 : FVec F S128 .f32 := Host.absf main_arg6
  let main_cst_10 : FVec F S_ .f32 := constant S_ .f32 0x7F800000#32
  let main_v33 : FVec F S128 .f32 := broadcastInDim S128 ![] bcast_S_S128 main_cst_10
  let main_v34 : IVec S128 1 := cmpf .olt main_v32 main_v33
  fn_part2 (F := F) main_arg7 main_arg8 main_arg9 main_arg10 main_arg11 main_arg12 main_arg13 main_arg14 main_arg15 main_arg16 main_arg17 main_arg18 main_arg19 main_arg20 main_v31 main_v34

def fn {F : FTy → Type} [FloatOps F] (main_arg0 : FVec F S8x16x64 .f32) (main_arg1 : FVec F S32x64 .bf16) (main_arg2 : FVec F S64 .f32) (main_arg3 : FVec F S1600x64 .bf16) (main_arg4 : FVec F S64 .f32) (main_arg5 : FVec F S1600x128 .bf16) (main_arg6 : FVec F S128 .f32) (main_arg7 : FVec F S3200x128 .bf16) (main_arg8 : FVec F S128 .f32) (main_arg9 : FVec F S3200x256 .bf16) (main_arg10 : FVec F S256 .f32) (main_arg11 : FVec F S6400x256 .bf16) (main_arg12 : FVec F S256 .f32) (main_arg13 : FVec F S6400x2048 .bf16) (main_arg14 : FVec F S2048 .f32) (main_arg15 : FVec F S2048x512 .bf16) (main_arg16 : FVec F S512 .f32) (main_arg17 : FVec F S512x1024 .bf16) (main_arg18 : FVec F S1024 .f32) (main_arg19 : FVec F S1024x16 .bf16) (main_arg20 : FVec F S16 .f32) : IVec S_ 1 :=
  let main_v0 : FVec F S8x16x64 .f32 := Host.absf main_arg0
  let main_cst : FVec F S_ .f32 := constant S_ .f32 0x7F800000#32
  let main_v1 : FVec F S8x16x64 .f32 := broadcastInDim S8x16x64 ![] bcast_S_S8x16x64 main_cst
  let main_v2 : IVec S8x16x64 1 := cmpf .olt main_v0 main_v1
  let main_c : IVec S_ 1 := constantI S_ 1 1#1
  let main_v3 : IVec S_ 1 := (fun x v => Host.reduce IntOp.andi x v reducesTo_S8x16x64_S_d0_1_2 h_S_) main_v2 main_c
  let main_v4 : FVec F S32x64 .f32 := (extf .f32 · bitsLt_bf16_f32) main_arg1
  let main_v5 : FVec F S32x64 .f32 := Host.absf main_v4
  let main_cst_0 : FVec F S_ .f32 := constant S_ .f32 0x7F800000#32
  let main_v6 : FVec F S32x64 .f32 := broadcastInDim S32x64 ![] bcast_S_S32x64 main_cst_0
  let main_v7 : IVec S32x64 1 := cmpf .olt main_v5 main_v6
  let main_c_1 : IVec S_ 1 := constantI S_ 1 1#1
  let main_v8 : IVec S_ 1 := (fun x v => Host.reduce IntOp.andi x v reducesTo_S32x64_S_d0_1 h_S_) main_v7 main_c_1
  let main_v9 : IVec S_ 1 := andi main_v3 main_v8
  let main_v10 : FVec F S64 .f32 := Host.absf main_arg2
  let main_cst_2 : FVec F S_ .f32 := constant S_ .f32 0x7F800000#32
  let main_v11 : FVec F S64 .f32 := broadcastInDim S64 ![] bcast_S_S64 main_cst_2
  let main_v12 : IVec S64 1 := cmpf .olt main_v10 main_v11
  let main_c_3 : IVec S_ 1 := constantI S_ 1 1#1
  let main_v13 : IVec S_ 1 := (fun x v => Host.reduce IntOp.andi x v reducesTo_S64_S_d0 h_S_) main_v12 main_c_3
  let main_v14 : IVec S_ 1 := andi main_v9 main_v13
  let main_v15 : FVec F S1600x64 .f32 := (extf .f32 · bitsLt_bf16_f32) main_arg3
  let main_v16 : FVec F S1600x64 .f32 := Host.absf main_v15
  let main_cst_4 : FVec F S_ .f32 := constant S_ .f32 0x7F800000#32
  fn_part1 (F := F) main_arg4 main_arg5 main_arg6 main_arg7 main_arg8 main_arg9 main_arg10 main_arg11 main_arg12 main_arg13 main_arg14 main_arg15 main_arg16 main_arg17 main_arg18 main_arg19 main_arg20 main_v14 main_v16 main_cst_4
-- ==== Kernel.lean ====
abbrev S8x16x64 : Shape := ⟨3, ![8, 16, 64]⟩
abbrev S32x64 : Shape := ⟨2, ![32, 64]⟩
abbrev S64 : Shape := ⟨1, ![64]⟩
abbrev S1600x64 : Shape := ⟨2, ![1600, 64]⟩
abbrev S1600x128 : Shape := ⟨2, ![1600, 128]⟩
abbrev S128 : Shape := ⟨1, ![128]⟩
abbrev S3200x128 : Shape := ⟨2, ![3200, 128]⟩
abbrev S3200x256 : Shape := ⟨2, ![3200, 256]⟩
abbrev S256 : Shape := ⟨1, ![256]⟩
abbrev S6400x256 : Shape := ⟨2, ![6400, 256]⟩
abbrev S6400x2048 : Shape := ⟨2, ![6400, 2048]⟩
abbrev S2048 : Shape := ⟨1, ![2048]⟩
abbrev S2048x512 : Shape := ⟨2, ![2048, 512]⟩
abbrev S512 : Shape := ⟨1, ![512]⟩
abbrev S512x1024 : Shape := ⟨2, ![512, 1024]⟩
abbrev S1024 : Shape := ⟨1, ![1024]⟩
abbrev S1024x16 : Shape := ⟨2, ![1024, 16]⟩
abbrev S16 : Shape := ⟨1, ![16]⟩
abbrev S_ : Shape := ⟨0, ![]⟩
abbrev S8x20x68 : Shape := ⟨3, ![8, 20, 68]⟩
abbrev S8x16x64x1 : Shape := ⟨4, ![8, 16, 64, 1]⟩
abbrev S8x16x64x16 : Shape := ⟨4, ![8, 16, 64, 16]⟩
abbrev S8x16x64x9 : Shape := ⟨4, ![8, 16, 64, 9]⟩
abbrev S8x16x64x25 : Shape := ⟨4, ![8, 16, 64, 25]⟩
abbrev S8x16x64x32 : Shape := ⟨4, ![8, 16, 64, 32]⟩
abbrev S8192x32 : Shape := ⟨2, ![8192, 32]⟩
abbrev S5x5x64x64 : Shape := ⟨4, ![5, 5, 64, 64]⟩
abbrev S5x64x5x64 : Shape := ⟨4, ![5, 64, 5, 64]⟩
abbrev S320x320 : Shape := ⟨2, ![320, 320]⟩
abbrev S5x5x64x128 : Shape := ⟨4, ![5, 5, 64, 128]⟩
abbrev S5x64x5x128 : Shape := ⟨4, ![5, 64, 5, 128]⟩
abbrev S320x640 : Shape := ⟨2, ![320, 640]⟩
abbrev S5x5x128x128 : Shape := ⟨4, ![5, 5, 128, 128]⟩
abbrev S5x128x5x128 : Shape := ⟨4, ![5, 128, 5, 128]⟩
abbrev S640x640 : Shape := ⟨2, ![640, 640]⟩
abbrev S1x64 : Shape := ⟨2, ![1, 64]⟩
abbrev S1x128 : Shape := ⟨2, ![1, 128]⟩
abbrev S8x16x4x128 : Shape := ⟨4, ![8, 16, 4, 128]⟩
abbrev S8x20x72x64 : Shape := ⟨4, ![8, 20, 72, 64]⟩
abbrev S9216x320 : Shape := ⟨2, ![9216, 320]⟩
abbrev S8x20x24x64 : Shape := ⟨4, ![8, 20, 24, 64]⟩
abbrev S3072x320 : Shape := ⟨2, ![3072, 320]⟩
abbrev S8x20x24x128 : Shape := ⟨4, ![8, 20, 24, 128]⟩
abbrev S3072x640 : Shape := ⟨2, ![3072, 640]⟩
abbrev S8192x64 : Shape := ⟨2, ![8192, 64]⟩
abbrev S8x16x64x64 : Shape := ⟨4, ![8, 16, 64, 64]⟩
abbrev S8x16x72x64 : Shape := ⟨4, ![8, 16, 72, 64]⟩
abbrev S9216x64 : Shape := ⟨2, ![9216, 64]⟩
abbrev S128x72x320 : Shape := ⟨3, ![128, 72, 320]⟩
abbrev S128x64x64 : Shape := ⟨3, ![128, 64, 64]⟩
abbrev S1x1x64 : Shape := ⟨3, ![1, 1, 64]⟩
abbrev S128x16x4x64 : Shape := ⟨4, ![128, 16, 4, 64]⟩
abbrev S128x16x64 : Shape := ⟨3, ![128, 16, 64]⟩
abbrev S8x16x16x64 : Shape := ⟨4, ![8, 16, 16, 64]⟩
abbrev S8x16x24x64 : Shape := ⟨4, ![8, 16, 24, 64]⟩
abbrev S3072x64 : Shape := ⟨2, ![3072, 64]⟩
abbrev S128x24x640 : Shape := ⟨3, ![128, 24, 640]⟩
abbrev S128x16x128 : Shape := ⟨3, ![128, 16, 128]⟩
abbrev S1x1x128 : Shape := ⟨3, ![1, 1, 128]⟩
abbrev S8x16x16x128 : Shape := ⟨4, ![8, 16, 16, 128]⟩
abbrev S8x16x24x128 : Shape := ⟨4, ![8, 16, 24, 128]⟩
abbrev S3072x128 : Shape := ⟨2, ![3072, 128]⟩
abbrev S128x4x4x128 : Shape := ⟨4, ![128, 4, 4, 128]⟩
abbrev S128x4x128 : Shape := ⟨3, ![128, 4, 128]⟩
abbrev S5x5x256x2048 : Shape := ⟨4, ![5, 5, 256, 2048]⟩
abbrev S5x1x256x2048 : Shape := ⟨4, ![5, 1, 256, 2048]⟩
abbrev S5x256x2048 : Shape := ⟨3, ![5, 256, 2048]⟩
abbrev S1280x2048 : Shape := ⟨2, ![1280, 2048]⟩
abbrev S5x5x128x256 : Shape := ⟨4, ![5, 5, 128, 256]⟩
abbrev S5x128x5x256 : Shape := ⟨4, ![5, 128, 5, 256]⟩
abbrev S640x1280 : Shape := ⟨2, ![640, 1280]⟩
abbrev S5x5x256x256 : Shape := ⟨4, ![5, 5, 256, 256]⟩
abbrev S5x256x5x256 : Shape := ⟨4, ![5, 256, 5, 256]⟩
abbrev S1280x1280 : Shape := ⟨2, ![1280, 1280]⟩
abbrev S1x256 : Shape := ⟨2, ![1, 256]⟩
abbrev S1x2048 : Shape := ⟨2, ![1, 2048]⟩
abbrev S1x512 : Shape := ⟨2, ![1, 512]⟩
abbrev S1x1024 : Shape := ⟨2, ![1, 1024]⟩
abbrev S1x16 : Shape := ⟨2, ![1, 16]⟩
abbrev S8x16 : Shape := ⟨2, ![8, 16]⟩
abbrev S8x20x8x128 : Shape := ⟨4, ![8, 20, 8, 128]⟩
abbrev S1024x640 : Shape := ⟨2, ![1024, 640]⟩
abbrev S8x20x8x256 : Shape := ⟨4, ![8, 20, 8, 256]⟩
abbrev S1024x1280 : Shape := ⟨2, ![1024, 1280]⟩
abbrev S8x24x256 : Shape := ⟨3, ![8, 24, 256]⟩
abbrev S128x1280 : Shape := ⟨2, ![128, 1280]⟩
abbrev S8x16x8x128 : Shape := ⟨4, ![8, 16, 8, 128]⟩
abbrev S1024x128 : Shape := ⟨2, ![1024, 128]⟩
abbrev S128x8x1280 : Shape := ⟨3, ![128, 8, 1280]⟩
abbrev S128x4x256 : Shape := ⟨3, ![128, 4, 256]⟩
abbrev S1x1x256 : Shape := ⟨3, ![1, 1, 256]⟩
abbrev S8x16x4x256 : Shape := ⟨4, ![8, 16, 4, 256]⟩
abbrev S8x16x8x256 : Shape := ⟨4, ![8, 16, 8, 256]⟩
abbrev S1024x256 : Shape := ⟨2, ![1024, 256]⟩
abbrev S128x256 : Shape := ⟨2, ![128, 256]⟩
abbrev S8x16x256 : Shape := ⟨3, ![8, 16, 256]⟩
abbrev S128x2048 : Shape := ⟨2, ![128, 2048]⟩
abbrev S8x16x2048 : Shape := ⟨3, ![8, 16, 2048]⟩
abbrev S8x2048 : Shape := ⟨2, ![8, 2048]⟩
abbrev S8x512 : Shape := ⟨2, ![8, 512]⟩
abbrev S8x1024 : Shape := ⟨2, ![8, 1024]⟩
abbrev S8 : Shape := ⟨1, ![8]⟩
abbrev S8x1 : Shape := ⟨2, ![8, 1]⟩

abbrev nBuf : Space → Nat
  | .hbm => 113
  | .vmem => 36
  | .smem => 0
  | _ => 0

abbrev bufTy : (tb : Table) → Fin (tcTables nBuf tb) → BufTy
  | .hbm, ⟨0, _⟩ => ⟨S8x16x64, .f32⟩
  | .hbm, ⟨1, _⟩ => ⟨S32x64, .bf16⟩
  | .hbm, ⟨2, _⟩ => ⟨S64, .f32⟩
  | .hbm, ⟨3, _⟩ => ⟨S1600x64, .bf16⟩
  | .hbm, ⟨4, _⟩ => ⟨S64, .f32⟩
  | .hbm, ⟨5, _⟩ => ⟨S1600x128, .bf16⟩
  | .hbm, ⟨6, _⟩ => ⟨S128, .f32⟩
  | .hbm, ⟨7, _⟩ => ⟨S3200x128, .bf16⟩
  | .hbm, ⟨8, _⟩ => ⟨S128, .f32⟩
  | .hbm, ⟨9, _⟩ => ⟨S3200x256, .bf16⟩
  | .hbm, ⟨10, _⟩ => ⟨S256, .f32⟩
  | .hbm, ⟨11, _⟩ => ⟨S6400x256, .bf16⟩
  | .hbm, ⟨12, _⟩ => ⟨S256, .f32⟩
  | .hbm, ⟨13, _⟩ => ⟨S6400x2048, .bf16⟩
  | .hbm, ⟨14, _⟩ => ⟨S2048, .f32⟩
  | .hbm, ⟨15, _⟩ => ⟨S2048x512, .bf16⟩
  | .hbm, ⟨16, _⟩ => ⟨S512, .f32⟩
  | .hbm, ⟨17, _⟩ => ⟨S512x1024, .bf16⟩
  | .hbm, ⟨18, _⟩ => ⟨S1024, .f32⟩
  | .hbm, ⟨19, _⟩ => ⟨S1024x16, .bf16⟩
  | .hbm, ⟨20, _⟩ => ⟨S16, .f32⟩
  | .hbm, ⟨21, _⟩ => ⟨S_, .i32⟩
  | .hbm, ⟨22, _⟩ => ⟨S_, .f32⟩
  | .hbm, ⟨23, _⟩ => ⟨S8x20x68, .f32⟩
  | .hbm, ⟨24, _⟩ => ⟨S8x16x64, .f32⟩
  | .hbm, ⟨25, _⟩ => ⟨S8x16x64, .f32⟩
  | .hbm, ⟨26, _⟩ => ⟨S8x16x64, .f32⟩
  | .hbm, ⟨27, _⟩ => ⟨S8x16x64, .f32⟩
  | .hbm, ⟨28, _⟩ => ⟨S8x16x64, .f32⟩
  | .hbm, ⟨29, _⟩ => ⟨S8x16x64, .f32⟩
  | .hbm, ⟨30, _⟩ => ⟨S8x16x64, .f32⟩
  | .hbm, ⟨31, _⟩ => ⟨S8x16x64, .f32⟩
  | .hbm, ⟨32, _⟩ => ⟨S8x16x64, .f32⟩
  | .hbm, ⟨33, _⟩ => ⟨S8x16x64, .f32⟩
  | .hbm, ⟨34, _⟩ => ⟨S8x16x64, .f32⟩
  | .hbm, ⟨35, _⟩ => ⟨S8x16x64, .f32⟩
  | .hbm, ⟨36, _⟩ => ⟨S8x16x64, .f32⟩
  | .hbm, ⟨37, _⟩ => ⟨S8x16x64, .f32⟩
  | .hbm, ⟨38, _⟩ => ⟨S8x16x64, .f32⟩
  | .hbm, ⟨39, _⟩ => ⟨S8x16x64, .f32⟩
  | .hbm, ⟨40, _⟩ => ⟨S8x16x64, .f32⟩
  | .hbm, ⟨41, _⟩ => ⟨S8x16x64, .f32⟩
  | .hbm, ⟨42, _⟩ => ⟨S8x16x64, .f32⟩
  | .hbm, ⟨43, _⟩ => ⟨S8x16x64, .f32⟩
  | .hbm, ⟨44, _⟩ => ⟨S8x16x64, .f32⟩
  | .hbm, ⟨45, _⟩ => ⟨S8x16x64, .f32⟩
  | .hbm, ⟨46, _⟩ => ⟨S8x16x64, .f32⟩
  | .hbm, ⟨47, _⟩ => ⟨S8x16x64, .f32⟩
  | .hbm, ⟨48, _⟩ => ⟨S8x16x64, .f32⟩
  | .hbm, ⟨49, _⟩ => ⟨S8x16x64x1, .f32⟩
  | .hbm, ⟨50, _⟩ => ⟨S8x16x64x1, .f32⟩
  | .hbm, ⟨51, _⟩ => ⟨S8x16x64x1, .f32⟩
  | .hbm, ⟨52, _⟩ => ⟨S8x16x64x1, .f32⟩
  | .hbm, ⟨53, _⟩ => ⟨S8x16x64x1, .f32⟩
  | .hbm, ⟨54, _⟩ => ⟨S8x16x64x1, .f32⟩
  | .hbm, ⟨55, _⟩ => ⟨S8x16x64x1, .f32⟩
  | .hbm, ⟨56, _⟩ => ⟨S8x16x64x1, .f32⟩
  | .hbm, ⟨57, _⟩ => ⟨S8x16x64x1, .f32⟩
  | .hbm, ⟨58, _⟩ => ⟨S8x16x64x1, .f32⟩
  | .hbm, ⟨59, _⟩ => ⟨S8x16x64x1, .f32⟩
  | .hbm, ⟨60, _⟩ => ⟨S8x16x64x1, .f32⟩
  | .hbm, ⟨61, _⟩ => ⟨S8x16x64x1, .f32⟩
  | .hbm, ⟨62, _⟩ => ⟨S8x16x64x1, .f32⟩
  | .hbm, ⟨63, _⟩ => ⟨S8x16x64x1, .f32⟩
  | .hbm, ⟨64, _⟩ => ⟨S8x16x64x1, .f32⟩
  | .hbm, ⟨65, _⟩ => ⟨S8x16x64x1, .f32⟩
  | .hbm, ⟨66, _⟩ => ⟨S8x16x64x1, .f32⟩
  | .hbm, ⟨67, _⟩ => ⟨S8x16x64x1, .f32⟩
  | .hbm, ⟨68, _⟩ => ⟨S8x16x64x1, .f32⟩
  | .hbm, ⟨69, _⟩ => ⟨S8x16x64x1, .f32⟩
  | .hbm, ⟨70, _⟩ => ⟨S8x16x64x1, .f32⟩
  | .hbm, ⟨71, _⟩ => ⟨S8x16x64x1, .f32⟩
  | .hbm, ⟨72, _⟩ => ⟨S8x16x64x1, .f32⟩
  | .hbm, ⟨73, _⟩ => ⟨S8x16x64x1, .f32⟩
  | .hbm, ⟨74, _⟩ => ⟨S8x16x64x16, .f32⟩
  | .hbm, ⟨75, _⟩ => ⟨S8x16x64x9, .f32⟩
  | .hbm, ⟨76, _⟩ => ⟨S8x16x64x25, .f32⟩
  | .hbm, ⟨77, _⟩ => ⟨S_, .i32⟩
  | .hbm, ⟨78, _⟩ => ⟨S_, .f32⟩
  | .hbm, ⟨79, _⟩ => ⟨S8x16x64x32, .f32⟩
  | .hbm, ⟨80, _⟩ => ⟨S8x16x64x32, .bf16⟩
  | .hbm, ⟨81, _⟩ => ⟨S8192x32, .bf16⟩
  | .hbm, ⟨82, _⟩ => ⟨S5x5x64x64, .bf16⟩
  | .hbm, ⟨83, _⟩ => ⟨S5x64x5x64, .bf16⟩
  | .hbm, ⟨84, _⟩ => ⟨S320x320, .bf16⟩
  | .hbm, ⟨85, _⟩ => ⟨S5x5x64x128, .bf16⟩
  | .hbm, ⟨86, _⟩ => ⟨S5x64x5x128, .bf16⟩
  | .hbm, ⟨87, _⟩ => ⟨S320x640, .bf16⟩
  | .hbm, ⟨88, _⟩ => ⟨S5x5x128x128, .bf16⟩
  | .hbm, ⟨89, _⟩ => ⟨S5x128x5x128, .bf16⟩
  | .hbm, ⟨90, _⟩ => ⟨S640x640, .bf16⟩
  | .hbm, ⟨91, _⟩ => ⟨S1x64, .f32⟩
  | .hbm, ⟨92, _⟩ => ⟨S1x64, .f32⟩
  | .hbm, ⟨93, _⟩ => ⟨S1x128, .f32⟩
  | .hbm, ⟨94, _⟩ => ⟨S1x128, .f32⟩
  | .hbm, ⟨95, _⟩ => ⟨S8x16x4x128, .bf16⟩
  | .hbm, ⟨96, _⟩ => ⟨S5x5x256x2048, .bf16⟩
  | .hbm, ⟨97, _⟩ => ⟨S5x1x256x2048, .bf16⟩
  | .hbm, ⟨98, _⟩ => ⟨S5x256x2048, .bf16⟩
  | .hbm, ⟨99, _⟩ => ⟨S1280x2048, .bf16⟩
  | .hbm, ⟨100, _⟩ => ⟨S5x5x128x256, .bf16⟩
  | .hbm, ⟨101, _⟩ => ⟨S5x128x5x256, .bf16⟩
  | .hbm, ⟨102, _⟩ => ⟨S640x1280, .bf16⟩
  | .hbm, ⟨103, _⟩ => ⟨S5x5x256x256, .bf16⟩
  | .hbm, ⟨104, _⟩ => ⟨S5x256x5x256, .bf16⟩
  | .hbm, ⟨105, _⟩ => ⟨S1280x1280, .bf16⟩
  | .hbm, ⟨106, _⟩ => ⟨S1x256, .f32⟩
  | .hbm, ⟨107, _⟩ => ⟨S1x256, .f32⟩
  | .hbm, ⟨108, _⟩ => ⟨S1x2048, .f32⟩
  | .hbm, ⟨109, _⟩ => ⟨S1x512, .f32⟩
  | .hbm, ⟨110, _⟩ => ⟨S1x1024, .f32⟩
  | .hbm, ⟨111, _⟩ => ⟨S1x16, .f32⟩
  | .hbm, ⟨112, _⟩ => ⟨S8x16, .f32⟩
  | .local _ .vmem, ⟨0, _⟩ => ⟨S8192x32, .bf16⟩
  | .local _ .vmem, ⟨1, _⟩ => ⟨S32x64, .bf16⟩
  | .local _ .vmem, ⟨2, _⟩ => ⟨S1x64, .f32⟩
  | .local _ .vmem, ⟨3, _⟩ => ⟨S320x320, .bf16⟩
  | .local _ .vmem, ⟨4, _⟩ => ⟨S1x64, .f32⟩
  | .local _ .vmem, ⟨5, _⟩ => ⟨S320x640, .bf16⟩
  | .local _ .vmem, ⟨6, _⟩ => ⟨S1x128, .f32⟩
  | .local _ .vmem, ⟨7, _⟩ => ⟨S640x640, .bf16⟩
  | .local _ .vmem, ⟨8, _⟩ => ⟨S1x128, .f32⟩
  | .local _ .vmem, ⟨9, _⟩ => ⟨S8x16x4x128, .bf16⟩
  | .local _ .vmem, ⟨10, _⟩ => ⟨S8x20x72x64, .bf16⟩
  | .local _ .vmem, ⟨11, _⟩ => ⟨S9216x320, .bf16⟩
  | .local _ .vmem, ⟨12, _⟩ => ⟨S8x20x24x64, .bf16⟩
  | .local _ .vmem, ⟨13, _⟩ => ⟨S3072x320, .bf16⟩
  | .local _ .vmem, ⟨14, _⟩ => ⟨S8x20x24x128, .bf16⟩
  | .local _ .vmem, ⟨15, _⟩ => ⟨S3072x640, .bf16⟩
  | .local _ .vmem, ⟨16, _⟩ => ⟨S8x16x4x128, .bf16⟩
  | .local _ .vmem, ⟨17, _⟩ => ⟨S640x1280, .bf16⟩
  | .local _ .vmem, ⟨18, _⟩ => ⟨S1x256, .f32⟩
  | .local _ .vmem, ⟨19, _⟩ => ⟨S1280x1280, .bf16⟩
  | .local _ .vmem, ⟨20, _⟩ => ⟨S1x256, .f32⟩
  | .local _ .vmem, ⟨21, _⟩ => ⟨S1280x2048, .bf16⟩
  | .local _ .vmem, ⟨22, _⟩ => ⟨S1x2048, .f32⟩
  | .local _ .vmem, ⟨23, _⟩ => ⟨S2048x512, .bf16⟩
  | .local _ .vmem, ⟨24, _⟩ => ⟨S1x512, .f32⟩
  | .local _ .vmem, ⟨25, _⟩ => ⟨S512x1024, .bf16⟩
  | .local _ .vmem, ⟨26, _⟩ => ⟨S1x1024, .f32⟩
  | .local _ .vmem, ⟨27, _⟩ => ⟨S1024x16, .bf16⟩
  | .local _ .vmem, ⟨28, _⟩ => ⟨S1x16, .f32⟩
  | .local _ .vmem, ⟨29, _⟩ => ⟨S8x16, .f32⟩
  | .local _ .vmem, ⟨30, _⟩ => ⟨S8x20x8x128, .bf16⟩
  | .local _ .vmem, ⟨31, _⟩ => ⟨S1024x640, .bf16⟩
  | .local _ .vmem, ⟨32, _⟩ => ⟨S8x20x8x256, .bf16⟩
  | .local _ .vmem, ⟨33, _⟩ => ⟨S1024x1280, .bf16⟩
  | .local _ .vmem, ⟨34, _⟩ => ⟨S8x24x256, .bf16⟩
  | .local _ .vmem, ⟨35, _⟩ => ⟨S128x1280, .bf16⟩
  | _, _ => ⟨S8x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_call0_v0 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_0 : Ref sig .tc := ⟨.hbm, 77, rfl⟩
abbrev main_call1_v0 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg11_0 : Ref sig .tc := ⟨.vmem, 27, rfl⟩
abbrev cc1_stg12_0 : Ref sig .tc := ⟨.vmem, 28, rfl⟩
abbrev cc1_stg13_0 : Ref sig .tc := ⟨.vmem, 29, rfl⟩
abbrev cc1_scratch0 : Ref sig .tc := ⟨.vmem, 30, rfl⟩
abbrev cc1_scratch1 : Ref sig .tc := ⟨.vmem, 31, rfl⟩
abbrev cc1_scratch2 : Ref sig .tc := ⟨.vmem, 32, rfl⟩
abbrev cc1_scratch3 : Ref sig .tc := ⟨.vmem, 33, rfl⟩
abbrev cc1_scratch4 : Ref sig .tc := ⟨.vmem, 34, rfl⟩
abbrev cc1_scratch5 : Ref sig .tc := ⟨.vmem, 35, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21
abbrev cc1_sem12_0 : DmaSem sig := 22
abbrev cc1_sem13_0 : DmaSem sig := 23

abbrev nD : Nat := 1
abbrev τ : Topo := Topo.v7x

variable {F : FTy → Type} [FloatOps F]

abbrev grid0 : Pipeline.Grid := .none

abbrev stage0_0 : Fin 1 → Memref sig .tc .vmem S8192x32 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S320x320 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S320x640 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S640x640 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x16x4x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev grid1 : Pipeline.Grid := .none

abbrev stage1_0 : Fin 1 → Memref sig .tc .vmem S8x16x4x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S640x1280 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1280x1280 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1280x2048 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S2048x512 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S512x1024 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S1024x16 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S1x16 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev stage1_13 : Fin 1 → Memref sig .tc .vmem S8x16 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))

class Facts₀ : Prop where
  pads_S8x16x64_S8x20x68_000_220_220 : S8x16x64.Pads (![0, 2, 2] : Fin 3 → Nat) ![0, 2, 2] ![0, 0, 0] S8x20x68
  h_S_ : 0 < S_.numel
  slices_S8x20x68_S8x16x64_0_0_0 : S8x20x68.Slices ![0, 0, 0] S8x16x64
  slices_S8x20x68_S8x16x64_0_0_1 : S8x20x68.Slices ![0, 0, 1] S8x16x64
  slices_S8x20x68_S8x16x64_0_0_2 : S8x20x68.Slices ![0, 0, 2] S8x16x64
  slices_S8x20x68_S8x16x64_0_0_3 : S8x20x68.Slices ![0, 0, 3] S8x16x64
  slices_S8x20x68_S8x16x64_0_0_4 : S8x20x68.Slices ![0, 0, 4] S8x16x64
  slices_S8x20x68_S8x16x64_0_1_0 : S8x20x68.Slices ![0, 1, 0] S8x16x64
  slices_S8x20x68_S8x16x64_0_1_1 : S8x20x68.Slices ![0, 1, 1] S8x16x64
  slices_S8x20x68_S8x16x64_0_1_2 : S8x20x68.Slices ![0, 1, 2] S8x16x64
  slices_S8x20x68_S8x16x64_0_1_3 : S8x20x68.Slices ![0, 1, 3] S8x16x64
  slices_S8x20x68_S8x16x64_0_1_4 : S8x20x68.Slices ![0, 1, 4] S8x16x64
  slices_S8x20x68_S8x16x64_0_2_0 : S8x20x68.Slices ![0, 2, 0] S8x16x64
  slices_S8x20x68_S8x16x64_0_2_1 : S8x20x68.Slices ![0, 2, 1] S8x16x64
  slices_S8x20x68_S8x16x64_0_2_2 : S8x20x68.Slices ![0, 2, 2] S8x16x64
  slices_S8x20x68_S8x16x64_0_2_3 : S8x20x68.Slices ![0, 2, 3] S8x16x64
  slices_S8x20x68_S8x16x64_0_2_4 : S8x20x68.Slices ![0, 2, 4] S8x16x64
  slices_S8x20x68_S8x16x64_0_3_0 : S8x20x68.Slices ![0, 3, 0] S8x16x64
  slices_S8x20x68_S8x16x64_0_3_1 : S8x20x68.Slices ![0, 3, 1] S8x16x64
  slices_S8x20x68_S8x16x64_0_3_2 : S8x20x68.Slices ![0, 3, 2] S8x16x64
  slices_S8x20x68_S8x16x64_0_3_3 : S8x20x68.Slices ![0, 3, 3] S8x16x64
  slices_S8x20x68_S8x16x64_0_3_4 : S8x20x68.Slices ![0, 3, 4] S8x16x64
  slices_S8x20x68_S8x16x64_0_4_0 : S8x20x68.Slices ![0, 4, 0] S8x16x64
  slices_S8x20x68_S8x16x64_0_4_1 : S8x20x68.Slices ![0, 4, 1] S8x16x64
  slices_S8x20x68_S8x16x64_0_4_2 : S8x20x68.Slices ![0, 4, 2] S8x16x64
  slices_S8x20x68_S8x16x64_0_4_3 : S8x20x68.Slices ![0, 4, 3] S8x16x64
  slices_S8x20x68_S8x16x64_0_4_4 : S8x20x68.Slices ![0, 4, 4] S8x16x64
  bcast_S8x16x64_S8x16x64x1_0_1_2 : S8x16x64.BroadcastsInDim S8x16x64x1 (![0, 1, 2] : Fin 3 → Fin S8x16x64x1.rank)
  concatenates_S8x16x64x1_S8x16x64x1_S8x16x64x1_S8x16x64x1_S8x16x64x1_S8x16x64x1_S8x16x64x1_S8x16x64x1_S8x16x64x1_S8x16x64x1_S8x16x64x1_S8x16x64x1_S8x16x64x1_S8x16x64x1_S8x16x64x1_S8x16x64x1_S8x16x64x16_d3 : Shape.Concatenates [S8x16x64x1, S8x16x64x1, S8x16x64x1, S8x16x64x1, S8x16x64x1, S8x16x64x1, S8x16x64x1, S8x16x64x1, S8x16x64x1, S8x16x64x1, S8x16x64x1, S8x16x64x1, S8x16x64x1, S8x16x64x1, S8x16x64x1, S8x16x64x1] S8x16x64x16 3
  concatenates_S8x16x64x1_S8x16x64x1_S8x16x64x1_S8x16x64x1_S8x16x64x1_S8x16x64x1_S8x16x64x1_S8x16x64x1_S8x16x64x1_S8x16x64x9_d3 : Shape.Concatenates [S8x16x64x1, S8x16x64x1, S8x16x64x1, S8x16x64x1, S8x16x64x1, S8x16x64x1, S8x16x64x1, S8x16x64x1, S8x16x64x1] S8x16x64x9 3
  concatenates_S8x16x64x16_S8x16x64x9_S8x16x64x25_d3 : Shape.Concatenates [S8x16x64x16, S8x16x64x9] S8x16x64x25 3
  pads_S8x16x64x25_S8x16x64x32_000_000_000_070 : S8x16x64x25.Pads (![0, 0, 0, 0] : Fin 4 → Nat) ![0, 0, 0, 7] ![0, 0, 0, 0] S8x16x64x32
  bitsLt_bf16_f32 : FTy.bits .bf16 < FTy.bits .f32
  shapeCasts_S8x16x64x32_S8192x32 : S8x16x64x32.ShapeCasts S8192x32
  shapeCasts_S1600x64_S5x5x64x64 : S1600x64.ShapeCasts S5x5x64x64
  transposes_S5x5x64x64_S5x64x5x64_0_2_1_3 : S5x5x64x64.Transposes [0, 2, 1, 3] S5x64x5x64
  shapeCasts_S5x64x5x64_S320x320 : S5x64x5x64.ShapeCasts S320x320
  shapeCasts_S1600x128_S5x5x64x128 : S1600x128.ShapeCasts S5x5x64x128
  transposes_S5x5x64x128_S5x64x5x128_0_2_1_3 : S5x5x64x128.Transposes [0, 2, 1, 3] S5x64x5x128
  shapeCasts_S5x64x5x128_S320x640 : S5x64x5x128.ShapeCasts S320x640
  shapeCasts_S3200x128_S5x5x128x128 : S3200x128.ShapeCasts S5x5x128x128
  transposes_S5x5x128x128_S5x128x5x128_0_2_1_3 : S5x5x128x128.Transposes [0, 2, 1, 3] S5x128x5x128
  shapeCasts_S5x128x5x128_S640x640 : S5x128x5x128.ShapeCasts S640x640
  shapeCasts_S64_S1x64 : S64.ShapeCasts S1x64
  shapeCasts_S128_S1x128 : S128.ShapeCasts S1x128
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  inb_S8x20x72x64_S8x20x72x64_0_0_0_0 : ∀ a, (![0, 0, 0, 0] : Fin 4 → Nat) a + S8x20x72x64.size a ≤ S8x20x72x64.size a
  h_S8x20x72x64 : 0 < S8x20x72x64.numel
  shapeCasts_S8x20x72x64_S8x20x72x64 : S8x20x72x64.ShapeCasts S8x20x72x64
  packedbf16_S8x20x72x64_S8x20x72x64_0_0_0_0 : (Rect.unit (s := S8x20x72x64) ![0, 0, 0, 0] S8x20x72x64.size inb_S8x20x72x64_S8x20x72x64_0_0_0_0).PackedRows (EltTy.packing .bf16)
  shapeCasts_S8192x64_S8x16x64x64 : S8192x64.ShapeCasts S8x16x64x64
  inb_S8x20x72x64_S8x16x64x64_0_2_2_0 : ∀ a, (![0, 2, 2, 0] : Fin 4 → Nat) a + S8x16x64x64.size a ≤ S8x20x72x64.size a
  h_S8x16x64x64 : 0 < S8x16x64x64.numel
  shapeCasts_S8x16x64x64_S8x16x64x64 : S8x16x64x64.ShapeCasts S8x16x64x64
  packedbf16_S8x20x72x64_S8x16x64x64_0_2_2_0 : (Rect.unit (s := S8x20x72x64) ![0, 2, 2, 0] S8x16x64x64.size inb_S8x20x72x64_S8x16x64x64_0_2_2_0).PackedRows (EltTy.packing .bf16)
  inb_S8x20x72x64_S8x16x72x64_0_0_0_0 : ∀ a, (![0, 0, 0, 0] : Fin 4 → Nat) a + S8x16x72x64.size a ≤ S8x20x72x64.size a
  h_S8x16x72x64 : 0 < S8x16x72x64.numel
  shapeCasts_S8x16x72x64_S9216x64 : S8x16x72x64.ShapeCasts S9216x64
  inb_S9216x320_S9216x64_0_0 : ∀ a, (![0, 0] : Fin 2 → Nat) a + S9216x64.size a ≤ S9216x320.size a
  h_S9216x64 : 0 < S9216x64.numel
  shapeCasts_S9216x64_S9216x64 : S9216x64.ShapeCasts S9216x64
  packedbf16_S9216x320_S9216x64_0_0 : (Rect.unit (s := S9216x320) ![0, 0] S9216x64.size inb_S9216x320_S9216x64_0_0).PackedRows (EltTy.packing .bf16)
  inb_S8x20x72x64_S8x16x72x64_0_1_0_0 : ∀ a, (![0, 1, 0, 0] : Fin 4 → Nat) a + S8x16x72x64.size a ≤ S8x20x72x64.size a
  inb_S9216x320_S9216x64_0_64 : ∀ a, (![0, 64] : Fin 2 → Nat) a + S9216x64.size a ≤ S9216x320.size a
  packedbf16_S9216x320_S9216x64_0_64 : (Rect.unit (s := S9216x320) ![0, 64] S9216x64.size inb_S9216x320_S9216x64_0_64).PackedRows (EltTy.packing .bf16)
  inb_S8x20x72x64_S8x16x72x64_0_2_0_0 : ∀ a, (![0, 2, 0, 0] : Fin 4 → Nat) a + S8x16x72x64.size a ≤ S8x20x72x64.size a
  inb_S9216x320_S9216x64_0_128 : ∀ a, (![0, 128] : Fin 2 → Nat) a + S9216x64.size a ≤ S9216x320.size a
  packedbf16_S9216x320_S9216x64_0_128 : (Rect.unit (s := S9216x320) ![0, 128] S9216x64.size inb_S9216x320_S9216x64_0_128).PackedRows (EltTy.packing .bf16)
  inb_S8x20x72x64_S8x16x72x64_0_3_0_0 : ∀ a, (![0, 3, 0, 0] : Fin 4 → Nat) a + S8x16x72x64.size a ≤ S8x20x72x64.size a
  inb_S9216x320_S9216x64_0_192 : ∀ a, (![0, 192] : Fin 2 → Nat) a + S9216x64.size a ≤ S9216x320.size a
  packedbf16_S9216x320_S9216x64_0_192 : (Rect.unit (s := S9216x320) ![0, 192] S9216x64.size inb_S9216x320_S9216x64_0_192).PackedRows (EltTy.packing .bf16)
  inb_S8x20x72x64_S8x16x72x64_0_4_0_0 : ∀ a, (![0, 4, 0, 0] : Fin 4 → Nat) a + S8x16x72x64.size a ≤ S8x20x72x64.size a
  inb_S9216x320_S9216x64_0_256 : ∀ a, (![0, 256] : Fin 2 → Nat) a + S9216x64.size a ≤ S9216x320.size a
  packedbf16_S9216x320_S9216x64_0_256 : (Rect.unit (s := S9216x320) ![0, 256] S9216x64.size inb_S9216x320_S9216x64_0_256).PackedRows (EltTy.packing .bf16)
  inb_S9216x320_S9216x320_0_0 : ∀ a, (![0, 0] : Fin 2 → Nat) a + S9216x320.size a ≤ S9216x320.size a
  h_S9216x320 : 0 < S9216x320.numel
  inb_S320x320_S320x320_0_0 : ∀ a, (![0, 0] : Fin 2 → Nat) a + S320x320.size a ≤ S320x320.size a
  h_S320x320 : 0 < S320x320.numel
  shapeCasts_S320x320_S320x320 : S320x320.ShapeCasts S320x320
  shapeCasts_S9216x320_S128x72x320 : S9216x320.ShapeCasts S128x72x320
  slices_S128x72x320_o0_0_0_S128x64x64 : S128x72x320.Slices ![0, 0, 0] S128x64x64
  slices_S128x72x320_o0_1_64_S128x64x64 : S128x72x320.Slices ![0, 1, 64] S128x64x64
  slices_S128x72x320_o0_2_128_S128x64x64 : S128x72x320.Slices ![0, 2, 128] S128x64x64
  slices_S128x72x320_o0_3_192_S128x64x64 : S128x72x320.Slices ![0, 3, 192] S128x64x64
  slices_S128x72x320_o0_4_256_S128x64x64 : S128x72x320.Slices ![0, 4, 256] S128x64x64
  shapeCasts_S1x64_S1x1x64 : S1x64.ShapeCasts S1x1x64
  broadcasts_S1x1x64_S128x64x64 : S1x1x64.Broadcasts S128x64x64
  shapeCasts_S128x64x64_S128x16x4x64 : S128x64x64.ShapeCasts S128x16x4x64
  reduces_S128x16x4x64_S128x16x64 : S128x16x4x64.Reduces [2] S128x16x64
  inb_S8x20x24x64_S8x20x24x64_0_0_0_0 : ∀ a, (![0, 0, 0, 0] : Fin 4 → Nat) a + S8x20x24x64.size a ≤ S8x20x24x64.size a
  h_S8x20x24x64 : 0 < S8x20x24x64.numel
  shapeCasts_S8x20x24x64_S8x20x24x64 : S8x20x24x64.ShapeCasts S8x20x24x64
  packedbf16_S8x20x24x64_S8x20x24x64_0_0_0_0 : (Rect.unit (s := S8x20x24x64) ![0, 0, 0, 0] S8x20x24x64.size inb_S8x20x24x64_S8x20x24x64_0_0_0_0).PackedRows (EltTy.packing .bf16)
  shapeCasts_S128x16x64_S8x16x16x64 : S128x16x64.ShapeCasts S8x16x16x64
  inb_S8x20x24x64_S8x16x16x64_0_2_2_0 : ∀ a, (![0, 2, 2, 0] : Fin 4 → Nat) a + S8x16x16x64.size a ≤ S8x20x24x64.size a
  h_S8x16x16x64 : 0 < S8x16x16x64.numel
  shapeCasts_S8x16x16x64_S8x16x16x64 : S8x16x16x64.ShapeCasts S8x16x16x64
  packedbf16_S8x20x24x64_S8x16x16x64_0_2_2_0 : (Rect.unit (s := S8x20x24x64) ![0, 2, 2, 0] S8x16x16x64.size inb_S8x20x24x64_S8x16x16x64_0_2_2_0).PackedRows (EltTy.packing .bf16)
  inb_S8x20x24x64_S8x16x24x64_0_0_0_0 : ∀ a, (![0, 0, 0, 0] : Fin 4 → Nat) a + S8x16x24x64.size a ≤ S8x20x24x64.size a
  h_S8x16x24x64 : 0 < S8x16x24x64.numel
  shapeCasts_S8x16x24x64_S3072x64 : S8x16x24x64.ShapeCasts S3072x64
  inb_S3072x320_S3072x64_0_0 : ∀ a, (![0, 0] : Fin 2 → Nat) a + S3072x64.size a ≤ S3072x320.size a
  h_S3072x64 : 0 < S3072x64.numel
  shapeCasts_S3072x64_S3072x64 : S3072x64.ShapeCasts S3072x64
  packedbf16_S3072x320_S3072x64_0_0 : (Rect.unit (s := S3072x320) ![0, 0] S3072x64.size inb_S3072x320_S3072x64_0_0).PackedRows (EltTy.packing .bf16)
  inb_S8x20x24x64_S8x16x24x64_0_1_0_0 : ∀ a, (![0, 1, 0, 0] : Fin 4 → Nat) a + S8x16x24x64.size a ≤ S8x20x24x64.size a
  inb_S3072x320_S3072x64_0_64 : ∀ a, (![0, 64] : Fin 2 → Nat) a + S3072x64.size a ≤ S3072x320.size a
  packedbf16_S3072x320_S3072x64_0_64 : (Rect.unit (s := S3072x320) ![0, 64] S3072x64.size inb_S3072x320_S3072x64_0_64).PackedRows (EltTy.packing .bf16)
  inb_S8x20x24x64_S8x16x24x64_0_2_0_0 : ∀ a, (![0, 2, 0, 0] : Fin 4 → Nat) a + S8x16x24x64.size a ≤ S8x20x24x64.size a
  inb_S3072x320_S3072x64_0_128 : ∀ a, (![0, 128] : Fin 2 → Nat) a + S3072x64.size a ≤ S3072x320.size a
  packedbf16_S3072x320_S3072x64_0_128 : (Rect.unit (s := S3072x320) ![0, 128] S3072x64.size inb_S3072x320_S3072x64_0_128).PackedRows (EltTy.packing .bf16)
  inb_S8x20x24x64_S8x16x24x64_0_3_0_0 : ∀ a, (![0, 3, 0, 0] : Fin 4 → Nat) a + S8x16x24x64.size a ≤ S8x20x24x64.size a
  inb_S3072x320_S3072x64_0_192 : ∀ a, (![0, 192] : Fin 2 → Nat) a + S3072x64.size a ≤ S3072x320.size a
  packedbf16_S3072x320_S3072x64_0_192 : (Rect.unit (s := S3072x320) ![0, 192] S3072x64.size inb_S3072x320_S3072x64_0_192).PackedRows (EltTy.packing .bf16)
  inb_S8x20x24x64_S8x16x24x64_0_4_0_0 : ∀ a, (![0, 4, 0, 0] : Fin 4 → Nat) a + S8x16x24x64.size a ≤ S8x20x24x64.size a
  inb_S3072x320_S3072x64_0_256 : ∀ a, (![0, 256] : Fin 2 → Nat) a + S3072x64.size a ≤ S3072x320.size a
  packedbf16_S3072x320_S3072x64_0_256 : (Rect.unit (s := S3072x320) ![0, 256] S3072x64.size inb_S3072x320_S3072x64_0_256).PackedRows (EltTy.packing .bf16)
  inb_S3072x320_S3072x320_0_0 : ∀ a, (![0, 0] : Fin 2 → Nat) a + S3072x320.size a ≤ S3072x320.size a
  h_S3072x320 : 0 < S3072x320.numel
  inb_S320x640_S320x640_0_0 : ∀ a, (![0, 0] : Fin 2 → Nat) a + S320x640.size a ≤ S320x640.size a
  h_S320x640 : 0 < S320x640.numel
  shapeCasts_S320x640_S320x640 : S320x640.ShapeCasts S320x640
  shapeCasts_S3072x640_S128x24x640 : S3072x640.ShapeCasts S128x24x640
  slices_S128x24x640_o0_0_0_S128x16x128 : S128x24x640.Slices ![0, 0, 0] S128x16x128
  slices_S128x24x640_o0_1_128_S128x16x128 : S128x24x640.Slices ![0, 1, 128] S128x16x128
  slices_S128x24x640_o0_2_256_S128x16x128 : S128x24x640.Slices ![0, 2, 256] S128x16x128
  slices_S128x24x640_o0_3_384_S128x16x128 : S128x24x640.Slices ![0, 3, 384] S128x16x128
  slices_S128x24x640_o0_4_512_S128x16x128 : S128x24x640.Slices ![0, 4, 512] S128x16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x128 : S1x128.ShapeCasts S1x1x128
  broadcasts_S1x1x128_S128x16x128 : S1x1x128.Broadcasts S128x16x128
  inb_S8x20x24x128_S8x20x24x128_0_0_0_0 : ∀ a, (![0, 0, 0, 0] : Fin 4 → Nat) a + S8x20x24x128.size a ≤ S8x20x24x128.size a
  h_S8x20x24x128 : 0 < S8x20x24x128.numel
  shapeCasts_S8x20x24x128_S8x20x24x128 : S8x20x24x128.ShapeCasts S8x20x24x128
  packedbf16_S8x20x24x128_S8x20x24x128_0_0_0_0 : (Rect.unit (s := S8x20x24x128) ![0, 0, 0, 0] S8x20x24x128.size inb_S8x20x24x128_S8x20x24x128_0_0_0_0).PackedRows (EltTy.packing .bf16)
  shapeCasts_S128x16x128_S8x16x16x128 : S128x16x128.ShapeCasts S8x16x16x128
  inb_S8x20x24x128_S8x16x16x128_0_2_2_0 : ∀ a, (![0, 2, 2, 0] : Fin 4 → Nat) a + S8x16x16x128.size a ≤ S8x20x24x128.size a
  h_S8x16x16x128 : 0 < S8x16x16x128.numel
  shapeCasts_S8x16x16x128_S8x16x16x128 : S8x16x16x128.ShapeCasts S8x16x16x128
  packedbf16_S8x20x24x128_S8x16x16x128_0_2_2_0 : (Rect.unit (s := S8x20x24x128) ![0, 2, 2, 0] S8x16x16x128.size inb_S8x20x24x128_S8x16x16x128_0_2_2_0).PackedRows (EltTy.packing .bf16)
  inb_S8x20x24x128_S8x16x24x128_0_0_0_0 : ∀ a, (![0, 0, 0, 0] : Fin 4 → Nat) a + S8x16x24x128.size a ≤ S8x20x24x128.size a
  h_S8x16x24x128 : 0 < S8x16x24x128.numel
  shapeCasts_S8x16x24x128_S3072x128 : S8x16x24x128.ShapeCasts S3072x128
  inb_S3072x640_S3072x128_0_0 : ∀ a, (![0, 0] : Fin 2 → Nat) a + S3072x128.size a ≤ S3072x640.size a
  h_S3072x128 : 0 < S3072x128.numel
  shapeCasts_S3072x128_S3072x128 : S3072x128.ShapeCasts S3072x128
  packedbf16_S3072x640_S3072x128_0_0 : (Rect.unit (s := S3072x640) ![0, 0] S3072x128.size inb_S3072x640_S3072x128_0_0).PackedRows (EltTy.packing .bf16)
  inb_S8x20x24x128_S8x16x24x128_0_1_0_0 : ∀ a, (![0, 1, 0, 0] : Fin 4 → Nat) a + S8x16x24x128.size a ≤ S8x20x24x128.size a
  inb_S3072x640_S3072x128_0_128 : ∀ a, (![0, 128] : Fin 2 → Nat) a + S3072x128.size a ≤ S3072x640.size a
  packedbf16_S3072x640_S3072x128_0_128 : (Rect.unit (s := S3072x640) ![0, 128] S3072x128.size inb_S3072x640_S3072x128_0_128).PackedRows (EltTy.packing .bf16)
  inb_S8x20x24x128_S8x16x24x128_0_2_0_0 : ∀ a, (![0, 2, 0, 0] : Fin 4 → Nat) a + S8x16x24x128.size a ≤ S8x20x24x128.size a
  inb_S3072x640_S3072x128_0_256 : ∀ a, (![0, 256] : Fin 2 → Nat) a + S3072x128.size a ≤ S3072x640.size a
  packedbf16_S3072x640_S3072x128_0_256 : (Rect.unit (s := S3072x640) ![0, 256] S3072x128.size inb_S3072x640_S3072x128_0_256).PackedRows (EltTy.packing .bf16)
  inb_S8x20x24x128_S8x16x24x128_0_3_0_0 : ∀ a, (![0, 3, 0, 0] : Fin 4 → Nat) a + S8x16x24x128.size a ≤ S8x20x24x128.size a
  inb_S3072x640_S3072x128_0_384 : ∀ a, (![0, 384] : Fin 2 → Nat) a + S3072x128.size a ≤ S3072x640.size a
  packedbf16_S3072x640_S3072x128_0_384 : (Rect.unit (s := S3072x640) ![0, 384] S3072x128.size inb_S3072x640_S3072x128_0_384).PackedRows (EltTy.packing .bf16)
  inb_S8x20x24x128_S8x16x24x128_0_4_0_0 : ∀ a, (![0, 4, 0, 0] : Fin 4 → Nat) a + S8x16x24x128.size a ≤ S8x20x24x128.size a
  inb_S3072x640_S3072x128_0_512 : ∀ a, (![0, 512] : Fin 2 → Nat) a + S3072x128.size a ≤ S3072x640.size a
  packedbf16_S3072x640_S3072x128_0_512 : (Rect.unit (s := S3072x640) ![0, 512] S3072x128.size inb_S3072x640_S3072x128_0_512).PackedRows (EltTy.packing .bf16)
  inb_S3072x640_S3072x640_0_0 : ∀ a, (![0, 0] : Fin 2 → Nat) a + S3072x640.size a ≤ S3072x640.size a
  h_S3072x640 : 0 < S3072x640.numel
  inb_S640x640_S640x640_0_0 : ∀ a, (![0, 0] : Fin 2 → Nat) a + S640x640.size a ≤ S640x640.size a
  h_S640x640 : 0 < S640x640.numel
  shapeCasts_S640x640_S640x640 : S640x640.ShapeCasts S640x640
  shapeCasts_S128x16x128_S128x4x4x128 : S128x16x128.ShapeCasts S128x4x4x128
  reduces_S128x4x4x128_S128x4x128 : S128x4x4x128.Reduces [2] S128x4x128
  shapeCasts_S128x4x128_S8x16x4x128 : S128x4x128.ShapeCasts S8x16x4x128
  inb_S8x16x4x128_S8x16x4x128_0_0_0_0 : ∀ a, (![0, 0, 0, 0] : Fin 4 → Nat) a + S8x16x4x128.size a ≤ S8x16x4x128.size a
  h_S8x16x4x128 : 0 < S8x16x4x128.numel
  packedbf16_S8x16x4x128_S8x16x4x128_0_0_0_0 : (Rect.unit (s := S8x16x4x128) ![0, 0, 0, 0] S8x16x4x128.size inb_S8x16x4x128_S8x16x4x128_0_0_0_0).PackedRows (EltTy.packing .bf16)
  shapeCasts_S6400x2048_S5x5x256x2048 : S6400x2048.ShapeCasts S5x5x256x2048
  slices_S5x5x256x2048_S5x1x256x2048_0_2_0_0 : S5x5x256x2048.Slices ![0, 2, 0, 0] S5x1x256x2048
  shapeCasts_S5x1x256x2048_S5x256x2048 : S5x1x256x2048.ShapeCasts S5x256x2048
  shapeCasts_S5x256x2048_S1280x2048 : S5x256x2048.ShapeCasts S1280x2048
  shapeCasts_S3200x256_S5x5x128x256 : S3200x256.ShapeCasts S5x5x128x256
  transposes_S5x5x128x256_S5x128x5x256_0_2_1_3 : S5x5x128x256.Transposes [0, 2, 1, 3] S5x128x5x256
  shapeCasts_S5x128x5x256_S640x1280 : S5x128x5x256.ShapeCasts S640x1280
  shapeCasts_S6400x256_S5x5x256x256 : S6400x256.ShapeCasts S5x5x256x256
  transposes_S5x5x256x256_S5x256x5x256_0_2_1_3 : S5x5x256x256.Transposes [0, 2, 1, 3] S5x256x5x256
  shapeCasts_S5x256x5x256_S1280x1280 : S5x256x5x256.ShapeCasts S1280x1280
  shapeCasts_S256_S1x256 : S256.ShapeCasts S1x256
  shapeCasts_S2048_S1x2048 : S2048.ShapeCasts S1x2048
  shapeCasts_S512_S1x512 : S512.ShapeCasts S1x512
  shapeCasts_S1024_S1x1024 : S1024.ShapeCasts S1x1024
  shapeCasts_S16_S1x16 : S16.ShapeCasts S1x16
  inb_S8x20x8x128_S8x20x8x128_0_0_0_0 : ∀ a, (![0, 0, 0, 0] : Fin 4 → Nat) a + S8x20x8x128.size a ≤ S8x20x8x128.size a
  h_S8x20x8x128 : 0 < S8x20x8x128.numel
  shapeCasts_S8x20x8x128_S8x20x8x128 : S8x20x8x128.ShapeCasts S8x20x8x128
  packedbf16_S8x20x8x128_S8x20x8x128_0_0_0_0 : (Rect.unit (s := S8x20x8x128) ![0, 0, 0, 0] S8x20x8x128.size inb_S8x20x8x128_S8x20x8x128_0_0_0_0).PackedRows (EltTy.packing .bf16)
  shapeCasts_S8x16x4x128_S8x16x4x128 : S8x16x4x128.ShapeCasts S8x16x4x128
  inb_S8x20x8x128_S8x16x4x128_0_2_2_0 : ∀ a, (![0, 2, 2, 0] : Fin 4 → Nat) a + S8x16x4x128.size a ≤ S8x20x8x128.size a
  packedbf16_S8x20x8x128_S8x16x4x128_0_2_2_0 : (Rect.unit (s := S8x20x8x128) ![0, 2, 2, 0] S8x16x4x128.size inb_S8x20x8x128_S8x16x4x128_0_2_2_0).PackedRows (EltTy.packing .bf16)
  inb_S8x20x8x128_S8x16x8x128_0_0_0_0 : ∀ a, (![0, 0, 0, 0] : Fin 4 → Nat) a + S8x16x8x128.size a ≤ S8x20x8x128.size a
  h_S8x16x8x128 : 0 < S8x16x8x128.numel
  shapeCasts_S8x16x8x128_S1024x128 : S8x16x8x128.ShapeCasts S1024x128
  inb_S1024x640_S1024x128_0_0 : ∀ a, (![0, 0] : Fin 2 → Nat) a + S1024x128.size a ≤ S1024x640.size a
  h_S1024x128 : 0 < S1024x128.numel
  shapeCasts_S1024x128_S1024x128 : S1024x128.ShapeCasts S1024x128
  packedbf16_S1024x640_S1024x128_0_0 : (Rect.unit (s := S1024x640) ![0, 0] S1024x128.size inb_S1024x640_S1024x128_0_0).PackedRows (EltTy.packing .bf16)
  inb_S8x20x8x128_S8x16x8x128_0_1_0_0 : ∀ a, (![0, 1, 0, 0] : Fin 4 → Nat) a + S8x16x8x128.size a ≤ S8x20x8x128.size a
  inb_S1024x640_S1024x128_0_128 : ∀ a, (![0, 128] : Fin 2 → Nat) a + S1024x128.size a ≤ S1024x640.size a
  packedbf16_S1024x640_S1024x128_0_128 : (Rect.unit (s := S1024x640) ![0, 128] S1024x128.size inb_S1024x640_S1024x128_0_128).PackedRows (EltTy.packing .bf16)
  inb_S8x20x8x128_S8x16x8x128_0_2_0_0 : ∀ a, (![0, 2, 0, 0] : Fin 4 → Nat) a + S8x16x8x128.size a ≤ S8x20x8x128.size a
  inb_S1024x640_S1024x128_0_256 : ∀ a, (![0, 256] : Fin 2 → Nat) a + S1024x128.size a ≤ S1024x640.size a
  packedbf16_S1024x640_S1024x128_0_256 : (Rect.unit (s := S1024x640) ![0, 256] S1024x128.size inb_S1024x640_S1024x128_0_256).PackedRows (EltTy.packing .bf16)
  inb_S8x20x8x128_S8x16x8x128_0_3_0_0 : ∀ a, (![0, 3, 0, 0] : Fin 4 → Nat) a + S8x16x8x128.size a ≤ S8x20x8x128.size a
  inb_S1024x640_S1024x128_0_384 : ∀ a, (![0, 384] : Fin 2 → Nat) a + S1024x128.size a ≤ S1024x640.size a
  packedbf16_S1024x640_S1024x128_0_384 : (Rect.unit (s := S1024x640) ![0, 384] S1024x128.size inb_S1024x640_S1024x128_0_384).PackedRows (EltTy.packing .bf16)
  inb_S8x20x8x128_S8x16x8x128_0_4_0_0 : ∀ a, (![0, 4, 0, 0] : Fin 4 → Nat) a + S8x16x8x128.size a ≤ S8x20x8x128.size a
  inb_S1024x640_S1024x128_0_512 : ∀ a, (![0, 512] : Fin 2 → Nat) a + S1024x128.size a ≤ S1024x640.size a
  packedbf16_S1024x640_S1024x128_0_512 : (Rect.unit (s := S1024x640) ![0, 512] S1024x128.size inb_S1024x640_S1024x128_0_512).PackedRows (EltTy.packing .bf16)
  inb_S1024x640_S1024x640_0_0 : ∀ a, (![0, 0] : Fin 2 → Nat) a + S1024x640.size a ≤ S1024x640.size a
  h_S1024x640 : 0 < S1024x640.numel
  inb_S640x1280_S640x1280_0_0 : ∀ a, (![0, 0] : Fin 2 → Nat) a + S640x1280.size a ≤ S640x1280.size a
  h_S640x1280 : 0 < S640x1280.numel
  shapeCasts_S640x1280_S640x1280 : S640x1280.ShapeCasts S640x1280
  shapeCasts_S1024x1280_S128x8x1280 : S1024x1280.ShapeCasts S128x8x1280
  slices_S128x8x1280_o0_0_0_S128x4x256 : S128x8x1280.Slices ![0, 0, 0] S128x4x256
  slices_S128x8x1280_o0_1_256_S128x4x256 : S128x8x1280.Slices ![0, 1, 256] S128x4x256
  slices_S128x8x1280_o0_2_512_S128x4x256 : S128x8x1280.Slices ![0, 2, 512] S128x4x256
  slices_S128x8x1280_o0_3_768_S128x4x256 : S128x8x1280.Slices ![0, 3, 768] S128x4x256
  slices_S128x8x1280_o0_4_1024_S128x4x256 : S128x8x1280.Slices ![0, 4, 1024] S128x4x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S1x1x256 : S1x256.ShapeCasts S1x1x256
  broadcasts_S1x1x256_S128x4x256 : S1x1x256.Broadcasts S128x4x256
  inb_S8x20x8x256_S8x20x8x256_0_0_0_0 : ∀ a, (![0, 0, 0, 0] : Fin 4 → Nat) a + S8x20x8x256.size a ≤ S8x20x8x256.size a
  h_S8x20x8x256 : 0 < S8x20x8x256.numel
  shapeCasts_S8x20x8x256_S8x20x8x256 : S8x20x8x256.ShapeCasts S8x20x8x256
  packedbf16_S8x20x8x256_S8x20x8x256_0_0_0_0 : (Rect.unit (s := S8x20x8x256) ![0, 0, 0, 0] S8x20x8x256.size inb_S8x20x8x256_S8x20x8x256_0_0_0_0).PackedRows (EltTy.packing .bf16)
  shapeCasts_S128x4x256_S8x16x4x256 : S128x4x256.ShapeCasts S8x16x4x256
  inb_S8x20x8x256_S8x16x4x256_0_2_2_0 : ∀ a, (![0, 2, 2, 0] : Fin 4 → Nat) a + S8x16x4x256.size a ≤ S8x20x8x256.size a
  h_S8x16x4x256 : 0 < S8x16x4x256.numel
  shapeCasts_S8x16x4x256_S8x16x4x256 : S8x16x4x256.ShapeCasts S8x16x4x256
  packedbf16_S8x20x8x256_S8x16x4x256_0_2_2_0 : (Rect.unit (s := S8x20x8x256) ![0, 2, 2, 0] S8x16x4x256.size inb_S8x20x8x256_S8x16x4x256_0_2_2_0).PackedRows (EltTy.packing .bf16)
  inb_S8x20x8x256_S8x16x8x256_0_0_0_0 : ∀ a, (![0, 0, 0, 0] : Fin 4 → Nat) a + S8x16x8x256.size a ≤ S8x20x8x256.size a
  h_S8x16x8x256 : 0 < S8x16x8x256.numel
  shapeCasts_S8x16x8x256_S1024x256 : S8x16x8x256.ShapeCasts S1024x256
  inb_S1024x1280_S1024x256_0_0 : ∀ a, (![0, 0] : Fin 2 → Nat) a + S1024x256.size a ≤ S1024x1280.size a
  h_S1024x256 : 0 < S1024x256.numel
  shapeCasts_S1024x256_S1024x256 : S1024x256.ShapeCasts S1024x256
  packedbf16_S1024x1280_S1024x256_0_0 : (Rect.unit (s := S1024x1280) ![0, 0] S1024x256.size inb_S1024x1280_S1024x256_0_0).PackedRows (EltTy.packing .bf16)
  inb_S8x20x8x256_S8x16x8x256_0_1_0_0 : ∀ a, (![0, 1, 0, 0] : Fin 4 → Nat) a + S8x16x8x256.size a ≤ S8x20x8x256.size a
  inb_S1024x1280_S1024x256_0_256 : ∀ a, (![0, 256] : Fin 2 → Nat) a + S1024x256.size a ≤ S1024x1280.size a
  packedbf16_S1024x1280_S1024x256_0_256 : (Rect.unit (s := S1024x1280) ![0, 256] S1024x256.size inb_S1024x1280_S1024x256_0_256).PackedRows (EltTy.packing .bf16)
  inb_S8x20x8x256_S8x16x8x256_0_2_0_0 : ∀ a, (![0, 2, 0, 0] : Fin 4 → Nat) a + S8x16x8x256.size a ≤ S8x20x8x256.size a
  inb_S1024x1280_S1024x256_0_512 : ∀ a, (![0, 512] : Fin 2 → Nat) a + S1024x256.size a ≤ S1024x1280.size a
  packedbf16_S1024x1280_S1024x256_0_512 : (Rect.unit (s := S1024x1280) ![0, 512] S1024x256.size inb_S1024x1280_S1024x256_0_512).PackedRows (EltTy.packing .bf16)
  inb_S8x20x8x256_S8x16x8x256_0_3_0_0 : ∀ a, (![0, 3, 0, 0] : Fin 4 → Nat) a + S8x16x8x256.size a ≤ S8x20x8x256.size a
  inb_S1024x1280_S1024x256_0_768 : ∀ a, (![0, 768] : Fin 2 → Nat) a + S1024x256.size a ≤ S1024x1280.size a
  packedbf16_S1024x1280_S1024x256_0_768 : (Rect.unit (s := S1024x1280) ![0, 768] S1024x256.size inb_S1024x1280_S1024x256_0_768).PackedRows (EltTy.packing .bf16)
  inb_S8x20x8x256_S8x16x8x256_0_4_0_0 : ∀ a, (![0, 4, 0, 0] : Fin 4 → Nat) a + S8x16x8x256.size a ≤ S8x20x8x256.size a
  inb_S1024x1280_S1024x256_0_1024 : ∀ a, (![0, 1024] : Fin 2 → Nat) a + S1024x256.size a ≤ S1024x1280.size a
  packedbf16_S1024x1280_S1024x256_0_1024 : (Rect.unit (s := S1024x1280) ![0, 1024] S1024x256.size inb_S1024x1280_S1024x256_0_1024).PackedRows (EltTy.packing .bf16)
  inb_S1024x1280_S1024x1280_0_0 : ∀ a, (![0, 0] : Fin 2 → Nat) a + S1024x1280.size a ≤ S1024x1280.size a
  h_S1024x1280 : 0 < S1024x1280.numel
  inb_S1280x1280_S1280x1280_0_0 : ∀ a, (![0, 0] : Fin 2 → Nat) a + S1280x1280.size a ≤ S1280x1280.size a
  h_S1280x1280 : 0 < S1280x1280.numel
  shapeCasts_S1280x1280_S1280x1280 : S1280x1280.ShapeCasts S1280x1280
  reduces_S128x4x256_S128x256 : S128x4x256.Reduces [1] S128x256
  inb_S8x24x256_S8x24x256_0_0_0 : ∀ a, (![0, 0, 0] : Fin 3 → Nat) a + S8x24x256.size a ≤ S8x24x256.size a
  h_S8x24x256 : 0 < S8x24x256.numel
  shapeCasts_S8x24x256_S8x24x256 : S8x24x256.ShapeCasts S8x24x256
  packedbf16_S8x24x256_S8x24x256_0_0_0 : (Rect.unit (s := S8x24x256) ![0, 0, 0] S8x24x256.size inb_S8x24x256_S8x24x256_0_0_0).PackedRows (EltTy.packing .bf16)
  shapeCasts_S128x256_S8x16x256 : S128x256.ShapeCasts S8x16x256
  inb_S8x24x256_S8x16x256_0_2_0 : ∀ a, (![0, 2, 0] : Fin 3 → Nat) a + S8x16x256.size a ≤ S8x24x256.size a
  h_S8x16x256 : 0 < S8x16x256.numel
  shapeCasts_S8x16x256_S8x16x256 : S8x16x256.ShapeCasts S8x16x256
  packedbf16_S8x24x256_S8x16x256_0_2_0 : (Rect.unit (s := S8x24x256) ![0, 2, 0] S8x16x256.size inb_S8x24x256_S8x16x256_0_2_0).PackedRows (EltTy.packing .bf16)
  inb_S8x24x256_S8x16x256_0_0_0 : ∀ a, (![0, 0, 0] : Fin 3 → Nat) a + S8x16x256.size a ≤ S8x24x256.size a
  shapeCasts_S8x16x256_S128x256 : S8x16x256.ShapeCasts S128x256
  inb_S128x1280_S128x256_0_0 : ∀ a, (![0, 0] : Fin 2 → Nat) a + S128x256.size a ≤ S128x1280.size a
  h_S128x256 : 0 < S128x256.numel
  shapeCasts_S128x256_S128x256 : S128x256.ShapeCasts S128x256
  packedbf16_S128x1280_S128x256_0_0 : (Rect.unit (s := S128x1280) ![0, 0] S128x256.size inb_S128x1280_S128x256_0_0).PackedRows (EltTy.packing .bf16)
  inb_S8x24x256_S8x16x256_0_1_0 : ∀ a, (![0, 1, 0] : Fin 3 → Nat) a + S8x16x256.size a ≤ S8x24x256.size a
  inb_S128x1280_S128x256_0_256 : ∀ a, (![0, 256] : Fin 2 → Nat) a + S128x256.size a ≤ S128x1280.size a
  packedbf16_S128x1280_S128x256_0_256 : (Rect.unit (s := S128x1280) ![0, 256] S128x256.size inb_S128x1280_S128x256_0_256).PackedRows (EltTy.packing .bf16)
  inb_S128x1280_S128x256_0_512 : ∀ a, (![0, 512] : Fin 2 → Nat) a + S128x256.size a ≤ S128x1280.size a
  packedbf16_S128x1280_S128x256_0_512 : (Rect.unit (s := S128x1280) ![0, 512] S128x256.size inb_S128x1280_S128x256_0_512).PackedRows (EltTy.packing .bf16)
  inb_S8x24x256_S8x16x256_0_3_0 : ∀ a, (![0, 3, 0] : Fin 3 → Nat) a + S8x16x256.size a ≤ S8x24x256.size a
  inb_S128x1280_S128x256_0_768 : ∀ a, (![0, 768] : Fin 2 → Nat) a + S128x256.size a ≤ S128x1280.size a
  packedbf16_S128x1280_S128x256_0_768 : (Rect.unit (s := S128x1280) ![0, 768] S128x256.size inb_S128x1280_S128x256_0_768).PackedRows (EltTy.packing .bf16)
  inb_S8x24x256_S8x16x256_0_4_0 : ∀ a, (![0, 4, 0] : Fin 3 → Nat) a + S8x16x256.size a ≤ S8x24x256.size a
  inb_S128x1280_S128x256_0_1024 : ∀ a, (![0, 1024] : Fin 2 → Nat) a + S128x256.size a ≤ S128x1280.size a
  packedbf16_S128x1280_S128x256_0_1024 : (Rect.unit (s := S128x1280) ![0, 1024] S128x256.size inb_S128x1280_S128x256_0_1024).PackedRows (EltTy.packing .bf16)
  inb_S128x1280_S128x1280_0_0 : ∀ a, (![0, 0] : Fin 2 → Nat) a + S128x1280.size a ≤ S128x1280.size a
  h_S128x1280 : 0 < S128x1280.numel
  inb_S1280x2048_S1280x2048_0_0 : ∀ a, (![0, 0] : Fin 2 → Nat) a + S1280x2048.size a ≤ S1280x2048.size a
  h_S1280x2048 : 0 < S1280x2048.numel
  shapeCasts_S1280x2048_S1280x2048 : S1280x2048.ShapeCasts S1280x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  shapeCasts_S128x2048_S8x16x2048 : S128x2048.ShapeCasts S8x16x2048
  reduces_S8x16x2048_S8x2048 : S8x16x2048.Reduces [1] S8x2048
  inb_S2048x512_S2048x512_0_0 : ∀ a, (![0, 0] : Fin 2 → Nat) a + S2048x512.size a ≤ S2048x512.size a
  h_S2048x512 : 0 < S2048x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S8x512 : S1x512.Broadcasts S8x512
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S8x1024 : S1x1024.Broadcasts S8x1024
  inb_S1024x16_S1024x16_0_0 : ∀ a, (![0, 0] : Fin 2 → Nat) a + S1024x16.size a ≤ S1024x16.size a
  h_S1024x16 : 0 < S1024x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8x16 : S1x16.Broadcasts S8x16
  reduces_S8x16_S8 : S8x16.Reduces [1] S8
  shapeCasts_S8_S8x1 : S8.ShapeCasts S8x1
  broadcasts_S8x1_S8x16 : S8x1.Broadcasts S8x16
  inb_S8x16_S8x16_0_0 : ∀ a, (![0, 0] : Fin 2 → Nat) a + S8x16.size a ≤ S8x16.size a
  h_S8x16 : 0 < S8x16.numel
  dot_S8192x32_S32x64_S8192x64_1_0_0_1_n_n_wf : DotDims.WF S8192x32 S32x64 S8192x64 [1] [0] [0] [1] [] []
  dot_S9216x320_S320x320_S9216x320_1_0_0_1_n_n_wf : DotDims.WF S9216x320 S320x320 S9216x320 [1] [0] [0] [1] [] []
  dot_S3072x320_S320x640_S3072x640_1_0_0_1_n_n_wf : DotDims.WF S3072x320 S320x640 S3072x640 [1] [0] [0] [1] [] []
  dot_S3072x640_S640x640_S3072x640_1_0_0_1_n_n_wf : DotDims.WF S3072x640 S640x640 S3072x640 [1] [0] [0] [1] [] []
  dot_S1024x640_S640x1280_S1024x1280_1_0_0_1_n_n_wf : DotDims.WF S1024x640 S640x1280 S1024x1280 [1] [0] [0] [1] [] []
  dot_S1024x1280_S1280x1280_S1024x1280_1_0_0_1_n_n_wf : DotDims.WF S1024x1280 S1280x1280 S1024x1280 [1] [0] [0] [1] [] []
  dot_S128x1280_S1280x2048_S128x2048_1_0_0_1_n_n_wf : DotDims.WF S128x1280 S1280x2048 S128x2048 [1] [0] [0] [1] [] []
  dot_S8x2048_S2048x512_S8x512_1_0_0_1_n_n_wf : DotDims.WF S8x2048 S2048x512 S8x512 [1] [0] [0] [1] [] []
  dot_S8x512_S512x1024_S8x1024_1_0_0_1_n_n_wf : DotDims.WF S8x512 S512x1024 S8x1024 [1] [0] [0] [1] [] []
  dot_S8x1024_S1024x16_S8x16_1_0_0_1_n_n_wf : DotDims.WF S8x1024 S1024x16 S8x16 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hstage1_0 : ∀ j, (stage1_0 j).IsWhole
  hstage1_1 : ∀ j, (stage1_1 j).IsWhole
  hstage1_2 : ∀ j, (stage1_2 j).IsWhole
  hstage1_3 : ∀ j, (stage1_3 j).IsWhole
  hstage1_4 : ∀ j, (stage1_4 j).IsWhole
  hstage1_5 : ∀ j, (stage1_5 j).IsWhole
  hstage1_6 : ∀ j, (stage1_6 j).IsWhole
  hstage1_7 : ∀ j, (stage1_7 j).IsWhole
  hstage1_8 : ∀ j, (stage1_8 j).IsWhole
  hstage1_9 : ∀ j, (stage1_9 j).IsWhole
  hstage1_10 : ∀ j, (stage1_10 j).IsWhole
  hstage1_11 : ∀ j, (stage1_11 j).IsWhole
  hstage1_12 : ∀ j, (stage1_12 j).IsWhole
  hstage1_13 : ∀ j, (stage1_13 j).IsWhole

variable [Facts₀]

def dot_S8192x32_S32x64_S8192x64_1_0_0_1_n_n : DotDims S8192x32 S32x64 S8192x64 where
  lhsContracting := [1]
  rhsContracting := [0]
  lhsNonContracting := [0]
  rhsNonContracting := [1]
  lhsBatch := []
  rhsBatch := []
  wf := dot_S8192x32_S32x64_S8192x64_1_0_0_1_n_n_wf
def dot_S9216x320_S320x320_S9216x320_1_0_0_1_n_n : DotDims S9216x320 S320x320 S9216x320 where
  lhsContracting := [1]
  rhsContracting := [0]
  lhsNonContracting := [0]
  rhsNonContracting := [1]
  lhsBatch := []
  rhsBatch := []
  wf := dot_S9216x320_S320x320_S9216x320_1_0_0_1_n_n_wf
def dot_S3072x320_S320x640_S3072x640_1_0_0_1_n_n : DotDims S3072x320 S320x640 S3072x640 where
  lhsContracting := [1]
  rhsContracting := [0]
  lhsNonContracting := [0]
  rhsNonContracting := [1]
  lhsBatch := []
  rhsBatch := []
  wf := dot_S3072x320_S320x640_S3072x640_1_0_0_1_n_n_wf
def dot_S3072x640_S640x640_S3072x640_1_0_0_1_n_n : DotDims S3072x640 S640x640 S3072x640 where
  lhsContracting := [1]
  rhsContracting := [0]
  lhsNonContracting := [0]
  rhsNonContracting := [1]
  lhsBatch := []
  rhsBatch := []
  wf := dot_S3072x640_S640x640_S3072x640_1_0_0_1_n_n_wf
def dot_S1024x640_S640x1280_S1024x1280_1_0_0_1_n_n : DotDims S1024x640 S640x1280 S1024x1280 where
  lhsContracting := [1]
  rhsContracting := [0]
  lhsNonContracting := [0]
  rhsNonContracting := [1]
  lhsBatch := []
  rhsBatch := []
  wf := dot_S1024x640_S640x1280_S1024x1280_1_0_0_1_n_n_wf
def dot_S1024x1280_S1280x1280_S1024x1280_1_0_0_1_n_n : DotDims S1024x1280 S1280x1280 S1024x1280 where
  lhsContracting := [1]
  rhsContracting := [0]
  lhsNonContracting := [0]
  rhsNonContracting := [1]
  lhsBatch := []
  rhsBatch := []
  wf := dot_S1024x1280_S1280x1280_S1024x1280_1_0_0_1_n_n_wf
def dot_S128x1280_S1280x2048_S128x2048_1_0_0_1_n_n : DotDims S128x1280 S1280x2048 S128x2048 where
  lhsContracting := [1]
  rhsContracting := [0]
  lhsNonContracting := [0]
  rhsNonContracting := [1]
  lhsBatch := []
  rhsBatch := []
  wf := dot_S128x1280_S1280x2048_S128x2048_1_0_0_1_n_n_wf
def dot_S8x2048_S2048x512_S8x512_1_0_0_1_n_n : DotDims S8x2048 S2048x512 S8x512 where
  lhsContracting := [1]
  rhsContracting := [0]
  lhsNonContracting := [0]
  rhsNonContracting := [1]
  lhsBatch := []
  rhsBatch := []
  wf := dot_S8x2048_S2048x512_S8x512_1_0_0_1_n_n_wf
def dot_S8x512_S512x1024_S8x1024_1_0_0_1_n_n : DotDims S8x512 S512x1024 S8x1024 where
  lhsContracting := [1]
  rhsContracting := [0]
  lhsNonContracting := [0]
  rhsNonContracting := [1]
  lhsBatch := []
  rhsBatch := []
  wf := dot_S8x512_S512x1024_S8x1024_1_0_0_1_n_n_wf
def dot_S8x1024_S1024x16_S8x16_1_0_0_1_n_n : DotDims S8x1024 S1024x16 S8x16 where
  lhsContracting := [1]
  rhsContracting := [0]
  lhsNonContracting := [0]
  rhsNonContracting := [1]
  lhsBatch := []
  rhsBatch := []
  wf := dot_S8x1024_S1024x16_S8x16_1_0_0_1_n_n_wf

abbrev win0_0 : Pipeline.Window sig grid0 :=
  Pipeline.Window.whole (Memref.whole main_v56) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v66) false false (stage0_2 0) (sem0_2 0) (Memref.isWhole_whole _) (hstage0_2 0)

abbrev win0_3 : Pipeline.Window sig grid0 :=
  Pipeline.Window.whole (Memref.whole main_v59) false false (stage0_3 0) (sem0_3 0) (Memref.isWhole_whole _) (hstage0_3 0)

abbrev win0_4 : Pipeline.Window sig grid0 :=
  Pipeline.Window.whole (Memref.whole main_v67) false false (stage0_4 0) (sem0_4 0) (Memref.isWhole_whole _) (hstage0_4 0)

abbrev win0_5 : Pipeline.Window sig grid0 :=
  Pipeline.Window.whole (Memref.whole main_v62) false false (stage0_5 0) (sem0_5 0) (Memref.isWhole_whole _) (hstage0_5 0)

abbrev win0_6 : Pipeline.Window sig grid0 :=
  Pipeline.Window.whole (Memref.whole main_v68) false false (stage0_6 0) (sem0_6 0) (Memref.isWhole_whole _) (hstage0_6 0)

abbrev win0_7 : Pipeline.Window sig grid0 :=
  Pipeline.Window.whole (Memref.whole main_v65) false false (stage0_7 0) (sem0_7 0) (Memref.isWhole_whole _) (hstage0_7 0)

abbrev win0_8 : Pipeline.Window sig grid0 :=
  Pipeline.Window.whole (Memref.whole main_v69) false false (stage0_8 0) (sem0_8 0) (Memref.isWhole_whole _) (hstage0_8 0)

abbrev win0_9 : Pipeline.Window sig grid0 :=
  Pipeline.Window.whole (Memref.whole main_v70) true false (stage0_9 0) (sem0_9 0) (Memref.isWhole_whole _) (hstage0_9 0)

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.whole (Memref.whole main_v70) false false (stage1_0 0) (sem1_0 0) (Memref.isWhole_whole _) (hstage1_0 0)

abbrev win1_1 : Pipeline.Window sig grid1 :=
  Pipeline.Window.whole (Memref.whole main_v77) false false (stage1_1 0) (sem1_1 0) (Memref.isWhole_whole _) (hstage1_1 0)

abbrev win1_2 : Pipeline.Window sig grid1 :=
  Pipeline.Window.whole (Memref.whole main_v81) false false (stage1_2 0) (sem1_2 0) (Memref.isWhole_whole _) (hstage1_2 0)

abbrev win1_3 : Pipeline.Window sig grid1 :=
  Pipeline.Window.whole (Memref.whole main_v80) false false (stage1_3 0) (sem1_3 0) (Memref.isWhole_whole _) (hstage1_3 0)

abbrev win1_4 : Pipeline.Window sig grid1 :=
  Pipeline.Window.whole (Memref.whole main_v82) false false (stage1_4 0) (sem1_4 0) (Memref.isWhole_whole _) (hstage1_4 0)

abbrev win1_5 : Pipeline.Window sig grid1 :=
  Pipeline.Window.whole (Memref.whole main_v74) false false (stage1_5 0) (sem1_5 0) (Memref.isWhole_whole _) (hstage1_5 0)

abbrev win1_6 : Pipeline.Window sig grid1 :=
  Pipeline.Window.whole (Memref.whole main_v83) false false (stage1_6 0) (sem1_6 0) (Memref.isWhole_whole _) (hstage1_6 0)

abbrev win1_7 : Pipeline.Window sig grid1 :=
  Pipeline.Window.whole (Memref.whole main_arg15) false false (stage1_7 0) (sem1_7 0) (Memref.isWhole_whole _) (hstage1_7 0)

abbrev win1_8 : Pipeline.Window sig grid1 :=
  Pipeline.Window.whole (Memref.whole main_v84) false false (stage1_8 0) (sem1_8 0) (Memref.isWhole_whole _) (hstage1_8 0)

abbrev win1_9 : Pipeline.Window sig grid1 :=
  Pipeline.Window.whole (Memref.whole main_arg17) false false (stage1_9 0) (sem1_9 0) (Memref.isWhole_whole _) (hstage1_9 0)

abbrev win1_10 : Pipeline.Window sig grid1 :=
  Pipeline.Window.whole (Memref.whole main_v85) false false (stage1_10 0) (sem1_10 0) (Memref.isWhole_whole _) (hstage1_10 0)

abbrev win1_11 : Pipeline.Window sig grid1 :=
  Pipeline.Window.whole (Memref.whole main_arg19) false false (stage1_11 0) (sem1_11 0) (Memref.isWhole_whole _) (hstage1_11 0)

abbrev win1_12 : Pipeline.Window sig grid1 :=
  Pipeline.Window.whole (Memref.whole main_v86) false false (stage1_12 0) (sem1_12 0) (Memref.isWhole_whole _) (hstage1_12 0)

abbrev win1_13 : Pipeline.Window sig grid1 :=
  Pipeline.Window.whole (Memref.whole main_v87) true false (stage1_13 0) (sem1_13 0) (Memref.isWhole_whole _) (hstage1_13 0)

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S8x16x64 : Shape := ⟨3, ![8, 16, 64]⟩
abbrev S32x64 : Shape := ⟨2, ![32, 64]⟩
abbrev S64 : Shape := ⟨1, ![64]⟩
abbrev S1600x64 : Shape := ⟨2, ![1600, 64]⟩
abbrev S1600x128 : Shape := ⟨2, ![1600, 128]⟩
abbrev S128 : Shape := ⟨1, ![128]⟩
abbrev S3200x128 : Shape := ⟨2, ![3200, 128]⟩
abbrev S3200x256 : Shape := ⟨2, ![3200, 256]⟩
abbrev S256 : Shape := ⟨1, ![256]⟩
abbrev S6400x256 : Shape := ⟨2, ![6400, 256]⟩
abbrev S6400x2048 : Shape := ⟨2, ![6400, 2048]⟩
abbrev S2048 : Shape := ⟨1, ![2048]⟩
abbrev S2048x512 : Shape := ⟨2, ![2048, 512]⟩
abbrev S512 : Shape := ⟨1, ![512]⟩
abbrev S512x1024 : Shape := ⟨2, ![512, 1024]⟩
abbrev S1024 : Shape := ⟨1, ![1024]⟩
abbrev S1024x16 : Shape := ⟨2, ![1024, 16]⟩
abbrev S16 : Shape := ⟨1, ![16]⟩
abbrev S_ : Shape := ⟨0, ![]⟩
abbrev S8x20x68 : Shape := ⟨3, ![8, 20, 68]⟩
abbrev S8x16x64x1 : Shape := ⟨4, ![8, 16, 64, 1]⟩
abbrev S8x16x64x16 : Shape := ⟨4, ![8, 16, 64, 16]⟩
abbrev S8x16x64x9 : Shape := ⟨4, ![8, 16, 64, 9]⟩
abbrev S8x16x64x25 : Shape := ⟨4, ![8, 16, 64, 25]⟩
abbrev S8x16x64x32 : Shape := ⟨4, ![8, 16, 64, 32]⟩
abbrev S1x64 : Shape := ⟨2, ![1, 64]⟩
abbrev S8x16x16x64 : Shape := ⟨4, ![8, 16, 16, 64]⟩
abbrev S8192x32 : Shape := ⟨2, ![8192, 32]⟩
abbrev S8x20x68x64 : Shape := ⟨4, ![8, 20, 68, 64]⟩
abbrev S8192x1600 : Shape := ⟨2, ![8192, 1600]⟩
abbrev S8192x64 : Shape := ⟨2, ![8192, 64]⟩
abbrev S8x16x64x64 : Shape := ⟨4, ![8, 16, 64, 64]⟩
abbrev S2048x4x64 : Shape := ⟨3, ![2048, 4, 64]⟩
abbrev S2048x64 : Shape := ⟨2, ![2048, 64]⟩
abbrev S8x20x20x64 : Shape := ⟨4, ![8, 20, 20, 64]⟩
abbrev S1x128 : Shape := ⟨2, ![1, 128]⟩
abbrev S8x16x4x128 : Shape := ⟨4, ![8, 16, 4, 128]⟩
abbrev S2048x1600 : Shape := ⟨2, ![2048, 1600]⟩
abbrev S8x20x20x128 : Shape := ⟨4, ![8, 20, 20, 128]⟩
abbrev S2048x3200 : Shape := ⟨2, ![2048, 3200]⟩
abbrev S2048x128 : Shape := ⟨2, ![2048, 128]⟩
abbrev S8x16x16x128 : Shape := ⟨4, ![8, 16, 16, 128]⟩
abbrev S512x4x128 : Shape := ⟨3, ![512, 4, 128]⟩
abbrev S512x128 : Shape := ⟨2, ![512, 128]⟩
abbrev S8x20x8x128 : Shape := ⟨4, ![8, 20, 8, 128]⟩
abbrev S1x256 : Shape := ⟨2, ![1, 256]⟩
abbrev S8x16x1x256 : Shape := ⟨4, ![8, 16, 1, 256]⟩
abbrev S512x3200 : Shape := ⟨2, ![512, 3200]⟩
abbrev S8x20x8x256 : Shape := ⟨4, ![8, 20, 8, 256]⟩
abbrev S512x6400 : Shape := ⟨2, ![512, 6400]⟩
abbrev S512x256 : Shape := ⟨2, ![512, 256]⟩
abbrev S8x16x4x256 : Shape := ⟨4, ![8, 16, 4, 256]⟩
abbrev S128x4x256 : Shape := ⟨3, ![128, 4, 256]⟩
abbrev S128x256 : Shape := ⟨2, ![128, 256]⟩
abbrev S8x20x5x256 : Shape := ⟨4, ![8, 20, 5, 256]⟩
abbrev S1x2048 : Shape := ⟨2, ![1, 2048]⟩
abbrev S8x2048 : Shape := ⟨2, ![8, 2048]⟩
abbrev S6400x512 : Shape := ⟨2, ![6400, 512]⟩
abbrev S1x512 : Shape := ⟨2, ![1, 512]⟩
abbrev S8x512 : Shape := ⟨2, ![8, 512]⟩
abbrev S128x6400 : Shape := ⟨2, ![128, 6400]⟩
abbrev S128x512 : Shape := ⟨2, ![128, 512]⟩
abbrev S8x16x512 : Shape := ⟨3, ![8, 16, 512]⟩
abbrev S1x1024 : Shape := ⟨2, ![1, 1024]⟩
abbrev S1x16 : Shape := ⟨2, ![1, 16]⟩
abbrev S8x16 : Shape := ⟨2, ![8, 16]⟩
abbrev S8x1024 : Shape := ⟨2, ![8, 1024]⟩
abbrev S8 : Shape := ⟨1, ![8]⟩
abbrev S8x1 : Shape := ⟨2, ![8, 1]⟩

abbrev nBuf : Space → Nat
  | .hbm => 105
  | .vmem => 43
  | .smem => 0
  | _ => 0

abbrev bufTy : (tb : Table) → Fin (tcTables nBuf tb) → BufTy
  | .hbm, ⟨0, _⟩ => ⟨S8x16x64, .f32⟩
  | .hbm, ⟨1, _⟩ => ⟨S32x64, .bf16⟩
  | .hbm, ⟨2, _⟩ => ⟨S64, .f32⟩
  | .hbm, ⟨3, _⟩ => ⟨S1600x64, .bf16⟩
  | .hbm, ⟨4, _⟩ => ⟨S64, .f32⟩
  | .hbm, ⟨5, _⟩ => ⟨S1600x128, .bf16⟩
  | .hbm, ⟨6, _⟩ => ⟨S128, .f32⟩
  | .hbm, ⟨7, _⟩ => ⟨S3200x128, .bf16⟩
  | .hbm, ⟨8, _⟩ => ⟨S128, .f32⟩
  | .hbm, ⟨9, _⟩ => ⟨S3200x256, .bf16⟩
  | .hbm, ⟨10, _⟩ => ⟨S256, .f32⟩
  | .hbm, ⟨11, _⟩ => ⟨S6400x256, .bf16⟩
  | .hbm, ⟨12, _⟩ => ⟨S256, .f32⟩
  | .hbm, ⟨13, _⟩ => ⟨S6400x2048, .bf16⟩
  | .hbm, ⟨14, _⟩ => ⟨S2048, .f32⟩
  | .hbm, ⟨15, _⟩ => ⟨S2048x512, .bf16⟩
  | .hbm, ⟨16, _⟩ => ⟨S512, .f32⟩
  | .hbm, ⟨17, _⟩ => ⟨S512x1024, .bf16⟩
  | .hbm, ⟨18, _⟩ => ⟨S1024, .f32⟩
  | .hbm, ⟨19, _⟩ => ⟨S1024x16, .bf16⟩
  | .hbm, ⟨20, _⟩ => ⟨S16, .f32⟩
  | .hbm, ⟨21, _⟩ => ⟨S_, .i32⟩
  | .hbm, ⟨22, _⟩ => ⟨S_, .f32⟩
  | .hbm, ⟨23, _⟩ => ⟨S8x20x68, .f32⟩
  | .hbm, ⟨24, _⟩ => ⟨S8x16x64, .f32⟩
  | .hbm, ⟨25, _⟩ => ⟨S8x16x64, .f32⟩
  | .hbm, ⟨26, _⟩ => ⟨S8x16x64, .f32⟩
  | .hbm, ⟨27, _⟩ => ⟨S8x16x64, .f32⟩
  | .hbm, ⟨28, _⟩ => ⟨S8x16x64, .f32⟩
  | .hbm, ⟨29, _⟩ => ⟨S8x16x64, .f32⟩
  | .hbm, ⟨30, _⟩ => ⟨S8x16x64, .f32⟩
  | .hbm, ⟨31, _⟩ => ⟨S8x16x64, .f32⟩
  | .hbm, ⟨32, _⟩ => ⟨S8x16x64, .f32⟩
  | .hbm, ⟨33, _⟩ => ⟨S8x16x64, .f32⟩
  | .hbm, ⟨34, _⟩ => ⟨S8x16x64, .f32⟩
  | .hbm, ⟨35, _⟩ => ⟨S8x16x64, .f32⟩
  | .hbm, ⟨36, _⟩ => ⟨S8x16x64, .f32⟩
  | .hbm, ⟨37, _⟩ => ⟨S8x16x64, .f32⟩
  | .hbm, ⟨38, _⟩ => ⟨S8x16x64, .f32⟩
  | .hbm, ⟨39, _⟩ => ⟨S8x16x64, .f32⟩
  | .hbm, ⟨40, _⟩ => ⟨S8x16x64, .f32⟩
  | .hbm, ⟨41, _⟩ => ⟨S8x16x64, .f32⟩
  | .hbm, ⟨42, _⟩ => ⟨S8x16x64, .f32⟩
  | .hbm, ⟨43, _⟩ => ⟨S8x16x64, .f32⟩
  | .hbm, ⟨44, _⟩ => ⟨S8x16x64, .f32⟩
  | .hbm, ⟨45, _⟩ => ⟨S8x16x64, .f32⟩
  | .hbm, ⟨46, _⟩ => ⟨S8x16x64, .f32⟩
  | .hbm, ⟨47, _⟩ => ⟨S8x16x64, .f32⟩
  | .hbm, ⟨48, _⟩ => ⟨S8x16x64, .f32⟩
  | .hbm, ⟨49, _⟩ => ⟨S8x16x64x1, .f32⟩
  | .hbm, ⟨50, _⟩ => ⟨S8x16x64x1, .f32⟩
  | .hbm, ⟨51, _⟩ => ⟨S8x16x64x1, .f32⟩
  | .hbm, ⟨52, _⟩ => ⟨S8x16x64x1, .f32⟩
  | .hbm, ⟨53, _⟩ => ⟨S8x16x64x1, .f32⟩
  | .hbm, ⟨54, _⟩ => ⟨S8x16x64x1, .f32⟩
  | .hbm, ⟨55, _⟩ => ⟨S8x16x64x1, .f32⟩
  | .hbm, ⟨56, _⟩ => ⟨S8x16x64x1, .f32⟩
  | .hbm, ⟨57, _⟩ => ⟨S8x16x64x1, .f32⟩
  | .hbm, ⟨58, _⟩ => ⟨S8x16x64x1, .f32⟩
  | .hbm, ⟨59, _⟩ => ⟨S8x16x64x1, .f32⟩
  | .hbm, ⟨60, _⟩ => ⟨S8x16x64x1, .f32⟩
  | .hbm, ⟨61, _⟩ => ⟨S8x16x64x1, .f32⟩
  | .hbm, ⟨62, _⟩ => ⟨S8x16x64x1, .f32⟩
  | .hbm, ⟨63, _⟩ => ⟨S8x16x64x1, .f32⟩
  | .hbm, ⟨64, _⟩ => ⟨S8x16x64x1, .f32⟩
  | .hbm, ⟨65, _⟩ => ⟨S8x16x64x1, .f32⟩
  | .hbm, ⟨66, _⟩ => ⟨S8x16x64x1, .f32⟩
  | .hbm, ⟨67, _⟩ => ⟨S8x16x64x1, .f32⟩
  | .hbm, ⟨68, _⟩ => ⟨S8x16x64x1, .f32⟩
  | .hbm, ⟨69, _⟩ => ⟨S8x16x64x1, .f32⟩
  | .hbm, ⟨70, _⟩ => ⟨S8x16x64x1, .f32⟩
  | .hbm, ⟨71, _⟩ => ⟨S8x16x64x1, .f32⟩
  | .hbm, ⟨72, _⟩ => ⟨S8x16x64x1, .f32⟩
  | .hbm, ⟨73, _⟩ => ⟨S8x16x64x1, .f32⟩
  | .hbm, ⟨74, _⟩ => ⟨S8x16x64x16, .f32⟩
  | .hbm, ⟨75, _⟩ => ⟨S8x16x64x9, .f32⟩
  | .hbm, ⟨76, _⟩ => ⟨S8x16x64x25, .f32⟩
  | .hbm, ⟨77, _⟩ => ⟨S_, .i32⟩
  | .hbm, ⟨78, _⟩ => ⟨S_, .f32⟩
  | .hbm, ⟨79, _⟩ => ⟨S8x16x64x32, .f32⟩
  | .hbm, ⟨80, _⟩ => ⟨S8x16x64x32, .bf16⟩
  | .hbm, ⟨81, _⟩ => ⟨S1x64, .f32⟩
  | .hbm, ⟨82, _⟩ => ⟨S1x64, .f32⟩
  | .hbm, ⟨83, _⟩ => ⟨S8x16x16x64, .bf16⟩
  | .hbm, ⟨84, _⟩ => ⟨S_, .i32⟩
  | .hbm, ⟨85, _⟩ => ⟨S_, .bf16⟩
  | .hbm, ⟨86, _⟩ => ⟨S8x20x20x64, .bf16⟩
  | .hbm, ⟨87, _⟩ => ⟨S1x128, .f32⟩
  | .hbm, ⟨88, _⟩ => ⟨S1x128, .f32⟩
  | .hbm, ⟨89, _⟩ => ⟨S8x16x4x128, .bf16⟩
  | .hbm, ⟨90, _⟩ => ⟨S_, .i32⟩
  | .hbm, ⟨91, _⟩ => ⟨S_, .bf16⟩
  | .hbm, ⟨92, _⟩ => ⟨S8x20x8x128, .bf16⟩
  | .hbm, ⟨93, _⟩ => ⟨S1x256, .f32⟩
  | .hbm, ⟨94, _⟩ => ⟨S1x256, .f32⟩
  | .hbm, ⟨95, _⟩ => ⟨S8x16x1x256, .bf16⟩
  | .hbm, ⟨96, _⟩ => ⟨S_, .i32⟩
  | .hbm, ⟨97, _⟩ => ⟨S_, .bf16⟩
  | .hbm, ⟨98, _⟩ => ⟨S8x20x5x256, .bf16⟩
  | .hbm, ⟨99, _⟩ => ⟨S1x2048, .f32⟩
  | .hbm, ⟨100, _⟩ => ⟨S8x2048, .bf16⟩
  | .hbm, ⟨101, _⟩ => ⟨S1x512, .f32⟩
  | .hbm, ⟨102, _⟩ => ⟨S1x1024, .f32⟩
  | .hbm, ⟨103, _⟩ => ⟨S1x16, .f32⟩
  | .hbm, ⟨104, _⟩ => ⟨S8x16, .f32⟩
  | .local _ .vmem, ⟨0, _⟩ => ⟨S8x16x64x32, .bf16⟩
  | .local _ .vmem, ⟨1, _⟩ => ⟨S32x64, .bf16⟩
  | .local _ .vmem, ⟨2, _⟩ => ⟨S1x64, .f32⟩
  | .local _ .vmem, ⟨3, _⟩ => ⟨S1600x64, .bf16⟩
  | .local _ .vmem, ⟨4, _⟩ => ⟨S1x64, .f32⟩
  | .local _ .vmem, ⟨5, _⟩ => ⟨S8x16x16x64, .bf16⟩
  | .local _ .vmem, ⟨6, _⟩ => ⟨S8192x32, .bf16⟩
  | .local _ .vmem, ⟨7, _⟩ => ⟨S8x20x68x64, .bf16⟩
  | .local _ .vmem, ⟨8, _⟩ => ⟨S8192x1600, .bf16⟩
  | .local _ .vmem, ⟨9, _⟩ => ⟨S8x20x20x64, .bf16⟩
  | .local _ .vmem, ⟨10, _⟩ => ⟨S1600x128, .bf16⟩
  | .local _ .vmem, ⟨11, _⟩ => ⟨S1x128, .f32⟩
  | .local _ .vmem, ⟨12, _⟩ => ⟨S3200x128, .bf16⟩
  | .local _ .vmem, ⟨13, _⟩ => ⟨S1x128, .f32⟩
  | .local _ .vmem, ⟨14, _⟩ => ⟨S8x16x4x128, .bf16⟩
  | .local _ .vmem, ⟨15, _⟩ => ⟨S2048x1600, .bf16⟩
  | .local _ .vmem, ⟨16, _⟩ => ⟨S8x20x20x128, .bf16⟩
  | .local _ .vmem, ⟨17, _⟩ => ⟨S2048x3200, .bf16⟩
  | .local _ .vmem, ⟨18, _⟩ => ⟨S8x20x8x128, .bf16⟩
  | .local _ .vmem, ⟨19, _⟩ => ⟨S3200x256, .bf16⟩
  | .local _ .vmem, ⟨20, _⟩ => ⟨S1x256, .f32⟩
  | .local _ .vmem, ⟨21, _⟩ => ⟨S6400x256, .bf16⟩
  | .local _ .vmem, ⟨22, _⟩ => ⟨S1x256, .f32⟩
  | .local _ .vmem, ⟨23, _⟩ => ⟨S8x16x1x256, .bf16⟩
  | .local _ .vmem, ⟨24, _⟩ => ⟨S512x3200, .bf16⟩
  | .local _ .vmem, ⟨25, _⟩ => ⟨S8x20x8x256, .bf16⟩
  | .local _ .vmem, ⟨26, _⟩ => ⟨S512x6400, .bf16⟩
  | .local _ .vmem, ⟨27, _⟩ => ⟨S8x20x5x256, .bf16⟩
  | .local _ .vmem, ⟨28, _⟩ => ⟨S6400x512, .bf16⟩
  | .local _ .vmem, ⟨29, _⟩ => ⟨S6400x512, .bf16⟩
  | .local _ .vmem, ⟨30, _⟩ => ⟨S1x512, .f32⟩
  | .local _ .vmem, ⟨31, _⟩ => ⟨S1x512, .f32⟩
  | .local _ .vmem, ⟨32, _⟩ => ⟨S8x512, .bf16⟩
  | .local _ .vmem, ⟨33, _⟩ => ⟨S8x512, .bf16⟩
  | .local _ .vmem, ⟨34, _⟩ => ⟨S128x6400, .bf16⟩
  | .local _ .vmem, ⟨35, _⟩ => ⟨S8x2048, .bf16⟩
  | .local _ .vmem, ⟨36, _⟩ => ⟨S2048x512, .bf16⟩
  | .local _ .vmem, ⟨37, _⟩ => ⟨S1x512, .f32⟩
  | .local _ .vmem, ⟨38, _⟩ => ⟨S512x1024, .bf16⟩
  | .local _ .vmem, ⟨39, _⟩ => ⟨S1x1024, .f32⟩
  | .local _ .vmem, ⟨40, _⟩ => ⟨S1024x16, .bf16⟩
  | .local _ .vmem, ⟨41, _⟩ => ⟨S1x16, .f32⟩
  | .local _ .vmem, ⟨42, _⟩ => ⟨S8x16, .f32⟩
  | _, _ => ⟨S8x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_call0_v0 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_0 : Ref sig .tc := ⟨.hbm, 77, rfl⟩
abbrev main_call1_v0 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_1 : Ref sig .tc := ⟨.hbm, 84, rfl⟩
abbrev main_call2_v0 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_2 : Ref sig .tc := ⟨.hbm, 90, rfl⟩
abbrev main_call3_v0 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_3 : Ref sig .tc := ⟨.hbm, 96, rfl⟩
abbrev main_call4_v0 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_scratch0 : Ref sig .tc := ⟨.vmem, 15, rfl⟩
abbrev cc1_scratch1 : Ref sig .tc := ⟨.vmem, 16, rfl⟩
abbrev cc1_scratch2 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_scratch0 : Ref sig .tc := ⟨.vmem, 24, rfl⟩
abbrev cc2_scratch1 : Ref sig .tc := ⟨.vmem, 25, rfl⟩
abbrev cc2_scratch2 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc3_scratch0 : Ref sig .tc := ⟨.vmem, 34, rfl⟩
abbrev cc4_stg0_0 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg6_0 : Ref sig .tc := ⟨.vmem, 41, rfl⟩
abbrev cc4_stg7_0 : Ref sig .tc := ⟨.vmem, 42, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc2_sem0_0 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc3_sem0_0 : DmaSem sig := 18
abbrev cc3_sem1_0 : DmaSem sig := 19
abbrev cc3_sem1_1 : DmaSem sig := 20
abbrev cc3_sem2_0 : DmaSem sig := 21
abbrev cc3_sem2_1 : DmaSem sig := 22
abbrev cc3_sem3_0 : DmaSem sig := 23
abbrev cc3_sem3_1 : DmaSem sig := 24
abbrev cc4_sem0_0 : DmaSem sig := 25
abbrev cc4_sem1_0 : DmaSem sig := 26
abbrev cc4_sem2_0 : DmaSem sig := 27
abbrev cc4_sem3_0 : DmaSem sig := 28
abbrev cc4_sem4_0 : DmaSem sig := 29
abbrev cc4_sem5_0 : DmaSem sig := 30
abbrev cc4_sem6_0 : DmaSem sig := 31
abbrev cc4_sem7_0 : DmaSem sig := 32

abbrev nD : Nat := 1
abbrev τ : Topo := Topo.v7x

variable {F : FTy → Type} [FloatOps F]

abbrev grid0 : Pipeline.Grid := ⟨1, ![1], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .vmem S8x16x64x32 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1600x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x16x16x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![1], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage1_0 : Fin 1 → Memref sig .tc .vmem S8x20x20x64 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1600x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3200x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x16x4x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![1], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage2_0 : Fin 1 → Memref sig .tc .vmem S8x20x8x128 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S3200x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S6400x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S8x16x1x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![4], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S8x20x5x256 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S6400x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S8x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S8x2048 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S2048x512 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x1024 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1024x16 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x16 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S8x16 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

class Facts₀ : Prop where
  pads_S8x16x64_S8x20x68_000_220_220 : S8x16x64.Pads (![0, 2, 2] : Fin 3 → Nat) ![0, 2, 2] ![0, 0, 0] S8x20x68
  h_S_ : 0 < S_.numel
  slices_S8x20x68_S8x16x64_0_0_0 : S8x20x68.Slices ![0, 0, 0] S8x16x64
  slices_S8x20x68_S8x16x64_0_0_1 : S8x20x68.Slices ![0, 0, 1] S8x16x64
  slices_S8x20x68_S8x16x64_0_0_2 : S8x20x68.Slices ![0, 0, 2] S8x16x64
  slices_S8x20x68_S8x16x64_0_0_3 : S8x20x68.Slices ![0, 0, 3] S8x16x64
  slices_S8x20x68_S8x16x64_0_0_4 : S8x20x68.Slices ![0, 0, 4] S8x16x64
  slices_S8x20x68_S8x16x64_0_1_0 : S8x20x68.Slices ![0, 1, 0] S8x16x64
  slices_S8x20x68_S8x16x64_0_1_1 : S8x20x68.Slices ![0, 1, 1] S8x16x64
  slices_S8x20x68_S8x16x64_0_1_2 : S8x20x68.Slices ![0, 1, 2] S8x16x64
  slices_S8x20x68_S8x16x64_0_1_3 : S8x20x68.Slices ![0, 1, 3] S8x16x64
  slices_S8x20x68_S8x16x64_0_1_4 : S8x20x68.Slices ![0, 1, 4] S8x16x64
  slices_S8x20x68_S8x16x64_0_2_0 : S8x20x68.Slices ![0, 2, 0] S8x16x64
  slices_S8x20x68_S8x16x64_0_2_1 : S8x20x68.Slices ![0, 2, 1] S8x16x64
  slices_S8x20x68_S8x16x64_0_2_2 : S8x20x68.Slices ![0, 2, 2] S8x16x64
  slices_S8x20x68_S8x16x64_0_2_3 : S8x20x68.Slices ![0, 2, 3] S8x16x64
  slices_S8x20x68_S8x16x64_0_2_4 : S8x20x68.Slices ![0, 2, 4] S8x16x64
  slices_S8x20x68_S8x16x64_0_3_0 : S8x20x68.Slices ![0, 3, 0] S8x16x64
  slices_S8x20x68_S8x16x64_0_3_1 : S8x20x68.Slices ![0, 3, 1] S8x16x64
  slices_S8x20x68_S8x16x64_0_3_2 : S8x20x68.Slices ![0, 3, 2] S8x16x64
  slices_S8x20x68_S8x16x64_0_3_3 : S8x20x68.Slices ![0, 3, 3] S8x16x64
  slices_S8x20x68_S8x16x64_0_3_4 : S8x20x68.Slices ![0, 3, 4] S8x16x64
  slices_S8x20x68_S8x16x64_0_4_0 : S8x20x68.Slices ![0, 4, 0] S8x16x64
  slices_S8x20x68_S8x16x64_0_4_1 : S8x20x68.Slices ![0, 4, 1] S8x16x64
  slices_S8x20x68_S8x16x64_0_4_2 : S8x20x68.Slices ![0, 4, 2] S8x16x64
  slices_S8x20x68_S8x16x64_0_4_3 : S8x20x68.Slices ![0, 4, 3] S8x16x64
  slices_S8x20x68_S8x16x64_0_4_4 : S8x20x68.Slices ![0, 4, 4] S8x16x64
  bcast_S8x16x64_S8x16x64x1_0_1_2 : S8x16x64.BroadcastsInDim S8x16x64x1 (![0, 1, 2] : Fin 3 → Fin S8x16x64x1.rank)
  concatenates_S8x16x64x1_S8x16x64x1_S8x16x64x1_S8x16x64x1_S8x16x64x1_S8x16x64x1_S8x16x64x1_S8x16x64x1_S8x16x64x1_S8x16x64x1_S8x16x64x1_S8x16x64x1_S8x16x64x1_S8x16x64x1_S8x16x64x1_S8x16x64x1_S8x16x64x16_d3 : Shape.Concatenates [S8x16x64x1, S8x16x64x1, S8x16x64x1, S8x16x64x1, S8x16x64x1, S8x16x64x1, S8x16x64x1, S8x16x64x1, S8x16x64x1, S8x16x64x1, S8x16x64x1, S8x16x64x1, S8x16x64x1, S8x16x64x1, S8x16x64x1, S8x16x64x1] S8x16x64x16 3
  concatenates_S8x16x64x1_S8x16x64x1_S8x16x64x1_S8x16x64x1_S8x16x64x1_S8x16x64x1_S8x16x64x1_S8x16x64x1_S8x16x64x1_S8x16x64x9_d3 : Shape.Concatenates [S8x16x64x1, S8x16x64x1, S8x16x64x1, S8x16x64x1, S8x16x64x1, S8x16x64x1, S8x16x64x1, S8x16x64x1, S8x16x64x1] S8x16x64x9 3
  concatenates_S8x16x64x16_S8x16x64x9_S8x16x64x25_d3 : Shape.Concatenates [S8x16x64x16, S8x16x64x9] S8x16x64x25 3
  pads_S8x16x64x25_S8x16x64x32_000_000_000_070 : S8x16x64x25.Pads (![0, 0, 0, 0] : Fin 4 → Nat) ![0, 0, 0, 7] ![0, 0, 0, 0] S8x16x64x32
  bitsLt_bf16_f32 : FTy.bits .bf16 < FTy.bits .f32
  shapeCasts_S64_S1x64 : S64.ShapeCasts S1x64
  inb_S8x16x64x32_S8x16x64x32_0_0_0_0 : ∀ a, (![0, 0, 0, 0] : Fin 4 → Nat) a + S8x16x64x32.size a ≤ S8x16x64x32.size a
  h_S8x16x64x32 : 0 < S8x16x64x32.numel
  shapeCasts_S8x16x64x32_S8x16x64x32 : S8x16x64x32.ShapeCasts S8x16x64x32
  shapeCasts_S8x16x64x32_S8192x32 : S8x16x64x32.ShapeCasts S8192x32
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  packedbf16_S8192x32_S8192x32_0_0 : (Rect.unit (s := S8192x32) ![0, 0] S8192x32.size inb_S8192x32_S8192x32_0_0).PackedRows (EltTy.packing .bf16)
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  inb_S8x20x68x64_S8x20x68x64_0_0_0_0 : ∀ a, (![0, 0, 0, 0] : Fin 4 → Nat) a + S8x20x68x64.size a ≤ S8x20x68x64.size a
  h_S8x20x68x64 : 0 < S8x20x68x64.numel
  shapeCasts_S8x20x68x64_S8x20x68x64 : S8x20x68x64.ShapeCasts S8x20x68x64
  packedbf16_S8x20x68x64_S8x20x68x64_0_0_0_0 : (Rect.unit (s := S8x20x68x64) ![0, 0, 0, 0] S8x20x68x64.size inb_S8x20x68x64_S8x20x68x64_0_0_0_0).PackedRows (EltTy.packing .bf16)
  shapeCasts_S8192x64_S8x16x64x64 : S8192x64.ShapeCasts S8x16x64x64
  inb_S8x20x68x64_S8x16x64x64_0_2_2_0 : ∀ a, (![0, 2, 2, 0] : Fin 4 → Nat) a + S8x16x64x64.size a ≤ S8x20x68x64.size a
  h_S8x16x64x64 : 0 < S8x16x64x64.numel
  shapeCasts_S8x16x64x64_S8x16x64x64 : S8x16x64x64.ShapeCasts S8x16x64x64
  packedbf16_S8x20x68x64_S8x16x64x64_0_2_2_0 : (Rect.unit (s := S8x20x68x64) ![0, 2, 2, 0] S8x16x64x64.size inb_S8x20x68x64_S8x16x64x64_0_2_2_0).PackedRows (EltTy.packing .bf16)
  inb_S8x20x68x64_S8x16x64x64_0_0_0_0 : ∀ a, (![0, 0, 0, 0] : Fin 4 → Nat) a + S8x16x64x64.size a ≤ S8x20x68x64.size a
  shapeCasts_S8x16x64x64_S8192x64 : S8x16x64x64.ShapeCasts S8192x64
  inb_S8192x1600_S8192x64_0_0 : ∀ a, (![0, 0] : Fin 2 → Nat) a + S8192x64.size a ≤ S8192x1600.size a
  h_S8192x64 : 0 < S8192x64.numel
  shapeCasts_S8192x64_S8192x64 : S8192x64.ShapeCasts S8192x64
  packedbf16_S8192x1600_S8192x64_0_0 : (Rect.unit (s := S8192x1600) ![0, 0] S8192x64.size inb_S8192x1600_S8192x64_0_0).PackedRows (EltTy.packing .bf16)
  inb_S8x20x68x64_S8x16x64x64_0_0_1_0 : ∀ a, (![0, 0, 1, 0] : Fin 4 → Nat) a + S8x16x64x64.size a ≤ S8x20x68x64.size a
  inb_S8192x1600_S8192x64_0_64 : ∀ a, (![0, 64] : Fin 2 → Nat) a + S8192x64.size a ≤ S8192x1600.size a
  packedbf16_S8192x1600_S8192x64_0_64 : (Rect.unit (s := S8192x1600) ![0, 64] S8192x64.size inb_S8192x1600_S8192x64_0_64).PackedRows (EltTy.packing .bf16)
  inb_S8x20x68x64_S8x16x64x64_0_0_2_0 : ∀ a, (![0, 0, 2, 0] : Fin 4 → Nat) a + S8x16x64x64.size a ≤ S8x20x68x64.size a
  inb_S8192x1600_S8192x64_0_128 : ∀ a, (![0, 128] : Fin 2 → Nat) a + S8192x64.size a ≤ S8192x1600.size a
  packedbf16_S8192x1600_S8192x64_0_128 : (Rect.unit (s := S8192x1600) ![0, 128] S8192x64.size inb_S8192x1600_S8192x64_0_128).PackedRows (EltTy.packing .bf16)
  inb_S8x20x68x64_S8x16x64x64_0_0_3_0 : ∀ a, (![0, 0, 3, 0] : Fin 4 → Nat) a + S8x16x64x64.size a ≤ S8x20x68x64.size a
  inb_S8192x1600_S8192x64_0_192 : ∀ a, (![0, 192] : Fin 2 → Nat) a + S8192x64.size a ≤ S8192x1600.size a
  packedbf16_S8192x1600_S8192x64_0_192 : (Rect.unit (s := S8192x1600) ![0, 192] S8192x64.size inb_S8192x1600_S8192x64_0_192).PackedRows (EltTy.packing .bf16)
  inb_S8x20x68x64_S8x16x64x64_0_0_4_0 : ∀ a, (![0, 0, 4, 0] : Fin 4 → Nat) a + S8x16x64x64.size a ≤ S8x20x68x64.size a
  inb_S8192x1600_S8192x64_0_256 : ∀ a, (![0, 256] : Fin 2 → Nat) a + S8192x64.size a ≤ S8192x1600.size a
  packedbf16_S8192x1600_S8192x64_0_256 : (Rect.unit (s := S8192x1600) ![0, 256] S8192x64.size inb_S8192x1600_S8192x64_0_256).PackedRows (EltTy.packing .bf16)
  inb_S8x20x68x64_S8x16x64x64_0_1_0_0 : ∀ a, (![0, 1, 0, 0] : Fin 4 → Nat) a + S8x16x64x64.size a ≤ S8x20x68x64.size a
  inb_S8192x1600_S8192x64_0_320 : ∀ a, (![0, 320] : Fin 2 → Nat) a + S8192x64.size a ≤ S8192x1600.size a
  packedbf16_S8192x1600_S8192x64_0_320 : (Rect.unit (s := S8192x1600) ![0, 320] S8192x64.size inb_S8192x1600_S8192x64_0_320).PackedRows (EltTy.packing .bf16)
  inb_S8x20x68x64_S8x16x64x64_0_1_1_0 : ∀ a, (![0, 1, 1, 0] : Fin 4 → Nat) a + S8x16x64x64.size a ≤ S8x20x68x64.size a
  inb_S8192x1600_S8192x64_0_384 : ∀ a, (![0, 384] : Fin 2 → Nat) a + S8192x64.size a ≤ S8192x1600.size a
  packedbf16_S8192x1600_S8192x64_0_384 : (Rect.unit (s := S8192x1600) ![0, 384] S8192x64.size inb_S8192x1600_S8192x64_0_384).PackedRows (EltTy.packing .bf16)
  inb_S8x20x68x64_S8x16x64x64_0_1_2_0 : ∀ a, (![0, 1, 2, 0] : Fin 4 → Nat) a + S8x16x64x64.size a ≤ S8x20x68x64.size a
  inb_S8192x1600_S8192x64_0_448 : ∀ a, (![0, 448] : Fin 2 → Nat) a + S8192x64.size a ≤ S8192x1600.size a
  packedbf16_S8192x1600_S8192x64_0_448 : (Rect.unit (s := S8192x1600) ![0, 448] S8192x64.size inb_S8192x1600_S8192x64_0_448).PackedRows (EltTy.packing .bf16)
  inb_S8x20x68x64_S8x16x64x64_0_1_3_0 : ∀ a, (![0, 1, 3, 0] : Fin 4 → Nat) a + S8x16x64x64.size a ≤ S8x20x68x64.size a
  inb_S8192x1600_S8192x64_0_512 : ∀ a, (![0, 512] : Fin 2 → Nat) a + S8192x64.size a ≤ S8192x1600.size a
  packedbf16_S8192x1600_S8192x64_0_512 : (Rect.unit (s := S8192x1600) ![0, 512] S8192x64.size inb_S8192x1600_S8192x64_0_512).PackedRows (EltTy.packing .bf16)
  inb_S8x20x68x64_S8x16x64x64_0_1_4_0 : ∀ a, (![0, 1, 4, 0] : Fin 4 → Nat) a + S8x16x64x64.size a ≤ S8x20x68x64.size a
  inb_S8192x1600_S8192x64_0_576 : ∀ a, (![0, 576] : Fin 2 → Nat) a + S8192x64.size a ≤ S8192x1600.size a
  packedbf16_S8192x1600_S8192x64_0_576 : (Rect.unit (s := S8192x1600) ![0, 576] S8192x64.size inb_S8192x1600_S8192x64_0_576).PackedRows (EltTy.packing .bf16)
  inb_S8x20x68x64_S8x16x64x64_0_2_0_0 : ∀ a, (![0, 2, 0, 0] : Fin 4 → Nat) a + S8x16x64x64.size a ≤ S8x20x68x64.size a
  inb_S8192x1600_S8192x64_0_640 : ∀ a, (![0, 640] : Fin 2 → Nat) a + S8192x64.size a ≤ S8192x1600.size a
  packedbf16_S8192x1600_S8192x64_0_640 : (Rect.unit (s := S8192x1600) ![0, 640] S8192x64.size inb_S8192x1600_S8192x64_0_640).PackedRows (EltTy.packing .bf16)
  inb_S8x20x68x64_S8x16x64x64_0_2_1_0 : ∀ a, (![0, 2, 1, 0] : Fin 4 → Nat) a + S8x16x64x64.size a ≤ S8x20x68x64.size a
  inb_S8192x1600_S8192x64_0_704 : ∀ a, (![0, 704] : Fin 2 → Nat) a + S8192x64.size a ≤ S8192x1600.size a
  packedbf16_S8192x1600_S8192x64_0_704 : (Rect.unit (s := S8192x1600) ![0, 704] S8192x64.size inb_S8192x1600_S8192x64_0_704).PackedRows (EltTy.packing .bf16)
  inb_S8192x1600_S8192x64_0_768 : ∀ a, (![0, 768] : Fin 2 → Nat) a + S8192x64.size a ≤ S8192x1600.size a
  packedbf16_S8192x1600_S8192x64_0_768 : (Rect.unit (s := S8192x1600) ![0, 768] S8192x64.size inb_S8192x1600_S8192x64_0_768).PackedRows (EltTy.packing .bf16)
  inb_S8x20x68x64_S8x16x64x64_0_2_3_0 : ∀ a, (![0, 2, 3, 0] : Fin 4 → Nat) a + S8x16x64x64.size a ≤ S8x20x68x64.size a
  inb_S8192x1600_S8192x64_0_832 : ∀ a, (![0, 832] : Fin 2 → Nat) a + S8192x64.size a ≤ S8192x1600.size a
  packedbf16_S8192x1600_S8192x64_0_832 : (Rect.unit (s := S8192x1600) ![0, 832] S8192x64.size inb_S8192x1600_S8192x64_0_832).PackedRows (EltTy.packing .bf16)
  inb_S8x20x68x64_S8x16x64x64_0_2_4_0 : ∀ a, (![0, 2, 4, 0] : Fin 4 → Nat) a + S8x16x64x64.size a ≤ S8x20x68x64.size a
  inb_S8192x1600_S8192x64_0_896 : ∀ a, (![0, 896] : Fin 2 → Nat) a + S8192x64.size a ≤ S8192x1600.size a
  packedbf16_S8192x1600_S8192x64_0_896 : (Rect.unit (s := S8192x1600) ![0, 896] S8192x64.size inb_S8192x1600_S8192x64_0_896).PackedRows (EltTy.packing .bf16)
  inb_S8x20x68x64_S8x16x64x64_0_3_0_0 : ∀ a, (![0, 3, 0, 0] : Fin 4 → Nat) a + S8x16x64x64.size a ≤ S8x20x68x64.size a
  inb_S8192x1600_S8192x64_0_960 : ∀ a, (![0, 960] : Fin 2 → Nat) a + S8192x64.size a ≤ S8192x1600.size a
  packedbf16_S8192x1600_S8192x64_0_960 : (Rect.unit (s := S8192x1600) ![0, 960] S8192x64.size inb_S8192x1600_S8192x64_0_960).PackedRows (EltTy.packing .bf16)
  inb_S8x20x68x64_S8x16x64x64_0_3_1_0 : ∀ a, (![0, 3, 1, 0] : Fin 4 → Nat) a + S8x16x64x64.size a ≤ S8x20x68x64.size a
  inb_S8192x1600_S8192x64_0_1024 : ∀ a, (![0, 1024] : Fin 2 → Nat) a + S8192x64.size a ≤ S8192x1600.size a
  packedbf16_S8192x1600_S8192x64_0_1024 : (Rect.unit (s := S8192x1600) ![0, 1024] S8192x64.size inb_S8192x1600_S8192x64_0_1024).PackedRows (EltTy.packing .bf16)
  inb_S8x20x68x64_S8x16x64x64_0_3_2_0 : ∀ a, (![0, 3, 2, 0] : Fin 4 → Nat) a + S8x16x64x64.size a ≤ S8x20x68x64.size a
  inb_S8192x1600_S8192x64_0_1088 : ∀ a, (![0, 1088] : Fin 2 → Nat) a + S8192x64.size a ≤ S8192x1600.size a
  packedbf16_S8192x1600_S8192x64_0_1088 : (Rect.unit (s := S8192x1600) ![0, 1088] S8192x64.size inb_S8192x1600_S8192x64_0_1088).PackedRows (EltTy.packing .bf16)
  inb_S8x20x68x64_S8x16x64x64_0_3_3_0 : ∀ a, (![0, 3, 3, 0] : Fin 4 → Nat) a + S8x16x64x64.size a ≤ S8x20x68x64.size a
  inb_S8192x1600_S8192x64_0_1152 : ∀ a, (![0, 1152] : Fin 2 → Nat) a + S8192x64.size a ≤ S8192x1600.size a
  packedbf16_S8192x1600_S8192x64_0_1152 : (Rect.unit (s := S8192x1600) ![0, 1152] S8192x64.size inb_S8192x1600_S8192x64_0_1152).PackedRows (EltTy.packing .bf16)
  inb_S8x20x68x64_S8x16x64x64_0_3_4_0 : ∀ a, (![0, 3, 4, 0] : Fin 4 → Nat) a + S8x16x64x64.size a ≤ S8x20x68x64.size a
  inb_S8192x1600_S8192x64_0_1216 : ∀ a, (![0, 1216] : Fin 2 → Nat) a + S8192x64.size a ≤ S8192x1600.size a
  packedbf16_S8192x1600_S8192x64_0_1216 : (Rect.unit (s := S8192x1600) ![0, 1216] S8192x64.size inb_S8192x1600_S8192x64_0_1216).PackedRows (EltTy.packing .bf16)
  inb_S8x20x68x64_S8x16x64x64_0_4_0_0 : ∀ a, (![0, 4, 0, 0] : Fin 4 → Nat) a + S8x16x64x64.size a ≤ S8x20x68x64.size a
  inb_S8192x1600_S8192x64_0_1280 : ∀ a, (![0, 1280] : Fin 2 → Nat) a + S8192x64.size a ≤ S8192x1600.size a
  packedbf16_S8192x1600_S8192x64_0_1280 : (Rect.unit (s := S8192x1600) ![0, 1280] S8192x64.size inb_S8192x1600_S8192x64_0_1280).PackedRows (EltTy.packing .bf16)
  inb_S8x20x68x64_S8x16x64x64_0_4_1_0 : ∀ a, (![0, 4, 1, 0] : Fin 4 → Nat) a + S8x16x64x64.size a ≤ S8x20x68x64.size a
  inb_S8192x1600_S8192x64_0_1344 : ∀ a, (![0, 1344] : Fin 2 → Nat) a + S8192x64.size a ≤ S8192x1600.size a
  packedbf16_S8192x1600_S8192x64_0_1344 : (Rect.unit (s := S8192x1600) ![0, 1344] S8192x64.size inb_S8192x1600_S8192x64_0_1344).PackedRows (EltTy.packing .bf16)
  inb_S8x20x68x64_S8x16x64x64_0_4_2_0 : ∀ a, (![0, 4, 2, 0] : Fin 4 → Nat) a + S8x16x64x64.size a ≤ S8x20x68x64.size a
  inb_S8192x1600_S8192x64_0_1408 : ∀ a, (![0, 1408] : Fin 2 → Nat) a + S8192x64.size a ≤ S8192x1600.size a
  packedbf16_S8192x1600_S8192x64_0_1408 : (Rect.unit (s := S8192x1600) ![0, 1408] S8192x64.size inb_S8192x1600_S8192x64_0_1408).PackedRows (EltTy.packing .bf16)
  inb_S8x20x68x64_S8x16x64x64_0_4_3_0 : ∀ a, (![0, 4, 3, 0] : Fin 4 → Nat) a + S8x16x64x64.size a ≤ S8x20x68x64.size a
  inb_S8192x1600_S8192x64_0_1472 : ∀ a, (![0, 1472] : Fin 2 → Nat) a + S8192x64.size a ≤ S8192x1600.size a
  packedbf16_S8192x1600_S8192x64_0_1472 : (Rect.unit (s := S8192x1600) ![0, 1472] S8192x64.size inb_S8192x1600_S8192x64_0_1472).PackedRows (EltTy.packing .bf16)
  inb_S8x20x68x64_S8x16x64x64_0_4_4_0 : ∀ a, (![0, 4, 4, 0] : Fin 4 → Nat) a + S8x16x64x64.size a ≤ S8x20x68x64.size a
  inb_S8192x1600_S8192x64_0_1536 : ∀ a, (![0, 1536] : Fin 2 → Nat) a + S8192x64.size a ≤ S8192x1600.size a
  packedbf16_S8192x1600_S8192x64_0_1536 : (Rect.unit (s := S8192x1600) ![0, 1536] S8192x64.size inb_S8192x1600_S8192x64_0_1536).PackedRows (EltTy.packing .bf16)
  inb_S8192x1600_S8192x1600_0_0 : ∀ a, (![0, 0] : Fin 2 → Nat) a + S8192x1600.size a ≤ S8192x1600.size a
  h_S8192x1600 : 0 < S8192x1600.numel
  inb_S1600x64_S1600x64_0_0 : ∀ a, (![0, 0] : Fin 2 → Nat) a + S1600x64.size a ≤ S1600x64.size a
  h_S1600x64 : 0 < S1600x64.numel
  shapeCasts_S8192x64_S2048x4x64 : S8192x64.ShapeCasts S2048x4x64
  reduces_S2048x4x64_S2048x64 : S2048x4x64.Reduces [1] S2048x64
  shapeCasts_S2048x64_S8x16x16x64 : S2048x64.ShapeCasts S8x16x16x64
  inb_S8x16x16x64_S8x16x16x64_0_0_0_0 : ∀ a, (![0, 0, 0, 0] : Fin 4 → Nat) a + S8x16x16x64.size a ≤ S8x16x16x64.size a
  h_S8x16x16x64 : 0 < S8x16x16x64.numel
  packedbf16_S8x16x16x64_S8x16x16x64_0_0_0_0 : (Rect.unit (s := S8x16x16x64) ![0, 0, 0, 0] S8x16x16x64.size inb_S8x16x16x64_S8x16x16x64_0_0_0_0).PackedRows (EltTy.packing .bf16)
  pads_S8x16x16x64_S8x20x20x64_000_220_220_000 : S8x16x16x64.Pads (![0, 2, 2, 0] : Fin 4 → Nat) ![0, 2, 2, 0] ![0, 0, 0, 0] S8x20x20x64
  shapeCasts_S128_S1x128 : S128.ShapeCasts S1x128
  inb_S8x20x20x64_S8x16x16x64_0_0_0_0 : ∀ a, (![0, 0, 0, 0] : Fin 4 → Nat) a + S8x16x16x64.size a ≤ S8x20x20x64.size a
  shapeCasts_S8x16x16x64_S8x16x16x64 : S8x16x16x64.ShapeCasts S8x16x16x64
  shapeCasts_S8x16x16x64_S2048x64 : S8x16x16x64.ShapeCasts S2048x64
  inb_S2048x1600_S2048x64_0_0 : ∀ a, (![0, 0] : Fin 2 → Nat) a + S2048x64.size a ≤ S2048x1600.size a
  h_S2048x64 : 0 < S2048x64.numel
  shapeCasts_S2048x64_S2048x64 : S2048x64.ShapeCasts S2048x64
  packedbf16_S2048x1600_S2048x64_0_0 : (Rect.unit (s := S2048x1600) ![0, 0] S2048x64.size inb_S2048x1600_S2048x64_0_0).PackedRows (EltTy.packing .bf16)
  inb_S8x20x20x64_S8x16x16x64_0_0_1_0 : ∀ a, (![0, 0, 1, 0] : Fin 4 → Nat) a + S8x16x16x64.size a ≤ S8x20x20x64.size a
  inb_S2048x1600_S2048x64_0_64 : ∀ a, (![0, 64] : Fin 2 → Nat) a + S2048x64.size a ≤ S2048x1600.size a
  packedbf16_S2048x1600_S2048x64_0_64 : (Rect.unit (s := S2048x1600) ![0, 64] S2048x64.size inb_S2048x1600_S2048x64_0_64).PackedRows (EltTy.packing .bf16)
  inb_S8x20x20x64_S8x16x16x64_0_0_2_0 : ∀ a, (![0, 0, 2, 0] : Fin 4 → Nat) a + S8x16x16x64.size a ≤ S8x20x20x64.size a
  inb_S2048x1600_S2048x64_0_128 : ∀ a, (![0, 128] : Fin 2 → Nat) a + S2048x64.size a ≤ S2048x1600.size a
  packedbf16_S2048x1600_S2048x64_0_128 : (Rect.unit (s := S2048x1600) ![0, 128] S2048x64.size inb_S2048x1600_S2048x64_0_128).PackedRows (EltTy.packing .bf16)
  inb_S8x20x20x64_S8x16x16x64_0_0_3_0 : ∀ a, (![0, 0, 3, 0] : Fin 4 → Nat) a + S8x16x16x64.size a ≤ S8x20x20x64.size a
  inb_S2048x1600_S2048x64_0_192 : ∀ a, (![0, 192] : Fin 2 → Nat) a + S2048x64.size a ≤ S2048x1600.size a
  packedbf16_S2048x1600_S2048x64_0_192 : (Rect.unit (s := S2048x1600) ![0, 192] S2048x64.size inb_S2048x1600_S2048x64_0_192).PackedRows (EltTy.packing .bf16)
  inb_S8x20x20x64_S8x16x16x64_0_0_4_0 : ∀ a, (![0, 0, 4, 0] : Fin 4 → Nat) a + S8x16x16x64.size a ≤ S8x20x20x64.size a
  inb_S2048x1600_S2048x64_0_256 : ∀ a, (![0, 256] : Fin 2 → Nat) a + S2048x64.size a ≤ S2048x1600.size a
  packedbf16_S2048x1600_S2048x64_0_256 : (Rect.unit (s := S2048x1600) ![0, 256] S2048x64.size inb_S2048x1600_S2048x64_0_256).PackedRows (EltTy.packing .bf16)
  inb_S8x20x20x64_S8x16x16x64_0_1_0_0 : ∀ a, (![0, 1, 0, 0] : Fin 4 → Nat) a + S8x16x16x64.size a ≤ S8x20x20x64.size a
  inb_S2048x1600_S2048x64_0_320 : ∀ a, (![0, 320] : Fin 2 → Nat) a + S2048x64.size a ≤ S2048x1600.size a
  packedbf16_S2048x1600_S2048x64_0_320 : (Rect.unit (s := S2048x1600) ![0, 320] S2048x64.size inb_S2048x1600_S2048x64_0_320).PackedRows (EltTy.packing .bf16)
  inb_S8x20x20x64_S8x16x16x64_0_1_1_0 : ∀ a, (![0, 1, 1, 0] : Fin 4 → Nat) a + S8x16x16x64.size a ≤ S8x20x20x64.size a
  inb_S2048x1600_S2048x64_0_384 : ∀ a, (![0, 384] : Fin 2 → Nat) a + S2048x64.size a ≤ S2048x1600.size a
  packedbf16_S2048x1600_S2048x64_0_384 : (Rect.unit (s := S2048x1600) ![0, 384] S2048x64.size inb_S2048x1600_S2048x64_0_384).PackedRows (EltTy.packing .bf16)
  inb_S8x20x20x64_S8x16x16x64_0_1_2_0 : ∀ a, (![0, 1, 2, 0] : Fin 4 → Nat) a + S8x16x16x64.size a ≤ S8x20x20x64.size a
  inb_S2048x1600_S2048x64_0_448 : ∀ a, (![0, 448] : Fin 2 → Nat) a + S2048x64.size a ≤ S2048x1600.size a
  packedbf16_S2048x1600_S2048x64_0_448 : (Rect.unit (s := S2048x1600) ![0, 448] S2048x64.size inb_S2048x1600_S2048x64_0_448).PackedRows (EltTy.packing .bf16)
  inb_S8x20x20x64_S8x16x16x64_0_1_3_0 : ∀ a, (![0, 1, 3, 0] : Fin 4 → Nat) a + S8x16x16x64.size a ≤ S8x20x20x64.size a
  inb_S2048x1600_S2048x64_0_512 : ∀ a, (![0, 512] : Fin 2 → Nat) a + S2048x64.size a ≤ S2048x1600.size a
  packedbf16_S2048x1600_S2048x64_0_512 : (Rect.unit (s := S2048x1600) ![0, 512] S2048x64.size inb_S2048x1600_S2048x64_0_512).PackedRows (EltTy.packing .bf16)
  inb_S8x20x20x64_S8x16x16x64_0_1_4_0 : ∀ a, (![0, 1, 4, 0] : Fin 4 → Nat) a + S8x16x16x64.size a ≤ S8x20x20x64.size a
  inb_S2048x1600_S2048x64_0_576 : ∀ a, (![0, 576] : Fin 2 → Nat) a + S2048x64.size a ≤ S2048x1600.size a
  packedbf16_S2048x1600_S2048x64_0_576 : (Rect.unit (s := S2048x1600) ![0, 576] S2048x64.size inb_S2048x1600_S2048x64_0_576).PackedRows (EltTy.packing .bf16)
  inb_S8x20x20x64_S8x16x16x64_0_2_0_0 : ∀ a, (![0, 2, 0, 0] : Fin 4 → Nat) a + S8x16x16x64.size a ≤ S8x20x20x64.size a
  inb_S2048x1600_S2048x64_0_640 : ∀ a, (![0, 640] : Fin 2 → Nat) a + S2048x64.size a ≤ S2048x1600.size a
  packedbf16_S2048x1600_S2048x64_0_640 : (Rect.unit (s := S2048x1600) ![0, 640] S2048x64.size inb_S2048x1600_S2048x64_0_640).PackedRows (EltTy.packing .bf16)
  inb_S8x20x20x64_S8x16x16x64_0_2_1_0 : ∀ a, (![0, 2, 1, 0] : Fin 4 → Nat) a + S8x16x16x64.size a ≤ S8x20x20x64.size a
  inb_S2048x1600_S2048x64_0_704 : ∀ a, (![0, 704] : Fin 2 → Nat) a + S2048x64.size a ≤ S2048x1600.size a
  packedbf16_S2048x1600_S2048x64_0_704 : (Rect.unit (s := S2048x1600) ![0, 704] S2048x64.size inb_S2048x1600_S2048x64_0_704).PackedRows (EltTy.packing .bf16)
  inb_S8x20x20x64_S8x16x16x64_0_2_2_0 : ∀ a, (![0, 2, 2, 0] : Fin 4 → Nat) a + S8x16x16x64.size a ≤ S8x20x20x64.size a
  inb_S2048x1600_S2048x64_0_768 : ∀ a, (![0, 768] : Fin 2 → Nat) a + S2048x64.size a ≤ S2048x1600.size a
  packedbf16_S2048x1600_S2048x64_0_768 : (Rect.unit (s := S2048x1600) ![0, 768] S2048x64.size inb_S2048x1600_S2048x64_0_768).PackedRows (EltTy.packing .bf16)
  inb_S8x20x20x64_S8x16x16x64_0_2_3_0 : ∀ a, (![0, 2, 3, 0] : Fin 4 → Nat) a + S8x16x16x64.size a ≤ S8x20x20x64.size a
  inb_S2048x1600_S2048x64_0_832 : ∀ a, (![0, 832] : Fin 2 → Nat) a + S2048x64.size a ≤ S2048x1600.size a
  packedbf16_S2048x1600_S2048x64_0_832 : (Rect.unit (s := S2048x1600) ![0, 832] S2048x64.size inb_S2048x1600_S2048x64_0_832).PackedRows (EltTy.packing .bf16)
  inb_S8x20x20x64_S8x16x16x64_0_2_4_0 : ∀ a, (![0, 2, 4, 0] : Fin 4 → Nat) a + S8x16x16x64.size a ≤ S8x20x20x64.size a
  inb_S2048x1600_S2048x64_0_896 : ∀ a, (![0, 896] : Fin 2 → Nat) a + S2048x64.size a ≤ S2048x1600.size a
  packedbf16_S2048x1600_S2048x64_0_896 : (Rect.unit (s := S2048x1600) ![0, 896] S2048x64.size inb_S2048x1600_S2048x64_0_896).PackedRows (EltTy.packing .bf16)
  inb_S8x20x20x64_S8x16x16x64_0_3_0_0 : ∀ a, (![0, 3, 0, 0] : Fin 4 → Nat) a + S8x16x16x64.size a ≤ S8x20x20x64.size a
  inb_S2048x1600_S2048x64_0_960 : ∀ a, (![0, 960] : Fin 2 → Nat) a + S2048x64.size a ≤ S2048x1600.size a
  packedbf16_S2048x1600_S2048x64_0_960 : (Rect.unit (s := S2048x1600) ![0, 960] S2048x64.size inb_S2048x1600_S2048x64_0_960).PackedRows (EltTy.packing .bf16)
  inb_S8x20x20x64_S8x16x16x64_0_3_1_0 : ∀ a, (![0, 3, 1, 0] : Fin 4 → Nat) a + S8x16x16x64.size a ≤ S8x20x20x64.size a
  inb_S2048x1600_S2048x64_0_1024 : ∀ a, (![0, 1024] : Fin 2 → Nat) a + S2048x64.size a ≤ S2048x1600.size a
  packedbf16_S2048x1600_S2048x64_0_1024 : (Rect.unit (s := S2048x1600) ![0, 1024] S2048x64.size inb_S2048x1600_S2048x64_0_1024).PackedRows (EltTy.packing .bf16)
  inb_S8x20x20x64_S8x16x16x64_0_3_2_0 : ∀ a, (![0, 3, 2, 0] : Fin 4 → Nat) a + S8x16x16x64.size a ≤ S8x20x20x64.size a
  inb_S2048x1600_S2048x64_0_1088 : ∀ a, (![0, 1088] : Fin 2 → Nat) a + S2048x64.size a ≤ S2048x1600.size a
  packedbf16_S2048x1600_S2048x64_0_1088 : (Rect.unit (s := S2048x1600) ![0, 1088] S2048x64.size inb_S2048x1600_S2048x64_0_1088).PackedRows (EltTy.packing .bf16)
  inb_S8x20x20x64_S8x16x16x64_0_3_3_0 : ∀ a, (![0, 3, 3, 0] : Fin 4 → Nat) a + S8x16x16x64.size a ≤ S8x20x20x64.size a
  inb_S2048x1600_S2048x64_0_1152 : ∀ a, (![0, 1152] : Fin 2 → Nat) a + S2048x64.size a ≤ S2048x1600.size a
  packedbf16_S2048x1600_S2048x64_0_1152 : (Rect.unit (s := S2048x1600) ![0, 1152] S2048x64.size inb_S2048x1600_S2048x64_0_1152).PackedRows (EltTy.packing .bf16)
  inb_S8x20x20x64_S8x16x16x64_0_3_4_0 : ∀ a, (![0, 3, 4, 0] : Fin 4 → Nat) a + S8x16x16x64.size a ≤ S8x20x20x64.size a
  inb_S2048x1600_S2048x64_0_1216 : ∀ a, (![0, 1216] : Fin 2 → Nat) a + S2048x64.size a ≤ S2048x1600.size a
  packedbf16_S2048x1600_S2048x64_0_1216 : (Rect.unit (s := S2048x1600) ![0, 1216] S2048x64.size inb_S2048x1600_S2048x64_0_1216).PackedRows (EltTy.packing .bf16)
  inb_S8x20x20x64_S8x16x16x64_0_4_0_0 : ∀ a, (![0, 4, 0, 0] : Fin 4 → Nat) a + S8x16x16x64.size a ≤ S8x20x20x64.size a
  inb_S2048x1600_S2048x64_0_1280 : ∀ a, (![0, 1280] : Fin 2 → Nat) a + S2048x64.size a ≤ S2048x1600.size a
  packedbf16_S2048x1600_S2048x64_0_1280 : (Rect.unit (s := S2048x1600) ![0, 1280] S2048x64.size inb_S2048x1600_S2048x64_0_1280).PackedRows (EltTy.packing .bf16)
  inb_S8x20x20x64_S8x16x16x64_0_4_1_0 : ∀ a, (![0, 4, 1, 0] : Fin 4 → Nat) a + S8x16x16x64.size a ≤ S8x20x20x64.size a
  inb_S2048x1600_S2048x64_0_1344 : ∀ a, (![0, 1344] : Fin 2 → Nat) a + S2048x64.size a ≤ S2048x1600.size a
  packedbf16_S2048x1600_S2048x64_0_1344 : (Rect.unit (s := S2048x1600) ![0, 1344] S2048x64.size inb_S2048x1600_S2048x64_0_1344).PackedRows (EltTy.packing .bf16)
  inb_S8x20x20x64_S8x16x16x64_0_4_2_0 : ∀ a, (![0, 4, 2, 0] : Fin 4 → Nat) a + S8x16x16x64.size a ≤ S8x20x20x64.size a
  inb_S2048x1600_S2048x64_0_1408 : ∀ a, (![0, 1408] : Fin 2 → Nat) a + S2048x64.size a ≤ S2048x1600.size a
  packedbf16_S2048x1600_S2048x64_0_1408 : (Rect.unit (s := S2048x1600) ![0, 1408] S2048x64.size inb_S2048x1600_S2048x64_0_1408).PackedRows (EltTy.packing .bf16)
  inb_S8x20x20x64_S8x16x16x64_0_4_3_0 : ∀ a, (![0, 4, 3, 0] : Fin 4 → Nat) a + S8x16x16x64.size a ≤ S8x20x20x64.size a
  inb_S2048x1600_S2048x64_0_1472 : ∀ a, (![0, 1472] : Fin 2 → Nat) a + S2048x64.size a ≤ S2048x1600.size a
  packedbf16_S2048x1600_S2048x64_0_1472 : (Rect.unit (s := S2048x1600) ![0, 1472] S2048x64.size inb_S2048x1600_S2048x64_0_1472).PackedRows (EltTy.packing .bf16)
  inb_S8x20x20x64_S8x16x16x64_0_4_4_0 : ∀ a, (![0, 4, 4, 0] : Fin 4 → Nat) a + S8x16x16x64.size a ≤ S8x20x20x64.size a
  inb_S2048x1600_S2048x64_0_1536 : ∀ a, (![0, 1536] : Fin 2 → Nat) a + S2048x64.size a ≤ S2048x1600.size a
  packedbf16_S2048x1600_S2048x64_0_1536 : (Rect.unit (s := S2048x1600) ![0, 1536] S2048x64.size inb_S2048x1600_S2048x64_0_1536).PackedRows (EltTy.packing .bf16)
  inb_S2048x1600_S2048x1600_0_0 : ∀ a, (![0, 0] : Fin 2 → Nat) a + S2048x1600.size a ≤ S2048x1600.size a
  h_S2048x1600 : 0 < S2048x1600.numel
  inb_S1600x128_S1600x128_0_0 : ∀ a, (![0, 0] : Fin 2 → Nat) a + S1600x128.size a ≤ S1600x128.size a
  h_S1600x128 : 0 < S1600x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S8x20x20x128_S8x20x20x128_0_0_0_0 : ∀ a, (![0, 0, 0, 0] : Fin 4 → Nat) a + S8x20x20x128.size a ≤ S8x20x20x128.size a
  h_S8x20x20x128 : 0 < S8x20x20x128.numel
  shapeCasts_S8x20x20x128_S8x20x20x128 : S8x20x20x128.ShapeCasts S8x20x20x128
  packedbf16_S8x20x20x128_S8x20x20x128_0_0_0_0 : (Rect.unit (s := S8x20x20x128) ![0, 0, 0, 0] S8x20x20x128.size inb_S8x20x20x128_S8x20x20x128_0_0_0_0).PackedRows (EltTy.packing .bf16)
  shapeCasts_S2048x128_S8x16x16x128 : S2048x128.ShapeCasts S8x16x16x128
  inb_S8x20x20x128_S8x16x16x128_0_2_2_0 : ∀ a, (![0, 2, 2, 0] : Fin 4 → Nat) a + S8x16x16x128.size a ≤ S8x20x20x128.size a
  h_S8x16x16x128 : 0 < S8x16x16x128.numel
  shapeCasts_S8x16x16x128_S8x16x16x128 : S8x16x16x128.ShapeCasts S8x16x16x128
  packedbf16_S8x20x20x128_S8x16x16x128_0_2_2_0 : (Rect.unit (s := S8x20x20x128) ![0, 2, 2, 0] S8x16x16x128.size inb_S8x20x20x128_S8x16x16x128_0_2_2_0).PackedRows (EltTy.packing .bf16)
  inb_S8x20x20x128_S8x16x16x128_0_0_0_0 : ∀ a, (![0, 0, 0, 0] : Fin 4 → Nat) a + S8x16x16x128.size a ≤ S8x20x20x128.size a
  shapeCasts_S8x16x16x128_S2048x128 : S8x16x16x128.ShapeCasts S2048x128
  inb_S2048x3200_S2048x128_0_0 : ∀ a, (![0, 0] : Fin 2 → Nat) a + S2048x128.size a ≤ S2048x3200.size a
  h_S2048x128 : 0 < S2048x128.numel
  shapeCasts_S2048x128_S2048x128 : S2048x128.ShapeCasts S2048x128
  packedbf16_S2048x3200_S2048x128_0_0 : (Rect.unit (s := S2048x3200) ![0, 0] S2048x128.size inb_S2048x3200_S2048x128_0_0).PackedRows (EltTy.packing .bf16)
  inb_S8x20x20x128_S8x16x16x128_0_0_1_0 : ∀ a, (![0, 0, 1, 0] : Fin 4 → Nat) a + S8x16x16x128.size a ≤ S8x20x20x128.size a
  inb_S2048x3200_S2048x128_0_128 : ∀ a, (![0, 128] : Fin 2 → Nat) a + S2048x128.size a ≤ S2048x3200.size a
  packedbf16_S2048x3200_S2048x128_0_128 : (Rect.unit (s := S2048x3200) ![0, 128] S2048x128.size inb_S2048x3200_S2048x128_0_128).PackedRows (EltTy.packing .bf16)
  inb_S8x20x20x128_S8x16x16x128_0_0_2_0 : ∀ a, (![0, 0, 2, 0] : Fin 4 → Nat) a + S8x16x16x128.size a ≤ S8x20x20x128.size a
  inb_S2048x3200_S2048x128_0_256 : ∀ a, (![0, 256] : Fin 2 → Nat) a + S2048x128.size a ≤ S2048x3200.size a
  packedbf16_S2048x3200_S2048x128_0_256 : (Rect.unit (s := S2048x3200) ![0, 256] S2048x128.size inb_S2048x3200_S2048x128_0_256).PackedRows (EltTy.packing .bf16)
  inb_S8x20x20x128_S8x16x16x128_0_0_3_0 : ∀ a, (![0, 0, 3, 0] : Fin 4 → Nat) a + S8x16x16x128.size a ≤ S8x20x20x128.size a
  inb_S2048x3200_S2048x128_0_384 : ∀ a, (![0, 384] : Fin 2 → Nat) a + S2048x128.size a ≤ S2048x3200.size a
  packedbf16_S2048x3200_S2048x128_0_384 : (Rect.unit (s := S2048x3200) ![0, 384] S2048x128.size inb_S2048x3200_S2048x128_0_384).PackedRows (EltTy.packing .bf16)
  inb_S8x20x20x128_S8x16x16x128_0_0_4_0 : ∀ a, (![0, 0, 4, 0] : Fin 4 → Nat) a + S8x16x16x128.size a ≤ S8x20x20x128.size a
  inb_S2048x3200_S2048x128_0_512 : ∀ a, (![0, 512] : Fin 2 → Nat) a + S2048x128.size a ≤ S2048x3200.size a
  packedbf16_S2048x3200_S2048x128_0_512 : (Rect.unit (s := S2048x3200) ![0, 512] S2048x128.size inb_S2048x3200_S2048x128_0_512).PackedRows (EltTy.packing .bf16)
  inb_S8x20x20x128_S8x16x16x128_0_1_0_0 : ∀ a, (![0, 1, 0, 0] : Fin 4 → Nat) a + S8x16x16x128.size a ≤ S8x20x20x128.size a
  inb_S2048x3200_S2048x128_0_640 : ∀ a, (![0, 640] : Fin 2 → Nat) a + S2048x128.size a ≤ S2048x3200.size a
  packedbf16_S2048x3200_S2048x128_0_640 : (Rect.unit (s := S2048x3200) ![0, 640] S2048x128.size inb_S2048x3200_S2048x128_0_640).PackedRows (EltTy.packing .bf16)
  inb_S8x20x20x128_S8x16x16x128_0_1_1_0 : ∀ a, (![0, 1, 1, 0] : Fin 4 → Nat) a + S8x16x16x128.size a ≤ S8x20x20x128.size a
  inb_S2048x3200_S2048x128_0_768 : ∀ a, (![0, 768] : Fin 2 → Nat) a + S2048x128.size a ≤ S2048x3200.size a
  packedbf16_S2048x3200_S2048x128_0_768 : (Rect.unit (s := S2048x3200) ![0, 768] S2048x128.size inb_S2048x3200_S2048x128_0_768).PackedRows (EltTy.packing .bf16)
  inb_S8x20x20x128_S8x16x16x128_0_1_2_0 : ∀ a, (![0, 1, 2, 0] : Fin 4 → Nat) a + S8x16x16x128.size a ≤ S8x20x20x128.size a
  inb_S2048x3200_S2048x128_0_896 : ∀ a, (![0, 896] : Fin 2 → Nat) a + S2048x128.size a ≤ S2048x3200.size a
  packedbf16_S2048x3200_S2048x128_0_896 : (Rect.unit (s := S2048x3200) ![0, 896] S2048x128.size inb_S2048x3200_S2048x128_0_896).PackedRows (EltTy.packing .bf16)
  inb_S8x20x20x128_S8x16x16x128_0_1_3_0 : ∀ a, (![0, 1, 3, 0] : Fin 4 → Nat) a + S8x16x16x128.size a ≤ S8x20x20x128.size a
  inb_S2048x3200_S2048x128_0_1024 : ∀ a, (![0, 1024] : Fin 2 → Nat) a + S2048x128.size a ≤ S2048x3200.size a
  packedbf16_S2048x3200_S2048x128_0_1024 : (Rect.unit (s := S2048x3200) ![0, 1024] S2048x128.size inb_S2048x3200_S2048x128_0_1024).PackedRows (EltTy.packing .bf16)
  inb_S8x20x20x128_S8x16x16x128_0_1_4_0 : ∀ a, (![0, 1, 4, 0] : Fin 4 → Nat) a + S8x16x16x128.size a ≤ S8x20x20x128.size a
  inb_S2048x3200_S2048x128_0_1152 : ∀ a, (![0, 1152] : Fin 2 → Nat) a + S2048x128.size a ≤ S2048x3200.size a
  packedbf16_S2048x3200_S2048x128_0_1152 : (Rect.unit (s := S2048x3200) ![0, 1152] S2048x128.size inb_S2048x3200_S2048x128_0_1152).PackedRows (EltTy.packing .bf16)
  inb_S8x20x20x128_S8x16x16x128_0_2_0_0 : ∀ a, (![0, 2, 0, 0] : Fin 4 → Nat) a + S8x16x16x128.size a ≤ S8x20x20x128.size a
  inb_S2048x3200_S2048x128_0_1280 : ∀ a, (![0, 1280] : Fin 2 → Nat) a + S2048x128.size a ≤ S2048x3200.size a
  packedbf16_S2048x3200_S2048x128_0_1280 : (Rect.unit (s := S2048x3200) ![0, 1280] S2048x128.size inb_S2048x3200_S2048x128_0_1280).PackedRows (EltTy.packing .bf16)
  inb_S8x20x20x128_S8x16x16x128_0_2_1_0 : ∀ a, (![0, 2, 1, 0] : Fin 4 → Nat) a + S8x16x16x128.size a ≤ S8x20x20x128.size a
  inb_S2048x3200_S2048x128_0_1408 : ∀ a, (![0, 1408] : Fin 2 → Nat) a + S2048x128.size a ≤ S2048x3200.size a
  packedbf16_S2048x3200_S2048x128_0_1408 : (Rect.unit (s := S2048x3200) ![0, 1408] S2048x128.size inb_S2048x3200_S2048x128_0_1408).PackedRows (EltTy.packing .bf16)
  inb_S2048x3200_S2048x128_0_1536 : ∀ a, (![0, 1536] : Fin 2 → Nat) a + S2048x128.size a ≤ S2048x3200.size a
  packedbf16_S2048x3200_S2048x128_0_1536 : (Rect.unit (s := S2048x3200) ![0, 1536] S2048x128.size inb_S2048x3200_S2048x128_0_1536).PackedRows (EltTy.packing .bf16)
  inb_S8x20x20x128_S8x16x16x128_0_2_3_0 : ∀ a, (![0, 2, 3, 0] : Fin 4 → Nat) a + S8x16x16x128.size a ≤ S8x20x20x128.size a
  inb_S2048x3200_S2048x128_0_1664 : ∀ a, (![0, 1664] : Fin 2 → Nat) a + S2048x128.size a ≤ S2048x3200.size a
  packedbf16_S2048x3200_S2048x128_0_1664 : (Rect.unit (s := S2048x3200) ![0, 1664] S2048x128.size inb_S2048x3200_S2048x128_0_1664).PackedRows (EltTy.packing .bf16)
  inb_S8x20x20x128_S8x16x16x128_0_2_4_0 : ∀ a, (![0, 2, 4, 0] : Fin 4 → Nat) a + S8x16x16x128.size a ≤ S8x20x20x128.size a
  inb_S2048x3200_S2048x128_0_1792 : ∀ a, (![0, 1792] : Fin 2 → Nat) a + S2048x128.size a ≤ S2048x3200.size a
  packedbf16_S2048x3200_S2048x128_0_1792 : (Rect.unit (s := S2048x3200) ![0, 1792] S2048x128.size inb_S2048x3200_S2048x128_0_1792).PackedRows (EltTy.packing .bf16)
  inb_S8x20x20x128_S8x16x16x128_0_3_0_0 : ∀ a, (![0, 3, 0, 0] : Fin 4 → Nat) a + S8x16x16x128.size a ≤ S8x20x20x128.size a
  inb_S2048x3200_S2048x128_0_1920 : ∀ a, (![0, 1920] : Fin 2 → Nat) a + S2048x128.size a ≤ S2048x3200.size a
  packedbf16_S2048x3200_S2048x128_0_1920 : (Rect.unit (s := S2048x3200) ![0, 1920] S2048x128.size inb_S2048x3200_S2048x128_0_1920).PackedRows (EltTy.packing .bf16)
  inb_S8x20x20x128_S8x16x16x128_0_3_1_0 : ∀ a, (![0, 3, 1, 0] : Fin 4 → Nat) a + S8x16x16x128.size a ≤ S8x20x20x128.size a
  inb_S2048x3200_S2048x128_0_2048 : ∀ a, (![0, 2048] : Fin 2 → Nat) a + S2048x128.size a ≤ S2048x3200.size a
  packedbf16_S2048x3200_S2048x128_0_2048 : (Rect.unit (s := S2048x3200) ![0, 2048] S2048x128.size inb_S2048x3200_S2048x128_0_2048).PackedRows (EltTy.packing .bf16)
  inb_S8x20x20x128_S8x16x16x128_0_3_2_0 : ∀ a, (![0, 3, 2, 0] : Fin 4 → Nat) a + S8x16x16x128.size a ≤ S8x20x20x128.size a
  inb_S2048x3200_S2048x128_0_2176 : ∀ a, (![0, 2176] : Fin 2 → Nat) a + S2048x128.size a ≤ S2048x3200.size a
  packedbf16_S2048x3200_S2048x128_0_2176 : (Rect.unit (s := S2048x3200) ![0, 2176] S2048x128.size inb_S2048x3200_S2048x128_0_2176).PackedRows (EltTy.packing .bf16)
  inb_S8x20x20x128_S8x16x16x128_0_3_3_0 : ∀ a, (![0, 3, 3, 0] : Fin 4 → Nat) a + S8x16x16x128.size a ≤ S8x20x20x128.size a
  inb_S2048x3200_S2048x128_0_2304 : ∀ a, (![0, 2304] : Fin 2 → Nat) a + S2048x128.size a ≤ S2048x3200.size a
  packedbf16_S2048x3200_S2048x128_0_2304 : (Rect.unit (s := S2048x3200) ![0, 2304] S2048x128.size inb_S2048x3200_S2048x128_0_2304).PackedRows (EltTy.packing .bf16)
  inb_S8x20x20x128_S8x16x16x128_0_3_4_0 : ∀ a, (![0, 3, 4, 0] : Fin 4 → Nat) a + S8x16x16x128.size a ≤ S8x20x20x128.size a
  inb_S2048x3200_S2048x128_0_2432 : ∀ a, (![0, 2432] : Fin 2 → Nat) a + S2048x128.size a ≤ S2048x3200.size a
  packedbf16_S2048x3200_S2048x128_0_2432 : (Rect.unit (s := S2048x3200) ![0, 2432] S2048x128.size inb_S2048x3200_S2048x128_0_2432).PackedRows (EltTy.packing .bf16)
  inb_S8x20x20x128_S8x16x16x128_0_4_0_0 : ∀ a, (![0, 4, 0, 0] : Fin 4 → Nat) a + S8x16x16x128.size a ≤ S8x20x20x128.size a
  inb_S2048x3200_S2048x128_0_2560 : ∀ a, (![0, 2560] : Fin 2 → Nat) a + S2048x128.size a ≤ S2048x3200.size a
  packedbf16_S2048x3200_S2048x128_0_2560 : (Rect.unit (s := S2048x3200) ![0, 2560] S2048x128.size inb_S2048x3200_S2048x128_0_2560).PackedRows (EltTy.packing .bf16)
  inb_S8x20x20x128_S8x16x16x128_0_4_1_0 : ∀ a, (![0, 4, 1, 0] : Fin 4 → Nat) a + S8x16x16x128.size a ≤ S8x20x20x128.size a
  inb_S2048x3200_S2048x128_0_2688 : ∀ a, (![0, 2688] : Fin 2 → Nat) a + S2048x128.size a ≤ S2048x3200.size a
  packedbf16_S2048x3200_S2048x128_0_2688 : (Rect.unit (s := S2048x3200) ![0, 2688] S2048x128.size inb_S2048x3200_S2048x128_0_2688).PackedRows (EltTy.packing .bf16)
  inb_S8x20x20x128_S8x16x16x128_0_4_2_0 : ∀ a, (![0, 4, 2, 0] : Fin 4 → Nat) a + S8x16x16x128.size a ≤ S8x20x20x128.size a
  inb_S2048x3200_S2048x128_0_2816 : ∀ a, (![0, 2816] : Fin 2 → Nat) a + S2048x128.size a ≤ S2048x3200.size a
  packedbf16_S2048x3200_S2048x128_0_2816 : (Rect.unit (s := S2048x3200) ![0, 2816] S2048x128.size inb_S2048x3200_S2048x128_0_2816).PackedRows (EltTy.packing .bf16)
  inb_S8x20x20x128_S8x16x16x128_0_4_3_0 : ∀ a, (![0, 4, 3, 0] : Fin 4 → Nat) a + S8x16x16x128.size a ≤ S8x20x20x128.size a
  inb_S2048x3200_S2048x128_0_2944 : ∀ a, (![0, 2944] : Fin 2 → Nat) a + S2048x128.size a ≤ S2048x3200.size a
  packedbf16_S2048x3200_S2048x128_0_2944 : (Rect.unit (s := S2048x3200) ![0, 2944] S2048x128.size inb_S2048x3200_S2048x128_0_2944).PackedRows (EltTy.packing .bf16)
  inb_S8x20x20x128_S8x16x16x128_0_4_4_0 : ∀ a, (![0, 4, 4, 0] : Fin 4 → Nat) a + S8x16x16x128.size a ≤ S8x20x20x128.size a
  inb_S2048x3200_S2048x128_0_3072 : ∀ a, (![0, 3072] : Fin 2 → Nat) a + S2048x128.size a ≤ S2048x3200.size a
  packedbf16_S2048x3200_S2048x128_0_3072 : (Rect.unit (s := S2048x3200) ![0, 3072] S2048x128.size inb_S2048x3200_S2048x128_0_3072).PackedRows (EltTy.packing .bf16)
  inb_S2048x3200_S2048x3200_0_0 : ∀ a, (![0, 0] : Fin 2 → Nat) a + S2048x3200.size a ≤ S2048x3200.size a
  h_S2048x3200 : 0 < S2048x3200.numel
  inb_S3200x128_S3200x128_0_0 : ∀ a, (![0, 0] : Fin 2 → Nat) a + S3200x128.size a ≤ S3200x128.size a
  h_S3200x128 : 0 < S3200x128.numel
  shapeCasts_S2048x128_S512x4x128 : S2048x128.ShapeCasts S512x4x128
  reduces_S512x4x128_S512x128 : S512x4x128.Reduces [1] S512x128
  shapeCasts_S512x128_S8x16x4x128 : S512x128.ShapeCasts S8x16x4x128
  inb_S8x16x4x128_S8x16x4x128_0_0_0_0 : ∀ a, (![0, 0, 0, 0] : Fin 4 → Nat) a + S8x16x4x128.size a ≤ S8x16x4x128.size a
  h_S8x16x4x128 : 0 < S8x16x4x128.numel
  packedbf16_S8x16x4x128_S8x16x4x128_0_0_0_0 : (Rect.unit (s := S8x16x4x128) ![0, 0, 0, 0] S8x16x4x128.size inb_S8x16x4x128_S8x16x4x128_0_0_0_0).PackedRows (EltTy.packing .bf16)
  pads_S8x16x4x128_S8x20x8x128_000_220_220_000 : S8x16x4x128.Pads (![0, 2, 2, 0] : Fin 4 → Nat) ![0, 2, 2, 0] ![0, 0, 0, 0] S8x20x8x128
  shapeCasts_S256_S1x256 : S256.ShapeCasts S1x256
  inb_S8x20x8x128_S8x16x4x128_0_0_0_0 : ∀ a, (![0, 0, 0, 0] : Fin 4 → Nat) a + S8x16x4x128.size a ≤ S8x20x8x128.size a
  shapeCasts_S8x16x4x128_S8x16x4x128 : S8x16x4x128.ShapeCasts S8x16x4x128
  shapeCasts_S8x16x4x128_S512x128 : S8x16x4x128.ShapeCasts S512x128
  inb_S512x3200_S512x128_0_0 : ∀ a, (![0, 0] : Fin 2 → Nat) a + S512x128.size a ≤ S512x3200.size a
  h_S512x128 : 0 < S512x128.numel
  shapeCasts_S512x128_S512x128 : S512x128.ShapeCasts S512x128
  packedbf16_S512x3200_S512x128_0_0 : (Rect.unit (s := S512x3200) ![0, 0] S512x128.size inb_S512x3200_S512x128_0_0).PackedRows (EltTy.packing .bf16)
  inb_S8x20x8x128_S8x16x4x128_0_0_1_0 : ∀ a, (![0, 0, 1, 0] : Fin 4 → Nat) a + S8x16x4x128.size a ≤ S8x20x8x128.size a
  inb_S512x3200_S512x128_0_128 : ∀ a, (![0, 128] : Fin 2 → Nat) a + S512x128.size a ≤ S512x3200.size a
  packedbf16_S512x3200_S512x128_0_128 : (Rect.unit (s := S512x3200) ![0, 128] S512x128.size inb_S512x3200_S512x128_0_128).PackedRows (EltTy.packing .bf16)
  inb_S8x20x8x128_S8x16x4x128_0_0_2_0 : ∀ a, (![0, 0, 2, 0] : Fin 4 → Nat) a + S8x16x4x128.size a ≤ S8x20x8x128.size a
  inb_S512x3200_S512x128_0_256 : ∀ a, (![0, 256] : Fin 2 → Nat) a + S512x128.size a ≤ S512x3200.size a
  packedbf16_S512x3200_S512x128_0_256 : (Rect.unit (s := S512x3200) ![0, 256] S512x128.size inb_S512x3200_S512x128_0_256).PackedRows (EltTy.packing .bf16)
  inb_S8x20x8x128_S8x16x4x128_0_0_3_0 : ∀ a, (![0, 0, 3, 0] : Fin 4 → Nat) a + S8x16x4x128.size a ≤ S8x20x8x128.size a
  inb_S512x3200_S512x128_0_384 : ∀ a, (![0, 384] : Fin 2 → Nat) a + S512x128.size a ≤ S512x3200.size a
  packedbf16_S512x3200_S512x128_0_384 : (Rect.unit (s := S512x3200) ![0, 384] S512x128.size inb_S512x3200_S512x128_0_384).PackedRows (EltTy.packing .bf16)
  inb_S8x20x8x128_S8x16x4x128_0_0_4_0 : ∀ a, (![0, 0, 4, 0] : Fin 4 → Nat) a + S8x16x4x128.size a ≤ S8x20x8x128.size a
  inb_S512x3200_S512x128_0_512 : ∀ a, (![0, 512] : Fin 2 → Nat) a + S512x128.size a ≤ S512x3200.size a
  packedbf16_S512x3200_S512x128_0_512 : (Rect.unit (s := S512x3200) ![0, 512] S512x128.size inb_S512x3200_S512x128_0_512).PackedRows (EltTy.packing .bf16)
  inb_S8x20x8x128_S8x16x4x128_0_1_0_0 : ∀ a, (![0, 1, 0, 0] : Fin 4 → Nat) a + S8x16x4x128.size a ≤ S8x20x8x128.size a
  inb_S512x3200_S512x128_0_640 : ∀ a, (![0, 640] : Fin 2 → Nat) a + S512x128.size a ≤ S512x3200.size a
  packedbf16_S512x3200_S512x128_0_640 : (Rect.unit (s := S512x3200) ![0, 640] S512x128.size inb_S512x3200_S512x128_0_640).PackedRows (EltTy.packing .bf16)
  inb_S8x20x8x128_S8x16x4x128_0_1_1_0 : ∀ a, (![0, 1, 1, 0] : Fin 4 → Nat) a + S8x16x4x128.size a ≤ S8x20x8x128.size a
  inb_S512x3200_S512x128_0_768 : ∀ a, (![0, 768] : Fin 2 → Nat) a + S512x128.size a ≤ S512x3200.size a
  packedbf16_S512x3200_S512x128_0_768 : (Rect.unit (s := S512x3200) ![0, 768] S512x128.size inb_S512x3200_S512x128_0_768).PackedRows (EltTy.packing .bf16)
  inb_S8x20x8x128_S8x16x4x128_0_1_2_0 : ∀ a, (![0, 1, 2, 0] : Fin 4 → Nat) a + S8x16x4x128.size a ≤ S8x20x8x128.size a
  inb_S512x3200_S512x128_0_896 : ∀ a, (![0, 896] : Fin 2 → Nat) a + S512x128.size a ≤ S512x3200.size a
  packedbf16_S512x3200_S512x128_0_896 : (Rect.unit (s := S512x3200) ![0, 896] S512x128.size inb_S512x3200_S512x128_0_896).PackedRows (EltTy.packing .bf16)
  inb_S8x20x8x128_S8x16x4x128_0_1_3_0 : ∀ a, (![0, 1, 3, 0] : Fin 4 → Nat) a + S8x16x4x128.size a ≤ S8x20x8x128.size a
  inb_S512x3200_S512x128_0_1024 : ∀ a, (![0, 1024] : Fin 2 → Nat) a + S512x128.size a ≤ S512x3200.size a
  packedbf16_S512x3200_S512x128_0_1024 : (Rect.unit (s := S512x3200) ![0, 1024] S512x128.size inb_S512x3200_S512x128_0_1024).PackedRows (EltTy.packing .bf16)
  inb_S8x20x8x128_S8x16x4x128_0_1_4_0 : ∀ a, (![0, 1, 4, 0] : Fin 4 → Nat) a + S8x16x4x128.size a ≤ S8x20x8x128.size a
  inb_S512x3200_S512x128_0_1152 : ∀ a, (![0, 1152] : Fin 2 → Nat) a + S512x128.size a ≤ S512x3200.size a
  packedbf16_S512x3200_S512x128_0_1152 : (Rect.unit (s := S512x3200) ![0, 1152] S512x128.size inb_S512x3200_S512x128_0_1152).PackedRows (EltTy.packing .bf16)
  inb_S8x20x8x128_S8x16x4x128_0_2_0_0 : ∀ a, (![0, 2, 0, 0] : Fin 4 → Nat) a + S8x16x4x128.size a ≤ S8x20x8x128.size a
  inb_S512x3200_S512x128_0_1280 : ∀ a, (![0, 1280] : Fin 2 → Nat) a + S512x128.size a ≤ S512x3200.size a
  packedbf16_S512x3200_S512x128_0_1280 : (Rect.unit (s := S512x3200) ![0, 1280] S512x128.size inb_S512x3200_S512x128_0_1280).PackedRows (EltTy.packing .bf16)
  inb_S8x20x8x128_S8x16x4x128_0_2_1_0 : ∀ a, (![0, 2, 1, 0] : Fin 4 → Nat) a + S8x16x4x128.size a ≤ S8x20x8x128.size a
  inb_S512x3200_S512x128_0_1408 : ∀ a, (![0, 1408] : Fin 2 → Nat) a + S512x128.size a ≤ S512x3200.size a
  packedbf16_S512x3200_S512x128_0_1408 : (Rect.unit (s := S512x3200) ![0, 1408] S512x128.size inb_S512x3200_S512x128_0_1408).PackedRows (EltTy.packing .bf16)
  inb_S8x20x8x128_S8x16x4x128_0_2_2_0 : ∀ a, (![0, 2, 2, 0] : Fin 4 → Nat) a + S8x16x4x128.size a ≤ S8x20x8x128.size a
  inb_S512x3200_S512x128_0_1536 : ∀ a, (![0, 1536] : Fin 2 → Nat) a + S512x128.size a ≤ S512x3200.size a
  packedbf16_S512x3200_S512x128_0_1536 : (Rect.unit (s := S512x3200) ![0, 1536] S512x128.size inb_S512x3200_S512x128_0_1536).PackedRows (EltTy.packing .bf16)
  inb_S8x20x8x128_S8x16x4x128_0_2_3_0 : ∀ a, (![0, 2, 3, 0] : Fin 4 → Nat) a + S8x16x4x128.size a ≤ S8x20x8x128.size a
  inb_S512x3200_S512x128_0_1664 : ∀ a, (![0, 1664] : Fin 2 → Nat) a + S512x128.size a ≤ S512x3200.size a
  packedbf16_S512x3200_S512x128_0_1664 : (Rect.unit (s := S512x3200) ![0, 1664] S512x128.size inb_S512x3200_S512x128_0_1664).PackedRows (EltTy.packing .bf16)
  inb_S8x20x8x128_S8x16x4x128_0_2_4_0 : ∀ a, (![0, 2, 4, 0] : Fin 4 → Nat) a + S8x16x4x128.size a ≤ S8x20x8x128.size a
  inb_S512x3200_S512x128_0_1792 : ∀ a, (![0, 1792] : Fin 2 → Nat) a + S512x128.size a ≤ S512x3200.size a
  packedbf16_S512x3200_S512x128_0_1792 : (Rect.unit (s := S512x3200) ![0, 1792] S512x128.size inb_S512x3200_S512x128_0_1792).PackedRows (EltTy.packing .bf16)
  inb_S8x20x8x128_S8x16x4x128_0_3_0_0 : ∀ a, (![0, 3, 0, 0] : Fin 4 → Nat) a + S8x16x4x128.size a ≤ S8x20x8x128.size a
  inb_S512x3200_S512x128_0_1920 : ∀ a, (![0, 1920] : Fin 2 → Nat) a + S512x128.size a ≤ S512x3200.size a
  packedbf16_S512x3200_S512x128_0_1920 : (Rect.unit (s := S512x3200) ![0, 1920] S512x128.size inb_S512x3200_S512x128_0_1920).PackedRows (EltTy.packing .bf16)
  inb_S8x20x8x128_S8x16x4x128_0_3_1_0 : ∀ a, (![0, 3, 1, 0] : Fin 4 → Nat) a + S8x16x4x128.size a ≤ S8x20x8x128.size a
  inb_S512x3200_S512x128_0_2048 : ∀ a, (![0, 2048] : Fin 2 → Nat) a + S512x128.size a ≤ S512x3200.size a
  packedbf16_S512x3200_S512x128_0_2048 : (Rect.unit (s := S512x3200) ![0, 2048] S512x128.size inb_S512x3200_S512x128_0_2048).PackedRows (EltTy.packing .bf16)
  inb_S8x20x8x128_S8x16x4x128_0_3_2_0 : ∀ a, (![0, 3, 2, 0] : Fin 4 → Nat) a + S8x16x4x128.size a ≤ S8x20x8x128.size a
  inb_S512x3200_S512x128_0_2176 : ∀ a, (![0, 2176] : Fin 2 → Nat) a + S512x128.size a ≤ S512x3200.size a
  packedbf16_S512x3200_S512x128_0_2176 : (Rect.unit (s := S512x3200) ![0, 2176] S512x128.size inb_S512x3200_S512x128_0_2176).PackedRows (EltTy.packing .bf16)
  inb_S8x20x8x128_S8x16x4x128_0_3_3_0 : ∀ a, (![0, 3, 3, 0] : Fin 4 → Nat) a + S8x16x4x128.size a ≤ S8x20x8x128.size a
  inb_S512x3200_S512x128_0_2304 : ∀ a, (![0, 2304] : Fin 2 → Nat) a + S512x128.size a ≤ S512x3200.size a
  packedbf16_S512x3200_S512x128_0_2304 : (Rect.unit (s := S512x3200) ![0, 2304] S512x128.size inb_S512x3200_S512x128_0_2304).PackedRows (EltTy.packing .bf16)
  inb_S8x20x8x128_S8x16x4x128_0_3_4_0 : ∀ a, (![0, 3, 4, 0] : Fin 4 → Nat) a + S8x16x4x128.size a ≤ S8x20x8x128.size a
  inb_S512x3200_S512x128_0_2432 : ∀ a, (![0, 2432] : Fin 2 → Nat) a + S512x128.size a ≤ S512x3200.size a
  packedbf16_S512x3200_S512x128_0_2432 : (Rect.unit (s := S512x3200) ![0, 2432] S512x128.size inb_S512x3200_S512x128_0_2432).PackedRows (EltTy.packing .bf16)
  inb_S8x20x8x128_S8x16x4x128_0_4_0_0 : ∀ a, (![0, 4, 0, 0] : Fin 4 → Nat) a + S8x16x4x128.size a ≤ S8x20x8x128.size a
  inb_S512x3200_S512x128_0_2560 : ∀ a, (![0, 2560] : Fin 2 → Nat) a + S512x128.size a ≤ S512x3200.size a
  packedbf16_S512x3200_S512x128_0_2560 : (Rect.unit (s := S512x3200) ![0, 2560] S512x128.size inb_S512x3200_S512x128_0_2560).PackedRows (EltTy.packing .bf16)
  inb_S8x20x8x128_S8x16x4x128_0_4_1_0 : ∀ a, (![0, 4, 1, 0] : Fin 4 → Nat) a + S8x16x4x128.size a ≤ S8x20x8x128.size a
  inb_S512x3200_S512x128_0_2688 : ∀ a, (![0, 2688] : Fin 2 → Nat) a + S512x128.size a ≤ S512x3200.size a
  packedbf16_S512x3200_S512x128_0_2688 : (Rect.unit (s := S512x3200) ![0, 2688] S512x128.size inb_S512x3200_S512x128_0_2688).PackedRows (EltTy.packing .bf16)
  inb_S8x20x8x128_S8x16x4x128_0_4_2_0 : ∀ a, (![0, 4, 2, 0] : Fin 4 → Nat) a + S8x16x4x128.size a ≤ S8x20x8x128.size a
  inb_S512x3200_S512x128_0_2816 : ∀ a, (![0, 2816] : Fin 2 → Nat) a + S512x128.size a ≤ S512x3200.size a
  packedbf16_S512x3200_S512x128_0_2816 : (Rect.unit (s := S512x3200) ![0, 2816] S512x128.size inb_S512x3200_S512x128_0_2816).PackedRows (EltTy.packing .bf16)
  inb_S8x20x8x128_S8x16x4x128_0_4_3_0 : ∀ a, (![0, 4, 3, 0] : Fin 4 → Nat) a + S8x16x4x128.size a ≤ S8x20x8x128.size a
  inb_S512x3200_S512x128_0_2944 : ∀ a, (![0, 2944] : Fin 2 → Nat) a + S512x128.size a ≤ S512x3200.size a
  packedbf16_S512x3200_S512x128_0_2944 : (Rect.unit (s := S512x3200) ![0, 2944] S512x128.size inb_S512x3200_S512x128_0_2944).PackedRows (EltTy.packing .bf16)
  inb_S8x20x8x128_S8x16x4x128_0_4_4_0 : ∀ a, (![0, 4, 4, 0] : Fin 4 → Nat) a + S8x16x4x128.size a ≤ S8x20x8x128.size a
  inb_S512x3200_S512x128_0_3072 : ∀ a, (![0, 3072] : Fin 2 → Nat) a + S512x128.size a ≤ S512x3200.size a
  packedbf16_S512x3200_S512x128_0_3072 : (Rect.unit (s := S512x3200) ![0, 3072] S512x128.size inb_S512x3200_S512x128_0_3072).PackedRows (EltTy.packing .bf16)
  inb_S512x3200_S512x3200_0_0 : ∀ a, (![0, 0] : Fin 2 → Nat) a + S512x3200.size a ≤ S512x3200.size a
  h_S512x3200 : 0 < S512x3200.numel
  inb_S3200x256_S3200x256_0_0 : ∀ a, (![0, 0] : Fin 2 → Nat) a + S3200x256.size a ≤ S3200x256.size a
  h_S3200x256 : 0 < S3200x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S8x20x8x256_S8x20x8x256_0_0_0_0 : ∀ a, (![0, 0, 0, 0] : Fin 4 → Nat) a + S8x20x8x256.size a ≤ S8x20x8x256.size a
  h_S8x20x8x256 : 0 < S8x20x8x256.numel
  shapeCasts_S8x20x8x256_S8x20x8x256 : S8x20x8x256.ShapeCasts S8x20x8x256
  packedbf16_S8x20x8x256_S8x20x8x256_0_0_0_0 : (Rect.unit (s := S8x20x8x256) ![0, 0, 0, 0] S8x20x8x256.size inb_S8x20x8x256_S8x20x8x256_0_0_0_0).PackedRows (EltTy.packing .bf16)
  shapeCasts_S512x256_S8x16x4x256 : S512x256.ShapeCasts S8x16x4x256
  inb_S8x20x8x256_S8x16x4x256_0_2_2_0 : ∀ a, (![0, 2, 2, 0] : Fin 4 → Nat) a + S8x16x4x256.size a ≤ S8x20x8x256.size a
  h_S8x16x4x256 : 0 < S8x16x4x256.numel
  shapeCasts_S8x16x4x256_S8x16x4x256 : S8x16x4x256.ShapeCasts S8x16x4x256
  packedbf16_S8x20x8x256_S8x16x4x256_0_2_2_0 : (Rect.unit (s := S8x20x8x256) ![0, 2, 2, 0] S8x16x4x256.size inb_S8x20x8x256_S8x16x4x256_0_2_2_0).PackedRows (EltTy.packing .bf16)
  inb_S8x20x8x256_S8x16x4x256_0_0_0_0 : ∀ a, (![0, 0, 0, 0] : Fin 4 → Nat) a + S8x16x4x256.size a ≤ S8x20x8x256.size a
  shapeCasts_S8x16x4x256_S512x256 : S8x16x4x256.ShapeCasts S512x256
  inb_S512x6400_S512x256_0_0 : ∀ a, (![0, 0] : Fin 2 → Nat) a + S512x256.size a ≤ S512x6400.size a
  h_S512x256 : 0 < S512x256.numel
  shapeCasts_S512x256_S512x256 : S512x256.ShapeCasts S512x256
  packedbf16_S512x6400_S512x256_0_0 : (Rect.unit (s := S512x6400) ![0, 0] S512x256.size inb_S512x6400_S512x256_0_0).PackedRows (EltTy.packing .bf16)
  inb_S8x20x8x256_S8x16x4x256_0_0_1_0 : ∀ a, (![0, 0, 1, 0] : Fin 4 → Nat) a + S8x16x4x256.size a ≤ S8x20x8x256.size a
  inb_S512x6400_S512x256_0_256 : ∀ a, (![0, 256] : Fin 2 → Nat) a + S512x256.size a ≤ S512x6400.size a
  packedbf16_S512x6400_S512x256_0_256 : (Rect.unit (s := S512x6400) ![0, 256] S512x256.size inb_S512x6400_S512x256_0_256).PackedRows (EltTy.packing .bf16)
  inb_S8x20x8x256_S8x16x4x256_0_0_2_0 : ∀ a, (![0, 0, 2, 0] : Fin 4 → Nat) a + S8x16x4x256.size a ≤ S8x20x8x256.size a
  inb_S512x6400_S512x256_0_512 : ∀ a, (![0, 512] : Fin 2 → Nat) a + S512x256.size a ≤ S512x6400.size a
  packedbf16_S512x6400_S512x256_0_512 : (Rect.unit (s := S512x6400) ![0, 512] S512x256.size inb_S512x6400_S512x256_0_512).PackedRows (EltTy.packing .bf16)
  inb_S8x20x8x256_S8x16x4x256_0_0_3_0 : ∀ a, (![0, 0, 3, 0] : Fin 4 → Nat) a + S8x16x4x256.size a ≤ S8x20x8x256.size a
  inb_S512x6400_S512x256_0_768 : ∀ a, (![0, 768] : Fin 2 → Nat) a + S512x256.size a ≤ S512x6400.size a
  packedbf16_S512x6400_S512x256_0_768 : (Rect.unit (s := S512x6400) ![0, 768] S512x256.size inb_S512x6400_S512x256_0_768).PackedRows (EltTy.packing .bf16)
  inb_S8x20x8x256_S8x16x4x256_0_0_4_0 : ∀ a, (![0, 0, 4, 0] : Fin 4 → Nat) a + S8x16x4x256.size a ≤ S8x20x8x256.size a
  inb_S512x6400_S512x256_0_1024 : ∀ a, (![0, 1024] : Fin 2 → Nat) a + S512x256.size a ≤ S512x6400.size a
  packedbf16_S512x6400_S512x256_0_1024 : (Rect.unit (s := S512x6400) ![0, 1024] S512x256.size inb_S512x6400_S512x256_0_1024).PackedRows (EltTy.packing .bf16)
  inb_S8x20x8x256_S8x16x4x256_0_1_0_0 : ∀ a, (![0, 1, 0, 0] : Fin 4 → Nat) a + S8x16x4x256.size a ≤ S8x20x8x256.size a
  inb_S512x6400_S512x256_0_1280 : ∀ a, (![0, 1280] : Fin 2 → Nat) a + S512x256.size a ≤ S512x6400.size a
  packedbf16_S512x6400_S512x256_0_1280 : (Rect.unit (s := S512x6400) ![0, 1280] S512x256.size inb_S512x6400_S512x256_0_1280).PackedRows (EltTy.packing .bf16)
  inb_S8x20x8x256_S8x16x4x256_0_1_1_0 : ∀ a, (![0, 1, 1, 0] : Fin 4 → Nat) a + S8x16x4x256.size a ≤ S8x20x8x256.size a
  inb_S512x6400_S512x256_0_1536 : ∀ a, (![0, 1536] : Fin 2 → Nat) a + S512x256.size a ≤ S512x6400.size a
  packedbf16_S512x6400_S512x256_0_1536 : (Rect.unit (s := S512x6400) ![0, 1536] S512x256.size inb_S512x6400_S512x256_0_1536).PackedRows (EltTy.packing .bf16)
  inb_S8x20x8x256_S8x16x4x256_0_1_2_0 : ∀ a, (![0, 1, 2, 0] : Fin 4 → Nat) a + S8x16x4x256.size a ≤ S8x20x8x256.size a
  inb_S512x6400_S512x256_0_1792 : ∀ a, (![0, 1792] : Fin 2 → Nat) a + S512x256.size a ≤ S512x6400.size a
  packedbf16_S512x6400_S512x256_0_1792 : (Rect.unit (s := S512x6400) ![0, 1792] S512x256.size inb_S512x6400_S512x256_0_1792).PackedRows (EltTy.packing .bf16)
  inb_S8x20x8x256_S8x16x4x256_0_1_3_0 : ∀ a, (![0, 1, 3, 0] : Fin 4 → Nat) a + S8x16x4x256.size a ≤ S8x20x8x256.size a
  inb_S512x6400_S512x256_0_2048 : ∀ a, (![0, 2048] : Fin 2 → Nat) a + S512x256.size a ≤ S512x6400.size a
  packedbf16_S512x6400_S512x256_0_2048 : (Rect.unit (s := S512x6400) ![0, 2048] S512x256.size inb_S512x6400_S512x256_0_2048).PackedRows (EltTy.packing .bf16)
  inb_S8x20x8x256_S8x16x4x256_0_1_4_0 : ∀ a, (![0, 1, 4, 0] : Fin 4 → Nat) a + S8x16x4x256.size a ≤ S8x20x8x256.size a
  inb_S512x6400_S512x256_0_2304 : ∀ a, (![0, 2304] : Fin 2 → Nat) a + S512x256.size a ≤ S512x6400.size a
  packedbf16_S512x6400_S512x256_0_2304 : (Rect.unit (s := S512x6400) ![0, 2304] S512x256.size inb_S512x6400_S512x256_0_2304).PackedRows (EltTy.packing .bf16)
  inb_S8x20x8x256_S8x16x4x256_0_2_0_0 : ∀ a, (![0, 2, 0, 0] : Fin 4 → Nat) a + S8x16x4x256.size a ≤ S8x20x8x256.size a
  inb_S512x6400_S512x256_0_2560 : ∀ a, (![0, 2560] : Fin 2 → Nat) a + S512x256.size a ≤ S512x6400.size a
  packedbf16_S512x6400_S512x256_0_2560 : (Rect.unit (s := S512x6400) ![0, 2560] S512x256.size inb_S512x6400_S512x256_0_2560).PackedRows (EltTy.packing .bf16)
  inb_S8x20x8x256_S8x16x4x256_0_2_1_0 : ∀ a, (![0, 2, 1, 0] : Fin 4 → Nat) a + S8x16x4x256.size a ≤ S8x20x8x256.size a
  inb_S512x6400_S512x256_0_2816 : ∀ a, (![0, 2816] : Fin 2 → Nat) a + S512x256.size a ≤ S512x6400.size a
  packedbf16_S512x6400_S512x256_0_2816 : (Rect.unit (s := S512x6400) ![0, 2816] S512x256.size inb_S512x6400_S512x256_0_2816).PackedRows (EltTy.packing .bf16)
  inb_S512x6400_S512x256_0_3072 : ∀ a, (![0, 3072] : Fin 2 → Nat) a + S512x256.size a ≤ S512x6400.size a
  packedbf16_S512x6400_S512x256_0_3072 : (Rect.unit (s := S512x6400) ![0, 3072] S512x256.size inb_S512x6400_S512x256_0_3072).PackedRows (EltTy.packing .bf16)
  inb_S8x20x8x256_S8x16x4x256_0_2_3_0 : ∀ a, (![0, 2, 3, 0] : Fin 4 → Nat) a + S8x16x4x256.size a ≤ S8x20x8x256.size a
  inb_S512x6400_S512x256_0_3328 : ∀ a, (![0, 3328] : Fin 2 → Nat) a + S512x256.size a ≤ S512x6400.size a
  packedbf16_S512x6400_S512x256_0_3328 : (Rect.unit (s := S512x6400) ![0, 3328] S512x256.size inb_S512x6400_S512x256_0_3328).PackedRows (EltTy.packing .bf16)
  inb_S8x20x8x256_S8x16x4x256_0_2_4_0 : ∀ a, (![0, 2, 4, 0] : Fin 4 → Nat) a + S8x16x4x256.size a ≤ S8x20x8x256.size a
  inb_S512x6400_S512x256_0_3584 : ∀ a, (![0, 3584] : Fin 2 → Nat) a + S512x256.size a ≤ S512x6400.size a
  packedbf16_S512x6400_S512x256_0_3584 : (Rect.unit (s := S512x6400) ![0, 3584] S512x256.size inb_S512x6400_S512x256_0_3584).PackedRows (EltTy.packing .bf16)
  inb_S8x20x8x256_S8x16x4x256_0_3_0_0 : ∀ a, (![0, 3, 0, 0] : Fin 4 → Nat) a + S8x16x4x256.size a ≤ S8x20x8x256.size a
  inb_S512x6400_S512x256_0_3840 : ∀ a, (![0, 3840] : Fin 2 → Nat) a + S512x256.size a ≤ S512x6400.size a
  packedbf16_S512x6400_S512x256_0_3840 : (Rect.unit (s := S512x6400) ![0, 3840] S512x256.size inb_S512x6400_S512x256_0_3840).PackedRows (EltTy.packing .bf16)
  inb_S8x20x8x256_S8x16x4x256_0_3_1_0 : ∀ a, (![0, 3, 1, 0] : Fin 4 → Nat) a + S8x16x4x256.size a ≤ S8x20x8x256.size a
  inb_S512x6400_S512x256_0_4096 : ∀ a, (![0, 4096] : Fin 2 → Nat) a + S512x256.size a ≤ S512x6400.size a
  packedbf16_S512x6400_S512x256_0_4096 : (Rect.unit (s := S512x6400) ![0, 4096] S512x256.size inb_S512x6400_S512x256_0_4096).PackedRows (EltTy.packing .bf16)
  inb_S8x20x8x256_S8x16x4x256_0_3_2_0 : ∀ a, (![0, 3, 2, 0] : Fin 4 → Nat) a + S8x16x4x256.size a ≤ S8x20x8x256.size a
  inb_S512x6400_S512x256_0_4352 : ∀ a, (![0, 4352] : Fin 2 → Nat) a + S512x256.size a ≤ S512x6400.size a
  packedbf16_S512x6400_S512x256_0_4352 : (Rect.unit (s := S512x6400) ![0, 4352] S512x256.size inb_S512x6400_S512x256_0_4352).PackedRows (EltTy.packing .bf16)
  inb_S8x20x8x256_S8x16x4x256_0_3_3_0 : ∀ a, (![0, 3, 3, 0] : Fin 4 → Nat) a + S8x16x4x256.size a ≤ S8x20x8x256.size a
  inb_S512x6400_S512x256_0_4608 : ∀ a, (![0, 4608] : Fin 2 → Nat) a + S512x256.size a ≤ S512x6400.size a
  packedbf16_S512x6400_S512x256_0_4608 : (Rect.unit (s := S512x6400) ![0, 4608] S512x256.size inb_S512x6400_S512x256_0_4608).PackedRows (EltTy.packing .bf16)
  inb_S8x20x8x256_S8x16x4x256_0_3_4_0 : ∀ a, (![0, 3, 4, 0] : Fin 4 → Nat) a + S8x16x4x256.size a ≤ S8x20x8x256.size a
  inb_S512x6400_S512x256_0_4864 : ∀ a, (![0, 4864] : Fin 2 → Nat) a + S512x256.size a ≤ S512x6400.size a
  packedbf16_S512x6400_S512x256_0_4864 : (Rect.unit (s := S512x6400) ![0, 4864] S512x256.size inb_S512x6400_S512x256_0_4864).PackedRows (EltTy.packing .bf16)
  inb_S8x20x8x256_S8x16x4x256_0_4_0_0 : ∀ a, (![0, 4, 0, 0] : Fin 4 → Nat) a + S8x16x4x256.size a ≤ S8x20x8x256.size a
  inb_S512x6400_S512x256_0_5120 : ∀ a, (![0, 5120] : Fin 2 → Nat) a + S512x256.size a ≤ S512x6400.size a
  packedbf16_S512x6400_S512x256_0_5120 : (Rect.unit (s := S512x6400) ![0, 5120] S512x256.size inb_S512x6400_S512x256_0_5120).PackedRows (EltTy.packing .bf16)
  inb_S8x20x8x256_S8x16x4x256_0_4_1_0 : ∀ a, (![0, 4, 1, 0] : Fin 4 → Nat) a + S8x16x4x256.size a ≤ S8x20x8x256.size a
  inb_S512x6400_S512x256_0_5376 : ∀ a, (![0, 5376] : Fin 2 → Nat) a + S512x256.size a ≤ S512x6400.size a
  packedbf16_S512x6400_S512x256_0_5376 : (Rect.unit (s := S512x6400) ![0, 5376] S512x256.size inb_S512x6400_S512x256_0_5376).PackedRows (EltTy.packing .bf16)
  inb_S8x20x8x256_S8x16x4x256_0_4_2_0 : ∀ a, (![0, 4, 2, 0] : Fin 4 → Nat) a + S8x16x4x256.size a ≤ S8x20x8x256.size a
  inb_S512x6400_S512x256_0_5632 : ∀ a, (![0, 5632] : Fin 2 → Nat) a + S512x256.size a ≤ S512x6400.size a
  packedbf16_S512x6400_S512x256_0_5632 : (Rect.unit (s := S512x6400) ![0, 5632] S512x256.size inb_S512x6400_S512x256_0_5632).PackedRows (EltTy.packing .bf16)
  inb_S8x20x8x256_S8x16x4x256_0_4_3_0 : ∀ a, (![0, 4, 3, 0] : Fin 4 → Nat) a + S8x16x4x256.size a ≤ S8x20x8x256.size a
  inb_S512x6400_S512x256_0_5888 : ∀ a, (![0, 5888] : Fin 2 → Nat) a + S512x256.size a ≤ S512x6400.size a
  packedbf16_S512x6400_S512x256_0_5888 : (Rect.unit (s := S512x6400) ![0, 5888] S512x256.size inb_S512x6400_S512x256_0_5888).PackedRows (EltTy.packing .bf16)
  inb_S8x20x8x256_S8x16x4x256_0_4_4_0 : ∀ a, (![0, 4, 4, 0] : Fin 4 → Nat) a + S8x16x4x256.size a ≤ S8x20x8x256.size a
  inb_S512x6400_S512x256_0_6144 : ∀ a, (![0, 6144] : Fin 2 → Nat) a + S512x256.size a ≤ S512x6400.size a
  packedbf16_S512x6400_S512x256_0_6144 : (Rect.unit (s := S512x6400) ![0, 6144] S512x256.size inb_S512x6400_S512x256_0_6144).PackedRows (EltTy.packing .bf16)
  inb_S512x6400_S512x6400_0_0 : ∀ a, (![0, 0] : Fin 2 → Nat) a + S512x6400.size a ≤ S512x6400.size a
  h_S512x6400 : 0 < S512x6400.numel
  inb_S6400x256_S6400x256_0_0 : ∀ a, (![0, 0] : Fin 2 → Nat) a + S6400x256.size a ≤ S6400x256.size a
  h_S6400x256 : 0 < S6400x256.numel
  shapeCasts_S512x256_S128x4x256 : S512x256.ShapeCasts S128x4x256
  reduces_S128x4x256_S128x256 : S128x4x256.Reduces [1] S128x256
  shapeCasts_S128x256_S8x16x1x256 : S128x256.ShapeCasts S8x16x1x256
  inb_S8x16x1x256_S8x16x1x256_0_0_0_0 : ∀ a, (![0, 0, 0, 0] : Fin 4 → Nat) a + S8x16x1x256.size a ≤ S8x16x1x256.size a
  h_S8x16x1x256 : 0 < S8x16x1x256.numel
  packedbf16_S8x16x1x256_S8x16x1x256_0_0_0_0 : (Rect.unit (s := S8x16x1x256) ![0, 0, 0, 0] S8x16x1x256.size inb_S8x16x1x256_S8x16x1x256_0_0_0_0).PackedRows (EltTy.packing .bf16)
  pads_S8x16x1x256_S8x20x5x256_000_220_220_000 : S8x16x1x256.Pads (![0, 2, 2, 0] : Fin 4 → Nat) ![0, 2, 2, 0] ![0, 0, 0, 0] S8x20x5x256
  shapeCasts_S2048_S1x2048 : S2048.ShapeCasts S1x2048
  inb_S8x20x5x256_S8x16x1x256_0_0_0_0 : ∀ a, (![0, 0, 0, 0] : Fin 4 → Nat) a + S8x16x1x256.size a ≤ S8x20x5x256.size a
  shapeCasts_S8x16x1x256_S8x16x1x256 : S8x16x1x256.ShapeCasts S8x16x1x256
  shapeCasts_S8x16x1x256_S128x256 : S8x16x1x256.ShapeCasts S128x256
  inb_S128x6400_S128x256_0_0 : ∀ a, (![0, 0] : Fin 2 → Nat) a + S128x256.size a ≤ S128x6400.size a
  h_S128x256 : 0 < S128x256.numel
  shapeCasts_S128x256_S128x256 : S128x256.ShapeCasts S128x256
  packedbf16_S128x6400_S128x256_0_0 : (Rect.unit (s := S128x6400) ![0, 0] S128x256.size inb_S128x6400_S128x256_0_0).PackedRows (EltTy.packing .bf16)
  inb_S8x20x5x256_S8x16x1x256_0_0_1_0 : ∀ a, (![0, 0, 1, 0] : Fin 4 → Nat) a + S8x16x1x256.size a ≤ S8x20x5x256.size a
  inb_S128x6400_S128x256_0_256 : ∀ a, (![0, 256] : Fin 2 → Nat) a + S128x256.size a ≤ S128x6400.size a
  packedbf16_S128x6400_S128x256_0_256 : (Rect.unit (s := S128x6400) ![0, 256] S128x256.size inb_S128x6400_S128x256_0_256).PackedRows (EltTy.packing .bf16)
  inb_S8x20x5x256_S8x16x1x256_0_0_2_0 : ∀ a, (![0, 0, 2, 0] : Fin 4 → Nat) a + S8x16x1x256.size a ≤ S8x20x5x256.size a
  inb_S128x6400_S128x256_0_512 : ∀ a, (![0, 512] : Fin 2 → Nat) a + S128x256.size a ≤ S128x6400.size a
  packedbf16_S128x6400_S128x256_0_512 : (Rect.unit (s := S128x6400) ![0, 512] S128x256.size inb_S128x6400_S128x256_0_512).PackedRows (EltTy.packing .bf16)
  inb_S8x20x5x256_S8x16x1x256_0_0_3_0 : ∀ a, (![0, 0, 3, 0] : Fin 4 → Nat) a + S8x16x1x256.size a ≤ S8x20x5x256.size a
  inb_S128x6400_S128x256_0_768 : ∀ a, (![0, 768] : Fin 2 → Nat) a + S128x256.size a ≤ S128x6400.size a
  packedbf16_S128x6400_S128x256_0_768 : (Rect.unit (s := S128x6400) ![0, 768] S128x256.size inb_S128x6400_S128x256_0_768).PackedRows (EltTy.packing .bf16)
  inb_S8x20x5x256_S8x16x1x256_0_0_4_0 : ∀ a, (![0, 0, 4, 0] : Fin 4 → Nat) a + S8x16x1x256.size a ≤ S8x20x5x256.size a
  inb_S128x6400_S128x256_0_1024 : ∀ a, (![0, 1024] : Fin 2 → Nat) a + S128x256.size a ≤ S128x6400.size a
  packedbf16_S128x6400_S128x256_0_1024 : (Rect.unit (s := S128x6400) ![0, 1024] S128x256.size inb_S128x6400_S128x256_0_1024).PackedRows (EltTy.packing .bf16)
  inb_S8x20x5x256_S8x16x1x256_0_1_0_0 : ∀ a, (![0, 1, 0, 0] : Fin 4 → Nat) a + S8x16x1x256.size a ≤ S8x20x5x256.size a
  inb_S128x6400_S128x256_0_1280 : ∀ a, (![0, 1280] : Fin 2 → Nat) a + S128x256.size a ≤ S128x6400.size a
  packedbf16_S128x6400_S128x256_0_1280 : (Rect.unit (s := S128x6400) ![0, 1280] S128x256.size inb_S128x6400_S128x256_0_1280).PackedRows (EltTy.packing .bf16)
  inb_S8x20x5x256_S8x16x1x256_0_1_1_0 : ∀ a, (![0, 1, 1, 0] : Fin 4 → Nat) a + S8x16x1x256.size a ≤ S8x20x5x256.size a
  inb_S128x6400_S128x256_0_1536 : ∀ a, (![0, 1536] : Fin 2 → Nat) a + S128x256.size a ≤ S128x6400.size a
  packedbf16_S128x6400_S128x256_0_1536 : (Rect.unit (s := S128x6400) ![0, 1536] S128x256.size inb_S128x6400_S128x256_0_1536).PackedRows (EltTy.packing .bf16)
  inb_S8x20x5x256_S8x16x1x256_0_1_2_0 : ∀ a, (![0, 1, 2, 0] : Fin 4 → Nat) a + S8x16x1x256.size a ≤ S8x20x5x256.size a
  inb_S128x6400_S128x256_0_1792 : ∀ a, (![0, 1792] : Fin 2 → Nat) a + S128x256.size a ≤ S128x6400.size a
  packedbf16_S128x6400_S128x256_0_1792 : (Rect.unit (s := S128x6400) ![0, 1792] S128x256.size inb_S128x6400_S128x256_0_1792).PackedRows (EltTy.packing .bf16)
  inb_S8x20x5x256_S8x16x1x256_0_1_3_0 : ∀ a, (![0, 1, 3, 0] : Fin 4 → Nat) a + S8x16x1x256.size a ≤ S8x20x5x256.size a
  inb_S128x6400_S128x256_0_2048 : ∀ a, (![0, 2048] : Fin 2 → Nat) a + S128x256.size a ≤ S128x6400.size a
  packedbf16_S128x6400_S128x256_0_2048 : (Rect.unit (s := S128x6400) ![0, 2048] S128x256.size inb_S128x6400_S128x256_0_2048).PackedRows (EltTy.packing .bf16)
  inb_S8x20x5x256_S8x16x1x256_0_1_4_0 : ∀ a, (![0, 1, 4, 0] : Fin 4 → Nat) a + S8x16x1x256.size a ≤ S8x20x5x256.size a
  inb_S128x6400_S128x256_0_2304 : ∀ a, (![0, 2304] : Fin 2 → Nat) a + S128x256.size a ≤ S128x6400.size a
  packedbf16_S128x6400_S128x256_0_2304 : (Rect.unit (s := S128x6400) ![0, 2304] S128x256.size inb_S128x6400_S128x256_0_2304).PackedRows (EltTy.packing .bf16)
  inb_S8x20x5x256_S8x16x1x256_0_2_0_0 : ∀ a, (![0, 2, 0, 0] : Fin 4 → Nat) a + S8x16x1x256.size a ≤ S8x20x5x256.size a
  inb_S128x6400_S128x256_0_2560 : ∀ a, (![0, 2560] : Fin 2 → Nat) a + S128x256.size a ≤ S128x6400.size a
  packedbf16_S128x6400_S128x256_0_2560 : (Rect.unit (s := S128x6400) ![0, 2560] S128x256.size inb_S128x6400_S128x256_0_2560).PackedRows (EltTy.packing .bf16)
  inb_S8x20x5x256_S8x16x1x256_0_2_1_0 : ∀ a, (![0, 2, 1, 0] : Fin 4 → Nat) a + S8x16x1x256.size a ≤ S8x20x5x256.size a
  inb_S128x6400_S128x256_0_2816 : ∀ a, (![0, 2816] : Fin 2 → Nat) a + S128x256.size a ≤ S128x6400.size a
  packedbf16_S128x6400_S128x256_0_2816 : (Rect.unit (s := S128x6400) ![0, 2816] S128x256.size inb_S128x6400_S128x256_0_2816).PackedRows (EltTy.packing .bf16)
  inb_S8x20x5x256_S8x16x1x256_0_2_2_0 : ∀ a, (![0, 2, 2, 0] : Fin 4 → Nat) a + S8x16x1x256.size a ≤ S8x20x5x256.size a
  inb_S128x6400_S128x256_0_3072 : ∀ a, (![0, 3072] : Fin 2 → Nat) a + S128x256.size a ≤ S128x6400.size a
  packedbf16_S128x6400_S128x256_0_3072 : (Rect.unit (s := S128x6400) ![0, 3072] S128x256.size inb_S128x6400_S128x256_0_3072).PackedRows (EltTy.packing .bf16)
  inb_S8x20x5x256_S8x16x1x256_0_2_3_0 : ∀ a, (![0, 2, 3, 0] : Fin 4 → Nat) a + S8x16x1x256.size a ≤ S8x20x5x256.size a
  inb_S128x6400_S128x256_0_3328 : ∀ a, (![0, 3328] : Fin 2 → Nat) a + S128x256.size a ≤ S128x6400.size a
  packedbf16_S128x6400_S128x256_0_3328 : (Rect.unit (s := S128x6400) ![0, 3328] S128x256.size inb_S128x6400_S128x256_0_3328).PackedRows (EltTy.packing .bf16)
  inb_S8x20x5x256_S8x16x1x256_0_2_4_0 : ∀ a, (![0, 2, 4, 0] : Fin 4 → Nat) a + S8x16x1x256.size a ≤ S8x20x5x256.size a
  inb_S128x6400_S128x256_0_3584 : ∀ a, (![0, 3584] : Fin 2 → Nat) a + S128x256.size a ≤ S128x6400.size a
  packedbf16_S128x6400_S128x256_0_3584 : (Rect.unit (s := S128x6400) ![0, 3584] S128x256.size inb_S128x6400_S128x256_0_3584).PackedRows (EltTy.packing .bf16)
  inb_S8x20x5x256_S8x16x1x256_0_3_0_0 : ∀ a, (![0, 3, 0, 0] : Fin 4 → Nat) a + S8x16x1x256.size a ≤ S8x20x5x256.size a
  inb_S128x6400_S128x256_0_3840 : ∀ a, (![0, 3840] : Fin 2 → Nat) a + S128x256.size a ≤ S128x6400.size a
  packedbf16_S128x6400_S128x256_0_3840 : (Rect.unit (s := S128x6400) ![0, 3840] S128x256.size inb_S128x6400_S128x256_0_3840).PackedRows (EltTy.packing .bf16)
  inb_S8x20x5x256_S8x16x1x256_0_3_1_0 : ∀ a, (![0, 3, 1, 0] : Fin 4 → Nat) a + S8x16x1x256.size a ≤ S8x20x5x256.size a
  inb_S128x6400_S128x256_0_4096 : ∀ a, (![0, 4096] : Fin 2 → Nat) a + S128x256.size a ≤ S128x6400.size a
  packedbf16_S128x6400_S128x256_0_4096 : (Rect.unit (s := S128x6400) ![0, 4096] S128x256.size inb_S128x6400_S128x256_0_4096).PackedRows (EltTy.packing .bf16)
  inb_S8x20x5x256_S8x16x1x256_0_3_2_0 : ∀ a, (![0, 3, 2, 0] : Fin 4 → Nat) a + S8x16x1x256.size a ≤ S8x20x5x256.size a
  inb_S128x6400_S128x256_0_4352 : ∀ a, (![0, 4352] : Fin 2 → Nat) a + S128x256.size a ≤ S128x6400.size a
  packedbf16_S128x6400_S128x256_0_4352 : (Rect.unit (s := S128x6400) ![0, 4352] S128x256.size inb_S128x6400_S128x256_0_4352).PackedRows (EltTy.packing .bf16)
  inb_S8x20x5x256_S8x16x1x256_0_3_3_0 : ∀ a, (![0, 3, 3, 0] : Fin 4 → Nat) a + S8x16x1x256.size a ≤ S8x20x5x256.size a
  inb_S128x6400_S128x256_0_4608 : ∀ a, (![0, 4608] : Fin 2 → Nat) a + S128x256.size a ≤ S128x6400.size a
  packedbf16_S128x6400_S128x256_0_4608 : (Rect.unit (s := S128x6400) ![0, 4608] S128x256.size inb_S128x6400_S128x256_0_4608).PackedRows (EltTy.packing .bf16)
  inb_S8x20x5x256_S8x16x1x256_0_3_4_0 : ∀ a, (![0, 3, 4, 0] : Fin 4 → Nat) a + S8x16x1x256.size a ≤ S8x20x5x256.size a
  inb_S128x6400_S128x256_0_4864 : ∀ a, (![0, 4864] : Fin 2 → Nat) a + S128x256.size a ≤ S128x6400.size a
  packedbf16_S128x6400_S128x256_0_4864 : (Rect.unit (s := S128x6400) ![0, 4864] S128x256.size inb_S128x6400_S128x256_0_4864).PackedRows (EltTy.packing .bf16)
  inb_S8x20x5x256_S8x16x1x256_0_4_0_0 : ∀ a, (![0, 4, 0, 0] : Fin 4 → Nat) a + S8x16x1x256.size a ≤ S8x20x5x256.size a
  inb_S128x6400_S128x256_0_5120 : ∀ a, (![0, 5120] : Fin 2 → Nat) a + S128x256.size a ≤ S128x6400.size a
  packedbf16_S128x6400_S128x256_0_5120 : (Rect.unit (s := S128x6400) ![0, 5120] S128x256.size inb_S128x6400_S128x256_0_5120).PackedRows (EltTy.packing .bf16)
  inb_S8x20x5x256_S8x16x1x256_0_4_1_0 : ∀ a, (![0, 4, 1, 0] : Fin 4 → Nat) a + S8x16x1x256.size a ≤ S8x20x5x256.size a
  inb_S128x6400_S128x256_0_5376 : ∀ a, (![0, 5376] : Fin 2 → Nat) a + S128x256.size a ≤ S128x6400.size a
  packedbf16_S128x6400_S128x256_0_5376 : (Rect.unit (s := S128x6400) ![0, 5376] S128x256.size inb_S128x6400_S128x256_0_5376).PackedRows (EltTy.packing .bf16)
  inb_S8x20x5x256_S8x16x1x256_0_4_2_0 : ∀ a, (![0, 4, 2, 0] : Fin 4 → Nat) a + S8x16x1x256.size a ≤ S8x20x5x256.size a
  inb_S128x6400_S128x256_0_5632 : ∀ a, (![0, 5632] : Fin 2 → Nat) a + S128x256.size a ≤ S128x6400.size a
  packedbf16_S128x6400_S128x256_0_5632 : (Rect.unit (s := S128x6400) ![0, 5632] S128x256.size inb_S128x6400_S128x256_0_5632).PackedRows (EltTy.packing .bf16)
  inb_S8x20x5x256_S8x16x1x256_0_4_3_0 : ∀ a, (![0, 4, 3, 0] : Fin 4 → Nat) a + S8x16x1x256.size a ≤ S8x20x5x256.size a
  inb_S128x6400_S128x256_0_5888 : ∀ a, (![0, 5888] : Fin 2 → Nat) a + S128x256.size a ≤ S128x6400.size a
  packedbf16_S128x6400_S128x256_0_5888 : (Rect.unit (s := S128x6400) ![0, 5888] S128x256.size inb_S128x6400_S128x256_0_5888).PackedRows (EltTy.packing .bf16)
  inb_S8x20x5x256_S8x16x1x256_0_4_4_0 : ∀ a, (![0, 4, 4, 0] : Fin 4 → Nat) a + S8x16x1x256.size a ≤ S8x20x5x256.size a
  inb_S128x6400_S128x256_0_6144 : ∀ a, (![0, 6144] : Fin 2 → Nat) a + S128x256.size a ≤ S128x6400.size a
  packedbf16_S128x6400_S128x256_0_6144 : (Rect.unit (s := S128x6400) ![0, 6144] S128x256.size inb_S128x6400_S128x256_0_6144).PackedRows (EltTy.packing .bf16)
  inb_S128x6400_S128x6400_0_0 : ∀ a, (![0, 0] : Fin 2 → Nat) a + S128x6400.size a ≤ S128x6400.size a
  h_S128x6400 : 0 < S128x6400.numel
  inb_S6400x512_S6400x512_0_0 : ∀ a, (![0, 0] : Fin 2 → Nat) a + S6400x512.size a ≤ S6400x512.size a
  h_S6400x512 : 0 < S6400x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  shapeCasts_S128x512_S8x16x512 : S128x512.ShapeCasts S8x16x512
  reduces_S8x16x512_S8x512 : S8x16x512.Reduces [1] S8x512
  inb_S8x512_S8x512_0_0 : ∀ a, (![0, 0] : Fin 2 → Nat) a + S8x512.size a ≤ S8x512.size a
  h_S8x512 : 0 < S8x512.numel
  packedbf16_S8x512_S8x512_0_0 : (Rect.unit (s := S8x512) ![0, 0] S8x512.size inb_S8x512_S8x512_0_0).PackedRows (EltTy.packing .bf16)
  shapeCasts_S512_S1x512 : S512.ShapeCasts S1x512
  shapeCasts_S1024_S1x1024 : S1024.ShapeCasts S1x1024
  shapeCasts_S16_S1x16 : S16.ShapeCasts S1x16
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S2048x512_S2048x512_0_0 : ∀ a, (![0, 0] : Fin 2 → Nat) a + S2048x512.size a ≤ S2048x512.size a
  h_S2048x512 : 0 < S2048x512.numel
  broadcasts_S1x512_S8x512 : S1x512.Broadcasts S8x512
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S8x1024 : S1x1024.Broadcasts S8x1024
  inb_S1024x16_S1024x16_0_0 : ∀ a, (![0, 0] : Fin 2 → Nat) a + S1024x16.size a ≤ S1024x16.size a
  h_S1024x16 : 0 < S1024x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8x16 : S1x16.Broadcasts S8x16
  reduces_S8x16_S8 : S8x16.Reduces [1] S8
  shapeCasts_S8_S8x1 : S8.ShapeCasts S8x1
  broadcasts_S8x1_S8x16 : S8x1.Broadcasts S8x16
  inb_S8x16_S8x16_0_0 : ∀ a, (![0, 0] : Fin 2 → Nat) a + S8x16.size a ≤ S8x16.size a
  h_S8x16 : 0 < S8x16.numel
  dot_S8192x32_S32x64_S8192x64_1_0_0_1_n_n_wf : DotDims.WF S8192x32 S32x64 S8192x64 [1] [0] [0] [1] [] []
  dot_S8192x1600_S1600x64_S8192x64_1_0_0_1_n_n_wf : DotDims.WF S8192x1600 S1600x64 S8192x64 [1] [0] [0] [1] [] []
  dot_S2048x1600_S1600x128_S2048x128_1_0_0_1_n_n_wf : DotDims.WF S2048x1600 S1600x128 S2048x128 [1] [0] [0] [1] [] []
  dot_S2048x3200_S3200x128_S2048x128_1_0_0_1_n_n_wf : DotDims.WF S2048x3200 S3200x128 S2048x128 [1] [0] [0] [1] [] []
  dot_S512x3200_S3200x256_S512x256_1_0_0_1_n_n_wf : DotDims.WF S512x3200 S3200x256 S512x256 [1] [0] [0] [1] [] []
  dot_S512x6400_S6400x256_S512x256_1_0_0_1_n_n_wf : DotDims.WF S512x6400 S6400x256 S512x256 [1] [0] [0] [1] [] []
  dot_S128x6400_S6400x512_S128x512_1_0_0_1_n_n_wf : DotDims.WF S128x6400 S6400x512 S128x512 [1] [0] [0] [1] [] []
  dot_S8x2048_S2048x512_S8x512_1_0_0_1_n_n_wf : DotDims.WF S8x2048 S2048x512 S8x512 [1] [0] [0] [1] [] []
  dot_S8x512_S512x1024_S8x1024_1_0_0_1_n_n_wf : DotDims.WF S8x512 S512x1024 S8x1024 [1] [0] [0] [1] [] []
  dot_S8x1024_S1024x16_S8x16_1_0_0_1_n_n_wf : DotDims.WF S8x1024 S1024x16 S8x16 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x16x64x32.size a ≤ S8x16x64x32.size a
  hwx0_0 : ∀ i : grid0.Coords, EltTy.bits .bf16 = 32 ∨ (Rect.block (s := S8x16x64x32) S8x16x64x32.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .bf16 = 32 ∨ (Rect.block (s := S32x64) S32x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1600x64.size a ≤ S1600x64.size a
  hwx0_3 : ∀ i : grid0.Coords, EltTy.bits .bf16 = 32 ∨ (Rect.block (s := S1600x64) S1600x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x16x16x64.size a ≤ S8x16x16x64.size a
  hwx0_5 : ∀ i : grid0.Coords, EltTy.bits .bf16 = 32 ∨ (Rect.block (s := S8x16x16x64) S8x16x16x64.size (cc0_transform_5 i) (hinb0_5 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8x20x20x64.size a ≤ S8x20x20x64.size a
  hwx1_0 : ∀ i : grid1.Coords, EltTy.bits .bf16 = 32 ∨ (Rect.block (s := S8x20x20x64) S8x20x20x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1600x128.size a ≤ S1600x128.size a
  hwx1_1 : ∀ i : grid1.Coords, EltTy.bits .bf16 = 32 ∨ (Rect.block (s := S1600x128) S1600x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3200x128.size a ≤ S3200x128.size a
  hwx1_3 : ∀ i : grid1.Coords, EltTy.bits .bf16 = 32 ∨ (Rect.block (s := S3200x128) S3200x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x16x4x128.size a ≤ S8x16x4x128.size a
  hwx1_5 : ∀ i : grid1.Coords, EltTy.bits .bf16 = 32 ∨ (Rect.block (s := S8x16x4x128) S8x16x4x128.size (cc1_transform_5 i) (hinb1_5 i)).WholeWords (EltTy.packing .bf16)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S8x20x8x128.size a ≤ S8x20x8x128.size a
  hwx2_0 : ∀ i : grid2.Coords, EltTy.bits .bf16 = 32 ∨ (Rect.block (s := S8x20x8x128) S8x20x8x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S3200x256.size a ≤ S3200x256.size a
  hwx2_1 : ∀ i : grid2.Coords, EltTy.bits .bf16 = 32 ∨ (Rect.block (s := S3200x256) S3200x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S6400x256.size a ≤ S6400x256.size a
  hwx2_3 : ∀ i : grid2.Coords, EltTy.bits .bf16 = 32 ∨ (Rect.block (s := S6400x256) S6400x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S8x16x1x256.size a ≤ S8x16x1x256.size a
  hwx2_5 : ∀ i : grid2.Coords, EltTy.bits .bf16 = 32 ∨ (Rect.block (s := S8x16x1x256) S8x16x1x256.size (cc2_transform_5 i) (hinb2_5 i)).WholeWords (EltTy.packing .bf16)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S8x20x5x256.size a ≤ S8x20x5x256.size a
  hwx3_0 : ∀ i : grid3.Coords, EltTy.bits .bf16 = 32 ∨ (Rect.block (s := S8x20x5x256) S8x20x5x256.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6400x512.size a ≤ S6400x2048.size a
  hwx3_1 : ∀ i : grid3.Coords, EltTy.bits .bf16 = 32 ∨ (Rect.block (s := S6400x2048) S6400x512.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x2048.size a
  hwx3_2 : ∀ i : grid3.Coords, EltTy.bits .f32 = 32 ∨ (Rect.block (s := S1x2048) S1x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8x512.size a ≤ S8x2048.size a
  hwx3_3 : ∀ i : grid3.Coords, EltTy.bits .bf16 = 32 ∨ (Rect.block (s := S8x2048) S8x512.size (cc3_transform_3 i) (hinb3_3 i)).WholeWords (EltTy.packing .bf16)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S8x2048.size a ≤ S8x2048.size a
  hwx4_0 : ∀ i : grid4.Coords, EltTy.bits .bf16 = 32 ∨ (Rect.block (s := S8x2048) S8x2048.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S2048x512.size a ≤ S2048x512.size a
  hwx4_1 : ∀ i : grid4.Coords, EltTy.bits .bf16 = 32 ∨ (Rect.block (s := S2048x512) S2048x512.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x1024.size a ≤ S512x1024.size a
  hwx4_3 : ∀ i : grid4.Coords, EltTy.bits .bf16 = 32 ∨ (Rect.block (s := S512x1024) S512x1024.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1024.size a ≤ S1x1024.size a
  hwx4_4 : ∀ i : grid4.Coords, EltTy.bits .f32 = 32 ∨ (Rect.block (s := S1x1024) S1x1024.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1024x16.size a ≤ S1024x16.size a
  hwx4_5 : ∀ i : grid4.Coords, EltTy.bits .bf16 = 32 ∨ (Rect.block (s := S1024x16) S1024x16.size (cc4_transform_5 i) (hinb4_5 i)).WholeWords (EltTy.packing .bf16)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x16.size a ≤ S1x16.size a
  hwx4_6 : ∀ i : grid4.Coords, EltTy.bits .f32 = 32 ∨ (Rect.block (s := S1x16) S1x16.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S8x16.size a ≤ S8x16.size a
  hwx4_7 : ∀ i : grid4.Coords, EltTy.bits .f32 = 32 ∨ (Rect.block (s := S8x16) S8x16.size (cc4_transform_7 i) (hinb4_7 i)).WholeWords (EltTy.packing .f32)

variable [Facts₀]

def dot_S8192x32_S32x64_S8192x64_1_0_0_1_n_n : DotDims S8192x32 S32x64 S8192x64 where
  lhsContracting := [1]
  rhsContracting := [0]
  lhsNonContracting := [0]
  rhsNonContracting := [1]
  lhsBatch := []
  rhsBatch := []
  wf := dot_S8192x32_S32x64_S8192x64_1_0_0_1_n_n_wf
def dot_S8192x1600_S1600x64_S8192x64_1_0_0_1_n_n : DotDims S8192x1600 S1600x64 S8192x64 where
  lhsContracting := [1]
  rhsContracting := [0]
  lhsNonContracting := [0]
  rhsNonContracting := [1]
  lhsBatch := []
  rhsBatch := []
  wf := dot_S8192x1600_S1600x64_S8192x64_1_0_0_1_n_n_wf
def dot_S2048x1600_S1600x128_S2048x128_1_0_0_1_n_n : DotDims S2048x1600 S1600x128 S2048x128 where
  lhsContracting := [1]
  rhsContracting := [0]
  lhsNonContracting := [0]
  rhsNonContracting := [1]
  lhsBatch := []
  rhsBatch := []
  wf := dot_S2048x1600_S1600x128_S2048x128_1_0_0_1_n_n_wf
def dot_S2048x3200_S3200x128_S2048x128_1_0_0_1_n_n : DotDims S2048x3200 S3200x128 S2048x128 where
  lhsContracting := [1]
  rhsContracting := [0]
  lhsNonContracting := [0]
  rhsNonContracting := [1]
  lhsBatch := []
  rhsBatch := []
  wf := dot_S2048x3200_S3200x128_S2048x128_1_0_0_1_n_n_wf
def dot_S512x3200_S3200x256_S512x256_1_0_0_1_n_n : DotDims S512x3200 S3200x256 S512x256 where
  lhsContracting := [1]
  rhsContracting := [0]
  lhsNonContracting := [0]
  rhsNonContracting := [1]
  lhsBatch := []
  rhsBatch := []
  wf := dot_S512x3200_S3200x256_S512x256_1_0_0_1_n_n_wf
def dot_S512x6400_S6400x256_S512x256_1_0_0_1_n_n : DotDims S512x6400 S6400x256 S512x256 where
  lhsContracting := [1]
  rhsContracting := [0]
  lhsNonContracting := [0]
  rhsNonContracting := [1]
  lhsBatch := []
  rhsBatch := []
  wf := dot_S512x6400_S6400x256_S512x256_1_0_0_1_n_n_wf
def dot_S128x6400_S6400x512_S128x512_1_0_0_1_n_n : DotDims S128x6400 S6400x512 S128x512 where
  lhsContracting := [1]
  rhsContracting := [0]
  lhsNonContracting := [0]
  rhsNonContracting := [1]
  lhsBatch := []
  rhsBatch := []
  wf := dot_S128x6400_S6400x512_S128x512_1_0_0_1_n_n_wf
def dot_S8x2048_S2048x512_S8x512_1_0_0_1_n_n : DotDims S8x2048 S2048x512 S8x512 where
  lhsContracting := [1]
  rhsContracting := [0]
  lhsNonContracting := [0]
  rhsNonContracting := [1]
  lhsBatch := []
  rhsBatch := []
  wf := dot_S8x2048_S2048x512_S8x512_1_0_0_1_n_n_wf
def dot_S8x512_S512x1024_S8x1024_1_0_0_1_n_n : DotDims S8x512 S512x1024 S8x1024 where
  lhsContracting := [1]
  rhsContracting := [0]
  lhsNonContracting := [0]
  rhsNonContracting := [1]
  lhsBatch := []
  rhsBatch := []
  wf := dot_S8x512_S512x1024_S8x1024_1_0_0_1_n_n_wf
def dot_S8x1024_S1024x16_S8x16_1_0_0_1_n_n : DotDims S8x1024 S1024x16 S8x16 where
  lhsContracting := [1]
  rhsContracting := [0]
  lhsNonContracting := [0]
  rhsNonContracting := [1]
  lhsBatch := []
  rhsBatch := []
  wf := dot_S8x1024_S1024x16_S8x16_1_0_0_1_n_n_wf

abbrev win0_0 : Pipeline.Window sig grid0 :=
  Pipeline.Window.ofSpec (Memref.whole main_v55) S8x16x64x32.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v56) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1600x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v57) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v58) S8x16x16x64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v59) S8x20x20x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1600x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v60) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S3200x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v61) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v62) S8x16x4x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v63) S8x20x8x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S3200x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S6400x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S8x16x1x256.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v67) S8x20x5x256.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg13) S6400x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v68) S1x512.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v69) S8x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v69) S8x2048.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg15) S2048x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v70) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg17) S512x1024.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v71) S1x1024.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg19) S1024x16.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v72) S1x16.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v73) S8x16.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== Proof.KernelRegion0.lean ====
/-
  The kernel's first region: the first convolution as a 32-tap matrix product with its rectifier, then three 5x5 convolutions
  (each ONE matrix product over the five row taps on rows padded to a multiple of 8, the five column-shifted slices added) with
  bias, rectifier and two width-4 max pools; whole-array windows, one grid point, six scratch buffers (three zero-padded
  activations and three patch matrices).
  Here: the kernel body run once by the symbolic executor from its input blocks' raw contents (the output blocks and the scratch buffers
  at anything), its witness (the raw contents each output block holds afterwards, as a function of the inputs'), the
  region's proof data at a parameter `V` (the buffers' contents when the region is entered) and the body obligation
  at the region's one grid point.  A staging buffer is a whole memref, so what it reads and its raw contents
  determine each other.
  The program here is the one read at the word level: a float is its bit pattern and every operation is the one on
  words. Nothing in this module depends on which reading it is: the float operations enter only through `FloatOps F`,
  and the run's witness is a term over them, whatever they are.
-/
import proofs.«147627_g2000402439390779_pallasbulk_891_17_alg».proof.Proof.Gen.Kernel.Launch
import proofs.«147627_g2000402439390779_pallasbulk_891_17_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Cert.Kernel.Facts]

local notation "𝕄" => MT nD τ sig Unit (Elt F) ℕ (UR sig nD τ) ℕ

/-- A memref's raw contents on core `c`, and the memref held at them. -/
abbrev Bf0 (c : Dev nD) {sp : Space} {S : Shape} {e : EltTy} (M : Memref sig .tc sp S e) : Type := M.view.ty.Contents (Elt F)
abbrev pt0 (c : Dev nD) {sp : Space} {S : Shape} {e : EltTy} (M : Memref sig .tc sp S e) (f : Bf0 (F := F) c M) : sProp 𝕄 :=
  M.view.loc (c : Thread nD τ) ↦[M.view.set]{fullShare} f

/-- A whole memref read at `X` is held at the raw contents that read `X`, and conversely; held at raw contents
    `f` it reads what `f` reads. -/
theorem owns_to_pt0 (c : Dev nD) {sp : Space} {S : Shape} {e : EltTy} (M : Memref sig .tc sp S e) (h : M.IsWhole) (X : S.Idx → Elt F e) :
    (owns (c : Thread nD τ) M fullShare X : sProp 𝕄) ⊢ pt0 c M (h.unread X) := by
  unfold owns; iintro ⟨%f, %hf, H⟩; obtain rfl := h.eq_unread hf; iexact H
theorem pt_to_owns0 (c : Dev nD) {sp : Space} {S : Shape} {e : EltTy} (M : Memref sig .tc sp S e) (h : M.IsWhole) (X : S.Idx → Elt F e) :
    (pt0 c M (h.unread X) : sProp 𝕄) ⊢ owns (c : Thread nD τ) M fullShare X := by
  unfold owns; iintro H; iexists _; isplitr; · ipureintro; exact h.read_unread X
  iexact H
theorem pt_to_owns_read0 (c : Dev nD) {sp : Space} {S : Shape} {e : EltTy} (M : Memref sig .tc sp S e) (f : Bf0 (F := F) c M) :
    (pt0 c M f : sProp 𝕄) ⊢ owns (c : Thread nD τ) M fullShare (M.view.read (Elt F) f) := by
  unfold owns; iintro H; iexists f; isplitr; · ipureintro; rfl
  iexact H
theorem owns_to_ex0 (c : Dev nD) {sp : Space} {S : Shape} {e : EltTy} (M : Memref sig .tc sp S e) (X : S.Idx → Elt F e) :
    (owns (c : Thread nD τ) M fullShare X : sProp 𝕄) ⊢ iprop(∃ f, pt0 c M f) := by
  unfold owns; iintro ⟨%f, -, H⟩; iexists f; iexact H

/-- A scoped scratch buffer held whole at something, as the scoped rest keeps it and as the body takes it. -/
theorem scratch_in0 (c : Dev nD) (b : Ref sig .tc) :
    (iprop(∃ f : Buf (Elt F) ((c : Thread nD τ).loc b), ((c : Thread nD τ).loc b) ↦{fullShare} f) : sProp 𝕄)
      ⊢ iprop(∃ d, owns (c : Thread nD τ) (Memref.whole b) fullShare d) := by
  simp only [owns_whole_eq]
  iintro ⟨%f, H⟩; iexists f, f; isplitr; · ipureintro; rfl
  iexact H
theorem scratch_out0 (c : Dev nD) (b : Ref sig .tc) :
    (iprop(∃ d, owns (c : Thread nD τ) (Memref.whole b) fullShare d) : sProp 𝕄)
      ⊢ iprop(∃ f : Buf (Elt F) ((c : Thread nD τ).loc b), ((c : Thread nD τ).loc b) ↦{fullShare} f) := by
  simp only [owns_whole_eq]
  iintro ⟨%d, %f, -, H⟩; iexists f; iexact H

/-- The scoped rest with this kernel's scratch buffers taken out, each whole at some contents; the remainder unopened. -/
theorem scratch_split0 (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f))
          ∗ Pipeline.scopedRestBut (Ix := Unit) (Name := ℕ) (U := UR sig nD τ) (Lvl := ℕ) (Val := Elt F) spec0 c [cc0_scratch0, cc0_scratch1, cc0_scratch2, cc0_scratch3, cc0_scratch4, cc0_scratch5]) :=
  Pipeline.scopedRest_split_of_list spec0 c [cc0_scratch0, cc0_scratch1, cc0_scratch2, cc0_scratch3, cc0_scratch4, cc0_scratch5] (by decide) (by decide)

set_option maxHeartbeats 8000000 in
/-- The body from its input blocks: it runs to its return, hands the inputs back unchanged and leaves each
    output block at the witness; the scratch buffers end at something. -/
noncomputable def run0 (c : Dev nD) (M0 : Memref sig .tc .vmem S8192x32 .bf16) (h0 : M0.IsWhole) (M1 : Memref sig .tc .vmem S32x64 .bf16) (h1 : M1.IsWhole) (M2 : Memref sig .tc .vmem S1x64 .f32) (h2 : M2.IsWhole) (M3 : Memref sig .tc .vmem S320x320 .bf16) (h3 : M3.IsWhole) (M4 : Memref sig .tc .vmem S1x64 .f32) (h4 : M4.IsWhole) (M5 : Memref sig .tc .vmem S320x640 .bf16) (h5 : M5.IsWhole) (M6 : Memref sig .tc .vmem S1x128 .f32) (h6 : M6.IsWhole) (M7 : Memref sig .tc .vmem S640x640 .bf16) (h7 : M7.IsWhole) (M8 : Memref sig .tc .vmem S1x128 .f32) (h8 : M8.IsWhole) (M9 : Memref sig .tc .vmem S8x16x4x128 .bf16) (h9 : M9.IsWhole) (C0 : Memref sig .tc .vmem S8x20x72x64 .bf16) (g0 : C0.IsWhole) (C1 : Memref sig .tc .vmem S9216x320 .bf16) (g1 : C1.IsWhole) (C2 : Memref sig .tc .vmem S8x20x24x64 .bf16) (g2 : C2.IsWhole) (C3 : Memref sig .tc .vmem S3072x320 .bf16) (g3 : C3.IsWhole) (C4 : Memref sig .tc .vmem S8x20x24x128 .bf16) (g4 : C4.IsWhole) (C5 : Memref sig .tc .vmem S3072x640 .bf16) (g5 : C5.IsWhole)
    (f0 : Bf0 (F := F) c M0) (f1 : Bf0 (F := F) c M1) (f2 : Bf0 (F := F) c M2) (f3 : Bf0 (F := F) c M3) (f4 : Bf0 (F := F) c M4) (f5 : Bf0 (F := F) c M5) (f6 : Bf0 (F := F) c M6) (f7 : Bf0 (F := F) c M7) (f8 : Bf0 (F := F) c M8) :
    { W : Bf0 (F := F) c M9 // ∀ (E : Set ℕ) (K : PUnit → sProp 𝕄),
        iprop(pt0 c M0 f0
            ∗ pt0 c M1 f1
            ∗ pt0 c M2 f2
            ∗ pt0 c M3 f3
            ∗ pt0 c M4 f4
            ∗ pt0 c M5 f5
            ∗ pt0 c M6 f6
            ∗ pt0 c M7 f7
            ∗ pt0 c M8 f8
            ∗ (∃ f, pt0 c M9 f)
            ∗ (∃ d, owns (c : Thread nD τ) C0 fullShare d)
            ∗ (∃ d, owns (c : Thread nD τ) C1 fullShare d)
            ∗ (∃ d, owns (c : Thread nD τ) C2 fullShare d)
            ∗ (∃ d, owns (c : Thread nD τ) C3 fullShare d)
            ∗ (∃ d, owns (c : Thread nD τ) C4 fullShare d)
            ∗ (∃ d, owns (c : Thread nD τ) C5 fullShare d)
            ∗ (iprop(pt0 c M0 f0
                ∗ pt0 c M1 f1
                ∗ pt0 c M2 f2
                ∗ pt0 c M3 f3
                ∗ pt0 c M4 f4
                ∗ pt0 c M5 f5
                ∗ pt0 c M6 f6
                ∗ pt0 c M7 f7
                ∗ pt0 c M8 f8
                ∗ pt0 c M9 W
                ∗ (∃ d, owns (c : Thread nD τ) C0 fullShare d)
                ∗ (∃ d, owns (c : Thread nD τ) C1 fullShare d)
                ∗ (∃ d, owns (c : Thread nD τ) C2 fullShare d)
                ∗ (∃ d, owns (c : Thread nD τ) C3 fullShare d)
                ∗ (∃ d, owns (c : Thread nD τ) C4 fullShare d)
                ∗ (∃ d, owns (c : Thread nD τ) C5 fullShare d)) -∗ K ⟨⟩))
          ⊢ wp frame (wpE (defs₀ (F := F)) Variants.none c none) E (cc0__stage12_kernel M0 h0 M1 h1 M2 h2 M3 h3 M4 h4 M5 h5 M6 h6 M7 h7 M8 h8 M9 h9 C0 g0 C1 g1 C2 g2 C3 g3 C4 g4 C5 g5) K } := by
  refine ⟨?_, fun E K => ?run⟩
  case run =>
    unfold owns
    iintro ⟨H0, H1, H2, H3, H4, H5, H6, H7, H8, ⟨%f9, H9⟩, ⟨%e0, %q0, -, G0⟩, ⟨%e1, %q1, -, G1⟩, ⟨%e2, %q2, -, G2⟩, ⟨%e3, %q3, -, G3⟩, ⟨%e4, %q4, -, G4⟩, ⟨%e5, %q5, -, G5⟩, Hk⟩
    sl_exec!
    sl_step
    iapply Hk
    isplitl [H0]; · (iexact H0)
    isplitl [H1]; · (iexact H1)
    isplitl [H2]; · (iexact H2)
    isplitl [H3]; · (iexact H3)
    isplitl [H4]; · (iexact H4)
    isplitl [H5]; · (iexact H5)
    isplitl [H6]; · (iexact H6)
    isplitl [H7]; · (iexact H7)
    isplitl [H8]; · (iexact H8)
    isplitl [H9]; · (iexact H9)
    isplitl [G0]; · (iexists _, _; isplitr; swap; (· iexact G0); ipureintro; rfl)
    isplitl [G1]; · (iexists _, _; isplitr; swap; (· iexact G1); ipureintro; rfl)
    isplitl [G2]; · (iexists _, _; isplitr; swap; (· iexact G2); ipureintro; rfl)
    isplitl [G3]; · (iexists _, _; isplitr; swap; (· iexact G3); ipureintro; rfl)
    isplitl [G4]; · (iexists _, _; isplitr; swap; (· iexact G4); ipureintro; rfl)
    iexists _, _; isplitr; swap; (· iexact G5); ipureintro; rfl

-- the witness is never opened below: only its existence and the triple are used
attribute [irreducible] run0

variable (V : (c : Dev nD) → (b : Ref sig .tc) → Buf (Elt F) ((c : Thread nD τ).loc b))

/-- Window `w`'s block at the one grid point, read off its array as the region finds it. -/
abbrev blk0_0 (c : Dev nD) : (cfg0.win 0).block.Idx → Elt F (cfg0.win 0).elt :=
  ((cfg0.win 0).blk t0_0).view.read (Elt F) (V c (Pipeline.arrRef spec0 0))
abbrev blk0_1 (c : Dev nD) : (cfg0.win 1).block.Idx → Elt F (cfg0.win 1).elt :=
  ((cfg0.win 1).blk t0_0).view.read (Elt F) (V c (Pipeline.arrRef spec0 1))
abbrev blk0_2 (c : Dev nD) : (cfg0.win 2).block.Idx → Elt F (cfg0.win 2).elt :=
  ((cfg0.win 2).blk t0_0).view.read (Elt F) (V c (Pipeline.arrRef spec0 2))
abbrev blk0_3 (c : Dev nD) : (cfg0.win 3).block.Idx → Elt F (cfg0.win 3).elt :=
  ((cfg0.win 3).blk t0_0).view.read (Elt F) (V c (Pipeline.arrRef spec0 3))
abbrev blk0_4 (c : Dev nD) : (cfg0.win 4).block.Idx → Elt F (cfg0.win 4).elt :=
  ((cfg0.win 4).blk t0_0).view.read (Elt F) (V c (Pipeline.arrRef spec0 4))
abbrev blk0_5 (c : Dev nD) : (cfg0.win 5).block.Idx → Elt F (cfg0.win 5).elt :=
  ((cfg0.win 5).blk t0_0).view.read (Elt F) (V c (Pipeline.arrRef spec0 5))
abbrev blk0_6 (c : Dev nD) : (cfg0.win 6).block.Idx → Elt F (cfg0.win 6).elt :=
  ((cfg0.win 6).blk t0_0).view.read (Elt F) (V c (Pipeline.arrRef spec0 6))
abbrev blk0_7 (c : Dev nD) : (cfg0.win 7).block.Idx → Elt F (cfg0.win 7).elt :=
  ((cfg0.win 7).blk t0_0).view.read (Elt F) (V c (Pipeline.arrRef spec0 7))
abbrev blk0_8 (c : Dev nD) : (cfg0.win 8).block.Idx → Elt F (cfg0.win 8).elt :=
  ((cfg0.win 8).blk t0_0).view.read (Elt F) (V c (Pipeline.arrRef spec0 8))

/-- The run at the staged blocks (each input's raw contents the ones that read its block). -/
abbrev K0 (c : Dev nD) := run0 (F := F) c (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
  ((hstage0_0 0).unread (blk0_0 V c)) ((hstage0_1 0).unread (blk0_1 V c)) ((hstage0_2 0).unread (blk0_2 V c)) ((hstage0_3 0).unread (blk0_3 V c)) ((hstage0_4 0).unread (blk0_4 V c)) ((hstage0_5 0).unread (blk0_5 V c)) ((hstage0_6 0).unread (blk0_6 V c)) ((hstage0_7 0).unread (blk0_7 V c)) ((hstage0_8 0).unread (blk0_8 V c))

/-- The region's proof data: the arrays as found; after the body every input block as fetched and every
    output block at what the run's witness reads; the invariant the scoped buffers and the generator register;
    nothing owed; full shares. -/
def dat0 (c : Dev nD) : Dat τ (Elt F) Unit ℕ (UR sig nD τ) ℕ cfg0 c where
  A w := V c (Pipeline.arrRef spec0 w)
  after w _ := match w with
    | ⟨0, _⟩ => blk0_0 V c
    | ⟨1, _⟩ => blk0_1 V c
    | ⟨2, _⟩ => blk0_2 V c
    | ⟨3, _⟩ => blk0_3 V c
    | ⟨4, _⟩ => blk0_4 V c
    | ⟨5, _⟩ => blk0_5 V c
    | ⟨6, _⟩ => blk0_6 V c
    | ⟨7, _⟩ => blk0_7 V c
    | ⟨8, _⟩ => blk0_8 V c
    | ⟨9, _⟩ => (win0_9.stage (cfg0.slots t0_0 9)).view.read (Elt F) (K0 V c).1
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0_0 V c := rfl
theorem after0_1 (c : Dev nD) (t : Fin cfg0.N) : (dat0 V c).after 1 t = blk0_1 V c := rfl
theorem after0_2 (c : Dev nD) (t : Fin cfg0.N) : (dat0 V c).after 2 t = blk0_2 V c := rfl
theorem after0_3 (c : Dev nD) (t : Fin cfg0.N) : (dat0 V c).after 3 t = blk0_3 V c := rfl
theorem after0_4 (c : Dev nD) (t : Fin cfg0.N) : (dat0 V c).after 4 t = blk0_4 V c := rfl
theorem after0_5 (c : Dev nD) (t : Fin cfg0.N) : (dat0 V c).after 5 t = blk0_5 V c := rfl
theorem after0_6 (c : Dev nD) (t : Fin cfg0.N) : (dat0 V c).after 6 t = blk0_6 V c := rfl
theorem after0_7 (c : Dev nD) (t : Fin cfg0.N) : (dat0 V c).after 7 t = blk0_7 V c := rfl
theorem after0_8 (c : Dev nD) (t : Fin cfg0.N) : (dat0 V c).after 8 t = blk0_8 V c := rfl
theorem after0_9 (c : Dev nD) (t : Fin cfg0.N) : (dat0 V c).after 9 t = (win0_9.stage (cfg0.slots t0_0 9)).view.read (Elt F) (K0 V c).1 := rfl

theorem before0_0 (c : Dev nD) (d) : (dat0 V c).before 0 t0_0 d = blk0_0 V c := by
  unfold Dat.before; split
  · rfl
  · exact absurd (fetch0_0 t0_0) ‹_›
theorem before0_1 (c : Dev nD) (d) : (dat0 V c).before 1 t0_0 d = blk0_1 V c := by
  unfold Dat.before; split
  · rfl
  · exact absurd (fetch0_1 t0_0) ‹_›
theorem before0_2 (c : Dev nD) (d) : (dat0 V c).before 2 t0_0 d = blk0_2 V c := by
  unfold Dat.before; split
  · rfl
  · exact absurd (fetch0_2 t0_0) ‹_›
theorem before0_3 (c : Dev nD) (d) : (dat0 V c).before 3 t0_0 d = blk0_3 V c := by
  unfold Dat.before; split
  · rfl
  · exact absurd (fetch0_3 t0_0) ‹_›
theorem before0_4 (c : Dev nD) (d) : (dat0 V c).before 4 t0_0 d = blk0_4 V c := by
  unfold Dat.before; split
  · rfl
  · exact absurd (fetch0_4 t0_0) ‹_›
theorem before0_5 (c : Dev nD) (d) : (dat0 V c).before 5 t0_0 d = blk0_5 V c := by
  unfold Dat.before; split
  · rfl
  · exact absurd (fetch0_5 t0_0) ‹_›
theorem before0_6 (c : Dev nD) (d) : (dat0 V c).before 6 t0_0 d = blk0_6 V c := by
  unfold Dat.before; split
  · rfl
  · exact absurd (fetch0_6 t0_0) ‹_›
theorem before0_7 (c : Dev nD) (d) : (dat0 V c).before 7 t0_0 d = blk0_7 V c := by
  unfold Dat.before; split
  · rfl
  · exact absurd (fetch0_7 t0_0) ‹_›
theorem before0_8 (c : Dev nD) (d) : (dat0 V c).before 8 t0_0 d = blk0_8 V c := by
  unfold Dat.before; split
  · rfl
  · exact absurd (fetch0_8 t0_0) ‹_›

/-- What the body is called with at the point, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 4000000 in
/-- The body at the point: the staged blocks, the scratch buffers out of the scoped rest and the invariant taken apart, the run applied, its post
    put back together. -/
theorem sound_body0 (c : Dev nD) (t : Fin cfg0.N) :
    bodyPre0 V c t ⊢ wp frame (wpE (defs₀ (F := F)) Variants.none c none) Set.univ (bodyAt0 t) (fun _ => bodyPost0 V c t) := by
  obtain rfl := fin_N0 t
  unfold bodyPre0 bodyPost0 bodyAt0
  simp only [before0_0, before0_1, before0_2, before0_3, before0_4, before0_5, before0_6, before0_7, before0_8]
  rw [show (dat0 V c).Φ t0_0.succ = (dat0 V c).Φ t0_0.castSucc from rfl,
    show (dat0 V c).owesAt () t0_0.succ = (dat0 V c).owesAt () t0_0.castSucc from rfl,
    after0_0, after0_1, after0_2, after0_3, after0_4, after0_5, after0_6, after0_7, after0_8, after0_9]
  rw [show (dat0 V c).Φ t0_0.castSucc = Pipeline.ΦA spec0 c from rfl]; unfold Pipeline.ΦA
  rw [scratch_split0]
  iintro ⟨⟨⟨⟨G0, G1, G2, G3, G4, G5⟩, Hrest⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((K0 V c).2 Set.univ _)
  isplitl [H0]; · (iapply (owns_to_pt0 c _ (hstage0_0 0) _); iexact H0)
  isplitl [H1]; · (iapply (owns_to_pt0 c _ (hstage0_1 0) _); iexact H1)
  isplitl [H2]; · (iapply (owns_to_pt0 c _ (hstage0_2 0) _); iexact H2)
  isplitl [H3]; · (iapply (owns_to_pt0 c _ (hstage0_3 0) _); iexact H3)
  isplitl [H4]; · (iapply (owns_to_pt0 c _ (hstage0_4 0) _); iexact H4)
  isplitl [H5]; · (iapply (owns_to_pt0 c _ (hstage0_5 0) _); iexact H5)
  isplitl [H6]; · (iapply (owns_to_pt0 c _ (hstage0_6 0) _); iexact H6)
  isplitl [H7]; · (iapply (owns_to_pt0 c _ (hstage0_7 0) _); iexact H7)
  isplitl [H8]; · (iapply (owns_to_pt0 c _ (hstage0_8 0) _); iexact H8)
  isplitl [H9]; · (iapply (owns_to_ex0 c _ _); iexact H9)
  isplitl [G0]; · (iapply (scratch_in0 c cc0_scratch0); iexact G0)
  isplitl [G1]; · (iapply (scratch_in0 c cc0_scratch1); iexact G1)
  isplitl [G2]; · (iapply (scratch_in0 c cc0_scratch2); iexact G2)
  isplitl [G3]; · (iapply (scratch_in0 c cc0_scratch3); iexact G3)
  isplitl [G4]; · (iapply (scratch_in0 c cc0_scratch4); iexact G4)
  isplitl [G5]; · (iapply (scratch_in0 c cc0_scratch5); iexact G5)
  iintro ⟨H0, H1, H2, H3, H4, H5, H6, H7, H8, H9, G0, G1, G2, G3, G4, G5⟩
  isplitl [G0 G1 G2 G3 G4 G5 Hrest Hp]
  · isplitl [G0 G1 G2 G3 G4 G5 Hrest]
    · isplitl [G0 G1 G2 G3 G4 G5]
      · skip
        isplitl [G0]; · (iapply (scratch_out0 c cc0_scratch0); iexact G0)
        isplitl [G1]; · (iapply (scratch_out0 c cc0_scratch1); iexact G1)
        isplitl [G2]; · (iapply (scratch_out0 c cc0_scratch2); iexact G2)
        isplitl [G3]; · (iapply (scratch_out0 c cc0_scratch3); iexact G3)
        isplitl [G4]; · (iapply (scratch_out0 c cc0_scratch4); iexact G4)
        iapply (scratch_out0 c cc0_scratch5); iexact G5
      · iexact Hrest
    · iexact Hp
  isplitl [Ho]; · iexact Ho
  isplitl [H0]; · (iapply (pt_to_owns0 c _ (hstage0_0 0) _); iexact H0)
  isplitl [H1]; · (iapply (pt_to_owns0 c _ (hstage0_1 0) _); iexact H1)
  isplitl [H2]; · (iapply (pt_to_owns0 c _ (hstage0_2 0) _); iexact H2)
  isplitl [H3]; · (iapply (pt_to_owns0 c _ (hstage0_3 0) _); iexact H3)
  isplitl [H4]; · (iapply (pt_to_owns0 c _ (hstage0_4 0) _); iexact H4)
  isplitl [H5]; · (iapply (pt_to_owns0 c _ (hstage0_5 0) _); iexact H5)
  isplitl [H6]; · (iapply (pt_to_owns0 c _ (hstage0_6 0) _); iexact H6)
  isplitl [H7]; · (iapply (pt_to_owns0 c _ (hstage0_7 0) _); iexact H7)
  isplitl [H8]; · (iapply (pt_to_owns0 c _ (hstage0_8 0) _); iexact H8)
  iapply (pt_to_owns_read0 c _ _); iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KernelRegion1.lean ====
/-
  The kernel's second region: the two 5x5 convolutions of the third stage with their rectifiers and the width-4 max pool,
  the last convolution as a 5x1 convolution with the global maximum over the 16 rows, the three dense layers and the
  log-softmax; whole-array windows, one grid point, six scratch buffers (three zero-padded activations and three patch matrices).
  Here: the kernel body run once by the symbolic executor from its input blocks' raw contents (the output blocks and the scratch buffers
  at anything), its witness (the raw contents each output block holds afterwards, as a function of the inputs'), the
  region's proof data at a parameter `V` (the buffers' contents when the region is entered) and the body obligation
  at the region's one grid point.  A staging buffer is a whole memref, so what it reads and its raw contents
  determine each other.
  The program here is the one read at the word level: a float is its bit pattern and every operation is the one on
  words. Nothing in this module depends on which reading it is: the float operations enter only through `FloatOps F`,
  and the run's witness is a term over them, whatever they are.
-/
import proofs.«147627_g2000402439390779_pallasbulk_891_17_alg».proof.Proof.Gen.Kernel.Launch
import proofs.«147627_g2000402439390779_pallasbulk_891_17_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Cert.Kernel.Facts]

local notation "𝕄" => MT nD τ sig Unit (Elt F) ℕ (UR sig nD τ) ℕ

/-- A memref's raw contents on core `c`, and the memref held at them. -/
abbrev Bf1 (c : Dev nD) {sp : Space} {S : Shape} {e : EltTy} (M : Memref sig .tc sp S e) : Type := M.view.ty.Contents (Elt F)
abbrev pt1 (c : Dev nD) {sp : Space} {S : Shape} {e : EltTy} (M : Memref sig .tc sp S e) (f : Bf1 (F := F) c M) : sProp 𝕄 :=
  M.view.loc (c : Thread nD τ) ↦[M.view.set]{fullShare} f

/-- A whole memref read at `X` is held at the raw contents that read `X`, and conversely; held at raw contents
    `f` it reads what `f` reads. -/
theorem owns_to_pt1 (c : Dev nD) {sp : Space} {S : Shape} {e : EltTy} (M : Memref sig .tc sp S e) (h : M.IsWhole) (X : S.Idx → Elt F e) :
    (owns (c : Thread nD τ) M fullShare X : sProp 𝕄) ⊢ pt1 c M (h.unread X) := by
  unfold owns; iintro ⟨%f, %hf, H⟩; obtain rfl := h.eq_unread hf; iexact H
theorem pt_to_owns1 (c : Dev nD) {sp : Space} {S : Shape} {e : EltTy} (M : Memref sig .tc sp S e) (h : M.IsWhole) (X : S.Idx → Elt F e) :
    (pt1 c M (h.unread X) : sProp 𝕄) ⊢ owns (c : Thread nD τ) M fullShare X := by
  unfold owns; iintro H; iexists _; isplitr; · ipureintro; exact h.read_unread X
  iexact H
theorem pt_to_owns_read1 (c : Dev nD) {sp : Space} {S : Shape} {e : EltTy} (M : Memref sig .tc sp S e) (f : Bf1 (F := F) c M) :
    (pt1 c M f : sProp 𝕄) ⊢ owns (c : Thread nD τ) M fullShare (M.view.read (Elt F) f) := by
  unfold owns; iintro H; iexists f; isplitr; · ipureintro; rfl
  iexact H
theorem owns_to_ex1 (c : Dev nD) {sp : Space} {S : Shape} {e : EltTy} (M : Memref sig .tc sp S e) (X : S.Idx → Elt F e) :
    (owns (c : Thread nD τ) M fullShare X : sProp 𝕄) ⊢ iprop(∃ f, pt1 c M f) := by
  unfold owns; iintro ⟨%f, -, H⟩; iexists f; iexact H

/-- A scoped scratch buffer held whole at something, as the scoped rest keeps it and as the body takes it. -/
theorem scratch_in1 (c : Dev nD) (b : Ref sig .tc) :
    (iprop(∃ f : Buf (Elt F) ((c : Thread nD τ).loc b), ((c : Thread nD τ).loc b) ↦{fullShare} f) : sProp 𝕄)
      ⊢ iprop(∃ d, owns (c : Thread nD τ) (Memref.whole b) fullShare d) := by
  simp only [owns_whole_eq]
  iintro ⟨%f, H⟩; iexists f, f; isplitr; · ipureintro; rfl
  iexact H
theorem scratch_out1 (c : Dev nD) (b : Ref sig .tc) :
    (iprop(∃ d, owns (c : Thread nD τ) (Memref.whole b) fullShare d) : sProp 𝕄)
      ⊢ iprop(∃ f : Buf (Elt F) ((c : Thread nD τ).loc b), ((c : Thread nD τ).loc b) ↦{fullShare} f) := by
  simp only [owns_whole_eq]
  iintro ⟨%d, %f, -, H⟩; iexists f; iexact H

/-- The scoped rest with this kernel's scratch buffers taken out, each whole at some contents; the remainder unopened. -/
theorem scratch_split1 (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f) ∗ (∃ f : Buf (Elt F) ((c : Thread nD τ).loc cc1_scratch4), ((c : Thread nD τ).loc cc1_scratch4) ↦{fullShare} f) ∗ (∃ f : Buf (Elt F) ((c : Thread nD τ).loc cc1_scratch5), ((c : Thread nD τ).loc cc1_scratch5) ↦{fullShare} f))
          ∗ Pipeline.scopedRestBut (Ix := Unit) (Name := ℕ) (U := UR sig nD τ) (Lvl := ℕ) (Val := Elt F) spec1 c [cc1_scratch0, cc1_scratch1, cc1_scratch2, cc1_scratch3, cc1_scratch4, cc1_scratch5]) :=
  Pipeline.scopedRest_split_of_list spec1 c [cc1_scratch0, cc1_scratch1, cc1_scratch2, cc1_scratch3, cc1_scratch4, cc1_scratch5] (by decide) (by decide)

set_option maxHeartbeats 8000000 in
/-- The body from its input blocks: it runs to its return, hands the inputs back unchanged and leaves each
    output block at the witness; the scratch buffers end at something. -/
noncomputable def run1 (c : Dev nD) (M0 : Memref sig .tc .vmem S8x16x4x128 .bf16) (h0 : M0.IsWhole) (M1 : Memref sig .tc .vmem S640x1280 .bf16) (h1 : M1.IsWhole) (M2 : Memref sig .tc .vmem S1x256 .f32) (h2 : M2.IsWhole) (M3 : Memref sig .tc .vmem S1280x1280 .bf16) (h3 : M3.IsWhole) (M4 : Memref sig .tc .vmem S1x256 .f32) (h4 : M4.IsWhole) (M5 : Memref sig .tc .vmem S1280x2048 .bf16) (h5 : M5.IsWhole) (M6 : Memref sig .tc .vmem S1x2048 .f32) (h6 : M6.IsWhole) (M7 : Memref sig .tc .vmem S2048x512 .bf16) (h7 : M7.IsWhole) (M8 : Memref sig .tc .vmem S1x512 .f32) (h8 : M8.IsWhole) (M9 : Memref sig .tc .vmem S512x1024 .bf16) (h9 : M9.IsWhole) (M10 : Memref sig .tc .vmem S1x1024 .f32) (h10 : M10.IsWhole) (M11 : Memref sig .tc .vmem S1024x16 .bf16) (h11 : M11.IsWhole) (M12 : Memref sig .tc .vmem S1x16 .f32) (h12 : M12.IsWhole) (M13 : Memref sig .tc .vmem S8x16 .f32) (h13 : M13.IsWhole) (C0 : Memref sig .tc .vmem S8x20x8x128 .bf16) (g0 : C0.IsWhole) (C1 : Memref sig .tc .vmem S1024x640 .bf16) (g1 : C1.IsWhole) (C2 : Memref sig .tc .vmem S8x20x8x256 .bf16) (g2 : C2.IsWhole) (C3 : Memref sig .tc .vmem S1024x1280 .bf16) (g3 : C3.IsWhole) (C4 : Memref sig .tc .vmem S8x24x256 .bf16) (g4 : C4.IsWhole) (C5 : Memref sig .tc .vmem S128x1280 .bf16) (g5 : C5.IsWhole)
    (f0 : Bf1 (F := F) c M0) (f1 : Bf1 (F := F) c M1) (f2 : Bf1 (F := F) c M2) (f3 : Bf1 (F := F) c M3) (f4 : Bf1 (F := F) c M4) (f5 : Bf1 (F := F) c M5) (f6 : Bf1 (F := F) c M6) (f7 : Bf1 (F := F) c M7) (f8 : Bf1 (F := F) c M8) (f9 : Bf1 (F := F) c M9) (f10 : Bf1 (F := F) c M10) (f11 : Bf1 (F := F) c M11) (f12 : Bf1 (F := F) c M12) :
    { W : Bf1 (F := F) c M13 // ∀ (E : Set ℕ) (K : PUnit → sProp 𝕄),
        iprop(pt1 c M0 f0
            ∗ pt1 c M1 f1
            ∗ pt1 c M2 f2
            ∗ pt1 c M3 f3
            ∗ pt1 c M4 f4
            ∗ pt1 c M5 f5
            ∗ pt1 c M6 f6
            ∗ pt1 c M7 f7
            ∗ pt1 c M8 f8
            ∗ pt1 c M9 f9
            ∗ pt1 c M10 f10
            ∗ pt1 c M11 f11
            ∗ pt1 c M12 f12
            ∗ (∃ f, pt1 c M13 f)
            ∗ (∃ d, owns (c : Thread nD τ) C0 fullShare d)
            ∗ (∃ d, owns (c : Thread nD τ) C1 fullShare d)
            ∗ (∃ d, owns (c : Thread nD τ) C2 fullShare d)
            ∗ (∃ d, owns (c : Thread nD τ) C3 fullShare d)
            ∗ (∃ d, owns (c : Thread nD τ) C4 fullShare d)
            ∗ (∃ d, owns (c : Thread nD τ) C5 fullShare d)
            ∗ (iprop(pt1 c M0 f0
                ∗ pt1 c M1 f1
                ∗ pt1 c M2 f2
                ∗ pt1 c M3 f3
                ∗ pt1 c M4 f4
                ∗ pt1 c M5 f5
                ∗ pt1 c M6 f6
                ∗ pt1 c M7 f7
                ∗ pt1 c M8 f8
                ∗ pt1 c M9 f9
                ∗ pt1 c M10 f10
                ∗ pt1 c M11 f11
                ∗ pt1 c M12 f12
                ∗ pt1 c M13 W
                ∗ (∃ d, owns (c : Thread nD τ) C0 fullShare d)
                ∗ (∃ d, owns (c : Thread nD τ) C1 fullShare d)
                ∗ (∃ d, owns (c : Thread nD τ) C2 fullShare d)
                ∗ (∃ d, owns (c : Thread nD τ) C3 fullShare d)
                ∗ (∃ d, owns (c : Thread nD τ) C4 fullShare d)
                ∗ (∃ d, owns (c : Thread nD τ) C5 fullShare d)) -∗ K ⟨⟩))
          ⊢ wp frame (wpE (defs₀ (F := F)) Variants.none c none) E (cc1__stage3_head_kernel M0 h0 M1 h1 M2 h2 M3 h3 M4 h4 M5 h5 M6 h6 M7 h7 M8 h8 M9 h9 M10 h10 M11 h11 M12 h12 M13 h13 C0 g0 C1 g1 C2 g2 C3 g3 C4 g4 C5 g5) K } := by
  refine ⟨?_, fun E K => ?run⟩
  case run =>
    unfold owns
    iintro ⟨H0, H1, H2, H3, H4, H5, H6, H7, H8, H9, H10, H11, H12, ⟨%f13, H13⟩, ⟨%e0, %q0, -, G0⟩, ⟨%e1, %q1, -, G1⟩, ⟨%e2, %q2, -, G2⟩, ⟨%e3, %q3, -, G3⟩, ⟨%e4, %q4, -, G4⟩, ⟨%e5, %q5, -, G5⟩, Hk⟩
    sl_exec!
    sl_step
    iapply Hk
    isplitl [H0]; · (iexact H0)
    isplitl [H1]; · (iexact H1)
    isplitl [H2]; · (iexact H2)
    isplitl [H3]; · (iexact H3)
    isplitl [H4]; · (iexact H4)
    isplitl [H5]; · (iexact H5)
    isplitl [H6]; · (iexact H6)
    isplitl [H7]; · (iexact H7)
    isplitl [H8]; · (iexact H8)
    isplitl [H9]; · (iexact H9)
    isplitl [H10]; · (iexact H10)
    isplitl [H11]; · (iexact H11)
    isplitl [H12]; · (iexact H12)
    isplitl [H13]; · (iexact H13)
    isplitl [G0]; · (iexists _, _; isplitr; swap; (· iexact G0); ipureintro; rfl)
    isplitl [G1]; · (iexists _, _; isplitr; swap; (· iexact G1); ipureintro; rfl)
    isplitl [G2]; · (iexists _, _; isplitr; swap; (· iexact G2); ipureintro; rfl)
    isplitl [G3]; · (iexists _, _; isplitr; swap; (· iexact G3); ipureintro; rfl)
    isplitl [G4]; · (iexists _, _; isplitr; swap; (· iexact G4); ipureintro; rfl)
    iexists _, _; isplitr; swap; (· iexact G5); ipureintro; rfl

-- the witness is never opened below: only its existence and the triple are used
attribute [irreducible] run1

variable (V : (c : Dev nD) → (b : Ref sig .tc) → Buf (Elt F) ((c : Thread nD τ).loc b))

/-- Window `w`'s block at the one grid point, read off its array as the region finds it. -/
abbrev blk1_0 (c : Dev nD) : (cfg1.win 0).block.Idx → Elt F (cfg1.win 0).elt :=
  ((cfg1.win 0).blk t1_0).view.read (Elt F) (V c (Pipeline.arrRef spec1 0))
abbrev blk1_1 (c : Dev nD) : (cfg1.win 1).block.Idx → Elt F (cfg1.win 1).elt :=
  ((cfg1.win 1).blk t1_0).view.read (Elt F) (V c (Pipeline.arrRef spec1 1))
abbrev blk1_2 (c : Dev nD) : (cfg1.win 2).block.Idx → Elt F (cfg1.win 2).elt :=
  ((cfg1.win 2).blk t1_0).view.read (Elt F) (V c (Pipeline.arrRef spec1 2))
abbrev blk1_3 (c : Dev nD) : (cfg1.win 3).block.Idx → Elt F (cfg1.win 3).elt :=
  ((cfg1.win 3).blk t1_0).view.read (Elt F) (V c (Pipeline.arrRef spec1 3))
abbrev blk1_4 (c : Dev nD) : (cfg1.win 4).block.Idx → Elt F (cfg1.win 4).elt :=
  ((cfg1.win 4).blk t1_0).view.read (Elt F) (V c (Pipeline.arrRef spec1 4))
abbrev blk1_5 (c : Dev nD) : (cfg1.win 5).block.Idx → Elt F (cfg1.win 5).elt :=
  ((cfg1.win 5).blk t1_0).view.read (Elt F) (V c (Pipeline.arrRef spec1 5))
abbrev blk1_6 (c : Dev nD) : (cfg1.win 6).block.Idx → Elt F (cfg1.win 6).elt :=
  ((cfg1.win 6).blk t1_0).view.read (Elt F) (V c (Pipeline.arrRef spec1 6))
abbrev blk1_7 (c : Dev nD) : (cfg1.win 7).block.Idx → Elt F (cfg1.win 7).elt :=
  ((cfg1.win 7).blk t1_0).view.read (Elt F) (V c (Pipeline.arrRef spec1 7))
abbrev blk1_8 (c : Dev nD) : (cfg1.win 8).block.Idx → Elt F (cfg1.win 8).elt :=
  ((cfg1.win 8).blk t1_0).view.read (Elt F) (V c (Pipeline.arrRef spec1 8))
abbrev blk1_9 (c : Dev nD) : (cfg1.win 9).block.Idx → Elt F (cfg1.win 9).elt :=
  ((cfg1.win 9).blk t1_0).view.read (Elt F) (V c (Pipeline.arrRef spec1 9))
abbrev blk1_10 (c : Dev nD) : (cfg1.win 10).block.Idx → Elt F (cfg1.win 10).elt :=
  ((cfg1.win 10).blk t1_0).view.read (Elt F) (V c (Pipeline.arrRef spec1 10))
abbrev blk1_11 (c : Dev nD) : (cfg1.win 11).block.Idx → Elt F (cfg1.win 11).elt :=
  ((cfg1.win 11).blk t1_0).view.read (Elt F) (V c (Pipeline.arrRef spec1 11))
abbrev blk1_12 (c : Dev nD) : (cfg1.win 12).block.Idx → Elt F (cfg1.win 12).elt :=
  ((cfg1.win 12).blk t1_0).view.read (Elt F) (V c (Pipeline.arrRef spec1 12))

/-- The run at the staged blocks (each input's raw contents the ones that read its block). -/
abbrev K1 (c : Dev nD) := run1 (F := F) c (win1_0.stage (cfg1.slots t1_0 0)) (hstage1_0 0) (win1_1.stage (cfg1.slots t1_0 1)) (hstage1_1 0) (win1_2.stage (cfg1.slots t1_0 2)) (hstage1_2 0) (win1_3.stage (cfg1.slots t1_0 3)) (hstage1_3 0) (win1_4.stage (cfg1.slots t1_0 4)) (hstage1_4 0) (win1_5.stage (cfg1.slots t1_0 5)) (hstage1_5 0) (win1_6.stage (cfg1.slots t1_0 6)) (hstage1_6 0) (win1_7.stage (cfg1.slots t1_0 7)) (hstage1_7 0) (win1_8.stage (cfg1.slots t1_0 8)) (hstage1_8 0) (win1_9.stage (cfg1.slots t1_0 9)) (hstage1_9 0) (win1_10.stage (cfg1.slots t1_0 10)) (hstage1_10 0) (win1_11.stage (cfg1.slots t1_0 11)) (hstage1_11 0) (win1_12.stage (cfg1.slots t1_0 12)) (hstage1_12 0) (win1_13.stage (cfg1.slots t1_0 13)) (hstage1_13 0) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _)
  ((hstage1_0 0).unread (blk1_0 V c)) ((hstage1_1 0).unread (blk1_1 V c)) ((hstage1_2 0).unread (blk1_2 V c)) ((hstage1_3 0).unread (blk1_3 V c)) ((hstage1_4 0).unread (blk1_4 V c)) ((hstage1_5 0).unread (blk1_5 V c)) ((hstage1_6 0).unread (blk1_6 V c)) ((hstage1_7 0).unread (blk1_7 V c)) ((hstage1_8 0).unread (blk1_8 V c)) ((hstage1_9 0).unread (blk1_9 V c)) ((hstage1_10 0).unread (blk1_10 V c)) ((hstage1_11 0).unread (blk1_11 V c)) ((hstage1_12 0).unread (blk1_12 V c))

/-- The region's proof data: the arrays as found; after the body every input block as fetched and every
    output block at what the run's witness reads; the invariant the scoped buffers and the generator register;
    nothing owed; full shares. -/
def dat1 (c : Dev nD) : Dat τ (Elt F) Unit ℕ (UR sig nD τ) ℕ cfg1 c where
  A w := V c (Pipeline.arrRef spec1 w)
  after w _ := match w with
    | ⟨0, _⟩ => blk1_0 V c
    | ⟨1, _⟩ => blk1_1 V c
    | ⟨2, _⟩ => blk1_2 V c
    | ⟨3, _⟩ => blk1_3 V c
    | ⟨4, _⟩ => blk1_4 V c
    | ⟨5, _⟩ => blk1_5 V c
    | ⟨6, _⟩ => blk1_6 V c
    | ⟨7, _⟩ => blk1_7 V c
    | ⟨8, _⟩ => blk1_8 V c
    | ⟨9, _⟩ => blk1_9 V c
    | ⟨10, _⟩ => blk1_10 V c
    | ⟨11, _⟩ => blk1_11 V c
    | ⟨12, _⟩ => blk1_12 V c
    | ⟨13, _⟩ => (win1_13.stage (cfg1.slots t1_0 13)).view.read (Elt F) (K1 V c).1
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1_0 V c := rfl
theorem after1_1 (c : Dev nD) (t : Fin cfg1.N) : (dat1 V c).after 1 t = blk1_1 V c := rfl
theorem after1_2 (c : Dev nD) (t : Fin cfg1.N) : (dat1 V c).after 2 t = blk1_2 V c := rfl
theorem after1_3 (c : Dev nD) (t : Fin cfg1.N) : (dat1 V c).after 3 t = blk1_3 V c := rfl
theorem after1_4 (c : Dev nD) (t : Fin cfg1.N) : (dat1 V c).after 4 t = blk1_4 V c := rfl
theorem after1_5 (c : Dev nD) (t : Fin cfg1.N) : (dat1 V c).after 5 t = blk1_5 V c := rfl
theorem after1_6 (c : Dev nD) (t : Fin cfg1.N) : (dat1 V c).after 6 t = blk1_6 V c := rfl
theorem after1_7 (c : Dev nD) (t : Fin cfg1.N) : (dat1 V c).after 7 t = blk1_7 V c := rfl
theorem after1_8 (c : Dev nD) (t : Fin cfg1.N) : (dat1 V c).after 8 t = blk1_8 V c := rfl
theorem after1_9 (c : Dev nD) (t : Fin cfg1.N) : (dat1 V c).after 9 t = blk1_9 V c := rfl
theorem after1_10 (c : Dev nD) (t : Fin cfg1.N) : (dat1 V c).after 10 t = blk1_10 V c := rfl
theorem after1_11 (c : Dev nD) (t : Fin cfg1.N) : (dat1 V c).after 11 t = blk1_11 V c := rfl
theorem after1_12 (c : Dev nD) (t : Fin cfg1.N) : (dat1 V c).after 12 t = blk1_12 V c := rfl
theorem after1_13 (c : Dev nD) (t : Fin cfg1.N) : (dat1 V c).after 13 t = (win1_13.stage (cfg1.slots t1_0 13)).view.read (Elt F) (K1 V c).1 := rfl

theorem before1_0 (c : Dev nD) (d) : (dat1 V c).before 0 t1_0 d = blk1_0 V c := by
  unfold Dat.before; split
  · rfl
  · exact absurd (fetch1_0 t1_0) ‹_›
theorem before1_1 (c : Dev nD) (d) : (dat1 V c).before 1 t1_0 d = blk1_1 V c := by
  unfold Dat.before; split
  · rfl
  · exact absurd (fetch1_1 t1_0) ‹_›
theorem before1_2 (c : Dev nD) (d) : (dat1 V c).before 2 t1_0 d = blk1_2 V c := by
  unfold Dat.before; split
  · rfl
  · exact absurd (fetch1_2 t1_0) ‹_›
theorem before1_3 (c : Dev nD) (d) : (dat1 V c).before 3 t1_0 d = blk1_3 V c := by
  unfold Dat.before; split
  · rfl
  · exact absurd (fetch1_3 t1_0) ‹_›
theorem before1_4 (c : Dev nD) (d) : (dat1 V c).before 4 t1_0 d = blk1_4 V c := by
  unfold Dat.before; split
  · rfl
  · exact absurd (fetch1_4 t1_0) ‹_›
theorem before1_5 (c : Dev nD) (d) : (dat1 V c).before 5 t1_0 d = blk1_5 V c := by
  unfold Dat.before; split
  · rfl
  · exact absurd (fetch1_5 t1_0) ‹_›
theorem before1_6 (c : Dev nD) (d) : (dat1 V c).before 6 t1_0 d = blk1_6 V c := by
  unfold Dat.before; split
  · rfl
  · exact absurd (fetch1_6 t1_0) ‹_›
theorem before1_7 (c : Dev nD) (d) : (dat1 V c).before 7 t1_0 d = blk1_7 V c := by
  unfold Dat.before; split
  · rfl
  · exact absurd (fetch1_7 t1_0) ‹_›
theorem before1_8 (c : Dev nD) (d) : (dat1 V c).before 8 t1_0 d = blk1_8 V c := by
  unfold Dat.before; split
  · rfl
  · exact absurd (fetch1_8 t1_0) ‹_›
theorem before1_9 (c : Dev nD) (d) : (dat1 V c).before 9 t1_0 d = blk1_9 V c := by
  unfold Dat.before; split
  · rfl
  · exact absurd (fetch1_9 t1_0) ‹_›
theorem before1_10 (c : Dev nD) (d) : (dat1 V c).before 10 t1_0 d = blk1_10 V c := by
  unfold Dat.before; split
  · rfl
  · exact absurd (fetch1_10 t1_0) ‹_›
theorem before1_11 (c : Dev nD) (d) : (dat1 V c).before 11 t1_0 d = blk1_11 V c := by
  unfold Dat.before; split
  · rfl
  · exact absurd (fetch1_11 t1_0) ‹_›
theorem before1_12 (c : Dev nD) (d) : (dat1 V c).before 12 t1_0 d = blk1_12 V c := by
  unfold Dat.before; split
  · rfl
  · exact absurd (fetch1_12 t1_0) ‹_›

/-- What the body is called with at the point, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t))

set_option maxHeartbeats 4000000 in
/-- The body at the point: the staged blocks, the scratch buffers out of the scoped rest and the invariant taken apart, the run applied, its post
    put back together. -/
theorem sound_body1 (c : Dev nD) (t : Fin cfg1.N) :
    bodyPre1 V c t ⊢ wp frame (wpE (defs₀ (F := F)) Variants.none c none) Set.univ (bodyAt1 t) (fun _ => bodyPost1 V c t) := by
  obtain rfl := fin_N1 t
  unfold bodyPre1 bodyPost1 bodyAt1
  simp only [before1_0, before1_1, before1_2, before1_3, before1_4, before1_5, before1_6, before1_7, before1_8, before1_9, before1_10, before1_11, before1_12]
  rw [show (dat1 V c).Φ t1_0.succ = (dat1 V c).Φ t1_0.castSucc from rfl,
    show (dat1 V c).owesAt () t1_0.succ = (dat1 V c).owesAt () t1_0.castSucc from rfl,
    after1_0, after1_1, after1_2, after1_3, after1_4, after1_5, after1_6, after1_7, after1_8, after1_9, after1_10, after1_11, after1_12, after1_13]
  rw [show (dat1 V c).Φ t1_0.castSucc = Pipeline.ΦA spec1 c from rfl]; unfold Pipeline.ΦA
  rw [scratch_split1]
  iintro ⟨⟨⟨⟨G0, G1, G2, G3, G4, G5⟩, Hrest⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((K1 V c).2 Set.univ _)
  isplitl [H0]; · (iapply (owns_to_pt1 c _ (hstage1_0 0) _); iexact H0)
  isplitl [H1]; · (iapply (owns_to_pt1 c _ (hstage1_1 0) _); iexact H1)
  isplitl [H2]; · (iapply (owns_to_pt1 c _ (hstage1_2 0) _); iexact H2)
  isplitl [H3]; · (iapply (owns_to_pt1 c _ (hstage1_3 0) _); iexact H3)
  isplitl [H4]; · (iapply (owns_to_pt1 c _ (hstage1_4 0) _); iexact H4)
  isplitl [H5]; · (iapply (owns_to_pt1 c _ (hstage1_5 0) _); iexact H5)
  isplitl [H6]; · (iapply (owns_to_pt1 c _ (hstage1_6 0) _); iexact H6)
  isplitl [H7]; · (iapply (owns_to_pt1 c _ (hstage1_7 0) _); iexact H7)
  isplitl [H8]; · (iapply (owns_to_pt1 c _ (hstage1_8 0) _); iexact H8)
  isplitl [H9]; · (iapply (owns_to_pt1 c _ (hstage1_9 0) _); iexact H9)
  isplitl [H10]; · (iapply (owns_to_pt1 c _ (hstage1_10 0) _); iexact H10)
  isplitl [H11]; · (iapply (owns_to_pt1 c _ (hstage1_11 0) _); iexact H11)
  isplitl [H12]; · (iapply (owns_to_pt1 c _ (hstage1_12 0) _); iexact H12)
  isplitl [H13]; · (iapply (owns_to_ex1 c _ _); iexact H13)
  isplitl [G0]; · (iapply (scratch_in1 c cc1_scratch0); iexact G0)
  isplitl [G1]; · (iapply (scratch_in1 c cc1_scratch1); iexact G1)
  isplitl [G2]; · (iapply (scratch_in1 c cc1_scratch2); iexact G2)
  isplitl [G3]; · (iapply (scratch_in1 c cc1_scratch3); iexact G3)
  isplitl [G4]; · (iapply (scratch_in1 c cc1_scratch4); iexact G4)
  isplitl [G5]; · (iapply (scratch_in1 c cc1_scratch5); iexact G5)
  iintro ⟨H0, H1, H2, H3, H4, H5, H6, H7, H8, H9, H10, H11, H12, H13, G0, G1, G2, G3, G4, G5⟩
  isplitl [G0 G1 G2 G3 G4 G5 Hrest Hp]
  · isplitl [G0 G1 G2 G3 G4 G5 Hrest]
    · isplitl [G0 G1 G2 G3 G4 G5]
      · skip
        isplitl [G0]; · (iapply (scratch_out1 c cc1_scratch0); iexact G0)
        isplitl [G1]; · (iapply (scratch_out1 c cc1_scratch1); iexact G1)
        isplitl [G2]; · (iapply (scratch_out1 c cc1_scratch2); iexact G2)
        isplitl [G3]; · (iapply (scratch_out1 c cc1_scratch3); iexact G3)
        isplitl [G4]; · (iapply (scratch_out1 c cc1_scratch4); iexact G4)
        iapply (scratch_out1 c cc1_scratch5); iexact G5
      · iexact Hrest
    · iexact Hp
  isplitl [Ho]; · iexact Ho
  isplitl [H0]; · (iapply (pt_to_owns1 c _ (hstage1_0 0) _); iexact H0)
  isplitl [H1]; · (iapply (pt_to_owns1 c _ (hstage1_1 0) _); iexact H1)
  isplitl [H2]; · (iapply (pt_to_owns1 c _ (hstage1_2 0) _); iexact H2)
  isplitl [H3]; · (iapply (pt_to_owns1 c _ (hstage1_3 0) _); iexact H3)
  isplitl [H4]; · (iapply (pt_to_owns1 c _ (hstage1_4 0) _); iexact H4)
  isplitl [H5]; · (iapply (pt_to_owns1 c _ (hstage1_5 0) _); iexact H5)
  isplitl [H6]; · (iapply (pt_to_owns1 c _ (hstage1_6 0) _); iexact H6)
  isplitl [H7]; · (iapply (pt_to_owns1 c _ (hstage1_7 0) _); iexact H7)
  isplitl [H8]; · (iapply (pt_to_owns1 c _ (hstage1_8 0) _); iexact H8)
  isplitl [H9]; · (iapply (pt_to_owns1 c _ (hstage1_9 0) _); iexact H9)
  isplitl [H10]; · (iapply (pt_to_owns1 c _ (hstage1_10 0) _); iexact H10)
  isplitl [H11]; · (iapply (pt_to_owns1 c _ (hstage1_11 0) _); iexact H11)
  isplitl [H12]; · (iapply (pt_to_owns1 c _ (hstage1_12 0) _); iexact H12)
  iapply (pt_to_owns_read1 c _ _); iexact H13

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KernelFrame.lean ====
/-
  The frame of the whole program from its regions: the contents every region leaves in its output array named
  one after the other (each region's proof data are taken at the contents the earlier ones leave), one segment
  record per region over the thread state "every unscoped buffer at the boundary's contents, the generator
  register at some state, nothing owed", and the conditional frame of the host side applied to them.
  The program here is the one read at the word level: a float is its bit pattern and every operation is the one on
  words. Nothing in this module depends on which reading it is: the frame speaks of which buffers a region may change,
  and the float operations enter only through `FloatOps F`.
-/
import proofs.«147627_g2000402439390779_pallasbulk_891_17_alg».proof.Proof.Gen.Kernel.Regions
import proofs.«147627_g2000402439390779_pallasbulk_891_17_alg».proof.Proof.KernelRegion0
import proofs.«147627_g2000402439390779_pallasbulk_891_17_alg».proof.Proof.KernelRegion1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Cert.Kernel.Facts]

local notation "𝕄" => MT nD τ sig Unit (Elt F) ℕ (UR sig nD τ) ℕ

variable (m : (ℓ : Loc nD τ sig) → Buf (Elt F) ℓ)

/-- What region 0 leaves in its output array `main_v70`: its one window's write-backs folded. -/
def o0 (c : Dev nD) : Buf (Elt F) ((c : Thread nD τ).loc main_v70) :=
  (dat0 (fun c b => V5 m c b) c).arrAt 9 cfg0.N
/-- The regions' outputs, the first 1 of them named. -/
abbrev outs1 : Outs (F := F) := fun j r c => match j with
    | 6 => Function.update (V0 m c) main_v70 (o0 m c) r
    | _ => V0 m c r
/-- What region 1 leaves in its output array `main_v87`: its one window's write-backs folded. -/
def o1 (c : Dev nD) : Buf (Elt F) ((c : Thread nD τ).loc main_v87) :=
  (dat1 (fun c b => V7 m (outs1 m) c b) c).arrAt 13 cfg1.N
/-- The regions' outputs, the first 2 of them named. -/
abbrev outs2 : Outs (F := F) := fun j r c => match j with
    | 6 => Function.update (V0 m c) main_v70 (o0 m c) r
    | 8 => Function.update (V0 m c) main_v87 (o1 m c) r
    | _ => V0 m c r

/-- The regions' outputs, all named. -/
abbrev outs : Outs (F := F) := outs2 m

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (fun c b => V5 m c b) c
  | ⟨1, _⟩ => fun c => dat1 (fun c b => V7 m (outs1 m) c b) c

/-- No core owes another anything: no level is assigned. -/
abbrev Lz : GSem nD τ sig → Finset Unit := fun _ => ∅
abbrev lvz : GSem nD τ sig → Unit → ℕ := fun _ _ => 0
/-- What rides beside the buffers through every segment: the generator register at some state and the core's dues, none. -/
abbrev Rst (c : Dev nD) : sProp 𝕄 := iprop((∃ r, prngReg c r) ∗ ∃ W, owes (c : Thread nD τ) (0 : CellTallies nD τ sig Unit) W)

set_option maxHeartbeats 2000000 in
/-- What region 0 leaves in each of its arrays is the next boundary's contents there: an input array is
    still what the region found, the output array is the fold of its write-backs. -/
theorem hF0 (c : Dev nD) (w : Fin cfg0.W) : (pdats m 0 c).arrAt w cfg0.N = V6 m (outs m) c (Pipeline.arrRef spec0 w) := by
  fin_cases w
  · exact ((dat0 (fun c b => V5 m c b) c).arrAt_in 0 rfl _).trans ((A_eq0 (fun c b => V5 m c b) c 0).trans (V6_of m (outs m) c main_v56 (by decide)).symm)
  · exact ((dat0 (fun c b => V5 m c b) c).arrAt_in 1 rfl _).trans ((A_eq0 (fun c b => V5 m c b) c 1).trans (V6_of m (outs m) c main_arg1 (by decide)).symm)
  · exact ((dat0 (fun c b => V5 m c b) c).arrAt_in 2 rfl _).trans ((A_eq0 (fun c b => V5 m c b) c 2).trans (V6_of m (outs m) c main_v66 (by decide)).symm)
  · exact ((dat0 (fun c b => V5 m c b) c).arrAt_in 3 rfl _).trans ((A_eq0 (fun c b => V5 m c b) c 3).trans (V6_of m (outs m) c main_v59 (by decide)).symm)
  · exact ((dat0 (fun c b => V5 m c b) c).arrAt_in 4 rfl _).trans ((A_eq0 (fun c b => V5 m c b) c 4).trans (V6_of m (outs m) c main_v67 (by decide)).symm)
  · exact ((dat0 (fun c b => V5 m c b) c).arrAt_in 5 rfl _).trans ((A_eq0 (fun c b => V5 m c b) c 5).trans (V6_of m (outs m) c main_v62 (by decide)).symm)
  · exact ((dat0 (fun c b => V5 m c b) c).arrAt_in 6 rfl _).trans ((A_eq0 (fun c b => V5 m c b) c 6).trans (V6_of m (outs m) c main_v68 (by decide)).symm)
  · exact ((dat0 (fun c b => V5 m c b) c).arrAt_in 7 rfl _).trans ((A_eq0 (fun c b => V5 m c b) c 7).trans (V6_of m (outs m) c main_v65 (by decide)).symm)
  · exact ((dat0 (fun c b => V5 m c b) c).arrAt_in 8 rfl _).trans ((A_eq0 (fun c b => V5 m c b) c 8).trans (V6_of m (outs m) c main_v69 (by decide)).symm)
  · show _ = Function.update (V5 m c) (Proc.devRef .tc main_v70) (outs m 6 main_v70 c) (Proc.devRef .tc main_v70)
    rw [Function.update_self]
    show _ = Function.update (V0 m c) (Proc.devRef .tc main_v70) (o0 m c) (Proc.devRef .tc main_v70)
    rw [Function.update_self]
    rfl
theorem hrest0 (c : Dev nD) : ∀ b, b ∉ Finset.univ.image (Pipeline.arrRef spec0) → V6 m (outs m) c b = V5 m c b :=
  fun b hb => V6_of m (outs m) c b (by
    intro h; rw [List.mem_singleton] at h; subst h
    exact hb (Finset.mem_image.mpr ⟨9, Finset.mem_univ _, rfl⟩))

set_option backward.isDefEq.respectTransparency.types false in
/-- Region 0 over the thread state: entered from every unscoped buffer at the boundary before it, left at the
    boundary after it; its arrays split out of the unscoped buffers and put back; the generator register into the
    invariant and out; nothing owed; no semaphore of the kernel's own. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (fun c b => V5 m c b) c).loose
  hwaits := Pipeline.hwaits_of_owed_zero _ _ _ _ Lz lvz 0 fun _ _ => rfl
  pre c := iprop(StableHlo.held (c : Thread nD τ) (Pipeline.ucRefs τ sig) (V5 m c) ∗ Rst c)
  post c := iprop(StableHlo.held (c : Thread nD τ) (Pipeline.ucRefs τ sig) (V6 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (fun b => V5 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V5 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V5 m c b) (fun b => V6 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 2000000 in
/-- What region 1 leaves in each of its arrays is the next boundary's contents there: an input array is
    still what the region found, the output array is the fold of its write-backs. -/
theorem hF1 (c : Dev nD) (w : Fin cfg1.W) : (pdats m 1 c).arrAt w cfg1.N = V8 m (outs m) c (Pipeline.arrRef spec1 w) := by
  fin_cases w
  · exact ((dat1 (fun c b => V7 m (outs1 m) c b) c).arrAt_in 0 rfl _).trans ((A_eq1 (fun c b => V7 m (outs1 m) c b) c 0).trans (V8_of m (outs m) c main_v70 (by decide)).symm)
  · exact ((dat1 (fun c b => V7 m (outs1 m) c b) c).arrAt_in 1 rfl _).trans ((A_eq1 (fun c b => V7 m (outs1 m) c b) c 1).trans (V8_of m (outs m) c main_v77 (by decide)).symm)
  · exact ((dat1 (fun c b => V7 m (outs1 m) c b) c).arrAt_in 2 rfl _).trans ((A_eq1 (fun c b => V7 m (outs1 m) c b) c 2).trans (V8_of m (outs m) c main_v81 (by decide)).symm)
  · exact ((dat1 (fun c b => V7 m (outs1 m) c b) c).arrAt_in 3 rfl _).trans ((A_eq1 (fun c b => V7 m (outs1 m) c b) c 3).trans (V8_of m (outs m) c main_v80 (by decide)).symm)
  · exact ((dat1 (fun c b => V7 m (outs1 m) c b) c).arrAt_in 4 rfl _).trans ((A_eq1 (fun c b => V7 m (outs1 m) c b) c 4).trans (V8_of m (outs m) c main_v82 (by decide)).symm)
  · exact ((dat1 (fun c b => V7 m (outs1 m) c b) c).arrAt_in 5 rfl _).trans ((A_eq1 (fun c b => V7 m (outs1 m) c b) c 5).trans (V8_of m (outs m) c main_v74 (by decide)).symm)
  · exact ((dat1 (fun c b => V7 m (outs1 m) c b) c).arrAt_in 6 rfl _).trans ((A_eq1 (fun c b => V7 m (outs1 m) c b) c 6).trans (V8_of m (outs m) c main_v83 (by decide)).symm)
  · exact ((dat1 (fun c b => V7 m (outs1 m) c b) c).arrAt_in 7 rfl _).trans ((A_eq1 (fun c b => V7 m (outs1 m) c b) c 7).trans (V8_of m (outs m) c main_arg15 (by decide)).symm)
  · exact ((dat1 (fun c b => V7 m (outs1 m) c b) c).arrAt_in 8 rfl _).trans ((A_eq1 (fun c b => V7 m (outs1 m) c b) c 8).trans (V8_of m (outs m) c main_v84 (by decide)).symm)
  · exact ((dat1 (fun c b => V7 m (outs1 m) c b) c).arrAt_in 9 rfl _).trans ((A_eq1 (fun c b => V7 m (outs1 m) c b) c 9).trans (V8_of m (outs m) c main_arg17 (by decide)).symm)
  · exact ((dat1 (fun c b => V7 m (outs1 m) c b) c).arrAt_in 10 rfl _).trans ((A_eq1 (fun c b => V7 m (outs1 m) c b) c 10).trans (V8_of m (outs m) c main_v85 (by decide)).symm)
  · exact ((dat1 (fun c b => V7 m (outs1 m) c b) c).arrAt_in 11 rfl _).trans ((A_eq1 (fun c b => V7 m (outs1 m) c b) c 11).trans (V8_of m (outs m) c main_arg19 (by decide)).symm)
  · exact ((dat1 (fun c b => V7 m (outs1 m) c b) c).arrAt_in 12 rfl _).trans ((A_eq1 (fun c b => V7 m (outs1 m) c b) c 12).trans (V8_of m (outs m) c main_v86 (by decide)).symm)
  · show _ = Function.update (V7 m (outs m) c) (Proc.devRef .tc main_v87) (outs m 8 main_v87 c) (Proc.devRef .tc main_v87)
    rw [Function.update_self]
    show _ = Function.update (V0 m c) (Proc.devRef .tc main_v87) (o1 m c) (Proc.devRef .tc main_v87)
    rw [Function.update_self]
    rfl
theorem hrest1 (c : Dev nD) : ∀ b, b ∉ Finset.univ.image (Pipeline.arrRef spec1) → V8 m (outs m) c b = V7 m (outs m) c b :=
  fun b hb => V8_of m (outs m) c b (by
    intro h; rw [List.mem_singleton] at h; subst h
    exact hb (Finset.mem_image.mpr ⟨13, Finset.mem_univ _, rfl⟩))

set_option backward.isDefEq.respectTransparency.types false in
/-- Region 1 over the thread state: entered from every unscoped buffer at the boundary before it, left at the
    boundary after it; its arrays split out of the unscoped buffers and put back; the generator register into the
    invariant and out; nothing owed; no semaphore of the kernel's own. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (fun c b => V7 m (outs m) c b) c).loose
  hwaits := Pipeline.hwaits_of_owed_zero _ _ _ _ Lz lvz 1 fun _ _ => rfl
  pre c := iprop(StableHlo.held (c : Thread nD τ) (Pipeline.ucRefs τ sig) (V7 m (outs m) c) ∗ Rst c)
  post c := iprop(StableHlo.held (c : Thread nD τ) (Pipeline.ucRefs τ sig) (V8 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (fun b => V7 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V7 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V7 m (outs m) c b) (fun b => V8 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the launch a core's generator register and its dues (none) are what rides beside the buffers. -/
theorem rst_of_launch1 (ρ : Dev nD → PrngReg) (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)) : sProp 𝕄)
      ⊢ Rst (F := F) c := by
  iintro ⟨-, HO, -, Hp, -⟩
  isplitl [Hp]; · iexists _; iexact Hp
  iexists ∅; iexact HO
theorem rst_of_launch (ρ : Dev nD → PrngReg) :
    ((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) : sProp 𝕄)
      ⊢ bigSep Finset.univ (fun c : Dev nD => Rst (F := F) c) :=
  bigSep_mono fun c _ => rst_of_launch1 (F := F) ρ c

set_option backward.isDefEq.respectTransparency.types false in
/-- THE FRAME: every weakly fair execution terminates, nothing faults, and every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_cond (F := F) m emb₁ () Variants.none Lz lvz (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rst c)
    (by
      iintro ⟨H, -⟩
      imodintro
      iapply (rst_of_launch (F := F) ρ)
      iexact H)
    (fun c => by iintro ⟨-, H⟩; iexact H)
    (reg0 m) (fun _ => .rfl) (fun _ => .rfl) (reg1 m) (fun _ => .rfl) (fun _ => .rfl)

end Cert.Kernel.Hand

end
-- ==== Proof.KernelIdealRunVals.lean ====
/-
  The whole run of the program with the values its buffers end at. The conditional frame of the host side
  concludes only that the argument arrays end as launched; the same argument — @main as its list of segments,
  the launch, the chaining of the thread states, the last thread state read against the final memory — gives
  more, because the last thread state holds EVERY unscoped buffer of a core at the last valuation. Here the
  post is that reading at every unscoped reference; the result array at the last valuation and the arguments
  as launched are then instances of it.
-/
import proofs.«147627_g2000402439390779_pallasbulk_891_17_alg».proof.Proof.Gen.KernelIdeal.Regions

-- memberships decided over the program's references recurse past the default depth
set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Cert.KernelIdeal.Facts]

variable (m : (ℓ : Loc nD τ sig) → Buf (Elt F) ℓ)

/-! ## The run, every unscoped buffer read at the end -/

-- the launch theorem's implicit arguments are found by unifying its conclusion with this one, which unfolds
-- plain definitions in a metavariable's type
set_option backward.isDefEq.respectTransparency.types false in
/-- THE RUN WITH ITS VALUES. Under the hypotheses of the conditional frame — per region a segment record entered
    from the thread state before it and left at the one after it, rest states the launch makes and that end
    owing nothing — every weakly fair execution of @main from memory `m` with zero counters terminates, and in
    every final memory each core's every unscoped buffer holds the last valuation `V8 m outs c`. -/
theorem run_cond
    {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c))
    : θ_run defs (onTc (τ := τ) (main (F := F))) ⟨m, fun _ => 0, ρ⟩ (fun r => ∀ c : Dev nD,
      ∀ b ∈ Pipeline.ucRefs τ sig, r.2.mem (((c.tc : Thread nD τ)).1, b) = V8 m outs c b) := by
  -- the side conditions are propositions: any witness of them is the one the generated lemmas are stated at
  obtain rfl : ‹Cert.KernelIdeal.Facts› = Cert.KernelIdeal.Gen.facts := rfl
  -- the last thread state of a core is all its unscoped buffers at the last valuation; what is read off it is
  -- the memory at each of them, and the post is that reading itself
  refine Pipeline.θ_run_regions_kit_dev (pcfgs (F := F)) adm pdats ι cellOf_inj EP defs₀ 𝒱₀ L lv m ρ main
    (segs m outs 𝒱₀ L lv E ι pdats R0 R1)
    (fun c Q => ?_)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V8 m outs c))
    (hch := fun c => ⟨.rfl, .rfl, .rfl, .rfl, .rfl, hpre0 c, hpost0 c, hpre1 c, (hpost1 c).trans (sep_mono .rfl (hE2 c))⟩)
    (hinit := ?_)
    (QY := fun c s => ∀ b ∈ Pipeline.ucRefs τ sig, s.mem (((c.tc : Thread nD τ)).1, b) = V8 m outs c b)
    (hfin := fun c s' => ?_) (hQ := fun _ h => h)
  · -- @main is the chain of its items' programs, which is the segments' programs one after the other
    rewrite [main_chain c, Seg.run_eq_chain,
      show (segs m outs 𝒱₀ L lv E ι pdats R0 R1 c).map Seg.prog = [
        StableHlo.seq hostOps0,
        StableHlo.seq hostOps0_1,
        StableHlo.seq hostOps0_2,
        StableHlo.seq hostOps0_3,
        StableHlo.seq hostOps0_4,
        Prog.lift (.customCall (Pipeline.entry 0) ()),
        StableHlo.seq hostOps1,
        Prog.lift (.customCall (Pipeline.entry 1) ()) ] from rfl]
    exact .rfl
  · -- the launch: what it deals per core splits into the unscoped buffers, which are the held set at the launch
    -- contents, and the remainder, from which the first rest state is made on every core at once
    have hbufs : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      refine bigSep_mono fun c _ => ?_
      rw [← Pipeline.unscopedBufs_held (Ix := Ix) (Name := ℕ) (U := U) (Lvl := Lvl) c (V0 m c)]
      exact BI.Entails.refl _
    iintro ⟨Hall, Hlev⟩
    ihave Hs := hbufs $$ Hall
    icases Hs with ⟨Hheld, Hrest⟩
    imod hE0 $$ [Hrest Hlev] with HE
    · isplitl [Hrest]; · iexact Hrest
      iexact Hlev
    imodintro
    rw [bigSep_sep']
    isplitl [Hheld]; · iexact Hheld
    iexact HE
  · -- the end: the held set is one points-to per unscoped reference, each read against the final state
    unfold StableHlo.held
    iintro ⟨Hheld, Hst⟩
    imodintro
    iapply (pointsTo_read_all (Pipeline.ucRefs τ sig) (fun b => (((c.tc : Thread nD τ)).1, b)) (V8 m outs c) s')
    isplitl [Hheld] <;> iassumption

/-! ## The result and the arguments, read off that post -/

/-- A TensorCore reference that is not scoped is among the unscoped references. -/
theorem mem_ucRefs (r : Ref sig .tc) (h : ¬ (Proc.devRef (τ := τ) .tc r).isScoped) : Proc.devRef (τ := τ) .tc r ∈ Pipeline.ucRefs τ sig :=
  Finset.mem_filter.mpr ⟨StableHlo.devRef_mem_tcRefs r, h⟩

/-- The result array `main_v87` is an unscoped buffer: a memory that holds every unscoped buffer at the last
    valuation holds the result at it. -/
theorem result_of_run (outs : Outs (F := F)) (s : MemSt nD τ sig (Elt F))
    (h : ∀ c : Dev nD, ∀ b ∈ Pipeline.ucRefs τ sig, s.mem (((c.tc : Thread nD τ)).1, b) = V8 m outs c b) (c : Dev nD) :
    s.mem ((c.tc : Thread nD τ).loc main_v87) = V8 m outs c main_v87 := by
  -- the side conditions are propositions: any witness of them is the one the generated lemmas are stated at
  obtain rfl : ‹Cert.KernelIdeal.Facts› = Cert.KernelIdeal.Gen.facts := rfl
  exact h c (Proc.devRef .tc main_v87) (mem_ucRefs main_v87 (by decide))

/-- The same memory holds each argument array as launched: an argument is an unscoped buffer, and the last
    valuation is the launch contents there (no host stretch writes it, no region may change it). -/
theorem args_of_run (outs : Outs (F := F)) (s : MemSt nD τ sig (Elt F))
    (h : ∀ c : Dev nD, ∀ b ∈ Pipeline.ucRefs τ sig, s.mem (((c.tc : Thread nD τ)).1, b) = V8 m outs c b) (c : Dev nD) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11)
    ∧ s.mem ((c.tc : Thread nD τ).loc main_arg12) = m ((c.tc : Thread nD τ).loc main_arg12)
    ∧ s.mem ((c.tc : Thread nD τ).loc main_arg13) = m ((c.tc : Thread nD τ).loc main_arg13)
    ∧ s.mem ((c.tc : Thread nD τ).loc main_arg14) = m ((c.tc : Thread nD τ).loc main_arg14)
    ∧ s.mem ((c.tc : Thread nD τ).loc main_arg15) = m ((c.tc : Thread nD τ).loc main_arg15)
    ∧ s.mem ((c.tc : Thread nD τ).loc main_arg16) = m ((c.tc : Thread nD τ).loc main_arg16)
    ∧ s.mem ((c.tc : Thread nD τ).loc main_arg17) = m ((c.tc : Thread nD τ).loc main_arg17)
    ∧ s.mem ((c.tc : Thread nD τ).loc main_arg18) = m ((c.tc : Thread nD τ).loc main_arg18)
    ∧ s.mem ((c.tc : Thread nD τ).loc main_arg19) = m ((c.tc : Thread nD τ).loc main_arg19)
    ∧ s.mem ((c.tc : Thread nD τ).loc main_arg20) = m ((c.tc : Thread nD τ).loc main_arg20) := by
  -- the side conditions are propositions: any witness of them is the one the generated lemmas are stated at
  obtain rfl : ‹Cert.KernelIdeal.Facts› = Cert.KernelIdeal.Gen.facts := rfl
  exact ⟨(h c (Proc.devRef .tc main_arg0) (mem_ucRefs main_arg0 (by decide))).trans (V8_main_arg0 m outs c),
    (h c (Proc.devRef .tc main_arg1) (mem_ucRefs main_arg1 (by decide))).trans (V8_main_arg1 m outs c),
    (h c (Proc.devRef .tc main_arg2) (mem_ucRefs main_arg2 (by decide))).trans (V8_main_arg2 m outs c),
    (h c (Proc.devRef .tc main_arg3) (mem_ucRefs main_arg3 (by decide))).trans (V8_main_arg3 m outs c),
    (h c (Proc.devRef .tc main_arg4) (mem_ucRefs main_arg4 (by decide))).trans (V8_main_arg4 m outs c),
    (h c (Proc.devRef .tc main_arg5) (mem_ucRefs main_arg5 (by decide))).trans (V8_main_arg5 m outs c),
    (h c (Proc.devRef .tc main_arg6) (mem_ucRefs main_arg6 (by decide))).trans (V8_main_arg6 m outs c),
    (h c (Proc.devRef .tc main_arg7) (mem_ucRefs main_arg7 (by decide))).trans (V8_main_arg7 m outs c),
    (h c (Proc.devRef .tc main_arg8) (mem_ucRefs main_arg8 (by decide))).trans (V8_main_arg8 m outs c),
    (h c (Proc.devRef .tc main_arg9) (mem_ucRefs main_arg9 (by decide))).trans (V8_main_arg9 m outs c),
    (h c (Proc.devRef .tc main_arg10) (mem_ucRefs main_arg10 (by decide))).trans (V8_main_arg10 m outs c),
    (h c (Proc.devRef .tc main_arg11) (mem_ucRefs main_arg11 (by decide))).trans (V8_main_arg11 m outs c),
    (h c (Proc.devRef .tc main_arg12) (mem_ucRefs main_arg12 (by decide))).trans (V8_main_arg12 m outs c),
    (h c (Proc.devRef .tc main_arg13) (mem_ucRefs main_arg13 (by decide))).trans (V8_main_arg13 m outs c),
    (h c (Proc.devRef .tc main_arg14) (mem_ucRefs main_arg14 (by decide))).trans (V8_main_arg14 m outs c),
    (h c (Proc.devRef .tc main_arg15) (mem_ucRefs main_arg15 (by decide))).trans (V8_main_arg15 m outs c),
    (h c (Proc.devRef .tc main_arg16) (mem_ucRefs main_arg16 (by decide))).trans (V8_main_arg16 m outs c),
    (h c (Proc.devRef .tc main_arg17) (mem_ucRefs main_arg17 (by decide))).trans (V8_main_arg17 m outs c),
    (h c (Proc.devRef .tc main_arg18) (mem_ucRefs main_arg18 (by decide))).trans (V8_main_arg18 m outs c),
    (h c (Proc.devRef .tc main_arg19) (mem_ucRefs main_arg19 (by decide))).trans (V8_main_arg19 m outs c),
    (h c (Proc.devRef .tc main_arg20) (mem_ucRefs main_arg20 (by decide))).trans (V8_main_arg20 m outs c)⟩

/-- A run's post weakened: a specification is monotone in its post, so what it gives of `Q` it gives of any `Q'`
    that `Q` implies. -/
theorem run_weaken {α : Type} (w : WPT α) {Q Q' : α → Prop} (h : ∀ a, Q a → Q' a) : w Q → w Q' :=
  OrdCont.mono w h

/-- THE RUN, RESULT AND ARGUMENTS: under the same hypotheses every weakly fair execution of @main terminates and
    every final memory holds, on every core, the result array `main_v87` at the last valuation and every argument
    array as launched — the run's post weakened to these references. -/
theorem run_cond_full
    {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c))
    : θ_run defs (onTc (τ := τ) (main (F := F))) ⟨m, fun _ => 0, ρ⟩ (fun r => ∀ c : Dev nD,
      r.2.mem ((c.tc : Thread nD τ).loc main_v87) = V8 m outs c main_v87
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) := by
  -- the side conditions are propositions: any witness of them is the one the generated lemmas are stated at
  obtain rfl : ‹Cert.KernelIdeal.Facts› = Cert.KernelIdeal.Gen.facts := rfl
  exact run_weaken _ (fun r h c => ⟨result_of_run m outs r.2 h c, args_of_run m outs r.2 h c⟩)
    (run_cond m EP ι 𝒱₀ L lv hL ρ outs pdats O₀ G u₀ hu₀ E hE0 hE2 R0 hpre0 hpost0 R1 hpre1 hpost1)

end Cert.KernelIdeal.Hand

end
-- ==== Proof.KernelIdealRegion0.lean ====
/-
  The kernel's first region: the first convolution as a 32-tap matrix product with its rectifier, then three 5x5 convolutions
  (each ONE matrix product over the five row taps on rows padded to a multiple of 8, the five column-shifted slices added) with
  bias, rectifier and two width-4 max pools; whole-array windows, one grid point, six scratch buffers (three zero-padded
  activations and three patch matrices).
  Here: the kernel body run once by the symbolic executor from its input blocks' raw contents (the output blocks and the scratch buffers
  at anything), its witness (the raw contents each output block holds afterwards, as a function of the inputs'), the
  region's proof data at a parameter `V` (the buffers' contents when the region is entered) and the body obligation
  at the region's one grid point.  A staging buffer is a whole memref, so what it reads and its raw contents
  determine each other.
-/
import proofs.«147627_g2000402439390779_pallasbulk_891_17_alg».proof.Proof.Gen.KernelIdeal.Launch
import proofs.«147627_g2000402439390779_pallasbulk_891_17_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Cert.KernelIdeal.Facts]

local notation "𝕄" => MT nD τ sig Unit (Elt F) ℕ (UR sig nD τ) ℕ

/-- A memref's raw contents on core `c`, and the memref held at them. -/
abbrev Bf0 (c : Dev nD) {sp : Space} {S : Shape} {e : EltTy} (M : Memref sig .tc sp S e) : Type := M.view.ty.Contents (Elt F)
abbrev pt0 (c : Dev nD) {sp : Space} {S : Shape} {e : EltTy} (M : Memref sig .tc sp S e) (f : Bf0 (F := F) c M) : sProp 𝕄 :=
  M.view.loc (c : Thread nD τ) ↦[M.view.set]{fullShare} f

/-- A whole memref read at `X` is held at the raw contents that read `X`, and conversely; held at raw contents
    `f` it reads what `f` reads. -/
theorem owns_to_pt0 (c : Dev nD) {sp : Space} {S : Shape} {e : EltTy} (M : Memref sig .tc sp S e) (h : M.IsWhole) (X : S.Idx → Elt F e) :
    (owns (c : Thread nD τ) M fullShare X : sProp 𝕄) ⊢ pt0 c M (h.unread X) := by
  unfold owns; iintro ⟨%f, %hf, H⟩; obtain rfl := h.eq_unread hf; iexact H
theorem pt_to_owns0 (c : Dev nD) {sp : Space} {S : Shape} {e : EltTy} (M : Memref sig .tc sp S e) (h : M.IsWhole) (X : S.Idx → Elt F e) :
    (pt0 c M (h.unread X) : sProp 𝕄) ⊢ owns (c : Thread nD τ) M fullShare X := by
  unfold owns; iintro H; iexists _; isplitr; · ipureintro; exact h.read_unread X
  iexact H
theorem pt_to_owns_read0 (c : Dev nD) {sp : Space} {S : Shape} {e : EltTy} (M : Memref sig .tc sp S e) (f : Bf0 (F := F) c M) :
    (pt0 c M f : sProp 𝕄) ⊢ owns (c : Thread nD τ) M fullShare (M.view.read (Elt F) f) := by
  unfold owns; iintro H; iexists f; isplitr; · ipureintro; rfl
  iexact H
theorem owns_to_ex0 (c : Dev nD) {sp : Space} {S : Shape} {e : EltTy} (M : Memref sig .tc sp S e) (X : S.Idx → Elt F e) :
    (owns (c : Thread nD τ) M fullShare X : sProp 𝕄) ⊢ iprop(∃ f, pt0 c M f) := by
  unfold owns; iintro ⟨%f, -, H⟩; iexists f; iexact H

/-- A scoped scratch buffer held whole at something, as the scoped rest keeps it and as the body takes it. -/
theorem scratch_in0 (c : Dev nD) (b : Ref sig .tc) :
    (iprop(∃ f : Buf (Elt F) ((c : Thread nD τ).loc b), ((c : Thread nD τ).loc b) ↦{fullShare} f) : sProp 𝕄)
      ⊢ iprop(∃ d, owns (c : Thread nD τ) (Memref.whole b) fullShare d) := by
  simp only [owns_whole_eq]
  iintro ⟨%f, H⟩; iexists f, f; isplitr; · ipureintro; rfl
  iexact H
theorem scratch_out0 (c : Dev nD) (b : Ref sig .tc) :
    (iprop(∃ d, owns (c : Thread nD τ) (Memref.whole b) fullShare d) : sProp 𝕄)
      ⊢ iprop(∃ f : Buf (Elt F) ((c : Thread nD τ).loc b), ((c : Thread nD τ).loc b) ↦{fullShare} f) := by
  simp only [owns_whole_eq]
  iintro ⟨%d, %f, -, H⟩; iexists f; iexact H

/-- The scoped rest with this kernel's scratch buffers taken out, each whole at some contents; the remainder unopened. -/
theorem scratch_split0 (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f))
          ∗ Pipeline.scopedRestBut (Ix := Unit) (Name := ℕ) (U := UR sig nD τ) (Lvl := ℕ) (Val := Elt F) spec0 c [cc0_scratch0, cc0_scratch1, cc0_scratch2, cc0_scratch3, cc0_scratch4, cc0_scratch5]) :=
  Pipeline.scopedRest_split_of_list spec0 c [cc0_scratch0, cc0_scratch1, cc0_scratch2, cc0_scratch3, cc0_scratch4, cc0_scratch5] (by decide) (by decide)

set_option maxHeartbeats 8000000 in
/-- The body from its input blocks: it runs to its return, hands the inputs back unchanged and leaves each
    output block at the witness; the scratch buffers end at something. -/
noncomputable def run0 (c : Dev nD) (M0 : Memref sig .tc .vmem S8192x32 .bf16) (h0 : M0.IsWhole) (M1 : Memref sig .tc .vmem S32x64 .bf16) (h1 : M1.IsWhole) (M2 : Memref sig .tc .vmem S1x64 .f32) (h2 : M2.IsWhole) (M3 : Memref sig .tc .vmem S320x320 .bf16) (h3 : M3.IsWhole) (M4 : Memref sig .tc .vmem S1x64 .f32) (h4 : M4.IsWhole) (M5 : Memref sig .tc .vmem S320x640 .bf16) (h5 : M5.IsWhole) (M6 : Memref sig .tc .vmem S1x128 .f32) (h6 : M6.IsWhole) (M7 : Memref sig .tc .vmem S640x640 .bf16) (h7 : M7.IsWhole) (M8 : Memref sig .tc .vmem S1x128 .f32) (h8 : M8.IsWhole) (M9 : Memref sig .tc .vmem S8x16x4x128 .bf16) (h9 : M9.IsWhole) (C0 : Memref sig .tc .vmem S8x20x72x64 .bf16) (g0 : C0.IsWhole) (C1 : Memref sig .tc .vmem S9216x320 .bf16) (g1 : C1.IsWhole) (C2 : Memref sig .tc .vmem S8x20x24x64 .bf16) (g2 : C2.IsWhole) (C3 : Memref sig .tc .vmem S3072x320 .bf16) (g3 : C3.IsWhole) (C4 : Memref sig .tc .vmem S8x20x24x128 .bf16) (g4 : C4.IsWhole) (C5 : Memref sig .tc .vmem S3072x640 .bf16) (g5 : C5.IsWhole)
    (f0 : Bf0 (F := F) c M0) (f1 : Bf0 (F := F) c M1) (f2 : Bf0 (F := F) c M2) (f3 : Bf0 (F := F) c M3) (f4 : Bf0 (F := F) c M4) (f5 : Bf0 (F := F) c M5) (f6 : Bf0 (F := F) c M6) (f7 : Bf0 (F := F) c M7) (f8 : Bf0 (F := F) c M8) :
    { W : Bf0 (F := F) c M9 // ∀ (E : Set ℕ) (K : PUnit → sProp 𝕄),
        iprop(pt0 c M0 f0
            ∗ pt0 c M1 f1
            ∗ pt0 c M2 f2
            ∗ pt0 c M3 f3
            ∗ pt0 c M4 f4
            ∗ pt0 c M5 f5
            ∗ pt0 c M6 f6
            ∗ pt0 c M7 f7
            ∗ pt0 c M8 f8
            ∗ (∃ f, pt0 c M9 f)
            ∗ (∃ d, owns (c : Thread nD τ) C0 fullShare d)
            ∗ (∃ d, owns (c : Thread nD τ) C1 fullShare d)
            ∗ (∃ d, owns (c : Thread nD τ) C2 fullShare d)
            ∗ (∃ d, owns (c : Thread nD τ) C3 fullShare d)
            ∗ (∃ d, owns (c : Thread nD τ) C4 fullShare d)
            ∗ (∃ d, owns (c : Thread nD τ) C5 fullShare d)
            ∗ (iprop(pt0 c M0 f0
                ∗ pt0 c M1 f1
                ∗ pt0 c M2 f2
                ∗ pt0 c M3 f3
                ∗ pt0 c M4 f4
                ∗ pt0 c M5 f5
                ∗ pt0 c M6 f6
                ∗ pt0 c M7 f7
                ∗ pt0 c M8 f8
                ∗ pt0 c M9 W
                ∗ (∃ d, owns (c : Thread nD τ) C0 fullShare d)
                ∗ (∃ d, owns (c : Thread nD τ) C1 fullShare d)
                ∗ (∃ d, owns (c : Thread nD τ) C2 fullShare d)
                ∗ (∃ d, owns (c : Thread nD τ) C3 fullShare d)
                ∗ (∃ d, owns (c : Thread nD τ) C4 fullShare d)
                ∗ (∃ d, owns (c : Thread nD τ) C5 fullShare d)) -∗ K ⟨⟩))
          ⊢ wp frame (wpE (defs₀ (F := F)) Variants.none c none) E (cc0__stage12_kernel M0 h0 M1 h1 M2 h2 M3 h3 M4 h4 M5 h5 M6 h6 M7 h7 M8 h8 M9 h9 C0 g0 C1 g1 C2 g2 C3 g3 C4 g4 C5 g5) K } := by
  refine ⟨?_, fun E K => ?run⟩
  case run =>
    unfold owns
    iintro ⟨H0, H1, H2, H3, H4, H5, H6, H7, H8, ⟨%f9, H9⟩, ⟨%e0, %q0, -, G0⟩, ⟨%e1, %q1, -, G1⟩, ⟨%e2, %q2, -, G2⟩, ⟨%e3, %q3, -, G3⟩, ⟨%e4, %q4, -, G4⟩, ⟨%e5, %q5, -, G5⟩, Hk⟩
    sl_exec!
    sl_step
    iapply Hk
    isplitl [H0]; · (iexact H0)
    isplitl [H1]; · (iexact H1)
    isplitl [H2]; · (iexact H2)
    isplitl [H3]; · (iexact H3)
    isplitl [H4]; · (iexact H4)
    isplitl [H5]; · (iexact H5)
    isplitl [H6]; · (iexact H6)
    isplitl [H7]; · (iexact H7)
    isplitl [H8]; · (iexact H8)
    isplitl [H9]; · (iexact H9)
    isplitl [G0]; · (iexists _, _; isplitr; swap; (· iexact G0); ipureintro; rfl)
    isplitl [G1]; · (iexists _, _; isplitr; swap; (· iexact G1); ipureintro; rfl)
    isplitl [G2]; · (iexists _, _; isplitr; swap; (· iexact G2); ipureintro; rfl)
    isplitl [G3]; · (iexists _, _; isplitr; swap; (· iexact G3); ipureintro; rfl)
    isplitl [G4]; · (iexists _, _; isplitr; swap; (· iexact G4); ipureintro; rfl)
    iexists _, _; isplitr; swap; (· iexact G5); ipureintro; rfl

-- the witness is never opened below: only its existence and the triple are used
attribute [irreducible] run0

variable (V : (c : Dev nD) → (b : Ref sig .tc) → Buf (Elt F) ((c : Thread nD τ).loc b))

/-- Window `w`'s block at the one grid point, read off its array as the region finds it. -/
abbrev blk0_0 (c : Dev nD) : (cfg0.win 0).block.Idx → Elt F (cfg0.win 0).elt :=
  ((cfg0.win 0).blk t0_0).view.read (Elt F) (V c (Pipeline.arrRef spec0 0))
abbrev blk0_1 (c : Dev nD) : (cfg0.win 1).block.Idx → Elt F (cfg0.win 1).elt :=
  ((cfg0.win 1).blk t0_0).view.read (Elt F) (V c (Pipeline.arrRef spec0 1))
abbrev blk0_2 (c : Dev nD) : (cfg0.win 2).block.Idx → Elt F (cfg0.win 2).elt :=
  ((cfg0.win 2).blk t0_0).view.read (Elt F) (V c (Pipeline.arrRef spec0 2))
abbrev blk0_3 (c : Dev nD) : (cfg0.win 3).block.Idx → Elt F (cfg0.win 3).elt :=
  ((cfg0.win 3).blk t0_0).view.read (Elt F) (V c (Pipeline.arrRef spec0 3))
abbrev blk0_4 (c : Dev nD) : (cfg0.win 4).block.Idx → Elt F (cfg0.win 4).elt :=
  ((cfg0.win 4).blk t0_0).view.read (Elt F) (V c (Pipeline.arrRef spec0 4))
abbrev blk0_5 (c : Dev nD) : (cfg0.win 5).block.Idx → Elt F (cfg0.win 5).elt :=
  ((cfg0.win 5).blk t0_0).view.read (Elt F) (V c (Pipeline.arrRef spec0 5))
abbrev blk0_6 (c : Dev nD) : (cfg0.win 6).block.Idx → Elt F (cfg0.win 6).elt :=
  ((cfg0.win 6).blk t0_0).view.read (Elt F) (V c (Pipeline.arrRef spec0 6))
abbrev blk0_7 (c : Dev nD) : (cfg0.win 7).block.Idx → Elt F (cfg0.win 7).elt :=
  ((cfg0.win 7).blk t0_0).view.read (Elt F) (V c (Pipeline.arrRef spec0 7))
abbrev blk0_8 (c : Dev nD) : (cfg0.win 8).block.Idx → Elt F (cfg0.win 8).elt :=
  ((cfg0.win 8).blk t0_0).view.read (Elt F) (V c (Pipeline.arrRef spec0 8))

/-- The run at the staged blocks (each input's raw contents the ones that read its block). -/
abbrev K0 (c : Dev nD) := run0 (F := F) c (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
  ((hstage0_0 0).unread (blk0_0 V c)) ((hstage0_1 0).unread (blk0_1 V c)) ((hstage0_2 0).unread (blk0_2 V c)) ((hstage0_3 0).unread (blk0_3 V c)) ((hstage0_4 0).unread (blk0_4 V c)) ((hstage0_5 0).unread (blk0_5 V c)) ((hstage0_6 0).unread (blk0_6 V c)) ((hstage0_7 0).unread (blk0_7 V c)) ((hstage0_8 0).unread (blk0_8 V c))

/-- The region's proof data: the arrays as found; after the body every input block as fetched and every
    output block at what the run's witness reads; the invariant the scoped buffers and the generator register;
    nothing owed; full shares. -/
def dat0 (c : Dev nD) : Dat τ (Elt F) Unit ℕ (UR sig nD τ) ℕ cfg0 c where
  A w := V c (Pipeline.arrRef spec0 w)
  after w _ := match w with
    | ⟨0, _⟩ => blk0_0 V c
    | ⟨1, _⟩ => blk0_1 V c
    | ⟨2, _⟩ => blk0_2 V c
    | ⟨3, _⟩ => blk0_3 V c
    | ⟨4, _⟩ => blk0_4 V c
    | ⟨5, _⟩ => blk0_5 V c
    | ⟨6, _⟩ => blk0_6 V c
    | ⟨7, _⟩ => blk0_7 V c
    | ⟨8, _⟩ => blk0_8 V c
    | ⟨9, _⟩ => (win0_9.stage (cfg0.slots t0_0 9)).view.read (Elt F) (K0 V c).1
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0_0 V c := rfl
theorem after0_1 (c : Dev nD) (t : Fin cfg0.N) : (dat0 V c).after 1 t = blk0_1 V c := rfl
theorem after0_2 (c : Dev nD) (t : Fin cfg0.N) : (dat0 V c).after 2 t = blk0_2 V c := rfl
theorem after0_3 (c : Dev nD) (t : Fin cfg0.N) : (dat0 V c).after 3 t = blk0_3 V c := rfl
theorem after0_4 (c : Dev nD) (t : Fin cfg0.N) : (dat0 V c).after 4 t = blk0_4 V c := rfl
theorem after0_5 (c : Dev nD) (t : Fin cfg0.N) : (dat0 V c).after 5 t = blk0_5 V c := rfl
theorem after0_6 (c : Dev nD) (t : Fin cfg0.N) : (dat0 V c).after 6 t = blk0_6 V c := rfl
theorem after0_7 (c : Dev nD) (t : Fin cfg0.N) : (dat0 V c).after 7 t = blk0_7 V c := rfl
theorem after0_8 (c : Dev nD) (t : Fin cfg0.N) : (dat0 V c).after 8 t = blk0_8 V c := rfl
theorem after0_9 (c : Dev nD) (t : Fin cfg0.N) : (dat0 V c).after 9 t = (win0_9.stage (cfg0.slots t0_0 9)).view.read (Elt F) (K0 V c).1 := rfl

theorem before0_0 (c : Dev nD) (d) : (dat0 V c).before 0 t0_0 d = blk0_0 V c := by
  unfold Dat.before; split
  · rfl
  · exact absurd (fetch0_0 t0_0) ‹_›
theorem before0_1 (c : Dev nD) (d) : (dat0 V c).before 1 t0_0 d = blk0_1 V c := by
  unfold Dat.before; split
  · rfl
  · exact absurd (fetch0_1 t0_0) ‹_›
theorem before0_2 (c : Dev nD) (d) : (dat0 V c).before 2 t0_0 d = blk0_2 V c := by
  unfold Dat.before; split
  · rfl
  · exact absurd (fetch0_2 t0_0) ‹_›
theorem before0_3 (c : Dev nD) (d) : (dat0 V c).before 3 t0_0 d = blk0_3 V c := by
  unfold Dat.before; split
  · rfl
  · exact absurd (fetch0_3 t0_0) ‹_›
theorem before0_4 (c : Dev nD) (d) : (dat0 V c).before 4 t0_0 d = blk0_4 V c := by
  unfold Dat.before; split
  · rfl
  · exact absurd (fetch0_4 t0_0) ‹_›
theorem before0_5 (c : Dev nD) (d) : (dat0 V c).before 5 t0_0 d = blk0_5 V c := by
  unfold Dat.before; split
  · rfl
  · exact absurd (fetch0_5 t0_0) ‹_›
theorem before0_6 (c : Dev nD) (d) : (dat0 V c).before 6 t0_0 d = blk0_6 V c := by
  unfold Dat.before; split
  · rfl
  · exact absurd (fetch0_6 t0_0) ‹_›
theorem before0_7 (c : Dev nD) (d) : (dat0 V c).before 7 t0_0 d = blk0_7 V c := by
  unfold Dat.before; split
  · rfl
  · exact absurd (fetch0_7 t0_0) ‹_›
theorem before0_8 (c : Dev nD) (d) : (dat0 V c).before 8 t0_0 d = blk0_8 V c := by
  unfold Dat.before; split
  · rfl
  · exact absurd (fetch0_8 t0_0) ‹_›

/-- What the body is called with at the point, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 4000000 in
/-- The body at the point: the staged blocks, the scratch buffers out of the scoped rest and the invariant taken apart, the run applied, its post
    put back together. -/
theorem sound_body0 (c : Dev nD) (t : Fin cfg0.N) :
    bodyPre0 V c t ⊢ wp frame (wpE (defs₀ (F := F)) Variants.none c none) Set.univ (bodyAt0 t) (fun _ => bodyPost0 V c t) := by
  obtain rfl := fin_N0 t
  unfold bodyPre0 bodyPost0 bodyAt0
  simp only [before0_0, before0_1, before0_2, before0_3, before0_4, before0_5, before0_6, before0_7, before0_8]
  rw [show (dat0 V c).Φ t0_0.succ = (dat0 V c).Φ t0_0.castSucc from rfl,
    show (dat0 V c).owesAt () t0_0.succ = (dat0 V c).owesAt () t0_0.castSucc from rfl,
    after0_0, after0_1, after0_2, after0_3, after0_4, after0_5, after0_6, after0_7, after0_8, after0_9]
  rw [show (dat0 V c).Φ t0_0.castSucc = Pipeline.ΦA spec0 c from rfl]; unfold Pipeline.ΦA
  rw [scratch_split0]
  iintro ⟨⟨⟨⟨G0, G1, G2, G3, G4, G5⟩, Hrest⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((K0 V c).2 Set.univ _)
  isplitl [H0]; · (iapply (owns_to_pt0 c _ (hstage0_0 0) _); iexact H0)
  isplitl [H1]; · (iapply (owns_to_pt0 c _ (hstage0_1 0) _); iexact H1)
  isplitl [H2]; · (iapply (owns_to_pt0 c _ (hstage0_2 0) _); iexact H2)
  isplitl [H3]; · (iapply (owns_to_pt0 c _ (hstage0_3 0) _); iexact H3)
  isplitl [H4]; · (iapply (owns_to_pt0 c _ (hstage0_4 0) _); iexact H4)
  isplitl [H5]; · (iapply (owns_to_pt0 c _ (hstage0_5 0) _); iexact H5)
  isplitl [H6]; · (iapply (owns_to_pt0 c _ (hstage0_6 0) _); iexact H6)
  isplitl [H7]; · (iapply (owns_to_pt0 c _ (hstage0_7 0) _); iexact H7)
  isplitl [H8]; · (iapply (owns_to_pt0 c _ (hstage0_8 0) _); iexact H8)
  isplitl [H9]; · (iapply (owns_to_ex0 c _ _); iexact H9)
  isplitl [G0]; · (iapply (scratch_in0 c cc0_scratch0); iexact G0)
  isplitl [G1]; · (iapply (scratch_in0 c cc0_scratch1); iexact G1)
  isplitl [G2]; · (iapply (scratch_in0 c cc0_scratch2); iexact G2)
  isplitl [G3]; · (iapply (scratch_in0 c cc0_scratch3); iexact G3)
  isplitl [G4]; · (iapply (scratch_in0 c cc0_scratch4); iexact G4)
  isplitl [G5]; · (iapply (scratch_in0 c cc0_scratch5); iexact G5)
  iintro ⟨H0, H1, H2, H3, H4, H5, H6, H7, H8, H9, G0, G1, G2, G3, G4, G5⟩
  isplitl [G0 G1 G2 G3 G4 G5 Hrest Hp]
  · isplitl [G0 G1 G2 G3 G4 G5 Hrest]
    · isplitl [G0 G1 G2 G3 G4 G5]
      · skip
        isplitl [G0]; · (iapply (scratch_out0 c cc0_scratch0); iexact G0)
        isplitl [G1]; · (iapply (scratch_out0 c cc0_scratch1); iexact G1)
        isplitl [G2]; · (iapply (scratch_out0 c cc0_scratch2); iexact G2)
        isplitl [G3]; · (iapply (scratch_out0 c cc0_scratch3); iexact G3)
        isplitl [G4]; · (iapply (scratch_out0 c cc0_scratch4); iexact G4)
        iapply (scratch_out0 c cc0_scratch5); iexact G5
      · iexact Hrest
    · iexact Hp
  isplitl [Ho]; · iexact Ho
  isplitl [H0]; · (iapply (pt_to_owns0 c _ (hstage0_0 0) _); iexact H0)
  isplitl [H1]; · (iapply (pt_to_owns0 c _ (hstage0_1 0) _); iexact H1)
  isplitl [H2]; · (iapply (pt_to_owns0 c _ (hstage0_2 0) _); iexact H2)
  isplitl [H3]; · (iapply (pt_to_owns0 c _ (hstage0_3 0) _); iexact H3)
  isplitl [H4]; · (iapply (pt_to_owns0 c _ (hstage0_4 0) _); iexact H4)
  isplitl [H5]; · (iapply (pt_to_owns0 c _ (hstage0_5 0) _); iexact H5)
  isplitl [H6]; · (iapply (pt_to_owns0 c _ (hstage0_6 0) _); iexact H6)
  isplitl [H7]; · (iapply (pt_to_owns0 c _ (hstage0_7 0) _); iexact H7)
  isplitl [H8]; · (iapply (pt_to_owns0 c _ (hstage0_8 0) _); iexact H8)
  iapply (pt_to_owns_read0 c _ _); iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdealRegion1.lean ====
/-
  The kernel's second region: the two 5x5 convolutions of the third stage with their rectifiers and the width-4 max pool,
  the last convolution as a 5x1 convolution with the global maximum over the 16 rows, the three dense layers and the
  log-softmax; whole-array windows, one grid point, six scratch buffers (three zero-padded activations and three patch matrices).
  Here: the kernel body run once by the symbolic executor from its input blocks' raw contents (the output blocks and the scratch buffers
  at anything), its witness (the raw contents each output block holds afterwards, as a function of the inputs'), the
  region's proof data at a parameter `V` (the buffers' contents when the region is entered) and the body obligation
  at the region's one grid point.  A staging buffer is a whole memref, so what it reads and its raw contents
  determine each other.
-/
import proofs.«147627_g2000402439390779_pallasbulk_891_17_alg».proof.Proof.Gen.KernelIdeal.Launch
import proofs.«147627_g2000402439390779_pallasbulk_891_17_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Cert.KernelIdeal.Facts]

local notation "𝕄" => MT nD τ sig Unit (Elt F) ℕ (UR sig nD τ) ℕ

/-- A memref's raw contents on core `c`, and the memref held at them. -/
abbrev Bf1 (c : Dev nD) {sp : Space} {S : Shape} {e : EltTy} (M : Memref sig .tc sp S e) : Type := M.view.ty.Contents (Elt F)
abbrev pt1 (c : Dev nD) {sp : Space} {S : Shape} {e : EltTy} (M : Memref sig .tc sp S e) (f : Bf1 (F := F) c M) : sProp 𝕄 :=
  M.view.loc (c : Thread nD τ) ↦[M.view.set]{fullShare} f

/-- A whole memref read at `X` is held at the raw contents that read `X`, and conversely; held at raw contents
    `f` it reads what `f` reads. -/
theorem owns_to_pt1 (c : Dev nD) {sp : Space} {S : Shape} {e : EltTy} (M : Memref sig .tc sp S e) (h : M.IsWhole) (X : S.Idx → Elt F e) :
    (owns (c : Thread nD τ) M fullShare X : sProp 𝕄) ⊢ pt1 c M (h.unread X) := by
  unfold owns; iintro ⟨%f, %hf, H⟩; obtain rfl := h.eq_unread hf; iexact H
theorem pt_to_owns1 (c : Dev nD) {sp : Space} {S : Shape} {e : EltTy} (M : Memref sig .tc sp S e) (h : M.IsWhole) (X : S.Idx → Elt F e) :
    (pt1 c M (h.unread X) : sProp 𝕄) ⊢ owns (c : Thread nD τ) M fullShare X := by
  unfold owns; iintro H; iexists _; isplitr; · ipureintro; exact h.read_unread X
  iexact H
theorem pt_to_owns_read1 (c : Dev nD) {sp : Space} {S : Shape} {e : EltTy} (M : Memref sig .tc sp S e) (f : Bf1 (F := F) c M) :
    (pt1 c M f : sProp 𝕄) ⊢ owns (c : Thread nD τ) M fullShare (M.view.read (Elt F) f) := by
  unfold owns; iintro H; iexists f; isplitr; · ipureintro; rfl
  iexact H
theorem owns_to_ex1 (c : Dev nD) {sp : Space} {S : Shape} {e : EltTy} (M : Memref sig .tc sp S e) (X : S.Idx → Elt F e) :
    (owns (c : Thread nD τ) M fullShare X : sProp 𝕄) ⊢ iprop(∃ f, pt1 c M f) := by
  unfold owns; iintro ⟨%f, -, H⟩; iexists f; iexact H

/-- A scoped scratch buffer held whole at something, as the scoped rest keeps it and as the body takes it. -/
theorem scratch_in1 (c : Dev nD) (b : Ref sig .tc) :
    (iprop(∃ f : Buf (Elt F) ((c : Thread nD τ).loc b), ((c : Thread nD τ).loc b) ↦{fullShare} f) : sProp 𝕄)
      ⊢ iprop(∃ d, owns (c : Thread nD τ) (Memref.whole b) fullShare d) := by
  simp only [owns_whole_eq]
  iintro ⟨%f, H⟩; iexists f, f; isplitr; · ipureintro; rfl
  iexact H
theorem scratch_out1 (c : Dev nD) (b : Ref sig .tc) :
    (iprop(∃ d, owns (c : Thread nD τ) (Memref.whole b) fullShare d) : sProp 𝕄)
      ⊢ iprop(∃ f : Buf (Elt F) ((c : Thread nD τ).loc b), ((c : Thread nD τ).loc b) ↦{fullShare} f) := by
  simp only [owns_whole_eq]
  iintro ⟨%d, %f, -, H⟩; iexists f; iexact H

/-- The scoped rest with this kernel's scratch buffers taken out, each whole at some contents; the remainder unopened. -/
theorem scratch_split1 (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f) ∗ (∃ f : Buf (Elt F) ((c : Thread nD τ).loc cc1_scratch4), ((c : Thread nD τ).loc cc1_scratch4) ↦{fullShare} f) ∗ (∃ f : Buf (Elt F) ((c : Thread nD τ).loc cc1_scratch5), ((c : Thread nD τ).loc cc1_scratch5) ↦{fullShare} f))
          ∗ Pipeline.scopedRestBut (Ix := Unit) (Name := ℕ) (U := UR sig nD τ) (Lvl := ℕ) (Val := Elt F) spec1 c [cc1_scratch0, cc1_scratch1, cc1_scratch2, cc1_scratch3, cc1_scratch4, cc1_scratch5]) :=
  Pipeline.scopedRest_split_of_list spec1 c [cc1_scratch0, cc1_scratch1, cc1_scratch2, cc1_scratch3, cc1_scratch4, cc1_scratch5] (by decide) (by decide)

set_option maxHeartbeats 8000000 in
/-- The body from its input blocks: it runs to its return, hands the inputs back unchanged and leaves each
    output block at the witness; the scratch buffers end at something. -/
noncomputable def run1 (c : Dev nD) (M0 : Memref sig .tc .vmem S8x16x4x128 .bf16) (h0 : M0.IsWhole) (M1 : Memref sig .tc .vmem S640x1280 .bf16) (h1 : M1.IsWhole) (M2 : Memref sig .tc .vmem S1x256 .f32) (h2 : M2.IsWhole) (M3 : Memref sig .tc .vmem S1280x1280 .bf16) (h3 : M3.IsWhole) (M4 : Memref sig .tc .vmem S1x256 .f32) (h4 : M4.IsWhole) (M5 : Memref sig .tc .vmem S1280x2048 .bf16) (h5 : M5.IsWhole) (M6 : Memref sig .tc .vmem S1x2048 .f32) (h6 : M6.IsWhole) (M7 : Memref sig .tc .vmem S2048x512 .bf16) (h7 : M7.IsWhole) (M8 : Memref sig .tc .vmem S1x512 .f32) (h8 : M8.IsWhole) (M9 : Memref sig .tc .vmem S512x1024 .bf16) (h9 : M9.IsWhole) (M10 : Memref sig .tc .vmem S1x1024 .f32) (h10 : M10.IsWhole) (M11 : Memref sig .tc .vmem S1024x16 .bf16) (h11 : M11.IsWhole) (M12 : Memref sig .tc .vmem S1x16 .f32) (h12 : M12.IsWhole) (M13 : Memref sig .tc .vmem S8x16 .f32) (h13 : M13.IsWhole) (C0 : Memref sig .tc .vmem S8x20x8x128 .bf16) (g0 : C0.IsWhole) (C1 : Memref sig .tc .vmem S1024x640 .bf16) (g1 : C1.IsWhole) (C2 : Memref sig .tc .vmem S8x20x8x256 .bf16) (g2 : C2.IsWhole) (C3 : Memref sig .tc .vmem S1024x1280 .bf16) (g3 : C3.IsWhole) (C4 : Memref sig .tc .vmem S8x24x256 .bf16) (g4 : C4.IsWhole) (C5 : Memref sig .tc .vmem S128x1280 .bf16) (g5 : C5.IsWhole)
    (f0 : Bf1 (F := F) c M0) (f1 : Bf1 (F := F) c M1) (f2 : Bf1 (F := F) c M2) (f3 : Bf1 (F := F) c M3) (f4 : Bf1 (F := F) c M4) (f5 : Bf1 (F := F) c M5) (f6 : Bf1 (F := F) c M6) (f7 : Bf1 (F := F) c M7) (f8 : Bf1 (F := F) c M8) (f9 : Bf1 (F := F) c M9) (f10 : Bf1 (F := F) c M10) (f11 : Bf1 (F := F) c M11) (f12 : Bf1 (F := F) c M12) :
    { W : Bf1 (F := F) c M13 // ∀ (E : Set ℕ) (K : PUnit → sProp 𝕄),
        iprop(pt1 c M0 f0
            ∗ pt1 c M1 f1
            ∗ pt1 c M2 f2
            ∗ pt1 c M3 f3
            ∗ pt1 c M4 f4
            ∗ pt1 c M5 f5
            ∗ pt1 c M6 f6
            ∗ pt1 c M7 f7
            ∗ pt1 c M8 f8
            ∗ pt1 c M9 f9
            ∗ pt1 c M10 f10
            ∗ pt1 c M11 f11
            ∗ pt1 c M12 f12
            ∗ (∃ f, pt1 c M13 f)
            ∗ (∃ d, owns (c : Thread nD τ) C0 fullShare d)
            ∗ (∃ d, owns (c : Thread nD τ) C1 fullShare d)
            ∗ (∃ d, owns (c : Thread nD τ) C2 fullShare d)
            ∗ (∃ d, owns (c : Thread nD τ) C3 fullShare d)
            ∗ (∃ d, owns (c : Thread nD τ) C4 fullShare d)
            ∗ (∃ d, owns (c : Thread nD τ) C5 fullShare d)
            ∗ (iprop(pt1 c M0 f0
                ∗ pt1 c M1 f1
                ∗ pt1 c M2 f2
                ∗ pt1 c M3 f3
                ∗ pt1 c M4 f4
                ∗ pt1 c M5 f5
                ∗ pt1 c M6 f6
                ∗ pt1 c M7 f7
                ∗ pt1 c M8 f8
                ∗ pt1 c M9 f9
                ∗ pt1 c M10 f10
                ∗ pt1 c M11 f11
                ∗ pt1 c M12 f12
                ∗ pt1 c M13 W
                ∗ (∃ d, owns (c : Thread nD τ) C0 fullShare d)
                ∗ (∃ d, owns (c : Thread nD τ) C1 fullShare d)
                ∗ (∃ d, owns (c : Thread nD τ) C2 fullShare d)
                ∗ (∃ d, owns (c : Thread nD τ) C3 fullShare d)
                ∗ (∃ d, owns (c : Thread nD τ) C4 fullShare d)
                ∗ (∃ d, owns (c : Thread nD τ) C5 fullShare d)) -∗ K ⟨⟩))
          ⊢ wp frame (wpE (defs₀ (F := F)) Variants.none c none) E (cc1__stage3_head_kernel M0 h0 M1 h1 M2 h2 M3 h3 M4 h4 M5 h5 M6 h6 M7 h7 M8 h8 M9 h9 M10 h10 M11 h11 M12 h12 M13 h13 C0 g0 C1 g1 C2 g2 C3 g3 C4 g4 C5 g5) K } := by
  refine ⟨?_, fun E K => ?run⟩
  case run =>
    unfold owns
    iintro ⟨H0, H1, H2, H3, H4, H5, H6, H7, H8, H9, H10, H11, H12, ⟨%f13, H13⟩, ⟨%e0, %q0, -, G0⟩, ⟨%e1, %q1, -, G1⟩, ⟨%e2, %q2, -, G2⟩, ⟨%e3, %q3, -, G3⟩, ⟨%e4, %q4, -, G4⟩, ⟨%e5, %q5, -, G5⟩, Hk⟩
    sl_exec!
    sl_step
    iapply Hk
    isplitl [H0]; · (iexact H0)
    isplitl [H1]; · (iexact H1)
    isplitl [H2]; · (iexact H2)
    isplitl [H3]; · (iexact H3)
    isplitl [H4]; · (iexact H4)
    isplitl [H5]; · (iexact H5)
    isplitl [H6]; · (iexact H6)
    isplitl [H7]; · (iexact H7)
    isplitl [H8]; · (iexact H8)
    isplitl [H9]; · (iexact H9)
    isplitl [H10]; · (iexact H10)
    isplitl [H11]; · (iexact H11)
    isplitl [H12]; · (iexact H12)
    isplitl [H13]; · (iexact H13)
    isplitl [G0]; · (iexists _, _; isplitr; swap; (· iexact G0); ipureintro; rfl)
    isplitl [G1]; · (iexists _, _; isplitr; swap; (· iexact G1); ipureintro; rfl)
    isplitl [G2]; · (iexists _, _; isplitr; swap; (· iexact G2); ipureintro; rfl)
    isplitl [G3]; · (iexists _, _; isplitr; swap; (· iexact G3); ipureintro; rfl)
    isplitl [G4]; · (iexists _, _; isplitr; swap; (· iexact G4); ipureintro; rfl)
    iexists _, _; isplitr; swap; (· iexact G5); ipureintro; rfl

-- the witness is never opened below: only its existence and the triple are used
attribute [irreducible] run1

variable (V : (c : Dev nD) → (b : Ref sig .tc) → Buf (Elt F) ((c : Thread nD τ).loc b))

/-- Window `w`'s block at the one grid point, read off its array as the region finds it. -/
abbrev blk1_0 (c : Dev nD) : (cfg1.win 0).block.Idx → Elt F (cfg1.win 0).elt :=
  ((cfg1.win 0).blk t1_0).view.read (Elt F) (V c (Pipeline.arrRef spec1 0))
abbrev blk1_1 (c : Dev nD) : (cfg1.win 1).block.Idx → Elt F (cfg1.win 1).elt :=
  ((cfg1.win 1).blk t1_0).view.read (Elt F) (V c (Pipeline.arrRef spec1 1))
abbrev blk1_2 (c : Dev nD) : (cfg1.win 2).block.Idx → Elt F (cfg1.win 2).elt :=
  ((cfg1.win 2).blk t1_0).view.read (Elt F) (V c (Pipeline.arrRef spec1 2))
abbrev blk1_3 (c : Dev nD) : (cfg1.win 3).block.Idx → Elt F (cfg1.win 3).elt :=
  ((cfg1.win 3).blk t1_0).view.read (Elt F) (V c (Pipeline.arrRef spec1 3))
abbrev blk1_4 (c : Dev nD) : (cfg1.win 4).block.Idx → Elt F (cfg1.win 4).elt :=
  ((cfg1.win 4).blk t1_0).view.read (Elt F) (V c (Pipeline.arrRef spec1 4))
abbrev blk1_5 (c : Dev nD) : (cfg1.win 5).block.Idx → Elt F (cfg1.win 5).elt :=
  ((cfg1.win 5).blk t1_0).view.read (Elt F) (V c (Pipeline.arrRef spec1 5))
abbrev blk1_6 (c : Dev nD) : (cfg1.win 6).block.Idx → Elt F (cfg1.win 6).elt :=
  ((cfg1.win 6).blk t1_0).view.read (Elt F) (V c (Pipeline.arrRef spec1 6))
abbrev blk1_7 (c : Dev nD) : (cfg1.win 7).block.Idx → Elt F (cfg1.win 7).elt :=
  ((cfg1.win 7).blk t1_0).view.read (Elt F) (V c (Pipeline.arrRef spec1 7))
abbrev blk1_8 (c : Dev nD) : (cfg1.win 8).block.Idx → Elt F (cfg1.win 8).elt :=
  ((cfg1.win 8).blk t1_0).view.read (Elt F) (V c (Pipeline.arrRef spec1 8))
abbrev blk1_9 (c : Dev nD) : (cfg1.win 9).block.Idx → Elt F (cfg1.win 9).elt :=
  ((cfg1.win 9).blk t1_0).view.read (Elt F) (V c (Pipeline.arrRef spec1 9))
abbrev blk1_10 (c : Dev nD) : (cfg1.win 10).block.Idx → Elt F (cfg1.win 10).elt :=
  ((cfg1.win 10).blk t1_0).view.read (Elt F) (V c (Pipeline.arrRef spec1 10))
abbrev blk1_11 (c : Dev nD) : (cfg1.win 11).block.Idx → Elt F (cfg1.win 11).elt :=
  ((cfg1.win 11).blk t1_0).view.read (Elt F) (V c (Pipeline.arrRef spec1 11))
abbrev blk1_12 (c : Dev nD) : (cfg1.win 12).block.Idx → Elt F (cfg1.win 12).elt :=
  ((cfg1.win 12).blk t1_0).view.read (Elt F) (V c (Pipeline.arrRef spec1 12))

/-- The run at the staged blocks (each input's raw contents the ones that read its block). -/
abbrev K1 (c : Dev nD) := run1 (F := F) c (win1_0.stage (cfg1.slots t1_0 0)) (hstage1_0 0) (win1_1.stage (cfg1.slots t1_0 1)) (hstage1_1 0) (win1_2.stage (cfg1.slots t1_0 2)) (hstage1_2 0) (win1_3.stage (cfg1.slots t1_0 3)) (hstage1_3 0) (win1_4.stage (cfg1.slots t1_0 4)) (hstage1_4 0) (win1_5.stage (cfg1.slots t1_0 5)) (hstage1_5 0) (win1_6.stage (cfg1.slots t1_0 6)) (hstage1_6 0) (win1_7.stage (cfg1.slots t1_0 7)) (hstage1_7 0) (win1_8.stage (cfg1.slots t1_0 8)) (hstage1_8 0) (win1_9.stage (cfg1.slots t1_0 9)) (hstage1_9 0) (win1_10.stage (cfg1.slots t1_0 10)) (hstage1_10 0) (win1_11.stage (cfg1.slots t1_0 11)) (hstage1_11 0) (win1_12.stage (cfg1.slots t1_0 12)) (hstage1_12 0) (win1_13.stage (cfg1.slots t1_0 13)) (hstage1_13 0) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _)
  ((hstage1_0 0).unread (blk1_0 V c)) ((hstage1_1 0).unread (blk1_1 V c)) ((hstage1_2 0).unread (blk1_2 V c)) ((hstage1_3 0).unread (blk1_3 V c)) ((hstage1_4 0).unread (blk1_4 V c)) ((hstage1_5 0).unread (blk1_5 V c)) ((hstage1_6 0).unread (blk1_6 V c)) ((hstage1_7 0).unread (blk1_7 V c)) ((hstage1_8 0).unread (blk1_8 V c)) ((hstage1_9 0).unread (blk1_9 V c)) ((hstage1_10 0).unread (blk1_10 V c)) ((hstage1_11 0).unread (blk1_11 V c)) ((hstage1_12 0).unread (blk1_12 V c))

/-- The region's proof data: the arrays as found; after the body every input block as fetched and every
    output block at what the run's witness reads; the invariant the scoped buffers and the generator register;
    nothing owed; full shares. -/
def dat1 (c : Dev nD) : Dat τ (Elt F) Unit ℕ (UR sig nD τ) ℕ cfg1 c where
  A w := V c (Pipeline.arrRef spec1 w)
  after w _ := match w with
    | ⟨0, _⟩ => blk1_0 V c
    | ⟨1, _⟩ => blk1_1 V c
    | ⟨2, _⟩ => blk1_2 V c
    | ⟨3, _⟩ => blk1_3 V c
    | ⟨4, _⟩ => blk1_4 V c
    | ⟨5, _⟩ => blk1_5 V c
    | ⟨6, _⟩ => blk1_6 V c
    | ⟨7, _⟩ => blk1_7 V c
    | ⟨8, _⟩ => blk1_8 V c
    | ⟨9, _⟩ => blk1_9 V c
    | ⟨10, _⟩ => blk1_10 V c
    | ⟨11, _⟩ => blk1_11 V c
    | ⟨12, _⟩ => blk1_12 V c
    | ⟨13, _⟩ => (win1_13.stage (cfg1.slots t1_0 13)).view.read (Elt F) (K1 V c).1
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1_0 V c := rfl
theorem after1_1 (c : Dev nD) (t : Fin cfg1.N) : (dat1 V c).after 1 t = blk1_1 V c := rfl
theorem after1_2 (c : Dev nD) (t : Fin cfg1.N) : (dat1 V c).after 2 t = blk1_2 V c := rfl
theorem after1_3 (c : Dev nD) (t : Fin cfg1.N) : (dat1 V c).after 3 t = blk1_3 V c := rfl
theorem after1_4 (c : Dev nD) (t : Fin cfg1.N) : (dat1 V c).after 4 t = blk1_4 V c := rfl
theorem after1_5 (c : Dev nD) (t : Fin cfg1.N) : (dat1 V c).after 5 t = blk1_5 V c := rfl
theorem after1_6 (c : Dev nD) (t : Fin cfg1.N) : (dat1 V c).after 6 t = blk1_6 V c := rfl
theorem after1_7 (c : Dev nD) (t : Fin cfg1.N) : (dat1 V c).after 7 t = blk1_7 V c := rfl
theorem after1_8 (c : Dev nD) (t : Fin cfg1.N) : (dat1 V c).after 8 t = blk1_8 V c := rfl
theorem after1_9 (c : Dev nD) (t : Fin cfg1.N) : (dat1 V c).after 9 t = blk1_9 V c := rfl
theorem after1_10 (c : Dev nD) (t : Fin cfg1.N) : (dat1 V c).after 10 t = blk1_10 V c := rfl
theorem after1_11 (c : Dev nD) (t : Fin cfg1.N) : (dat1 V c).after 11 t = blk1_11 V c := rfl
theorem after1_12 (c : Dev nD) (t : Fin cfg1.N) : (dat1 V c).after 12 t = blk1_12 V c := rfl
theorem after1_13 (c : Dev nD) (t : Fin cfg1.N) : (dat1 V c).after 13 t = (win1_13.stage (cfg1.slots t1_0 13)).view.read (Elt F) (K1 V c).1 := rfl

theorem before1_0 (c : Dev nD) (d) : (dat1 V c).before 0 t1_0 d = blk1_0 V c := by
  unfold Dat.before; split
  · rfl
  · exact absurd (fetch1_0 t1_0) ‹_›
theorem before1_1 (c : Dev nD) (d) : (dat1 V c).before 1 t1_0 d = blk1_1 V c := by
  unfold Dat.before; split
  · rfl
  · exact absurd (fetch1_1 t1_0) ‹_›
theorem before1_2 (c : Dev nD) (d) : (dat1 V c).before 2 t1_0 d = blk1_2 V c := by
  unfold Dat.before; split
  · rfl
  · exact absurd (fetch1_2 t1_0) ‹_›
theorem before1_3 (c : Dev nD) (d) : (dat1 V c).before 3 t1_0 d = blk1_3 V c := by
  unfold Dat.before; split
  · rfl
  · exact absurd (fetch1_3 t1_0) ‹_›
theorem before1_4 (c : Dev nD) (d) : (dat1 V c).before 4 t1_0 d = blk1_4 V c := by
  unfold Dat.before; split
  · rfl
  · exact absurd (fetch1_4 t1_0) ‹_›
theorem before1_5 (c : Dev nD) (d) : (dat1 V c).before 5 t1_0 d = blk1_5 V c := by
  unfold Dat.before; split
  · rfl
  · exact absurd (fetch1_5 t1_0) ‹_›
theorem before1_6 (c : Dev nD) (d) : (dat1 V c).before 6 t1_0 d = blk1_6 V c := by
  unfold Dat.before; split
  · rfl
  · exact absurd (fetch1_6 t1_0) ‹_›
theorem before1_7 (c : Dev nD) (d) : (dat1 V c).before 7 t1_0 d = blk1_7 V c := by
  unfold Dat.before; split
  · rfl
  · exact absurd (fetch1_7 t1_0) ‹_›
theorem before1_8 (c : Dev nD) (d) : (dat1 V c).before 8 t1_0 d = blk1_8 V c := by
  unfold Dat.before; split
  · rfl
  · exact absurd (fetch1_8 t1_0) ‹_›
theorem before1_9 (c : Dev nD) (d) : (dat1 V c).before 9 t1_0 d = blk1_9 V c := by
  unfold Dat.before; split
  · rfl
  · exact absurd (fetch1_9 t1_0) ‹_›
theorem before1_10 (c : Dev nD) (d) : (dat1 V c).before 10 t1_0 d = blk1_10 V c := by
  unfold Dat.before; split
  · rfl
  · exact absurd (fetch1_10 t1_0) ‹_›
theorem before1_11 (c : Dev nD) (d) : (dat1 V c).before 11 t1_0 d = blk1_11 V c := by
  unfold Dat.before; split
  · rfl
  · exact absurd (fetch1_11 t1_0) ‹_›
theorem before1_12 (c : Dev nD) (d) : (dat1 V c).before 12 t1_0 d = blk1_12 V c := by
  unfold Dat.before; split
  · rfl
  · exact absurd (fetch1_12 t1_0) ‹_›

/-- What the body is called with at the point, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t))

set_option maxHeartbeats 4000000 in
/-- The body at the point: the staged blocks, the scratch buffers out of the scoped rest and the invariant taken apart, the run applied, its post
    put back together. -/
theorem sound_body1 (c : Dev nD) (t : Fin cfg1.N) :
    bodyPre1 V c t ⊢ wp frame (wpE (defs₀ (F := F)) Variants.none c none) Set.univ (bodyAt1 t) (fun _ => bodyPost1 V c t) := by
  obtain rfl := fin_N1 t
  unfold bodyPre1 bodyPost1 bodyAt1
  simp only [before1_0, before1_1, before1_2, before1_3, before1_4, before1_5, before1_6, before1_7, before1_8, before1_9, before1_10, before1_11, before1_12]
  rw [show (dat1 V c).Φ t1_0.succ = (dat1 V c).Φ t1_0.castSucc from rfl,
    show (dat1 V c).owesAt () t1_0.succ = (dat1 V c).owesAt () t1_0.castSucc from rfl,
    after1_0, after1_1, after1_2, after1_3, after1_4, after1_5, after1_6, after1_7, after1_8, after1_9, after1_10, after1_11, after1_12, after1_13]
  rw [show (dat1 V c).Φ t1_0.castSucc = Pipeline.ΦA spec1 c from rfl]; unfold Pipeline.ΦA
  rw [scratch_split1]
  iintro ⟨⟨⟨⟨G0, G1, G2, G3, G4, G5⟩, Hrest⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((K1 V c).2 Set.univ _)
  isplitl [H0]; · (iapply (owns_to_pt1 c _ (hstage1_0 0) _); iexact H0)
  isplitl [H1]; · (iapply (owns_to_pt1 c _ (hstage1_1 0) _); iexact H1)
  isplitl [H2]; · (iapply (owns_to_pt1 c _ (hstage1_2 0) _); iexact H2)
  isplitl [H3]; · (iapply (owns_to_pt1 c _ (hstage1_3 0) _); iexact H3)
  isplitl [H4]; · (iapply (owns_to_pt1 c _ (hstage1_4 0) _); iexact H4)
  isplitl [H5]; · (iapply (owns_to_pt1 c _ (hstage1_5 0) _); iexact H5)
  isplitl [H6]; · (iapply (owns_to_pt1 c _ (hstage1_6 0) _); iexact H6)
  isplitl [H7]; · (iapply (owns_to_pt1 c _ (hstage1_7 0) _); iexact H7)
  isplitl [H8]; · (iapply (owns_to_pt1 c _ (hstage1_8 0) _); iexact H8)
  isplitl [H9]; · (iapply (owns_to_pt1 c _ (hstage1_9 0) _); iexact H9)
  isplitl [H10]; · (iapply (owns_to_pt1 c _ (hstage1_10 0) _); iexact H10)
  isplitl [H11]; · (iapply (owns_to_pt1 c _ (hstage1_11 0) _); iexact H11)
  isplitl [H12]; · (iapply (owns_to_pt1 c _ (hstage1_12 0) _); iexact H12)
  isplitl [H13]; · (iapply (owns_to_ex1 c _ _); iexact H13)
  isplitl [G0]; · (iapply (scratch_in1 c cc1_scratch0); iexact G0)
  isplitl [G1]; · (iapply (scratch_in1 c cc1_scratch1); iexact G1)
  isplitl [G2]; · (iapply (scratch_in1 c cc1_scratch2); iexact G2)
  isplitl [G3]; · (iapply (scratch_in1 c cc1_scratch3); iexact G3)
  isplitl [G4]; · (iapply (scratch_in1 c cc1_scratch4); iexact G4)
  isplitl [G5]; · (iapply (scratch_in1 c cc1_scratch5); iexact G5)
  iintro ⟨H0, H1, H2, H3, H4, H5, H6, H7, H8, H9, H10, H11, H12, H13, G0, G1, G2, G3, G4, G5⟩
  isplitl [G0 G1 G2 G3 G4 G5 Hrest Hp]
  · isplitl [G0 G1 G2 G3 G4 G5 Hrest]
    · isplitl [G0 G1 G2 G3 G4 G5]
      · skip
        isplitl [G0]; · (iapply (scratch_out1 c cc1_scratch0); iexact G0)
        isplitl [G1]; · (iapply (scratch_out1 c cc1_scratch1); iexact G1)
        isplitl [G2]; · (iapply (scratch_out1 c cc1_scratch2); iexact G2)
        isplitl [G3]; · (iapply (scratch_out1 c cc1_scratch3); iexact G3)
        isplitl [G4]; · (iapply (scratch_out1 c cc1_scratch4); iexact G4)
        iapply (scratch_out1 c cc1_scratch5); iexact G5
      · iexact Hrest
    · iexact Hp
  isplitl [Ho]; · iexact Ho
  isplitl [H0]; · (iapply (pt_to_owns1 c _ (hstage1_0 0) _); iexact H0)
  isplitl [H1]; · (iapply (pt_to_owns1 c _ (hstage1_1 0) _); iexact H1)
  isplitl [H2]; · (iapply (pt_to_owns1 c _ (hstage1_2 0) _); iexact H2)
  isplitl [H3]; · (iapply (pt_to_owns1 c _ (hstage1_3 0) _); iexact H3)
  isplitl [H4]; · (iapply (pt_to_owns1 c _ (hstage1_4 0) _); iexact H4)
  isplitl [H5]; · (iapply (pt_to_owns1 c _ (hstage1_5 0) _); iexact H5)
  isplitl [H6]; · (iapply (pt_to_owns1 c _ (hstage1_6 0) _); iexact H6)
  isplitl [H7]; · (iapply (pt_to_owns1 c _ (hstage1_7 0) _); iexact H7)
  isplitl [H8]; · (iapply (pt_to_owns1 c _ (hstage1_8 0) _); iexact H8)
  isplitl [H9]; · (iapply (pt_to_owns1 c _ (hstage1_9 0) _); iexact H9)
  isplitl [H10]; · (iapply (pt_to_owns1 c _ (hstage1_10 0) _); iexact H10)
  isplitl [H11]; · (iapply (pt_to_owns1 c _ (hstage1_11 0) _); iexact H11)
  isplitl [H12]; · (iapply (pt_to_owns1 c _ (hstage1_12 0) _); iexact H12)
  iapply (pt_to_owns_read1 c _ _); iexact H13

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdealFrame.lean ====
/-
  The frame of the whole program from its regions: the contents every region leaves in its output array named
  one after the other (each region's proof data are taken at the contents the earlier ones leave), one segment
  record per region over the thread state "every unscoped buffer at the boundary's contents, the generator
  register at some state, nothing owed", and the conditional frame of the host side applied to them.
-/
import proofs.«147627_g2000402439390779_pallasbulk_891_17_alg».proof.Proof.Gen.KernelIdeal.Regions
import proofs.«147627_g2000402439390779_pallasbulk_891_17_alg».proof.Proof.KernelIdealRunVals
import proofs.«147627_g2000402439390779_pallasbulk_891_17_alg».proof.Proof.KernelIdealRegion0
import proofs.«147627_g2000402439390779_pallasbulk_891_17_alg».proof.Proof.KernelIdealRegion1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Cert.KernelIdeal.Facts]

local notation "𝕄" => MT nD τ sig Unit (Elt F) ℕ (UR sig nD τ) ℕ

variable (m : (ℓ : Loc nD τ sig) → Buf (Elt F) ℓ)

/-- What region 0 leaves in its output array `main_v70`: its one window's write-backs folded. -/
def o0 (c : Dev nD) : Buf (Elt F) ((c : Thread nD τ).loc main_v70) :=
  (dat0 (fun c b => V5 m c b) c).arrAt 9 cfg0.N
/-- The regions' outputs, the first 1 of them named. -/
abbrev outs1 : Outs (F := F) := fun j r c => match j with
    | 6 => Function.update (V0 m c) main_v70 (o0 m c) r
    | _ => V0 m c r
/-- What region 1 leaves in its output array `main_v87`: its one window's write-backs folded. -/
def o1 (c : Dev nD) : Buf (Elt F) ((c : Thread nD τ).loc main_v87) :=
  (dat1 (fun c b => V7 m (outs1 m) c b) c).arrAt 13 cfg1.N
/-- The regions' outputs, the first 2 of them named. -/
abbrev outs2 : Outs (F := F) := fun j r c => match j with
    | 6 => Function.update (V0 m c) main_v70 (o0 m c) r
    | 8 => Function.update (V0 m c) main_v87 (o1 m c) r
    | _ => V0 m c r

/-- The regions' outputs, all named. -/
abbrev outs : Outs (F := F) := outs2 m

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (fun c b => V5 m c b) c
  | ⟨1, _⟩ => fun c => dat1 (fun c b => V7 m (outs1 m) c b) c

/-- No core owes another anything: no level is assigned. -/
abbrev Lz : GSem nD τ sig → Finset Unit := fun _ => ∅
abbrev lvz : GSem nD τ sig → Unit → ℕ := fun _ _ => 0
/-- What rides beside the buffers through every segment: the generator register at some state and the core's dues, none. -/
abbrev Rst (c : Dev nD) : sProp 𝕄 := iprop((∃ r, prngReg c r) ∗ ∃ W, owes (c : Thread nD τ) (0 : CellTallies nD τ sig Unit) W)

set_option maxHeartbeats 2000000 in
/-- What region 0 leaves in each of its arrays is the next boundary's contents there: an input array is
    still what the region found, the output array is the fold of its write-backs. -/
theorem hF0 (c : Dev nD) (w : Fin cfg0.W) : (pdats m 0 c).arrAt w cfg0.N = V6 m (outs m) c (Pipeline.arrRef spec0 w) := by
  fin_cases w
  · exact ((dat0 (fun c b => V5 m c b) c).arrAt_in 0 rfl _).trans ((A_eq0 (fun c b => V5 m c b) c 0).trans (V6_of m (outs m) c main_v56 (by decide)).symm)
  · exact ((dat0 (fun c b => V5 m c b) c).arrAt_in 1 rfl _).trans ((A_eq0 (fun c b => V5 m c b) c 1).trans (V6_of m (outs m) c main_arg1 (by decide)).symm)
  · exact ((dat0 (fun c b => V5 m c b) c).arrAt_in 2 rfl _).trans ((A_eq0 (fun c b => V5 m c b) c 2).trans (V6_of m (outs m) c main_v66 (by decide)).symm)
  · exact ((dat0 (fun c b => V5 m c b) c).arrAt_in 3 rfl _).trans ((A_eq0 (fun c b => V5 m c b) c 3).trans (V6_of m (outs m) c main_v59 (by decide)).symm)
  · exact ((dat0 (fun c b => V5 m c b) c).arrAt_in 4 rfl _).trans ((A_eq0 (fun c b => V5 m c b) c 4).trans (V6_of m (outs m) c main_v67 (by decide)).symm)
  · exact ((dat0 (fun c b => V5 m c b) c).arrAt_in 5 rfl _).trans ((A_eq0 (fun c b => V5 m c b) c 5).trans (V6_of m (outs m) c main_v62 (by decide)).symm)
  · exact ((dat0 (fun c b => V5 m c b) c).arrAt_in 6 rfl _).trans ((A_eq0 (fun c b => V5 m c b) c 6).trans (V6_of m (outs m) c main_v68 (by decide)).symm)
  · exact ((dat0 (fun c b => V5 m c b) c).arrAt_in 7 rfl _).trans ((A_eq0 (fun c b => V5 m c b) c 7).trans (V6_of m (outs m) c main_v65 (by decide)).symm)
  · exact ((dat0 (fun c b => V5 m c b) c).arrAt_in 8 rfl _).trans ((A_eq0 (fun c b => V5 m c b) c 8).trans (V6_of m (outs m) c main_v69 (by decide)).symm)
  · show _ = Function.update (V5 m c) (Proc.devRef .tc main_v70) (outs m 6 main_v70 c) (Proc.devRef .tc main_v70)
    rw [Function.update_self]
    show _ = Function.update (V0 m c) (Proc.devRef .tc main_v70) (o0 m c) (Proc.devRef .tc main_v70)
    rw [Function.update_self]
    rfl
theorem hrest0 (c : Dev nD) : ∀ b, b ∉ Finset.univ.image (Pipeline.arrRef spec0) → V6 m (outs m) c b = V5 m c b :=
  fun b hb => V6_of m (outs m) c b (by
    intro h; rw [List.mem_singleton] at h; subst h
    exact hb (Finset.mem_image.mpr ⟨9, Finset.mem_univ _, rfl⟩))

set_option backward.isDefEq.respectTransparency.types false in
/-- Region 0 over the thread state: entered from every unscoped buffer at the boundary before it, left at the
    boundary after it; its arrays split out of the unscoped buffers and put back; the generator register into the
    invariant and out; nothing owed; no semaphore of the kernel's own. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (fun c b => V5 m c b) c).loose
  hwaits := Pipeline.hwaits_of_owed_zero _ _ _ _ Lz lvz 0 fun _ _ => rfl
  pre c := iprop(StableHlo.held (c : Thread nD τ) (Pipeline.ucRefs τ sig) (V5 m c) ∗ Rst c)
  post c := iprop(StableHlo.held (c : Thread nD τ) (Pipeline.ucRefs τ sig) (V6 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (fun b => V5 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V5 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V5 m c b) (fun b => V6 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 2000000 in
/-- What region 1 leaves in each of its arrays is the next boundary's contents there: an input array is
    still what the region found, the output array is the fold of its write-backs. -/
theorem hF1 (c : Dev nD) (w : Fin cfg1.W) : (pdats m 1 c).arrAt w cfg1.N = V8 m (outs m) c (Pipeline.arrRef spec1 w) := by
  fin_cases w
  · exact ((dat1 (fun c b => V7 m (outs1 m) c b) c).arrAt_in 0 rfl _).trans ((A_eq1 (fun c b => V7 m (outs1 m) c b) c 0).trans (V8_of m (outs m) c main_v70 (by decide)).symm)
  · exact ((dat1 (fun c b => V7 m (outs1 m) c b) c).arrAt_in 1 rfl _).trans ((A_eq1 (fun c b => V7 m (outs1 m) c b) c 1).trans (V8_of m (outs m) c main_v77 (by decide)).symm)
  · exact ((dat1 (fun c b => V7 m (outs1 m) c b) c).arrAt_in 2 rfl _).trans ((A_eq1 (fun c b => V7 m (outs1 m) c b) c 2).trans (V8_of m (outs m) c main_v81 (by decide)).symm)
  · exact ((dat1 (fun c b => V7 m (outs1 m) c b) c).arrAt_in 3 rfl _).trans ((A_eq1 (fun c b => V7 m (outs1 m) c b) c 3).trans (V8_of m (outs m) c main_v80 (by decide)).symm)
  · exact ((dat1 (fun c b => V7 m (outs1 m) c b) c).arrAt_in 4 rfl _).trans ((A_eq1 (fun c b => V7 m (outs1 m) c b) c 4).trans (V8_of m (outs m) c main_v82 (by decide)).symm)
  · exact ((dat1 (fun c b => V7 m (outs1 m) c b) c).arrAt_in 5 rfl _).trans ((A_eq1 (fun c b => V7 m (outs1 m) c b) c 5).trans (V8_of m (outs m) c main_v74 (by decide)).symm)
  · exact ((dat1 (fun c b => V7 m (outs1 m) c b) c).arrAt_in 6 rfl _).trans ((A_eq1 (fun c b => V7 m (outs1 m) c b) c 6).trans (V8_of m (outs m) c main_v83 (by decide)).symm)
  · exact ((dat1 (fun c b => V7 m (outs1 m) c b) c).arrAt_in 7 rfl _).trans ((A_eq1 (fun c b => V7 m (outs1 m) c b) c 7).trans (V8_of m (outs m) c main_arg15 (by decide)).symm)
  · exact ((dat1 (fun c b => V7 m (outs1 m) c b) c).arrAt_in 8 rfl _).trans ((A_eq1 (fun c b => V7 m (outs1 m) c b) c 8).trans (V8_of m (outs m) c main_v84 (by decide)).symm)
  · exact ((dat1 (fun c b => V7 m (outs1 m) c b) c).arrAt_in 9 rfl _).trans ((A_eq1 (fun c b => V7 m (outs1 m) c b) c 9).trans (V8_of m (outs m) c main_arg17 (by decide)).symm)
  · exact ((dat1 (fun c b => V7 m (outs1 m) c b) c).arrAt_in 10 rfl _).trans ((A_eq1 (fun c b => V7 m (outs1 m) c b) c 10).trans (V8_of m (outs m) c main_v85 (by decide)).symm)
  · exact ((dat1 (fun c b => V7 m (outs1 m) c b) c).arrAt_in 11 rfl _).trans ((A_eq1 (fun c b => V7 m (outs1 m) c b) c 11).trans (V8_of m (outs m) c main_arg19 (by decide)).symm)
  · exact ((dat1 (fun c b => V7 m (outs1 m) c b) c).arrAt_in 12 rfl _).trans ((A_eq1 (fun c b => V7 m (outs1 m) c b) c 12).trans (V8_of m (outs m) c main_v86 (by decide)).symm)
  · show _ = Function.update (V7 m (outs m) c) (Proc.devRef .tc main_v87) (outs m 8 main_v87 c) (Proc.devRef .tc main_v87)
    rw [Function.update_self]
    show _ = Function.update (V0 m c) (Proc.devRef .tc main_v87) (o1 m c) (Proc.devRef .tc main_v87)
    rw [Function.update_self]
    rfl
theorem hrest1 (c : Dev nD) : ∀ b, b ∉ Finset.univ.image (Pipeline.arrRef spec1) → V8 m (outs m) c b = V7 m (outs m) c b :=
  fun b hb => V8_of m (outs m) c b (by
    intro h; rw [List.mem_singleton] at h; subst h
    exact hb (Finset.mem_image.mpr ⟨13, Finset.mem_univ _, rfl⟩))

set_option backward.isDefEq.respectTransparency.types false in
/-- Region 1 over the thread state: entered from every unscoped buffer at the boundary before it, left at the
    boundary after it; its arrays split out of the unscoped buffers and put back; the generator register into the
    invariant and out; nothing owed; no semaphore of the kernel's own. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (fun c b => V7 m (outs m) c b) c).loose
  hwaits := Pipeline.hwaits_of_owed_zero _ _ _ _ Lz lvz 1 fun _ _ => rfl
  pre c := iprop(StableHlo.held (c : Thread nD τ) (Pipeline.ucRefs τ sig) (V7 m (outs m) c) ∗ Rst c)
  post c := iprop(StableHlo.held (c : Thread nD τ) (Pipeline.ucRefs τ sig) (V8 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (fun b => V7 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V7 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V7 m (outs m) c b) (fun b => V8 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the launch a core's generator register and its dues (none) are what rides beside the buffers. -/
theorem rst_of_launch1 (ρ : Dev nD → PrngReg) (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)) : sProp 𝕄)
      ⊢ Rst (F := F) c := by
  iintro ⟨-, HO, -, Hp, -⟩
  isplitl [Hp]; · iexists _; iexact Hp
  iexists ∅; iexact HO
theorem rst_of_launch (ρ : Dev nD → PrngReg) :
    ((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) : sProp 𝕄)
      ⊢ bigSep Finset.univ (fun c : Dev nD => Rst (F := F) c) :=
  bigSep_mono fun c _ => rst_of_launch1 (F := F) ρ c

set_option backward.isDefEq.respectTransparency.types false in
/-- THE FRAME: every weakly fair execution terminates, nothing faults, and every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_cond (F := F) m emb₁ () Variants.none Lz lvz (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rst c)
    (by
      iintro ⟨H, -⟩
      imodintro
      iapply (rst_of_launch (F := F) ρ)
      iexact H)
    (fun c => by iintro ⟨-, H⟩; iexact H)
    (reg0 m) (fun _ => .rfl) (fun _ => .rfl) (reg1 m) (fun _ => .rfl) (fun _ => .rfl)

set_option backward.isDefEq.respectTransparency.types false in
/-- THE RUN WITH ITS RESULT: every weakly fair execution terminates, nothing faults, the result array ends at what the
    last region leaves in it and every argument array as launched. -/
theorem run_full (ρ : Dev nD → PrngReg) :
    θ_run defs (onTc (τ := τ) (main (F := F))) ⟨m, fun _ => 0, ρ⟩ (fun r => ∀ c : Dev nD,
      r.2.mem ((c.tc : Thread nD τ).loc main_v87) = V8 m (outs m) c main_v87
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  run_cond_full (F := F) m emb₁ () Variants.none Lz lvz (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rst c)
    (by
      iintro ⟨H, -⟩
      imodintro
      iapply (rst_of_launch (F := F) ρ)
      iexact H)
    (fun c => by iintro ⟨-, H⟩; iexact H)
    (reg0 m) (fun _ => .rfl) (fun _ => .rfl) (reg1 m) (fun _ => .rfl) (fun _ => .rfl)

end Cert.KernelIdeal.Hand

end
-- ==== Proof.ReferenceIdealRunVals.lean ====
/-
  The whole run of the program with the values its buffers end at. The conditional frame of the host side
  concludes only that the argument arrays end as launched; the same argument — @main as its list of segments,
  the launch, the chaining of the thread states, the last thread state read against the final memory — gives
  more, because the last thread state holds EVERY unscoped buffer of a core at the last valuation. Here the
  post is that reading at every unscoped reference; the result array at the last valuation and the arguments
  as launched are then instances of it.
-/
import proofs.«147627_g2000402439390779_pallasbulk_891_17_alg».proof.Proof.Gen.ReferenceIdeal.Regions

-- memberships decided over the program's references recurse past the default depth
set_option maxRecDepth 16384

noncomputable section

namespace Cert.ReferenceIdeal.Hand

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Cert.ReferenceIdeal.Facts]

variable (m : (ℓ : Loc nD τ sig) → Buf (Elt F) ℓ)

/-! ## The run, every unscoped buffer read at the end -/

-- the launch theorem's implicit arguments are found by unifying its conclusion with this one, which unfolds
-- plain definitions in a metavariable's type
set_option backward.isDefEq.respectTransparency.types false in
/-- THE RUN WITH ITS VALUES. Under the hypotheses of the conditional frame — per region a segment record entered
    from the thread state before it and left at the one after it, rest states the launch makes and that end
    owing nothing — every weakly fair execution of @main from memory `m` with zero counters terminates, and in
    every final memory each core's every unscoped buffer holds the last valuation `V20 m outs c`. -/
theorem run_cond
    {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 5) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 6 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE5 : ∀ c : Dev nD, E 5 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V9 m outs c) ∗ E 1 c) ⊢ R1.pre c)
    (hpost1 : ∀ c : Dev nD, R1.post c ⊢ iprop(StableHlo.held (c : Thread nD τ) (Pipeline.ucRefs τ sig) (V10 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V13 m outs c) ∗ E 2 c) ⊢ R2.pre c)
    (hpost2 : ∀ c : Dev nD, R2.post c ⊢ iprop(StableHlo.held (c : Thread nD τ) (Pipeline.ucRefs τ sig) (V14 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V17 m outs c) ∗ E 3 c) ⊢ R3.pre c)
    (hpost3 : ∀ c : Dev nD, R3.post c ⊢ iprop(StableHlo.held (c : Thread nD τ) (Pipeline.ucRefs τ sig) (V18 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V19 m outs c) ∗ E 4 c) ⊢ R4.pre c)
    (hpost4 : ∀ c : Dev nD, R4.post c ⊢ iprop(StableHlo.held (c : Thread nD τ) (Pipeline.ucRefs τ sig) (V20 m outs c) ∗ E 5 c))
    : θ_run defs (onTc (τ := τ) (main (F := F))) ⟨m, fun _ => 0, ρ⟩ (fun r => ∀ c : Dev nD,
      ∀ b ∈ Pipeline.ucRefs τ sig, r.2.mem (((c.tc : Thread nD τ)).1, b) = V20 m outs c b) := by
  -- the side conditions are propositions: any witness of them is the one the generated lemmas are stated at
  obtain rfl : ‹Cert.ReferenceIdeal.Facts› = Cert.ReferenceIdeal.Gen.facts := rfl
  -- the last thread state of a core is all its unscoped buffers at the last valuation; what is read off it is
  -- the memory at each of them, and the post is that reading itself
  refine Pipeline.θ_run_regions_kit_dev (pcfgs (F := F)) adm pdats ι cellOf_inj EP defs₀ 𝒱₀ L lv m ρ main
    (segs m outs 𝒱₀ L lv E ι pdats R0 R1 R2 R3 R4)
    (fun c Q => ?_)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V20 m outs c))
    (hch := fun c => ⟨.rfl, .rfl, .rfl, .rfl, .rfl, hpre0 c, hpost0 c, .rfl, .rfl, hpre1 c, hpost1 c, .rfl, .rfl, hpre2 c, hpost2 c, .rfl, .rfl, hpre3 c, hpost3 c, hpre4 c, (hpost4 c).trans (sep_mono .rfl (hE5 c))⟩)
    (hinit := ?_)
    (QY := fun c s => ∀ b ∈ Pipeline.ucRefs τ sig, s.mem (((c.tc : Thread nD τ)).1, b) = V20 m outs c b)
    (hfin := fun c s' => ?_) (hQ := fun _ h => h)
  · -- @main is the chain of its items' programs, which is the segments' programs one after the other
    rewrite [main_chain c, Seg.run_eq_chain,
      show (segs m outs 𝒱₀ L lv E ι pdats R0 R1 R2 R3 R4 c).map Seg.prog = [
        StableHlo.seq hostOps0,
        StableHlo.seq hostOps0_1,
        StableHlo.seq hostOps0_2,
        StableHlo.seq hostOps0_3,
        StableHlo.seq hostOps0_4,
        Prog.lift (.customCall (Pipeline.entry 0) ()),
        StableHlo.seq hostOps1,
        StableHlo.seq hostOps1_1,
        StableHlo.seq hostOps1_2,
        Prog.lift (.customCall (Pipeline.entry 1) ()),
        StableHlo.seq hostOps2,
        StableHlo.seq hostOps2_1,
        StableHlo.seq hostOps2_2,
        Prog.lift (.customCall (Pipeline.entry 2) ()),
        StableHlo.seq hostOps3,
        StableHlo.seq hostOps3_1,
        StableHlo.seq hostOps3_2,
        Prog.lift (.customCall (Pipeline.entry 3) ()),
        StableHlo.seq hostOps4,
        Prog.lift (.customCall (Pipeline.entry 4) ()) ] from rfl]
    exact .rfl
  · -- the launch: what it deals per core splits into the unscoped buffers, which are the held set at the launch
    -- contents, and the remainder, from which the first rest state is made on every core at once
    have hbufs : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      refine bigSep_mono fun c _ => ?_
      rw [← Pipeline.unscopedBufs_held (Ix := Ix) (Name := ℕ) (U := U) (Lvl := Lvl) c (V0 m c)]
      exact BI.Entails.refl _
    iintro ⟨Hall, Hlev⟩
    ihave Hs := hbufs $$ Hall
    icases Hs with ⟨Hheld, Hrest⟩
    imod hE0 $$ [Hrest Hlev] with HE
    · isplitl [Hrest]; · iexact Hrest
      iexact Hlev
    imodintro
    rw [bigSep_sep']
    isplitl [Hheld]; · iexact Hheld
    iexact HE
  · -- the end: the held set is one points-to per unscoped reference, each read against the final state
    unfold StableHlo.held
    iintro ⟨Hheld, Hst⟩
    imodintro
    iapply (pointsTo_read_all (Pipeline.ucRefs τ sig) (fun b => (((c.tc : Thread nD τ)).1, b)) (V20 m outs c) s')
    isplitl [Hheld] <;> iassumption

/-! ## The result and the arguments, read off that post -/

/-- A TensorCore reference that is not scoped is among the unscoped references. -/
theorem mem_ucRefs (r : Ref sig .tc) (h : ¬ (Proc.devRef (τ := τ) .tc r).isScoped) : Proc.devRef (τ := τ) .tc r ∈ Pipeline.ucRefs τ sig :=
  Finset.mem_filter.mpr ⟨StableHlo.devRef_mem_tcRefs r, h⟩

/-- The result array `main_v73` is an unscoped buffer: a memory that holds every unscoped buffer at the last
    valuation holds the result at it. -/
theorem result_of_run (outs : Outs (F := F)) (s : MemSt nD τ sig (Elt F))
    (h : ∀ c : Dev nD, ∀ b ∈ Pipeline.ucRefs τ sig, s.mem (((c.tc : Thread nD τ)).1, b) = V20 m outs c b) (c : Dev nD) :
    s.mem ((c.tc : Thread nD τ).loc main_v73) = V20 m outs c main_v73 := by
  -- the side conditions are propositions: any witness of them is the one the generated lemmas are stated at
  obtain rfl : ‹Cert.ReferenceIdeal.Facts› = Cert.ReferenceIdeal.Gen.facts := rfl
  exact h c (Proc.devRef .tc main_v73) (mem_ucRefs main_v73 (by decide))

/-- The same memory holds each argument array as launched: an argument is an unscoped buffer, and the last
    valuation is the launch contents there (no host stretch writes it, no region may change it). -/
theorem args_of_run (outs : Outs (F := F)) (s : MemSt nD τ sig (Elt F))
    (h : ∀ c : Dev nD, ∀ b ∈ Pipeline.ucRefs τ sig, s.mem (((c.tc : Thread nD τ)).1, b) = V20 m outs c b) (c : Dev nD) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11)
    ∧ s.mem ((c.tc : Thread nD τ).loc main_arg12) = m ((c.tc : Thread nD τ).loc main_arg12)
    ∧ s.mem ((c.tc : Thread nD τ).loc main_arg13) = m ((c.tc : Thread nD τ).loc main_arg13)
    ∧ s.mem ((c.tc : Thread nD τ).loc main_arg14) = m ((c.tc : Thread nD τ).loc main_arg14)
    ∧ s.mem ((c.tc : Thread nD τ).loc main_arg15) = m ((c.tc : Thread nD τ).loc main_arg15)
    ∧ s.mem ((c.tc : Thread nD τ).loc main_arg16) = m ((c.tc : Thread nD τ).loc main_arg16)
    ∧ s.mem ((c.tc : Thread nD τ).loc main_arg17) = m ((c.tc : Thread nD τ).loc main_arg17)
    ∧ s.mem ((c.tc : Thread nD τ).loc main_arg18) = m ((c.tc : Thread nD τ).loc main_arg18)
    ∧ s.mem ((c.tc : Thread nD τ).loc main_arg19) = m ((c.tc : Thread nD τ).loc main_arg19)
    ∧ s.mem ((c.tc : Thread nD τ).loc main_arg20) = m ((c.tc : Thread nD τ).loc main_arg20) := by
  -- the side conditions are propositions: any witness of them is the one the generated lemmas are stated at
  obtain rfl : ‹Cert.ReferenceIdeal.Facts› = Cert.ReferenceIdeal.Gen.facts := rfl
  exact ⟨(h c (Proc.devRef .tc main_arg0) (mem_ucRefs main_arg0 (by decide))).trans (V20_main_arg0 m outs c),
    (h c (Proc.devRef .tc main_arg1) (mem_ucRefs main_arg1 (by decide))).trans (V20_main_arg1 m outs c),
    (h c (Proc.devRef .tc main_arg2) (mem_ucRefs main_arg2 (by decide))).trans (V20_main_arg2 m outs c),
    (h c (Proc.devRef .tc main_arg3) (mem_ucRefs main_arg3 (by decide))).trans (V20_main_arg3 m outs c),
    (h c (Proc.devRef .tc main_arg4) (mem_ucRefs main_arg4 (by decide))).trans (V20_main_arg4 m outs c),
    (h c (Proc.devRef .tc main_arg5) (mem_ucRefs main_arg5 (by decide))).trans (V20_main_arg5 m outs c),
    (h c (Proc.devRef .tc main_arg6) (mem_ucRefs main_arg6 (by decide))).trans (V20_main_arg6 m outs c),
    (h c (Proc.devRef .tc main_arg7) (mem_ucRefs main_arg7 (by decide))).trans (V20_main_arg7 m outs c),
    (h c (Proc.devRef .tc main_arg8) (mem_ucRefs main_arg8 (by decide))).trans (V20_main_arg8 m outs c),
    (h c (Proc.devRef .tc main_arg9) (mem_ucRefs main_arg9 (by decide))).trans (V20_main_arg9 m outs c),
    (h c (Proc.devRef .tc main_arg10) (mem_ucRefs main_arg10 (by decide))).trans (V20_main_arg10 m outs c),
    (h c (Proc.devRef .tc main_arg11) (mem_ucRefs main_arg11 (by decide))).trans (V20_main_arg11 m outs c),
    (h c (Proc.devRef .tc main_arg12) (mem_ucRefs main_arg12 (by decide))).trans (V20_main_arg12 m outs c),
    (h c (Proc.devRef .tc main_arg13) (mem_ucRefs main_arg13 (by decide))).trans (V20_main_arg13 m outs c),
    (h c (Proc.devRef .tc main_arg14) (mem_ucRefs main_arg14 (by decide))).trans (V20_main_arg14 m outs c),
    (h c (Proc.devRef .tc main_arg15) (mem_ucRefs main_arg15 (by decide))).trans (V20_main_arg15 m outs c),
    (h c (Proc.devRef .tc main_arg16) (mem_ucRefs main_arg16 (by decide))).trans (V20_main_arg16 m outs c),
    (h c (Proc.devRef .tc main_arg17) (mem_ucRefs main_arg17 (by decide))).trans (V20_main_arg17 m outs c),
    (h c (Proc.devRef .tc main_arg18) (mem_ucRefs main_arg18 (by decide))).trans (V20_main_arg18 m outs c),
    (h c (Proc.devRef .tc main_arg19) (mem_ucRefs main_arg19 (by decide))).trans (V20_main_arg19 m outs c),
    (h c (Proc.devRef .tc main_arg20) (mem_ucRefs main_arg20 (by decide))).trans (V20_main_arg20 m outs c)⟩

/-- A run's post weakened: a specification is monotone in its post, so what it gives of `Q` it gives of any `Q'`
    that `Q` implies. -/
theorem run_weaken {α : Type} (w : WPT α) {Q Q' : α → Prop} (h : ∀ a, Q a → Q' a) : w Q → w Q' :=
  OrdCont.mono w h

/-- THE RUN, RESULT AND ARGUMENTS: under the same hypotheses every weakly fair execution of @main terminates and
    every final memory holds, on every core, the result array `main_v73` at the last valuation and every argument
    array as launched — the run's post weakened to these references. -/
theorem run_cond_full
    {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 5) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 6 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE5 : ∀ c : Dev nD, E 5 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V9 m outs c) ∗ E 1 c) ⊢ R1.pre c)
    (hpost1 : ∀ c : Dev nD, R1.post c ⊢ iprop(StableHlo.held (c : Thread nD τ) (Pipeline.ucRefs τ sig) (V10 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V13 m outs c) ∗ E 2 c) ⊢ R2.pre c)
    (hpost2 : ∀ c : Dev nD, R2.post c ⊢ iprop(StableHlo.held (c : Thread nD τ) (Pipeline.ucRefs τ sig) (V14 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V17 m outs c) ∗ E 3 c) ⊢ R3.pre c)
    (hpost3 : ∀ c : Dev nD, R3.post c ⊢ iprop(StableHlo.held (c : Thread nD τ) (Pipeline.ucRefs τ sig) (V18 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V19 m outs c) ∗ E 4 c) ⊢ R4.pre c)
    (hpost4 : ∀ c : Dev nD, R4.post c ⊢ iprop(StableHlo.held (c : Thread nD τ) (Pipeline.ucRefs τ sig) (V20 m outs c) ∗ E 5 c))
    : θ_run defs (onTc (τ := τ) (main (F := F))) ⟨m, fun _ => 0, ρ⟩ (fun r => ∀ c : Dev nD,
      r.2.mem ((c.tc : Thread nD τ).loc main_v73) = V20 m outs c main_v73
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) := by
  -- the side conditions are propositions: any witness of them is the one the generated lemmas are stated at
  obtain rfl : ‹Cert.ReferenceIdeal.Facts› = Cert.ReferenceIdeal.Gen.facts := rfl
  exact run_weaken _ (fun r h c => ⟨result_of_run m outs r.2 h c, args_of_run m outs r.2 h c⟩)
    (run_cond m EP ι 𝒱₀ L lv hL ρ outs pdats O₀ G u₀ hu₀ E hE0 hE5 R0 hpre0 hpost0 R1 hpre1 hpost1 R2 hpre2 hpost2 R3 hpre3 hpost3 R4 hpre4 hpost4)

end Cert.ReferenceIdeal.Hand

end
-- ==== Proof.RefPairRegion0.lean ====
/-
  The reference's region 0: the first pair of convolutions (the 32-tap one as a 1x1 convolution, then a 5x5 one): each convolution ONE matrix product over all 25 taps and the input channels of a patch matrix
  built in scratch, then bias and rectifier, the second one followed by a width-4 max pool; whole-array windows, one grid
  point, three scratch buffers (the two patch matrices and the zero-padded intermediate activation).
  Here: the kernel body run once by the symbolic executor from its input blocks' raw contents (the output blocks and the scratch buffers
  at anything), its witness (the raw contents each output block holds afterwards, as a function of the inputs'), the
  region's proof data at a parameter `V` (the buffers' contents when the region is entered) and the body obligation
  at the region's one grid point.  A staging buffer is a whole memref, so what it reads and its raw contents
  determine each other.
-/
import proofs.«147627_g2000402439390779_pallasbulk_891_17_alg».proof.Proof.Gen.ReferenceIdeal.Launch
import proofs.«147627_g2000402439390779_pallasbulk_891_17_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Cert.ReferenceIdeal.Facts]

local notation "𝕄" => MT nD τ sig Unit (Elt F) ℕ (UR sig nD τ) ℕ

/-- A memref's raw contents on core `c`, and the memref held at them. -/
abbrev Bf0 (c : Dev nD) {sp : Space} {S : Shape} {e : EltTy} (M : Memref sig .tc sp S e) : Type := M.view.ty.Contents (Elt F)
abbrev pt0 (c : Dev nD) {sp : Space} {S : Shape} {e : EltTy} (M : Memref sig .tc sp S e) (f : Bf0 (F := F) c M) : sProp 𝕄 :=
  M.view.loc (c : Thread nD τ) ↦[M.view.set]{fullShare} f

/-- A whole memref read at `X` is held at the raw contents that read `X`, and conversely; held at raw contents
    `f` it reads what `f` reads. -/
theorem owns_to_pt0 (c : Dev nD) {sp : Space} {S : Shape} {e : EltTy} (M : Memref sig .tc sp S e) (h : M.IsWhole) (X : S.Idx → Elt F e) :
    (owns (c : Thread nD τ) M fullShare X : sProp 𝕄) ⊢ pt0 c M (h.unread X) := by
  unfold owns; iintro ⟨%f, %hf, H⟩; obtain rfl := h.eq_unread hf; iexact H
theorem pt_to_owns0 (c : Dev nD) {sp : Space} {S : Shape} {e : EltTy} (M : Memref sig .tc sp S e) (h : M.IsWhole) (X : S.Idx → Elt F e) :
    (pt0 c M (h.unread X) : sProp 𝕄) ⊢ owns (c : Thread nD τ) M fullShare X := by
  unfold owns; iintro H; iexists _; isplitr; · ipureintro; exact h.read_unread X
  iexact H
theorem pt_to_owns_read0 (c : Dev nD) {sp : Space} {S : Shape} {e : EltTy} (M : Memref sig .tc sp S e) (f : Bf0 (F := F) c M) :
    (pt0 c M f : sProp 𝕄) ⊢ owns (c : Thread nD τ) M fullShare (M.view.read (Elt F) f) := by
  unfold owns; iintro H; iexists f; isplitr; · ipureintro; rfl
  iexact H
theorem owns_to_ex0 (c : Dev nD) {sp : Space} {S : Shape} {e : EltTy} (M : Memref sig .tc sp S e) (X : S.Idx → Elt F e) :
    (owns (c : Thread nD τ) M fullShare X : sProp 𝕄) ⊢ iprop(∃ f, pt0 c M f) := by
  unfold owns; iintro ⟨%f, -, H⟩; iexists f; iexact H

/-- A scoped scratch buffer held whole at something, as the scoped rest keeps it and as the body takes it. -/
theorem scratch_in0 (c : Dev nD) (b : Ref sig .tc) :
    (iprop(∃ f : Buf (Elt F) ((c : Thread nD τ).loc b), ((c : Thread nD τ).loc b) ↦{fullShare} f) : sProp 𝕄)
      ⊢ iprop(∃ d, owns (c : Thread nD τ) (Memref.whole b) fullShare d) := by
  simp only [owns_whole_eq]
  iintro ⟨%f, H⟩; iexists f, f; isplitr; · ipureintro; rfl
  iexact H
theorem scratch_out0 (c : Dev nD) (b : Ref sig .tc) :
    (iprop(∃ d, owns (c : Thread nD τ) (Memref.whole b) fullShare d) : sProp 𝕄)
      ⊢ iprop(∃ f : Buf (Elt F) ((c : Thread nD τ).loc b), ((c : Thread nD τ).loc b) ↦{fullShare} f) := by
  simp only [owns_whole_eq]
  iintro ⟨%d, %f, -, H⟩; iexists f; iexact H

/-- The scoped rest with this kernel's scratch buffers taken out, each whole at some contents; the remainder unopened. -/
theorem scratch_split0 (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))
          ∗ Pipeline.scopedRestBut (Ix := Unit) (Name := ℕ) (U := UR sig nD τ) (Lvl := ℕ) (Val := Elt F) spec0 c [cc0_scratch0, cc0_scratch1, cc0_scratch2]) :=
  Pipeline.scopedRest_split_of_list spec0 c [cc0_scratch0, cc0_scratch1, cc0_scratch2] (by decide) (by decide)

set_option maxHeartbeats 8000000 in
/-- The body from its input blocks: it runs to its return, hands the inputs back unchanged and leaves each
    output block at the witness; the scratch buffers end at something. -/
noncomputable def run0 (c : Dev nD) (i : grid0.Coords) (M0 : Memref sig .tc .vmem S8x16x64x32 .bf16) (h0 : M0.IsWhole) (M1 : Memref sig .tc .vmem S32x64 .bf16) (h1 : M1.IsWhole) (M2 : Memref sig .tc .vmem S1x64 .f32) (h2 : M2.IsWhole) (M3 : Memref sig .tc .vmem S1600x64 .bf16) (h3 : M3.IsWhole) (M4 : Memref sig .tc .vmem S1x64 .f32) (h4 : M4.IsWhole) (M5 : Memref sig .tc .vmem S8x16x16x64 .bf16) (h5 : M5.IsWhole) (C0 : Memref sig .tc .vmem S8192x32 .bf16) (g0 : C0.IsWhole) (C1 : Memref sig .tc .vmem S8x20x68x64 .bf16) (g1 : C1.IsWhole) (C2 : Memref sig .tc .vmem S8192x1600 .bf16) (g2 : C2.IsWhole)
    (f0 : Bf0 (F := F) c M0) (f1 : Bf0 (F := F) c M1) (f2 : Bf0 (F := F) c M2) (f3 : Bf0 (F := F) c M3) (f4 : Bf0 (F := F) c M4) :
    { W : Bf0 (F := F) c M5 // ∀ (E : Set ℕ) (K : PUnit → sProp 𝕄),
        iprop(pt0 c M0 f0
            ∗ pt0 c M1 f1
            ∗ pt0 c M2 f2
            ∗ pt0 c M3 f3
            ∗ pt0 c M4 f4
            ∗ (∃ f, pt0 c M5 f)
            ∗ (∃ d, owns (c : Thread nD τ) C0 fullShare d)
            ∗ (∃ d, owns (c : Thread nD τ) C1 fullShare d)
            ∗ (∃ d, owns (c : Thread nD τ) C2 fullShare d)
            ∗ (iprop(pt0 c M0 f0
                ∗ pt0 c M1 f1
                ∗ pt0 c M2 f2
                ∗ pt0 c M3 f3
                ∗ pt0 c M4 f4
                ∗ pt0 c M5 W
                ∗ (∃ d, owns (c : Thread nD τ) C0 fullShare d)
                ∗ (∃ d, owns (c : Thread nD τ) C1 fullShare d)
                ∗ (∃ d, owns (c : Thread nD τ) C2 fullShare d)) -∗ K ⟨⟩))
          ⊢ wp frame (wpE (defs₀ (F := F)) Variants.none c none) E (cc0__pair_kernel i M0 h0 M1 h1 M2 h2 M3 h3 M4 h4 M5 h5 C0 g0 C1 g1 C2 g2) K } := by
  refine ⟨?_, fun E K => ?run⟩
  case run =>
    unfold owns
    iintro ⟨H0, H1, H2, H3, H4, ⟨%f5, H5⟩, ⟨%e0, %q0, -, G0⟩, ⟨%e1, %q1, -, G1⟩, ⟨%e2, %q2, -, G2⟩, Hk⟩
    sl_exec!
    sl_step
    iapply Hk
    isplitl [H0]; · (iexact H0)
    isplitl [H1]; · (iexact H1)
    isplitl [H2]; · (iexact H2)
    isplitl [H3]; · (iexact H3)
    isplitl [H4]; · (iexact H4)
    isplitl [H5]; · (iexact H5)
    isplitl [G0]; · (iexists _, _; isplitr; swap; (· iexact G0); ipureintro; rfl)
    isplitl [G1]; · (iexists _, _; isplitr; swap; (· iexact G1); ipureintro; rfl)
    iexists _, _; isplitr; swap; (· iexact G2); ipureintro; rfl

-- the witness is never opened below: only its existence and the triple are used
attribute [irreducible] run0

variable (V : (c : Dev nD) → (b : Ref sig .tc) → Buf (Elt F) ((c : Thread nD τ).loc b))

/-- Window `w`'s block at the one grid point, read off its array as the region finds it. -/
abbrev blk0_0 (c : Dev nD) : (cfg0.win 0).block.Idx → Elt F (cfg0.win 0).elt :=
  ((cfg0.win 0).blk t0_0).view.read (Elt F) (V c (Pipeline.arrRef spec0 0))
abbrev blk0_1 (c : Dev nD) : (cfg0.win 1).block.Idx → Elt F (cfg0.win 1).elt :=
  ((cfg0.win 1).blk t0_0).view.read (Elt F) (V c (Pipeline.arrRef spec0 1))
abbrev blk0_2 (c : Dev nD) : (cfg0.win 2).block.Idx → Elt F (cfg0.win 2).elt :=
  ((cfg0.win 2).blk t0_0).view.read (Elt F) (V c (Pipeline.arrRef spec0 2))
abbrev blk0_3 (c : Dev nD) : (cfg0.win 3).block.Idx → Elt F (cfg0.win 3).elt :=
  ((cfg0.win 3).blk t0_0).view.read (Elt F) (V c (Pipeline.arrRef spec0 3))
abbrev blk0_4 (c : Dev nD) : (cfg0.win 4).block.Idx → Elt F (cfg0.win 4).elt :=
  ((cfg0.win 4).blk t0_0).view.read (Elt F) (V c (Pipeline.arrRef spec0 4))

/-- The run at the staged blocks (each input's raw contents the ones that read its block). -/
abbrev K0 (c : Dev nD) := run0 (F := F) c (grid0.coords t0_0) (win0_0.stage (cfg0.slots t0_0 0)) (hstage0_0 ((cfg0.slots t0_0 0).cast nbuf0_0)) (win0_1.stage (cfg0.slots t0_0 1)) (hstage0_1 ((cfg0.slots t0_0 1).cast nbuf0_1)) (win0_2.stage (cfg0.slots t0_0 2)) (hstage0_2 ((cfg0.slots t0_0 2).cast nbuf0_2)) (win0_3.stage (cfg0.slots t0_0 3)) (hstage0_3 ((cfg0.slots t0_0 3).cast nbuf0_3)) (win0_4.stage (cfg0.slots t0_0 4)) (hstage0_4 ((cfg0.slots t0_0 4).cast nbuf0_4)) (win0_5.stage (cfg0.slots t0_0 5)) (hstage0_5 ((cfg0.slots t0_0 5).cast nbuf0_5)) (Memref.whole cc0_scratch0) (Memref.isWhole_whole _) (Memref.whole cc0_scratch1) (Memref.isWhole_whole _) (Memref.whole cc0_scratch2) (Memref.isWhole_whole _)
  ((hstage0_0 ((cfg0.slots t0_0 0).cast nbuf0_0)).unread (blk0_0 V c)) ((hstage0_1 ((cfg0.slots t0_0 1).cast nbuf0_1)).unread (blk0_1 V c)) ((hstage0_2 ((cfg0.slots t0_0 2).cast nbuf0_2)).unread (blk0_2 V c)) ((hstage0_3 ((cfg0.slots t0_0 3).cast nbuf0_3)).unread (blk0_3 V c)) ((hstage0_4 ((cfg0.slots t0_0 4).cast nbuf0_4)).unread (blk0_4 V c))

/-- The region's proof data: the arrays as found; after the body every input block as fetched and every
    output block at what the run's witness reads; the invariant the scoped buffers and the generator register;
    nothing owed; full shares. -/
def dat0 (c : Dev nD) : Dat τ (Elt F) Unit ℕ (UR sig nD τ) ℕ cfg0 c where
  A w := V c (Pipeline.arrRef spec0 w)
  after w _ := match w with
    | ⟨0, _⟩ => blk0_0 V c
    | ⟨1, _⟩ => blk0_1 V c
    | ⟨2, _⟩ => blk0_2 V c
    | ⟨3, _⟩ => blk0_3 V c
    | ⟨4, _⟩ => blk0_4 V c
    | ⟨5, _⟩ => (win0_5.stage (cfg0.slots t0_0 5)).view.read (Elt F) (K0 V c).1
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0_0 V c := rfl
theorem after0_1 (c : Dev nD) (t : Fin cfg0.N) : (dat0 V c).after 1 t = blk0_1 V c := rfl
theorem after0_2 (c : Dev nD) (t : Fin cfg0.N) : (dat0 V c).after 2 t = blk0_2 V c := rfl
theorem after0_3 (c : Dev nD) (t : Fin cfg0.N) : (dat0 V c).after 3 t = blk0_3 V c := rfl
theorem after0_4 (c : Dev nD) (t : Fin cfg0.N) : (dat0 V c).after 4 t = blk0_4 V c := rfl
theorem after0_5 (c : Dev nD) (t : Fin cfg0.N) : (dat0 V c).after 5 t = (win0_5.stage (cfg0.slots t0_0 5)).view.read (Elt F) (K0 V c).1 := rfl

theorem before0_0 (c : Dev nD) (d) : (dat0 V c).before 0 t0_0 d = blk0_0 V c := by
  unfold Dat.before; split
  · rfl
  · exact absurd (fetch0_0 t0_0) ‹_›
theorem before0_1 (c : Dev nD) (d) : (dat0 V c).before 1 t0_0 d = blk0_1 V c := by
  unfold Dat.before; split
  · rfl
  · exact absurd (fetch0_1 t0_0) ‹_›
theorem before0_2 (c : Dev nD) (d) : (dat0 V c).before 2 t0_0 d = blk0_2 V c := by
  unfold Dat.before; split
  · rfl
  · exact absurd (fetch0_2 t0_0) ‹_›
theorem before0_3 (c : Dev nD) (d) : (dat0 V c).before 3 t0_0 d = blk0_3 V c := by
  unfold Dat.before; split
  · rfl
  · exact absurd (fetch0_3 t0_0) ‹_›
theorem before0_4 (c : Dev nD) (d) : (dat0 V c).before 4 t0_0 d = blk0_4 V c := by
  unfold Dat.before; split
  · rfl
  · exact absurd (fetch0_4 t0_0) ‹_›

/-- What the body is called with at the point, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 4000000 in
/-- The body at the point: the staged blocks, the scratch buffers out of the scoped rest and the invariant taken apart, the run applied, its post
    put back together. -/
theorem sound_body0 (c : Dev nD) (t : Fin cfg0.N) :
    bodyPre0 V c t ⊢ wp frame (wpE (defs₀ (F := F)) Variants.none c none) Set.univ (bodyAt0 t) (fun _ => bodyPost0 V c t) := by
  obtain rfl := fin_N0 t
  unfold bodyPre0 bodyPost0 bodyAt0
  simp only [before0_0, before0_1, before0_2, before0_3, before0_4]
  rw [show (dat0 V c).Φ t0_0.succ = (dat0 V c).Φ t0_0.castSucc from rfl,
    show (dat0 V c).owesAt () t0_0.succ = (dat0 V c).owesAt () t0_0.castSucc from rfl,
    after0_0, after0_1, after0_2, after0_3, after0_4, after0_5]
  rw [show (dat0 V c).Φ t0_0.castSucc = Pipeline.ΦA spec0 c from rfl]; unfold Pipeline.ΦA
  rw [scratch_split0]
  iintro ⟨⟨⟨⟨G0, G1, G2⟩, Hrest⟩, Hp⟩, Ho, ⟨%d0, H0⟩, ⟨%d1, H1⟩, ⟨%d2, H2⟩, ⟨%d3, H3⟩, ⟨%d4, H4⟩, ⟨%d5, H5⟩⟩
  iapply ((K0 V c).2 Set.univ _)
  isplitl [H0]; · (iapply (owns_to_pt0 c _ (hstage0_0 ((cfg0.slots t0_0 0).cast nbuf0_0)) _); iexact H0)
  isplitl [H1]; · (iapply (owns_to_pt0 c _ (hstage0_1 ((cfg0.slots t0_0 1).cast nbuf0_1)) _); iexact H1)
  isplitl [H2]; · (iapply (owns_to_pt0 c _ (hstage0_2 ((cfg0.slots t0_0 2).cast nbuf0_2)) _); iexact H2)
  isplitl [H3]; · (iapply (owns_to_pt0 c _ (hstage0_3 ((cfg0.slots t0_0 3).cast nbuf0_3)) _); iexact H3)
  isplitl [H4]; · (iapply (owns_to_pt0 c _ (hstage0_4 ((cfg0.slots t0_0 4).cast nbuf0_4)) _); iexact H4)
  isplitl [H5]; · (iapply (owns_to_ex0 c _ _); iexact H5)
  isplitl [G0]; · (iapply (scratch_in0 c cc0_scratch0); iexact G0)
  isplitl [G1]; · (iapply (scratch_in0 c cc0_scratch1); iexact G1)
  isplitl [G2]; · (iapply (scratch_in0 c cc0_scratch2); iexact G2)
  iintro ⟨H0, H1, H2, H3, H4, H5, G0, G1, G2⟩
  isplitl [G0 G1 G2 Hrest Hp]
  · isplitl [G0 G1 G2 Hrest]
    · isplitl [G0 G1 G2]
      · skip
        isplitl [G0]; · (iapply (scratch_out0 c cc0_scratch0); iexact G0)
        isplitl [G1]; · (iapply (scratch_out0 c cc0_scratch1); iexact G1)
        iapply (scratch_out0 c cc0_scratch2); iexact G2
      · iexact Hrest
    · iexact Hp
  isplitl [Ho]; · iexact Ho
  isplitl [H0]; · (iapply (pt_to_owns0 c _ (hstage0_0 ((cfg0.slots t0_0 0).cast nbuf0_0)) _); iexact H0)
  isplitl [H1]; · (iapply (pt_to_owns0 c _ (hstage0_1 ((cfg0.slots t0_0 1).cast nbuf0_1)) _); iexact H1)
  isplitl [H2]; · (iapply (pt_to_owns0 c _ (hstage0_2 ((cfg0.slots t0_0 2).cast nbuf0_2)) _); iexact H2)
  isplitl [H3]; · (iapply (pt_to_owns0 c _ (hstage0_3 ((cfg0.slots t0_0 3).cast nbuf0_3)) _); iexact H3)
  isplitl [H4]; · (iapply (pt_to_owns0 c _ (hstage0_4 ((cfg0.slots t0_0 4).cast nbuf0_4)) _); iexact H4)
  iapply (pt_to_owns_read0 c _ _); iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.ReferenceIdeal.Hand

end
-- ==== Proof.RefPairRegion1.lean ====
/-
  The reference's region 1: the second pair of 5x5 convolutions: each convolution ONE matrix product over all 25 taps and the input channels of a patch matrix
  built in scratch, then bias and rectifier, the second one followed by a width-4 max pool; whole-array windows, one grid
  point, three scratch buffers (the two patch matrices and the zero-padded intermediate activation).
  Here: the kernel body run once by the symbolic executor from its input blocks' raw contents (the output blocks and the scratch buffers
  at anything), its witness (the raw contents each output block holds afterwards, as a function of the inputs'), the
  region's proof data at a parameter `V` (the buffers' contents when the region is entered) and the body obligation
  at the region's one grid point.  A staging buffer is a whole memref, so what it reads and its raw contents
  determine each other.
-/
import proofs.«147627_g2000402439390779_pallasbulk_891_17_alg».proof.Proof.Gen.ReferenceIdeal.Launch
import proofs.«147627_g2000402439390779_pallasbulk_891_17_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Cert.ReferenceIdeal.Facts]

local notation "𝕄" => MT nD τ sig Unit (Elt F) ℕ (UR sig nD τ) ℕ

/-- A memref's raw contents on core `c`, and the memref held at them. -/
abbrev Bf1 (c : Dev nD) {sp : Space} {S : Shape} {e : EltTy} (M : Memref sig .tc sp S e) : Type := M.view.ty.Contents (Elt F)
abbrev pt1 (c : Dev nD) {sp : Space} {S : Shape} {e : EltTy} (M : Memref sig .tc sp S e) (f : Bf1 (F := F) c M) : sProp 𝕄 :=
  M.view.loc (c : Thread nD τ) ↦[M.view.set]{fullShare} f

/-- A whole memref read at `X` is held at the raw contents that read `X`, and conversely; held at raw contents
    `f` it reads what `f` reads. -/
theorem owns_to_pt1 (c : Dev nD) {sp : Space} {S : Shape} {e : EltTy} (M : Memref sig .tc sp S e) (h : M.IsWhole) (X : S.Idx → Elt F e) :
    (owns (c : Thread nD τ) M fullShare X : sProp 𝕄) ⊢ pt1 c M (h.unread X) := by
  unfold owns; iintro ⟨%f, %hf, H⟩; obtain rfl := h.eq_unread hf; iexact H
theorem pt_to_owns1 (c : Dev nD) {sp : Space} {S : Shape} {e : EltTy} (M : Memref sig .tc sp S e) (h : M.IsWhole) (X : S.Idx → Elt F e) :
    (pt1 c M (h.unread X) : sProp 𝕄) ⊢ owns (c : Thread nD τ) M fullShare X := by
  unfold owns; iintro H; iexists _; isplitr; · ipureintro; exact h.read_unread X
  iexact H
theorem pt_to_owns_read1 (c : Dev nD) {sp : Space} {S : Shape} {e : EltTy} (M : Memref sig .tc sp S e) (f : Bf1 (F := F) c M) :
    (pt1 c M f : sProp 𝕄) ⊢ owns (c : Thread nD τ) M fullShare (M.view.read (Elt F) f) := by
  unfold owns; iintro H; iexists f; isplitr; · ipureintro; rfl
  iexact H
theorem owns_to_ex1 (c : Dev nD) {sp : Space} {S : Shape} {e : EltTy} (M : Memref sig .tc sp S e) (X : S.Idx → Elt F e) :
    (owns (c : Thread nD τ) M fullShare X : sProp 𝕄) ⊢ iprop(∃ f, pt1 c M f) := by
  unfold owns; iintro ⟨%f, -, H⟩; iexists f; iexact H

/-- A scoped scratch buffer held whole at something, as the scoped rest keeps it and as the body takes it. -/
theorem scratch_in1 (c : Dev nD) (b : Ref sig .tc) :
    (iprop(∃ f : Buf (Elt F) ((c : Thread nD τ).loc b), ((c : Thread nD τ).loc b) ↦{fullShare} f) : sProp 𝕄)
      ⊢ iprop(∃ d, owns (c : Thread nD τ) (Memref.whole b) fullShare d) := by
  simp only [owns_whole_eq]
  iintro ⟨%f, H⟩; iexists f, f; isplitr; · ipureintro; rfl
  iexact H
theorem scratch_out1 (c : Dev nD) (b : Ref sig .tc) :
    (iprop(∃ d, owns (c : Thread nD τ) (Memref.whole b) fullShare d) : sProp 𝕄)
      ⊢ iprop(∃ f : Buf (Elt F) ((c : Thread nD τ).loc b), ((c : Thread nD τ).loc b) ↦{fullShare} f) := by
  simp only [owns_whole_eq]
  iintro ⟨%d, %f, -, H⟩; iexists f; iexact H

/-- The scoped rest with this kernel's scratch buffers taken out, each whole at some contents; the remainder unopened. -/
theorem scratch_split1 (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))
          ∗ Pipeline.scopedRestBut (Ix := Unit) (Name := ℕ) (U := UR sig nD τ) (Lvl := ℕ) (Val := Elt F) spec1 c [cc1_scratch0, cc1_scratch1, cc1_scratch2]) :=
  Pipeline.scopedRest_split_of_list spec1 c [cc1_scratch0, cc1_scratch1, cc1_scratch2] (by decide) (by decide)

set_option maxHeartbeats 8000000 in
/-- The body from its input blocks: it runs to its return, hands the inputs back unchanged and leaves each
    output block at the witness; the scratch buffers end at something. -/
noncomputable def run1 (c : Dev nD) (i : grid1.Coords) (M0 : Memref sig .tc .vmem S8x20x20x64 .bf16) (h0 : M0.IsWhole) (M1 : Memref sig .tc .vmem S1600x128 .bf16) (h1 : M1.IsWhole) (M2 : Memref sig .tc .vmem S1x128 .f32) (h2 : M2.IsWhole) (M3 : Memref sig .tc .vmem S3200x128 .bf16) (h3 : M3.IsWhole) (M4 : Memref sig .tc .vmem S1x128 .f32) (h4 : M4.IsWhole) (M5 : Memref sig .tc .vmem S8x16x4x128 .bf16) (h5 : M5.IsWhole) (C0 : Memref sig .tc .vmem S2048x1600 .bf16) (g0 : C0.IsWhole) (C1 : Memref sig .tc .vmem S8x20x20x128 .bf16) (g1 : C1.IsWhole) (C2 : Memref sig .tc .vmem S2048x3200 .bf16) (g2 : C2.IsWhole)
    (f0 : Bf1 (F := F) c M0) (f1 : Bf1 (F := F) c M1) (f2 : Bf1 (F := F) c M2) (f3 : Bf1 (F := F) c M3) (f4 : Bf1 (F := F) c M4) :
    { W : Bf1 (F := F) c M5 // ∀ (E : Set ℕ) (K : PUnit → sProp 𝕄),
        iprop(pt1 c M0 f0
            ∗ pt1 c M1 f1
            ∗ pt1 c M2 f2
            ∗ pt1 c M3 f3
            ∗ pt1 c M4 f4
            ∗ (∃ f, pt1 c M5 f)
            ∗ (∃ d, owns (c : Thread nD τ) C0 fullShare d)
            ∗ (∃ d, owns (c : Thread nD τ) C1 fullShare d)
            ∗ (∃ d, owns (c : Thread nD τ) C2 fullShare d)
            ∗ (iprop(pt1 c M0 f0
                ∗ pt1 c M1 f1
                ∗ pt1 c M2 f2
                ∗ pt1 c M3 f3
                ∗ pt1 c M4 f4
                ∗ pt1 c M5 W
                ∗ (∃ d, owns (c : Thread nD τ) C0 fullShare d)
                ∗ (∃ d, owns (c : Thread nD τ) C1 fullShare d)
                ∗ (∃ d, owns (c : Thread nD τ) C2 fullShare d)) -∗ K ⟨⟩))
          ⊢ wp frame (wpE (defs₀ (F := F)) Variants.none c none) E (cc1__pair_kernel i M0 h0 M1 h1 M2 h2 M3 h3 M4 h4 M5 h5 C0 g0 C1 g1 C2 g2) K } := by
  refine ⟨?_, fun E K => ?run⟩
  case run =>
    unfold owns
    iintro ⟨H0, H1, H2, H3, H4, ⟨%f5, H5⟩, ⟨%e0, %q0, -, G0⟩, ⟨%e1, %q1, -, G1⟩, ⟨%e2, %q2, -, G2⟩, Hk⟩
    sl_exec!
    sl_step
    iapply Hk
    isplitl [H0]; · (iexact H0)
    isplitl [H1]; · (iexact H1)
    isplitl [H2]; · (iexact H2)
    isplitl [H3]; · (iexact H3)
    isplitl [H4]; · (iexact H4)
    isplitl [H5]; · (iexact H5)
    isplitl [G0]; · (iexists _, _; isplitr; swap; (· iexact G0); ipureintro; rfl)
    isplitl [G1]; · (iexists _, _; isplitr; swap; (· iexact G1); ipureintro; rfl)
    iexists _, _; isplitr; swap; (· iexact G2); ipureintro; rfl

-- the witness is never opened below: only its existence and the triple are used
attribute [irreducible] run1

variable (V : (c : Dev nD) → (b : Ref sig .tc) → Buf (Elt F) ((c : Thread nD τ).loc b))

/-- Window `w`'s block at the one grid point, read off its array as the region finds it. -/
abbrev blk1_0 (c : Dev nD) : (cfg1.win 0).block.Idx → Elt F (cfg1.win 0).elt :=
  ((cfg1.win 0).blk t1_0).view.read (Elt F) (V c (Pipeline.arrRef spec1 0))
abbrev blk1_1 (c : Dev nD) : (cfg1.win 1).block.Idx → Elt F (cfg1.win 1).elt :=
  ((cfg1.win 1).blk t1_0).view.read (Elt F) (V c (Pipeline.arrRef spec1 1))
abbrev blk1_2 (c : Dev nD) : (cfg1.win 2).block.Idx → Elt F (cfg1.win 2).elt :=
  ((cfg1.win 2).blk t1_0).view.read (Elt F) (V c (Pipeline.arrRef spec1 2))
abbrev blk1_3 (c : Dev nD) : (cfg1.win 3).block.Idx → Elt F (cfg1.win 3).elt :=
  ((cfg1.win 3).blk t1_0).view.read (Elt F) (V c (Pipeline.arrRef spec1 3))
abbrev blk1_4 (c : Dev nD) : (cfg1.win 4).block.Idx → Elt F (cfg1.win 4).elt :=
  ((cfg1.win 4).blk t1_0).view.read (Elt F) (V c (Pipeline.arrRef spec1 4))

/-- The run at the staged blocks (each input's raw contents the ones that read its block). -/
abbrev K1 (c : Dev nD) := run1 (F := F) c (grid1.coords t1_0) (win1_0.stage (cfg1.slots t1_0 0)) (hstage1_0 ((cfg1.slots t1_0 0).cast nbuf1_0)) (win1_1.stage (cfg1.slots t1_0 1)) (hstage1_1 ((cfg1.slots t1_0 1).cast nbuf1_1)) (win1_2.stage (cfg1.slots t1_0 2)) (hstage1_2 ((cfg1.slots t1_0 2).cast nbuf1_2)) (win1_3.stage (cfg1.slots t1_0 3)) (hstage1_3 ((cfg1.slots t1_0 3).cast nbuf1_3)) (win1_4.stage (cfg1.slots t1_0 4)) (hstage1_4 ((cfg1.slots t1_0 4).cast nbuf1_4)) (win1_5.stage (cfg1.slots t1_0 5)) (hstage1_5 ((cfg1.slots t1_0 5).cast nbuf1_5)) (Memref.whole cc1_scratch0) (Memref.isWhole_whole _) (Memref.whole cc1_scratch1) (Memref.isWhole_whole _) (Memref.whole cc1_scratch2) (Memref.isWhole_whole _)
  ((hstage1_0 ((cfg1.slots t1_0 0).cast nbuf1_0)).unread (blk1_0 V c)) ((hstage1_1 ((cfg1.slots t1_0 1).cast nbuf1_1)).unread (blk1_1 V c)) ((hstage1_2 ((cfg1.slots t1_0 2).cast nbuf1_2)).unread (blk1_2 V c)) ((hstage1_3 ((cfg1.slots t1_0 3).cast nbuf1_3)).unread (blk1_3 V c)) ((hstage1_4 ((cfg1.slots t1_0 4).cast nbuf1_4)).unread (blk1_4 V c))

/-- The region's proof data: the arrays as found; after the body every input block as fetched and every
    output block at what the run's witness reads; the invariant the scoped buffers and the generator register;
    nothing owed; full shares. -/
def dat1 (c : Dev nD) : Dat τ (Elt F) Unit ℕ (UR sig nD τ) ℕ cfg1 c where
  A w := V c (Pipeline.arrRef spec1 w)
  after w _ := match w with
    | ⟨0, _⟩ => blk1_0 V c
    | ⟨1, _⟩ => blk1_1 V c
    | ⟨2, _⟩ => blk1_2 V c
    | ⟨3, _⟩ => blk1_3 V c
    | ⟨4, _⟩ => blk1_4 V c
    | ⟨5, _⟩ => (win1_5.stage (cfg1.slots t1_0 5)).view.read (Elt F) (K1 V c).1
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1_0 V c := rfl
theorem after1_1 (c : Dev nD) (t : Fin cfg1.N) : (dat1 V c).after 1 t = blk1_1 V c := rfl
theorem after1_2 (c : Dev nD) (t : Fin cfg1.N) : (dat1 V c).after 2 t = blk1_2 V c := rfl
theorem after1_3 (c : Dev nD) (t : Fin cfg1.N) : (dat1 V c).after 3 t = blk1_3 V c := rfl
theorem after1_4 (c : Dev nD) (t : Fin cfg1.N) : (dat1 V c).after 4 t = blk1_4 V c := rfl
theorem after1_5 (c : Dev nD) (t : Fin cfg1.N) : (dat1 V c).after 5 t = (win1_5.stage (cfg1.slots t1_0 5)).view.read (Elt F) (K1 V c).1 := rfl

theorem before1_0 (c : Dev nD) (d) : (dat1 V c).before 0 t1_0 d = blk1_0 V c := by
  unfold Dat.before; split
  · rfl
  · exact absurd (fetch1_0 t1_0) ‹_›
theorem before1_1 (c : Dev nD) (d) : (dat1 V c).before 1 t1_0 d = blk1_1 V c := by
  unfold Dat.before; split
  · rfl
  · exact absurd (fetch1_1 t1_0) ‹_›
theorem before1_2 (c : Dev nD) (d) : (dat1 V c).before 2 t1_0 d = blk1_2 V c := by
  unfold Dat.before; split
  · rfl
  · exact absurd (fetch1_2 t1_0) ‹_›
theorem before1_3 (c : Dev nD) (d) : (dat1 V c).before 3 t1_0 d = blk1_3 V c := by
  unfold Dat.before; split
  · rfl
  · exact absurd (fetch1_3 t1_0) ‹_›
theorem before1_4 (c : Dev nD) (d) : (dat1 V c).before 4 t1_0 d = blk1_4 V c := by
  unfold Dat.before; split
  · rfl
  · exact absurd (fetch1_4 t1_0) ‹_›

/-- What the body is called with at the point, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 4000000 in
/-- The body at the point: the staged blocks, the scratch buffers out of the scoped rest and the invariant taken apart, the run applied, its post
    put back together. -/
theorem sound_body1 (c : Dev nD) (t : Fin cfg1.N) :
    bodyPre1 V c t ⊢ wp frame (wpE (defs₀ (F := F)) Variants.none c none) Set.univ (bodyAt1 t) (fun _ => bodyPost1 V c t) := by
  obtain rfl := fin_N1 t
  unfold bodyPre1 bodyPost1 bodyAt1
  simp only [before1_0, before1_1, before1_2, before1_3, before1_4]
  rw [show (dat1 V c).Φ t1_0.succ = (dat1 V c).Φ t1_0.castSucc from rfl,
    show (dat1 V c).owesAt () t1_0.succ = (dat1 V c).owesAt () t1_0.castSucc from rfl,
    after1_0, after1_1, after1_2, after1_3, after1_4, after1_5]
  rw [show (dat1 V c).Φ t1_0.castSucc = Pipeline.ΦA spec1 c from rfl]; unfold Pipeline.ΦA
  rw [scratch_split1]
  iintro ⟨⟨⟨⟨G0, G1, G2⟩, Hrest⟩, Hp⟩, Ho, ⟨%d0, H0⟩, ⟨%d1, H1⟩, ⟨%d2, H2⟩, ⟨%d3, H3⟩, ⟨%d4, H4⟩, ⟨%d5, H5⟩⟩
  iapply ((K1 V c).2 Set.univ _)
  isplitl [H0]; · (iapply (owns_to_pt1 c _ (hstage1_0 ((cfg1.slots t1_0 0).cast nbuf1_0)) _); iexact H0)
  isplitl [H1]; · (iapply (owns_to_pt1 c _ (hstage1_1 ((cfg1.slots t1_0 1).cast nbuf1_1)) _); iexact H1)
  isplitl [H2]; · (iapply (owns_to_pt1 c _ (hstage1_2 ((cfg1.slots t1_0 2).cast nbuf1_2)) _); iexact H2)
  isplitl [H3]; · (iapply (owns_to_pt1 c _ (hstage1_3 ((cfg1.slots t1_0 3).cast nbuf1_3)) _); iexact H3)
  isplitl [H4]; · (iapply (owns_to_pt1 c _ (hstage1_4 ((cfg1.slots t1_0 4).cast nbuf1_4)) _); iexact H4)
  isplitl [H5]; · (iapply (owns_to_ex1 c _ _); iexact H5)
  isplitl [G0]; · (iapply (scratch_in1 c cc1_scratch0); iexact G0)
  isplitl [G1]; · (iapply (scratch_in1 c cc1_scratch1); iexact G1)
  isplitl [G2]; · (iapply (scratch_in1 c cc1_scratch2); iexact G2)
  iintro ⟨H0, H1, H2, H3, H4, H5, G0, G1, G2⟩
  isplitl [G0 G1 G2 Hrest Hp]
  · isplitl [G0 G1 G2 Hrest]
    · isplitl [G0 G1 G2]
      · skip
        isplitl [G0]; · (iapply (scratch_out1 c cc1_scratch0); iexact G0)
        isplitl [G1]; · (iapply (scratch_out1 c cc1_scratch1); iexact G1)
        iapply (scratch_out1 c cc1_scratch2); iexact G2
      · iexact Hrest
    · iexact Hp
  isplitl [Ho]; · iexact Ho
  isplitl [H0]; · (iapply (pt_to_owns1 c _ (hstage1_0 ((cfg1.slots t1_0 0).cast nbuf1_0)) _); iexact H0)
  isplitl [H1]; · (iapply (pt_to_owns1 c _ (hstage1_1 ((cfg1.slots t1_0 1).cast nbuf1_1)) _); iexact H1)
  isplitl [H2]; · (iapply (pt_to_owns1 c _ (hstage1_2 ((cfg1.slots t1_0 2).cast nbuf1_2)) _); iexact H2)
  isplitl [H3]; · (iapply (pt_to_owns1 c _ (hstage1_3 ((cfg1.slots t1_0 3).cast nbuf1_3)) _); iexact H3)
  isplitl [H4]; · (iapply (pt_to_owns1 c _ (hstage1_4 ((cfg1.slots t1_0 4).cast nbuf1_4)) _); iexact H4)
  iapply (pt_to_owns_read1 c _ _); iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.ReferenceIdeal.Hand

end
-- ==== Proof.RefPairRegion2.lean ====
/-
  The reference's region 2: the third pair of 5x5 convolutions: each convolution ONE matrix product over all 25 taps and the input channels of a patch matrix
  built in scratch, then bias and rectifier, the second one followed by a width-4 max pool; whole-array windows, one grid
  point, three scratch buffers (the two patch matrices and the zero-padded intermediate activation).
  Here: the kernel body run once by the symbolic executor from its input blocks' raw contents (the output blocks and the scratch buffers
  at anything), its witness (the raw contents each output block holds afterwards, as a function of the inputs'), the
  region's proof data at a parameter `V` (the buffers' contents when the region is entered) and the body obligation
  at the region's one grid point.  A staging buffer is a whole memref, so what it reads and its raw contents
  determine each other.
-/
import proofs.«147627_g2000402439390779_pallasbulk_891_17_alg».proof.Proof.Gen.ReferenceIdeal.Launch
import proofs.«147627_g2000402439390779_pallasbulk_891_17_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Cert.ReferenceIdeal.Facts]

local notation "𝕄" => MT nD τ sig Unit (Elt F) ℕ (UR sig nD τ) ℕ

/-- A memref's raw contents on core `c`, and the memref held at them. -/
abbrev Bf2 (c : Dev nD) {sp : Space} {S : Shape} {e : EltTy} (M : Memref sig .tc sp S e) : Type := M.view.ty.Contents (Elt F)
abbrev pt2 (c : Dev nD) {sp : Space} {S : Shape} {e : EltTy} (M : Memref sig .tc sp S e) (f : Bf2 (F := F) c M) : sProp 𝕄 :=
  M.view.loc (c : Thread nD τ) ↦[M.view.set]{fullShare} f

/-- A whole memref read at `X` is held at the raw contents that read `X`, and conversely; held at raw contents
    `f` it reads what `f` reads. -/
theorem owns_to_pt2 (c : Dev nD) {sp : Space} {S : Shape} {e : EltTy} (M : Memref sig .tc sp S e) (h : M.IsWhole) (X : S.Idx → Elt F e) :
    (owns (c : Thread nD τ) M fullShare X : sProp 𝕄) ⊢ pt2 c M (h.unread X) := by
  unfold owns; iintro ⟨%f, %hf, H⟩; obtain rfl := h.eq_unread hf; iexact H
theorem pt_to_owns2 (c : Dev nD) {sp : Space} {S : Shape} {e : EltTy} (M : Memref sig .tc sp S e) (h : M.IsWhole) (X : S.Idx → Elt F e) :
    (pt2 c M (h.unread X) : sProp 𝕄) ⊢ owns (c : Thread nD τ) M fullShare X := by
  unfold owns; iintro H; iexists _; isplitr; · ipureintro; exact h.read_unread X
  iexact H
theorem pt_to_owns_read2 (c : Dev nD) {sp : Space} {S : Shape} {e : EltTy} (M : Memref sig .tc sp S e) (f : Bf2 (F := F) c M) :
    (pt2 c M f : sProp 𝕄) ⊢ owns (c : Thread nD τ) M fullShare (M.view.read (Elt F) f) := by
  unfold owns; iintro H; iexists f; isplitr; · ipureintro; rfl
  iexact H
theorem owns_to_ex2 (c : Dev nD) {sp : Space} {S : Shape} {e : EltTy} (M : Memref sig .tc sp S e) (X : S.Idx → Elt F e) :
    (owns (c : Thread nD τ) M fullShare X : sProp 𝕄) ⊢ iprop(∃ f, pt2 c M f) := by
  unfold owns; iintro ⟨%f, -, H⟩; iexists f; iexact H

/-- A scoped scratch buffer held whole at something, as the scoped rest keeps it and as the body takes it. -/
theorem scratch_in2 (c : Dev nD) (b : Ref sig .tc) :
    (iprop(∃ f : Buf (Elt F) ((c : Thread nD τ).loc b), ((c : Thread nD τ).loc b) ↦{fullShare} f) : sProp 𝕄)
      ⊢ iprop(∃ d, owns (c : Thread nD τ) (Memref.whole b) fullShare d) := by
  simp only [owns_whole_eq]
  iintro ⟨%f, H⟩; iexists f, f; isplitr; · ipureintro; rfl
  iexact H
theorem scratch_out2 (c : Dev nD) (b : Ref sig .tc) :
    (iprop(∃ d, owns (c : Thread nD τ) (Memref.whole b) fullShare d) : sProp 𝕄)
      ⊢ iprop(∃ f : Buf (Elt F) ((c : Thread nD τ).loc b), ((c : Thread nD τ).loc b) ↦{fullShare} f) := by
  simp only [owns_whole_eq]
  iintro ⟨%d, %f, -, H⟩; iexists f; iexact H

/-- The scoped rest with this kernel's scratch buffers taken out, each whole at some contents; the remainder unopened. -/
theorem scratch_split2 (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ (∃ f : Buf (Elt F) ((c : Thread nD τ).loc cc2_scratch2), ((c : Thread nD τ).loc cc2_scratch2) ↦{fullShare} f))
          ∗ Pipeline.scopedRestBut (Ix := Unit) (Name := ℕ) (U := UR sig nD τ) (Lvl := ℕ) (Val := Elt F) spec2 c [cc2_scratch0, cc2_scratch1, cc2_scratch2]) :=
  Pipeline.scopedRest_split_of_list spec2 c [cc2_scratch0, cc2_scratch1, cc2_scratch2] (by decide) (by decide)

set_option maxHeartbeats 8000000 in
/-- The body from its input blocks: it runs to its return, hands the inputs back unchanged and leaves each
    output block at the witness; the scratch buffers end at something. -/
noncomputable def run2 (c : Dev nD) (i : grid2.Coords) (M0 : Memref sig .tc .vmem S8x20x8x128 .bf16) (h0 : M0.IsWhole) (M1 : Memref sig .tc .vmem S3200x256 .bf16) (h1 : M1.IsWhole) (M2 : Memref sig .tc .vmem S1x256 .f32) (h2 : M2.IsWhole) (M3 : Memref sig .tc .vmem S6400x256 .bf16) (h3 : M3.IsWhole) (M4 : Memref sig .tc .vmem S1x256 .f32) (h4 : M4.IsWhole) (M5 : Memref sig .tc .vmem S8x16x1x256 .bf16) (h5 : M5.IsWhole) (C0 : Memref sig .tc .vmem S512x3200 .bf16) (g0 : C0.IsWhole) (C1 : Memref sig .tc .vmem S8x20x8x256 .bf16) (g1 : C1.IsWhole) (C2 : Memref sig .tc .vmem S512x6400 .bf16) (g2 : C2.IsWhole)
    (f0 : Bf2 (F := F) c M0) (f1 : Bf2 (F := F) c M1) (f2 : Bf2 (F := F) c M2) (f3 : Bf2 (F := F) c M3) (f4 : Bf2 (F := F) c M4) :
    { W : Bf2 (F := F) c M5 // ∀ (E : Set ℕ) (K : PUnit → sProp 𝕄),
        iprop(pt2 c M0 f0
            ∗ pt2 c M1 f1
            ∗ pt2 c M2 f2
            ∗ pt2 c M3 f3
            ∗ pt2 c M4 f4
            ∗ (∃ f, pt2 c M5 f)
            ∗ (∃ d, owns (c : Thread nD τ) C0 fullShare d)
            ∗ (∃ d, owns (c : Thread nD τ) C1 fullShare d)
            ∗ (∃ d, owns (c : Thread nD τ) C2 fullShare d)
            ∗ (iprop(pt2 c M0 f0
                ∗ pt2 c M1 f1
                ∗ pt2 c M2 f2
                ∗ pt2 c M3 f3
                ∗ pt2 c M4 f4
                ∗ pt2 c M5 W
                ∗ (∃ d, owns (c : Thread nD τ) C0 fullShare d)
                ∗ (∃ d, owns (c : Thread nD τ) C1 fullShare d)
                ∗ (∃ d, owns (c : Thread nD τ) C2 fullShare d)) -∗ K ⟨⟩))
          ⊢ wp frame (wpE (defs₀ (F := F)) Variants.none c none) E (cc2__pair_kernel i M0 h0 M1 h1 M2 h2 M3 h3 M4 h4 M5 h5 C0 g0 C1 g1 C2 g2) K } := by
  refine ⟨?_, fun E K => ?run⟩
  case run =>
    unfold owns
    iintro ⟨H0, H1, H2, H3, H4, ⟨%f5, H5⟩, ⟨%e0, %q0, -, G0⟩, ⟨%e1, %q1, -, G1⟩, ⟨%e2, %q2, -, G2⟩, Hk⟩
    sl_exec!
    sl_step
    iapply Hk
    isplitl [H0]; · (iexact H0)
    isplitl [H1]; · (iexact H1)
    isplitl [H2]; · (iexact H2)
    isplitl [H3]; · (iexact H3)
    isplitl [H4]; · (iexact H4)
    isplitl [H5]; · (iexact H5)
    isplitl [G0]; · (iexists _, _; isplitr; swap; (· iexact G0); ipureintro; rfl)
    isplitl [G1]; · (iexists _, _; isplitr; swap; (· iexact G1); ipureintro; rfl)
    iexists _, _; isplitr; swap; (· iexact G2); ipureintro; rfl

-- the witness is never opened below: only its existence and the triple are used
attribute [irreducible] run2

variable (V : (c : Dev nD) → (b : Ref sig .tc) → Buf (Elt F) ((c : Thread nD τ).loc b))

/-- Window `w`'s block at the one grid point, read off its array as the region finds it. -/
abbrev blk2_0 (c : Dev nD) : (cfg2.win 0).block.Idx → Elt F (cfg2.win 0).elt :=
  ((cfg2.win 0).blk t2_0).view.read (Elt F) (V c (Pipeline.arrRef spec2 0))
abbrev blk2_1 (c : Dev nD) : (cfg2.win 1).block.Idx → Elt F (cfg2.win 1).elt :=
  ((cfg2.win 1).blk t2_0).view.read (Elt F) (V c (Pipeline.arrRef spec2 1))
abbrev blk2_2 (c : Dev nD) : (cfg2.win 2).block.Idx → Elt F (cfg2.win 2).elt :=
  ((cfg2.win 2).blk t2_0).view.read (Elt F) (V c (Pipeline.arrRef spec2 2))
abbrev blk2_3 (c : Dev nD) : (cfg2.win 3).block.Idx → Elt F (cfg2.win 3).elt :=
  ((cfg2.win 3).blk t2_0).view.read (Elt F) (V c (Pipeline.arrRef spec2 3))
abbrev blk2_4 (c : Dev nD) : (cfg2.win 4).block.Idx → Elt F (cfg2.win 4).elt :=
  ((cfg2.win 4).blk t2_0).view.read (Elt F) (V c (Pipeline.arrRef spec2 4))

/-- The run at the staged blocks (each input's raw contents the ones that read its block). -/
abbrev K2 (c : Dev nD) := run2 (F := F) c (grid2.coords t2_0) (win2_0.stage (cfg2.slots t2_0 0)) (hstage2_0 ((cfg2.slots t2_0 0).cast nbuf2_0)) (win2_1.stage (cfg2.slots t2_0 1)) (hstage2_1 ((cfg2.slots t2_0 1).cast nbuf2_1)) (win2_2.stage (cfg2.slots t2_0 2)) (hstage2_2 ((cfg2.slots t2_0 2).cast nbuf2_2)) (win2_3.stage (cfg2.slots t2_0 3)) (hstage2_3 ((cfg2.slots t2_0 3).cast nbuf2_3)) (win2_4.stage (cfg2.slots t2_0 4)) (hstage2_4 ((cfg2.slots t2_0 4).cast nbuf2_4)) (win2_5.stage (cfg2.slots t2_0 5)) (hstage2_5 ((cfg2.slots t2_0 5).cast nbuf2_5)) (Memref.whole cc2_scratch0) (Memref.isWhole_whole _) (Memref.whole cc2_scratch1) (Memref.isWhole_whole _) (Memref.whole cc2_scratch2) (Memref.isWhole_whole _)
  ((hstage2_0 ((cfg2.slots t2_0 0).cast nbuf2_0)).unread (blk2_0 V c)) ((hstage2_1 ((cfg2.slots t2_0 1).cast nbuf2_1)).unread (blk2_1 V c)) ((hstage2_2 ((cfg2.slots t2_0 2).cast nbuf2_2)).unread (blk2_2 V c)) ((hstage2_3 ((cfg2.slots t2_0 3).cast nbuf2_3)).unread (blk2_3 V c)) ((hstage2_4 ((cfg2.slots t2_0 4).cast nbuf2_4)).unread (blk2_4 V c))

/-- The region's proof data: the arrays as found; after the body every input block as fetched and every
    output block at what the run's witness reads; the invariant the scoped buffers and the generator register;
    nothing owed; full shares. -/
def dat2 (c : Dev nD) : Dat τ (Elt F) Unit ℕ (UR sig nD τ) ℕ cfg2 c where
  A w := V c (Pipeline.arrRef spec2 w)
  after w _ := match w with
    | ⟨0, _⟩ => blk2_0 V c
    | ⟨1, _⟩ => blk2_1 V c
    | ⟨2, _⟩ => blk2_2 V c
    | ⟨3, _⟩ => blk2_3 V c
    | ⟨4, _⟩ => blk2_4 V c
    | ⟨5, _⟩ => (win2_5.stage (cfg2.slots t2_0 5)).view.read (Elt F) (K2 V c).1
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = blk2_0 V c := rfl
theorem after2_1 (c : Dev nD) (t : Fin cfg2.N) : (dat2 V c).after 1 t = blk2_1 V c := rfl
theorem after2_2 (c : Dev nD) (t : Fin cfg2.N) : (dat2 V c).after 2 t = blk2_2 V c := rfl
theorem after2_3 (c : Dev nD) (t : Fin cfg2.N) : (dat2 V c).after 3 t = blk2_3 V c := rfl
theorem after2_4 (c : Dev nD) (t : Fin cfg2.N) : (dat2 V c).after 4 t = blk2_4 V c := rfl
theorem after2_5 (c : Dev nD) (t : Fin cfg2.N) : (dat2 V c).after 5 t = (win2_5.stage (cfg2.slots t2_0 5)).view.read (Elt F) (K2 V c).1 := rfl

theorem before2_0 (c : Dev nD) (d) : (dat2 V c).before 0 t2_0 d = blk2_0 V c := by
  unfold Dat.before; split
  · rfl
  · exact absurd (fetch2_0 t2_0) ‹_›
theorem before2_1 (c : Dev nD) (d) : (dat2 V c).before 1 t2_0 d = blk2_1 V c := by
  unfold Dat.before; split
  · rfl
  · exact absurd (fetch2_1 t2_0) ‹_›
theorem before2_2 (c : Dev nD) (d) : (dat2 V c).before 2 t2_0 d = blk2_2 V c := by
  unfold Dat.before; split
  · rfl
  · exact absurd (fetch2_2 t2_0) ‹_›
theorem before2_3 (c : Dev nD) (d) : (dat2 V c).before 3 t2_0 d = blk2_3 V c := by
  unfold Dat.before; split
  · rfl
  · exact absurd (fetch2_3 t2_0) ‹_›
theorem before2_4 (c : Dev nD) (d) : (dat2 V c).before 4 t2_0 d = blk2_4 V c := by
  unfold Dat.before; split
  · rfl
  · exact absurd (fetch2_4 t2_0) ‹_›

/-- What the body is called with at the point, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 4000000 in
/-- The body at the point: the staged blocks, the scratch buffers out of the scoped rest and the invariant taken apart, the run applied, its post
    put back together. -/
theorem sound_body2 (c : Dev nD) (t : Fin cfg2.N) :
    bodyPre2 V c t ⊢ wp frame (wpE (defs₀ (F := F)) Variants.none c none) Set.univ (bodyAt2 t) (fun _ => bodyPost2 V c t) := by
  obtain rfl := fin_N2 t
  unfold bodyPre2 bodyPost2 bodyAt2
  simp only [before2_0, before2_1, before2_2, before2_3, before2_4]
  rw [show (dat2 V c).Φ t2_0.succ = (dat2 V c).Φ t2_0.castSucc from rfl,
    show (dat2 V c).owesAt () t2_0.succ = (dat2 V c).owesAt () t2_0.castSucc from rfl,
    after2_0, after2_1, after2_2, after2_3, after2_4, after2_5]
  rw [show (dat2 V c).Φ t2_0.castSucc = Pipeline.ΦA spec2 c from rfl]; unfold Pipeline.ΦA
  rw [scratch_split2]
  iintro ⟨⟨⟨⟨G0, G1, G2⟩, Hrest⟩, Hp⟩, Ho, ⟨%d0, H0⟩, ⟨%d1, H1⟩, ⟨%d2, H2⟩, ⟨%d3, H3⟩, ⟨%d4, H4⟩, ⟨%d5, H5⟩⟩
  iapply ((K2 V c).2 Set.univ _)
  isplitl [H0]; · (iapply (owns_to_pt2 c _ (hstage2_0 ((cfg2.slots t2_0 0).cast nbuf2_0)) _); iexact H0)
  isplitl [H1]; · (iapply (owns_to_pt2 c _ (hstage2_1 ((cfg2.slots t2_0 1).cast nbuf2_1)) _); iexact H1)
  isplitl [H2]; · (iapply (owns_to_pt2 c _ (hstage2_2 ((cfg2.slots t2_0 2).cast nbuf2_2)) _); iexact H2)
  isplitl [H3]; · (iapply (owns_to_pt2 c _ (hstage2_3 ((cfg2.slots t2_0 3).cast nbuf2_3)) _); iexact H3)
  isplitl [H4]; · (iapply (owns_to_pt2 c _ (hstage2_4 ((cfg2.slots t2_0 4).cast nbuf2_4)) _); iexact H4)
  isplitl [H5]; · (iapply (owns_to_ex2 c _ _); iexact H5)
  isplitl [G0]; · (iapply (scratch_in2 c cc2_scratch0); iexact G0)
  isplitl [G1]; · (iapply (scratch_in2 c cc2_scratch1); iexact G1)
  isplitl [G2]; · (iapply (scratch_in2 c cc2_scratch2); iexact G2)
  iintro ⟨H0, H1, H2, H3, H4, H5, G0, G1, G2⟩
  isplitl [G0 G1 G2 Hrest Hp]
  · isplitl [G0 G1 G2 Hrest]
    · isplitl [G0 G1 G2]
      · skip
        isplitl [G0]; · (iapply (scratch_out2 c cc2_scratch0); iexact G0)
        isplitl [G1]; · (iapply (scratch_out2 c cc2_scratch1); iexact G1)
        iapply (scratch_out2 c cc2_scratch2); iexact G2
      · iexact Hrest
    · iexact Hp
  isplitl [Ho]; · iexact Ho
  isplitl [H0]; · (iapply (pt_to_owns2 c _ (hstage2_0 ((cfg2.slots t2_0 0).cast nbuf2_0)) _); iexact H0)
  isplitl [H1]; · (iapply (pt_to_owns2 c _ (hstage2_1 ((cfg2.slots t2_0 1).cast nbuf2_1)) _); iexact H1)
  isplitl [H2]; · (iapply (pt_to_owns2 c _ (hstage2_2 ((cfg2.slots t2_0 2).cast nbuf2_2)) _); iexact H2)
  isplitl [H3]; · (iapply (pt_to_owns2 c _ (hstage2_3 ((cfg2.slots t2_0 3).cast nbuf2_3)) _); iexact H3)
  isplitl [H4]; · (iapply (pt_to_owns2 c _ (hstage2_4 ((cfg2.slots t2_0 4).cast nbuf2_4)) _); iexact H4)
  iapply (pt_to_owns_read2 c _ _); iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.ReferenceIdeal.Hand

end
-- ==== Proof.RefGmaxRegion.lean ====
/-
  The reference's fourth region: the last convolution as a matrix product. At each of the grid's four points the body
  rebuilds the patch matrix of the padded activation in a scratch buffer (twenty-five column blocks, one per tap),
  multiplies it by a 512-column tile of the weight, adds the bias tile, takes the maximum over the 16 rows of
  each image and writes the 512-column tile of the result. Window 0 (the padded activation) has a constant index
  map and is fetched once; the weight, bias and result tiles move with the point.
  Here: the kernel body run once by the symbolic executor from its input blocks' raw contents, over generic whole
  memrefs and a generic grid point (the output block and the scratch buffer at anything); its witness (the raw
  contents the output block holds afterwards, as a function of the inputs'); the region's proof data at a
  parameter `V` (the buffers' contents when the region is entered); and the body obligation at a generic point.
  A staging buffer is a whole memref, so what it reads and its raw contents determine each other. An input
  buffer holds its block at every point, fetched there or not: unfetched, the block index has not moved.
-/
import proofs.«147627_g2000402439390779_pallasbulk_891_17_alg».proof.Proof.Gen.ReferenceIdeal.Launch
import proofs.«147627_g2000402439390779_pallasbulk_891_17_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Cert.ReferenceIdeal.Facts]

local notation "𝕄" => MT nD τ sig Unit (Elt F) ℕ (UR sig nD τ) ℕ

/-- A memref's raw contents on core `c`, and the memref held at them. -/
abbrev Bf3 (c : Dev nD) {sp : Space} {S : Shape} {e : EltTy} (M : Memref sig .tc sp S e) : Type := M.view.ty.Contents (Elt F)
abbrev pt3 (c : Dev nD) {sp : Space} {S : Shape} {e : EltTy} (M : Memref sig .tc sp S e) (f : Bf3 (F := F) c M) : sProp 𝕄 :=
  M.view.loc (c : Thread nD τ) ↦[M.view.set]{fullShare} f

/-- A scoped scratch buffer held whole at something, as the scoped rest keeps it and as the body takes it. -/
theorem scratch_in3 (c : Dev nD) (b : Ref sig .tc) :
    (iprop(∃ f : Buf (Elt F) ((c : Thread nD τ).loc b), ((c : Thread nD τ).loc b) ↦{fullShare} f) : sProp 𝕄)
      ⊢ iprop(∃ d, owns (c : Thread nD τ) (Memref.whole b) fullShare d) := by
  simp only [owns_whole_eq]
  iintro ⟨%f, H⟩; iexists f, f; isplitr; · ipureintro; rfl
  iexact H
theorem scratch_out3 (c : Dev nD) (b : Ref sig .tc) :
    (iprop(∃ d, owns (c : Thread nD τ) (Memref.whole b) fullShare d) : sProp 𝕄)
      ⊢ iprop(∃ f : Buf (Elt F) ((c : Thread nD τ).loc b), ((c : Thread nD τ).loc b) ↦{fullShare} f) := by
  simp only [owns_whole_eq]
  iintro ⟨%d, %f, -, H⟩; iexists f; iexact H

/-- The scoped rest with this kernel's scratch buffer taken out, whole at some contents; the remainder unopened. -/
theorem scratch_split3 (c : Dev nD) :
    (Pipeline.scopedRest (Ix := Unit) (Name := ℕ) (U := UR sig nD τ) (Lvl := ℕ) (Val := Elt F) spec3 c : sProp 𝕄)
      = iprop(iprop((∃ f : Buf (Elt F) ((c : Thread nD τ).loc cc3_scratch0), ((c : Thread nD τ).loc cc3_scratch0) ↦{fullShare} f))
          ∗ Pipeline.scopedRestBut (Ix := Unit) (Name := ℕ) (U := UR sig nD τ) (Lvl := ℕ) (Val := Elt F) spec3 c [cc3_scratch0]) :=
  Pipeline.scopedRest_split_of_list spec3 c [cc3_scratch0] (by decide) (by decide)

set_option maxHeartbeats 8000000 in
/-- The body from its input blocks, at any grid point and on any whole memrefs: it runs to its return, hands the
    inputs back unchanged and leaves the output block at the witness; the scratch buffer ends at something. -/
noncomputable def run3 (c : Dev nD) (i : grid3.Coords) (M0 : Memref sig .tc .vmem S8x20x5x256 .bf16) (h0 : M0.IsWhole) (M1 : Memref sig .tc .vmem S6400x512 .bf16) (h1 : M1.IsWhole) (M2 : Memref sig .tc .vmem S1x512 .f32) (h2 : M2.IsWhole) (M3 : Memref sig .tc .vmem S8x512 .bf16) (h3 : M3.IsWhole) (C0 : Memref sig .tc .vmem S128x6400 .bf16) (g0 : C0.IsWhole)
    (f0 : Bf3 (F := F) c M0) (f1 : Bf3 (F := F) c M1) (f2 : Bf3 (F := F) c M2) :
    { W : Bf3 (F := F) c M3 // ∀ (E : Set ℕ) (K : PUnit → sProp 𝕄),
        iprop(pt3 c M0 f0
            ∗ pt3 c M1 f1
            ∗ pt3 c M2 f2
            ∗ (∃ f, pt3 c M3 f)
            ∗ (∃ d, owns (c : Thread nD τ) C0 fullShare d)
            ∗ (iprop(pt3 c M0 f0
                ∗ pt3 c M1 f1
                ∗ pt3 c M2 f2
                ∗ pt3 c M3 W
                ∗ (∃ d, owns (c : Thread nD τ) C0 fullShare d)) -∗ K ⟨⟩))
          ⊢ wp frame (wpE (defs₀ (F := F)) Variants.none c none) E (cc3__conv_gmax_kernel i M0 h0 M1 h1 M2 h2 M3 h3 C0 g0) K } := by
  refine ⟨?_, fun E K => ?run⟩
  case run =>
    unfold owns
    iintro ⟨H0, H1, H2, ⟨%f3, H3⟩, ⟨%e0, %q0, -, G0⟩, Hk⟩
    sl_exec!
    sl_step
    iapply Hk
    isplitl [H0]; · (iexact H0)
    isplitl [H1]; · (iexact H1)
    isplitl [H2]; · (iexact H2)
    isplitl [H3]; · (iexact H3)
    iexists _, _; isplitr; swap; (· iexact G0); ipureintro; rfl

variable (V : (c : Dev nD) → (b : Ref sig .tc) → Buf (Elt F) ((c : Thread nD τ).loc b))

/-- Window `w`'s block at point `t`, read off its array as the region finds it. -/
abbrev blk3_0 (c : Dev nD) (t : Fin cfg3.N) : (cfg3.win 0).block.Idx → Elt F (cfg3.win 0).elt :=
  ((cfg3.win 0).blk t).view.read (Elt F) (V c (Pipeline.arrRef spec3 0))
abbrev blk3_1 (c : Dev nD) (t : Fin cfg3.N) : (cfg3.win 1).block.Idx → Elt F (cfg3.win 1).elt :=
  ((cfg3.win 1).blk t).view.read (Elt F) (V c (Pipeline.arrRef spec3 1))
abbrev blk3_2 (c : Dev nD) (t : Fin cfg3.N) : (cfg3.win 2).block.Idx → Elt F (cfg3.win 2).elt :=
  ((cfg3.win 2).blk t).view.read (Elt F) (V c (Pipeline.arrRef spec3 2))

/-- The run at point `t`'s staged blocks (each input's raw contents the ones that read its block). -/
abbrev K3 (c : Dev nD) (t : Fin cfg3.N) := run3 (F := F) c (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (win3_3.stage (cfg3.slots t 3)) (hstage3_3 ((cfg3.slots t 3).cast nbuf3_3)) (Memref.whole cc3_scratch0) (Memref.isWhole_whole _)
  ((hstage3_0 ((cfg3.slots t 0).cast nbuf3_0)).unread (blk3_0 V c t)) ((hstage3_1 ((cfg3.slots t 1).cast nbuf3_1)).unread (blk3_1 V c t)) ((hstage3_2 ((cfg3.slots t 2).cast nbuf3_2)).unread (blk3_2 V c t))

/-- The region's proof data: the arrays as found; after the body at point `t` every input block as fetched and the
    output block at what the run's witness at `t` reads; the invariant the scoped buffers and the generator
    register; nothing owed; full shares. -/
def dat3 (c : Dev nD) : Dat τ (Elt F) Unit ℕ (UR sig nD τ) ℕ cfg3 c where
  A w := V c (Pipeline.arrRef spec3 w)
  after w t := match w with
    | ⟨0, _⟩ => blk3_0 V c t
    | ⟨1, _⟩ => blk3_1 V c t
    | ⟨2, _⟩ => blk3_2 V c t
    | ⟨3, _⟩ => (win3_3.stage (cfg3.slots t 3)).view.read (Elt F) (K3 V c t).1
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = blk3_0 V c t := rfl
theorem after3_1 (c : Dev nD) (t : Fin cfg3.N) : (dat3 V c).after 1 t = blk3_1 V c t := rfl
theorem after3_2 (c : Dev nD) (t : Fin cfg3.N) : (dat3 V c).after 2 t = blk3_2 V c t := rfl
theorem after3_3 (c : Dev nD) (t : Fin cfg3.N) : (dat3 V c).after 3 t = (win3_3.stage (cfg3.slots t 3)).view.read (Elt F) (K3 V c t).1 := rfl

/-- An input's current staging buffer holds its block at every point, fetched there or not: the window is an
    input, never idle and uncut, and the body leaves the block in place. -/
theorem before3_0 (c : Dev nD) (t : Fin cfg3.N) (d) : (dat3 V c).before 0 t d = blk3_0 V c t :=
  ((dat3 V c).before_in_eq_fetched 0 rfl (fun _ => rfl) (fun _ _ _ => rfl)
    (fun t => by rw [after3_0]; unfold Dat.blockOf; rw [A_eq3]; try rfl) t d).trans
    (by unfold Dat.fetched Dat.blockOf; rw [A_eq3]; try rfl)
theorem before3_1 (c : Dev nD) (t : Fin cfg3.N) (d) : (dat3 V c).before 1 t d = blk3_1 V c t :=
  ((dat3 V c).before_in_eq_fetched 1 rfl (fun _ => rfl) (fun _ _ _ => rfl)
    (fun t => by rw [after3_1]; unfold Dat.blockOf; rw [A_eq3]; try rfl) t d).trans
    (by unfold Dat.fetched Dat.blockOf; rw [A_eq3]; try rfl)
theorem before3_2 (c : Dev nD) (t : Fin cfg3.N) (d) : (dat3 V c).before 2 t d = blk3_2 V c t :=
  ((dat3 V c).before_in_eq_fetched 2 rfl (fun _ => rfl) (fun _ _ _ => rfl)
    (fun t => by rw [after3_2]; unfold Dat.blockOf; rw [A_eq3]; try rfl) t d).trans
    (by unfold Dat.fetched Dat.blockOf; rw [A_eq3]; try rfl)

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

set_option maxHeartbeats 4000000 in
/-- The body at any point: the staged blocks, the scratch buffer out of the scoped rest and the invariant taken
    apart, the run at that point applied, its post put back together. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  rw [show (dat3 V c).Φ t.castSucc = Pipeline.ΦA spec3 c from rfl]; unfold Pipeline.ΦA
  rw [scratch_split3]
  unfold owns
  iintro ⟨⟨⟨G0, Hrest⟩, Hp⟩, Ho, ⟨%d0, %f0, %hf0, H0⟩, ⟨%d1, %f1, %hf1, H1⟩, ⟨%d2, %f2, %hf2, H2⟩, ⟨%d3, %f3, -, H3⟩⟩
  obtain rfl := (hstage3_0 ((cfg3.slots t 0).cast nbuf3_0)).eq_unread hf0
  obtain rfl := (hstage3_1 ((cfg3.slots t 1).cast nbuf3_1)).eq_unread hf1
  obtain rfl := (hstage3_2 ((cfg3.slots t 2).cast nbuf3_2)).eq_unread hf2
  iapply ((K3 V c t).2 Set.univ _)
  isplitl [H0]; · (iexact H0)
  isplitl [H1]; · (iexact H1)
  isplitl [H2]; · (iexact H2)
  isplitl [H3]; · (iexists _; iexact H3)
  isplitl [G0]; · (iapply (scratch_in3 c cc3_scratch0); iexact G0)
  iintro ⟨H0, H1, H2, H3, G0⟩
  isplitl [G0 Hrest Hp]
  · isplitl [G0 Hrest]
    · isplitl [G0]
      · iapply (scratch_out3 c cc3_scratch0); iexact G0
      · iexact Hrest
    · iexact Hp
  isplitl [Ho]; · iexact Ho
  isplitl [H0]; · (iexists _; isplitr; swap; (· iexact H0); ipureintro; exact Memref.IsWhole.read_unread _ _)
  isplitl [H1]; · (iexists _; isplitr; swap; (· iexact H1); ipureintro; exact Memref.IsWhole.read_unread _ _)
  isplitl [H2]; · (iexists _; isplitr; swap; (· iexact H2); ipureintro; exact Memref.IsWhole.read_unread _ _)
  iexists _; isplitr; swap; (· iexact H3); ipureintro; rfl

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.ReferenceIdeal.Hand

end
-- ==== Proof.RefHeadRegion.lean ====
/-
  The last region of the reference: three dense layers (a matrix product into zero plus a bias row, a rectifier after the
  first two) and a log-softmax along the 16 classes, on whole-array windows, one grid point, no scratch.
  Here: the kernel body run once by the symbolic executor from its input blocks' raw contents (the output blocks
  at anything), its witness (the raw contents each output block holds afterwards, as a function of the inputs'), the
  region's proof data at a parameter `V` (the buffers' contents when the region is entered) and the body obligation
  at the region's one grid point.  A staging buffer is a whole memref, so what it reads and its raw contents
  determine each other.
-/
import proofs.«147627_g2000402439390779_pallasbulk_891_17_alg».proof.Proof.Gen.ReferenceIdeal.Launch
import proofs.«147627_g2000402439390779_pallasbulk_891_17_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Cert.ReferenceIdeal.Facts]

local notation "𝕄" => MT nD τ sig Unit (Elt F) ℕ (UR sig nD τ) ℕ

/-- A memref's raw contents on core `c`, and the memref held at them. -/
abbrev Bf4 (c : Dev nD) {sp : Space} {S : Shape} {e : EltTy} (M : Memref sig .tc sp S e) : Type := M.view.ty.Contents (Elt F)
abbrev pt4 (c : Dev nD) {sp : Space} {S : Shape} {e : EltTy} (M : Memref sig .tc sp S e) (f : Bf4 (F := F) c M) : sProp 𝕄 :=
  M.view.loc (c : Thread nD τ) ↦[M.view.set]{fullShare} f

/-- A whole memref read at `X` is held at the raw contents that read `X`, and conversely; held at raw contents
    `f` it reads what `f` reads. -/
theorem owns_to_pt4 (c : Dev nD) {sp : Space} {S : Shape} {e : EltTy} (M : Memref sig .tc sp S e) (h : M.IsWhole) (X : S.Idx → Elt F e) :
    (owns (c : Thread nD τ) M fullShare X : sProp 𝕄) ⊢ pt4 c M (h.unread X) := by
  unfold owns; iintro ⟨%f, %hf, H⟩; obtain rfl := h.eq_unread hf; iexact H
theorem pt_to_owns4 (c : Dev nD) {sp : Space} {S : Shape} {e : EltTy} (M : Memref sig .tc sp S e) (h : M.IsWhole) (X : S.Idx → Elt F e) :
    (pt4 c M (h.unread X) : sProp 𝕄) ⊢ owns (c : Thread nD τ) M fullShare X := by
  unfold owns; iintro H; iexists _; isplitr; · ipureintro; exact h.read_unread X
  iexact H
theorem pt_to_owns_read4 (c : Dev nD) {sp : Space} {S : Shape} {e : EltTy} (M : Memref sig .tc sp S e) (f : Bf4 (F := F) c M) :
    (pt4 c M f : sProp 𝕄) ⊢ owns (c : Thread nD τ) M fullShare (M.view.read (Elt F) f) := by
  unfold owns; iintro H; iexists f; isplitr; · ipureintro; rfl
  iexact H
theorem owns_to_ex4 (c : Dev nD) {sp : Space} {S : Shape} {e : EltTy} (M : Memref sig .tc sp S e) (X : S.Idx → Elt F e) :
    (owns (c : Thread nD τ) M fullShare X : sProp 𝕄) ⊢ iprop(∃ f, pt4 c M f) := by
  unfold owns; iintro ⟨%f, -, H⟩; iexists f; iexact H

set_option maxHeartbeats 8000000 in
/-- The body from its input blocks: it runs to its return, hands the inputs back unchanged and leaves each
    output block at the witness. -/
noncomputable def run4 (c : Dev nD) (i : grid4.Coords) (M0 : Memref sig .tc .vmem S8x2048 .bf16) (h0 : M0.IsWhole) (M1 : Memref sig .tc .vmem S2048x512 .bf16) (h1 : M1.IsWhole) (M2 : Memref sig .tc .vmem S1x512 .f32) (h2 : M2.IsWhole) (M3 : Memref sig .tc .vmem S512x1024 .bf16) (h3 : M3.IsWhole) (M4 : Memref sig .tc .vmem S1x1024 .f32) (h4 : M4.IsWhole) (M5 : Memref sig .tc .vmem S1024x16 .bf16) (h5 : M5.IsWhole) (M6 : Memref sig .tc .vmem S1x16 .f32) (h6 : M6.IsWhole) (M7 : Memref sig .tc .vmem S8x16 .f32) (h7 : M7.IsWhole)
    (f0 : Bf4 (F := F) c M0) (f1 : Bf4 (F := F) c M1) (f2 : Bf4 (F := F) c M2) (f3 : Bf4 (F := F) c M3) (f4 : Bf4 (F := F) c M4) (f5 : Bf4 (F := F) c M5) (f6 : Bf4 (F := F) c M6) :
    { W : Bf4 (F := F) c M7 // ∀ (E : Set ℕ) (K : PUnit → sProp 𝕄),
        iprop(pt4 c M0 f0
            ∗ pt4 c M1 f1
            ∗ pt4 c M2 f2
            ∗ pt4 c M3 f3
            ∗ pt4 c M4 f4
            ∗ pt4 c M5 f5
            ∗ pt4 c M6 f6
            ∗ (∃ f, pt4 c M7 f)
            ∗ (iprop(pt4 c M0 f0
                ∗ pt4 c M1 f1
                ∗ pt4 c M2 f2
                ∗ pt4 c M3 f3
                ∗ pt4 c M4 f4
                ∗ pt4 c M5 f5
                ∗ pt4 c M6 f6
                ∗ pt4 c M7 W) -∗ K ⟨⟩))
          ⊢ wp frame (wpE (defs₀ (F := F)) Variants.none c none) E (cc4__head_kernel i M0 h0 M1 h1 M2 h2 M3 h3 M4 h4 M5 h5 M6 h6 M7 h7) K } := by
  refine ⟨?_, fun E K => ?run⟩
  case run =>
    iintro ⟨H0, H1, H2, H3, H4, H5, H6, ⟨%f7, H7⟩, Hk⟩
    sl_exec!
    sl_step
    iapply Hk
    isplitl [H0]; · (iexact H0)
    isplitl [H1]; · (iexact H1)
    isplitl [H2]; · (iexact H2)
    isplitl [H3]; · (iexact H3)
    isplitl [H4]; · (iexact H4)
    isplitl [H5]; · (iexact H5)
    isplitl [H6]; · (iexact H6)
    iexact H7

-- the witness is never opened below: only its existence and the triple are used
attribute [irreducible] run4

variable (V : (c : Dev nD) → (b : Ref sig .tc) → Buf (Elt F) ((c : Thread nD τ).loc b))

/-- Window `w`'s block at the one grid point, read off its array as the region finds it. -/
abbrev blk4_0 (c : Dev nD) : (cfg4.win 0).block.Idx → Elt F (cfg4.win 0).elt :=
  ((cfg4.win 0).blk t4_0).view.read (Elt F) (V c (Pipeline.arrRef spec4 0))
abbrev blk4_1 (c : Dev nD) : (cfg4.win 1).block.Idx → Elt F (cfg4.win 1).elt :=
  ((cfg4.win 1).blk t4_0).view.read (Elt F) (V c (Pipeline.arrRef spec4 1))
abbrev blk4_2 (c : Dev nD) : (cfg4.win 2).block.Idx → Elt F (cfg4.win 2).elt :=
  ((cfg4.win 2).blk t4_0).view.read (Elt F) (V c (Pipeline.arrRef spec4 2))
abbrev blk4_3 (c : Dev nD) : (cfg4.win 3).block.Idx → Elt F (cfg4.win 3).elt :=
  ((cfg4.win 3).blk t4_0).view.read (Elt F) (V c (Pipeline.arrRef spec4 3))
abbrev blk4_4 (c : Dev nD) : (cfg4.win 4).block.Idx → Elt F (cfg4.win 4).elt :=
  ((cfg4.win 4).blk t4_0).view.read (Elt F) (V c (Pipeline.arrRef spec4 4))
abbrev blk4_5 (c : Dev nD) : (cfg4.win 5).block.Idx → Elt F (cfg4.win 5).elt :=
  ((cfg4.win 5).blk t4_0).view.read (Elt F) (V c (Pipeline.arrRef spec4 5))
abbrev blk4_6 (c : Dev nD) : (cfg4.win 6).block.Idx → Elt F (cfg4.win 6).elt :=
  ((cfg4.win 6).blk t4_0).view.read (Elt F) (V c (Pipeline.arrRef spec4 6))

/-- The run at the staged blocks (each input's raw contents the ones that read its block). -/
abbrev K4 (c : Dev nD) := run4 (F := F) c (grid4.coords t4_0) (win4_0.stage (cfg4.slots t4_0 0)) (hstage4_0 ((cfg4.slots t4_0 0).cast nbuf4_0)) (win4_1.stage (cfg4.slots t4_0 1)) (hstage4_1 ((cfg4.slots t4_0 1).cast nbuf4_1)) (win4_2.stage (cfg4.slots t4_0 2)) (hstage4_2 ((cfg4.slots t4_0 2).cast nbuf4_2)) (win4_3.stage (cfg4.slots t4_0 3)) (hstage4_3 ((cfg4.slots t4_0 3).cast nbuf4_3)) (win4_4.stage (cfg4.slots t4_0 4)) (hstage4_4 ((cfg4.slots t4_0 4).cast nbuf4_4)) (win4_5.stage (cfg4.slots t4_0 5)) (hstage4_5 ((cfg4.slots t4_0 5).cast nbuf4_5)) (win4_6.stage (cfg4.slots t4_0 6)) (hstage4_6 ((cfg4.slots t4_0 6).cast nbuf4_6)) (win4_7.stage (cfg4.slots t4_0 7)) (hstage4_7 ((cfg4.slots t4_0 7).cast nbuf4_7))
  ((hstage4_0 ((cfg4.slots t4_0 0).cast nbuf4_0)).unread (blk4_0 V c)) ((hstage4_1 ((cfg4.slots t4_0 1).cast nbuf4_1)).unread (blk4_1 V c)) ((hstage4_2 ((cfg4.slots t4_0 2).cast nbuf4_2)).unread (blk4_2 V c)) ((hstage4_3 ((cfg4.slots t4_0 3).cast nbuf4_3)).unread (blk4_3 V c)) ((hstage4_4 ((cfg4.slots t4_0 4).cast nbuf4_4)).unread (blk4_4 V c)) ((hstage4_5 ((cfg4.slots t4_0 5).cast nbuf4_5)).unread (blk4_5 V c)) ((hstage4_6 ((cfg4.slots t4_0 6).cast nbuf4_6)).unread (blk4_6 V c))

/-- The region's proof data: the arrays as found; after the body every input block as fetched and every
    output block at what the run's witness reads; the invariant the scoped buffers and the generator register;
    nothing owed; full shares. -/
def dat4 (c : Dev nD) : Dat τ (Elt F) Unit ℕ (UR sig nD τ) ℕ cfg4 c where
  A w := V c (Pipeline.arrRef spec4 w)
  after w _ := match w with
    | ⟨0, _⟩ => blk4_0 V c
    | ⟨1, _⟩ => blk4_1 V c
    | ⟨2, _⟩ => blk4_2 V c
    | ⟨3, _⟩ => blk4_3 V c
    | ⟨4, _⟩ => blk4_4 V c
    | ⟨5, _⟩ => blk4_5 V c
    | ⟨6, _⟩ => blk4_6 V c
    | ⟨7, _⟩ => (win4_7.stage (cfg4.slots t4_0 7)).view.read (Elt F) (K4 V c).1
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = blk4_0 V c := rfl
theorem after4_1 (c : Dev nD) (t : Fin cfg4.N) : (dat4 V c).after 1 t = blk4_1 V c := rfl
theorem after4_2 (c : Dev nD) (t : Fin cfg4.N) : (dat4 V c).after 2 t = blk4_2 V c := rfl
theorem after4_3 (c : Dev nD) (t : Fin cfg4.N) : (dat4 V c).after 3 t = blk4_3 V c := rfl
theorem after4_4 (c : Dev nD) (t : Fin cfg4.N) : (dat4 V c).after 4 t = blk4_4 V c := rfl
theorem after4_5 (c : Dev nD) (t : Fin cfg4.N) : (dat4 V c).after 5 t = blk4_5 V c := rfl
theorem after4_6 (c : Dev nD) (t : Fin cfg4.N) : (dat4 V c).after 6 t = blk4_6 V c := rfl
theorem after4_7 (c : Dev nD) (t : Fin cfg4.N) : (dat4 V c).after 7 t = (win4_7.stage (cfg4.slots t4_0 7)).view.read (Elt F) (K4 V c).1 := rfl

theorem before4_0 (c : Dev nD) (d) : (dat4 V c).before 0 t4_0 d = blk4_0 V c := by
  unfold Dat.before; split
  · rfl
  · exact absurd (fetch4_0 t4_0) ‹_›
theorem before4_1 (c : Dev nD) (d) : (dat4 V c).before 1 t4_0 d = blk4_1 V c := by
  unfold Dat.before; split
  · rfl
  · exact absurd (fetch4_1 t4_0) ‹_›
theorem before4_2 (c : Dev nD) (d) : (dat4 V c).before 2 t4_0 d = blk4_2 V c := by
  unfold Dat.before; split
  · rfl
  · exact absurd (fetch4_2 t4_0) ‹_›
theorem before4_3 (c : Dev nD) (d) : (dat4 V c).before 3 t4_0 d = blk4_3 V c := by
  unfold Dat.before; split
  · rfl
  · exact absurd (fetch4_3 t4_0) ‹_›
theorem before4_4 (c : Dev nD) (d) : (dat4 V c).before 4 t4_0 d = blk4_4 V c := by
  unfold Dat.before; split
  · rfl
  · exact absurd (fetch4_4 t4_0) ‹_›
theorem before4_5 (c : Dev nD) (d) : (dat4 V c).before 5 t4_0 d = blk4_5 V c := by
  unfold Dat.before; split
  · rfl
  · exact absurd (fetch4_5 t4_0) ‹_›
theorem before4_6 (c : Dev nD) (d) : (dat4 V c).before 6 t4_0 d = blk4_6 V c := by
  unfold Dat.before; split
  · rfl
  · exact absurd (fetch4_6 t4_0) ‹_›

/-- What the body is called with at the point, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

set_option maxHeartbeats 4000000 in
/-- The body at the point: the staged blocks and the invariant taken apart, the run applied, its post
    put back together. -/
theorem sound_body4 (c : Dev nD) (t : Fin cfg4.N) :
    bodyPre4 V c t ⊢ wp frame (wpE (defs₀ (F := F)) Variants.none c none) Set.univ (bodyAt4 t) (fun _ => bodyPost4 V c t) := by
  obtain rfl := fin_N4 t
  unfold bodyPre4 bodyPost4 bodyAt4
  simp only [before4_0, before4_1, before4_2, before4_3, before4_4, before4_5, before4_6]
  rw [show (dat4 V c).Φ t4_0.succ = (dat4 V c).Φ t4_0.castSucc from rfl,
    show (dat4 V c).owesAt () t4_0.succ = (dat4 V c).owesAt () t4_0.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((K4 V c).2 Set.univ _)
  isplitl [H0]; · (iapply (owns_to_pt4 c _ (hstage4_0 ((cfg4.slots t4_0 0).cast nbuf4_0)) _); iexact H0)
  isplitl [H1]; · (iapply (owns_to_pt4 c _ (hstage4_1 ((cfg4.slots t4_0 1).cast nbuf4_1)) _); iexact H1)
  isplitl [H2]; · (iapply (owns_to_pt4 c _ (hstage4_2 ((cfg4.slots t4_0 2).cast nbuf4_2)) _); iexact H2)
  isplitl [H3]; · (iapply (owns_to_pt4 c _ (hstage4_3 ((cfg4.slots t4_0 3).cast nbuf4_3)) _); iexact H3)
  isplitl [H4]; · (iapply (owns_to_pt4 c _ (hstage4_4 ((cfg4.slots t4_0 4).cast nbuf4_4)) _); iexact H4)
  isplitl [H5]; · (iapply (owns_to_pt4 c _ (hstage4_5 ((cfg4.slots t4_0 5).cast nbuf4_5)) _); iexact H5)
  isplitl [H6]; · (iapply (owns_to_pt4 c _ (hstage4_6 ((cfg4.slots t4_0 6).cast nbuf4_6)) _); iexact H6)
  isplitl [H7]; · (iapply (owns_to_ex4 c _ _); iexact H7)
  iintro ⟨H0, H1, H2, H3, H4, H5, H6, H7⟩
  isplitl [HΦ]; · iexact HΦ
  isplitl [Ho]; · iexact Ho
  isplitl [H0]; · (iapply (pt_to_owns4 c _ (hstage4_0 ((cfg4.slots t4_0 0).cast nbuf4_0)) _); iexact H0)
  isplitl [H1]; · (iapply (pt_to_owns4 c _ (hstage4_1 ((cfg4.slots t4_0 1).cast nbuf4_1)) _); iexact H1)
  isplitl [H2]; · (iapply (pt_to_owns4 c _ (hstage4_2 ((cfg4.slots t4_0 2).cast nbuf4_2)) _); iexact H2)
  isplitl [H3]; · (iapply (pt_to_owns4 c _ (hstage4_3 ((cfg4.slots t4_0 3).cast nbuf4_3)) _); iexact H3)
  isplitl [H4]; · (iapply (pt_to_owns4 c _ (hstage4_4 ((cfg4.slots t4_0 4).cast nbuf4_4)) _); iexact H4)
  isplitl [H5]; · (iapply (pt_to_owns4 c _ (hstage4_5 ((cfg4.slots t4_0 5).cast nbuf4_5)) _); iexact H5)
  isplitl [H6]; · (iapply (pt_to_owns4 c _ (hstage4_6 ((cfg4.slots t4_0 6).cast nbuf4_6)) _); iexact H6)
  iapply (pt_to_owns_read4 c _ _); iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.ReferenceIdeal.Hand

end
-- ==== Proof.ReferenceIdealFrame.lean ====
/-
  The frame of the whole program from its regions: the contents every region leaves in its output array named
  one after the other (each region's proof data are taken at the contents the earlier ones leave), one segment
  record per region over the thread state "every unscoped buffer at the boundary's contents, the generator
  register at some state, nothing owed", and the conditional frame of the host side applied to them.
-/
import proofs.«147627_g2000402439390779_pallasbulk_891_17_alg».proof.Proof.Gen.ReferenceIdeal.Regions
import proofs.«147627_g2000402439390779_pallasbulk_891_17_alg».proof.Proof.ReferenceIdealRunVals
import proofs.«147627_g2000402439390779_pallasbulk_891_17_alg».proof.Proof.RefPairRegion0
import proofs.«147627_g2000402439390779_pallasbulk_891_17_alg».proof.Proof.RefPairRegion1
import proofs.«147627_g2000402439390779_pallasbulk_891_17_alg».proof.Proof.RefPairRegion2
import proofs.«147627_g2000402439390779_pallasbulk_891_17_alg».proof.Proof.RefGmaxRegion
import proofs.«147627_g2000402439390779_pallasbulk_891_17_alg».proof.Proof.RefHeadRegion

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Cert.ReferenceIdeal.Facts]

local notation "𝕄" => MT nD τ sig Unit (Elt F) ℕ (UR sig nD τ) ℕ

variable (m : (ℓ : Loc nD τ sig) → Buf (Elt F) ℓ)

/-- What region 0 leaves in its output array `main_v58`: its one window's write-backs folded. -/
def o0 (c : Dev nD) : Buf (Elt F) ((c : Thread nD τ).loc main_v58) :=
  (dat0 (fun c b => V5 m c b) c).arrAt 5 cfg0.N
/-- The regions' outputs, the first 1 of them named. -/
abbrev outs1 : Outs (F := F) := fun j r c => match j with
    | 6 => Function.update (V0 m c) main_v58 (o0 m c) r
    | _ => V0 m c r
/-- What region 1 leaves in its output array `main_v62`: its one window's write-backs folded. -/
def o1 (c : Dev nD) : Buf (Elt F) ((c : Thread nD τ).loc main_v62) :=
  (dat1 (fun c b => V9 m (outs1 m) c b) c).arrAt 5 cfg1.N
/-- The regions' outputs, the first 2 of them named. -/
abbrev outs2 : Outs (F := F) := fun j r c => match j with
    | 6 => Function.update (V0 m c) main_v58 (o0 m c) r
    | 10 => Function.update (V0 m c) main_v62 (o1 m c) r
    | _ => V0 m c r
/-- What region 2 leaves in its output array `main_v66`: its one window's write-backs folded. -/
def o2 (c : Dev nD) : Buf (Elt F) ((c : Thread nD τ).loc main_v66) :=
  (dat2 (fun c b => V13 m (outs2 m) c b) c).arrAt 5 cfg2.N
/-- The regions' outputs, the first 3 of them named. -/
abbrev outs3 : Outs (F := F) := fun j r c => match j with
    | 6 => Function.update (V0 m c) main_v58 (o0 m c) r
    | 10 => Function.update (V0 m c) main_v62 (o1 m c) r
    | 14 => Function.update (V0 m c) main_v66 (o2 m c) r
    | _ => V0 m c r
/-- What region 3 leaves in its output array `main_v69`: its one window's write-backs folded. -/
def o3 (c : Dev nD) : Buf (Elt F) ((c : Thread nD τ).loc main_v69) :=
  (dat3 (fun c b => V17 m (outs3 m) c b) c).arrAt 3 cfg3.N
/-- The regions' outputs, the first 4 of them named. -/
abbrev outs4 : Outs (F := F) := fun j r c => match j with
    | 6 => Function.update (V0 m c) main_v58 (o0 m c) r
    | 10 => Function.update (V0 m c) main_v62 (o1 m c) r
    | 14 => Function.update (V0 m c) main_v66 (o2 m c) r
    | 18 => Function.update (V0 m c) main_v69 (o3 m c) r
    | _ => V0 m c r
/-- What region 4 leaves in its output array `main_v73`: its one window's write-backs folded. -/
def o4 (c : Dev nD) : Buf (Elt F) ((c : Thread nD τ).loc main_v73) :=
  (dat4 (fun c b => V19 m (outs4 m) c b) c).arrAt 7 cfg4.N
/-- The regions' outputs, the first 5 of them named. -/
abbrev outs5 : Outs (F := F) := fun j r c => match j with
    | 6 => Function.update (V0 m c) main_v58 (o0 m c) r
    | 10 => Function.update (V0 m c) main_v62 (o1 m c) r
    | 14 => Function.update (V0 m c) main_v66 (o2 m c) r
    | 18 => Function.update (V0 m c) main_v69 (o3 m c) r
    | 20 => Function.update (V0 m c) main_v73 (o4 m c) r
    | _ => V0 m c r

/-- The regions' outputs, all named. -/
abbrev outs : Outs (F := F) := outs5 m

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (fun c b => V5 m c b) c
  | ⟨1, _⟩ => fun c => dat1 (fun c b => V9 m (outs1 m) c b) c
  | ⟨2, _⟩ => fun c => dat2 (fun c b => V13 m (outs2 m) c b) c
  | ⟨3, _⟩ => fun c => dat3 (fun c b => V17 m (outs3 m) c b) c
  | ⟨4, _⟩ => fun c => dat4 (fun c b => V19 m (outs4 m) c b) c

/-- No core owes another anything: no level is assigned. -/
abbrev Lz : GSem nD τ sig → Finset Unit := fun _ => ∅
abbrev lvz : GSem nD τ sig → Unit → ℕ := fun _ _ => 0
/-- What rides beside the buffers through every segment: the generator register at some state and the core's dues, none. -/
abbrev Rst (c : Dev nD) : sProp 𝕄 := iprop((∃ r, prngReg c r) ∗ ∃ W, owes (c : Thread nD τ) (0 : CellTallies nD τ sig Unit) W)

set_option maxHeartbeats 2000000 in
/-- What region 0 leaves in each of its arrays is the next boundary's contents there: an input array is
    still what the region found, the output array is the fold of its write-backs. -/
theorem hF0 (c : Dev nD) (w : Fin cfg0.W) : (pdats m 0 c).arrAt w cfg0.N = V6 m (outs m) c (Pipeline.arrRef spec0 w) := by
  fin_cases w
  · exact ((dat0 (fun c b => V5 m c b) c).arrAt_in 0 rfl _).trans ((A_eq0 (fun c b => V5 m c b) c 0).trans (V6_of m (outs m) c main_v55 (by decide)).symm)
  · exact ((dat0 (fun c b => V5 m c b) c).arrAt_in 1 rfl _).trans ((A_eq0 (fun c b => V5 m c b) c 1).trans (V6_of m (outs m) c main_arg1 (by decide)).symm)
  · exact ((dat0 (fun c b => V5 m c b) c).arrAt_in 2 rfl _).trans ((A_eq0 (fun c b => V5 m c b) c 2).trans (V6_of m (outs m) c main_v56 (by decide)).symm)
  · exact ((dat0 (fun c b => V5 m c b) c).arrAt_in 3 rfl _).trans ((A_eq0 (fun c b => V5 m c b) c 3).trans (V6_of m (outs m) c main_arg3 (by decide)).symm)
  · exact ((dat0 (fun c b => V5 m c b) c).arrAt_in 4 rfl _).trans ((A_eq0 (fun c b => V5 m c b) c 4).trans (V6_of m (outs m) c main_v57 (by decide)).symm)
  · show _ = Function.update (V5 m c) (Proc.devRef .tc main_v58) (outs m 6 main_v58 c) (Proc.devRef .tc main_v58)
    rw [Function.update_self]
    show _ = Function.update (V0 m c) (Proc.devRef .tc main_v58) (o0 m c) (Proc.devRef .tc main_v58)
    rw [Function.update_self]
    rfl
theorem hrest0 (c : Dev nD) : ∀ b, b ∉ Finset.univ.image (Pipeline.arrRef spec0) → V6 m (outs m) c b = V5 m c b :=
  fun b hb => V6_of m (outs m) c b (by
    intro h; rw [List.mem_singleton] at h; subst h
    exact hb (Finset.mem_image.mpr ⟨5, Finset.mem_univ _, rfl⟩))

set_option backward.isDefEq.respectTransparency.types false in
/-- Region 0 over the thread state: entered from every unscoped buffer at the boundary before it, left at the
    boundary after it; its arrays split out of the unscoped buffers and put back; the generator register into the
    invariant and out; nothing owed; no semaphore of the kernel's own. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (fun c b => V5 m c b) c).loose
  hwaits := Pipeline.hwaits_of_owed_zero _ _ _ _ Lz lvz 0 fun _ _ => rfl
  pre c := iprop(StableHlo.held (c : Thread nD τ) (Pipeline.ucRefs τ sig) (V5 m c) ∗ Rst c)
  post c := iprop(StableHlo.held (c : Thread nD τ) (Pipeline.ucRefs τ sig) (V6 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (fun b => V5 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V5 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V5 m c b) (fun b => V6 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 2000000 in
/-- What region 1 leaves in each of its arrays is the next boundary's contents there: an input array is
    still what the region found, the output array is the fold of its write-backs. -/
theorem hF1 (c : Dev nD) (w : Fin cfg1.W) : (pdats m 1 c).arrAt w cfg1.N = V10 m (outs m) c (Pipeline.arrRef spec1 w) := by
  fin_cases w
  · exact ((dat1 (fun c b => V9 m (outs1 m) c b) c).arrAt_in 0 rfl _).trans ((A_eq1 (fun c b => V9 m (outs1 m) c b) c 0).trans (V10_of m (outs m) c main_v59 (by decide)).symm)
  · exact ((dat1 (fun c b => V9 m (outs1 m) c b) c).arrAt_in 1 rfl _).trans ((A_eq1 (fun c b => V9 m (outs1 m) c b) c 1).trans (V10_of m (outs m) c main_arg5 (by decide)).symm)
  · exact ((dat1 (fun c b => V9 m (outs1 m) c b) c).arrAt_in 2 rfl _).trans ((A_eq1 (fun c b => V9 m (outs1 m) c b) c 2).trans (V10_of m (outs m) c main_v60 (by decide)).symm)
  · exact ((dat1 (fun c b => V9 m (outs1 m) c b) c).arrAt_in 3 rfl _).trans ((A_eq1 (fun c b => V9 m (outs1 m) c b) c 3).trans (V10_of m (outs m) c main_arg7 (by decide)).symm)
  · exact ((dat1 (fun c b => V9 m (outs1 m) c b) c).arrAt_in 4 rfl _).trans ((A_eq1 (fun c b => V9 m (outs1 m) c b) c 4).trans (V10_of m (outs m) c main_v61 (by decide)).symm)
  · show _ = Function.update (V9 m (outs m) c) (Proc.devRef .tc main_v62) (outs m 10 main_v62 c) (Proc.devRef .tc main_v62)
    rw [Function.update_self]
    show _ = Function.update (V0 m c) (Proc.devRef .tc main_v62) (o1 m c) (Proc.devRef .tc main_v62)
    rw [Function.update_self]
    rfl
theorem hrest1 (c : Dev nD) : ∀ b, b ∉ Finset.univ.image (Pipeline.arrRef spec1) → V10 m (outs m) c b = V9 m (outs m) c b :=
  fun b hb => V10_of m (outs m) c b (by
    intro h; rw [List.mem_singleton] at h; subst h
    exact hb (Finset.mem_image.mpr ⟨5, Finset.mem_univ _, rfl⟩))

set_option backward.isDefEq.respectTransparency.types false in
/-- Region 1 over the thread state: entered from every unscoped buffer at the boundary before it, left at the
    boundary after it; its arrays split out of the unscoped buffers and put back; the generator register into the
    invariant and out; nothing owed; no semaphore of the kernel's own. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (fun c b => V9 m (outs m) c b) c).loose
  hwaits := Pipeline.hwaits_of_owed_zero _ _ _ _ Lz lvz 1 fun _ _ => rfl
  pre c := iprop(StableHlo.held (c : Thread nD τ) (Pipeline.ucRefs τ sig) (V9 m (outs m) c) ∗ Rst c)
  post c := iprop(StableHlo.held (c : Thread nD τ) (Pipeline.ucRefs τ sig) (V10 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (fun b => V9 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V9 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V9 m (outs m) c b) (fun b => V10 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 2000000 in
/-- What region 2 leaves in each of its arrays is the next boundary's contents there: an input array is
    still what the region found, the output array is the fold of its write-backs. -/
theorem hF2 (c : Dev nD) (w : Fin cfg2.W) : (pdats m 2 c).arrAt w cfg2.N = V14 m (outs m) c (Pipeline.arrRef spec2 w) := by
  fin_cases w
  · exact ((dat2 (fun c b => V13 m (outs2 m) c b) c).arrAt_in 0 rfl _).trans ((A_eq2 (fun c b => V13 m (outs2 m) c b) c 0).trans (V14_of m (outs m) c main_v63 (by decide)).symm)
  · exact ((dat2 (fun c b => V13 m (outs2 m) c b) c).arrAt_in 1 rfl _).trans ((A_eq2 (fun c b => V13 m (outs2 m) c b) c 1).trans (V14_of m (outs m) c main_arg9 (by decide)).symm)
  · exact ((dat2 (fun c b => V13 m (outs2 m) c b) c).arrAt_in 2 rfl _).trans ((A_eq2 (fun c b => V13 m (outs2 m) c b) c 2).trans (V14_of m (outs m) c main_v64 (by decide)).symm)
  · exact ((dat2 (fun c b => V13 m (outs2 m) c b) c).arrAt_in 3 rfl _).trans ((A_eq2 (fun c b => V13 m (outs2 m) c b) c 3).trans (V14_of m (outs m) c main_arg11 (by decide)).symm)
  · exact ((dat2 (fun c b => V13 m (outs2 m) c b) c).arrAt_in 4 rfl _).trans ((A_eq2 (fun c b => V13 m (outs2 m) c b) c 4).trans (V14_of m (outs m) c main_v65 (by decide)).symm)
  · show _ = Function.update (V13 m (outs m) c) (Proc.devRef .tc main_v66) (outs m 14 main_v66 c) (Proc.devRef .tc main_v66)
    rw [Function.update_self]
    show _ = Function.update (V0 m c) (Proc.devRef .tc main_v66) (o2 m c) (Proc.devRef .tc main_v66)
    rw [Function.update_self]
    rfl
theorem hrest2 (c : Dev nD) : ∀ b, b ∉ Finset.univ.image (Pipeline.arrRef spec2) → V14 m (outs m) c b = V13 m (outs m) c b :=
  fun b hb => V14_of m (outs m) c b (by
    intro h; rw [List.mem_singleton] at h; subst h
    exact hb (Finset.mem_image.mpr ⟨5, Finset.mem_univ _, rfl⟩))

set_option backward.isDefEq.respectTransparency.types false in
/-- Region 2 over the thread state: entered from every unscoped buffer at the boundary before it, left at the
    boundary after it; its arrays split out of the unscoped buffers and put back; the generator register into the
    invariant and out; nothing owed; no semaphore of the kernel's own. -/
def reg2 : Pipeline.RegionSeg (pcfgs (F := F)) adm (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (fun c b => V13 m (outs m) c b) c).loose
  hwaits := Pipeline.hwaits_of_owed_zero _ _ _ _ Lz lvz 2 fun _ _ => rfl
  pre c := iprop(StableHlo.held (c : Thread nD τ) (Pipeline.ucRefs τ sig) (V13 m (outs m) c) ∗ Rst c)
  post c := iprop(StableHlo.held (c : Thread nD τ) (Pipeline.ucRefs τ sig) (V14 m (outs m) c) ∗ Rst c)
  X c := iprop(∃ r, prngReg c r)
  Y c := iprop(∃ r, prngReg c r)
  Z c := Pipeline.unscopedRest (Ix := Unit) (Name := ℕ) (U := UR sig nD τ) (Lvl := ℕ) spec2 c (fun b => V13 m (outs m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V13 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V13 m (outs m) c b) (fun b => V14 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 2000000 in
/-- What region 3 leaves in each of its arrays is the next boundary's contents there: an input array is
    still what the region found, the output array is the fold of its write-backs. -/
theorem hF3 (c : Dev nD) (w : Fin cfg3.W) : (pdats m 3 c).arrAt w cfg3.N = V18 m (outs m) c (Pipeline.arrRef spec3 w) := by
  fin_cases w
  · exact ((dat3 (fun c b => V17 m (outs3 m) c b) c).arrAt_in 0 rfl _).trans ((A_eq3 (fun c b => V17 m (outs3 m) c b) c 0).trans (V18_of m (outs m) c main_v67 (by decide)).symm)
  · exact ((dat3 (fun c b => V17 m (outs3 m) c b) c).arrAt_in 1 rfl _).trans ((A_eq3 (fun c b => V17 m (outs3 m) c b) c 1).trans (V18_of m (outs m) c main_arg13 (by decide)).symm)
  · exact ((dat3 (fun c b => V17 m (outs3 m) c b) c).arrAt_in 2 rfl _).trans ((A_eq3 (fun c b => V17 m (outs3 m) c b) c 2).trans (V18_of m (outs m) c main_v68 (by decide)).symm)
  · show _ = Function.update (V17 m (outs m) c) (Proc.devRef .tc main_v69) (outs m 18 main_v69 c) (Proc.devRef .tc main_v69)
    rw [Function.update_self]
    show _ = Function.update (V0 m c) (Proc.devRef .tc main_v69) (o3 m c) (Proc.devRef .tc main_v69)
    rw [Function.update_self]
    rfl
theorem hrest3 (c : Dev nD) : ∀ b, b ∉ Finset.univ.image (Pipeline.arrRef spec3) → V18 m (outs m) c b = V17 m (outs m) c b :=
  fun b hb => V18_of m (outs m) c b (by
    intro h; rw [List.mem_singleton] at h; subst h
    exact hb (Finset.mem_image.mpr ⟨3, Finset.mem_univ _, rfl⟩))

set_option backward.isDefEq.respectTransparency.types false in
/-- Region 3 over the thread state: entered from every unscoped buffer at the boundary before it, left at the
    boundary after it; its arrays split out of the unscoped buffers and put back; the generator register into the
    invariant and out; nothing owed; no semaphore of the kernel's own. -/
def reg3 : Pipeline.RegionSeg (pcfgs (F := F)) adm (pdats m) () defs₀ Variants.none Lz lvz 3 where
  win := launch3.win.to₀
  block_pos := launch3.block_pos
  stage_whole := launch3.stage_whole
  K := PEmpty
  osem k := k.elim
  ho := Pipeline.OwnSemFacts.none _
  hbody c := (body_obligation3 (fun c b => V17 m (outs m) c b) c).loose
  hwaits := Pipeline.hwaits_of_owed_zero _ _ _ _ Lz lvz 3 fun _ _ => rfl
  pre c := iprop(StableHlo.held (c : Thread nD τ) (Pipeline.ucRefs τ sig) (V17 m (outs m) c) ∗ Rst c)
  post c := iprop(StableHlo.held (c : Thread nD τ) (Pipeline.ucRefs τ sig) (V18 m (outs m) c) ∗ Rst c)
  X c := iprop(∃ r, prngReg c r)
  Y c := iprop(∃ r, prngReg c r)
  Z c := Pipeline.unscopedRest (Ix := Unit) (Name := ℕ) (U := UR sig nD τ) (Lvl := ℕ) spec3 c (fun b => V17 m (outs m) c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => V17 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => V17 m (outs m) c b) (fun b => V18 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 2000000 in
/-- What region 4 leaves in each of its arrays is the next boundary's contents there: an input array is
    still what the region found, the output array is the fold of its write-backs. -/
theorem hF4 (c : Dev nD) (w : Fin cfg4.W) : (pdats m 4 c).arrAt w cfg4.N = V20 m (outs m) c (Pipeline.arrRef spec4 w) := by
  fin_cases w
  · exact ((dat4 (fun c b => V19 m (outs4 m) c b) c).arrAt_in 0 rfl _).trans ((A_eq4 (fun c b => V19 m (outs4 m) c b) c 0).trans (V20_of m (outs m) c main_v69 (by decide)).symm)
  · exact ((dat4 (fun c b => V19 m (outs4 m) c b) c).arrAt_in 1 rfl _).trans ((A_eq4 (fun c b => V19 m (outs4 m) c b) c 1).trans (V20_of m (outs m) c main_arg15 (by decide)).symm)
  · exact ((dat4 (fun c b => V19 m (outs4 m) c b) c).arrAt_in 2 rfl _).trans ((A_eq4 (fun c b => V19 m (outs4 m) c b) c 2).trans (V20_of m (outs m) c main_v70 (by decide)).symm)
  · exact ((dat4 (fun c b => V19 m (outs4 m) c b) c).arrAt_in 3 rfl _).trans ((A_eq4 (fun c b => V19 m (outs4 m) c b) c 3).trans (V20_of m (outs m) c main_arg17 (by decide)).symm)
  · exact ((dat4 (fun c b => V19 m (outs4 m) c b) c).arrAt_in 4 rfl _).trans ((A_eq4 (fun c b => V19 m (outs4 m) c b) c 4).trans (V20_of m (outs m) c main_v71 (by decide)).symm)
  · exact ((dat4 (fun c b => V19 m (outs4 m) c b) c).arrAt_in 5 rfl _).trans ((A_eq4 (fun c b => V19 m (outs4 m) c b) c 5).trans (V20_of m (outs m) c main_arg19 (by decide)).symm)
  · exact ((dat4 (fun c b => V19 m (outs4 m) c b) c).arrAt_in 6 rfl _).trans ((A_eq4 (fun c b => V19 m (outs4 m) c b) c 6).trans (V20_of m (outs m) c main_v72 (by decide)).symm)
  · show _ = Function.update (V19 m (outs m) c) (Proc.devRef .tc main_v73) (outs m 20 main_v73 c) (Proc.devRef .tc main_v73)
    rw [Function.update_self]
    show _ = Function.update (V0 m c) (Proc.devRef .tc main_v73) (o4 m c) (Proc.devRef .tc main_v73)
    rw [Function.update_self]
    rfl
theorem hrest4 (c : Dev nD) : ∀ b, b ∉ Finset.univ.image (Pipeline.arrRef spec4) → V20 m (outs m) c b = V19 m (outs m) c b :=
  fun b hb => V20_of m (outs m) c b (by
    intro h; rw [List.mem_singleton] at h; subst h
    exact hb (Finset.mem_image.mpr ⟨7, Finset.mem_univ _, rfl⟩))

set_option backward.isDefEq.respectTransparency.types false in
/-- Region 4 over the thread state: entered from every unscoped buffer at the boundary before it, left at the
    boundary after it; its arrays split out of the unscoped buffers and put back; the generator register into the
    invariant and out; nothing owed; no semaphore of the kernel's own. -/
def reg4 : Pipeline.RegionSeg (pcfgs (F := F)) adm (pdats m) () defs₀ Variants.none Lz lvz 4 where
  win := launch4.win.to₀
  block_pos := launch4.block_pos
  stage_whole := launch4.stage_whole
  K := PEmpty
  osem k := k.elim
  ho := Pipeline.OwnSemFacts.none _
  hbody c := (body_obligation4 (fun c b => V19 m (outs m) c b) c).loose
  hwaits := Pipeline.hwaits_of_owed_zero _ _ _ _ Lz lvz 4 fun _ _ => rfl
  pre c := iprop(StableHlo.held (c : Thread nD τ) (Pipeline.ucRefs τ sig) (V19 m (outs m) c) ∗ Rst c)
  post c := iprop(StableHlo.held (c : Thread nD τ) (Pipeline.ucRefs τ sig) (V20 m (outs m) c) ∗ Rst c)
  X c := iprop(∃ r, prngReg c r)
  Y c := iprop(∃ r, prngReg c r)
  Z c := Pipeline.unscopedRest (Ix := Unit) (Name := ℕ) (U := UR sig nD τ) (Lvl := ℕ) spec4 c (fun b => V19 m (outs m) c b)
  hentry c := by
    rw [Pipeline.ownSems0_none]
    have hsplit := Pipeline.arrays_of_unscopedBufs (p := 4) (pcfgs (F := F)) adm (pdats m) launch4.win launch4.arr_whole c
      ((pdats m 4 c).share_full fun _ => rfl) (fun b => V19 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (fun b => V19 m (outs m) c b) (fun b => V20 m (outs m) c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the launch a core's generator register and its dues (none) are what rides beside the buffers. -/
theorem rst_of_launch1 (ρ : Dev nD → PrngReg) (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)) : sProp 𝕄)
      ⊢ Rst (F := F) c := by
  iintro ⟨-, HO, -, Hp, -⟩
  isplitl [Hp]; · iexists _; iexact Hp
  iexists ∅; iexact HO
/-- The same on every core at once. -/
theorem rst_of_launch (ρ : Dev nD → PrngReg) :
    ((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) : sProp 𝕄)
      ⊢ bigSep Finset.univ (fun c : Dev nD => Rst (F := F) c) :=
  bigSep_mono fun c _ => rst_of_launch1 (F := F) ρ c

set_option backward.isDefEq.respectTransparency.types false in
/-- THE FRAME: every weakly fair execution terminates, nothing faults, and every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_cond (F := F) m emb₁ () Variants.none Lz lvz (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rst c)
    (by
      iintro ⟨H, -⟩
      imodintro
      iapply (rst_of_launch (F := F) ρ)
      iexact H)
    (fun c => by iintro ⟨-, H⟩; iexact H)
    (reg0 m) (fun _ => .rfl) (fun _ => .rfl) (reg1 m) (fun _ => .rfl) (fun _ => .rfl) (reg2 m) (fun _ => .rfl) (fun _ => .rfl) (reg3 m) (fun _ => .rfl) (fun _ => .rfl) (reg4 m) (fun _ => .rfl) (fun _ => .rfl)

set_option backward.isDefEq.respectTransparency.types false in
/-- THE RUN WITH ITS RESULT: every weakly fair execution terminates, nothing faults, the result array ends at what the
    last region leaves in it and every argument array as launched. -/
theorem run_full (ρ : Dev nD → PrngReg) :
    θ_run defs (onTc (τ := τ) (main (F := F))) ⟨m, fun _ => 0, ρ⟩ (fun r => ∀ c : Dev nD,
      r.2.mem ((c.tc : Thread nD τ).loc main_v73) = V20 m (outs m) c main_v73
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  run_cond_full (F := F) m emb₁ () Variants.none Lz lvz (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rst c)
    (by
      iintro ⟨H, -⟩
      imodintro
      iapply (rst_of_launch (F := F) ρ)
      iexact H)
    (fun c => by iintro ⟨-, H⟩; iexact H)
    (reg0 m) (fun _ => .rfl) (fun _ => .rfl) (reg1 m) (fun _ => .rfl) (fun _ => .rfl) (reg2 m) (fun _ => .rfl) (fun _ => .rfl) (reg3 m) (fun _ => .rfl) (fun _ => .rfl) (reg4 m) (fun _ => .rfl) (fun _ => .rfl)

end Cert.ReferenceIdeal.Hand

end
-- ==== Proof.LibTapSum.lean ====
/-
  Sums over the taps of a convolution written as one matrix product.

  A 2-D convolution with `a` row taps, `b` column taps and `c` input channels contracts, at each output
  position, over the triple (row tap, column tap, channel).  Written as ONE matrix product the triple is
  flattened row-major into a single axis of length `a * b * c` (index `t = (kh * b + kw) * c + ci`).  The
  same number is obtained by contracting, for each column tap `kw` separately, over the flattened pair
  (row tap, channel) of length `a * c` (index `k = kh * c + ci`) and adding the `b` partial results:
  both are the iterated sum over `kh`, `kw`, `ci`, and in a commutative additive monoid the order and the
  grouping of a finite sum do not matter.  No subtraction, no distributivity and no finiteness is used, so
  the statements hold on the extended reals as they stand.

  When every term whose column tap differs from one tap `w` is zero (a column of width one padded with
  zeros on both sides: only the middle tap ever meets data) the whole contraction collapses to the
  contraction over (row tap, channel) at that one tap.
-/
import Mathlib.Algebra.BigOperators.Group.Finset.Sigma
import Mathlib.Data.Fintype.BigOperators

namespace TapSum

open Finset

variable {M : Type*} [AddCommMonoid M]

/-- A sum over a row-major flattened pair of axes `[n, c]` (`t = i * c + j`) is the iterated sum over
    `i` and `j`. -/
theorem sum_flat2 (n c : ℕ) (h : ℕ → ℕ → M) :
    ∑ t ∈ range (n * c), h (t / c) (t % c) = ∑ i ∈ range n, ∑ j ∈ range c, h i j := by
  induction n with
  | zero => simp
  | succ n ih =>
    rw [Nat.succ_mul, sum_range_add, ih, sum_range_succ]
    congr 1
    refine sum_congr rfl fun j hj => ?_
    have hj' : j < c := mem_range.mp hj
    have hc : 0 < c := Nat.lt_of_le_of_lt (Nat.zero_le j) hj'
    rw [Nat.add_comm (n * c) j, Nat.add_mul_div_right j n hc, Nat.add_mul_mod_self_right,
      Nat.div_eq_of_lt hj', Nat.mod_eq_of_lt hj', Nat.zero_add]

/-- A sum over a row-major flattened triple of axes `[a, b, c]` (`t = (kh * b + kw) * c + ci`) is the
    iterated sum over `kh`, `kw` and `ci`. -/
theorem sum_flat3 (a b c : ℕ) (g : ℕ → ℕ → ℕ → M) :
    ∑ t ∈ range (a * b * c), g (t / (b * c)) (t / c % b) (t % c)
      = ∑ kh ∈ range a, ∑ kw ∈ range b, ∑ ci ∈ range c, g kh kw ci := by
  have h1 : ∀ t, g (t / (b * c)) (t / c % b) (t % c) = (fun i j => g (i / b) (i % b) j) (t / c) (t % c) := by
    intro t
    show g (t / (b * c)) (t / c % b) (t % c) = g (t / c / b) (t / c % b) (t % c)
    rw [Nat.div_div_eq_div_mul, Nat.mul_comm c b]
  rw [sum_congr rfl fun t _ => h1 t, sum_flat2 (a * b) c (fun i j => g (i / b) (i % b) j)]
  exact sum_flat2 a b (fun kh kw => ∑ ci ∈ range c, g kh kw ci)

/-- THE LAW OF THE TAPS.  Contracting over the flattened triple (row tap, column tap, channel) equals
    adding, over the column taps, the contractions over the flattened pair (row tap, channel). -/
theorem sum_taps (a b c : ℕ) (g : ℕ → ℕ → ℕ → M) :
    ∑ t ∈ range (a * b * c), g (t / (b * c)) (t / c % b) (t % c)
      = ∑ kw ∈ range b, ∑ k ∈ range (a * c), g (k / c) kw (k % c) := by
  rw [sum_flat3, sum_congr rfl fun kw _ => sum_flat2 a c (fun kh ci => g kh kw ci), sum_comm]

/-- Only one column tap meets data: when every term at a column tap other than `w` is zero, the
    contraction over the flattened triple is the contraction over (row tap, channel) at tap `w`. -/
theorem sum_taps_single (a b c w : ℕ) (hw : w < b) (g : ℕ → ℕ → ℕ → M)
    (hz : ∀ kh kw ci, kw ≠ w → g kh kw ci = 0) :
    ∑ t ∈ range (a * b * c), g (t / (b * c)) (t / c % b) (t % c)
      = ∑ k ∈ range (a * c), g (k / c) w (k % c) := by
  rw [sum_taps]
  refine sum_eq_single w (fun kw _ hne => ?_) (fun h => absurd (mem_range.mpr hw) h)
  exact sum_eq_zero fun k _ => hz _ _ _ hne

/-- The same sums over `Fin` index types: a sum over `Fin n` of a function of the index's value is the
    sum over `range n`.  (The bridge from a contraction `∑ k : Fin K, …` to the statements above.) -/
theorem sum_fin_val (n : ℕ) (f : ℕ → M) : ∑ k : Fin n, f k.val = ∑ k ∈ range n, f k :=
  Fin.sum_univ_eq_sum_range f n

end TapSum
-- ==== Proof.LibConvLaw.lean ====
/-
  The two ways of writing a 2-D convolution as matrix products, as sums over plain natural-number indices.

  At an output position (h, x) a convolution with `a` row taps, `b` column taps and `C` input channels is the sum
  over (kh, kw, ci) of  inp (h + kh) (x + kw) ci * w ((kh * b + kw) * C + ci),  the weight stored tap-major.
  `convFull` is that sum written as ONE contraction over the flattened triple t = (kh * b + kw) * C + ci (a patch
  matrix with a * b * C columns against the weight as stored).  `convRows` is the same number written as, for each
  column tap kw, ONE contraction over the flattened pair k = kh * C + ci against the re-laid weight
  `wcat k kw = w ((k / C * b + kw) * C + k % C)`, the `b` partial results added.  They agree in any commutative
  additive monoid with a multiplication: only the grouping of a finite sum changes (`TapSum.sum_taps`).

  When the input is one column wide and padded with zeros, only the column tap that meets the data contributes:
  `convFull_single`.
-/
import proofs.«147627_g2000402439390779_pallasbulk_891_17_alg».proof.Proof.LibTapSum

namespace TapSum

open Finset

variable {M : Type*} [AddCommMonoid M] [Mul M]

/-- The flattened index of the triple (row tap, column tap, channel) is recovered from its three parts. -/
theorem flat3_index (b C t : ℕ) (hb : 0 < b) (hC : 0 < C) :
    (t / (b * C) * b + t / C % b) * C + t % C = t := by
  have h1 : t / (b * C) = t / C / b := by rw [Nat.mul_comm b C, Nat.div_div_eq_div_mul]
  rw [h1, Nat.mul_comm (t / C / b) b, Nat.div_add_mod (t / C) b, Nat.mul_comm (t / C) C, Nat.div_add_mod]

/-- ONE contraction over the flattened (row tap, column tap, channel) axis. -/
def convFull (a b C : ℕ) (inp : ℕ → ℕ → ℕ → M) (w : ℕ → M) (h x : ℕ) : M :=
  ∑ t ∈ range (a * b * C), inp (h + t / (b * C)) (x + t / C % b) (t % C) * w t

/-- For each column tap ONE contraction over the flattened (row tap, channel) axis against the re-laid weight,
    the column-shifted partial results added. -/
def convRows (a b C : ℕ) (inp : ℕ → ℕ → ℕ → M) (wcat : ℕ → ℕ → M) (h x : ℕ) : M :=
  ∑ kw ∈ range b, ∑ k ∈ range (a * C), inp (h + k / C) (x + kw) (k % C) * wcat k kw

/-- THE TWO FORMS AGREE when the re-laid weight is the stored weight read at the re-flattened index. -/
theorem convRows_eq_convFull (a b C : ℕ) (hb : 0 < b) (hC : 0 < C) (inp : ℕ → ℕ → ℕ → M) (w : ℕ → M)
    (wcat : ℕ → ℕ → M) (hw : ∀ k kw, wcat k kw = w ((k / C * b + kw) * C + k % C)) (h x : ℕ) :
    convRows a b C inp wcat h x = convFull a b C inp w h x := by
  unfold convRows convFull
  have key := sum_taps a b C (fun kh kw ci => inp (h + kh) (x + kw) ci * w ((kh * b + kw) * C + ci))
  rw [sum_congr rfl fun kw _ => sum_congr rfl fun k _ => by rw [hw k kw]]
  rw [← key]
  refine sum_congr rfl fun t _ => ?_
  rw [flat3_index b C t hb hC]

/-- Only one column tap meets data: when the input vanishes at every column `x + kw` with `kw ≠ w0` (zero padding
    around a single column) and a product with a zero entry is zero, the full contraction collapses to the
    contraction over (row tap, channel) against the rows of the weight at column tap `w0`. -/
theorem convFull_single (a b C w0 : ℕ) (hw0 : w0 < b) (hb : 0 < b) (hC : 0 < C) (inp : ℕ → ℕ → ℕ → M) (w : ℕ → M)
    (h x : ℕ) (hmul : ∀ y : M, (0 : M) * y = 0) (hz : ∀ r kw ci, kw ≠ w0 → inp r (x + kw) ci = 0) :
    convFull a b C inp w h x
      = ∑ k ∈ range (a * C), inp (h + k / C) (x + w0) (k % C) * w ((k / C * b + w0) * C + k % C) := by
  unfold convFull
  have key := sum_taps_single a b C w0 hw0 (fun kh kw ci => inp (h + kh) (x + kw) ci * w ((kh * b + kw) * C + ci))
    (fun kh kw ci hne => by rw [hz _ kw ci hne, hmul])
  rw [← key]
  refine sum_congr rfl fun t _ => ?_
  rw [flat3_index b C t hb hC]

end TapSum
-- ==== Proof.KernelWeightLayout.lean ====
/-
  The kernel's host side re-lays every 5x5 convolution weight before the product over the row taps: the stored
  weight, tap-major with rows (kh * 5 + kw) * C + ci, is viewed as [5, 5, C, Co], its two middle axes are exchanged,
  and the result is flattened to [5 * C, 5 * Co].  Read at an entry: row kh * C + ci, column kw * Co + co of the
  re-laid weight is row (kh * 5 + kw) * C + ci, column co of the stored one.  Here for the five
  re-laid weights (second convolution of the first stage, both of the second, both of the third), and for the last
  convolution's weight, of which only the rows of the middle column tap are kept.
-/
import proofs.«147627_g2000402439390779_pallasbulk_891_17_alg».proof.Proof.Gen.KernelIdeal.Regions
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo

variable {F : FTy → Type} [FloatOps F] [Cert.KernelIdeal.Facts]
variable (m : (ℓ : Loc nD τ sig) → Buf (Elt F) ℓ) (outs : Outs (F := F))

set_option maxHeartbeats 4000000 in
/-- The re-laid weight `w1b` as the three layout operations of the stored one. -/
theorem w1b_ops (c : Dev nD) :
    (V5 m c main_v59 : S320x320.Idx → Elt F .bf16)
      = shapeCast S320x320 (transpose S5x64x5x64 [0, 2, 1, 3]
          (shapeCast S5x5x64x64 (V4 m c main_arg3 : S1600x64.Idx → Elt F .bf16) shapeCasts_S1600x64_S5x5x64x64)
          transposes_S5x5x64x64_S5x64x5x64_0_2_1_3) shapeCasts_S5x64x5x64_S320x320 := by
  show StableHlo.after hostOps0_4 (V4 m c) (Proc.devRef .tc main_v59) = _
  unfold hostOps0_4
  after_results
  rfl

/-- Row `kh * 64 + ci`, column `kw * 64 + co` of the re-laid weight `w1b` is row `(kh * 5 + kw) * 64 + ci`,
    column `co` of the stored weight. -/
theorem w1b_relaid (c : Dev nD) (kh : Fin 5) (ci : Fin 64) (kw : Fin 5) (co : Fin 64) :
    (V5 m c main_v59 : S320x320.Idx → Elt F .bf16)
        (ix2 (⟨kh.val * 64 + ci.val, by omega⟩ : Fin 320) (⟨kw.val * 64 + co.val, by omega⟩ : Fin 320))
      = (V4 m c main_arg3 : S1600x64.Idx → Elt F .bf16)
        (ix2 (⟨(kh.val * 5 + kw.val) * 64 + ci.val, by omega⟩ : Fin 1600) co) := by
  rw [w1b_ops]
  refine (shapeCast_apply _ _ _ (ix4 kh ci kw co) ?_).trans ?_
  · rw [Shape.rowMajor_val_four, Shape.rowMajor_val_two]
    show ((kh.val * 64 + ci.val) * 5 + kw.val) * 64 + co.val = (kh.val * 64 + ci.val) * 320 + (kw.val * 64 + co.val)
    omega
  refine (transpose_apply _ _ _ _ (ix4 kh kw ci co) ?_).trans ?_
  · intro b; fin_cases b <;> rfl
  refine shapeCast_apply _ _ _ _ ?_
  show (S1600x64.rowMajor (ix2 (⟨(kh.val * 5 + kw.val) * 64 + ci.val, by omega⟩ : Fin 1600) co)).val
    = (S5x5x64x64.rowMajor (ix4 kh kw ci co)).val
  rw [Shape.rowMajor_val_two, Shape.rowMajor_val_four]
  rfl

set_option maxHeartbeats 4000000 in
/-- The re-laid weight `w2a` as the three layout operations of the stored one. -/
theorem w2a_ops (c : Dev nD) :
    (V5 m c main_v62 : S320x640.Idx → Elt F .bf16)
      = shapeCast S320x640 (transpose S5x64x5x128 [0, 2, 1, 3]
          (shapeCast S5x5x64x128 (V4 m c main_arg5 : S1600x128.Idx → Elt F .bf16) shapeCasts_S1600x128_S5x5x64x128)
          transposes_S5x5x64x128_S5x64x5x128_0_2_1_3) shapeCasts_S5x64x5x128_S320x640 := by
  show StableHlo.after hostOps0_4 (V4 m c) (Proc.devRef .tc main_v62) = _
  unfold hostOps0_4
  after_results
  rfl

/-- Row `kh * 64 + ci`, column `kw * 128 + co` of the re-laid weight `w2a` is row `(kh * 5 + kw) * 64 + ci`,
    column `co` of the stored weight. -/
theorem w2a_relaid (c : Dev nD) (kh : Fin 5) (ci : Fin 64) (kw : Fin 5) (co : Fin 128) :
    (V5 m c main_v62 : S320x640.Idx → Elt F .bf16)
        (ix2 (⟨kh.val * 64 + ci.val, by omega⟩ : Fin 320) (⟨kw.val * 128 + co.val, by omega⟩ : Fin 640))
      = (V4 m c main_arg5 : S1600x128.Idx → Elt F .bf16)
        (ix2 (⟨(kh.val * 5 + kw.val) * 64 + ci.val, by omega⟩ : Fin 1600) co) := by
  rw [w2a_ops]
  refine (shapeCast_apply _ _ _ (ix4 kh ci kw co) ?_).trans ?_
  · rw [Shape.rowMajor_val_four, Shape.rowMajor_val_two]
    show ((kh.val * 64 + ci.val) * 5 + kw.val) * 128 + co.val = (kh.val * 64 + ci.val) * 640 + (kw.val * 128 + co.val)
    omega
  refine (transpose_apply _ _ _ _ (ix4 kh kw ci co) ?_).trans ?_
  · intro b; fin_cases b <;> rfl
  refine shapeCast_apply _ _ _ _ ?_
  show (S1600x128.rowMajor (ix2 (⟨(kh.val * 5 + kw.val) * 64 + ci.val, by omega⟩ : Fin 1600) co)).val
    = (S5x5x64x128.rowMajor (ix4 kh kw ci co)).val
  rw [Shape.rowMajor_val_two, Shape.rowMajor_val_four]
  rfl

set_option maxHeartbeats 4000000 in
/-- The re-laid weight `w2b` as the three layout operations of the stored one. -/
theorem w2b_ops (c : Dev nD) :
    (V5 m c main_v65 : S640x640.Idx → Elt F .bf16)
      = shapeCast S640x640 (transpose S5x128x5x128 [0, 2, 1, 3]
          (shapeCast S5x5x128x128 (V4 m c main_arg7 : S3200x128.Idx → Elt F .bf16) shapeCasts_S3200x128_S5x5x128x128)
          transposes_S5x5x128x128_S5x128x5x128_0_2_1_3) shapeCasts_S5x128x5x128_S640x640 := by
  show StableHlo.after hostOps0_4 (V4 m c) (Proc.devRef .tc main_v65) = _
  unfold hostOps0_4
  after_results
  rfl

/-- Row `kh * 128 + ci`, column `kw * 128 + co` of the re-laid weight `w2b` is row `(kh * 5 + kw) * 128 + ci`,
    column `co` of the stored weight. -/
theorem w2b_relaid (c : Dev nD) (kh : Fin 5) (ci : Fin 128) (kw : Fin 5) (co : Fin 128) :
    (V5 m c main_v65 : S640x640.Idx → Elt F .bf16)
        (ix2 (⟨kh.val * 128 + ci.val, by omega⟩ : Fin 640) (⟨kw.val * 128 + co.val, by omega⟩ : Fin 640))
      = (V4 m c main_arg7 : S3200x128.Idx → Elt F .bf16)
        (ix2 (⟨(kh.val * 5 + kw.val) * 128 + ci.val, by omega⟩ : Fin 3200) co) := by
  rw [w2b_ops]
  refine (shapeCast_apply _ _ _ (ix4 kh ci kw co) ?_).trans ?_
  · rw [Shape.rowMajor_val_four, Shape.rowMajor_val_two]
    show ((kh.val * 128 + ci.val) * 5 + kw.val) * 128 + co.val = (kh.val * 128 + ci.val) * 640 + (kw.val * 128 + co.val)
    omega
  refine (transpose_apply _ _ _ _ (ix4 kh kw ci co) ?_).trans ?_
  · intro b; fin_cases b <;> rfl
  refine shapeCast_apply _ _ _ _ ?_
  show (S3200x128.rowMajor (ix2 (⟨(kh.val * 5 + kw.val) * 128 + ci.val, by omega⟩ : Fin 3200) co)).val
    = (S5x5x128x128.rowMajor (ix4 kh kw ci co)).val
  rw [Shape.rowMajor_val_two, Shape.rowMajor_val_four]
  rfl

set_option maxHeartbeats 4000000 in
/-- The re-laid weight `w3a` as the three layout operations of the stored one. -/
theorem w3a_ops (c : Dev nD) :
    (V7 m outs c main_v77 : S640x1280.Idx → Elt F .bf16)
      = shapeCast S640x1280 (transpose S5x128x5x256 [0, 2, 1, 3]
          (shapeCast S5x5x128x256 (V6 m outs c main_arg9 : S3200x256.Idx → Elt F .bf16) shapeCasts_S3200x256_S5x5x128x256)
          transposes_S5x5x128x256_S5x128x5x256_0_2_1_3) shapeCasts_S5x128x5x256_S640x1280 := by
  show StableHlo.after hostOps1 (V6 m outs c) (Proc.devRef .tc main_v77) = _
  unfold hostOps1
  after_results
  rfl

/-- Row `kh * 128 + ci`, column `kw * 256 + co` of the re-laid weight `w3a` is row `(kh * 5 + kw) * 128 + ci`,
    column `co` of the stored weight. -/
theorem w3a_relaid (c : Dev nD) (kh : Fin 5) (ci : Fin 128) (kw : Fin 5) (co : Fin 256) :
    (V7 m outs c main_v77 : S640x1280.Idx → Elt F .bf16)
        (ix2 (⟨kh.val * 128 + ci.val, by omega⟩ : Fin 640) (⟨kw.val * 256 + co.val, by omega⟩ : Fin 1280))
      = (V6 m outs c main_arg9 : S3200x256.Idx → Elt F .bf16)
        (ix2 (⟨(kh.val * 5 + kw.val) * 128 + ci.val, by omega⟩ : Fin 3200) co) := by
  rw [w3a_ops]
  refine (shapeCast_apply _ _ _ (ix4 kh ci kw co) ?_).trans ?_
  · rw [Shape.rowMajor_val_four, Shape.rowMajor_val_two]
    show ((kh.val * 128 + ci.val) * 5 + kw.val) * 256 + co.val = (kh.val * 128 + ci.val) * 1280 + (kw.val * 256 + co.val)
    omega
  refine (transpose_apply _ _ _ _ (ix4 kh kw ci co) ?_).trans ?_
  · intro b; fin_cases b <;> rfl
  refine shapeCast_apply _ _ _ _ ?_
  show (S3200x256.rowMajor (ix2 (⟨(kh.val * 5 + kw.val) * 128 + ci.val, by omega⟩ : Fin 3200) co)).val
    = (S5x5x128x256.rowMajor (ix4 kh kw ci co)).val
  rw [Shape.rowMajor_val_two, Shape.rowMajor_val_four]
  rfl

set_option maxHeartbeats 4000000 in
/-- The re-laid weight `w3b` as the three layout operations of the stored one. -/
theorem w3b_ops (c : Dev nD) :
    (V7 m outs c main_v80 : S1280x1280.Idx → Elt F .bf16)
      = shapeCast S1280x1280 (transpose S5x256x5x256 [0, 2, 1, 3]
          (shapeCast S5x5x256x256 (V6 m outs c main_arg11 : S6400x256.Idx → Elt F .bf16) shapeCasts_S6400x256_S5x5x256x256)
          transposes_S5x5x256x256_S5x256x5x256_0_2_1_3) shapeCasts_S5x256x5x256_S1280x1280 := by
  show StableHlo.after hostOps1 (V6 m outs c) (Proc.devRef .tc main_v80) = _
  unfold hostOps1
  after_results
  rfl

/-- Row `kh * 256 + ci`, column `kw * 256 + co` of the re-laid weight `w3b` is row `(kh * 5 + kw) * 256 + ci`,
    column `co` of the stored weight. -/
theorem w3b_relaid (c : Dev nD) (kh : Fin 5) (ci : Fin 256) (kw : Fin 5) (co : Fin 256) :
    (V7 m outs c main_v80 : S1280x1280.Idx → Elt F .bf16)
        (ix2 (⟨kh.val * 256 + ci.val, by omega⟩ : Fin 1280) (⟨kw.val * 256 + co.val, by omega⟩ : Fin 1280))
      = (V6 m outs c main_arg11 : S6400x256.Idx → Elt F .bf16)
        (ix2 (⟨(kh.val * 5 + kw.val) * 256 + ci.val, by omega⟩ : Fin 6400) co) := by
  rw [w3b_ops]
  refine (shapeCast_apply _ _ _ (ix4 kh ci kw co) ?_).trans ?_
  · rw [Shape.rowMajor_val_four, Shape.rowMajor_val_two]
    show ((kh.val * 256 + ci.val) * 5 + kw.val) * 256 + co.val = (kh.val * 256 + ci.val) * 1280 + (kw.val * 256 + co.val)
    omega
  refine (transpose_apply _ _ _ _ (ix4 kh kw ci co) ?_).trans ?_
  · intro b; fin_cases b <;> rfl
  refine shapeCast_apply _ _ _ _ ?_
  show (S6400x256.rowMajor (ix2 (⟨(kh.val * 5 + kw.val) * 256 + ci.val, by omega⟩ : Fin 6400) co)).val
    = (S5x5x256x256.rowMajor (ix4 kh kw ci co)).val
  rw [Shape.rowMajor_val_two, Shape.rowMajor_val_four]
  rfl

set_option maxHeartbeats 4000000 in
/-- The last convolution's weight restricted to the middle column tap, as the four layout operations of the stored one. -/
theorem w4s_ops (c : Dev nD) :
    (V7 m outs c main_v74 : S1280x2048.Idx → Elt F .bf16)
      = shapeCast S1280x2048 (shapeCast S5x256x2048 (extractStridedSlice S5x1x256x2048 ![0, 2, 0, 0]
          (shapeCast S5x5x256x2048 (V6 m outs c main_arg13 : S6400x2048.Idx → Elt F .bf16) shapeCasts_S6400x2048_S5x5x256x2048)
          slices_S5x5x256x2048_S5x1x256x2048_0_2_0_0) shapeCasts_S5x1x256x2048_S5x256x2048) shapeCasts_S5x256x2048_S1280x2048 := by
  show StableHlo.after hostOps1 (V6 m outs c) (Proc.devRef .tc main_v74) = _
  unfold hostOps1
  after_results
  rfl

/-- Row `kh * 256 + ci` of the restricted weight is row `(kh * 5 + 2) * 256 + ci` of the stored one: the rows of the middle
    column tap. -/
theorem w4s_rows (c : Dev nD) (kh : Fin 5) (ci : Fin 256) (co : Fin 2048) :
    (V7 m outs c main_v74 : S1280x2048.Idx → Elt F .bf16) (ix2 (⟨kh.val * 256 + ci.val, by omega⟩ : Fin 1280) co)
      = (V6 m outs c main_arg13 : S6400x2048.Idx → Elt F .bf16)
        (ix2 (⟨(kh.val * 5 + 2) * 256 + ci.val, by omega⟩ : Fin 6400) co) := by
  rw [w4s_ops]
  refine (shapeCast_apply _ _ _ (ix3 kh ci co) ?_).trans ?_
  · rw [Shape.rowMajor_val_three, Shape.rowMajor_val_two]
    show (kh.val * 256 + ci.val) * 2048 + co.val = (kh.val * 256 + ci.val) * 2048 + co.val
    rfl
  refine (shapeCast_apply _ _ _ (ix4 kh (0 : Fin 1) ci co) ?_).trans ?_
  · rw [Shape.rowMajor_val_four, Shape.rowMajor_val_three]
    show ((kh.val * 1 + 0) * 256 + ci.val) * 2048 + co.val = (kh.val * 256 + ci.val) * 2048 + co.val
    omega
  refine (extractStridedSlice_apply _ _ _ _ (ix4 kh (2 : Fin 5) ci co) ?_).trans ?_
  · intro a; fin_cases a
    · show kh.val = 0 + kh.val; omega
    · show 2 = 2 + 0; rfl
    · show ci.val = 0 + ci.val; omega
    · show co.val = 0 + co.val; omega
  refine shapeCast_apply _ _ _ _ ?_
  show (S6400x2048.rowMajor (ix2 (⟨(kh.val * 5 + 2) * 256 + ci.val, by omega⟩ : Fin 6400) co)).val
    = (S5x5x256x2048.rowMajor (ix4 kh (2 : Fin 5) ci co)).val
  rw [Shape.rowMajor_val_two, Shape.rowMajor_val_four]
  rfl

end Cert.KernelIdeal.Hand

end
-- ==== Proof.HeadFn.lean ====
/-
  The classifier head as ONE function of its seven operands, over plain vectors.

  Three dense layers on a batch of 8 rows.  A dense layer is the matrix product of the rows (bf16) with a weight
  matrix (bf16), accumulated in f32 starting from zero, plus the bias row added to every row.  After each of the
  first two layers comes the rectifier (the maximum with 0) and the rounding to bf16.  The last layer's 8 rows
  of 16 scores go through the log-softmax along the 16 classes: with `s` the scores less their row maximum,
  the result is `s − log (Σ exp s)`, the sum taken along the row.

  Nothing here mentions memory: the operands and the result are vectors at literal shapes.  Two programs whose last
  stage computes the head can therefore both be compared with this one function, whatever names they give their
  shapes: a shape is its rank and its sizes, and the side conditions of the operations (a bias row broadcasts along
  the batch, a row of 8 reshapes to a column, 16 columns reduce to one) are decided on the literals.
-/
import Idealize.ShloMosaic.PureOps

noncomputable section

namespace Cert.Hand

open Idealize.ShloMosaic

variable {F : FTy → Type} [FloatOps F]

/-- The shapes of the head: the 8 rows at each width, a bias row, a weight matrix, a row of 8 and its column. -/
abbrev Rows (n : ℕ) : Shape := ⟨2, ![8, n]⟩
abbrev BiasRow (n : ℕ) : Shape := ⟨2, ![1, n]⟩
abbrev Weights (k n : ℕ) : Shape := ⟨2, ![k, n]⟩
abbrev Per8 : Shape := ⟨1, ![8]⟩
abbrev Col8 : Shape := ⟨2, ![8, 1]⟩

/-- The first dense layer, 2048 → 512: `x · w + b`, the product accumulated from zero, `b` on every row. -/
def dense1 (x : FVec F (Rows 2048) .bf16) (w : FVec F (Weights 2048 512) .bf16) (b : FVec F (BiasRow 512) .f32) :
    FVec F (Rows 512) .f32 :=
  addf (matmul (DotDims.plain 8 2048 512) none x w (constant (Rows 512) .f32 0#32)) (broadcastTo (Rows 512) b)

/-- The second dense layer, 512 → 1024. -/
def dense2 (x : FVec F (Rows 512) .bf16) (w : FVec F (Weights 512 1024) .bf16) (b : FVec F (BiasRow 1024) .f32) :
    FVec F (Rows 1024) .f32 :=
  addf (matmul (DotDims.plain 8 512 1024) none x w (constant (Rows 1024) .f32 0#32)) (broadcastTo (Rows 1024) b)

/-- The third dense layer, 1024 → 16. -/
def dense3 (x : FVec F (Rows 1024) .bf16) (w : FVec F (Weights 1024 16) .bf16) (b : FVec F (BiasRow 16) .f32) :
    FVec F (Rows 16) .f32 :=
  addf (matmul (DotDims.plain 8 1024 16) none x w (constant (Rows 16) .f32 0#32)) (broadcastTo (Rows 16) b)

/-- The rectifier followed by the rounding to bf16: `bf16 (max y 0)`, elementwise. -/
def reluRound {n : ℕ} (y : FVec F (Rows n) .f32) : FVec F (Rows n) .bf16 :=
  truncf .bf16 (maximumf y (broadcast (Rows n) (FloatOps.ofBits .f32 0#32)))

/-- One value per row, repeated along the 16 classes. -/
def alongRow (r : FVec F Col8 .f32) : FVec F (Rows 16) .f32 := broadcastTo (Rows 16) r

/-- The scores less their row maximum (the maximum folded from −∞). -/
def centred (z : FVec F (Rows 16) .f32) : FVec F (Rows 16) .f32 :=
  subf z (alongRow (shapeCast Col8 (multiReduction .maximumf [1] Per8 z 0xFF800000#32)))

/-- The log-softmax along the classes: with `s` the centred scores, `s − log (Σ exp s)`. -/
def logSoftmax (z : FVec F (Rows 16) .f32) : FVec F (Rows 16) .f32 :=
  subf (centred z) (alongRow (log (shapeCast Col8 (multiReduction .add [1] Per8 (exp (centred z)) 0#32))))

/-- THE HEAD: three dense layers, rectified and rounded between, then the log-softmax. -/
def headFn (x : FVec F (Rows 2048) .bf16)
    (w1 : FVec F (Weights 2048 512) .bf16) (b1 : FVec F (BiasRow 512) .f32)
    (w2 : FVec F (Weights 512 1024) .bf16) (b2 : FVec F (BiasRow 1024) .f32)
    (w3 : FVec F (Weights 1024 16) .bf16) (b3 : FVec F (BiasRow 16) .f32) : FVec F (Rows 16) .f32 :=
  logSoftmax (dense3 (reluRound (dense2 (reluRound (dense1 x w1 b1)) w2 b2)) w3 b3)

end Cert.Hand

end
-- ==== Proof.RefHeadValue.lean ====
/-
  What the reference's last region leaves in its result array, as a function of the region's seven operand arrays.

  The region runs the classifier head once, on whole-array windows at one grid point.  Its body loads the seven
  operands whole, computes, and stores the 8 rows of 16 log-probabilities whole into the output block.  So

  * the raw contents the body leaves in the output block, read back, are the value of its one covering store, and
    that value is the head function of what the seven loads read;
  * the one write-back copies the block over the whole result array, so the array ends holding that value;
  * each load reads a staged block, and a staged block at the one point is the whole array it windows.

  Put together: the result array after the region is `headFn` of the seven arrays as the region found them —
  no memory reference, no view and no staging buffer is left on the right-hand side.
-/
import proofs.«147627_g2000402439390779_pallasbulk_891_17_alg».proof.Proof.RefHeadRegion
import proofs.«147627_g2000402439390779_pallasbulk_891_17_alg».proof.Proof.HeadFn
import Idealize.ShloMosaic.Lib.Pipeline.Value

set_option maxRecDepth 16384

noncomputable section

namespace Cert.ReferenceIdeal.Hand

open Cert.ReferenceIdeal Cert.ReferenceIdeal.Gen
open Idealize.ShloMosaic Idealize.ShloMosaic.TcCoe
open Idealize.SL.Sem
open Idealize.ShloMosaic.Pipeline (Dat Cfg Window)
open Cert.Hand (headFn)

variable {F : FTy → Type} [FloatOps F] [Cert.ReferenceIdeal.Facts]

/-- The zero offsets of a rank-2 access, as the constant function. -/
theorem zero2 : (![0, 0] : Fin 2 → Nat) = fun _ => 0 := funext fun a => by fin_cases a <;> rfl

/-! ## The body's value -/

/-- The raw contents the body leaves in the output block, read back through the block, are the value its one store
    wrote: a single store through the whole block's rectangle covers it. -/
theorem read_witness4 (c : Dev nD) (i : grid4.Coords) (M0 : Memref sig .tc .vmem S8x2048 .bf16) (h0 : M0.IsWhole) (M1 : Memref sig .tc .vmem S2048x512 .bf16) (h1 : M1.IsWhole) (M2 : Memref sig .tc .vmem S1x512 .f32) (h2 : M2.IsWhole) (M3 : Memref sig .tc .vmem S512x1024 .bf16) (h3 : M3.IsWhole) (M4 : Memref sig .tc .vmem S1x1024 .f32) (h4 : M4.IsWhole) (M5 : Memref sig .tc .vmem S1024x16 .bf16) (h5 : M5.IsWhole) (M6 : Memref sig .tc .vmem S1x16 .f32) (h6 : M6.IsWhole) (M7 : Memref sig .tc .vmem S8x16 .f32) (h7 : M7.IsWhole)
    (f0 : Bf4 (F := F) c M0) (f1 : Bf4 (F := F) c M1) (f2 : Bf4 (F := F) c M2) (f3 : Bf4 (F := F) c M3) (f4 : Bf4 (F := F) c M4) (f5 : Bf4 (F := F) c M5) (f6 : Bf4 (F := F) c M6) :
    M7.view.read (Elt F) (run4 (F := F) c i M0 h0 M1 h1 M2 h2 M3 h3 M4 h4 M5 h5 M6 h6 M7 h7 f0 f1 f2 f3 f4 f5 f6).1
      = run4.sl.v35 c M0 M1 M2 M3 M4 M5 M6 f0 f1 f2 f3 f4 f5 f6 := by
  unfold run4
  dsimp only
  rw [View.read_writes_junk_eq_canon]
  unfold run4.sl.H7_1
  rw [View.canon_unit_zero zero2]

/-- That value is the head function of what the seven whole loads read: each load reads its buffer through the
    whole rectangle at zero offsets, a reshape to the same shape is the identity, and the rest of the chain is the
    head's own operations in the head's own order. -/
theorem value4_eq_headFn (c : Dev nD) (M0 : Memref sig .tc .vmem S8x2048 .bf16) (M1 : Memref sig .tc .vmem S2048x512 .bf16) (M2 : Memref sig .tc .vmem S1x512 .f32) (M3 : Memref sig .tc .vmem S512x1024 .bf16) (M4 : Memref sig .tc .vmem S1x1024 .f32) (M5 : Memref sig .tc .vmem S1024x16 .bf16) (M6 : Memref sig .tc .vmem S1x16 .f32)
    (f0 : Bf4 (F := F) c M0) (f1 : Bf4 (F := F) c M1) (f2 : Bf4 (F := F) c M2) (f3 : Bf4 (F := F) c M3) (f4 : Bf4 (F := F) c M4) (f5 : Bf4 (F := F) c M5) (f6 : Bf4 (F := F) c M6) :
    run4.sl.v35 c M0 M1 M2 M3 M4 M5 M6 f0 f1 f2 f3 f4 f5 f6
      = headFn (M0.view.read (Elt F) f0) (M1.view.read (Elt F) f1) (M2.view.read (Elt F) f2) (M3.view.read (Elt F) f3)
          (M4.view.read (Elt F) f4) (M5.view.read (Elt F) f5) (M6.view.read (Elt F) f6) := by
  unfold run4.sl.v35 run4.sl.v34 run4.sl.v33 run4.sl.v32 run4.sl.v31 run4.sl.v30 run4.sl.v29 run4.sl.v28 run4.sl.v27
    run4.sl.v26 run4.sl.v25 run4.sl.v24 run4.sl.v23 run4.sl.v21 run4.sl.v19 run4.sl.v18 run4.sl.v17 run4.sl.v16
    run4.sl.v15 run4.sl.v14 run4.sl.v12 run4.sl.v10 run4.sl.v9 run4.sl.v8 run4.sl.v7 run4.sl.v6 run4.sl.v5 run4.sl.v3
    run4.sl.v1 run4.sl.cst run4.sl.cst_5 run4.sl.cst_8 run4.sl.cst_14
  simp only [View.readAt_eq_ld, shapeCast_self, View.ld_unit_zero (S := S8x2048) zero2, View.ld_unit_zero (S := S2048x512) zero2,
    View.ld_unit_zero (S := S1x512) zero2, View.ld_unit_zero (S := S512x1024) zero2, View.ld_unit_zero (S := S1x1024) zero2,
    View.ld_unit_zero (S := S1024x16) zero2, View.ld_unit_zero (S := S1x16) zero2]
  rfl

/-! ## From the block to the array -/

variable (V : (c : Dev nD) → (b : Ref sig .tc) → Buf (Elt F) ((c : Thread nD τ).loc b))

/-- What the body leaves in the output block, read back, taken as contents of the result array: the block has
    the array's shape. -/
abbrev left4 (c : Dev nD) : Buf (Elt F) ((c : Thread nD τ).loc main_v73) :=
  (win4_7.stage (cfg4.slots t4_0 7)).view.read (Elt F) (K4 V c).1

/-- At the one grid point every window's block starts at the origin of its array. -/
theorem origin4_0 : (fun a => win4_0.index t4_0 a * (Pipeline.arrRef spec4 0).ty.shape.size a) = fun _ => 0 := funext fun a => by fin_cases a <;> decide
theorem origin4_1 : (fun a => win4_1.index t4_0 a * (Pipeline.arrRef spec4 1).ty.shape.size a) = fun _ => 0 := funext fun a => by fin_cases a <;> decide
theorem origin4_2 : (fun a => win4_2.index t4_0 a * (Pipeline.arrRef spec4 2).ty.shape.size a) = fun _ => 0 := funext fun a => by fin_cases a <;> decide
theorem origin4_3 : (fun a => win4_3.index t4_0 a * (Pipeline.arrRef spec4 3).ty.shape.size a) = fun _ => 0 := funext fun a => by fin_cases a <;> decide
theorem origin4_4 : (fun a => win4_4.index t4_0 a * (Pipeline.arrRef spec4 4).ty.shape.size a) = fun _ => 0 := funext fun a => by fin_cases a <;> decide
theorem origin4_5 : (fun a => win4_5.index t4_0 a * (Pipeline.arrRef spec4 5).ty.shape.size a) = fun _ => 0 := funext fun a => by fin_cases a <;> decide
theorem origin4_6 : (fun a => win4_6.index t4_0 a * (Pipeline.arrRef spec4 6).ty.shape.size a) = fun _ => 0 := funext fun a => by fin_cases a <;> decide
theorem origin4_7 : (fun a => win4_7.index t4_0 a * main_v73.ty.shape.size a) = fun _ => 0 := funext fun a => by fin_cases a <;> decide

/-- The one write-back writes the block the body left: read through the array's whole rectangle the array's
    contents are themselves. -/
theorem flushed4 (c : Dev nD) (t : Fin cfg4.N) (hf : (cfg4.win 7).flush t = true) :
    (dat4 V c).flushed 7 t = ((cfg4.win 7).blk t).view.read (Elt F) (left4 V c) := by
  obtain rfl := fin_N4 t
  show (cfg4.win 7).cut (grid4.coords t4_0) ((dat4 V c).after 7 t4_0) = _
  rw [after4_7]
  exact (Memref.read_access_unit_zero (Elt F) main_v73 origin4_7 (fun a => by rw [congrFun origin4_7 a]; simp) (left4 V c)).symm

/-- The result array after the region holds what the body left in the block: the one point's block is the whole
    array, so its write-back covers every index. -/
theorem arrAt4_eq_left (c : Dev nD) : (dat4 V c).arrAt 7 cfg4.N = left4 V c :=
  (dat4 V c).arrAt_eq_of_cover 7 (left4 V c) (flushed4 V c) fun (i : S8x16.Idx) =>
    ⟨t4_0, flush4_7 t4_0, by
      show i ∈ ((View.whole main_v73).slice (win4_7.rect t4_0)).set
      rw [View.set_slice_whole]
      refine Rect.mem_set_unit.mpr fun a => ?_
      have h0 : (i 0 : Nat) < 8 := (i 0).isLt
      have h1 : (i 1 : Nat) < 16 := (i 1).isLt
      match a with
      | ⟨0, _⟩ =>
        show win4_7.index t4_0 0 * win4_7.size 0 ≤ (i 0 : Nat) ∧ (i 0 : Nat) < win4_7.index t4_0 0 * win4_7.size 0 + win4_7.xsize (grid4.coords t4_0) 0
        rw [show win4_7.index t4_0 0 * win4_7.size 0 = 0 from by decide +kernel, show win4_7.xsize (grid4.coords t4_0) 0 = 8 from by decide +kernel]; omega
      | ⟨1, _⟩ =>
        show win4_7.index t4_0 1 * win4_7.size 1 ≤ (i 1 : Nat) ∧ (i 1 : Nat) < win4_7.index t4_0 1 * win4_7.size 1 + win4_7.xsize (grid4.coords t4_0) 1
        rw [show win4_7.index t4_0 1 * win4_7.size 1 = 0 from by decide +kernel, show win4_7.xsize (grid4.coords t4_0) 1 = 16 from by decide +kernel]; omega⟩

/-! ## From the staged blocks to the arrays -/

/-- An operand's block at the one point is the whole array it windows. -/
theorem blk4_0_eq (c : Dev nD) : blk4_0 V c = (V c main_v69 : S8x2048.Idx → Elt F .bf16) :=
  Memref.read_access_unit_zero (Elt F) (Pipeline.arrRef spec4 0) origin4_0 (fun a => by rw [congrFun origin4_0 a]; simp) (V c (Pipeline.arrRef spec4 0))
theorem blk4_1_eq (c : Dev nD) : blk4_1 V c = (V c main_arg15 : S2048x512.Idx → Elt F .bf16) :=
  Memref.read_access_unit_zero (Elt F) (Pipeline.arrRef spec4 1) origin4_1 (fun a => by rw [congrFun origin4_1 a]; simp) (V c (Pipeline.arrRef spec4 1))
theorem blk4_2_eq (c : Dev nD) : blk4_2 V c = (V c main_v70 : S1x512.Idx → Elt F .f32) :=
  Memref.read_access_unit_zero (Elt F) (Pipeline.arrRef spec4 2) origin4_2 (fun a => by rw [congrFun origin4_2 a]; simp) (V c (Pipeline.arrRef spec4 2))
theorem blk4_3_eq (c : Dev nD) : blk4_3 V c = (V c main_arg17 : S512x1024.Idx → Elt F .bf16) :=
  Memref.read_access_unit_zero (Elt F) (Pipeline.arrRef spec4 3) origin4_3 (fun a => by rw [congrFun origin4_3 a]; simp) (V c (Pipeline.arrRef spec4 3))
theorem blk4_4_eq (c : Dev nD) : blk4_4 V c = (V c main_v71 : S1x1024.Idx → Elt F .f32) :=
  Memref.read_access_unit_zero (Elt F) (Pipeline.arrRef spec4 4) origin4_4 (fun a => by rw [congrFun origin4_4 a]; simp) (V c (Pipeline.arrRef spec4 4))
theorem blk4_5_eq (c : Dev nD) : blk4_5 V c = (V c main_arg19 : S1024x16.Idx → Elt F .bf16) :=
  Memref.read_access_unit_zero (Elt F) (Pipeline.arrRef spec4 5) origin4_5 (fun a => by rw [congrFun origin4_5 a]; simp) (V c (Pipeline.arrRef spec4 5))
theorem blk4_6_eq (c : Dev nD) : blk4_6 V c = (V c main_v72 : S1x16.Idx → Elt F .f32) :=
  Memref.read_access_unit_zero (Elt F) (Pipeline.arrRef spec4 6) origin4_6 (fun a => by rw [congrFun origin4_6 a]; simp) (V c (Pipeline.arrRef spec4 6))

/-- The head function respects equality of its operands. -/
theorem headFn_congr {x x' : FVec F (Cert.Hand.Rows 2048) .bf16}
    {w1 w1' : FVec F (Cert.Hand.Weights 2048 512) .bf16} {b1 b1' : FVec F (Cert.Hand.BiasRow 512) .f32}
    {w2 w2' : FVec F (Cert.Hand.Weights 512 1024) .bf16} {b2 b2' : FVec F (Cert.Hand.BiasRow 1024) .f32}
    {w3 w3' : FVec F (Cert.Hand.Weights 1024 16) .bf16} {b3 b3' : FVec F (Cert.Hand.BiasRow 16) .f32}
    (e0 : x = x') (e1 : w1 = w1') (e2 : b1 = b1') (e3 : w2 = w2') (e4 : b2 = b2') (e5 : w3 = w3') (e6 : b3 = b3') :
    headFn x w1 b1 w2 b2 w3 b3 = headFn x' w1' b1' w2' b2' w3' b3' := by
  subst e0 e1 e2 e3 e4 e5 e6; rfl

/-- THE REGION'S VALUE: whatever the buffers hold when the region is entered, its result array ends holding the
    head function of its seven operand arrays as found. -/
theorem arrAt4_eq_headFn (c : Dev nD) :
    (dat4 V c).arrAt 7 cfg4.N
      = (headFn (V c main_v69) (V c main_arg15) (V c main_v70) (V c main_arg17) (V c main_v71) (V c main_arg19) (V c main_v72)
          : S8x16.Idx → Elt F .f32) := by
  rw [arrAt4_eq_left]
  refine (read_witness4 (F := F) ..).trans ?_
  refine (value4_eq_headFn (F := F) ..).trans ?_
  exact headFn_congr
    (((hstage4_0 ((cfg4.slots t4_0 0).cast nbuf4_0)).read_unread _).trans (blk4_0_eq V c))
    (((hstage4_1 ((cfg4.slots t4_0 1).cast nbuf4_1)).read_unread _).trans (blk4_1_eq V c))
    (((hstage4_2 ((cfg4.slots t4_0 2).cast nbuf4_2)).read_unread _).trans (blk4_2_eq V c))
    (((hstage4_3 ((cfg4.slots t4_0 3).cast nbuf4_3)).read_unread _).trans (blk4_3_eq V c))
    (((hstage4_4 ((cfg4.slots t4_0 4).cast nbuf4_4)).read_unread _).trans (blk4_4_eq V c))
    (((hstage4_5 ((cfg4.slots t4_0 5).cast nbuf4_5)).read_unread _).trans (blk4_5_eq V c))
    (((hstage4_6 ((cfg4.slots t4_0 6).cast nbuf4_6)).read_unread _).trans (blk4_6_eq V c))

end Cert.ReferenceIdeal.Hand

end
-- ==== Proof.KernelHeadValue.lean ====
/-
  What the kernel's last region leaves in its result array: the classifier head of the 8 rows of 2048 features
  it has computed and of the head's six weight and bias arrays.

  The region's body ends with the head: from the features (the maximum over the 16 rows of the last convolution,
  rounded to bf16: one value of the body's chain) it loads the six head operands whole, applies the three dense
  layers and the log-softmax, and stores the 8 rows of 16 log-probabilities whole into the output block.  So

  * the raw contents the body leaves in the output block, read back, are the value of its one covering store;
  * from the features on, that value is the head function of the features and of what the six loads read — the
    same head function, stated once over plain vectors, that the reference's last region computes;
  * the one write-back copies the block over the whole result array, and each head operand's staged block at the
    one grid point is the whole array it windows.

  Put together: the result array after the region is `headFn` of the features and of the six head arrays as the
  region found them.  The features themselves stay the chain's value at the staged inputs: they are a function of
  the region's first seven operand arrays only.
-/
import proofs.«147627_g2000402439390779_pallasbulk_891_17_alg».proof.Proof.KernelIdealRegion1
import proofs.«147627_g2000402439390779_pallasbulk_891_17_alg».proof.Proof.HeadFn
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)
open Cert.Hand (headFn)

variable {F : FTy → Type} [FloatOps F] [Cert.KernelIdeal.Facts]

/-- The zero offsets of a rank-2 access, as the constant function. -/
theorem zero2 : (![0, 0] : Fin 2 → Nat) = fun _ => 0 := funext fun a => by fin_cases a <;> rfl

/-! ## The body's value -/

/-- The raw contents the body leaves in the output block, read back through the block, are the value its one store
    wrote: a single store through the whole block's rectangle covers it. -/
theorem read_witness1_head (c : Dev nD) (M0 : Memref sig .tc .vmem S8x16x4x128 .bf16) (h0 : M0.IsWhole) (M1 : Memref sig .tc .vmem S640x1280 .bf16) (h1 : M1.IsWhole) (M2 : Memref sig .tc .vmem S1x256 .f32) (h2 : M2.IsWhole) (M3 : Memref sig .tc .vmem S1280x1280 .bf16) (h3 : M3.IsWhole) (M4 : Memref sig .tc .vmem S1x256 .f32) (h4 : M4.IsWhole) (M5 : Memref sig .tc .vmem S1280x2048 .bf16) (h5 : M5.IsWhole) (M6 : Memref sig .tc .vmem S1x2048 .f32) (h6 : M6.IsWhole) (M7 : Memref sig .tc .vmem S2048x512 .bf16) (h7 : M7.IsWhole) (M8 : Memref sig .tc .vmem S1x512 .f32) (h8 : M8.IsWhole) (M9 : Memref sig .tc .vmem S512x1024 .bf16) (h9 : M9.IsWhole) (M10 : Memref sig .tc .vmem S1x1024 .f32) (h10 : M10.IsWhole) (M11 : Memref sig .tc .vmem S1024x16 .bf16) (h11 : M11.IsWhole) (M12 : Memref sig .tc .vmem S1x16 .f32) (h12 : M12.IsWhole) (M13 : Memref sig .tc .vmem S8x16 .f32) (h13 : M13.IsWhole) (C0 : Memref sig .tc .vmem S8x20x8x128 .bf16) (g0 : C0.IsWhole) (C1 : Memref sig .tc .vmem S1024x640 .bf16) (g1 : C1.IsWhole) (C2 : Memref sig .tc .vmem S8x20x8x256 .bf16) (g2 : C2.IsWhole) (C3 : Memref sig .tc .vmem S1024x1280 .bf16) (g3 : C3.IsWhole) (C4 : Memref sig .tc .vmem S8x24x256 .bf16) (g4 : C4.IsWhole) (C5 : Memref sig .tc .vmem S128x1280 .bf16) (g5 : C5.IsWhole)
    (f0 : Bf1 (F := F) c M0) (f1 : Bf1 (F := F) c M1) (f2 : Bf1 (F := F) c M2) (f3 : Bf1 (F := F) c M3) (f4 : Bf1 (F := F) c M4) (f5 : Bf1 (F := F) c M5) (f6 : Bf1 (F := F) c M6) (f7 : Bf1 (F := F) c M7) (f8 : Bf1 (F := F) c M8) (f9 : Bf1 (F := F) c M9) (f10 : Bf1 (F := F) c M10) (f11 : Bf1 (F := F) c M11) (f12 : Bf1 (F := F) c M12) :
    M13.view.read (Elt F) (run1 (F := F) c M0 h0 M1 h1 M2 h2 M3 h3 M4 h4 M5 h5 M6 h6 M7 h7 M8 h8 M9 h9 M10 h10 M11 h11 M12 h12 M13 h13 C0 g0 C1 g1 C2 g2 C3 g3 C4 g4 C5 g5 f0 f1 f2 f3 f4 f5 f6 f7 f8 f9 f10 f11 f12).1
      = run1.sl.v189 c M0 M1 M2 M3 M4 M5 M6 M7 M8 M9 M10 M11 M12 C0 C1 C2 C3 C4 C5 f0 f1 f2 f3 f4 f5 f6 f7 f8 f9 f10 f11 f12 := by
  unfold run1
  dsimp only
  rw [View.read_writes_junk_eq_canon]
  unfold run1.sl.H13_1
  rw [View.canon_unit_zero zero2]

/-- From the features on, that value is the head function: each of the six head loads reads its buffer through the
    whole rectangle at zero offsets, a reshape to the same shape is the identity, and the rest of the chain is the
    head's own operations in the head's own order. -/
theorem value1_eq_headFn (c : Dev nD) (M0 : Memref sig .tc .vmem S8x16x4x128 .bf16) (M1 : Memref sig .tc .vmem S640x1280 .bf16) (M2 : Memref sig .tc .vmem S1x256 .f32) (M3 : Memref sig .tc .vmem S1280x1280 .bf16) (M4 : Memref sig .tc .vmem S1x256 .f32) (M5 : Memref sig .tc .vmem S1280x2048 .bf16) (M6 : Memref sig .tc .vmem S1x2048 .f32) (M7 : Memref sig .tc .vmem S2048x512 .bf16) (M8 : Memref sig .tc .vmem S1x512 .f32) (M9 : Memref sig .tc .vmem S512x1024 .bf16) (M10 : Memref sig .tc .vmem S1x1024 .f32) (M11 : Memref sig .tc .vmem S1024x16 .bf16) (M12 : Memref sig .tc .vmem S1x16 .f32) (C0 : Memref sig .tc .vmem S8x20x8x128 .bf16) (C1 : Memref sig .tc .vmem S1024x640 .bf16) (C2 : Memref sig .tc .vmem S8x20x8x256 .bf16) (C3 : Memref sig .tc .vmem S1024x1280 .bf16) (C4 : Memref sig .tc .vmem S8x24x256 .bf16) (C5 : Memref sig .tc .vmem S128x1280 .bf16)
    (f0 : Bf1 (F := F) c M0) (f1 : Bf1 (F := F) c M1) (f2 : Bf1 (F := F) c M2) (f3 : Bf1 (F := F) c M3) (f4 : Bf1 (F := F) c M4) (f5 : Bf1 (F := F) c M5) (f6 : Bf1 (F := F) c M6) (f7 : Bf1 (F := F) c M7) (f8 : Bf1 (F := F) c M8) (f9 : Bf1 (F := F) c M9) (f10 : Bf1 (F := F) c M10) (f11 : Bf1 (F := F) c M11) (f12 : Bf1 (F := F) c M12) :
    run1.sl.v189 c M0 M1 M2 M3 M4 M5 M6 M7 M8 M9 M10 M11 M12 C0 C1 C2 C3 C4 C5 f0 f1 f2 f3 f4 f5 f6 f7 f8 f9 f10 f11 f12
      = headFn (run1.sl.v155 c M0 M1 M2 M3 M4 M5 M6 C0 C1 C2 C3 C4 C5 f0 f1 f2 f3 f4 f5 f6)
          (M7.view.read (Elt F) f7) (M8.view.read (Elt F) f8) (M9.view.read (Elt F) f9) (M10.view.read (Elt F) f10)
          (M11.view.read (Elt F) f11) (M12.view.read (Elt F) f12) := by
  unfold run1.sl.v189 run1.sl.v188 run1.sl.v187 run1.sl.v186 run1.sl.v185 run1.sl.v184 run1.sl.v183 run1.sl.v182 run1.sl.v181 run1.sl.v180 run1.sl.v179 run1.sl.v178 run1.sl.v177 run1.sl.v175 run1.sl.v173 run1.sl.v172 run1.sl.v171 run1.sl.v170 run1.sl.v169 run1.sl.v168 run1.sl.v166 run1.sl.v164 run1.sl.v163 run1.sl.v162 run1.sl.v161 run1.sl.v160 run1.sl.v159 run1.sl.v157 run1.sl.cst_129 run1.sl.cst_135 run1.sl.cst_141 run1.sl.cst_40
  simp only [View.readAt_eq_ld, shapeCast_self, View.ld_unit_zero (S := S2048x512) zero2, View.ld_unit_zero (S := S1x512) zero2,
    View.ld_unit_zero (S := S512x1024) zero2, View.ld_unit_zero (S := S1x1024) zero2, View.ld_unit_zero (S := S1024x16) zero2,
    View.ld_unit_zero (S := S1x16) zero2]
  rfl

/-! ## From the block to the array -/

variable (V : (c : Dev nD) → (b : Ref sig .tc) → Buf (Elt F) ((c : Thread nD τ).loc b))

/-- What the body leaves in the output block, read back, taken as contents of the result array: the block has
    the array's shape. -/
abbrev left1 (c : Dev nD) : Buf (Elt F) ((c : Thread nD τ).loc main_v87) :=
  (win1_13.stage (cfg1.slots t1_0 13)).view.read (Elt F) (K1 V c).1

/-- The features the head is applied to: the chain's value at the staged inputs. -/
abbrev feat1 (c : Dev nD) : S8x2048.Idx → Elt F .bf16 :=
  run1.sl.v155 c (win1_0.stage (cfg1.slots t1_0 0)) (win1_1.stage (cfg1.slots t1_0 1)) (win1_2.stage (cfg1.slots t1_0 2)) (win1_3.stage (cfg1.slots t1_0 3)) (win1_4.stage (cfg1.slots t1_0 4)) (win1_5.stage (cfg1.slots t1_0 5)) (win1_6.stage (cfg1.slots t1_0 6))
    (Memref.whole cc1_scratch0) (Memref.whole cc1_scratch1) (Memref.whole cc1_scratch2) (Memref.whole cc1_scratch3) (Memref.whole cc1_scratch4) (Memref.whole cc1_scratch5)
    ((hstage1_0 0).unread (blk1_0 V c)) ((hstage1_1 0).unread (blk1_1 V c)) ((hstage1_2 0).unread (blk1_2 V c)) ((hstage1_3 0).unread (blk1_3 V c)) ((hstage1_4 0).unread (blk1_4 V c)) ((hstage1_5 0).unread (blk1_5 V c)) ((hstage1_6 0).unread (blk1_6 V c))

/-- At the one grid point a window's block starts at the origin of its array. -/
theorem origin1_7 : (fun a => win1_7.index t1_0 a * (Pipeline.arrRef spec1 7).ty.shape.size a) = fun _ => 0 := funext fun a => by fin_cases a <;> decide
theorem origin1_8 : (fun a => win1_8.index t1_0 a * (Pipeline.arrRef spec1 8).ty.shape.size a) = fun _ => 0 := funext fun a => by fin_cases a <;> decide
theorem origin1_9 : (fun a => win1_9.index t1_0 a * (Pipeline.arrRef spec1 9).ty.shape.size a) = fun _ => 0 := funext fun a => by fin_cases a <;> decide
theorem origin1_10 : (fun a => win1_10.index t1_0 a * (Pipeline.arrRef spec1 10).ty.shape.size a) = fun _ => 0 := funext fun a => by fin_cases a <;> decide
theorem origin1_11 : (fun a => win1_11.index t1_0 a * (Pipeline.arrRef spec1 11).ty.shape.size a) = fun _ => 0 := funext fun a => by fin_cases a <;> decide
theorem origin1_12 : (fun a => win1_12.index t1_0 a * (Pipeline.arrRef spec1 12).ty.shape.size a) = fun _ => 0 := funext fun a => by fin_cases a <;> decide
theorem origin1_13 : (fun a => win1_13.index t1_0 a * main_v87.ty.shape.size a) = fun _ => 0 := funext fun a => by fin_cases a <;> decide

/-- The one write-back writes the block the body left: read through the array's whole rectangle the array's
    contents are themselves. -/
theorem flushed1 (c : Dev nD) (t : Fin cfg1.N) (hf : (cfg1.win 13).flush t = true) :
    (dat1 V c).flushed 13 t = ((cfg1.win 13).blk t).view.read (Elt F) (left1 V c) := by
  obtain rfl := fin_N1 t
  show (cfg1.win 13).cut (grid1.coords t1_0) ((dat1 V c).after 13 t1_0) = _
  rw [after1_13]
  exact (Memref.read_access_unit_zero (Elt F) main_v87 origin1_13 (fun a => by rw [congrFun origin1_13 a]; simp) (left1 V c)).symm

/-- The result array after the region holds what the body left in the block: the one point's block is the whole
    array, so its write-back covers every index. -/
theorem arrAt1_eq_left (c : Dev nD) : (dat1 V c).arrAt 13 cfg1.N = left1 V c :=
  (dat1 V c).arrAt_eq_of_cover 13 (left1 V c) (flushed1 V c) fun (i : S8x16.Idx) =>
    ⟨t1_0, flush1_13 t1_0, by
      show i ∈ ((View.whole main_v87).slice (win1_13.rect t1_0)).set
      rw [View.set_slice_whole]
      refine Rect.mem_set_unit.mpr fun a => ?_
      have h0 : (i 0 : Nat) < 8 := (i 0).isLt
      have h1 : (i 1 : Nat) < 16 := (i 1).isLt
      match a with
      | ⟨0, _⟩ =>
        show win1_13.index t1_0 0 * win1_13.size 0 ≤ (i 0 : Nat) ∧ (i 0 : Nat) < win1_13.index t1_0 0 * win1_13.size 0 + win1_13.xsize (grid1.coords t1_0) 0
        rw [show win1_13.index t1_0 0 * win1_13.size 0 = 0 from by decide +kernel, show win1_13.xsize (grid1.coords t1_0) 0 = 8 from by decide +kernel]; omega
      | ⟨1, _⟩ =>
        show win1_13.index t1_0 1 * win1_13.size 1 ≤ (i 1 : Nat) ∧ (i 1 : Nat) < win1_13.index t1_0 1 * win1_13.size 1 + win1_13.xsize (grid1.coords t1_0) 1
        rw [show win1_13.index t1_0 1 * win1_13.size 1 = 0 from by decide +kernel, show win1_13.xsize (grid1.coords t1_0) 1 = 16 from by decide +kernel]; omega⟩

/-! ## From the staged blocks to the arrays -/

/-- A head operand's block at the one point is the whole array it windows. -/
theorem blk1_7_eq (c : Dev nD) : blk1_7 V c = (V c main_arg15 : S2048x512.Idx → Elt F .bf16) :=
  Memref.read_access_unit_zero (Elt F) (Pipeline.arrRef spec1 7) origin1_7 (fun a => by rw [congrFun origin1_7 a]; simp) (V c (Pipeline.arrRef spec1 7))
theorem blk1_8_eq (c : Dev nD) : blk1_8 V c = (V c main_v84 : S1x512.Idx → Elt F .f32) :=
  Memref.read_access_unit_zero (Elt F) (Pipeline.arrRef spec1 8) origin1_8 (fun a => by rw [congrFun origin1_8 a]; simp) (V c (Pipeline.arrRef spec1 8))
theorem blk1_9_eq (c : Dev nD) : blk1_9 V c = (V c main_arg17 : S512x1024.Idx → Elt F .bf16) :=
  Memref.read_access_unit_zero (Elt F) (Pipeline.arrRef spec1 9) origin1_9 (fun a => by rw [congrFun origin1_9 a]; simp) (V c (Pipeline.arrRef spec1 9))
theorem blk1_10_eq (c : Dev nD) : blk1_10 V c = (V c main_v85 : S1x1024.Idx → Elt F .f32) :=
  Memref.read_access_unit_zero (Elt F) (Pipeline.arrRef spec1 10) origin1_10 (fun a => by rw [congrFun origin1_10 a]; simp) (V c (Pipeline.arrRef spec1 10))
theorem blk1_11_eq (c : Dev nD) : blk1_11 V c = (V c main_arg19 : S1024x16.Idx → Elt F .bf16) :=
  Memref.read_access_unit_zero (Elt F) (Pipeline.arrRef spec1 11) origin1_11 (fun a => by rw [congrFun origin1_11 a]; simp) (V c (Pipeline.arrRef spec1 11))
theorem blk1_12_eq (c : Dev nD) : blk1_12 V c = (V c main_v86 : S1x16.Idx → Elt F .f32) :=
  Memref.read_access_unit_zero (Elt F) (Pipeline.arrRef spec1 12) origin1_12 (fun a => by rw [congrFun origin1_12 a]; simp) (V c (Pipeline.arrRef spec1 12))

/-- The head function respects equality of its weight and bias operands. -/
theorem headFn_congr (x : FVec F (Cert.Hand.Rows 2048) .bf16)
    {w1 w1' : FVec F (Cert.Hand.Weights 2048 512) .bf16} {b1 b1' : FVec F (Cert.Hand.BiasRow 512) .f32}
    {w2 w2' : FVec F (Cert.Hand.Weights 512 1024) .bf16} {b2 b2' : FVec F (Cert.Hand.BiasRow 1024) .f32}
    {w3 w3' : FVec F (Cert.Hand.Weights 1024 16) .bf16} {b3 b3' : FVec F (Cert.Hand.BiasRow 16) .f32}
    (e1 : w1 = w1') (e2 : b1 = b1') (e3 : w2 = w2') (e4 : b2 = b2') (e5 : w3 = w3') (e6 : b3 = b3') :
    headFn x w1 b1 w2 b2 w3 b3 = headFn x w1' b1' w2' b2' w3' b3' := by
  subst e1 e2 e3 e4 e5 e6; rfl

/-- THE REGION'S VALUE: whatever the buffers hold when the region is entered, its result array ends holding the
    head function of the features and of the six head arrays as found. -/
theorem arrAt1_eq_headFn (c : Dev nD) :
    (dat1 V c).arrAt 13 cfg1.N
      = (headFn (feat1 V c) (V c main_arg15) (V c main_v84) (V c main_arg17) (V c main_v85) (V c main_arg19) (V c main_v86)
          : S8x16.Idx → Elt F .f32) := by
  rw [arrAt1_eq_left]
  refine (read_witness1_head (F := F) ..).trans ?_
  refine (value1_eq_headFn (F := F) ..).trans ?_
  exact headFn_congr _
    (((hstage1_7 0).read_unread _).trans (blk1_7_eq V c))
    (((hstage1_8 0).read_unread _).trans (blk1_8_eq V c))
    (((hstage1_9 0).read_unread _).trans (blk1_9_eq V c))
    (((hstage1_10 0).read_unread _).trans (blk1_10_eq V c))
    (((hstage1_11 0).read_unread _).trans (blk1_11_eq V c))
    (((hstage1_12 0).read_unread _).trans (blk1_12_eq V c))

end Cert.KernelIdeal.Hand

end
-- ==== Proof.HeadReduction.lean ====
/-
  The head taken off the value equation.

  Both programs end with the classifier head, and each program's result array has been shown to hold the head
  function of the head's seven operands as the last region finds them (the reference: the 8 rows of 2048 features
  its fourth region left, three weights, three bias rows; the kernel: the features its last region computes on the
  way, and the same six arrays).  Here the six weight and bias operands are traced back to the launch:

  * a weight is an argument array that no host operation writes and no region may change, so the last region finds
    it as launched;
  * a bias row is the reshape, by the host stretch just before the last region, of an argument vector of length n
    into one row of n, and that argument too is still as launched.

  The two launches agree on the arguments, so the six operands agree, and the head function, being a function, gives
  equal results as soon as the features agree.  The value equation between the two result arrays is thereby reduced
  to the equation between the two 8 x 2048 feature arrays.
-/
import proofs.«147627_g2000402439390779_pallasbulk_891_17_alg».proof.Proof.KernelIdealFrame
import proofs.«147627_g2000402439390779_pallasbulk_891_17_alg».proof.Proof.ReferenceIdealFrame
import proofs.«147627_g2000402439390779_pallasbulk_891_17_alg».proof.Proof.RefHeadValue
import proofs.«147627_g2000402439390779_pallasbulk_891_17_alg».proof.Proof.KernelHeadValue
import Idealize.ShloMosaic.Lib.StableHlo.Run

set_option maxRecDepth 16384

noncomputable section

/-! ## The reference's head operands, from the launch -/

namespace Cert.ReferenceIdeal.Hand

open Cert.ReferenceIdeal Cert.ReferenceIdeal.Gen
open Idealize.ShloMosaic Idealize.ShloMosaic.TcCoe Idealize.ShloMosaic.StableHlo
open Idealize.SL.Sem

variable {F : FTy → Type} [FloatOps F] [Cert.ReferenceIdeal.Facts]
variable (m : (ℓ : Loc nD τ sig) → Buf (Elt F) ℓ) (outs : Outs (F := F))

/-- The last region finds the three head weights as launched. -/
theorem entry4_arg15 (c : Dev nD) : V19 m outs c main_arg15 = m ((c : Thread nD τ).loc main_arg15) :=
  (V19_of m outs c main_arg15 (by decide)).trans <| (V18_of m outs c main_arg15 (by decide)).trans <| (V17_of m outs c main_arg15 (by decide)).trans <| (V16_of m outs c main_arg15 (by decide)).trans <| (V15_of m outs c main_arg15 (by decide)).trans <| (V14_of m outs c main_arg15 (by decide)).trans <| (V13_of m outs c main_arg15 (by decide)).trans <| (V12_of m outs c main_arg15 (by decide)).trans <| (V11_of m outs c main_arg15 (by decide)).trans <| (V10_of m outs c main_arg15 (by decide)).trans <| (V9_of m outs c main_arg15 (by decide)).trans <| (V8_of m outs c main_arg15 (by decide)).trans <| (V7_of m outs c main_arg15 (by decide)).trans <| (V6_of m outs c main_arg15 (by decide)).trans <| (V5_of m c main_arg15 (by decide)).trans <| (V4_of m c main_arg15 (by decide)).trans <| (V3_of m c main_arg15 (by decide)).trans <| (V2_of m c main_arg15 (by decide)).trans <| (V1_of m c main_arg15 (by decide)).trans rfl
theorem entry4_arg17 (c : Dev nD) : V19 m outs c main_arg17 = m ((c : Thread nD τ).loc main_arg17) :=
  (V19_of m outs c main_arg17 (by decide)).trans <| (V18_of m outs c main_arg17 (by decide)).trans <| (V17_of m outs c main_arg17 (by decide)).trans <| (V16_of m outs c main_arg17 (by decide)).trans <| (V15_of m outs c main_arg17 (by decide)).trans <| (V14_of m outs c main_arg17 (by decide)).trans <| (V13_of m outs c main_arg17 (by decide)).trans <| (V12_of m outs c main_arg17 (by decide)).trans <| (V11_of m outs c main_arg17 (by decide)).trans <| (V10_of m outs c main_arg17 (by decide)).trans <| (V9_of m outs c main_arg17 (by decide)).trans <| (V8_of m outs c main_arg17 (by decide)).trans <| (V7_of m outs c main_arg17 (by decide)).trans <| (V6_of m outs c main_arg17 (by decide)).trans <| (V5_of m c main_arg17 (by decide)).trans <| (V4_of m c main_arg17 (by decide)).trans <| (V3_of m c main_arg17 (by decide)).trans <| (V2_of m c main_arg17 (by decide)).trans <| (V1_of m c main_arg17 (by decide)).trans rfl
theorem entry4_arg19 (c : Dev nD) : V19 m outs c main_arg19 = m ((c : Thread nD τ).loc main_arg19) :=
  (V19_of m outs c main_arg19 (by decide)).trans <| (V18_of m outs c main_arg19 (by decide)).trans <| (V17_of m outs c main_arg19 (by decide)).trans <| (V16_of m outs c main_arg19 (by decide)).trans <| (V15_of m outs c main_arg19 (by decide)).trans <| (V14_of m outs c main_arg19 (by decide)).trans <| (V13_of m outs c main_arg19 (by decide)).trans <| (V12_of m outs c main_arg19 (by decide)).trans <| (V11_of m outs c main_arg19 (by decide)).trans <| (V10_of m outs c main_arg19 (by decide)).trans <| (V9_of m outs c main_arg19 (by decide)).trans <| (V8_of m outs c main_arg19 (by decide)).trans <| (V7_of m outs c main_arg19 (by decide)).trans <| (V6_of m outs c main_arg19 (by decide)).trans <| (V5_of m c main_arg19 (by decide)).trans <| (V4_of m c main_arg19 (by decide)).trans <| (V3_of m c main_arg19 (by decide)).trans <| (V2_of m c main_arg19 (by decide)).trans <| (V1_of m c main_arg19 (by decide)).trans rfl

/-- Before the last host stretch the three bias vectors are as launched. -/
theorem pre4_arg16 (c : Dev nD) : V18 m outs c main_arg16 = m ((c : Thread nD τ).loc main_arg16) :=
  (V18_of m outs c main_arg16 (by decide)).trans <| (V17_of m outs c main_arg16 (by decide)).trans <| (V16_of m outs c main_arg16 (by decide)).trans <| (V15_of m outs c main_arg16 (by decide)).trans <| (V14_of m outs c main_arg16 (by decide)).trans <| (V13_of m outs c main_arg16 (by decide)).trans <| (V12_of m outs c main_arg16 (by decide)).trans <| (V11_of m outs c main_arg16 (by decide)).trans <| (V10_of m outs c main_arg16 (by decide)).trans <| (V9_of m outs c main_arg16 (by decide)).trans <| (V8_of m outs c main_arg16 (by decide)).trans <| (V7_of m outs c main_arg16 (by decide)).trans <| (V6_of m outs c main_arg16 (by decide)).trans <| (V5_of m c main_arg16 (by decide)).trans <| (V4_of m c main_arg16 (by decide)).trans <| (V3_of m c main_arg16 (by decide)).trans <| (V2_of m c main_arg16 (by decide)).trans <| (V1_of m c main_arg16 (by decide)).trans rfl
theorem pre4_arg18 (c : Dev nD) : V18 m outs c main_arg18 = m ((c : Thread nD τ).loc main_arg18) :=
  (V18_of m outs c main_arg18 (by decide)).trans <| (V17_of m outs c main_arg18 (by decide)).trans <| (V16_of m outs c main_arg18 (by decide)).trans <| (V15_of m outs c main_arg18 (by decide)).trans <| (V14_of m outs c main_arg18 (by decide)).trans <| (V13_of m outs c main_arg18 (by decide)).trans <| (V12_of m outs c main_arg18 (by decide)).trans <| (V11_of m outs c main_arg18 (by decide)).trans <| (V10_of m outs c main_arg18 (by decide)).trans <| (V9_of m outs c main_arg18 (by decide)).trans <| (V8_of m outs c main_arg18 (by decide)).trans <| (V7_of m outs c main_arg18 (by decide)).trans <| (V6_of m outs c main_arg18 (by decide)).trans <| (V5_of m c main_arg18 (by decide)).trans <| (V4_of m c main_arg18 (by decide)).trans <| (V3_of m c main_arg18 (by decide)).trans <| (V2_of m c main_arg18 (by decide)).trans <| (V1_of m c main_arg18 (by decide)).trans rfl
theorem pre4_arg20 (c : Dev nD) : V18 m outs c main_arg20 = m ((c : Thread nD τ).loc main_arg20) :=
  (V18_of m outs c main_arg20 (by decide)).trans <| (V17_of m outs c main_arg20 (by decide)).trans <| (V16_of m outs c main_arg20 (by decide)).trans <| (V15_of m outs c main_arg20 (by decide)).trans <| (V14_of m outs c main_arg20 (by decide)).trans <| (V13_of m outs c main_arg20 (by decide)).trans <| (V12_of m outs c main_arg20 (by decide)).trans <| (V11_of m outs c main_arg20 (by decide)).trans <| (V10_of m outs c main_arg20 (by decide)).trans <| (V9_of m outs c main_arg20 (by decide)).trans <| (V8_of m outs c main_arg20 (by decide)).trans <| (V7_of m outs c main_arg20 (by decide)).trans <| (V6_of m outs c main_arg20 (by decide)).trans <| (V5_of m c main_arg20 (by decide)).trans <| (V4_of m c main_arg20 (by decide)).trans <| (V3_of m c main_arg20 (by decide)).trans <| (V2_of m c main_arg20 (by decide)).trans <| (V1_of m c main_arg20 (by decide)).trans rfl

/-- The last host stretch makes each bias row by reshaping its vector. -/
theorem bias4_1_ops (c : Dev nD) :
    (V19 m outs c main_v70 : S1x512.Idx → Elt F .f32)
      = shapeCast S1x512 (V18 m outs c main_arg16 : S512.Idx → Elt F .f32) shapeCasts_S512_S1x512 := by
  show StableHlo.after hostOps4 (V18 m outs c) (Proc.devRef .tc main_v70) = _
  unfold hostOps4
  after_results
  rfl
theorem bias4_2_ops (c : Dev nD) :
    (V19 m outs c main_v71 : S1x1024.Idx → Elt F .f32)
      = shapeCast S1x1024 (V18 m outs c main_arg18 : S1024.Idx → Elt F .f32) shapeCasts_S1024_S1x1024 := by
  show StableHlo.after hostOps4 (V18 m outs c) (Proc.devRef .tc main_v71) = _
  unfold hostOps4
  after_results
  rfl
theorem bias4_3_ops (c : Dev nD) :
    (V19 m outs c main_v72 : S1x16.Idx → Elt F .f32)
      = shapeCast S1x16 (V18 m outs c main_arg20 : S16.Idx → Elt F .f32) shapeCasts_S16_S1x16 := by
  show StableHlo.after hostOps4 (V18 m outs c) (Proc.devRef .tc main_v72) = _
  unfold hostOps4
  after_results
  rfl

end Cert.ReferenceIdeal.Hand

/-! ## The kernel's head operands, from the launch -/

namespace Cert.KernelIdeal.Hand

open Cert.KernelIdeal Cert.KernelIdeal.Gen
open Idealize.ShloMosaic Idealize.ShloMosaic.TcCoe Idealize.ShloMosaic.StableHlo
open Idealize.SL.Sem

variable {F : FTy → Type} [FloatOps F] [Cert.KernelIdeal.Facts]
variable (m : (ℓ : Loc nD τ sig) → Buf (Elt F) ℓ) (outs : Outs (F := F))

/-- The last region finds the three head weights as launched. -/
theorem entry1_arg15 (c : Dev nD) : V7 m outs c main_arg15 = m ((c : Thread nD τ).loc main_arg15) :=
  (V7_of m outs c main_arg15 (by decide)).trans <| (V6_of m outs c main_arg15 (by decide)).trans <| (V5_of m c main_arg15 (by decide)).trans <| (V4_of m c main_arg15 (by decide)).trans <| (V3_of m c main_arg15 (by decide)).trans <| (V2_of m c main_arg15 (by decide)).trans <| (V1_of m c main_arg15 (by decide)).trans rfl
theorem entry1_arg17 (c : Dev nD) : V7 m outs c main_arg17 = m ((c : Thread nD τ).loc main_arg17) :=
  (V7_of m outs c main_arg17 (by decide)).trans <| (V6_of m outs c main_arg17 (by decide)).trans <| (V5_of m c main_arg17 (by decide)).trans <| (V4_of m c main_arg17 (by decide)).trans <| (V3_of m c main_arg17 (by decide)).trans <| (V2_of m c main_arg17 (by decide)).trans <| (V1_of m c main_arg17 (by decide)).trans rfl
theorem entry1_arg19 (c : Dev nD) : V7 m outs c main_arg19 = m ((c : Thread nD τ).loc main_arg19) :=
  (V7_of m outs c main_arg19 (by decide)).trans <| (V6_of m outs c main_arg19 (by decide)).trans <| (V5_of m c main_arg19 (by decide)).trans <| (V4_of m c main_arg19 (by decide)).trans <| (V3_of m c main_arg19 (by decide)).trans <| (V2_of m c main_arg19 (by decide)).trans <| (V1_of m c main_arg19 (by decide)).trans rfl

/-- Before the last host stretch the three bias vectors are as launched. -/
theorem pre1_arg16 (c : Dev nD) : V6 m outs c main_arg16 = m ((c : Thread nD τ).loc main_arg16) :=
  (V6_of m outs c main_arg16 (by decide)).trans <| (V5_of m c main_arg16 (by decide)).trans <| (V4_of m c main_arg16 (by decide)).trans <| (V3_of m c main_arg16 (by decide)).trans <| (V2_of m c main_arg16 (by decide)).trans <| (V1_of m c main_arg16 (by decide)).trans rfl
theorem pre1_arg18 (c : Dev nD) : V6 m outs c main_arg18 = m ((c : Thread nD τ).loc main_arg18) :=
  (V6_of m outs c main_arg18 (by decide)).trans <| (V5_of m c main_arg18 (by decide)).trans <| (V4_of m c main_arg18 (by decide)).trans <| (V3_of m c main_arg18 (by decide)).trans <| (V2_of m c main_arg18 (by decide)).trans <| (V1_of m c main_arg18 (by decide)).trans rfl
theorem pre1_arg20 (c : Dev nD) : V6 m outs c main_arg20 = m ((c : Thread nD τ).loc main_arg20) :=
  (V6_of m outs c main_arg20 (by decide)).trans <| (V5_of m c main_arg20 (by decide)).trans <| (V4_of m c main_arg20 (by decide)).trans <| (V3_of m c main_arg20 (by decide)).trans <| (V2_of m c main_arg20 (by decide)).trans <| (V1_of m c main_arg20 (by decide)).trans rfl

set_option maxHeartbeats 4000000 in
/-- The last host stretch makes each bias row by reshaping its vector. -/
theorem bias1_1_ops (c : Dev nD) :
    (V7 m outs c main_v84 : S1x512.Idx → Elt F .f32)
      = shapeCast S1x512 (V6 m outs c main_arg16 : S512.Idx → Elt F .f32) shapeCasts_S512_S1x512 := by
  show StableHlo.after hostOps1 (V6 m outs c) (Proc.devRef .tc main_v84) = _
  unfold hostOps1
  after_results
  rfl
set_option maxHeartbeats 4000000 in
theorem bias1_2_ops (c : Dev nD) :
    (V7 m outs c main_v85 : S1x1024.Idx → Elt F .f32)
      = shapeCast S1x1024 (V6 m outs c main_arg18 : S1024.Idx → Elt F .f32) shapeCasts_S1024_S1x1024 := by
  show StableHlo.after hostOps1 (V6 m outs c) (Proc.devRef .tc main_v85) = _
  unfold hostOps1
  after_results
  rfl
set_option maxHeartbeats 4000000 in
theorem bias1_3_ops (c : Dev nD) :
    (V7 m outs c main_v86 : S1x16.Idx → Elt F .f32)
      = shapeCast S1x16 (V6 m outs c main_arg20 : S16.Idx → Elt F .f32) shapeCasts_S16_S1x16 := by
  show StableHlo.after hostOps1 (V6 m outs c) (Proc.devRef .tc main_v86) = _
  unfold hostOps1
  after_results
  rfl

end Cert.KernelIdeal.Hand

/-! ## The reduction -/

namespace Cert.Proof

open Idealize.ShloMosaic Idealize.ShloMosaic.TcCoe Idealize.SL.Sem
open Cert.Hand (headFn)

variable {F : FTy → Type} [FloatOps F] [Cert.KernelIdeal.Facts] [Cert.ReferenceIdeal.Facts]

/-- A vector of length n as one row of n. -/
abbrev Vec1 (n : ℕ) : Shape := ⟨1, ![n]⟩

/-- Equal vectors reshape to equal rows. -/
theorem row512_congr {b b' : FVec F (Vec1 512) .f32} (e : b = b') :
    (shapeCast (Cert.Hand.BiasRow 512) b : FVec F (Cert.Hand.BiasRow 512) .f32) = shapeCast (Cert.Hand.BiasRow 512) b' := by subst e; rfl
theorem row1024_congr {b b' : FVec F (Vec1 1024) .f32} (e : b = b') :
    (shapeCast (Cert.Hand.BiasRow 1024) b : FVec F (Cert.Hand.BiasRow 1024) .f32) = shapeCast (Cert.Hand.BiasRow 1024) b' := by subst e; rfl
theorem row16_congr {b b' : FVec F (Vec1 16) .f32} (e : b = b') :
    (shapeCast (Cert.Hand.BiasRow 16) b : FVec F (Cert.Hand.BiasRow 16) .f32) = shapeCast (Cert.Hand.BiasRow 16) b' := by subst e; rfl

/-- THE HEAD REDUCTION: from launches agreeing on the arguments, the two result arrays are equal as soon as the
    reference's feature array (what its last region finds in `main_v69`) equals the features the kernel's last
    region computes. -/
theorem value_eq_of_features
    (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (c : Dev Cert.KernelIdeal.nD)
    (hG : (Cert.ReferenceIdeal.Gen.V19 m' (Cert.ReferenceIdeal.Hand.outs4 m') c (Proc.devRef .tc Cert.ReferenceIdeal.main_v69) : FVec F (Cert.Hand.Rows 2048) .bf16)
        = Cert.KernelIdeal.Hand.feat1 (fun c b => Cert.KernelIdeal.Gen.V7 m (Cert.KernelIdeal.Hand.outs1 m) c b) c) :
    Cert.ReferenceIdeal.Gen.V20 m' (Cert.ReferenceIdeal.Hand.outs m') c (Proc.devRef .tc Cert.ReferenceIdeal.main_v73)
      = Cert.KernelIdeal.Gen.V8 m (Cert.KernelIdeal.Hand.outs m) c (Proc.devRef .tc Cert.KernelIdeal.main_v87) := by
  -- the reference's result array is the head function of its last region's operands
  have hR : Cert.ReferenceIdeal.Gen.V20 m' (Cert.ReferenceIdeal.Hand.outs m') c (Proc.devRef .tc Cert.ReferenceIdeal.main_v73)
      = Cert.ReferenceIdeal.Hand.o4 m' c := by
    show Function.update (Cert.ReferenceIdeal.Gen.V19 m' (Cert.ReferenceIdeal.Hand.outs m') c) (Proc.devRef .tc Cert.ReferenceIdeal.main_v73)
      (Cert.ReferenceIdeal.Hand.outs m' 20 Cert.ReferenceIdeal.main_v73 c) (Proc.devRef .tc Cert.ReferenceIdeal.main_v73) = _
    rw [Function.update_self]
    show Function.update (Cert.ReferenceIdeal.Gen.V0 m' c) (Proc.devRef .tc Cert.ReferenceIdeal.main_v73) (Cert.ReferenceIdeal.Hand.o4 m' c)
      (Proc.devRef .tc Cert.ReferenceIdeal.main_v73) = _
    rw [Function.update_self]
  -- and so is the kernel's
  have hK : Cert.KernelIdeal.Gen.V8 m (Cert.KernelIdeal.Hand.outs m) c (Proc.devRef .tc Cert.KernelIdeal.main_v87)
      = Cert.KernelIdeal.Hand.o1 m c := by
    show Function.update (Cert.KernelIdeal.Gen.V7 m (Cert.KernelIdeal.Hand.outs m) c) (Proc.devRef .tc Cert.KernelIdeal.main_v87)
      (Cert.KernelIdeal.Hand.outs m 8 Cert.KernelIdeal.main_v87 c) (Proc.devRef .tc Cert.KernelIdeal.main_v87) = _
    rw [Function.update_self]
    show Function.update (Cert.KernelIdeal.Gen.V0 m c) (Proc.devRef .tc Cert.KernelIdeal.main_v87) (Cert.KernelIdeal.Hand.o1 m c)
      (Proc.devRef .tc Cert.KernelIdeal.main_v87) = _
    rw [Function.update_self]
  refine hR.trans ?_
  refine Eq.trans ?_ hK.symm
  refine (Cert.ReferenceIdeal.Hand.arrAt4_eq_headFn (F := F) (fun c b => Cert.ReferenceIdeal.Gen.V19 m' (Cert.ReferenceIdeal.Hand.outs4 m') c b) c).trans ?_
  refine Eq.trans ?_ (Cert.KernelIdeal.Hand.arrAt1_eq_headFn (F := F) (fun c b => Cert.KernelIdeal.Gen.V7 m (Cert.KernelIdeal.Hand.outs1 m) c b) c).symm
  refine Cert.ReferenceIdeal.Hand.headFn_congr hG ?w1 ?b1 ?w2 ?b2 ?w3 ?b3
  case w1 =>
    exact (Cert.ReferenceIdeal.Hand.entry4_arg15 m' _ c).trans (((hagree c).2.2.2.2.2.2.2.2.2.2.2.2.2.2.2.1).trans (Cert.KernelIdeal.Hand.entry1_arg15 m _ c).symm)
  case w2 =>
    exact (Cert.ReferenceIdeal.Hand.entry4_arg17 m' _ c).trans (((hagree c).2.2.2.2.2.2.2.2.2.2.2.2.2.2.2.2.2.1).trans (Cert.KernelIdeal.Hand.entry1_arg17 m _ c).symm)
  case w3 =>
    exact (Cert.ReferenceIdeal.Hand.entry4_arg19 m' _ c).trans (((hagree c).2.2.2.2.2.2.2.2.2.2.2.2.2.2.2.2.2.2.2.1).trans (Cert.KernelIdeal.Hand.entry1_arg19 m _ c).symm)
  case b1 =>
    refine (Cert.ReferenceIdeal.Hand.bias4_1_ops m' _ c).trans (Eq.trans ?_ (Cert.KernelIdeal.Hand.bias1_1_ops m _ c).symm)
    exact row512_congr ((Cert.ReferenceIdeal.Hand.pre4_arg16 m' _ c).trans (((hagree c).2.2.2.2.2.2.2.2.2.2.2.2.2.2.2.2.1).trans (Cert.KernelIdeal.Hand.pre1_arg16 m _ c).symm))
  case b2 =>
    refine (Cert.ReferenceIdeal.Hand.bias4_2_ops m' _ c).trans (Eq.trans ?_ (Cert.KernelIdeal.Hand.bias1_2_ops m _ c).symm)
    exact row1024_congr ((Cert.ReferenceIdeal.Hand.pre4_arg18 m' _ c).trans (((hagree c).2.2.2.2.2.2.2.2.2.2.2.2.2.2.2.2.2.2.1).trans (Cert.KernelIdeal.Hand.pre1_arg18 m _ c).symm))
  case b3 =>
    refine (Cert.ReferenceIdeal.Hand.bias4_3_ops m' _ c).trans (Eq.trans ?_ (Cert.KernelIdeal.Hand.bias1_3_ops m _ c).symm)
    exact row16_congr ((Cert.ReferenceIdeal.Hand.pre4_arg20 m' _ c).trans (((hagree c).2.2.2.2.2.2.2.2.2.2.2.2.2.2.2.2.2.2.2.2).trans (Cert.KernelIdeal.Hand.pre1_arg20 m _ c).symm))

end Cert.Proof

end
-- ==== Proof.KernelConv4Value.lean ====
/-
  The kernel's last convolution, read at an index. The body builds it as a matrix product: a zero-padded copy of the
  pooled third-stage activation (zeros everywhere, then the activation on rows 2 … 17 of 24), a patch matrix of five
  column blocks (block kh is rows kh … kh + 15 of the padded copy, each image's 16 rows flattened), and the product of
  the patch matrix with the weight block into zero. Here each of the three is read at an index, the scratch buffers
  taken as the ONE function their stores leave.
-/
import proofs.«147627_g2000402439390779_pallasbulk_891_17_alg».proof.Proof.KernelIdealRegion1
import Idealize.ShloMosaic.Lib.Pipeline.Value
import Idealize.ShloMosaic.Lib.Ring
import Idealize.ShloMosaic.Lib.ValueIdx
import Idealize.ShloMosaic.PureOps.Ideal.Laws
import proofs.«147627_g2000402439390779_pallasbulk_891_17_alg».proof.Proof.LibTapSum

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F] [Cert.KernelIdeal.Facts]

section Conv4

variable (c : Dev nD) (M0 : Memref sig .tc .vmem S8x16x4x128 .bf16) (M1 : Memref sig .tc .vmem S640x1280 .bf16) (M2 : Memref sig .tc .vmem S1x256 .f32) (M3 : Memref sig .tc .vmem S1280x1280 .bf16) (M4 : Memref sig .tc .vmem S1x256 .f32)
  (C0 : Memref sig .tc .vmem S8x20x8x128 .bf16) (C1 : Memref sig .tc .vmem S1024x640 .bf16) (C2 : Memref sig .tc .vmem S8x20x8x256 .bf16) (C3 : Memref sig .tc .vmem S1024x1280 .bf16)
  (f0 : Bf1 (F := F) c M0) (f1 : Bf1 (F := F) c M1) (f2 : Bf1 (F := F) c M2) (f3 : Bf1 (F := F) c M3) (f4 : Bf1 (F := F) c M4)

/-! ## The padded copy -/

/-- The pooled third-stage activation, as the run names it: one value per image, row and channel. -/
abbrev pool3 : S8x16x256.Idx → Elt F .bf16 := run1.sl.v119 c M0 M1 M2 M3 M4 C0 C1 C2 C3 f0 f1 f2 f3 f4

/-- The zero-padded copy the last convolution reads: what its two stores leave in the scratch buffer. -/
abbrev pad4 : S8x24x256.Idx → Elt F .bf16 := View.canon (run1.sl.G4_2 c M0 M1 M2 M3 M4 C0 C1 C2 C3 f0 f1 f2 f3 f4)

theorem hz_000 : (![0, 0, 0] : Fin 3 → Nat) = fun _ => 0 := funext fun a => by fin_cases a <;> rfl

/-- On rows 2 … 17 the padded copy is the pooled activation two rows up: the second store, through the rectangle of
    the activation's shape at row offset 2, is the last one. -/
theorem pad4_mid (b : Fin 8) (h : Fin 16) (ci : Fin 256) :
    pad4 c M0 M1 M2 M3 M4 C0 C1 C2 C3 f0 f1 f2 f3 f4 (ix3 b (⟨h.val + 2, by omega⟩ : Fin 24) ci) = pool3 c M0 M1 M2 M3 M4 C0 C1 C2 C3 f0 f1 f2 f3 f4 (ix3 b h ci) := by
  unfold pad4 run1.sl.G4_2
  have e := View.canon_cons_emb (Val := Elt F) (Rect.unit (s := S8x24x256) ![0, 2, 0] S8x16x256.size k1_part4._proof_22)
    (run1.sl.v119 c M0 M1 M2 M3 M4 C0 C1 C2 C3 f0 f1 f2 f3 f4) run1.sl.G4_1 (ix3 b h ci)
  refine Eq.trans (congrArg _ ?_) e
  funext a
  apply Fin.ext
  rw [Rect.emb_apply]
  match a with
  | ⟨0, _⟩ => show b.val = 0 + 1 * b.val; omega
  | ⟨1, _⟩ => show h.val + 2 = 2 + 1 * h.val; omega
  | ⟨2, _⟩ => show ci.val = 0 + 1 * ci.val; omega

/-- Off those rows it is the zero the first store splats: the second store's rectangle does not hold the index, and the
    first store, through the whole buffer, leaves its payload — the broadcast of the bf16 zero. -/
theorem pad4_out (b : Fin 8) (hh : Fin 24) (ci : Fin 256) (h : hh.val < 2 ∨ 18 ≤ hh.val) :
    pad4 c M0 M1 M2 M3 M4 C0 C1 C2 C3 f0 f1 f2 f3 f4 (ix3 b hh ci) = (run1.sl.cst : F .bf16) := by
  unfold pad4 run1.sl.G4_2
  rw [View.canon_cons_of_not_mem _ _ (fun hm => by
    have hm' : ix3 b hh ci ∈ (Rect.unit (s := S8x24x256) ![0, 2, 0] S8x16x256.size k1_part4._proof_22).set := hm
    have h1 : 2 ≤ hh.val ∧ hh.val < 2 + 16 := (Rect.mem_set_unit.mp hm') (1 : Fin 3)
    omega)]
  unfold run1.sl.G4_1
  rw [View.canon_unit_zero hz_000]
  unfold run1.sl.v115
  rw [shapeCast_self]
  rfl

/-- The padded copy at any index: the pooled activation two rows up on rows 2 … 17, zero elsewhere. -/
theorem pad4_apply (b : Fin 8) (hh : Fin 24) (ci : Fin 256) :
    pad4 c M0 M1 M2 M3 M4 C0 C1 C2 C3 f0 f1 f2 f3 f4 (ix3 b hh ci)
      = if h : 2 ≤ hh.val ∧ hh.val < 18 then pool3 c M0 M1 M2 M3 M4 C0 C1 C2 C3 f0 f1 f2 f3 f4 (ix3 b (⟨hh.val - 2, by omega⟩ : Fin 16) ci)
        else (run1.sl.cst : F .bf16) := by
  split
  · rename_i h
    have e := pad4_mid c M0 M1 M2 M3 M4 C0 C1 C2 C3 f0 f1 f2 f3 f4 b (⟨hh.val - 2, by omega⟩ : Fin 16) ci
    rw [← e]
    congr 2
    apply Fin.ext
    show hh.val = hh.val - 2 + 2
    omega
  · rename_i h
    exact pad4_out c M0 M1 M2 M3 M4 C0 C1 C2 C3 f0 f1 f2 f3 f4 b hh ci (by omega)

/-! ## The patch matrix -/

variable (C4 : Memref sig .tc .vmem S8x24x256 .bf16) (C5 : Memref sig .tc .vmem S128x1280 .bf16)

/-- One tap's block: the padded copy loaded through the rectangle of the activation's shape at row offset `kh`, each
    image's 16 rows flattened. At (r, ci), r = 16·b + h, it is the padded copy at (b, h + kh, ci). -/
theorem tap_apply (kh : Fin 5) (inb : ∀ a, (![0, kh.val, 0] : Fin 3 → Nat) a + S8x16x256.size a ≤ S8x24x256.size a)
    (h1 : S8x16x256.ShapeCasts S128x256) (h2 : S128x256.ShapeCasts S128x256) (b : Fin 8) (h : Fin 16) (ci : Fin 256) :
    shapeCast S128x256 (shapeCast S128x256
        (C4.view.readCov (run1.sl.G4_2 c M0 M1 M2 M3 M4 C0 C1 C2 C3 f0 f1 f2 f3 f4) (Rect.unit (s := S8x24x256) ![0, kh.val, 0] S8x16x256.size inb).toLoadRect) h1) h2
      (ix2 (⟨b.val * 16 + h.val, by omega⟩ : Fin 128) ci)
      = pad4 c M0 M1 M2 M3 M4 C0 C1 C2 C3 f0 f1 f2 f3 f4 (ix3 b (⟨h.val + kh.val, by omega⟩ : Fin 24) ci) := by
  rw [shapeCast_self]
  rw [shapeCast_apply _ h1 _ (ix3 b h ci) (by
    rw [Shape.rowMajor_val_three, Shape.rowMajor_val_two]
    show (b.val * 16 + h.val) * 256 + ci.val = (b.val * 16 + h.val) * 256 + ci.val
    rfl)]
  rw [View.readCov_eq_canon']
  show View.canon _ _ = View.canon _ _
  congr 1
  funext a
  apply Fin.ext
  rw [LoadRect.idx_apply]
  match a with
  | ⟨0, _⟩ => show 0 + 1 * b.val = b.val; omega
  | ⟨1, _⟩ => show kh.val + 1 * h.val = h.val + kh.val; omega
  | ⟨2, _⟩ => show 0 + 1 * ci.val = ci.val; omega

/-- The same at a generic index of the block: row r is image r / 16, row r % 16. -/
theorem tap_apply' (kh : Fin 5) (inb : ∀ a, (![0, kh.val, 0] : Fin 3 → Nat) a + S8x16x256.size a ≤ S8x24x256.size a)
    (h1 : S8x16x256.ShapeCasts S128x256) (h2 : S128x256.ShapeCasts S128x256) (x : S128x256.Idx) :
    shapeCast S128x256 (shapeCast S128x256
        (C4.view.readCov (run1.sl.G4_2 c M0 M1 M2 M3 M4 C0 C1 C2 C3 f0 f1 f2 f3 f4) (Rect.unit (s := S8x24x256) ![0, kh.val, 0] S8x16x256.size inb).toLoadRect) h1) h2 x
      = pad4 c M0 M1 M2 M3 M4 C0 C1 C2 C3 f0 f1 f2 f3 f4 (ix3 (⟨(x 0).val / 16, by have h : (x 0).val < 128 := (x 0).isLt; omega⟩ : Fin 8)
          (⟨(x 0).val % 16 + kh.val, by omega⟩ : Fin 24) (⟨(x 1).val, (x 1).isLt⟩ : Fin 256)) := by
  have hx0 : (x 0).val < 128 := (x 0).isLt
  have e := tap_apply c M0 M1 M2 M3 M4 C0 C1 C2 C3 f0 f1 f2 f3 f4 C4 kh inb h1 h2 (⟨(x 0).val / 16, by omega⟩ : Fin 8) (⟨(x 0).val % 16, by omega⟩ : Fin 16) (⟨(x 1).val, (x 1).isLt⟩ : Fin 256)
  refine Eq.trans (congrArg _ ?_) e
  funext a
  apply Fin.ext
  match a with
  | ⟨0, _⟩ => show (x 0).val = (x 0).val / 16 * 16 + (x 0).val % 16; omega
  | ⟨1, _⟩ => rfl

/-- The patch matrix as the run reads it back, -/
abbrev patch4 : S128x1280.Idx → Elt F .bf16 := run1.sl.v c M0 M1 M2 M3 M4 C0 C1 C2 C3 C4 C5 f0 f1 f2 f3 f4

/-- and the one function its five stores are tiles of: at (r, k), the padded copy at image r / 16, row r % 16 + k / 256,
    channel k % 256. -/
def patchFn (y : S128x1280.Idx) : Elt F .bf16 :=
  pad4 c M0 M1 M2 M3 M4 C0 C1 C2 C3 f0 f1 f2 f3 f4 (ix3 (⟨(y 0).val / 16, by have h : (y 0).val < 128 := (y 0).isLt; omega⟩ : Fin 8)
    (⟨(y 0).val % 16 + (y 1).val / 256, by have h : (y 1).val < 1280 := (y 1).isLt; omega⟩ : Fin 24)
    (⟨(y 1).val % 256, by omega⟩ : Fin 256))

theorem hz_00' : (![0, 0] : Fin 2 → Nat) = fun _ => 0 := funext fun a => by fin_cases a <;> rfl

/-- The read-back is the canon of the five stores: the load is through the whole buffer. -/
theorem patch4_eq_canon : patch4 c M0 M1 M2 M3 M4 C0 C1 C2 C3 f0 f1 f2 f3 f4 C4 C5 = View.canon (run1.sl.G5_5 c M0 M1 M2 M3 M4 C0 C1 C2 C3 C4 f0 f1 f2 f3 f4) := by
  unfold patch4 run1.sl.v
  rw [View.readCov_eq_canon']
  funext j
  show View.canon _ _ = View.canon _ _
  congr 1
  funext a
  apply Fin.ext
  rw [LoadRect.idx_apply]
  match a with
  | ⟨0, _⟩ => show 0 + 1 * (j 0).val = (j 0).val; omega
  | ⟨1, _⟩ => show 0 + 1 * (j 1).val = (j 1).val; omega

/-- Each store's payload is its tile of that function: tap `kh`'s block, stored at column offset 256·kh. -/
theorem piece_ok (kh : Fin 5) (inbP : ∀ a, (![0, kh.val * 256] : Fin 2 → Nat) a + S128x256.size a ≤ S128x1280.size a)
    (inb : ∀ a, (![0, kh.val, 0] : Fin 3 → Nat) a + S8x16x256.size a ≤ S8x24x256.size a)
    (h1 : S8x16x256.ShapeCasts S128x256) (h2 : S128x256.ShapeCasts S128x256) (x : S128x256.Idx) :
    shapeCast S128x256 (shapeCast S128x256
        (C4.view.readCov (run1.sl.G4_2 c M0 M1 M2 M3 M4 C0 C1 C2 C3 f0 f1 f2 f3 f4) (Rect.unit (s := S8x24x256) ![0, kh.val, 0] S8x16x256.size inb).toLoadRect) h1) h2 x
      = patchFn c M0 M1 M2 M3 M4 C0 C1 C2 C3 f0 f1 f2 f3 f4 ((Rect.unit (s := S128x1280) ![0, kh.val * 256] S128x256.size inbP).emb x) := by
  rw [tap_apply' c M0 M1 M2 M3 M4 C0 C1 C2 C3 f0 f1 f2 f3 f4 C4 kh inb h1 h2 x]
  unfold patchFn
  have hx1 : (x 1).val < 256 := (x 1).isLt
  have hk : kh.val < 5 := kh.isLt
  congr 1
  funext a
  apply Fin.ext
  match a with
  | ⟨0, _⟩ => show (x 0).val / 16 = (0 + 1 * (x 0).val) / 16; omega
  | ⟨1, _⟩ => show (x 0).val % 16 + kh.val = (0 + 1 * (x 0).val) % 16 + (kh.val * 256 + 1 * (x 1).val) / 256; omega
  | ⟨2, _⟩ => show (x 1).val = (kh.val * 256 + 1 * (x 1).val) % 256; omega

/-- THE PATCH MATRIX AT AN INDEX: at row 16·b + h and column 256·kh + ci it is the padded copy at (b, h + kh, ci). -/
theorem patch4_apply (b : Fin 8) (h : Fin 16) (kh : Fin 5) (ci : Fin 256) :
    patch4 c M0 M1 M2 M3 M4 C0 C1 C2 C3 f0 f1 f2 f3 f4 C4 C5 (ix2 (⟨b.val * 16 + h.val, by omega⟩ : Fin 128) (⟨kh.val * 256 + ci.val, by omega⟩ : Fin 1280))
      = pad4 c M0 M1 M2 M3 M4 C0 C1 C2 C3 f0 f1 f2 f3 f4 (ix3 b (⟨h.val + kh.val, by omega⟩ : Fin 24) ci) := by
  rw [patch4_eq_canon]
  refine (View.canon_apply_of_pieces (patchFn c M0 M1 M2 M3 M4 C0 C1 C2 C3 f0 f1 f2 f3 f4) _ (fun p hp x => ?_) _
    (View.cover_of_tiledL (run1.sl.G5_5 c M0 M1 M2 M3 M4 C0 C1 C2 C3 C4 f0 f1 f2 f3 f4) S128x256.size (by first | rfl | decide) _)).trans ?_
  · unfold run1.sl.G5_5 at hp
    simp only [List.mem_cons, List.mem_nil_iff, or_false] at hp
    rcases hp with rfl | rfl | rfl | rfl | rfl
    · show run1.sl.v144 c M0 M1 M2 M3 M4 C0 C1 C2 C3 C4 f0 f1 f2 f3 f4 x = _
      unfold run1.sl.v144 run1.sl.v141 run1.sl.v140
      exact piece_ok c M0 M1 M2 M3 M4 C0 C1 C2 C3 f0 f1 f2 f3 f4 C4 (4 : Fin 5) k1_part5._proof_29 _ _ _ x
    · show run1.sl.v139 c M0 M1 M2 M3 M4 C0 C1 C2 C3 C4 f0 f1 f2 f3 f4 x = _
      unfold run1.sl.v139 run1.sl.v136 run1.sl.v135
      exact piece_ok c M0 M1 M2 M3 M4 C0 C1 C2 C3 f0 f1 f2 f3 f4 C4 (3 : Fin 5) k1_part5._proof_23 _ _ _ x
    · show run1.sl.v134 c M0 M1 M2 M3 M4 C0 C1 C2 C3 C4 f0 f1 f2 f3 f4 x = _
      unfold run1.sl.v134 run1.sl.v131 run1.sl.v130
      exact piece_ok c M0 M1 M2 M3 M4 C0 C1 C2 C3 f0 f1 f2 f3 f4 C4 (2 : Fin 5) k1_part5._proof_17 _ _ _ x
    · show run1.sl.v129 c M0 M1 M2 M3 M4 C0 C1 C2 C3 C4 f0 f1 f2 f3 f4 x = _
      unfold run1.sl.v129 run1.sl.v126 run1.sl.v125
      exact piece_ok c M0 M1 M2 M3 M4 C0 C1 C2 C3 f0 f1 f2 f3 f4 C4 (1 : Fin 5) k1_part5._proof_13 _ _ _ x
    · show run1.sl.v124 c M0 M1 M2 M3 M4 C0 C1 C2 C3 C4 f0 f1 f2 f3 f4 x = _
      unfold run1.sl.v124 run1.sl.v121 run1.sl.v120
      exact piece_ok c M0 M1 M2 M3 M4 C0 C1 C2 C3 f0 f1 f2 f3 f4 C4 (0 : Fin 5) k1_part5._proof_6 _ _ _ x
  · unfold patchFn
    have hb : b.val < 8 := b.isLt
    have hh : h.val < 16 := h.isLt
    have hk : kh.val < 5 := kh.isLt
    have hc : ci.val < 256 := ci.isLt
    congr 1
    funext a
    apply Fin.ext
    match a with
    | ⟨0, _⟩ => show (b.val * 16 + h.val) / 16 = b.val; omega
    | ⟨1, _⟩ => show (b.val * 16 + h.val) % 16 + (kh.val * 256 + ci.val) / 256 = h.val + kh.val; omega
    | ⟨2, _⟩ => show (kh.val * 256 + ci.val) % 256 = ci.val; omega

/-- The same at a generic column k: tap k / 256, channel k % 256. -/
theorem patch4_apply' (b : Fin 8) (h : Fin 16) (k : Fin 1280) :
    patch4 c M0 M1 M2 M3 M4 C0 C1 C2 C3 f0 f1 f2 f3 f4 C4 C5 (ix2 (⟨b.val * 16 + h.val, by omega⟩ : Fin 128) k)
      = pad4 c M0 M1 M2 M3 M4 C0 C1 C2 C3 f0 f1 f2 f3 f4 (ix3 b (⟨h.val + k.val / 256, by omega⟩ : Fin 24) (⟨k.val % 256, by omega⟩ : Fin 256)) := by
  have e := patch4_apply c M0 M1 M2 M3 M4 C0 C1 C2 C3 f0 f1 f2 f3 f4 C4 C5 b h (⟨k.val / 256, by omega⟩ : Fin 5) (⟨k.val % 256, by omega⟩ : Fin 256)
  refine Eq.trans (congrArg _ ?_) e
  congr 1
  apply Fin.ext
  show k.val = k.val / 256 * 256 + k.val % 256
  omega

end Conv4

/-! ## The product, at the ideal instance -/

section Product

variable (c : Dev nD) (M0 : Memref sig .tc .vmem S8x16x4x128 .bf16) (M1 : Memref sig .tc .vmem S640x1280 .bf16) (M2 : Memref sig .tc .vmem S1x256 .f32) (M3 : Memref sig .tc .vmem S1280x1280 .bf16) (M4 : Memref sig .tc .vmem S1x256 .f32) (M5 : Memref sig .tc .vmem S1280x2048 .bf16)
  (C0 : Memref sig .tc .vmem S8x20x8x128 .bf16) (C1 : Memref sig .tc .vmem S1024x640 .bf16) (C2 : Memref sig .tc .vmem S8x20x8x256 .bf16) (C3 : Memref sig .tc .vmem S1024x1280 .bf16) (C4 : Memref sig .tc .vmem S8x24x256 .bf16) (C5 : Memref sig .tc .vmem S128x1280 .bf16)
  (f0 : Bf1 (F := Ideal) c M0) (f1 : Bf1 (F := Ideal) c M1) (f2 : Bf1 (F := Ideal) c M2) (f3 : Bf1 (F := Ideal) c M3) (f4 : Bf1 (F := Ideal) c M4) (f5 : Bf1 (F := Ideal) c M5)

/-- The dot's left index at result (r, co) and contraction position k is (r, k); -/
theorem conv4_lhsIdx (r : Fin 128) (co : Fin 2048) (k : Fin 1280) :
    dot_S128x1280_S1280x2048_S128x2048_1_0_0_1_n_n.lhsIdx (ix2 r co) ((contrEquiv1 dot_S128x1280_S1280x2048_S128x2048_1_0_0_1_n_n 1280 rfl rfl).symm k) = ix2 r k := by
  funext a
  apply Fin.ext
  match a with
  | ⟨0, _⟩ => rfl
  | ⟨1, _⟩ => exact (DotDims.lhsIdx_val_of_single dot_S128x1280_S1280x2048_S128x2048_1_0_0_1_n_n (cl := (1 : Fin 2)) rfl _ _).trans (contrEquiv1_symm_val dot_S128x1280_S1280x2048_S128x2048_1_0_0_1_n_n 1280 rfl rfl k)

/-- its right index is (k, co). -/
theorem conv4_rhsIdx (r : Fin 128) (co : Fin 2048) (k : Fin 1280) :
    dot_S128x1280_S1280x2048_S128x2048_1_0_0_1_n_n.rhsIdx (ix2 r co) ((contrEquiv1 dot_S128x1280_S1280x2048_S128x2048_1_0_0_1_n_n 1280 rfl rfl).symm k) = ix2 k co := by
  funext a
  apply Fin.ext
  match a with
  | ⟨0, _⟩ => exact (DotDims.rhsIdx_val_of_single dot_S128x1280_S1280x2048_S128x2048_1_0_0_1_n_n (cr := (0 : Fin 2)) rfl _ _).trans (contrEquiv1_symm_val dot_S128x1280_S1280x2048_S128x2048_1_0_0_1_n_n 1280 rfl rfl k)
  | ⟨1, _⟩ => rfl

/-- THE PRODUCT AT AN INDEX: into the zero accumulator, the matrix product at (r, co) is the sum over the 1280 patch
    columns of the patch entry times the weight entry (extended reals: the ideal reading). -/
theorem conv4_apply (r : Fin 128) (co : Fin 2048) :
    run1.sl.v148 (F := Ideal) c M0 M1 M2 M3 M4 M5 C0 C1 C2 C3 C4 C5 f0 f1 f2 f3 f4 f5 (ix2 r co)
      = ∑ k : Fin 1280, (patch4 (F := Ideal) c M0 M1 M2 M3 M4 C0 C1 C2 C3 f0 f1 f2 f3 f4 C4 C5 (ix2 r k) : Ideal .bf16)
          * (run1.sl.v147 (F := Ideal) c M5 f5 (ix2 k co) : Ideal .bf16) := by
  unfold run1.sl.v148 run1.sl.cst_123
  simp only [matmul]
  rw [Ideal.matmul_constant_zero_apply]
  rw [← Equiv.sum_comp (contrEquiv1 dot_S128x1280_S1280x2048_S128x2048_1_0_0_1_n_n 1280 rfl rfl).symm]
  refine Finset.sum_congr rfl fun k _ => ?_
  rw [conv4_lhsIdx, conv4_rhsIdx]

/-- With the patch entry read: at row 16·b + h, the sum over k < 1280 of the padded copy at (b, h + k / 256, k % 256)
    times the weight entry at (k, co) — a five-tap convolution along the rows, 256 channels a tap. -/
theorem conv4_rows (b : Fin 8) (h : Fin 16) (co : Fin 2048) :
    run1.sl.v148 (F := Ideal) c M0 M1 M2 M3 M4 M5 C0 C1 C2 C3 C4 C5 f0 f1 f2 f3 f4 f5 (ix2 (⟨b.val * 16 + h.val, by omega⟩ : Fin 128) co)
      = ∑ k : Fin 1280, (pad4 (F := Ideal) c M0 M1 M2 M3 M4 C0 C1 C2 C3 f0 f1 f2 f3 f4 (ix3 b (⟨h.val + k.val / 256, by omega⟩ : Fin 24) (⟨k.val % 256, by omega⟩ : Fin 256)) : Ideal .bf16)
          * (run1.sl.v147 (F := Ideal) c M5 f5 (ix2 k co) : Ideal .bf16) := by
  rw [conv4_apply]
  refine Finset.sum_congr rfl fun k _ => ?_
  rw [patch4_apply' (F := Ideal) c M0 M1 M2 M3 M4 C0 C1 C2 C3 f0 f1 f2 f3 f4 C4 C5 b h k]

/-! ## The same over plain naturals -/

/-- The bf16 zero the fill splats is 0 in the ideal reading. -/
theorem cst_zero : (run1.sl.cst (F := Ideal) : Ideal .bf16) = 0 := by
  unfold run1.sl.cst
  simp [Ideal.ofBits, Ideal.ieee]

/-- Image `b` of the padded copy at plain naturals: zero off the buffer. -/
def padN (b : Fin 8) (hh ci : ℕ) : EReal :=
  if h : hh < 24 ∧ ci < 256 then (pad4 (F := Ideal) c M0 M1 M2 M3 M4 C0 C1 C2 C3 f0 f1 f2 f3 f4 (ix3 b (⟨hh, h.1⟩ : Fin 24) (⟨ci, h.2⟩ : Fin 256)) : Ideal .bf16) else 0

/-- Column `co` of the loaded weight block at plain naturals: zero past its 1280 rows. -/
def wN (co : Fin 2048) (k : ℕ) : EReal :=
  if h : k < 1280 then (run1.sl.v147 (F := Ideal) c M5 f5 (ix2 (⟨k, h⟩ : Fin 1280) co) : Ideal .bf16) else 0

/-- Rows 2 … 17 of the padded copy hold the pooled activation two rows up; every other row is zero. -/
theorem padN_rows (b : Fin 8) (hh ci : ℕ) (hci : ci < 256) :
    padN c M0 M1 M2 M3 M4 C0 C1 C2 C3 f0 f1 f2 f3 f4 b hh ci
      = if h : 2 ≤ hh ∧ hh < 18 then (pool3 (F := Ideal) c M0 M1 M2 M3 M4 C0 C1 C2 C3 f0 f1 f2 f3 f4 (ix3 b (⟨hh - 2, by omega⟩ : Fin 16) (⟨ci, hci⟩ : Fin 256)) : Ideal .bf16) else 0 := by
  unfold padN
  by_cases hb : hh < 24
  · rw [dif_pos ⟨hb, hci⟩, pad4_apply]
    by_cases hm : 2 ≤ hh ∧ hh < 18
    · rw [dif_pos hm, dif_pos hm]
    · rw [dif_neg hm, dif_neg hm]; exact cst_zero
  · rw [dif_neg (fun h => hb h.1), dif_neg (by omega)]

/-- THE PRODUCT OVER PLAIN NATURALS: at row 16·b + h and output channel co, the sum over k < 5·256 of the padded copy of
    image b at row h + k / 256, channel k % 256, times the weight column at k — five row taps of 256 channels. -/
theorem conv4_range (b : Fin 8) (h : Fin 16) (co : Fin 2048) :
    run1.sl.v148 (F := Ideal) c M0 M1 M2 M3 M4 M5 C0 C1 C2 C3 C4 C5 f0 f1 f2 f3 f4 f5 (ix2 (⟨b.val * 16 + h.val, by omega⟩ : Fin 128) co)
      = ∑ k ∈ Finset.range (5 * 256), padN c M0 M1 M2 M3 M4 C0 C1 C2 C3 f0 f1 f2 f3 f4 b (h.val + k / 256) (k % 256) * wN c M5 f5 co k := by
  rw [conv4_rows, ← TapSum.sum_fin_val (5 * 256) (fun k => padN c M0 M1 M2 M3 M4 C0 C1 C2 C3 f0 f1 f2 f3 f4 b (h.val + k / 256) (k % 256) * wN c M5 f5 co k)]
  refine Finset.sum_congr rfl fun k _ => ?_
  have hk : k.val < 1280 := k.isLt
  unfold padN wN
  rw [dif_pos ⟨by omega, by omega⟩, dif_pos hk]

end Product

end Cert.KernelIdeal.Hand

end
-- ==== Proof.KernelFeatClosed.lean ====
/-
  The kernel's feature vector in closed form. The last region's body takes the last convolution's product, adds the bias
  row, regroups the 128 rows as 8 images of 16 rows, takes the maximum over each image's rows and rounds to bf16 — at
  the ideal reading the rounding is the identity. Here that chain is read at an index: the feature of image b at channel
  co is the maximum over the 16 rows h of the convolution sum at row h plus the bias at co; then the loaded weight and
  bias blocks are the arrays the region finds, and those are the launched weight's middle-column-tap rows and the
  launched bias.
-/
import proofs.«147627_g2000402439390779_pallasbulk_891_17_alg».proof.Proof.KernelConv4Value
import proofs.«147627_g2000402439390779_pallasbulk_891_17_alg».proof.Proof.KernelHeadValue
import proofs.«147627_g2000402439390779_pallasbulk_891_17_alg».proof.Proof.KernelWeightLayout

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Finset

variable [Cert.KernelIdeal.Facts]

/-! ## The chain from the product to the features, at an index -/

/-- The bit pattern the maximum starts from is the least extended real. -/
theorem ofBits_neg_inf : (FloatOps.ofBits (F := Ideal) .f32 0xFF800000#32 : EReal) = ⊥ := by
  show Ideal.ofBits .f32 0xFF800000#32 = ⊥
  simp [Ideal.ofBits, Ideal.ieee]

section Chain

variable (c : Dev nD) (M0 : Memref sig .tc .vmem S8x16x4x128 .bf16) (M1 : Memref sig .tc .vmem S640x1280 .bf16) (M2 : Memref sig .tc .vmem S1x256 .f32) (M3 : Memref sig .tc .vmem S1280x1280 .bf16) (M4 : Memref sig .tc .vmem S1x256 .f32) (M5 : Memref sig .tc .vmem S1280x2048 .bf16) (M6 : Memref sig .tc .vmem S1x2048 .f32)
  (C0 : Memref sig .tc .vmem S8x20x8x128 .bf16) (C1 : Memref sig .tc .vmem S1024x640 .bf16) (C2 : Memref sig .tc .vmem S8x20x8x256 .bf16) (C3 : Memref sig .tc .vmem S1024x1280 .bf16) (C4 : Memref sig .tc .vmem S8x24x256 .bf16) (C5 : Memref sig .tc .vmem S128x1280 .bf16)
  (f0 : Bf1 (F := Ideal) c M0) (f1 : Bf1 (F := Ideal) c M1) (f2 : Bf1 (F := Ideal) c M2) (f3 : Bf1 (F := Ideal) c M3) (f4 : Bf1 (F := Ideal) c M4) (f5 : Bf1 (F := Ideal) c M5) (f6 : Bf1 (F := Ideal) c M6)

/-- The bias row broadcast over the 128 rows reads the row's entry at the column. -/
theorem v151_apply (r : Fin 128) (co : Fin 2048) :
    run1.sl.v151 (F := Ideal) c M6 f6 (ix2 r co) = run1.sl.v150 (F := Ideal) c M6 f6 (ix2 (0 : Fin 1) co) := by
  unfold run1.sl.v151
  exact broadcastTo_apply _ _ (ix2 r co) (ix2 (0 : Fin 1) co) (fun a => match a with | ⟨0, _⟩ => rfl | ⟨1, _⟩ => rfl)

/-- The accumulator: the product plus the bias. -/
theorem v152_apply (r : Fin 128) (co : Fin 2048) :
    run1.sl.v152 (F := Ideal) c M0 M1 M2 M3 M4 M5 M6 C0 C1 C2 C3 C4 C5 f0 f1 f2 f3 f4 f5 f6 (ix2 r co)
      = run1.sl.v148 (F := Ideal) c M0 M1 M2 M3 M4 M5 C0 C1 C2 C3 C4 C5 f0 f1 f2 f3 f4 f5 (ix2 r co) + run1.sl.v150 (F := Ideal) c M6 f6 (ix2 (0 : Fin 1) co) := by
  unfold run1.sl.v152
  rw [addf_apply, v151_apply]

/-- THE FEATURES AT AN INDEX: at (b, co) the maximum, over the 16 rows of image b, of the accumulator. -/
theorem v155_apply (b : Fin 8) (co : Fin 2048) :
    run1.sl.v155 (F := Ideal) c M0 M1 M2 M3 M4 M5 M6 C0 C1 C2 C3 C4 C5 f0 f1 f2 f3 f4 f5 f6 (ix2 b co)
      = (Finset.univ : Finset (Fin 16)).fold max (⊥ : EReal)
          (fun h : Fin 16 => run1.sl.v152 (F := Ideal) c M0 M1 M2 M3 M4 M5 M6 C0 C1 C2 C3 C4 C5 f0 f1 f2 f3 f4 f5 f6 (ix2 (⟨b.val * 16 + h.val, by omega⟩ : Fin 128) co)) := by
  unfold run1.sl.v155 run1.sl.v154
  rw [truncf_apply]
  refine (Ideal.multiReduction_maximumf_single (a := 1) _ _ _ _ _ (ix2 b co)).trans ?_
  rw [ofBits_neg_inf]
  refine congrArg (fun g : Fin 16 → EReal => Finset.fold max (⊥ : EReal) g Finset.univ) (funext fun h => ?_)
  have hb : b.val < 8 := b.isLt
  have hh : h.val < 16 := h.isLt
  show run1.sl.v153 (F := Ideal) c M0 M1 M2 M3 M4 M5 M6 C0 C1 C2 C3 C4 C5 f0 f1 f2 f3 f4 f5 f6 _ = _
  unfold run1.sl.v153
  refine shapeCast_apply _ _ _ (ix2 (⟨b.val * 16 + h.val, by omega⟩ : Fin 128) co) ?_
  rw [Shape.rowMajor_val_two, Shape.rowMajor_val_three]
  rfl

end Chain

/-! ## From the staged blocks to the arrays -/

section Loads

variable (c : Dev nD)

/-- The weight load at the raw contents that read `X` is `X`: the load is through the whole block at zero offsets. -/
theorem v147_unread (M5 : Memref sig .tc .vmem S1280x2048 .bf16) (h5 : M5.IsWhole) (X : S1280x2048.Idx → Elt Ideal .bf16) :
    run1.sl.v147 (F := Ideal) c M5 (h5.unread X) = X := by
  unfold run1.sl.v147
  simp only [View.readAt_eq_ld, h5.read_unread, View.ld_unit_zero (S := S1280x2048) hz_00', shapeCast_self]

/-- The bias load likewise. -/
theorem v150_unread (M6 : Memref sig .tc .vmem S1x2048 .f32) (h6 : M6.IsWhole) (X : S1x2048.Idx → Elt Ideal .f32) :
    run1.sl.v150 (F := Ideal) c M6 (h6.unread X) = X := by
  unfold run1.sl.v150
  simp only [View.readAt_eq_ld, h6.read_unread, View.ld_unit_zero (S := S1x2048) hz_00', shapeCast_self]

end Loads

section Arrays

variable (V : (c : Dev nD) → (b : Ref sig .tc) → Buf (Elt Ideal) ((c : Thread nD τ).loc b))

/-- At the one grid point the last convolution's weight and bias windows start at the origin of their arrays, -/
theorem conv_origin1_5 : (fun a => win1_5.index t1_0 a * (Pipeline.arrRef spec1 5).ty.shape.size a) = fun _ => 0 := funext fun a => by fin_cases a <;> decide
theorem conv_origin1_6 : (fun a => win1_6.index t1_0 a * (Pipeline.arrRef spec1 6).ty.shape.size a) = fun _ => 0 := funext fun a => by fin_cases a <;> decide

/-- so their blocks are the whole arrays they window. -/
theorem conv_blk1_5_eq (c : Dev nD) : blk1_5 V c = (V c main_v74 : S1280x2048.Idx → Elt Ideal .bf16) :=
  Memref.read_access_unit_zero (Elt Ideal) (Pipeline.arrRef spec1 5) conv_origin1_5 (fun a => by rw [congrFun conv_origin1_5 a]; simp) (V c (Pipeline.arrRef spec1 5))
theorem conv_blk1_6_eq (c : Dev nD) : blk1_6 V c = (V c main_v83 : S1x2048.Idx → Elt Ideal .f32) :=
  Memref.read_access_unit_zero (Elt Ideal) (Pipeline.arrRef spec1 6) conv_origin1_6 (fun a => by rw [congrFun conv_origin1_6 a]; simp) (V c (Pipeline.arrRef spec1 6))

/-- A column of a 1280-row matrix at a plain natural row: zero past its last row. -/
def wColN (W : S1280x2048.Idx → EReal) (co : Fin 2048) (k : ℕ) : EReal :=
  if h : k < 1280 then W (ix2 (⟨k, h⟩ : Fin 1280) co) else 0

/-- Image `b` of the padded pooled activation at plain naturals, the run's values taken at the staged blocks of `V`:
    rows 2 … 17 hold the pooled third-stage activation, every other row is zero (`padN_rows`). -/
abbrev poolPadN (c : Dev nD) (b : Fin 8) (hh ci : ℕ) : EReal :=
  padN c (win1_0.stage (cfg1.slots t1_0 0)) (win1_1.stage (cfg1.slots t1_0 1)) (win1_2.stage (cfg1.slots t1_0 2)) (win1_3.stage (cfg1.slots t1_0 3)) (win1_4.stage (cfg1.slots t1_0 4)) (Memref.whole cc1_scratch0) (Memref.whole cc1_scratch1) (Memref.whole cc1_scratch2) (Memref.whole cc1_scratch3) ((hstage1_0 0).unread (blk1_0 V c)) ((hstage1_1 0).unread (blk1_1 V c)) ((hstage1_2 0).unread (blk1_2 V c)) ((hstage1_3 0).unread (blk1_3 V c)) ((hstage1_4 0).unread (blk1_4 V c)) b hh ci

/-- The pooled third-stage activation, the run's values taken at the staged blocks of `V`. -/
abbrev poolAt (c : Dev nD) : S8x16x256.Idx → Elt Ideal .bf16 :=
  pool3 (F := Ideal) c (win1_0.stage (cfg1.slots t1_0 0)) (win1_1.stage (cfg1.slots t1_0 1)) (win1_2.stage (cfg1.slots t1_0 2)) (win1_3.stage (cfg1.slots t1_0 3)) (win1_4.stage (cfg1.slots t1_0 4)) (Memref.whole cc1_scratch0) (Memref.whole cc1_scratch1) (Memref.whole cc1_scratch2) (Memref.whole cc1_scratch3) ((hstage1_0 0).unread (blk1_0 V c)) ((hstage1_1 0).unread (blk1_1 V c)) ((hstage1_2 0).unread (blk1_2 V c)) ((hstage1_3 0).unread (blk1_3 V c)) ((hstage1_4 0).unread (blk1_4 V c))

/-- Rows 2 … 17 of the padded copy hold it two rows up; every other row is zero. -/
theorem poolPadN_rows (c : Dev nD) (b : Fin 8) (hh ci : ℕ) (hci : ci < 256) :
    poolPadN V c b hh ci
      = if h : 2 ≤ hh ∧ hh < 18 then (poolAt V c (ix3 b (⟨hh - 2, by omega⟩ : Fin 16) (⟨ci, hci⟩ : Fin 256)) : Ideal .bf16) else 0 :=
  padN_rows c (win1_0.stage (cfg1.slots t1_0 0)) (win1_1.stage (cfg1.slots t1_0 1)) (win1_2.stage (cfg1.slots t1_0 2)) (win1_3.stage (cfg1.slots t1_0 3)) (win1_4.stage (cfg1.slots t1_0 4)) (Memref.whole cc1_scratch0) (Memref.whole cc1_scratch1) (Memref.whole cc1_scratch2) (Memref.whole cc1_scratch3) ((hstage1_0 0).unread (blk1_0 V c)) ((hstage1_1 0).unread (blk1_1 V c)) ((hstage1_2 0).unread (blk1_2 V c)) ((hstage1_3 0).unread (blk1_3 V c)) ((hstage1_4 0).unread (blk1_4 V c)) b hh ci hci

/-- THE FEATURES, CLOSED OVER THE ARRAYS: image `b`'s feature at channel `co` is the maximum over the 16 rows `h` of the
    sum, over the flattened (row tap, channel) index k < 5 · 256, of the padded pooled activation at row h + k / 256,
    channel k % 256, times the weight array's entry (k, co), plus the bias row's entry at `co`. -/
theorem feat1_closed (c : Dev nD) (b : Fin 8) (co : Fin 2048) :
    (feat1 V c : S8x2048.Idx → Elt Ideal .bf16) (ix2 b co)
      = (Finset.univ : Finset (Fin 16)).fold max (⊥ : EReal) (fun h : Fin 16 =>
          (∑ k ∈ range (5 * 256), poolPadN V c b (h.val + k / 256) (k % 256)
              * wColN (V c main_v74 : S1280x2048.Idx → Elt Ideal .bf16) co k)
            + (V c main_v83 : S1x2048.Idx → Elt Ideal .f32) (ix2 (0 : Fin 1) co)) := by
  show run1.sl.v155 (F := Ideal) c (win1_0.stage (cfg1.slots t1_0 0)) (win1_1.stage (cfg1.slots t1_0 1)) (win1_2.stage (cfg1.slots t1_0 2)) (win1_3.stage (cfg1.slots t1_0 3)) (win1_4.stage (cfg1.slots t1_0 4)) (win1_5.stage (cfg1.slots t1_0 5)) (win1_6.stage (cfg1.slots t1_0 6)) (Memref.whole cc1_scratch0) (Memref.whole cc1_scratch1) (Memref.whole cc1_scratch2) (Memref.whole cc1_scratch3) (Memref.whole cc1_scratch4) (Memref.whole cc1_scratch5) ((hstage1_0 0).unread (blk1_0 V c)) ((hstage1_1 0).unread (blk1_1 V c)) ((hstage1_2 0).unread (blk1_2 V c)) ((hstage1_3 0).unread (blk1_3 V c)) ((hstage1_4 0).unread (blk1_4 V c)) ((hstage1_5 0).unread (blk1_5 V c)) ((hstage1_6 0).unread (blk1_6 V c)) (ix2 b co) = _
  rw [v155_apply]
  refine congrArg (fun g : Fin 16 → EReal => Finset.fold max (⊥ : EReal) g Finset.univ) (funext fun h => ?_)
  rw [v152_apply, conv4_range]
  refine congrArg₂ (· + ·) (Finset.sum_congr rfl fun k hk => congrArg (_ * ·) ?_) ?_
  · -- the weight entry
    have e : run1.sl.v147 (F := Ideal) c (win1_5.stage (cfg1.slots t1_0 5)) ((hstage1_5 0).unread (blk1_5 V c)) = (V c main_v74 : S1280x2048.Idx → Elt Ideal .bf16) :=
      (v147_unread c _ (hstage1_5 0) _).trans (conv_blk1_5_eq V c)
    unfold wN wColN
    exact dite_congr rfl (fun hk' => congrFun e _) (fun _ => rfl)
  · -- the bias entry
    exact congrFun ((v150_unread c _ (hstage1_6 0) _).trans (conv_blk1_6_eq V c)) _

end Arrays

/-! ## The weight and the bias as launched -/

section Launched

variable (m : (ℓ : Loc nD τ sig) → Buf (Elt Ideal) ℓ) (outs : Outs (F := Ideal))

/-- Before the last host stretch the stored weight and the bias vector of the last convolution are as launched. -/
theorem pre1_arg13 (c : Dev nD) : V6 m outs c main_arg13 = m ((c : Thread nD τ).loc main_arg13) :=
  (V6_of m outs c main_arg13 (by decide)).trans <| (V5_of m c main_arg13 (by decide)).trans <| (V4_of m c main_arg13 (by decide)).trans <| (V3_of m c main_arg13 (by decide)).trans <| (V2_of m c main_arg13 (by decide)).trans <| (V1_of m c main_arg13 (by decide)).trans rfl
theorem pre1_arg14 (c : Dev nD) : V6 m outs c main_arg14 = m ((c : Thread nD τ).loc main_arg14) :=
  (V6_of m outs c main_arg14 (by decide)).trans <| (V5_of m c main_arg14 (by decide)).trans <| (V4_of m c main_arg14 (by decide)).trans <| (V3_of m c main_arg14 (by decide)).trans <| (V2_of m c main_arg14 (by decide)).trans <| (V1_of m c main_arg14 (by decide)).trans rfl

set_option maxHeartbeats 4000000 in
/-- The last host stretch makes the bias row by reshaping the bias vector. -/
theorem bias_conv4_ops (c : Dev nD) :
    (V7 m outs c main_v83 : S1x2048.Idx → Elt Ideal .f32)
      = shapeCast S1x2048 (V6 m outs c main_arg14 : S2048.Idx → Elt Ideal .f32) shapeCasts_S2048_S1x2048 := by
  show StableHlo.after hostOps1 (V6 m outs c) (Proc.devRef .tc main_v83) = _
  unfold hostOps1
  after_results
  rfl

/-- The bias row's entry at `co` is the launched bias vector's. -/
theorem bias_entry (c : Dev nD) (co : Fin 2048) :
    (V7 m outs c main_v83 : S1x2048.Idx → Elt Ideal .f32) (ix2 (0 : Fin 1) co)
      = (m ((c : Thread nD τ).loc main_arg14) : S2048.Idx → Elt Ideal .f32) (ix1 co) := by
  refine (congrFun (bias_conv4_ops m outs c) _).trans ?_
  refine (shapeCast_apply _ _ _ (ix1 co) ?_).trans (congrFun (pre1_arg14 m outs c) _)
  rw [Shape.rowMajor_val_one, Shape.rowMajor_val_two]
  show co.val = 0 * 2048 + co.val
  omega

/-- A column of a matrix at a plain natural row: zero past its last row. -/
def colN {n0 n1 : ℕ} (W : (⟨2, ![n0, n1]⟩ : Shape).Idx → EReal) (b : Fin n1) (t : ℕ) : EReal :=
  if h : t < n0 then W (ix2 (⟨t, h⟩ : Fin n0) b) else 0

/-- Row k < 5 · 256 of the weight array the region finds is row (k / 256 · 5 + 2) · 256 + k % 256 of the launched weight:
    the rows of the middle column tap. -/
theorem weight_entry (c : Dev nD) (co : Fin 2048) (k : ℕ) (hk : k < 5 * 256) :
    wColN (V7 m outs c main_v74 : S1280x2048.Idx → Elt Ideal .bf16) co k
      = colN (m ((c : Thread nD τ).loc main_arg13) : S6400x2048.Idx → Elt Ideal .bf16) co ((k / 256 * 5 + 2) * 256 + k % 256) := by
  unfold wColN colN
  rw [dif_pos (by omega), dif_pos (by omega)]
  have e := w4s_rows m outs c (⟨k / 256, by omega⟩ : Fin 5) (⟨k % 256, by omega⟩ : Fin 256) co
  refine Eq.trans (congrArg _ ?_) (e.trans (congrFun (pre1_arg13 m outs c) _))
  congr 1
  apply Fin.ext
  show k = k / 256 * 256 + k % 256
  omega

/-- THE FEATURES OVER THE LAUNCHED WEIGHT AND BIAS: image `b`'s feature at channel `co`, the region entered at the contents
    the last host stretch leaves, is the maximum over the 16 rows `h` of the sum over k < 5 · 256 of the padded pooled
    activation at row h + k / 256, channel k % 256, times the launched weight's entry in row (k / 256 · 5 + 2) · 256 + k % 256,
    column `co`, plus the launched bias at `co`. -/
theorem feat1_launched (c : Dev nD) (b : Fin 8) (co : Fin 2048) :
    (feat1 (fun c b => V7 m outs c b) c : S8x2048.Idx → Elt Ideal .bf16) (ix2 b co)
      = (Finset.univ : Finset (Fin 16)).fold max (⊥ : EReal) (fun h : Fin 16 =>
          (∑ k ∈ range (5 * 256), poolPadN (fun c b => V7 m outs c b) c b (h.val + k / 256) (k % 256)
              * colN (m ((c : Thread nD τ).loc main_arg13) : S6400x2048.Idx → Elt Ideal .bf16) co ((k / 256 * 5 + 2) * 256 + k % 256))
            + (m ((c : Thread nD τ).loc main_arg14) : S2048.Idx → Elt Ideal .f32) (ix1 co)) := by
  rw [feat1_closed]
  refine congrArg (fun g : Fin 16 → EReal => Finset.fold max (⊥ : EReal) g Finset.univ) (funext fun h => ?_)
  refine congrArg₂ (· + ·) (Finset.sum_congr rfl fun k hk => congrArg (_ * ·) ?_) ?_
  · exact weight_entry m outs c co k (Finset.mem_range.mp hk)
  · exact bias_entry m outs c co

end Launched

end Cert.KernelIdeal.Hand

end
-- ==== Proof.RefGmaxArray.lean ====
/-
  The reference's fourth region, assembled: what it leaves in its result array `main_v69` (8 rows of 2048
  features), entry by entry, from what its body leaves at each of its four grid points; and what its body is given
  at each point, entry by entry, from the arrays the region finds.

  The region has four grid points.  Point `t` is given the whole padded activation, column tile `t` (512 columns) of
  the last convolution's weight and of its bias row, and writes column tile `t` of the 8 x 2048 result.  The four
  tiles are disjoint and fill the array, so after the four write-backs the entry in row `b`, column `co` of the
  result is the entry in row `b`, column `co mod 512` of what the body left at point `co div 512`.
-/
import proofs.«147627_g2000402439390779_pallasbulk_891_17_alg».proof.Proof.RefGmaxRegion
import proofs.«147627_g2000402439390779_pallasbulk_891_17_alg».proof.Proof.ReferenceIdealFrame
import Idealize.ShloMosaic.Lib.Pipeline.Value
import Idealize.ShloMosaic.Lib.ValueIdx

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

/-! ## The windows' block indices over the grid -/

/-- At point `t` the activation's block is the whole array, and the weight's, the bias row's and the result's
    blocks are column tile `t`. -/
theorem idx3 : ∀ t : Fin cfg3.N,
    win3_0.index t (0 : Fin 4) = 0 ∧ win3_0.index t (1 : Fin 4) = 0 ∧ win3_0.index t (2 : Fin 4) = 0 ∧ win3_0.index t (3 : Fin 4) = 0
    ∧ win3_1.index t (0 : Fin 2) = 0 ∧ win3_1.index t (1 : Fin 2) = t.val
    ∧ win3_2.index t (0 : Fin 2) = 0 ∧ win3_2.index t (1 : Fin 2) = t.val
    ∧ win3_3.index t (0 : Fin 2) = 0 ∧ win3_3.index t (1 : Fin 2) = t.val :=
  (by decide +kernel : ∀ t : Fin grid3.N, _)

variable [Cert.ReferenceIdeal.Facts]

/-- The point whose tile holds column `co` (for `co` below 2048: `co div 512`). -/
def tileOf (co : ℕ) : Fin cfg3.N := ⟨co / 512 % 4, by show co / 512 % 4 < grid3.N; rw [N_3]; omega⟩

theorem tileOf_val (co : ℕ) : (tileOf co).val = co / 512 % 4 := rfl

variable (V : (c : Dev nD) → (b : Ref sig .tc) → Buf (Elt F) ((c : Thread nD τ).loc b))

/-! ## The result array -/

/-- What the body leaves in its output block at point `t`, read back. -/
abbrev tile3 (c : Dev nD) (t : Fin cfg3.N) : S8x512.Idx → Elt F .bf16 :=
  (win3_3.stage (cfg3.slots t 3)).view.read (Elt F) (K3 V c t).1

/-- The four tiles side by side: row `b`, column `co` is row `b`, column `co mod 512` of tile `co div 512`. -/
def tiles3 (c : Dev nD) : S8x2048.Idx → Elt F .bf16 := fun i =>
  tile3 V c (tileOf (i 1).val) (ix2 (i 0) (⟨(i 1).val % 512, Nat.mod_lt _ (by decide)⟩ : Fin 512))

/-- An entry of the side-by-side array that lies in tile `t`, by its coordinates in the tile. -/
theorem tiles3_at (c : Dev nD) (t : Fin cfg3.N) (j : S8x512.Idx) (i : S8x2048.Idx)
    (h0 : (i 0).val = (j 0).val) (h1 : (i 1).val = t.val * 512 + (j 1).val) : tiles3 V c i = tile3 V c t j := by
  have hj1 : (j 1).val < 512 := (j 1).isLt
  have ht4 : t.val < 4 := by have := t.isLt; have hN : cfg3.N = 4 := N_3; omega
  have ht : tileOf (i 1).val = t := Fin.ext (by rw [tileOf_val, h1]; omega)
  unfold tiles3
  rw [ht]
  congr 1
  funext a
  match a with
  | ⟨0, _⟩ => exact Fin.ext h0
  | ⟨1, _⟩ => exact Fin.ext (by show (i 1).val % 512 = (j 1).val; rw [h1]; omega)

/-- What point `t` writes back is tile `t` of the side-by-side array. -/
theorem flushed3 (c : Dev nD) (t : Fin cfg3.N) (hf : (cfg3.win 3).flush t = true) :
    (dat3 V c).flushed 3 t = ((cfg3.win 3).blk t).view.read (Elt F) (tiles3 V c) := by
  show (cfg3.win 3).cut (grid3.coords t) ((dat3 V c).after 3 t) = _
  rw [after3_3]
  obtain ⟨-, -, -, -, -, -, -, -, e0, e1⟩ := idx3 t
  refine funext fun (j : S8x512.Idx) => ?_
  show tile3 V c t j = tiles3 V c (((cfg3.win 3).blk t).view.emb j)
  refine (tiles3_at V c t j _ ?_ ?_).symm
  · show win3_3.index t (0 : Fin 2) * 8 + 1 * (j 0).val = (j 0).val
    rw [e0]; omega
  · show win3_3.index t (1 : Fin 2) * 512 + 1 * (j 1).val = t.val * 512 + (j 1).val
    rw [e1]; omega

/-- An entry of the result array is in point `t`'s block iff each coordinate is in the block's range. -/
theorem mem_blk3 (t : Fin cfg3.N) (i : S8x2048.Idx) :
    i ∈ ((cfg3.win 3).blk t).view.set ↔ ∀ a : Fin 2, win3_3.index t a * S8x512.size a ≤ (i a).val ∧ (i a).val < win3_3.index t a * S8x512.size a + S8x512.size a := by
  show i ∈ ((View.whole main_v69).slice (win3_3.rect t)).set ↔ _
  rw [View.set_slice_whole]
  exact Rect.mem_set_unit

/-- THE RESULT ARRAY after the region: the four tiles side by side.  Every entry is in the block of the point
    `co div 512`, and every point writes its block back. -/
theorem arrAt3_eq_tiles (c : Dev nD) : (dat3 V c).arrAt 3 cfg3.N = tiles3 V c :=
  (dat3 V c).arrAt_eq_of_cover 3 (tiles3 V c) (flushed3 V c) fun (i : S8x2048.Idx) => by
    have hi0 : (i 0).val < 8 := (i 0).isLt
    have hi1 : (i 1).val < 2048 := (i 1).isLt
    obtain ⟨-, -, -, -, -, -, -, -, e0, e1⟩ := idx3 (tileOf (i 1).val)
    refine ⟨tileOf (i 1).val, flush3_3 _, (mem_blk3 _ i).mpr fun a => ?_⟩
    match a with
    | ⟨0, _⟩ =>
      show win3_3.index (tileOf (i 1).val) (0 : Fin 2) * 8 ≤ (i 0).val ∧ (i 0).val < win3_3.index (tileOf (i 1).val) (0 : Fin 2) * 8 + 8
      rw [e0]; omega
    | ⟨1, _⟩ =>
      show win3_3.index (tileOf (i 1).val) (1 : Fin 2) * 512 ≤ (i 1).val ∧ (i 1).val < win3_3.index (tileOf (i 1).val) (1 : Fin 2) * 512 + 512
      rw [e1, tileOf_val]; omega

/-- Entry by entry: row `b`, column `co` of the result is row `b`, column `co mod 512` of what the body left at
    point `co div 512`. -/
theorem arrAt3_apply (c : Dev nD) (b : Fin 8) (co : Fin 2048) :
    ((dat3 V c).arrAt 3 cfg3.N : S8x2048.Idx → Elt F .bf16) (ix2 b co)
      = tile3 V c (tileOf co.val) (ix2 b (⟨co.val % 512, Nat.mod_lt _ (by decide)⟩ : Fin 512)) := by
  rw [arrAt3_eq_tiles]
  rfl

/-! ## What the body is given at a point -/

/-- The activation's block at every point is the whole array. -/
theorem blk3_0_eq (c : Dev nD) (t : Fin cfg3.N) : blk3_0 V c t = (V c main_v67 : S8x20x5x256.Idx → Elt F .bf16) := by
  obtain ⟨a0, a1, a2, a3, -, -, -, -, -, -⟩ := idx3 t
  have hz : (fun a => win3_0.index t a * (Pipeline.arrRef spec3 0).ty.shape.size a) = fun _ => 0 := funext fun a => by
    match a with
    | ⟨0, _⟩ => show win3_0.index t (0 : Fin 4) * _ = 0; rw [a0, Nat.zero_mul]
    | ⟨1, _⟩ => show win3_0.index t (1 : Fin 4) * _ = 0; rw [a1, Nat.zero_mul]
    | ⟨2, _⟩ => show win3_0.index t (2 : Fin 4) * _ = 0; rw [a2, Nat.zero_mul]
    | ⟨3, _⟩ => show win3_0.index t (3 : Fin 4) * _ = 0; rw [a3, Nat.zero_mul]
  exact Memref.read_access_unit_zero (Elt F) (Pipeline.arrRef spec3 0) hz (fun a => by rw [congrFun hz a]; simp) (V c (Pipeline.arrRef spec3 0))

/-- The weight's block at point `t` is column tile `t` of the weight: its entry in row `r`, column `j` is the
    weight's entry in row `r`, column `512 t + j`. -/
theorem blk3_1_apply (c : Dev nD) (t : Fin cfg3.N) (j : S6400x512.Idx) (i : S6400x2048.Idx)
    (h0 : (i 0).val = (j 0).val) (h1 : (i 1).val = t.val * 512 + (j 1).val) :
    blk3_1 V c t j = (V c main_arg13 : S6400x2048.Idx → Elt F .bf16) i := by
  obtain ⟨-, -, -, -, e0, e1, -, -, -, -⟩ := idx3 t
  show (V c main_arg13 : S6400x2048.Idx → Elt F .bf16) (((cfg3.win 1).blk t).view.emb j) = _
  congr 1
  funext a
  match a with
  | ⟨0, _⟩ => exact Fin.ext (by show win3_1.index t (0 : Fin 2) * 6400 + 1 * (j 0).val = (i 0).val; rw [e0, h0]; omega)
  | ⟨1, _⟩ => exact Fin.ext (by show win3_1.index t (1 : Fin 2) * 512 + 1 * (j 1).val = (i 1).val; rw [e1, h1]; omega)

/-- The bias row's block at point `t` is column tile `t` of the bias row. -/
theorem blk3_2_apply (c : Dev nD) (t : Fin cfg3.N) (j : S1x512.Idx) (i : S1x2048.Idx)
    (h0 : (i 0).val = (j 0).val) (h1 : (i 1).val = t.val * 512 + (j 1).val) :
    blk3_2 V c t j = (V c main_v68 : S1x2048.Idx → Elt F .f32) i := by
  obtain ⟨-, -, -, -, -, -, e0, e1, -, -⟩ := idx3 t
  show (V c main_v68 : S1x2048.Idx → Elt F .f32) (((cfg3.win 2).blk t).view.emb j) = _
  congr 1
  funext a
  match a with
  | ⟨0, _⟩ => exact Fin.ext (by show win3_2.index t (0 : Fin 2) * 1 + 1 * (j 0).val = (i 0).val; rw [e0, h0]; omega)
  | ⟨1, _⟩ => exact Fin.ext (by show win3_2.index t (1 : Fin 2) * 512 + 1 * (j 1).val = (i 1).val; rw [e1, h1]; omega)

/-! ## In the program's chain -/

/-- What the fourth region leaves in `main_v69`, the region entered at the contents the earlier regions and host
    stretches leave: the four tiles side by side, and entry by entry. -/
theorem o3_eq_tiles (m : (ℓ : Loc nD τ sig) → Buf (Elt F) ℓ) (c : Dev nD) :
    o3 m c = tiles3 (fun c b => V17 m (outs3 m) c b) c := by
  unfold o3
  exact arrAt3_eq_tiles _ c
theorem o3_apply (m : (ℓ : Loc nD τ sig) → Buf (Elt F) ℓ) (c : Dev nD) (b : Fin 8) (co : Fin 2048) :
    (o3 m c : S8x2048.Idx → Elt F .bf16) (ix2 b co)
      = tile3 (fun c b => V17 m (outs3 m) c b) c (tileOf co.val) (ix2 b (⟨co.val % 512, Nat.mod_lt _ (by decide)⟩ : Fin 512)) := by
  unfold o3
  exact arrAt3_apply _ c b co

end Cert.ReferenceIdeal.Hand

end
-- ==== Proof.RefConv4Value.lean ====
/-
  The reference's last convolution, read at an index.

  At each of the grid's four points the body rebuilds the patch matrix [128, 6400] of the padded activation
  [8, 20, 5, 256] in scratch: the store for the tap (kh, kw) writes the columns [(kh * 5 + kw) * 256, (kh * 5 + kw + 1) * 256)
  with the [8, 16, 1, 256] window of the activation at offsets (0, kh, kw, 0), flattened row-major to [128, 256].  The
  activation is one column wide before padding, so an image contributes 16 rows: row r = b * 16 + h of the matrix
  belongs to image b and output row h.  The 25 column blocks tile the matrix and each is a block of ONE function of
  the matrix index: at (r, t) with t = (kh * 5 + kw) * 256 + ci the matrix holds the activation at
  (r / 16, r % 16 + kh, kw, ci).  The product with the weight tile plus the bias row is then, entry by entry, the
  convolution's sum over the flattened (row tap, column tap, channel) axis, and the result tile is the maximum of
  that over the 16 rows of each image.
-/
import proofs.«147627_g2000402439390779_pallasbulk_891_17_alg».proof.Proof.RefGmaxRegion
import proofs.«147627_g2000402439390779_pallasbulk_891_17_alg».proof.Proof.LibConvLaw
import Idealize.ShloMosaic.Lib.Pipeline.Value
import Idealize.ShloMosaic.Lib.ValueIdx
import Idealize.ShloMosaic.Lib.Ring
import Idealize.ShloMosaic.PureOps.Ideal.Laws

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section AnyFloat

variable {F : FTy → Type} [FloatOps F] [Cert.ReferenceIdeal.Facts]

/-! ## The patch matrix -/

/-- One tap's column block read at a local index.  The block stored for the tap (kh, kw) is the [8,16,1,256] window
    of the padded activation at offsets (0, kh, kw, 0), flattened row-major to [128,256]: its row r is the window's
    (r / 16, r % 16, 0), so at (r, ci) it reads the activation at (r / 16, kh + r % 16, kw, ci). -/
theorem tap4_apply (c : Dev nD) (M0 : Memref sig .tc .vmem S8x20x5x256 .bf16) (f0 : Bf3 (F := F) c M0)
    (kh kw : ℕ) (inbM : ∀ a, (![0, kh, kw, 0] : Fin 4 → ℕ) a + S8x16x1x256.size a ≤ S8x20x5x256.size a)
    (h1 : (Rect.unit (s := S8x20x5x256) ![0, kh, kw, 0] S8x16x1x256.size inbM).toLoadRect.shape.ShapeCasts S8x16x1x256)
    (h2 : S8x16x1x256.ShapeCasts S128x256) (h3 : S128x256.ShapeCasts S128x256)
    (x : S128x256.Idx) (k : S8x20x5x256.Idx)
    (hk0 : (k 0).val = (x 0).val / 16) (hk1 : (k 1).val = kh + (x 0).val % 16)
    (hk2 : (k 2).val = kw) (hk3 : (k 3).val = (x 1).val) :
    shapeCast S128x256 (shapeCast S128x256 (shapeCast S8x16x1x256
      (View.readAt (Elt F) M0.view (Rect.unit (s := S8x20x5x256) ![0, kh, kw, 0] S8x16x1x256.size inbM).toLoadRect f0) h1) h2) h3 x
      = M0.view.read (Elt F) f0 k := by
  have hx0 : (x 0).val < 128 := idx2_lt0 x
  have hx1 : (x 1).val < 256 := idx2_lt1 x
  -- the outer cast is between equal shapes
  rw [shapeCast_self]
  -- the flattening [8,16,1,256] → [128,256] keeps the row-major position
  refine (shapeCast_apply _ _ x
    (ix4 ⟨(x 0).val / 16, by omega⟩ ⟨(x 0).val % 16, Nat.mod_lt _ (by decide)⟩ ⟨0, by decide⟩ ⟨(x 1).val, hx1⟩)
    (by rw [Shape.rowMajor_val_two, Shape.rowMajor_val_four]
        show ((((x 0).val / 16) * 16 + (x 0).val % 16) * 1 + 0) * 256 + (x 1).val = (x 0).val * 256 + (x 1).val
        omega)).trans ?_
  -- the loaded window already has the shape [8,16,1,256]
  refine (shapeCast_apply _ _ _
    (ix4 ⟨(x 0).val / 16, by omega⟩ ⟨(x 0).val % 16, Nat.mod_lt _ (by decide)⟩ ⟨0, by decide⟩ ⟨(x 1).val, hx1⟩) rfl).trans ?_
  -- and a load through a unit-stride rectangle reads the contents at offset + local index
  rw [View.readAt_apply]
  refine congrArg _ (funext fun a => Fin.ext ?_)
  match a with
  | ⟨0, _⟩ => show 0 + 1 * ((x 0).val / 16) = (k 0).val; omega
  | ⟨1, _⟩ => show kh + 1 * ((x 0).val % 16) = (k 1).val; omega
  | ⟨2, _⟩ => show kw + 1 * 0 = (k 2).val; omega
  | ⟨3, _⟩ => show 0 + 1 * (x 1).val = (k 3).val; omega

/-- The padded activation's index that the patch matrix's entry (r, t) reads: with r = b * 16 + h and
    t = (kh * 5 + kw) * 256 + ci it is (b, h + kh, kw, ci). -/
def xpIdx (y : S128x6400.Idx) : S8x20x5x256.Idx :=
  ix4 ⟨(y 0).val / 16, by have := idx2_lt0 y; omega⟩
      ⟨(y 0).val % 16 + (y 1).val / 1280, by have := idx2_lt1 y; omega⟩
      ⟨(y 1).val / 256 % 5, Nat.mod_lt _ (by decide)⟩
      ⟨(y 1).val % 256, Nat.mod_lt _ (by decide)⟩

theorem xpIdx_val0 (y : S128x6400.Idx) : (xpIdx y 0).val = (y 0).val / 16 := rfl
theorem xpIdx_val1 (y : S128x6400.Idx) : (xpIdx y 1).val = (y 0).val % 16 + (y 1).val / 1280 := rfl
theorem xpIdx_val2 (y : S128x6400.Idx) : (xpIdx y 2).val = (y 1).val / 256 % 5 := rfl
theorem xpIdx_val3 (y : S128x6400.Idx) : (xpIdx y 3).val = (y 1).val % 256 := rfl

theorem zero2_4 : (![0, 0] : Fin 2 → Nat) = fun _ => 0 := funext fun a => by fin_cases a <;> rfl

/-- The block the tap (kh, kw) stores at columns [off, off + 256), off = (kh * 5 + kw) * 256, is a block of that one
    function of the patch matrix's index. -/
theorem tap4_piece (c : Dev nD) (M0 : Memref sig .tc .vmem S8x20x5x256 .bf16) (f0 : Bf3 (F := F) c M0)
    (kh kw off : ℕ) (hkh : kh < 5) (hkw : kw < 5) (hoff : off = (kh * 5 + kw) * 256)
    (inbM : ∀ a, (![0, kh, kw, 0] : Fin 4 → ℕ) a + S8x16x1x256.size a ≤ S8x20x5x256.size a)
    (h1 : (Rect.unit (s := S8x20x5x256) ![0, kh, kw, 0] S8x16x1x256.size inbM).toLoadRect.shape.ShapeCasts S8x16x1x256)
    (h2 : S8x16x1x256.ShapeCasts S128x256) (h3 : S128x256.ShapeCasts S128x256)
    (inbC : ∀ a, (![0, off] : Fin 2 → ℕ) a + S128x256.size a ≤ S128x6400.size a)
    (x : (Rect.unit (s := S128x6400) ![0, off] S128x256.size inbC).shape.Idx) :
    shapeCast S128x256 (shapeCast S128x256 (shapeCast S8x16x1x256
      (View.readAt (Elt F) M0.view (Rect.unit (s := S8x20x5x256) ![0, kh, kw, 0] S8x16x1x256.size inbM).toLoadRect f0) h1) h2) h3 x
      = M0.view.read (Elt F) f0 (xpIdx ((Rect.unit (s := S128x6400) ![0, off] S128x256.size inbC).emb x)) := by
  have hx0 : (x 0).val < 128 := (x 0).isLt
  have hx1 : (x 1).val < 256 := (x 1).isLt
  subst hoff
  exact tap4_apply c M0 f0 kh kw inbM h1 h2 h3 x _
    (by show (0 + 1 * (x 0).val) / 16 = (x 0).val / 16; omega)
    (by show (0 + 1 * (x 0).val) % 16 + ((kh * 5 + kw) * 256 + 1 * (x 1).val) / 1280 = kh + (x 0).val % 16; omega)
    (by show ((kh * 5 + kw) * 256 + 1 * (x 1).val) / 256 % 5 = kw; omega)
    (by show ((kh * 5 + kw) * 256 + 1 * (x 1).val) % 256 = (x 1).val; omega)

set_option maxHeartbeats 4000000 in
/-- Every one of the 25 stored blocks is a block of that one function. -/
theorem pieces4 (c : Dev nD) (M0 : Memref sig .tc .vmem S8x20x5x256 .bf16) (f0 : Bf3 (F := F) c M0) :
    ∀ p ∈ run3.sl.G0_25 c M0 f0, ∀ x : p.1.shape.Idx, p.2 x = M0.view.read (Elt F) f0 (xpIdx (p.1.emb x)) := by
  unfold run3.sl.G0_25
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl
  · intro x; unfold run3.sl.v149 run3.sl.v146 run3.sl.v145
    exact tap4_piece c M0 f0 4 4 6144 (by omega) (by omega) rfl _ _ _ _ (Rect.inb₂ (by decide) (by decide)) _
  · intro x; unfold run3.sl.v143 run3.sl.v140 run3.sl.v139
    exact tap4_piece c M0 f0 4 3 5888 (by omega) (by omega) rfl _ _ _ _ (Rect.inb₂ (by decide) (by decide)) _
  · intro x; unfold run3.sl.v137 run3.sl.v134 run3.sl.v133
    exact tap4_piece c M0 f0 4 2 5632 (by omega) (by omega) rfl _ _ _ _ (Rect.inb₂ (by decide) (by decide)) _
  · intro x; unfold run3.sl.v131 run3.sl.v128 run3.sl.v127
    exact tap4_piece c M0 f0 4 1 5376 (by omega) (by omega) rfl _ _ _ _ (Rect.inb₂ (by decide) (by decide)) _
  · intro x; unfold run3.sl.v125 run3.sl.v122 run3.sl.v121
    exact tap4_piece c M0 f0 4 0 5120 (by omega) (by omega) rfl _ _ _ _ (Rect.inb₂ (by decide) (by decide)) _
  · intro x; unfold run3.sl.v119 run3.sl.v116 run3.sl.v115
    exact tap4_piece c M0 f0 3 4 4864 (by omega) (by omega) rfl _ _ _ _ (Rect.inb₂ (by decide) (by decide)) _
  · intro x; unfold run3.sl.v113 run3.sl.v110 run3.sl.v109 run3.sl.r
    exact tap4_piece c M0 f0 3 3 4608 (by omega) (by omega) rfl _ _ _ _ (Rect.inb₂ (by decide) (by decide)) _
  · intro x; unfold run3.sl.v107 run3.sl.v104 run3.sl.v103
    exact tap4_piece c M0 f0 3 2 4352 (by omega) (by omega) rfl _ _ _ _ (Rect.inb₂ (by decide) (by decide)) _
  · intro x; unfold run3.sl.v101 run3.sl.v98 run3.sl.v97
    exact tap4_piece c M0 f0 3 1 4096 (by omega) (by omega) rfl _ _ _ _ (Rect.inb₂ (by decide) (by decide)) _
  · intro x; unfold run3.sl.v95 run3.sl.v92 run3.sl.v91
    exact tap4_piece c M0 f0 3 0 3840 (by omega) (by omega) rfl _ _ _ _ (Rect.inb₂ (by decide) (by decide)) _
  · intro x; unfold run3.sl.v89 run3.sl.v86 run3.sl.v85
    exact tap4_piece c M0 f0 2 4 3584 (by omega) (by omega) rfl _ _ _ _ (Rect.inb₂ (by decide) (by decide)) _
  · intro x; unfold run3.sl.v83 run3.sl.v80 run3.sl.v79
    exact tap4_piece c M0 f0 2 3 3328 (by omega) (by omega) rfl _ _ _ _ (Rect.inb₂ (by decide) (by decide)) _
  · intro x; unfold run3.sl.v77 run3.sl.v74 run3.sl.v73
    exact tap4_piece c M0 f0 2 2 3072 (by omega) (by omega) rfl _ _ _ _ (Rect.inb₂ (by decide) (by decide)) _
  · intro x; unfold run3.sl.v71 run3.sl.v68 run3.sl.v67
    exact tap4_piece c M0 f0 2 1 2816 (by omega) (by omega) rfl _ _ _ _ (Rect.inb₂ (by decide) (by decide)) _
  · intro x; unfold run3.sl.v65 run3.sl.v62 run3.sl.v61
    exact tap4_piece c M0 f0 2 0 2560 (by omega) (by omega) rfl _ _ _ _ (Rect.inb₂ (by decide) (by decide)) _
  · intro x; unfold run3.sl.v59 run3.sl.v56 run3.sl.v55
    exact tap4_piece c M0 f0 1 4 2304 (by omega) (by omega) rfl _ _ _ _ (Rect.inb₂ (by decide) (by decide)) _
  · intro x; unfold run3.sl.v53 run3.sl.v50 run3.sl.v49
    exact tap4_piece c M0 f0 1 3 2048 (by omega) (by omega) rfl _ _ _ _ (Rect.inb₂ (by decide) (by decide)) _
  · intro x; unfold run3.sl.v47 run3.sl.v44 run3.sl.v43
    exact tap4_piece c M0 f0 1 2 1792 (by omega) (by omega) rfl _ _ _ _ (Rect.inb₂ (by decide) (by decide)) _
  · intro x; unfold run3.sl.v41 run3.sl.v38 run3.sl.v37
    exact tap4_piece c M0 f0 1 1 1536 (by omega) (by omega) rfl _ _ _ _ (Rect.inb₂ (by decide) (by decide)) _
  · intro x; unfold run3.sl.v35 run3.sl.v32 run3.sl.v31
    exact tap4_piece c M0 f0 1 0 1280 (by omega) (by omega) rfl _ _ _ _ (Rect.inb₂ (by decide) (by decide)) _
  · intro x; unfold run3.sl.v29 run3.sl.v26 run3.sl.v25
    exact tap4_piece c M0 f0 0 4 1024 (by omega) (by omega) rfl _ _ _ _ (Rect.inb₂ (by decide) (by decide)) _
  · intro x; unfold run3.sl.v23 run3.sl.v20 run3.sl.v19
    exact tap4_piece c M0 f0 0 3 768 (by omega) (by omega) rfl _ _ _ _ (Rect.inb₂ (by decide) (by decide)) _
  · intro x; unfold run3.sl.v17 run3.sl.v14 run3.sl.v13
    exact tap4_piece c M0 f0 0 2 512 (by omega) (by omega) rfl _ _ _ _ (Rect.inb₂ (by decide) (by decide)) _
  · intro x; unfold run3.sl.v11 run3.sl.v8 run3.sl.v7
    exact tap4_piece c M0 f0 0 1 256 (by omega) (by omega) rfl _ _ _ _ (Rect.inb₂ (by decide) (by decide)) _
  · intro x; unfold run3.sl.v5 run3.sl.v2 run3.sl.v1
    exact tap4_piece c M0 f0 0 0 0 (by omega) (by omega) rfl _ _ _ _ (Rect.inb₂ (by decide) (by decide)) _

/-- The 25 blocks tile the patch matrix. -/
theorem cover4 (c : Dev nD) (M0 : Memref sig .tc .vmem S8x20x5x256 .bf16) (f0 : Bf3 (F := F) c M0) (y : S128x6400.Idx) :
    ∃ p ∈ run3.sl.G0_25 c M0 f0, y ∈ p.1.set :=
  View.cover_of_tiledL (run3.sl.G0_25 c M0 f0) S128x256.size (by sl_kernel_rfl) y

/-- THE PATCH MATRIX READ AT AN INDEX: the load after the 25 slice stores returns, at (r, t), the padded activation's
    raw contents read at (r / 16, r % 16 + t / 1280, t / 256 % 5, t % 256), whatever the order of the stores and
    whatever the scratch buffer held before. -/
theorem patch4_apply (c : Dev nD) (M0 : Memref sig .tc .vmem S8x20x5x256 .bf16) (C0 : Memref sig .tc .vmem S128x6400 .bf16)
    (f0 : Bf3 (F := F) c M0) (y : S128x6400.Idx) :
    run3.sl.v150 c M0 C0 f0 y = M0.view.read (Elt F) f0 (xpIdx y) := by
  unfold run3.sl.v150
  rw [View.readCov_eq_canon_ld _ _ _ (cover4 c M0 f0), View.ld_unit_zero zero2_4]
  exact View.canon_apply_of_pieces (fun y => M0.view.read (Elt F) f0 (xpIdx y)) _ (pieces4 c M0 f0) y (cover4 c M0 f0 y)

/-- The witness read back through the output block's view is the last payload: the one store covers the block. -/
theorem read_witness3 (c : Dev nD) (i : grid3.Coords) (M0 : Memref sig .tc .vmem S8x20x5x256 .bf16) (h0 : M0.IsWhole)
    (M1 : Memref sig .tc .vmem S6400x512 .bf16) (h1 : M1.IsWhole) (M2 : Memref sig .tc .vmem S1x512 .f32) (h2 : M2.IsWhole)
    (M3 : Memref sig .tc .vmem S8x512 .bf16) (h3 : M3.IsWhole) (C0 : Memref sig .tc .vmem S128x6400 .bf16) (g0 : C0.IsWhole)
    (f0 : Bf3 (F := F) c M0) (f1 : Bf3 (F := F) c M1) (f2 : Bf3 (F := F) c M2) :
    M3.view.read (Elt F) (run3 (F := F) c i M0 h0 M1 h1 M2 h2 M3 h3 C0 g0 f0 f1 f2).1
      = run3.sl.v159 c M0 M1 M2 C0 f0 f1 f2 := by
  unfold run3
  dsimp only
  rw [View.read_writes_junk_eq_canon]
  unfold run3.sl.H3_1
  rw [View.canon_unit_zero zero2_4]

end AnyFloat

/-! ## The product, the bias and the maximum, at the ideal values -/

section AtIdeal

open Finset

/-- A plain product of an m×k by a k×n matrix into the zero accumulator, read at (a, b) at the ideal values: the sum
    over the contracted coordinate of the products of the entries. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ t : Fin k, A (ix2 a t) * B (ix2 t b) := by
  rw [Ideal.matmul_constant_zero_apply, ← Equiv.sum_comp (contrEquiv1 (DotDims.plain m k n) k rfl rfl).symm]
  refine Finset.sum_congr rfl fun t _ => ?_
  have ht := contrEquiv1_symm_val (DotDims.plain m k n) k rfl rfl t
  have hl : (DotDims.plain m k n).lhsIdx (ix2 a b) ((contrEquiv1 _ k rfl rfl).symm t) = ix2 a t := by
    funext ax; apply Fin.ext
    match ax with
    | ⟨0, _⟩ => simp [DotDims.lhsIdx, DotDims.plain]; rfl
    | ⟨1, _⟩ => simp [DotDims.lhsIdx, DotDims.plain]; exact ht
  have hr : (DotDims.plain m k n).rhsIdx (ix2 a b) ((contrEquiv1 _ k rfl rfl).symm t) = ix2 t b := by
    funext ax; apply Fin.ext
    match ax with
    | ⟨0, _⟩ => simp [DotDims.rhsIdx, DotDims.plain]; exact ht
    | ⟨1, _⟩ => simp [DotDims.rhsIdx, DotDims.plain]; rfl
  rw [hl, hr]

/-- A rank-4 array read at natural-number coordinates with the first one fixed, zero outside its extents: the
    padded activation of one image as a function of (row, column, channel). -/
def nat4 {n0 n1 n2 n3 : ℕ} (X : (⟨4, ![n0, n1, n2, n3]⟩ : Shape).Idx → EReal) (a : Fin n0) (i j k : ℕ) : EReal :=
  if h : i < n1 ∧ j < n2 ∧ k < n3 then X (ix4 a ⟨i, h.1⟩ ⟨j, h.2.1⟩ ⟨k, h.2.2⟩) else 0

/-- A column of a matrix read at a natural-number row, zero below its last row: one output channel's weights as a
    function of the flattened (row tap, column tap, channel) index. -/
def natCol {n0 n1 : ℕ} (W : (⟨2, ![n0, n1]⟩ : Shape).Idx → EReal) (b : Fin n1) (t : ℕ) : EReal :=
  if h : t < n0 then W (ix2 ⟨t, h⟩ b) else 0

theorem nat4_of_lt {n0 n1 n2 n3 : ℕ} (X : (⟨4, ![n0, n1, n2, n3]⟩ : Shape).Idx → EReal) (a : Fin n0) (i j k : ℕ)
    (hi : i < n1) (hj : j < n2) (hk : k < n3) : nat4 X a i j k = X (ix4 a ⟨i, hi⟩ ⟨j, hj⟩ ⟨k, hk⟩) :=
  dif_pos ⟨hi, hj, hk⟩

/-- A load through the whole-shape rectangle at zero offsets reads the memref's contents through its view. -/
theorem readAt_unit_zero {F : FTy → Type} {sp : Space} {S : Shape} {e : EltTy} (M : Memref sig .tc sp S e) {off : Fin S.rank → ℕ}
    (h : off = fun _ => 0) (inb : ∀ a, off a + S.size a ≤ S.size a) (f : M.view.ty.Contents (Elt F)) :
    View.readAt (Elt F) M.view (Rect.unit off S.size inb).toLoadRect f = M.view.read (Elt F) f := by
  rw [View.readAt_eq_ld]; exact View.ld_unit_zero h inb _

theorem natCol_of_lt {n0 n1 : ℕ} (W : (⟨2, ![n0, n1]⟩ : Shape).Idx → EReal) (b : Fin n1) (t : ℕ) (ht : t < n0) :
    natCol W b t = W (ix2 ⟨t, ht⟩ b) := dif_pos ht

variable [Cert.ReferenceIdeal.Facts]

/-- (b) THE ACCUMULATOR READ AT AN INDEX: the product of the patch matrix with the weight tile plus the broadcast bias
    row, at row r = b * 16 + h and column co, is the convolution's sum over the flattened (row tap, column tap,
    channel) index t < 6400 of the padded activation of image b at (h + t / 1280, t / 256 % 5, t % 256) times the weight
    tile's entry (t, co), plus the bias tile's entry at co. -/
theorem acc4_apply (c : Dev nD) (M0 : Memref sig .tc .vmem S8x20x5x256 .bf16) (M1 : Memref sig .tc .vmem S6400x512 .bf16)
    (M2 : Memref sig .tc .vmem S1x512 .f32) (C0 : Memref sig .tc .vmem S128x6400 .bf16)
    (f0 : Bf3 (F := Ideal) c M0) (f1 : Bf3 (F := Ideal) c M1) (f2 : Bf3 (F := Ideal) c M2) (r : Fin 128) (co : Fin 512)
    (b : Fin 8) (h : ℕ) (hb : b.val = r.val / 16) (hh : h = r.val % 16) :
    run3.sl.v156 (F := Ideal) c M0 M1 M2 C0 f0 f1 f2 (ix2 r co)
      = TapSum.convFull 5 5 256 (nat4 (M0.view.read (Elt Ideal) f0) b) (natCol (M1.view.read (Elt Ideal) f1) co) h 0
        + M2.view.read (Elt Ideal) f2 (ix2 0 co) := by
  subst hh
  unfold run3.sl.v156 run3.sl.v152 run3.sl.v155 run3.sl.v154 run3.sl.cst
  rw [addf_apply]
  refine congrArg₂ (· + ·) ?_ ?_
  · -- the product: a sum over the 6400 columns of the patch matrix
    refine (matmul_plain_zero_apply (m := 128) (k := 6400) (n := 512) (φ₁ := .bf16) (φ₂ := .bf16) none _ _ r co).trans ?_
    show _ = ∑ t ∈ range 6400, (fun t => nat4 (M0.view.read (Elt Ideal) f0) b (r.val % 16 + t / 1280) (0 + t / 256 % 5) (t % 256)
      * natCol (M1.view.read (Elt Ideal) f1) co t) t
    rw [← TapSum.sum_fin_val 6400]
    refine Finset.sum_congr rfl fun t _ => ?_
    have ht : t.val < 6400 := t.isLt
    have hr : r.val < 128 := r.isLt
    refine congrArg₂ (· * ·) ((patch4_apply c M0 C0 f0 _).trans ?_) ?_
    · rw [nat4_of_lt _ _ _ _ _ (by omega) (by omega) (Nat.mod_lt _ (by decide))]
      refine congrArg _ (funext fun a => Fin.ext ?_)
      match a with
      | ⟨0, _⟩ => exact hb.symm
      | ⟨1, _⟩ => rfl
      | ⟨2, _⟩ => exact (Nat.zero_add _).symm
      | ⟨3, _⟩ => rfl
    · rw [natCol_of_lt _ _ _ ht, readAt_unit_zero M1 zero2_4]
  · -- the bias row, broadcast down the rows
    refine (broadcastTo_apply _ _ _ (ix2 0 co) (fun a => ?_)).trans ?_
    · match a with
      | ⟨0, _⟩ => rfl
      | ⟨1, _⟩ => rfl
    · rw [shapeCast_self, readAt_unit_zero M2 zero2_4]

/-- The bit pattern the maximum starts from is the least extended real. -/
theorem ofBits_neg_inf_f32 : (FloatOps.ofBits (F := Ideal) .f32 0xFF800000#32 : EReal) = ⊥ := by
  show Ideal.ofBits .f32 0xFF800000#32 = ⊥
  simp [Ideal.ofBits, Ideal.ieee]

/-- (c) THE RESULT TILE READ AT AN INDEX: at (b, co) the maximum, over the 16 rows of image b, of the accumulator. -/
theorem out4_apply (c : Dev nD) (M0 : Memref sig .tc .vmem S8x20x5x256 .bf16) (M1 : Memref sig .tc .vmem S6400x512 .bf16)
    (M2 : Memref sig .tc .vmem S1x512 .f32) (C0 : Memref sig .tc .vmem S128x6400 .bf16)
    (f0 : Bf3 (F := Ideal) c M0) (f1 : Bf3 (F := Ideal) c M1) (f2 : Bf3 (F := Ideal) c M2) (b : Fin 8) (co : Fin 512) :
    run3.sl.v159 (F := Ideal) c M0 M1 M2 C0 f0 f1 f2 (ix2 b co)
      = (Finset.univ : Finset (Fin 16)).fold max (⊥ : EReal)
          (fun h : Fin 16 => run3.sl.v156 (F := Ideal) c M0 M1 M2 C0 f0 f1 f2 (ix2 ⟨b.val * 16 + h.val, by omega⟩ co)) := by
  unfold run3.sl.v159 run3.sl.v158
  rw [truncf_apply]
  refine (Ideal.multiReduction_maximumf_single (a := 1) _ _ _ _ _ (ix2 b co)).trans ?_
  rw [ofBits_neg_inf_f32]
  refine congrArg (fun g : Fin 16 → EReal => Finset.fold max (⊥ : EReal) g Finset.univ) (funext fun h => ?_)
  have hb : b.val < 8 := b.isLt
  have hh : h.val < 16 := h.isLt
  show run3.sl.v157 (F := Ideal) c M0 M1 M2 C0 f0 f1 f2 _ = _
  unfold run3.sl.v157
  -- the reshape [128,512] → [8,16,512] keeps the row-major position: row b * 16 + h is (b, h)
  refine shapeCast_apply _ _ _ (ix2 ⟨b.val * 16 + h.val, by omega⟩ co) ?_
  rw [Shape.rowMajor_val_two, Shape.rowMajor_val_three]
  rfl

/-- THE RESULT TILE AT AN INDEX, from the inputs: what the body leaves in its output block, read at (b, co), is the
    maximum over the output rows h < 16 of the convolution sum at row h of image b against column co of the weight
    tile, plus the bias tile's entry at co. -/
theorem tile4_apply (c : Dev nD) (i : grid3.Coords) (M0 : Memref sig .tc .vmem S8x20x5x256 .bf16) (h0 : M0.IsWhole)
    (M1 : Memref sig .tc .vmem S6400x512 .bf16) (h1 : M1.IsWhole) (M2 : Memref sig .tc .vmem S1x512 .f32) (h2 : M2.IsWhole)
    (M3 : Memref sig .tc .vmem S8x512 .bf16) (h3 : M3.IsWhole) (C0 : Memref sig .tc .vmem S128x6400 .bf16) (g0 : C0.IsWhole)
    (f0 : Bf3 (F := Ideal) c M0) (f1 : Bf3 (F := Ideal) c M1) (f2 : Bf3 (F := Ideal) c M2) (b : Fin 8) (co : Fin 512) :
    M3.view.read (Elt Ideal) (run3 (F := Ideal) c i M0 h0 M1 h1 M2 h2 M3 h3 C0 g0 f0 f1 f2).1 (ix2 b co)
      = (Finset.univ : Finset (Fin 16)).fold max (⊥ : EReal) (fun h : Fin 16 =>
          TapSum.convFull 5 5 256 (nat4 (M0.view.read (Elt Ideal) f0) b) (natCol (M1.view.read (Elt Ideal) f1) co) h.val 0
            + M2.view.read (Elt Ideal) f2 (ix2 0 co)) := by
  rw [read_witness3]
  refine (out4_apply c M0 M1 M2 C0 f0 f1 f2 b co).trans ?_
  refine congrArg (fun g : Fin 16 → EReal => Finset.fold max (⊥ : EReal) g Finset.univ) (funext fun h => ?_)
  have hb : b.val < 8 := b.isLt
  have hh : h.val < 16 := h.isLt
  exact acc4_apply c M0 M1 M2 C0 f0 f1 f2 _ co b h.val
    (by show b.val = (b.val * 16 + h.val) / 16; omega) (by show h.val = (b.val * 16 + h.val) % 16; omega)

end AtIdeal

end Cert.ReferenceIdeal.Hand

end
-- ==== Proof.RefHostPads.lean ====
/-
  The host side between the reference's regions. After each of the first three stages the host pads that stage's
  output by two entries of zero before and after on the two spatial axes (rows 16 → 20, columns W → W + 4), which is
  the "same" padding of the next 5x5 convolution, and reshapes two biases; the next region reads the padded array.
  Here, for each of the three paddings: the padded array as the padding operation of the previous region's output
  (the stretches in between do not write it), and the padded array read at an index — row hh, column xx is row
  hh - 2, column xx - 2 of the previous output when 2 ≤ hh < 18 and 2 ≤ xx < W + 2, and the padding value, the integer
  zero converted to the element type, everywhere else; at the ideal values that is the real zero.
-/
import proofs.«147627_g2000402439390779_pallasbulk_891_17_alg».proof.Proof.ReferenceIdealFrame
import Idealize.ShloMosaic.Lib.Pipeline.Value
import Idealize.ShloMosaic.Lib.ValueIdx
import Idealize.ShloMosaic.Lib.StableHlo.Run
import Idealize.ShloMosaic.Lib.KernelVsHost

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx Idealize.ShloMosaic.StableHlo

/-- The padding value of the three spatial paddings: the integer constant zero converted to the arrays' element type. -/
abbrev padZero {F : FTy → Type} [FloatOps F] : Elt F .bf16 := FloatOps.sitofp .bf16 (0#32 : BitVec 32)

/-- At the ideal values the padding value is the real zero. -/
theorem padZero_ideal : (padZero (F := Ideal) : Ideal .bf16) = 0 := sitofp_zero (φ := .bf16)

variable {F : FTy → Type} [FloatOps F] [Cert.ReferenceIdeal.Facts]
variable (m : (ℓ : Loc nD τ sig) → Buf (Elt F) ℓ) (outs : Outs (F := F))

/-! ## The padding before the last convolution: `main_v66` → `main_v67` -/

set_option maxHeartbeats 4000000 in
/-- The array the last convolution reads, as the padding operation of the third stage's output array (at the valuation that
    stage's region leaves, whatever the regions' outputs are named): two entries of the padding value before and after
    on each of the two spatial axes, none on the batch and channel axes, none between entries. -/
theorem v67_ops (c : Dev nD) :
    (V16 m outs c main_v67 : S8x20x5x256.Idx → Elt F .bf16)
      = pad S8x20x5x256 ![0, 2, 2, 0] ![0, 2, 2, 0] ![0, 0, 0, 0]
          (V14 m outs c main_v66 : S8x16x1x256.Idx → Elt F .bf16)
          (sitofp .bf16 (constantI S_ 32 0#32) : S_.Idx → Elt F .bf16)
          pads_S8x16x1x256_S8x20x5x256_000_220_220_000 h_S_ := by
  show StableHlo.after hostOps3_1 (V15 m outs c) (Proc.devRef .tc main_v67) = _
  unfold hostOps3_1
  after_results
  rfl

/-- The third stage's output array at the valuation its region leaves is that region's output: the valuation is
    the one before it updated at the array, and the named outputs at that item are the launch contents updated there;
    each update is read back at its own key. -/
theorem v67_source (c : Dev nD) :
    (V14 m (outs3 m) c main_v66 : S8x16x1x256.Idx → Elt F .bf16) = o2 m c := by
  show Function.update (V13 m (outs3 m) c) (Proc.devRef .tc main_v66) (outs3 m 14 main_v66 c) (Proc.devRef .tc main_v66) = _
  rw [Function.update_self]
  show Function.update (V0 m c) (Proc.devRef .tc main_v66) (o2 m c) (Proc.devRef .tc main_v66) = _
  rw [Function.update_self]

/-- The stretch between the padding and the next region only reshapes biases: it leaves the padded array as it is. -/
theorem v67_carried (c : Dev nD) : V17 m (outs3 m) c main_v67 = V16 m (outs3 m) c main_v67 :=
  V17_of m (outs3 m) c main_v67 (by decide)

/-- At the entry of the next region the padded array is the padding operation of the third stage's output, by name. -/
theorem v67_entry (c : Dev nD) :
    (V17 m (outs3 m) c main_v67 : S8x20x5x256.Idx → Elt F .bf16)
      = pad S8x20x5x256 ![0, 2, 2, 0] ![0, 2, 2, 0] ![0, 0, 0, 0]
          (o2 m c : S8x16x1x256.Idx → Elt F .bf16)
          (sitofp .bf16 (constantI S_ 32 0#32) : S_.Idx → Elt F .bf16)
          pads_S8x16x1x256_S8x20x5x256_000_220_220_000 h_S_ :=
  (v67_carried m c).trans ((v67_ops m (outs3 m) c).trans
    (congrArg (fun x : S8x16x1x256.Idx → Elt F .bf16 =>
      pad S8x20x5x256 ![0, 2, 2, 0] ![0, 2, 2, 0] ![0, 0, 0, 0] x
        (sitofp .bf16 (constantI S_ 32 0#32) : S_.Idx → Elt F .bf16)
        pads_S8x16x1x256_S8x20x5x256_000_220_220_000 h_S_) (v67_source m c)))

/-- Inside: row `h + 2`, column `w + 2` of the padded array is row `h`, column `w` of the third stage's output. -/
theorem v67_inside (c : Dev nD) (b : Fin 8) (h : Fin 16) (w : Fin 1) (ci : Fin 256) :
    (V17 m (outs3 m) c main_v67 : S8x20x5x256.Idx → Elt F .bf16)
        (ix4 b (⟨h.val + 2, by omega⟩ : Fin 20) (⟨w.val + 2, by omega⟩ : Fin 5) ci)
      = (o2 m c : S8x16x1x256.Idx → Elt F .bf16) (ix4 b h w ci) := by
  rw [v67_entry]
  refine pad_apply_of_inside _ _ _ _ _ _ _ _ (ix4 b h w ci) ?_
  intro a; fin_cases a
  · show b.val = 0 + b.val * (0 + 1); omega
  · show h.val + 2 = 2 + h.val * (0 + 1); omega
  · show w.val + 2 = 2 + w.val * (0 + 1); omega
  · show ci.val = 0 + ci.val * (0 + 1); omega

/-- Outside: a row below 2 or from 18 on, or a column below 2 or from 3 on, holds the padding value. -/
theorem v67_outside (c : Dev nD) (b : Fin 8) (hh : Fin 20) (xx : Fin 5) (ci : Fin 256)
    (hout : ¬(2 ≤ hh.val ∧ hh.val < 18 ∧ 2 ≤ xx.val ∧ xx.val < 3)) :
    (V17 m (outs3 m) c main_v67 : S8x20x5x256.Idx → Elt F .bf16) (ix4 b hh xx ci) = padZero := by
  rw [v67_entry]
  by_cases hrow : 2 ≤ hh.val ∧ hh.val < 18
  · refine pad_apply_of_not_inside _ _ _ _ _ _ _ (ix4 b hh xx ci) (2 : Fin 4) ?_
    show ¬(2 ≤ xx.val ∧ (xx.val - 2) % (0 + 1) = 0 ∧ (xx.val - 2) / (0 + 1) < 1)
    omega
  · refine pad_apply_of_not_inside _ _ _ _ _ _ _ (ix4 b hh xx ci) (1 : Fin 4) ?_
    show ¬(2 ≤ hh.val ∧ (hh.val - 2) % (0 + 1) = 0 ∧ (hh.val - 2) / (0 + 1) < 16)
    omega

/-- The padded array read at any index: the third stage's output two rows up and two columns left where that is an entry
    of it, the padding value everywhere else. -/
theorem v67_read (c : Dev nD) (b : Fin 8) (hh : Fin 20) (xx : Fin 5) (ci : Fin 256) :
    (V17 m (outs3 m) c main_v67 : S8x20x5x256.Idx → Elt F .bf16) (ix4 b hh xx ci)
      = if hin : 2 ≤ hh.val ∧ hh.val < 18 ∧ 2 ≤ xx.val ∧ xx.val < 3 then
          (o2 m c : S8x16x1x256.Idx → Elt F .bf16)
            (ix4 b (⟨hh.val - 2, by omega⟩ : Fin 16) (⟨xx.val - 2, by omega⟩ : Fin 1) ci)
        else padZero := by
  by_cases hin : 2 ≤ hh.val ∧ hh.val < 18 ∧ 2 ≤ xx.val ∧ xx.val < 3
  · rw [dif_pos hin, v67_entry]
    refine pad_apply_of_inside _ _ _ _ _ _ _ _
      (ix4 b (⟨hh.val - 2, by omega⟩ : Fin 16) (⟨xx.val - 2, by omega⟩ : Fin 1) ci) ?_
    intro a; fin_cases a
    · show b.val = 0 + b.val * (0 + 1); omega
    · show hh.val = 2 + (hh.val - 2) * (0 + 1); omega
    · show xx.val = 2 + (xx.val - 2) * (0 + 1); omega
    · show ci.val = 0 + ci.val * (0 + 1); omega
  · rw [dif_neg hin]
    exact v67_outside m c b hh xx ci hin

/-! ## The padding before the third stage: `main_v62` → `main_v63` -/

set_option maxHeartbeats 4000000 in
/-- The array the third stage reads, as the padding operation of the second stage's output array (at the valuation that
    stage's region leaves, whatever the regions' outputs are named): two entries of the padding value before and after
    on each of the two spatial axes, none on the batch and channel axes, none between entries. -/
theorem v63_ops (c : Dev nD) :
    (V12 m outs c main_v63 : S8x20x8x128.Idx → Elt F .bf16)
      = pad S8x20x8x128 ![0, 2, 2, 0] ![0, 2, 2, 0] ![0, 0, 0, 0]
          (V10 m outs c main_v62 : S8x16x4x128.Idx → Elt F .bf16)
          (sitofp .bf16 (constantI S_ 32 0#32) : S_.Idx → Elt F .bf16)
          pads_S8x16x4x128_S8x20x8x128_000_220_220_000 h_S_ := by
  show StableHlo.after hostOps2_1 (V11 m outs c) (Proc.devRef .tc main_v63) = _
  unfold hostOps2_1
  after_results
  rfl

/-- The second stage's output array at the valuation its region leaves is that region's output: the valuation is
    the one before it updated at the array, and the named outputs at that item are the launch contents updated there;
    each update is read back at its own key. -/
theorem v63_source (c : Dev nD) :
    (V10 m (outs2 m) c main_v62 : S8x16x4x128.Idx → Elt F .bf16) = o1 m c := by
  show Function.update (V9 m (outs2 m) c) (Proc.devRef .tc main_v62) (outs2 m 10 main_v62 c) (Proc.devRef .tc main_v62) = _
  rw [Function.update_self]
  show Function.update (V0 m c) (Proc.devRef .tc main_v62) (o1 m c) (Proc.devRef .tc main_v62) = _
  rw [Function.update_self]

/-- The stretch between the padding and the next region only reshapes biases: it leaves the padded array as it is. -/
theorem v63_carried (c : Dev nD) : V13 m (outs2 m) c main_v63 = V12 m (outs2 m) c main_v63 :=
  V13_of m (outs2 m) c main_v63 (by decide)

/-- At the entry of the next region the padded array is the padding operation of the second stage's output, by name. -/
theorem v63_entry (c : Dev nD) :
    (V13 m (outs2 m) c main_v63 : S8x20x8x128.Idx → Elt F .bf16)
      = pad S8x20x8x128 ![0, 2, 2, 0] ![0, 2, 2, 0] ![0, 0, 0, 0]
          (o1 m c : S8x16x4x128.Idx → Elt F .bf16)
          (sitofp .bf16 (constantI S_ 32 0#32) : S_.Idx → Elt F .bf16)
          pads_S8x16x4x128_S8x20x8x128_000_220_220_000 h_S_ :=
  (v63_carried m c).trans ((v63_ops m (outs2 m) c).trans
    (congrArg (fun x : S8x16x4x128.Idx → Elt F .bf16 =>
      pad S8x20x8x128 ![0, 2, 2, 0] ![0, 2, 2, 0] ![0, 0, 0, 0] x
        (sitofp .bf16 (constantI S_ 32 0#32) : S_.Idx → Elt F .bf16)
        pads_S8x16x4x128_S8x20x8x128_000_220_220_000 h_S_) (v63_source m c)))

/-- Inside: row `h + 2`, column `w + 2` of the padded array is row `h`, column `w` of the second stage's output. -/
theorem v63_inside (c : Dev nD) (b : Fin 8) (h : Fin 16) (w : Fin 4) (ci : Fin 128) :
    (V13 m (outs2 m) c main_v63 : S8x20x8x128.Idx → Elt F .bf16)
        (ix4 b (⟨h.val + 2, by omega⟩ : Fin 20) (⟨w.val + 2, by omega⟩ : Fin 8) ci)
      = (o1 m c : S8x16x4x128.Idx → Elt F .bf16) (ix4 b h w ci) := by
  rw [v63_entry]
  refine pad_apply_of_inside _ _ _ _ _ _ _ _ (ix4 b h w ci) ?_
  intro a; fin_cases a
  · show b.val = 0 + b.val * (0 + 1); omega
  · show h.val + 2 = 2 + h.val * (0 + 1); omega
  · show w.val + 2 = 2 + w.val * (0 + 1); omega
  · show ci.val = 0 + ci.val * (0 + 1); omega

/-- Outside: a row below 2 or from 18 on, or a column below 2 or from 6 on, holds the padding value. -/
theorem v63_outside (c : Dev nD) (b : Fin 8) (hh : Fin 20) (xx : Fin 8) (ci : Fin 128)
    (hout : ¬(2 ≤ hh.val ∧ hh.val < 18 ∧ 2 ≤ xx.val ∧ xx.val < 6)) :
    (V13 m (outs2 m) c main_v63 : S8x20x8x128.Idx → Elt F .bf16) (ix4 b hh xx ci) = padZero := by
  rw [v63_entry]
  by_cases hrow : 2 ≤ hh.val ∧ hh.val < 18
  · refine pad_apply_of_not_inside _ _ _ _ _ _ _ (ix4 b hh xx ci) (2 : Fin 4) ?_
    show ¬(2 ≤ xx.val ∧ (xx.val - 2) % (0 + 1) = 0 ∧ (xx.val - 2) / (0 + 1) < 4)
    omega
  · refine pad_apply_of_not_inside _ _ _ _ _ _ _ (ix4 b hh xx ci) (1 : Fin 4) ?_
    show ¬(2 ≤ hh.val ∧ (hh.val - 2) % (0 + 1) = 0 ∧ (hh.val - 2) / (0 + 1) < 16)
    omega

/-- The padded array read at any index: the second stage's output two rows up and two columns left where that is an entry
    of it, the padding value everywhere else. -/
theorem v63_read (c : Dev nD) (b : Fin 8) (hh : Fin 20) (xx : Fin 8) (ci : Fin 128) :
    (V13 m (outs2 m) c main_v63 : S8x20x8x128.Idx → Elt F .bf16) (ix4 b hh xx ci)
      = if hin : 2 ≤ hh.val ∧ hh.val < 18 ∧ 2 ≤ xx.val ∧ xx.val < 6 then
          (o1 m c : S8x16x4x128.Idx → Elt F .bf16)
            (ix4 b (⟨hh.val - 2, by omega⟩ : Fin 16) (⟨xx.val - 2, by omega⟩ : Fin 4) ci)
        else padZero := by
  by_cases hin : 2 ≤ hh.val ∧ hh.val < 18 ∧ 2 ≤ xx.val ∧ xx.val < 6
  · rw [dif_pos hin, v63_entry]
    refine pad_apply_of_inside _ _ _ _ _ _ _ _
      (ix4 b (⟨hh.val - 2, by omega⟩ : Fin 16) (⟨xx.val - 2, by omega⟩ : Fin 4) ci) ?_
    intro a; fin_cases a
    · show b.val = 0 + b.val * (0 + 1); omega
    · show hh.val = 2 + (hh.val - 2) * (0 + 1); omega
    · show xx.val = 2 + (xx.val - 2) * (0 + 1); omega
    · show ci.val = 0 + ci.val * (0 + 1); omega
  · rw [dif_neg hin]
    exact v63_outside m c b hh xx ci hin

/-! ## The padding before the second stage: `main_v58` → `main_v59` -/

set_option maxHeartbeats 4000000 in
/-- The array the second stage reads, as the padding operation of the first stage's output array (at the valuation that
    stage's region leaves, whatever the regions' outputs are named): two entries of the padding value before and after
    on each of the two spatial axes, none on the batch and channel axes, none between entries. -/
theorem v59_ops (c : Dev nD) :
    (V8 m outs c main_v59 : S8x20x20x64.Idx → Elt F .bf16)
      = pad S8x20x20x64 ![0, 2, 2, 0] ![0, 2, 2, 0] ![0, 0, 0, 0]
          (V6 m outs c main_v58 : S8x16x16x64.Idx → Elt F .bf16)
          (sitofp .bf16 (constantI S_ 32 0#32) : S_.Idx → Elt F .bf16)
          pads_S8x16x16x64_S8x20x20x64_000_220_220_000 h_S_ := by
  show StableHlo.after hostOps1_1 (V7 m outs c) (Proc.devRef .tc main_v59) = _
  unfold hostOps1_1
  after_results
  rfl

/-- The first stage's output array at the valuation its region leaves is that region's output: the valuation is
    the one before it updated at the array, and the named outputs at that item are the launch contents updated there;
    each update is read back at its own key. -/
theorem v59_source (c : Dev nD) :
    (V6 m (outs1 m) c main_v58 : S8x16x16x64.Idx → Elt F .bf16) = o0 m c := by
  show Function.update (V5 m c) (Proc.devRef .tc main_v58) (outs1 m 6 main_v58 c) (Proc.devRef .tc main_v58) = _
  rw [Function.update_self]
  show Function.update (V0 m c) (Proc.devRef .tc main_v58) (o0 m c) (Proc.devRef .tc main_v58) = _
  rw [Function.update_self]

/-- The stretch between the padding and the next region only reshapes biases: it leaves the padded array as it is. -/
theorem v59_carried (c : Dev nD) : V9 m (outs1 m) c main_v59 = V8 m (outs1 m) c main_v59 :=
  V9_of m (outs1 m) c main_v59 (by decide)

/-- At the entry of the next region the padded array is the padding operation of the first stage's output, by name. -/
theorem v59_entry (c : Dev nD) :
    (V9 m (outs1 m) c main_v59 : S8x20x20x64.Idx → Elt F .bf16)
      = pad S8x20x20x64 ![0, 2, 2, 0] ![0, 2, 2, 0] ![0, 0, 0, 0]
          (o0 m c : S8x16x16x64.Idx → Elt F .bf16)
          (sitofp .bf16 (constantI S_ 32 0#32) : S_.Idx → Elt F .bf16)
          pads_S8x16x16x64_S8x20x20x64_000_220_220_000 h_S_ :=
  (v59_carried m c).trans ((v59_ops m (outs1 m) c).trans
    (congrArg (fun x : S8x16x16x64.Idx → Elt F .bf16 =>
      pad S8x20x20x64 ![0, 2, 2, 0] ![0, 2, 2, 0] ![0, 0, 0, 0] x
        (sitofp .bf16 (constantI S_ 32 0#32) : S_.Idx → Elt F .bf16)
        pads_S8x16x16x64_S8x20x20x64_000_220_220_000 h_S_) (v59_source m c)))

/-- Inside: row `h + 2`, column `w + 2` of the padded array is row `h`, column `w` of the first stage's output. -/
theorem v59_inside (c : Dev nD) (b : Fin 8) (h : Fin 16) (w : Fin 16) (ci : Fin 64) :
    (V9 m (outs1 m) c main_v59 : S8x20x20x64.Idx → Elt F .bf16)
        (ix4 b (⟨h.val + 2, by omega⟩ : Fin 20) (⟨w.val + 2, by omega⟩ : Fin 20) ci)
      = (o0 m c : S8x16x16x64.Idx → Elt F .bf16) (ix4 b h w ci) := by
  rw [v59_entry]
  refine pad_apply_of_inside _ _ _ _ _ _ _ _ (ix4 b h w ci) ?_
  intro a; fin_cases a
  · show b.val = 0 + b.val * (0 + 1); omega
  · show h.val + 2 = 2 + h.val * (0 + 1); omega
  · show w.val + 2 = 2 + w.val * (0 + 1); omega
  · show ci.val = 0 + ci.val * (0 + 1); omega

/-- Outside: a row below 2 or from 18 on, or a column below 2 or from 18 on, holds the padding value. -/
theorem v59_outside (c : Dev nD) (b : Fin 8) (hh : Fin 20) (xx : Fin 20) (ci : Fin 64)
    (hout : ¬(2 ≤ hh.val ∧ hh.val < 18 ∧ 2 ≤ xx.val ∧ xx.val < 18)) :
    (V9 m (outs1 m) c main_v59 : S8x20x20x64.Idx → Elt F .bf16) (ix4 b hh xx ci) = padZero := by
  rw [v59_entry]
  by_cases hrow : 2 ≤ hh.val ∧ hh.val < 18
  · refine pad_apply_of_not_inside _ _ _ _ _ _ _ (ix4 b hh xx ci) (2 : Fin 4) ?_
    show ¬(2 ≤ xx.val ∧ (xx.val - 2) % (0 + 1) = 0 ∧ (xx.val - 2) / (0 + 1) < 16)
    omega
  · refine pad_apply_of_not_inside _ _ _ _ _ _ _ (ix4 b hh xx ci) (1 : Fin 4) ?_
    show ¬(2 ≤ hh.val ∧ (hh.val - 2) % (0 + 1) = 0 ∧ (hh.val - 2) / (0 + 1) < 16)
    omega

/-- The padded array read at any index: the first stage's output two rows up and two columns left where that is an entry
    of it, the padding value everywhere else. -/
theorem v59_read (c : Dev nD) (b : Fin 8) (hh : Fin 20) (xx : Fin 20) (ci : Fin 64) :
    (V9 m (outs1 m) c main_v59 : S8x20x20x64.Idx → Elt F .bf16) (ix4 b hh xx ci)
      = if hin : 2 ≤ hh.val ∧ hh.val < 18 ∧ 2 ≤ xx.val ∧ xx.val < 18 then
          (o0 m c : S8x16x16x64.Idx → Elt F .bf16)
            (ix4 b (⟨hh.val - 2, by omega⟩ : Fin 16) (⟨xx.val - 2, by omega⟩ : Fin 16) ci)
        else padZero := by
  by_cases hin : 2 ≤ hh.val ∧ hh.val < 18 ∧ 2 ≤ xx.val ∧ xx.val < 18
  · rw [dif_pos hin, v59_entry]
    refine pad_apply_of_inside _ _ _ _ _ _ _ _
      (ix4 b (⟨hh.val - 2, by omega⟩ : Fin 16) (⟨xx.val - 2, by omega⟩ : Fin 16) ci) ?_
    intro a; fin_cases a
    · show b.val = 0 + b.val * (0 + 1); omega
    · show hh.val = 2 + (hh.val - 2) * (0 + 1); omega
    · show xx.val = 2 + (xx.val - 2) * (0 + 1); omega
    · show ci.val = 0 + ci.val * (0 + 1); omega
  · rw [dif_neg hin]
    exact v59_outside m c b hh xx ci hin

/-! ## The other arrays the second, third and fourth regions read

Besides the padded array each of these regions reads its convolutions' weights, which are arguments and reach it as
launched, and its biases, which the host reshapes from `[C]` to one row `[1, C]` just before the region. These hold
whatever the regions' outputs are named. -/

/-- The second stage's first weight reaches region 1 as launched: no host stretch writes an argument, and no earlier region's output array
    is one. -/
theorem entry1_arg5 (c : Dev nD) : V9 m outs c main_arg5 = V0 m c main_arg5 :=
  (V9_of m outs c main_arg5 (by decide)).trans <|
    (V8_of m outs c main_arg5 (by decide)).trans <|
    (V7_of m outs c main_arg5 (by decide)).trans <|
    (V6_of m outs c main_arg5 (by decide)).trans <|
    (V5_of m c main_arg5 (by decide)).trans <|
    (V4_of m c main_arg5 (by decide)).trans <|
    (V3_of m c main_arg5 (by decide)).trans <|
    (V2_of m c main_arg5 (by decide)).trans <|
    (V1_of m c main_arg5 (by decide))

/-- The second stage's second weight reaches region 1 as launched: no host stretch writes an argument, and no earlier region's output array
    is one. -/
theorem entry1_arg7 (c : Dev nD) : V9 m outs c main_arg7 = V0 m c main_arg7 :=
  (V9_of m outs c main_arg7 (by decide)).trans <|
    (V8_of m outs c main_arg7 (by decide)).trans <|
    (V7_of m outs c main_arg7 (by decide)).trans <|
    (V6_of m outs c main_arg7 (by decide)).trans <|
    (V5_of m c main_arg7 (by decide)).trans <|
    (V4_of m c main_arg7 (by decide)).trans <|
    (V3_of m c main_arg7 (by decide)).trans <|
    (V2_of m c main_arg7 (by decide)).trans <|
    (V1_of m c main_arg7 (by decide))

set_option maxHeartbeats 4000000 in
/-- The second stage's first bias, reshaped to one row, as the shape cast of the argument (at the valuation the last update left). -/
theorem entry1_v60_ops (c : Dev nD) :
    (V9 m outs c main_v60 : S1x128.Idx → Elt F .f32)
      = shapeCast S1x128 (V6 m outs c main_arg6 : S128.Idx → Elt F .f32) shapeCasts_S128_S1x128 := by
  show StableHlo.after hostOps1_2 (V8 m outs c) (Proc.devRef .tc main_v60) = _
  unfold hostOps1_2
  after_results
  rfl

/-- The second stage's first bias at region 1's entry is the launched bias viewed as one row. -/
theorem entry1_v60 (c : Dev nD) :
    (V9 m outs c main_v60 : S1x128.Idx → Elt F .f32)
      = shapeCast S1x128 (V0 m c main_arg6 : S128.Idx → Elt F .f32) shapeCasts_S128_S1x128 := by
  have e : (V6 m outs c main_arg6 : S128.Idx → Elt F .f32) = V0 m c main_arg6 :=
    (V6_of m outs c main_arg6 (by decide)).trans <|
    (V5_of m c main_arg6 (by decide)).trans <|
    (V4_of m c main_arg6 (by decide)).trans <|
    (V3_of m c main_arg6 (by decide)).trans <|
    (V2_of m c main_arg6 (by decide)).trans <|
    (V1_of m c main_arg6 (by decide))
  exact (entry1_v60_ops m outs c).trans
    (congrArg (fun x : S128.Idx → Elt F .f32 => shapeCast S1x128 x shapeCasts_S128_S1x128) e)

/-- Entry `j` of that row is entry `j` of the launched bias. -/
theorem entry1_v60_at (c : Dev nD) (j : Fin 128) :
    (V9 m outs c main_v60 : S1x128.Idx → Elt F .f32) (ix2 (0 : Fin 1) j)
      = (V0 m c main_arg6 : S128.Idx → Elt F .f32) (ix1 j) := by
  rw [entry1_v60]
  refine shapeCast_apply _ _ _ _ ?_
  show (S128.rowMajor (ix1 j)).val = (S1x128.rowMajor (ix2 (0 : Fin 1) j)).val
  rw [Shape.rowMajor_val_one, Shape.rowMajor_val_two]
  show j.val = 0 * 128 + j.val
  omega

set_option maxHeartbeats 4000000 in
/-- The second stage's second bias, reshaped to one row, as the shape cast of the argument (at the valuation the last update left). -/
theorem entry1_v61_ops (c : Dev nD) :
    (V9 m outs c main_v61 : S1x128.Idx → Elt F .f32)
      = shapeCast S1x128 (V6 m outs c main_arg8 : S128.Idx → Elt F .f32) shapeCasts_S128_S1x128 := by
  show StableHlo.after hostOps1_2 (V8 m outs c) (Proc.devRef .tc main_v61) = _
  unfold hostOps1_2
  after_results
  rfl

/-- The second stage's second bias at region 1's entry is the launched bias viewed as one row. -/
theorem entry1_v61 (c : Dev nD) :
    (V9 m outs c main_v61 : S1x128.Idx → Elt F .f32)
      = shapeCast S1x128 (V0 m c main_arg8 : S128.Idx → Elt F .f32) shapeCasts_S128_S1x128 := by
  have e : (V6 m outs c main_arg8 : S128.Idx → Elt F .f32) = V0 m c main_arg8 :=
    (V6_of m outs c main_arg8 (by decide)).trans <|
    (V5_of m c main_arg8 (by decide)).trans <|
    (V4_of m c main_arg8 (by decide)).trans <|
    (V3_of m c main_arg8 (by decide)).trans <|
    (V2_of m c main_arg8 (by decide)).trans <|
    (V1_of m c main_arg8 (by decide))
  exact (entry1_v61_ops m outs c).trans
    (congrArg (fun x : S128.Idx → Elt F .f32 => shapeCast S1x128 x shapeCasts_S128_S1x128) e)

/-- Entry `j` of that row is entry `j` of the launched bias. -/
theorem entry1_v61_at (c : Dev nD) (j : Fin 128) :
    (V9 m outs c main_v61 : S1x128.Idx → Elt F .f32) (ix2 (0 : Fin 1) j)
      = (V0 m c main_arg8 : S128.Idx → Elt F .f32) (ix1 j) := by
  rw [entry1_v61]
  refine shapeCast_apply _ _ _ _ ?_
  show (S128.rowMajor (ix1 j)).val = (S1x128.rowMajor (ix2 (0 : Fin 1) j)).val
  rw [Shape.rowMajor_val_one, Shape.rowMajor_val_two]
  show j.val = 0 * 128 + j.val
  omega

/-- The third stage's first weight reaches region 2 as launched: no host stretch writes an argument, and no earlier region's output array
    is one. -/
theorem entry2_arg9 (c : Dev nD) : V13 m outs c main_arg9 = V0 m c main_arg9 :=
  (V13_of m outs c main_arg9 (by decide)).trans <|
    (V12_of m outs c main_arg9 (by decide)).trans <|
    (V11_of m outs c main_arg9 (by decide)).trans <|
    (V10_of m outs c main_arg9 (by decide)).trans <|
    (V9_of m outs c main_arg9 (by decide)).trans <|
    (V8_of m outs c main_arg9 (by decide)).trans <|
    (V7_of m outs c main_arg9 (by decide)).trans <|
    (V6_of m outs c main_arg9 (by decide)).trans <|
    (V5_of m c main_arg9 (by decide)).trans <|
    (V4_of m c main_arg9 (by decide)).trans <|
    (V3_of m c main_arg9 (by decide)).trans <|
    (V2_of m c main_arg9 (by decide)).trans <|
    (V1_of m c main_arg9 (by decide))

/-- The third stage's second weight reaches region 2 as launched: no host stretch writes an argument, and no earlier region's output array
    is one. -/
theorem entry2_arg11 (c : Dev nD) : V13 m outs c main_arg11 = V0 m c main_arg11 :=
  (V13_of m outs c main_arg11 (by decide)).trans <|
    (V12_of m outs c main_arg11 (by decide)).trans <|
    (V11_of m outs c main_arg11 (by decide)).trans <|
    (V10_of m outs c main_arg11 (by decide)).trans <|
    (V9_of m outs c main_arg11 (by decide)).trans <|
    (V8_of m outs c main_arg11 (by decide)).trans <|
    (V7_of m outs c main_arg11 (by decide)).trans <|
    (V6_of m outs c main_arg11 (by decide)).trans <|
    (V5_of m c main_arg11 (by decide)).trans <|
    (V4_of m c main_arg11 (by decide)).trans <|
    (V3_of m c main_arg11 (by decide)).trans <|
    (V2_of m c main_arg11 (by decide)).trans <|
    (V1_of m c main_arg11 (by decide))

set_option maxHeartbeats 4000000 in
/-- The third stage's first bias, reshaped to one row, as the shape cast of the argument (at the valuation the last update left). -/
theorem entry2_v64_ops (c : Dev nD) :
    (V13 m outs c main_v64 : S1x256.Idx → Elt F .f32)
      = shapeCast S1x256 (V10 m outs c main_arg10 : S256.Idx → Elt F .f32) shapeCasts_S256_S1x256 := by
  show StableHlo.after hostOps2_2 (V12 m outs c) (Proc.devRef .tc main_v64) = _
  unfold hostOps2_2
  after_results
  rfl

/-- The third stage's first bias at region 2's entry is the launched bias viewed as one row. -/
theorem entry2_v64 (c : Dev nD) :
    (V13 m outs c main_v64 : S1x256.Idx → Elt F .f32)
      = shapeCast S1x256 (V0 m c main_arg10 : S256.Idx → Elt F .f32) shapeCasts_S256_S1x256 := by
  have e : (V10 m outs c main_arg10 : S256.Idx → Elt F .f32) = V0 m c main_arg10 :=
    (V10_of m outs c main_arg10 (by decide)).trans <|
    (V9_of m outs c main_arg10 (by decide)).trans <|
    (V8_of m outs c main_arg10 (by decide)).trans <|
    (V7_of m outs c main_arg10 (by decide)).trans <|
    (V6_of m outs c main_arg10 (by decide)).trans <|
    (V5_of m c main_arg10 (by decide)).trans <|
    (V4_of m c main_arg10 (by decide)).trans <|
    (V3_of m c main_arg10 (by decide)).trans <|
    (V2_of m c main_arg10 (by decide)).trans <|
    (V1_of m c main_arg10 (by decide))
  exact (entry2_v64_ops m outs c).trans
    (congrArg (fun x : S256.Idx → Elt F .f32 => shapeCast S1x256 x shapeCasts_S256_S1x256) e)

/-- Entry `j` of that row is entry `j` of the launched bias. -/
theorem entry2_v64_at (c : Dev nD) (j : Fin 256) :
    (V13 m outs c main_v64 : S1x256.Idx → Elt F .f32) (ix2 (0 : Fin 1) j)
      = (V0 m c main_arg10 : S256.Idx → Elt F .f32) (ix1 j) := by
  rw [entry2_v64]
  refine shapeCast_apply _ _ _ _ ?_
  show (S256.rowMajor (ix1 j)).val = (S1x256.rowMajor (ix2 (0 : Fin 1) j)).val
  rw [Shape.rowMajor_val_one, Shape.rowMajor_val_two]
  show j.val = 0 * 256 + j.val
  omega

set_option maxHeartbeats 4000000 in
/-- The third stage's second bias, reshaped to one row, as the shape cast of the argument (at the valuation the last update left). -/
theorem entry2_v65_ops (c : Dev nD) :
    (V13 m outs c main_v65 : S1x256.Idx → Elt F .f32)
      = shapeCast S1x256 (V10 m outs c main_arg12 : S256.Idx → Elt F .f32) shapeCasts_S256_S1x256 := by
  show StableHlo.after hostOps2_2 (V12 m outs c) (Proc.devRef .tc main_v65) = _
  unfold hostOps2_2
  after_results
  rfl

/-- The third stage's second bias at region 2's entry is the launched bias viewed as one row. -/
theorem entry2_v65 (c : Dev nD) :
    (V13 m outs c main_v65 : S1x256.Idx → Elt F .f32)
      = shapeCast S1x256 (V0 m c main_arg12 : S256.Idx → Elt F .f32) shapeCasts_S256_S1x256 := by
  have e : (V10 m outs c main_arg12 : S256.Idx → Elt F .f32) = V0 m c main_arg12 :=
    (V10_of m outs c main_arg12 (by decide)).trans <|
    (V9_of m outs c main_arg12 (by decide)).trans <|
    (V8_of m outs c main_arg12 (by decide)).trans <|
    (V7_of m outs c main_arg12 (by decide)).trans <|
    (V6_of m outs c main_arg12 (by decide)).trans <|
    (V5_of m c main_arg12 (by decide)).trans <|
    (V4_of m c main_arg12 (by decide)).trans <|
    (V3_of m c main_arg12 (by decide)).trans <|
    (V2_of m c main_arg12 (by decide)).trans <|
    (V1_of m c main_arg12 (by decide))
  exact (entry2_v65_ops m outs c).trans
    (congrArg (fun x : S256.Idx → Elt F .f32 => shapeCast S1x256 x shapeCasts_S256_S1x256) e)

/-- Entry `j` of that row is entry `j` of the launched bias. -/
theorem entry2_v65_at (c : Dev nD) (j : Fin 256) :
    (V13 m outs c main_v65 : S1x256.Idx → Elt F .f32) (ix2 (0 : Fin 1) j)
      = (V0 m c main_arg12 : S256.Idx → Elt F .f32) (ix1 j) := by
  rw [entry2_v65]
  refine shapeCast_apply _ _ _ _ ?_
  show (S256.rowMajor (ix1 j)).val = (S1x256.rowMajor (ix2 (0 : Fin 1) j)).val
  rw [Shape.rowMajor_val_one, Shape.rowMajor_val_two]
  show j.val = 0 * 256 + j.val
  omega

/-- The last convolution's weight reaches region 3 as launched: no host stretch writes an argument, and no earlier region's output array
    is one. -/
theorem entry3_arg13 (c : Dev nD) : V17 m outs c main_arg13 = V0 m c main_arg13 :=
  (V17_of m outs c main_arg13 (by decide)).trans <|
    (V16_of m outs c main_arg13 (by decide)).trans <|
    (V15_of m outs c main_arg13 (by decide)).trans <|
    (V14_of m outs c main_arg13 (by decide)).trans <|
    (V13_of m outs c main_arg13 (by decide)).trans <|
    (V12_of m outs c main_arg13 (by decide)).trans <|
    (V11_of m outs c main_arg13 (by decide)).trans <|
    (V10_of m outs c main_arg13 (by decide)).trans <|
    (V9_of m outs c main_arg13 (by decide)).trans <|
    (V8_of m outs c main_arg13 (by decide)).trans <|
    (V7_of m outs c main_arg13 (by decide)).trans <|
    (V6_of m outs c main_arg13 (by decide)).trans <|
    (V5_of m c main_arg13 (by decide)).trans <|
    (V4_of m c main_arg13 (by decide)).trans <|
    (V3_of m c main_arg13 (by decide)).trans <|
    (V2_of m c main_arg13 (by decide)).trans <|
    (V1_of m c main_arg13 (by decide))

set_option maxHeartbeats 4000000 in
/-- The last convolution's bias, reshaped to one row, as the shape cast of the argument (at the valuation the last update left). -/
theorem entry3_v68_ops (c : Dev nD) :
    (V17 m outs c main_v68 : S1x2048.Idx → Elt F .f32)
      = shapeCast S1x2048 (V14 m outs c main_arg14 : S2048.Idx → Elt F .f32) shapeCasts_S2048_S1x2048 := by
  show StableHlo.after hostOps3_2 (V16 m outs c) (Proc.devRef .tc main_v68) = _
  unfold hostOps3_2
  after_results
  rfl

/-- The last convolution's bias at region 3's entry is the launched bias viewed as one row. -/
theorem entry3_v68 (c : Dev nD) :
    (V17 m outs c main_v68 : S1x2048.Idx → Elt F .f32)
      = shapeCast S1x2048 (V0 m c main_arg14 : S2048.Idx → Elt F .f32) shapeCasts_S2048_S1x2048 := by
  have e : (V14 m outs c main_arg14 : S2048.Idx → Elt F .f32) = V0 m c main_arg14 :=
    (V14_of m outs c main_arg14 (by decide)).trans <|
    (V13_of m outs c main_arg14 (by decide)).trans <|
    (V12_of m outs c main_arg14 (by decide)).trans <|
    (V11_of m outs c main_arg14 (by decide)).trans <|
    (V10_of m outs c main_arg14 (by decide)).trans <|
    (V9_of m outs c main_arg14 (by decide)).trans <|
    (V8_of m outs c main_arg14 (by decide)).trans <|
    (V7_of m outs c main_arg14 (by decide)).trans <|
    (V6_of m outs c main_arg14 (by decide)).trans <|
    (V5_of m c main_arg14 (by decide)).trans <|
    (V4_of m c main_arg14 (by decide)).trans <|
    (V3_of m c main_arg14 (by decide)).trans <|
    (V2_of m c main_arg14 (by decide)).trans <|
    (V1_of m c main_arg14 (by decide))
  exact (entry3_v68_ops m outs c).trans
    (congrArg (fun x : S2048.Idx → Elt F .f32 => shapeCast S1x2048 x shapeCasts_S2048_S1x2048) e)

/-- Entry `j` of that row is entry `j` of the launched bias. -/
theorem entry3_v68_at (c : Dev nD) (j : Fin 2048) :
    (V17 m outs c main_v68 : S1x2048.Idx → Elt F .f32) (ix2 (0 : Fin 1) j)
      = (V0 m c main_arg14 : S2048.Idx → Elt F .f32) (ix1 j) := by
  rw [entry3_v68]
  refine shapeCast_apply _ _ _ _ ?_
  show (S2048.rowMajor (ix1 j)).val = (S1x2048.rowMajor (ix2 (0 : Fin 1) j)).val
  rw [Shape.rowMajor_val_one, Shape.rowMajor_val_two]
  show j.val = 0 * 2048 + j.val
  omega

end Cert.ReferenceIdeal.Hand

end
-- ==== Proof.RefConv4Closed.lean ====
/-
  The reference's last convolution in closed form over the third stage's output.

  What the fourth region leaves in `main_v69`, read at row `b`, column `co`, is the maximum over the 16 output rows
  `h` of image `b` of the convolution sum at row `h` plus the bias at `co`.  The region computes the sum as ONE
  contraction over the flattened triple (row tap, column tap, channel) of the zero-padded activation against column
  `co` of the stored weight.  The activation is one column wide before padding, so among the five column taps only
  the middle one ever meets data: every other tap multiplies an entry of the padding, which is zero on the extended
  reals, and a product with a zero entry is zero.  The contraction therefore collapses to the contraction over the
  flattened pair (row tap, channel) of image `b`'s activation, padded with two rows of zeros above and below,
  against the rows `((kh * 5 + 2) * 256 + ci)` of the weight — the rows of the middle column tap.

  The pieces: the result array entry by entry from what the body leaves at each grid point; what the body leaves at
  a point from its three input blocks; the blocks as tiles of the arrays the region finds; those arrays as the
  padding of the third stage's output, the launched weight and the launched bias.
-/
import proofs.«147627_g2000402439390779_pallasbulk_891_17_alg».proof.Proof.RefGmaxArray
import proofs.«147627_g2000402439390779_pallasbulk_891_17_alg».proof.Proof.RefConv4Value
import proofs.«147627_g2000402439390779_pallasbulk_891_17_alg».proof.Proof.RefHostPads
import proofs.«147627_g2000402439390779_pallasbulk_891_17_alg».proof.Proof.LibConvLaw

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Idealize.SL.Sem
open Idealize.ShloMosaic.Pipeline (Dat Cfg Window)
open Finset

variable [Cert.ReferenceIdeal.Facts]

/-! ## What the body leaves at a point, from the three blocks it is given -/

/-- The result tile at an index, the three inputs named by what their buffers read. -/
theorem tile4_of_reads (c : Dev nD) (i : grid3.Coords) (M0 : Memref sig .tc .vmem S8x20x5x256 .bf16) (h0 : M0.IsWhole)
    (M1 : Memref sig .tc .vmem S6400x512 .bf16) (h1 : M1.IsWhole) (M2 : Memref sig .tc .vmem S1x512 .f32) (h2 : M2.IsWhole)
    (M3 : Memref sig .tc .vmem S8x512 .bf16) (h3 : M3.IsWhole) (C0 : Memref sig .tc .vmem S128x6400 .bf16) (g0 : C0.IsWhole)
    (f0 : Bf3 (F := Ideal) c M0) (f1 : Bf3 (F := Ideal) c M1) (f2 : Bf3 (F := Ideal) c M2)
    (X0 : S8x20x5x256.Idx → EReal) (X1 : S6400x512.Idx → EReal) (X2 : S1x512.Idx → EReal)
    (e0 : M0.view.read (Elt Ideal) f0 = X0) (e1 : M1.view.read (Elt Ideal) f1 = X1) (e2 : M2.view.read (Elt Ideal) f2 = X2)
    (b : Fin 8) (co : Fin 512) :
    M3.view.read (Elt Ideal) (run3 (F := Ideal) c i M0 h0 M1 h1 M2 h2 M3 h3 C0 g0 f0 f1 f2).1 (ix2 b co)
      = (Finset.univ : Finset (Fin 16)).fold max (⊥ : EReal) (fun h : Fin 16 =>
          TapSum.convFull 5 5 256 (nat4 X0 b) (natCol X1 co) h.val 0 + X2 (ix2 0 co)) := by
  subst e0 e1 e2
  exact tile4_apply c i M0 h0 M1 h1 M2 h2 M3 h3 C0 g0 f0 f1 f2 b co

variable (m : (ℓ : Loc nD τ sig) → Buf (Elt Ideal) ℓ)

/-! ## The operands at plain natural-number coordinates -/

/-- Image `b` of the third stage's output with two rows of zeros above and below, at a natural-number row and channel:
    zero off the rows 2 … 17 and off the 256 channels. -/
def actN (c : Dev nD) (b : Fin 8) (hh ci : ℕ) : EReal :=
  if h : 2 ≤ hh ∧ hh < 18 ∧ ci < 256 then
    (o2 m c : S8x16x1x256.Idx → EReal) (ix4 b (⟨hh - 2, by omega⟩ : Fin 16) (0 : Fin 1) (⟨ci, h.2.2⟩ : Fin 256))
  else 0

/-- Column `co` of the launched weight of the last convolution at a natural-number row: zero past its 6400 rows. -/
def w13N (c : Dev nD) (co : Fin 2048) (t : ℕ) : EReal :=
  natCol (V0 m c main_arg13 : S6400x2048.Idx → EReal) co t

/-- The padded array the region finds, at its middle column: image `b`'s activation with its two zero rows above
    and below. -/
theorem v67_mid (c : Dev nD) (b : Fin 8) (hh ci : ℕ) (hhh : hh < 20) (hci : ci < 256) :
    (V17 m (outs3 m) c main_v67 : S8x20x5x256.Idx → EReal) (ix4 b (⟨hh, hhh⟩ : Fin 20) (⟨2, by decide⟩ : Fin 5) (⟨ci, hci⟩ : Fin 256))
      = actN m c b hh ci := by
  rw [v67_read]
  unfold actN
  by_cases hr : 2 ≤ hh ∧ hh < 18
  · rw [dif_pos ⟨hr.1, hr.2, by decide, by decide⟩, dif_pos ⟨hr.1, hr.2, hci⟩]
    refine congrArg _ (funext fun a => Fin.ext ?_)
    match a with
    | ⟨0, _⟩ => rfl
    | ⟨1, _⟩ => rfl
    | ⟨2, _⟩ => rfl
    | ⟨3, _⟩ => rfl
  · rw [dif_neg (fun h => hr ⟨h.1, h.2.1⟩), dif_neg (fun h => hr ⟨h.1, h.2.1⟩)]
    exact padZero_ideal

/-- Off its middle column the padded array is zero. -/
theorem v67_side (c : Dev nD) (b : Fin 8) (hh xx ci : ℕ) (hhh : hh < 20) (hxx : xx < 5) (hci : ci < 256) (hne : xx ≠ 2) :
    (V17 m (outs3 m) c main_v67 : S8x20x5x256.Idx → EReal) (ix4 b (⟨hh, hhh⟩ : Fin 20) (⟨xx, hxx⟩ : Fin 5) (⟨ci, hci⟩ : Fin 256))
      = (0 : EReal) := by
  rw [v67_read, dif_neg]
  · exact padZero_ideal
  · intro h
    have h1 : 2 ≤ xx := h.2.2.1
    have h2 : xx < 3 := h.2.2.2
    exact hne (by omega)

/-! ## The closed form -/

/-- THE LAST CONVOLUTION, CLOSED: row `b`, column `co` of what the fourth region leaves is the maximum over the 16
    output rows `h` of the sum, over the flattened (row tap, channel) index `k < 5 * 256`, of image `b`'s padded
    activation at row `h + k / 256`, channel `k % 256`, times the launched weight's entry in row
    `(k / 256 * 5 + 2) * 256 + k % 256`, column `co`, plus the launched bias at `co`. -/
theorem o3_closed (c : Dev nD) (b : Fin 8) (co : Fin 2048) :
    (o3 m c : S8x2048.Idx → EReal) (ix2 b co)
      = (Finset.univ : Finset (Fin 16)).fold max (⊥ : EReal) (fun h : Fin 16 =>
          (∑ k ∈ range (5 * 256), actN m c b (h.val + k / 256) (k % 256) * w13N m c co ((k / 256 * 5 + 2) * 256 + k % 256))
            + (V0 m c main_arg14 : S2048.Idx → EReal) (ix1 co)) := by
  have hco : co.val < 2048 := co.isLt
  have ht : (tileOf co.val).val = co.val / 512 := by rw [tileOf_val]; omega
  rw [o3_apply]
  -- what the body left at the point, from its three blocks: the padded array, and column tile `co / 512` of the
  -- launched weight and of the launched bias
  refine (tile4_of_reads c _ _ _ _ _ _ _ _ _ _ _ _ _ _
    (V17 m (outs3 m) c main_v67 : S8x20x5x256.Idx → EReal)
    (fun j : S6400x512.Idx => (V0 m c main_arg13 : S6400x2048.Idx → EReal)
      (ix2 (⟨(j 0).val, (j 0).isLt⟩ : Fin 6400)
        (⟨(tileOf co.val).val * 512 + (j 1).val, by have h1 : (j 1).val < 512 := (j 1).isLt; omega⟩ : Fin 2048)))
    (fun j : S1x512.Idx => (V0 m c main_arg14 : S2048.Idx → EReal)
      (ix1 (⟨(tileOf co.val).val * 512 + (j 1).val, by have h1 : (j 1).val < 512 := (j 1).isLt; omega⟩ : Fin 2048)))
    ((Memref.IsWhole.read_unread _ _).trans (blk3_0_eq (fun c b => V17 m (outs3 m) c b) c (tileOf co.val)))
    ((Memref.IsWhole.read_unread _ _).trans (funext fun j =>
      (blk3_1_apply (fun c b => V17 m (outs3 m) c b) c (tileOf co.val) j _ rfl rfl).trans
        (congrFun (entry3_arg13 m (outs3 m) c) _)))
    ((Memref.IsWhole.read_unread _ _).trans (funext fun j =>
      (blk3_2_apply (fun c b => V17 m (outs3 m) c b) c (tileOf co.val) j
        (ix2 (0 : Fin 1) (⟨(tileOf co.val).val * 512 + (j 1).val, by have h1 : (j 1).val < 512 := (j 1).isLt; omega⟩ : Fin 2048))
        (by have h0 : (j 0).val < 1 := (j 0).isLt; show (0 : ℕ) = (j 0).val; omega) rfl).trans
        (entry3_v68_at m (outs3 m) c _)))
    b (⟨co.val % 512, Nat.mod_lt _ (by decide)⟩ : Fin 512)).trans ?_
  refine congrArg (fun g : Fin 16 → EReal => Finset.fold max (⊥ : EReal) g Finset.univ) (funext fun h => ?_)
  have hh : h.val < 16 := h.isLt
  refine congrArg₂ (· + ·) ?_ ?_
  · -- only the middle column tap meets data
    rw [TapSum.convFull_single 5 5 256 2 (by decide) (by decide) (by decide) _ _ h.val 0 (fun y => zero_mul y) (fun r kw ci hne => by
      unfold nat4
      by_cases hin : r < 20 ∧ 0 + kw < 5 ∧ ci < 256
      · rw [dif_pos hin]; exact v67_side m c b r (0 + kw) ci hin.1 hin.2.1 hin.2.2 (by omega)
      · rw [dif_neg hin])]
    refine Finset.sum_congr rfl fun k hk => ?_
    have hk' : k < 1280 := by have := Finset.mem_range.mp hk; omega
    refine congrArg₂ (· * ·) ?_ ?_
    · -- the activation entry
      rw [nat4_of_lt _ _ _ _ _ (by omega) (by decide) (Nat.mod_lt _ (by decide))]
      exact v67_mid m c b (h.val + k / 256) (k % 256) (by omega) (Nat.mod_lt _ (by decide))
    · -- the weight entry
      unfold w13N
      rw [natCol_of_lt _ _ _ (by omega), natCol_of_lt _ _ _ (by omega)]
      refine congrArg (V0 m c main_arg13 : S6400x2048.Idx → EReal) (funext fun a => Fin.ext ?_)
      match a with
      | ⟨0, _⟩ => rfl
      | ⟨1, _⟩ => show (tileOf co.val).val * 512 + co.val % 512 = co.val; rw [ht]; omega
  · -- the bias entry
    refine congrArg (V0 m c main_arg14 : S2048.Idx → EReal) (funext fun a => Fin.ext ?_)
    match a with
    | ⟨0, _⟩ => show (tileOf co.val).val * 512 + co.val % 512 = co.val; rw [ht]; omega

end Cert.ReferenceIdeal.Hand

end
-- ==== Proof.ResultArrays.lean ====
/-
  The two result arrays as what the last regions leave. In each program the last valuation at the result array is,
  by two updates read back at their own key, the contents the last region leaves in its output array: the fold of
  that region's write-backs over its grid. Each last region has one grid point and a whole-array output window, so
  that fold is one write-back of one block that covers the array: the array ends holding the block the body leaves
  in the window's staging buffer, read as an array.
-/
import proofs.«147627_g2000402439390779_pallasbulk_891_17_alg».proof.Proof.KernelIdealFrame
import proofs.«147627_g2000402439390779_pallasbulk_891_17_alg».proof.Proof.ReferenceIdealFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Cert.KernelIdeal.Facts]

variable (m : (ℓ : Loc nD τ sig) → Buf (Elt F) ℓ)

/-- The last valuation at the result array `main_v87` is what the last region leaves there: the valuation is the one before
    it updated at `main_v87`, and the contents the regions leave, at that item and that array, are the launch contents
    updated at `main_v87` with the region's output; each update is read back at its own key. -/
theorem result_eq_o (c : Dev nD) : V8 m (outs m) c (Proc.devRef .tc main_v87) = o1 m c := by
  show Function.update (V7 m (outs m) c) (Proc.devRef .tc main_v87) (outs m 8 main_v87 c) (Proc.devRef .tc main_v87) = _
  rw [Function.update_self]
  show Function.update (V0 m c) (Proc.devRef .tc main_v87) (o1 m c) (Proc.devRef .tc main_v87) = _
  rw [Function.update_self]

section Block
variable (V : (c : Dev nD) → (b : Ref sig .tc) → Buf (Elt F) ((c : Thread nD τ).loc b))

/-- What the last region's body leaves in its output block at the region's one grid point, as contents of the result
    array: the window's block is the whole array, so a block's contents are an array's. -/
abbrev resBlock1 (c : Dev nD) : Buf (Elt F) ((c : Thread nD τ).loc main_v87) :=
  (win1_13.stage (cfg1.slots t1_0 13)).view.read (Elt F) (K1 V c).1

/-- The output window's block at the one point starts at the array's origin on every axis. -/
theorem hz_res1 : (fun a => win1_13.index t1_0 a * main_v87.ty.shape.size a) = fun _ => 0 :=
  funext fun a => by fin_cases a <;> decide

/-- What the one write-back writes is that block, which read through the block's zero-offset whole rectangle is itself. -/
theorem flushed_res1 (c : Dev nD) (t : Fin cfg1.N) (hf : (cfg1.win 13).flush t = true) :
    (dat1 V c).flushed 13 t = ((cfg1.win 13).blk t).view.read (Elt F) (resBlock1 V c) := by
  obtain rfl := fin_N1 t
  show (cfg1.win 13).cut (grid1.coords t1_0) ((dat1 V c).after 13 t1_0) = _
  rw [after1_13]
  exact (Memref.read_access_unit_zero (Elt F) main_v87 hz_res1 (fun a => by rw [congrFun hz_res1 a]; simp) (resBlock1 V c)).symm

/-- So the region leaves the result array holding that block: the one point's block covers the array. -/
theorem arrAt_res1 (c : Dev nD) : (dat1 V c).arrAt 13 cfg1.N = resBlock1 V c :=
  (dat1 V c).arrAt_eq_of_cover 13 (resBlock1 V c) (flushed_res1 V c) fun (i : S8x16.Idx) =>
    ⟨t1_0, flush1_13 t1_0, by
      show i ∈ ((View.whole main_v87).slice (win1_13.rect t1_0)).set
      rw [View.set_slice_whole]
      refine Rect.mem_set_unit.mpr fun a => ?_
      have h0 : (i 0 : Nat) < 8 := (i 0).isLt
      have h1 : (i 1 : Nat) < 16 := (i 1).isLt
      match a with
      | ⟨0, _⟩ =>
        show win1_13.index t1_0 0 * win1_13.size 0 ≤ (i 0 : Nat) ∧ (i 0 : Nat) < win1_13.index t1_0 0 * win1_13.size 0 + win1_13.xsize (grid1.coords t1_0) 0
        rw [show win1_13.index t1_0 0 * win1_13.size 0 = 0 from by decide +kernel, show win1_13.xsize (grid1.coords t1_0) 0 = 8 from by decide +kernel]; omega
      | ⟨1, _⟩ =>
        show win1_13.index t1_0 1 * win1_13.size 1 ≤ (i 1 : Nat) ∧ (i 1 : Nat) < win1_13.index t1_0 1 * win1_13.size 1 + win1_13.xsize (grid1.coords t1_0) 1
        rw [show win1_13.index t1_0 1 * win1_13.size 1 = 0 from by decide +kernel, show win1_13.xsize (grid1.coords t1_0) 1 = 16 from by decide +kernel]; omega⟩

end Block

/-- What the last region leaves in `main_v87` is the block its body leaves, the region entered at the contents the
    earlier regions and host stretches leave. -/
theorem o1_eq (c : Dev nD) : o1 m c = resBlock1 (fun c b => V7 m (outs1 m) c b) c :=
  arrAt_res1 (fun c b => V7 m (outs1 m) c b) c

/-- The last valuation at the result array, as that block. -/
theorem result_eq_block (c : Dev nD) :
    V8 m (outs m) c (Proc.devRef .tc main_v87) = resBlock1 (fun c b => V7 m (outs1 m) c b) c :=
  (result_eq_o m c).trans (o1_eq m c)

/-! ## The last region's entry array -/

/-- Region 1 is entered with its first input array `main_v70` holding what region 0 left there: the host stretch
    between the two regions does not write `main_v70`, and the valuation before that stretch is the launch contents
    updated at `main_v70` with region 0's output. (At the regions' outputs as named up to region 0: the contents
    region 1's proof data are taken at.) -/
theorem entry1_v70 (c : Dev nD) : V7 m (outs1 m) c (Proc.devRef .tc main_v70) = o0 m c := by
  refine (V7_of m (outs1 m) c main_v70 (by decide)).trans ?_
  show Function.update (V5 m c) (Proc.devRef .tc main_v70) (outs1 m 6 main_v70 c) (Proc.devRef .tc main_v70) = _
  rw [Function.update_self]
  show Function.update (V0 m c) (Proc.devRef .tc main_v70) (o0 m c) (Proc.devRef .tc main_v70) = _
  rw [Function.update_self]

/-- The same at all the regions' outputs named. -/
theorem entry1_v70' (c : Dev nD) : V7 m (outs m) c (Proc.devRef .tc main_v70) = o0 m c := by
  refine (V7_of m (outs m) c main_v70 (by decide)).trans ?_
  show Function.update (V5 m c) (Proc.devRef .tc main_v70) (outs m 6 main_v70 c) (Proc.devRef .tc main_v70) = _
  rw [Function.update_self]
  show Function.update (V0 m c) (Proc.devRef .tc main_v70) (o0 m c) (Proc.devRef .tc main_v70) = _
  rw [Function.update_self]

/-! ## The block the body leaves, as the run's last value -/

/-- The two offsets of a rank-2 access at the origin. -/
theorem hz_00 : (![0, 0] : Fin 2 → Nat) = fun _ => 0 := funext fun a => by fin_cases a <;> rfl

/-- The run's witness, read back through the output memref, is the run's last value: the witness is the output buffer
    written, over anything, with the run's one store to it — the whole block at zero offsets, whose payload is the
    log-softmax the body ends with — and what is read of that is the payload. -/
theorem read_witness1 (c : Dev nD) (M0 : Memref sig .tc .vmem S8x16x4x128 .bf16) (h0 : M0.IsWhole) (M1 : Memref sig .tc .vmem S640x1280 .bf16) (h1 : M1.IsWhole) (M2 : Memref sig .tc .vmem S1x256 .f32) (h2 : M2.IsWhole) (M3 : Memref sig .tc .vmem S1280x1280 .bf16) (h3 : M3.IsWhole) (M4 : Memref sig .tc .vmem S1x256 .f32) (h4 : M4.IsWhole) (M5 : Memref sig .tc .vmem S1280x2048 .bf16) (h5 : M5.IsWhole) (M6 : Memref sig .tc .vmem S1x2048 .f32) (h6 : M6.IsWhole) (M7 : Memref sig .tc .vmem S2048x512 .bf16) (h7 : M7.IsWhole) (M8 : Memref sig .tc .vmem S1x512 .f32) (h8 : M8.IsWhole) (M9 : Memref sig .tc .vmem S512x1024 .bf16) (h9 : M9.IsWhole) (M10 : Memref sig .tc .vmem S1x1024 .f32) (h10 : M10.IsWhole) (M11 : Memref sig .tc .vmem S1024x16 .bf16) (h11 : M11.IsWhole) (M12 : Memref sig .tc .vmem S1x16 .f32) (h12 : M12.IsWhole) (M13 : Memref sig .tc .vmem S8x16 .f32) (h13 : M13.IsWhole) (C0 : Memref sig .tc .vmem S8x20x8x128 .bf16) (g0 : C0.IsWhole) (C1 : Memref sig .tc .vmem S1024x640 .bf16) (g1 : C1.IsWhole) (C2 : Memref sig .tc .vmem S8x20x8x256 .bf16) (g2 : C2.IsWhole) (C3 : Memref sig .tc .vmem S1024x1280 .bf16) (g3 : C3.IsWhole) (C4 : Memref sig .tc .vmem S8x24x256 .bf16) (g4 : C4.IsWhole) (C5 : Memref sig .tc .vmem S128x1280 .bf16) (g5 : C5.IsWhole)
    (f0 : Bf1 (F := F) c M0) (f1 : Bf1 (F := F) c M1) (f2 : Bf1 (F := F) c M2) (f3 : Bf1 (F := F) c M3) (f4 : Bf1 (F := F) c M4) (f5 : Bf1 (F := F) c M5) (f6 : Bf1 (F := F) c M6) (f7 : Bf1 (F := F) c M7) (f8 : Bf1 (F := F) c M8) (f9 : Bf1 (F := F) c M9) (f10 : Bf1 (F := F) c M10) (f11 : Bf1 (F := F) c M11) (f12 : Bf1 (F := F) c M12) :
    M13.view.read (Elt F) (run1 (F := F) c M0 h0 M1 h1 M2 h2 M3 h3 M4 h4 M5 h5 M6 h6 M7 h7 M8 h8 M9 h9 M10 h10 M11 h11 M12 h12 M13 h13 C0 g0 C1 g1 C2 g2 C3 g3 C4 g4 C5 g5 f0 f1 f2 f3 f4 f5 f6 f7 f8 f9 f10 f11 f12).1
      = run1.sl.v189 c M0 M1 M2 M3 M4 M5 M6 M7 M8 M9 M10 M11 M12 C0 C1 C2 C3 C4 C5 f0 f1 f2 f3 f4 f5 f6 f7 f8 f9 f10 f11 f12 := by
  unfold run1
  dsimp only
  rw [View.read_writes_junk_eq_canon]
  unfold run1.sl.H13_1
  rw [View.canon_unit_zero hz_00]

section Block
variable (V : (c : Dev nD) → (b : Ref sig .tc) → Buf (Elt F) ((c : Thread nD τ).loc b))

/-- So the block the last region's body leaves is the run's last value at the staged blocks: each input memref the
    window's current staging buffer, at the raw contents that read the window's block; the scratch buffers the kernel's own. -/
theorem resBlock1_eq (c : Dev nD) :
    resBlock1 V c = run1.sl.v189 c (win1_0.stage (cfg1.slots t1_0 0)) (win1_1.stage (cfg1.slots t1_0 1)) (win1_2.stage (cfg1.slots t1_0 2)) (win1_3.stage (cfg1.slots t1_0 3)) (win1_4.stage (cfg1.slots t1_0 4)) (win1_5.stage (cfg1.slots t1_0 5)) (win1_6.stage (cfg1.slots t1_0 6)) (win1_7.stage (cfg1.slots t1_0 7)) (win1_8.stage (cfg1.slots t1_0 8)) (win1_9.stage (cfg1.slots t1_0 9)) (win1_10.stage (cfg1.slots t1_0 10)) (win1_11.stage (cfg1.slots t1_0 11)) (win1_12.stage (cfg1.slots t1_0 12)) (Memref.whole cc1_scratch0) (Memref.whole cc1_scratch1) (Memref.whole cc1_scratch2) (Memref.whole cc1_scratch3) (Memref.whole cc1_scratch4) (Memref.whole cc1_scratch5)
      ((hstage1_0 0).unread (blk1_0 V c)) ((hstage1_1 0).unread (blk1_1 V c)) ((hstage1_2 0).unread (blk1_2 V c)) ((hstage1_3 0).unread (blk1_3 V c)) ((hstage1_4 0).unread (blk1_4 V c)) ((hstage1_5 0).unread (blk1_5 V c)) ((hstage1_6 0).unread (blk1_6 V c)) ((hstage1_7 0).unread (blk1_7 V c)) ((hstage1_8 0).unread (blk1_8 V c)) ((hstage1_9 0).unread (blk1_9 V c)) ((hstage1_10 0).unread (blk1_10 V c)) ((hstage1_11 0).unread (blk1_11 V c)) ((hstage1_12 0).unread (blk1_12 V c)) :=
  read_witness1 (F := F) ..

end Block

/-- The last valuation at the result array, as the run's last value at the staged blocks of the region's entry contents. -/
theorem result_eq_value (c : Dev nD) :
    V8 m (outs m) c (Proc.devRef .tc main_v87)
      = run1.sl.v189 c (win1_0.stage (cfg1.slots t1_0 0)) (win1_1.stage (cfg1.slots t1_0 1)) (win1_2.stage (cfg1.slots t1_0 2)) (win1_3.stage (cfg1.slots t1_0 3)) (win1_4.stage (cfg1.slots t1_0 4)) (win1_5.stage (cfg1.slots t1_0 5)) (win1_6.stage (cfg1.slots t1_0 6)) (win1_7.stage (cfg1.slots t1_0 7)) (win1_8.stage (cfg1.slots t1_0 8)) (win1_9.stage (cfg1.slots t1_0 9)) (win1_10.stage (cfg1.slots t1_0 10)) (win1_11.stage (cfg1.slots t1_0 11)) (win1_12.stage (cfg1.slots t1_0 12)) (Memref.whole cc1_scratch0) (Memref.whole cc1_scratch1) (Memref.whole cc1_scratch2) (Memref.whole cc1_scratch3) (Memref.whole cc1_scratch4) (Memref.whole cc1_scratch5)
          ((hstage1_0 0).unread (blk1_0 (fun c b => V7 m (outs1 m) c b) c)) ((hstage1_1 0).unread (blk1_1 (fun c b => V7 m (outs1 m) c b) c)) ((hstage1_2 0).unread (blk1_2 (fun c b => V7 m (outs1 m) c b) c)) ((hstage1_3 0).unread (blk1_3 (fun c b => V7 m (outs1 m) c b) c)) ((hstage1_4 0).unread (blk1_4 (fun c b => V7 m (outs1 m) c b) c)) ((hstage1_5 0).unread (blk1_5 (fun c b => V7 m (outs1 m) c b) c)) ((hstage1_6 0).unread (blk1_6 (fun c b => V7 m (outs1 m) c b) c)) ((hstage1_7 0).unread (blk1_7 (fun c b => V7 m (outs1 m) c b) c)) ((hstage1_8 0).unread (blk1_8 (fun c b => V7 m (outs1 m) c b) c)) ((hstage1_9 0).unread (blk1_9 (fun c b => V7 m (outs1 m) c b) c)) ((hstage1_10 0).unread (blk1_10 (fun c b => V7 m (outs1 m) c b) c)) ((hstage1_11 0).unread (blk1_11 (fun c b => V7 m (outs1 m) c b) c)) ((hstage1_12 0).unread (blk1_12 (fun c b => V7 m (outs1 m) c b) c)) :=
  (result_eq_block m c).trans (resBlock1_eq (fun c b => V7 m (outs1 m) c b) c)

end Cert.KernelIdeal.Hand

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Cert.ReferenceIdeal.Facts]

variable (m : (ℓ : Loc nD τ sig) → Buf (Elt F) ℓ)

/-- The last valuation at the result array `main_v73` is what the last region leaves there: the valuation is the one before
    it updated at `main_v73`, and the contents the regions leave, at that item and that array, are the launch contents
    updated at `main_v73` with the region's output; each update is read back at its own key. -/
theorem result_eq_o (c : Dev nD) : V20 m (outs m) c (Proc.devRef .tc main_v73) = o4 m c := by
  show Function.update (V19 m (outs m) c) (Proc.devRef .tc main_v73) (outs m 20 main_v73 c) (Proc.devRef .tc main_v73) = _
  rw [Function.update_self]
  show Function.update (V0 m c) (Proc.devRef .tc main_v73) (o4 m c) (Proc.devRef .tc main_v73) = _
  rw [Function.update_self]

section Block
variable (V : (c : Dev nD) → (b : Ref sig .tc) → Buf (Elt F) ((c : Thread nD τ).loc b))

/-- What the last region's body leaves in its output block at the region's one grid point, as contents of the result
    array: the window's block is the whole array, so a block's contents are an array's. -/
abbrev resBlock4 (c : Dev nD) : Buf (Elt F) ((c : Thread nD τ).loc main_v73) :=
  (win4_7.stage (cfg4.slots t4_0 7)).view.read (Elt F) (K4 V c).1

/-- The output window's block at the one point starts at the array's origin on every axis. -/
theorem hz_res4 : (fun a => win4_7.index t4_0 a * main_v73.ty.shape.size a) = fun _ => 0 :=
  funext fun a => by fin_cases a <;> decide

/-- What the one write-back writes is that block, which read through the block's zero-offset whole rectangle is itself. -/
theorem flushed_res4 (c : Dev nD) (t : Fin cfg4.N) (hf : (cfg4.win 7).flush t = true) :
    (dat4 V c).flushed 7 t = ((cfg4.win 7).blk t).view.read (Elt F) (resBlock4 V c) := by
  obtain rfl := fin_N4 t
  show (cfg4.win 7).cut (grid4.coords t4_0) ((dat4 V c).after 7 t4_0) = _
  rw [after4_7]
  exact (Memref.read_access_unit_zero (Elt F) main_v73 hz_res4 (fun a => by rw [congrFun hz_res4 a]; simp) (resBlock4 V c)).symm

/-- So the region leaves the result array holding that block: the one point's block covers the array. -/
theorem arrAt_res4 (c : Dev nD) : (dat4 V c).arrAt 7 cfg4.N = resBlock4 V c :=
  (dat4 V c).arrAt_eq_of_cover 7 (resBlock4 V c) (flushed_res4 V c) fun (i : S8x16.Idx) =>
    ⟨t4_0, flush4_7 t4_0, by
      show i ∈ ((View.whole main_v73).slice (win4_7.rect t4_0)).set
      rw [View.set_slice_whole]
      refine Rect.mem_set_unit.mpr fun a => ?_
      have h0 : (i 0 : Nat) < 8 := (i 0).isLt
      have h1 : (i 1 : Nat) < 16 := (i 1).isLt
      match a with
      | ⟨0, _⟩ =>
        show win4_7.index t4_0 0 * win4_7.size 0 ≤ (i 0 : Nat) ∧ (i 0 : Nat) < win4_7.index t4_0 0 * win4_7.size 0 + win4_7.xsize (grid4.coords t4_0) 0
        rw [show win4_7.index t4_0 0 * win4_7.size 0 = 0 from by decide +kernel, show win4_7.xsize (grid4.coords t4_0) 0 = 8 from by decide +kernel]; omega
      | ⟨1, _⟩ =>
        show win4_7.index t4_0 1 * win4_7.size 1 ≤ (i 1 : Nat) ∧ (i 1 : Nat) < win4_7.index t4_0 1 * win4_7.size 1 + win4_7.xsize (grid4.coords t4_0) 1
        rw [show win4_7.index t4_0 1 * win4_7.size 1 = 0 from by decide +kernel, show win4_7.xsize (grid4.coords t4_0) 1 = 16 from by decide +kernel]; omega⟩

end Block

/-- What the last region leaves in `main_v73` is the block its body leaves, the region entered at the contents the
    earlier regions and host stretches leave. -/
theorem o4_eq (c : Dev nD) : o4 m c = resBlock4 (fun c b => V19 m (outs4 m) c b) c :=
  arrAt_res4 (fun c b => V19 m (outs4 m) c b) c

/-- The last valuation at the result array, as that block. -/
theorem result_eq_block (c : Dev nD) :
    V20 m (outs m) c (Proc.devRef .tc main_v73) = resBlock4 (fun c b => V19 m (outs4 m) c b) c :=
  (result_eq_o m c).trans (o4_eq m c)

/-! ## The last region's entry array -/

/-- Region 4 is entered with its first input array `main_v69` holding what region 3 left there: the host stretch
    between the two regions only reshapes three bias arguments and does not write `main_v69`, and the valuation
    before that stretch is the one before region 3's updated at `main_v69` with region 3's output. (At the regions'
    outputs as named up to region 3: the contents region 4's proof data are taken at.) -/
theorem entry4_v69 (c : Dev nD) : V19 m (outs4 m) c (Proc.devRef .tc main_v69) = o3 m c := by
  refine (V19_of m (outs4 m) c main_v69 (by decide)).trans ?_
  show Function.update (V17 m (outs4 m) c) (Proc.devRef .tc main_v69) (outs4 m 18 main_v69 c) (Proc.devRef .tc main_v69) = _
  rw [Function.update_self]
  show Function.update (V0 m c) (Proc.devRef .tc main_v69) (o3 m c) (Proc.devRef .tc main_v69) = _
  rw [Function.update_self]

end Cert.ReferenceIdeal.Hand

end
-- ==== Proof.FeatureJoin.lean ====
/-
  The join of the two feature vectors. Each program's 2048 features of an image are, in closed form, the maximum over
  the image's 16 rows of a five-tap convolution sum over 256 channels of its padded third-stage activation against the
  launched weight's middle-column-tap rows, plus the launched bias. The launches agree on the weight and the bias, so the
  two feature vectors are equal as soon as the two third-stage activations are: this moves the open equation from the
  8 × 2048 features to the 8 × 16 × 256 activations.
-/
import proofs.«147627_g2000402439390779_pallasbulk_891_17_alg».proof.Proof.KernelFeatClosed
import proofs.«147627_g2000402439390779_pallasbulk_891_17_alg».proof.Proof.RefConv4Closed
import proofs.«147627_g2000402439390779_pallasbulk_891_17_alg».proof.Proof.HeadReduction
import proofs.«147627_g2000402439390779_pallasbulk_891_17_alg».proof.Proof.ResultArrays

set_option maxRecDepth 16384

noncomputable section

namespace Cert.Proof

open Idealize.ShloMosaic Idealize.ShloMosaic.TcCoe Idealize.ShloMosaic.ValueIdx Idealize.SL.Sem
open Finset

variable [Cert.KernelIdeal.Facts] [Cert.ReferenceIdeal.Facts]

/-- THE FEATURES FROM THE POOLED ACTIVATIONS: from launches agreeing on the arguments, if the kernel's pooled third-stage
    activation (its last region's chain at the staged blocks of the contents the region is entered at) is the reference's
    third region's output, entry by entry, then the reference's feature array is the kernel's feature vector. -/
theorem features_of_pool
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (c : Dev Cert.KernelIdeal.nD)
    (hP : ∀ (b : Fin 8) (h : Fin 16) (ci : Fin 256),
      (Cert.KernelIdeal.Hand.poolAt (fun c b => Cert.KernelIdeal.Gen.V7 m (Cert.KernelIdeal.Hand.outs1 m) c b) c (ix3 b h ci) : Ideal .bf16)
        = (Cert.ReferenceIdeal.Hand.o2 m' c : Cert.ReferenceIdeal.S8x16x1x256.Idx → Elt Ideal .bf16) (ix4 b h (0 : Fin 1) ci)) :
    (Cert.ReferenceIdeal.Gen.V19 m' (Cert.ReferenceIdeal.Hand.outs4 m') c (Proc.devRef .tc Cert.ReferenceIdeal.main_v69) : FVec Ideal (Cert.Hand.Rows 2048) .bf16)
        = Cert.KernelIdeal.Hand.feat1 (fun c b => Cert.KernelIdeal.Gen.V7 m (Cert.KernelIdeal.Hand.outs1 m) c b) c := by
  -- the reference's last region finds in its feature array what its fourth region left
  refine (Cert.ReferenceIdeal.Hand.entry4_v69 m' c).trans ?_
  funext j
  rw [eq_ix2 j]
  refine (Cert.ReferenceIdeal.Hand.o3_closed m' c (j 0) (j 1)).trans
    (Eq.trans ?_ (Cert.KernelIdeal.Hand.feat1_launched m (Cert.KernelIdeal.Hand.outs1 m) c (j 0) (j 1)).symm)
  -- the two closed forms, term by term
  refine congrArg (fun g : Fin 16 → EReal => Finset.fold max (⊥ : EReal) g Finset.univ) (funext fun h => ?_)
  refine congrArg₂ (· + ·) (Finset.sum_congr rfl fun k hk => congrArg₂ (· * ·) ?_ ?_) ?_
  · -- the padded activation: the hypothesis on rows 2 … 17, zero elsewhere on both sides
    have hk' : k % 256 < 256 := Nat.mod_lt _ (by decide)
    rw [Cert.KernelIdeal.Hand.poolPadN_rows _ c (j 0) (h.val + k / 256) (k % 256) hk']
    unfold Cert.ReferenceIdeal.Hand.actN
    by_cases hr : 2 ≤ h.val + k / 256 ∧ h.val + k / 256 < 18
    · rw [dif_pos ⟨hr.1, hr.2, hk'⟩, dif_pos hr]
      exact (hP (j 0) _ _).symm
    · rw [dif_neg (fun hh => hr ⟨hh.1, hh.2.1⟩), dif_neg hr]
  · -- the weight entry: the launches agree on the stored weight
    unfold Cert.ReferenceIdeal.Hand.w13N
    show Cert.ReferenceIdeal.Hand.natCol (m' ((c.tc : Thread Cert.ReferenceIdeal.nD Cert.ReferenceIdeal.τ).loc Cert.ReferenceIdeal.main_arg13)) (j 1) _ = _
    rw [(hagree c).2.2.2.2.2.2.2.2.2.2.2.2.2.1]
    rfl
  · -- the bias entry: the launches agree on the bias vector
    show (m' ((c.tc : Thread Cert.ReferenceIdeal.nD Cert.ReferenceIdeal.τ).loc Cert.ReferenceIdeal.main_arg14) : Cert.ReferenceIdeal.S2048.Idx → Elt Ideal .f32) _ = _
    rw [(hagree c).2.2.2.2.2.2.2.2.2.2.2.2.2.2.1]

end Cert.Proof

end
-- ==== Proof.KernelConv3aValue.lean ====
/-
  The kernel's first third-stage convolution, read at an index.

  The body builds the 5x5 convolution from ONE matrix product: a zero-padded copy [8,20,8,128] of the second stage's
  activation [8,16,4,128] (zeros everywhere, then the activation on rows 2 … 17 and columns 2 … 5), a patch matrix
  [1024,640] of five column blocks (block kh is rows kh … kh + 15 of the padded copy with all 8 padded columns, the
  (image, row, column) triple flattened), and the product of the patch matrix with the re-laid weight [640,1280]
  (row kh * 128 + ci, column kw * 256 + co) into zero.  Row p = (b * 16 + h) * 8 + xx of the product holds, in its
  column block kw, the contraction over the row taps and channels of the padded copy AT COLUMN xx; the convolution at
  output column x is the sum over kw of block kw read at padded column x + kw: five column-shifted slices added.

  Here each step is read at an index: the padded copy (the scratch buffer taken as the ONE function its two stores
  leave), the patch matrix, the product at the ideal values (extended reals) as a plain sum, the five-slice sum, and
  the whole in the form of the general convolution law's row-contraction form, then the bias and the rectifier.
-/
import proofs.«147627_g2000402439390779_pallasbulk_891_17_alg».proof.Proof.KernelIdealRegion1
import proofs.«147627_g2000402439390779_pallasbulk_891_17_alg».proof.Proof.LibConvLaw
import Idealize.ShloMosaic.Lib.Pipeline.Value
import Idealize.ShloMosaic.Lib.ValueIdx
import Idealize.ShloMosaic.Lib.Ring
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F] [Cert.KernelIdeal.Facts]

namespace Conv3a

theorem zero4 : (![0, 0, 0, 0] : Fin 4 → Nat) = fun _ => 0 := funext fun a => by fin_cases a <;> rfl
theorem zero2 : (![0, 0] : Fin 2 → Nat) = fun _ => 0 := funext fun a => by fin_cases a <;> rfl

/-- A rank-four rectangle lies in its array when it does on each axis. -/
theorem inb4 {d off size : Fin 4 → Nat} (h0 : off 0 + size 0 ≤ d 0) (h1 : off 1 + size 1 ≤ d 1)
    (h2 : off 2 + size 2 ≤ d 2) (h3 : off 3 + size 3 ≤ d 3) : ∀ a, off a + size a ≤ (⟨4, d⟩ : Shape).size a :=
  fun a => match a with | ⟨0, _⟩ => h0 | ⟨1, _⟩ => h1 | ⟨2, _⟩ => h2 | ⟨3, _⟩ => h3

/-- Under the last store of a list, at an index named by its coordinates: the store's payload at the local index
    whose image the coordinates are. -/
theorem canon_cons_at {s : Shape} {e : EltTy} {Val : EltTy → Type} [∀ e, Nonempty (Val e)] (r : Rect s)
    (w : r.shape.Idx → Val e) (L : List (View.Piece Val s e)) (y : s.Idx) (x : r.shape.Idx)
    (hxy : ∀ a, (r.emb x a).val = (y a).val) : View.canon (⟨r, w⟩ :: L) y = w x := by
  obtain rfl : r.emb x = y := funext fun a => Fin.ext (hxy a)
  exact View.canon_cons_emb r w L x

section Pad

variable (c : Dev nD) (M0 : Memref sig .tc .vmem S8x16x4x128 .bf16) (f0 : Bf1 (F := F) c M0)

/-! ## The padded copy -/

/-- What the interior store writes is the activation window's contents: a whole-block load and two casts to its
    own shape. -/
theorem act_eq : run1.sl.v8 c M0 f0 = M0.view.read (Elt F) f0 := by
  unfold run1.sl.v8 run1.sl.v5
  simp only [View.readAt_eq_ld, View.ld_unit_zero (S := S8x16x4x128) zero4, shapeCast_self]

/-- The zero-padded copy the convolution reads: what its two stores leave in the scratch buffer. -/
abbrev pad3a : S8x20x8x128.Idx → Elt F .bf16 := View.canon (run1.sl.G0_2 c M0 f0)

/-- The function the two stores leave: the activation two rows up and two columns left on rows 2 … 17 and columns
    2 … 5, the bf16 zero elsewhere. -/
def padFn (y : S8x20x8x128.Idx) : Elt F .bf16 :=
  if h : (2 ≤ (y 1).val ∧ (y 1).val < 18) ∧ (2 ≤ (y 2).val ∧ (y 2).val < 6) then
    M0.view.read (Elt F) f0 (ix4 (⟨(y 0).val, (y 0).isLt⟩ : Fin 8) (⟨(y 1).val - 2, by omega⟩ : Fin 16)
      (⟨(y 2).val - 2, by omega⟩ : Fin 4) (⟨(y 3).val, (y 3).isLt⟩ : Fin 128))
  else (run1.sl.cst : F .bf16)

/-- THE PADDED COPY AT AN INDEX.  In the interior the second store, through the rectangle of the activation's shape
    at offsets (0, 2, 2, 0), is the last one; off it that store's rectangle does not hold the index and the first
    store, through the whole buffer, leaves its payload, the broadcast of the bf16 zero. -/
theorem pad3a_apply (y : S8x20x8x128.Idx) : pad3a c M0 f0 y = padFn c M0 f0 y := by
  unfold padFn
  split
  · rename_i h
    unfold pad3a run1.sl.G0_2
    refine (canon_cons_at _ _ _ y (ix4 (⟨(y 0).val, (y 0).isLt⟩ : Fin 8) (⟨(y 1).val - 2, by omega⟩ : Fin 16)
      (⟨(y 2).val - 2, by omega⟩ : Fin 4) (⟨(y 3).val, (y 3).isLt⟩ : Fin 128)) (fun a => ?_)).trans
      (congrFun (act_eq c M0 f0) _)
    rw [Rect.emb_apply]
    match a with
    | ⟨0, _⟩ => show 0 + 1 * (y 0).val = (y 0).val; omega
    | ⟨1, _⟩ => show 2 + 1 * ((y 1).val - 2) = (y 1).val; omega
    | ⟨2, _⟩ => show 2 + 1 * ((y 2).val - 2) = (y 2).val; omega
    | ⟨3, _⟩ => show 0 + 1 * (y 3).val = (y 3).val; omega
  · rename_i h
    unfold pad3a run1.sl.G0_2
    rw [View.canon_cons_of_not_mem _ _ (fun hm => h (by
      have hm' : y ∈ (Rect.unit (s := S8x20x8x128) ![0, 2, 2, 0] S8x16x4x128.size
        (inb4 (by decide) (by decide) (by decide) (by decide))).set := hm
      have h1 : 2 ≤ (y 1).val ∧ (y 1).val < 2 + 16 := (Rect.mem_set_unit.mp hm') (1 : Fin 4)
      have h2 : 2 ≤ (y 2).val ∧ (y 2).val < 2 + 4 := (Rect.mem_set_unit.mp hm') (2 : Fin 4)
      omega))]
    unfold run1.sl.G0_1
    rw [View.canon_unit_zero zero4]
    unfold run1.sl.v3 run1.sl.v0
    rw [shapeCast_self]
    rfl

end Pad

section Patch

variable (c : Dev nD) (M0 : Memref sig .tc .vmem S8x16x4x128 .bf16) (C0 : Memref sig .tc .vmem S8x20x8x128 .bf16)
  (C1 : Memref sig .tc .vmem S1024x640 .bf16) (f0 : Bf1 (F := F) c M0)

/-! ## The patch matrix -/

/-- One row tap's block of the patch matrix read at a local index: the block stored for the row tap kh is the
    [8,16,8,128] window of the padded copy at offsets (0, kh, 0, 0) — all 8 padded columns — flattened row-major to
    [1024,128]; so at (p, ci) it reads the padded copy at (p / 128, p / 8 % 16 + kh, p % 8, ci). -/
theorem tap_apply (kh : ℕ)
    (inb : ∀ a, (![0, kh, 0, 0] : Fin 4 → ℕ) a + S8x16x8x128.size a ≤ S8x20x8x128.size a)
    (h1 : (Rect.unit (s := S8x20x8x128) ![0, kh, 0, 0] S8x16x8x128.size inb).toLoadRect.shape.ShapeCasts S1024x128)
    (h2 : S1024x128.ShapeCasts S1024x128) (x : S1024x128.Idx) (k : S8x20x8x128.Idx)
    (hk0 : (k 0).val = (x 0).val / 128) (hk1 : (k 1).val = (x 0).val / 8 % 16 + kh)
    (hk2 : (k 2).val = (x 0).val % 8) (hk3 : (k 3).val = (x 1).val) :
    shapeCast S1024x128 (shapeCast S1024x128
        (C0.view.readCov (run1.sl.G0_2 c M0 f0) (Rect.unit (s := S8x20x8x128) ![0, kh, 0, 0] S8x16x8x128.size inb).toLoadRect) h1) h2 x
      = pad3a c M0 f0 k := by
  have hx0 : (x 0).val < 1024 := idx2_lt0 x
  have hx1 : (x 1).val < 128 := idx2_lt1 x
  rw [shapeCast_self]
  refine (shapeCast_apply _ _ x
    (ix4 (⟨(x 0).val / 128, by omega⟩ : Fin 8) (⟨(x 0).val / 8 % 16, by omega⟩ : Fin 16)
      (⟨(x 0).val % 8, by omega⟩ : Fin 8) (⟨(x 1).val, hx1⟩ : Fin 128))
    (by
      refine (Shape.rowMajor_val_four (d := ![8, 16, 8, 128]) _).trans
        (Eq.trans ?_ (Shape.rowMajor_val_two (d := ![1024, 128]) x).symm)
      show (((x 0).val / 128 * 16 + (x 0).val / 8 % 16) * 8 + (x 0).val % 8) * 128 + (x 1).val = (x 0).val * 128 + (x 1).val
      omega)).trans ?_
  rw [View.readCov_eq_canon']
  show View.canon _ _ = View.canon _ _
  refine congrArg _ (funext fun a => Fin.ext ?_)
  rw [LoadRect.idx_apply]
  match a with
  | ⟨0, _⟩ => show 0 + 1 * ((x 0).val / 128) = (k 0).val; omega
  | ⟨1, _⟩ => show kh + 1 * ((x 0).val / 8 % 16) = (k 1).val; omega
  | ⟨2, _⟩ => show 0 + 1 * ((x 0).val % 8) = (k 2).val; omega
  | ⟨3, _⟩ => show 0 + 1 * (x 1).val = (k 3).val; omega

/-- The one function the five stores are tiles of: at row p = (b * 16 + h) * 8 + xx and column k = kh * 128 + ci the
    patch matrix holds the padded copy at (b, h + kh, xx, ci). -/
def patchFn (y : S1024x640.Idx) : Elt F .bf16 :=
  pad3a c M0 f0 (ix4 (⟨(y 0).val / 128, by have := idx2_lt0 y; omega⟩ : Fin 8)
    (⟨(y 0).val / 8 % 16 + (y 1).val / 128, by have := idx2_lt1 y; omega⟩ : Fin 20)
    (⟨(y 0).val % 8, by omega⟩ : Fin 8) (⟨(y 1).val % 128, Nat.mod_lt _ (by decide)⟩ : Fin 128))

/-- The block the row tap kh stores at columns [off, off + 128), off = kh * 128, is its tile of that function. -/
theorem tap_piece (kh off : ℕ) (hkh : kh < 5) (hoff : off = kh * 128)
    (inb : ∀ a, (![0, kh, 0, 0] : Fin 4 → ℕ) a + S8x16x8x128.size a ≤ S8x20x8x128.size a)
    (h1 : (Rect.unit (s := S8x20x8x128) ![0, kh, 0, 0] S8x16x8x128.size inb).toLoadRect.shape.ShapeCasts S1024x128)
    (h2 : S1024x128.ShapeCasts S1024x128)
    (inbC : ∀ a, (![0, off] : Fin 2 → ℕ) a + S1024x128.size a ≤ S1024x640.size a)
    (x : (Rect.unit (s := S1024x640) ![0, off] S1024x128.size inbC).shape.Idx) :
    shapeCast S1024x128 (shapeCast S1024x128
        (C0.view.readCov (run1.sl.G0_2 c M0 f0) (Rect.unit (s := S8x20x8x128) ![0, kh, 0, 0] S8x16x8x128.size inb).toLoadRect) h1) h2 x
      = patchFn c M0 f0 ((Rect.unit (s := S1024x640) ![0, off] S1024x128.size inbC).emb x) := by
  have hx0 : (x 0).val < 1024 := (x 0).isLt
  have hx1 : (x 1).val < 128 := (x 1).isLt
  subst hoff
  unfold patchFn
  exact tap_apply c M0 C0 f0 kh inb h1 h2 x _
    (by show (0 + 1 * (x 0).val) / 128 = (x 0).val / 128; omega)
    (by show (0 + 1 * (x 0).val) / 8 % 16 + (kh * 128 + 1 * (x 1).val) / 128 = (x 0).val / 8 % 16 + kh; omega)
    (by show (0 + 1 * (x 0).val) % 8 = (x 0).val % 8; omega)
    (by show (kh * 128 + 1 * (x 1).val) % 128 = (x 1).val; omega)

/-- Every one of the five stored blocks is a tile of that one function. -/
theorem pieces1 : ∀ p ∈ run1.sl.G1_5 c M0 C0 f0, ∀ x : p.1.shape.Idx, p.2 x = patchFn c M0 f0 (p.1.emb x) := by
  unfold run1.sl.G1_5
  intro p hp
  simp only [List.mem_cons, List.not_mem_nil, or_false] at hp
  rcases hp with rfl | rfl | rfl | rfl | rfl
  · intro x; unfold run1.sl.v33 run1.sl.v30 run1.sl.v29
    exact tap_piece c M0 C0 f0 4 512 (by omega) rfl _ _ _ (Rect.inb₂ (by decide) (by decide)) _
  · intro x; unfold run1.sl.v28 run1.sl.v25 run1.sl.v24
    exact tap_piece c M0 C0 f0 3 384 (by omega) rfl _ _ _ (Rect.inb₂ (by decide) (by decide)) _
  · intro x; unfold run1.sl.v23 run1.sl.v20 run1.sl.v19
    exact tap_piece c M0 C0 f0 2 256 (by omega) rfl _ _ _ (Rect.inb₂ (by decide) (by decide)) _
  · intro x; unfold run1.sl.v18 run1.sl.v15 run1.sl.v14
    exact tap_piece c M0 C0 f0 1 128 (by omega) rfl _ _ _ (Rect.inb₂ (by decide) (by decide)) _
  · intro x; unfold run1.sl.v13 run1.sl.v10 run1.sl.v9
    exact tap_piece c M0 C0 f0 0 0 (by omega) rfl _ _ _ (Rect.inb₂ (by decide) (by decide)) _

/-- The five blocks tile the patch matrix. -/
theorem cover1 (y : S1024x640.Idx) : ∃ p ∈ run1.sl.G1_5 c M0 C0 f0, y ∈ p.1.set :=
  View.cover_of_tiledL (run1.sl.G1_5 c M0 C0 f0) S1024x128.size (by sl_kernel_rfl) y

/-- THE PATCH MATRIX READ AT AN INDEX: what the load after the five slice stores returns, at (p, k), is the padded
    copy at (p / 128, p / 8 % 16 + k / 128, p % 8, k % 128). -/
theorem patch_apply (y : S1024x640.Idx) : run1.sl.v34 c M0 C0 C1 f0 y = patchFn c M0 f0 y := by
  unfold run1.sl.v34
  rw [View.readCov_eq_canon_ld _ _ _ (cover1 c M0 C0 f0), View.ld_unit_zero zero2]
  exact View.canon_apply_of_pieces (patchFn c M0 f0) _ (pieces1 c M0 C0 f0) y (cover1 c M0 C0 f0 y)

end Patch

section Weight

variable (c : Dev nD) (M1 : Memref sig .tc .vmem S640x1280 .bf16) (M2 : Memref sig .tc .vmem S1x256 .f32)
  (f1 : Bf1 (F := F) c M1) (f2 : Bf1 (F := F) c M2)

/-- The weight operand of the product is the weight window's contents: a whole-block load cast to its own shape. -/
theorem weight_eq : run1.sl.v36 c M1 f1 = M1.view.read (Elt F) f1 := by
  unfold run1.sl.v36
  simp only [View.readAt_eq_ld, View.ld_unit_zero (S := S640x1280) zero2, shapeCast_self]

/-- The bias row broadcast to [128, 4, 256] reads the bias at the channel. -/
theorem bias_apply (j : S128x4x256.Idx) :
    run1.sl.v51 c M2 f2 j = M2.view.read (Elt F) f2 (ix2 (0 : Fin 1) (⟨(j 2).val, (j 2).isLt⟩ : Fin 256)) := by
  unfold run1.sl.v51
  refine (broadcastTo_apply _ _ j (ix3 (0 : Fin 1) (0 : Fin 1) (⟨(j 2).val, (j 2).isLt⟩ : Fin 256))
    (fun a => match a with | ⟨0, _⟩ => rfl | ⟨1, _⟩ => rfl | ⟨2, _⟩ => rfl)).trans ?_
  unfold run1.sl.v50
  refine (shapeCast_apply _ _ _ (ix2 (0 : Fin 1) (⟨(j 2).val, (j 2).isLt⟩ : Fin 256))
    (by rw [Shape.rowMajor_val_two, Shape.rowMajor_val_three]; rfl)).trans ?_
  unfold run1.sl.v49
  rw [shapeCast_self, View.readAt_eq_ld, View.ld_unit_zero (S := S1x256) zero2]

end Weight

/-! ## The product, the five column-shifted slices, the bias and the rectifier, at the ideal values -/

/-- A sum over five taps, written out. -/
theorem sum_range5 {M : Type*} [AddCommMonoid M] (g : ℕ → M) :
    ∑ kw ∈ Finset.range 5, g kw = g 0 + g 1 + g 2 + g 3 + g 4 := by
  simp [Finset.sum_range_succ]

section Product

variable (c : Dev nD) (M0 : Memref sig .tc .vmem S8x16x4x128 .bf16) (M1 : Memref sig .tc .vmem S640x1280 .bf16)
  (M2 : Memref sig .tc .vmem S1x256 .f32)
  (C0 : Memref sig .tc .vmem S8x20x8x128 .bf16) (C1 : Memref sig .tc .vmem S1024x640 .bf16)
  (f0 : Bf1 (F := Ideal) c M0) (f1 : Bf1 (F := Ideal) c M1) (f2 : Bf1 (F := Ideal) c M2)

/-- The contraction index of the product is its one coordinate, below 640. -/
abbrev ctr : (dot_S1024x640_S640x1280_S1024x1280_1_0_0_1_n_n).contr.Idx ≃ Fin 640 :=
  contrEquiv1 dot_S1024x640_S640x1280_S1024x1280_1_0_0_1_n_n 640 rfl rfl

/-- THE PRODUCT READ AT AN INDEX, at the ideal values: row p of the patch matrix against column q of the re-laid
    weight, into the zero accumulator, is the plain sum over the flattened (row tap, channel) index k. -/
theorem z3a_apply (j : S1024x1280.Idx) :
    run1.sl.v37 (F := Ideal) c M0 M1 C0 C1 f0 f1 j
      = ∑ k : Fin 640, patchFn (F := Ideal) c M0 f0 (ix2 (j 0) k) * M1.view.read (Elt Ideal) f1 (ix2 k (j 1)) := by
  unfold run1.sl.v37 run1.sl.cst_37
  simp only [matmul]
  rw [Ideal.matmul_constant_zero_apply]
  rw [← Equiv.sum_comp ctr
        (fun k : Fin 640 => patchFn (F := Ideal) c M0 f0 (ix2 (j 0) k) * M1.view.read (Elt Ideal) f1 (ix2 k (j 1)))]
  refine Finset.sum_congr rfl fun k _ => ?_
  rw [patch_apply, weight_eq]
  refine congrArg₂ (· * ·) (congrArg _ ?_) (congrArg _ ?_)
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- The product at plain natural-number indices (zero outside the matrix). -/
def zN (p q : ℕ) : EReal :=
  if h : p < 1024 ∧ q < 1280 then run1.sl.v37 (F := Ideal) c M0 M1 C0 C1 f0 f1 (ix2 (⟨p, h.1⟩ : Fin 1024) (⟨q, h.2⟩ : Fin 1280)) else 0

/-- One column-shifted slice: the product regrouped to [128, 8, 1280] and cut at offsets (0, o1, o2) to [128, 4, 256]
    reads, at (r, x, co), the product at row r * 8 + x + o1 and column o2 + co. -/
theorem slice_apply (o1 o2 : ℕ) (ho1 : o1 + 4 ≤ 8) (ho2 : o2 + 256 ≤ 1280)
    (hs : S128x8x1280.Slices ![0, o1, o2] S128x4x256) (j : S128x4x256.Idx) :
    extractStridedSlice S128x4x256 ![0, o1, o2] (run1.sl.v38 (F := Ideal) c M0 M1 C0 C1 f0 f1) hs j
      = zN c M0 M1 C0 C1 f0 f1 ((j 0).val * 8 + (j 1).val + o1) (o2 + (j 2).val) := by
  have hj0 : (j 0).val < 128 := (j 0).isLt
  have hj1 : (j 1).val < 4 := (j 1).isLt
  have hj2 : (j 2).val < 256 := (j 2).isLt
  unfold zN
  rw [dif_pos ⟨by omega, by omega⟩]
  refine (extractStridedSlice_apply _ _ hs j
    (ix3 (⟨(j 0).val, hj0⟩ : Fin 128) (⟨o1 + (j 1).val, by omega⟩ : Fin 8) (⟨o2 + (j 2).val, by omega⟩ : Fin 1280))
    (fun a => ?_)).trans ?_
  · match a with
    | ⟨0, _⟩ => show (j 0).val = 0 + (j 0).val; omega
    | ⟨1, _⟩ => rfl
    | ⟨2, _⟩ => rfl
  · unfold run1.sl.v38
    refine shapeCast_apply _ _ _ _ ?_
    rw [Shape.rowMajor_val_two, Shape.rowMajor_val_three]
    show ((j 0).val * 8 + (j 1).val + o1) * 1280 + (o2 + (j 2).val) = ((j 0).val * 8 + (o1 + (j 1).val)) * 1280 + (o2 + (j 2).val)
    omega

/-- THE FIVE-SLICE SUM AT AN INDEX: at (r, x, co) the sum over the column taps kw of the product at row
    r * 8 + x + kw (the same image and row, padded column x + kw) and column kw * 256 + co (column block kw). -/
theorem sum5_apply (j : S128x4x256.Idx) :
    run1.sl.v47 (F := Ideal) c M0 M1 C0 C1 f0 f1 j
      = ∑ kw ∈ Finset.range 5, zN c M0 M1 C0 C1 f0 f1 ((j 0).val * 8 + (j 1).val + kw) (kw * 256 + (j 2).val) := by
  unfold run1.sl.v47 run1.sl.v45 run1.sl.v43 run1.sl.v41 run1.sl.v39 run1.sl.v40 run1.sl.v42 run1.sl.v44 run1.sl.v46
  rw [addf_apply, addf_apply, addf_apply, addf_apply]
  rw [slice_apply c M0 M1 C0 C1 f0 f1 0 0 (by omega) (by omega), slice_apply c M0 M1 C0 C1 f0 f1 1 256 (by omega) (by omega),
    slice_apply c M0 M1 C0 C1 f0 f1 2 512 (by omega) (by omega), slice_apply c M0 M1 C0 C1 f0 f1 3 768 (by omega) (by omega),
    slice_apply c M0 M1 C0 C1 f0 f1 4 1024 (by omega) (by omega)]
  rw [sum_range5]

end Product

section Law

variable (c : Dev nD) (M0 : Memref sig .tc .vmem S8x16x4x128 .bf16) (M1 : Memref sig .tc .vmem S640x1280 .bf16)
  (M2 : Memref sig .tc .vmem S1x256 .f32)
  (C0 : Memref sig .tc .vmem S8x20x8x128 .bf16) (C1 : Memref sig .tc .vmem S1024x640 .bf16)
  (f0 : Bf1 (F := Ideal) c M0) (f1 : Bf1 (F := Ideal) c M1) (f2 : Bf1 (F := Ideal) c M2)

/-- Image b of the padded copy and column (kw, co) of the re-laid weight as functions of plain natural-number
    indices (zero outside the arrays): the form the convolution law is stated over. -/
def padN (b : ℕ) : ℕ → ℕ → ℕ → EReal :=
  fun hh xx ci => if h : b < 8 ∧ hh < 20 ∧ xx < 8 ∧ ci < 128
    then pad3a (F := Ideal) c M0 f0 (ix4 (⟨b, h.1⟩ : Fin 8) (⟨hh, h.2.1⟩ : Fin 20) (⟨xx, h.2.2.1⟩ : Fin 8) (⟨ci, h.2.2.2⟩ : Fin 128))
    else 0
def wcatN (co : ℕ) : ℕ → ℕ → EReal :=
  fun k kw => if h : k < 640 ∧ kw < 5 ∧ co < 256
    then M1.view.read (Elt Ideal) f1 (ix2 (⟨k, h.1⟩ : Fin 640) (⟨kw * 256 + co, by omega⟩ : Fin 1280))
    else 0

theorem padN_eq (b hh xx ci : ℕ) (h0 : b < 8) (h1 : hh < 20) (h2 : xx < 8) (h3 : ci < 128) :
    padN c M0 f0 b hh xx ci
      = pad3a (F := Ideal) c M0 f0 (ix4 (⟨b, h0⟩ : Fin 8) (⟨hh, h1⟩ : Fin 20) (⟨xx, h2⟩ : Fin 8) (⟨ci, h3⟩ : Fin 128)) := by
  unfold padN; exact dif_pos ⟨h0, h1, h2, h3⟩
theorem wcatN_eq (co k kw : ℕ) (h0 : k < 640) (h1 : kw < 5) (h2 : co < 256) :
    wcatN c M1 f1 co k kw
      = M1.view.read (Elt Ideal) f1 (ix2 (⟨k, h0⟩ : Fin 640) (⟨kw * 256 + co, by omega⟩ : Fin 1280)) := by
  unfold wcatN; exact dif_pos ⟨h0, h1, h2⟩

/-- In the interior the padded copy is the activation window's contents two rows up and two columns left; -/
theorem padN_interior (b hh xx ci : ℕ) (hb : b < 8) (hh2 : 2 ≤ hh) (hh18 : hh < 18) (hx2 : 2 ≤ xx) (hx6 : xx < 6)
    (hci : ci < 128) :
    padN c M0 f0 b hh xx ci
      = M0.view.read (Elt Ideal) f0 (ix4 (⟨b, hb⟩ : Fin 8) (⟨hh - 2, by omega⟩ : Fin 16) (⟨xx - 2, by omega⟩ : Fin 4) (⟨ci, hci⟩ : Fin 128)) := by
  rw [padN_eq c M0 f0 b hh xx ci hb (by omega) (by omega) hci, pad3a_apply]
  unfold padFn
  exact dif_pos ⟨⟨hh2, hh18⟩, ⟨hx2, hx6⟩⟩

/-- on the border (and outside the array) it is zero. -/
theorem padN_border (b hh xx ci : ℕ) (h : ¬((2 ≤ hh ∧ hh < 18) ∧ (2 ≤ xx ∧ xx < 6))) : padN c M0 f0 b hh xx ci = 0 := by
  unfold padN
  split
  · rw [pad3a_apply]
    unfold padFn
    rw [dif_neg h]
    show Ideal.ofBits .bf16 0x0000#16 = 0
    simp [Ideal.ofBits, Ideal.ieee]
  · rfl

/-- THE CONVOLUTION BEFORE THE BIAS IN THE LAW'S FORM: at (r, x, co), r = b * 16 + h, the five-slice sum is, for each
    column tap, ONE contraction over the flattened (row tap, channel) index of image b's padded copy against the
    re-laid weight's column block, the five column-shifted partial results added — the row-contraction form of the
    5x5 convolution with 128 channels, at output position (h, x). -/
theorem conv_rows (j : S128x4x256.Idx) :
    run1.sl.v47 (F := Ideal) c M0 M1 C0 C1 f0 f1 j
      = TapSum.convRows 5 5 128 (padN c M0 f0 ((j 0).val / 16)) (wcatN c M1 f1 (j 2).val) ((j 0).val % 16) (j 1).val := by
  have hj0 : (j 0).val < 128 := (j 0).isLt
  have hj1 : (j 1).val < 4 := (j 1).isLt
  have hj2 : (j 2).val < 256 := (j 2).isLt
  rw [sum5_apply]
  unfold TapSum.convRows
  refine Finset.sum_congr rfl fun kw hkw => ?_
  have hkw' : kw < 5 := Finset.mem_range.mp hkw
  unfold zN
  rw [dif_pos ⟨by omega, by omega⟩, z3a_apply]
  show _ = ∑ k ∈ Finset.range 640,
    padN c M0 f0 ((j 0).val / 16) ((j 0).val % 16 + k / 128) ((j 1).val + kw) (k % 128) * wcatN c M1 f1 (j 2).val k kw
  rw [← Fin.sum_univ_eq_sum_range (fun k =>
    padN c M0 f0 ((j 0).val / 16) ((j 0).val % 16 + k / 128) ((j 1).val + kw) (k % 128) * wcatN c M1 f1 (j 2).val k kw) 640]
  refine Finset.sum_congr rfl fun k _ => ?_
  have hk : k.val < 640 := k.isLt
  show _ = padN c M0 f0 ((j 0).val / 16) ((j 0).val % 16 + k.val / 128) ((j 1).val + kw) (k.val % 128) * wcatN c M1 f1 (j 2).val k.val kw
  rw [padN_eq c M0 f0 _ _ _ _ (by omega) (by omega) (by omega) (Nat.mod_lt _ (by decide)), wcatN_eq c M1 f1 _ _ _ hk hkw' hj2]
  unfold patchFn
  refine congrArg₂ (· * ·) (congrArg _ (funext fun a => ?_)) (congrArg _ (funext fun a => ?_))
  · match a with
    | ⟨0, _⟩ => exact Fin.ext (by show ((j 0).val * 8 + (j 1).val + kw) / 128 = (j 0).val / 16; omega)
    | ⟨1, _⟩ => exact Fin.ext (by show ((j 0).val * 8 + (j 1).val + kw) / 8 % 16 + k.val / 128 = (j 0).val % 16 + k.val / 128; omega)
    | ⟨2, _⟩ => exact Fin.ext (by show ((j 0).val * 8 + (j 1).val + kw) % 8 = (j 1).val + kw; omega)
    | ⟨3, _⟩ => exact Fin.ext rfl
  · match a with
    | ⟨0, _⟩ => exact Fin.ext rfl
    | ⟨1, _⟩ => exact Fin.ext rfl

/-- THE CONVOLUTION'S RESULT BEFORE THE CAST, at the ideal values, read at (r, x, co): the rectifier of the
    convolution plus the bias. -/
theorem y3a_apply (j : S128x4x256.Idx) :
    run1.sl.v54 (F := Ideal) c M0 M1 M2 C0 C1 f0 f1 f2 j
      = max (TapSum.convRows 5 5 128 (padN c M0 f0 ((j 0).val / 16)) (wcatN c M1 f1 (j 2).val) ((j 0).val % 16) (j 1).val
              + M2.view.read (Elt Ideal) f2 (ix2 (0 : Fin 1) (⟨(j 2).val, (j 2).isLt⟩ : Fin 256))) 0 := by
  unfold run1.sl.v54 run1.sl.v52 run1.sl.v53 run1.sl.cst_40
  rw [maximumf_apply, addf_apply, broadcast_apply, conv_rows, bias_apply]
  show max _ (Ideal.ofBits .f32 0x00000000#32) = _
  rw [Ideal.ofBits_zero_f32]

/-- The value the body stores into the next padded copy's interior is the same number: at the ideal values the cast
    to bf16 changes nothing. -/
theorem y3a_cast_apply (j : S128x4x256.Idx) :
    run1.sl.v55 (F := Ideal) c M0 M1 M2 C0 C1 f0 f1 f2 j
      = max (TapSum.convRows 5 5 128 (padN c M0 f0 ((j 0).val / 16)) (wcatN c M1 f1 (j 2).val) ((j 0).val % 16) (j 1).val
              + M2.view.read (Elt Ideal) f2 (ix2 (0 : Fin 1) (⟨(j 2).val, (j 2).isLt⟩ : Fin 256))) 0 := by
  unfold run1.sl.v55
  rw [truncf_apply]
  exact y3a_apply c M0 M1 M2 C0 C1 f0 f1 f2 j

end Law

section LawFull

variable (c : Dev nD) (M0 : Memref sig .tc .vmem S8x16x4x128 .bf16) (M1 : Memref sig .tc .vmem S640x1280 .bf16)
  (M2 : Memref sig .tc .vmem S1x256 .f32)
  (C0 : Memref sig .tc .vmem S8x20x8x128 .bf16) (C1 : Memref sig .tc .vmem S1024x640 .bf16)
  (f0 : Bf1 (F := Ideal) c M0) (f1 : Bf1 (F := Ideal) c M1) (f2 : Bf1 (F := Ideal) c M2)

/-- Against a weight stored tap-major (rows (kh * 5 + kw) * 128 + ci): when, on the summed range, the re-laid weight's
    entry (k, kw * 256 + co) is the stored weight's column co at the re-flattened index, the same number is the ONE
    contraction over the flattened (row tap, column tap, channel) index — the general convolution law. -/
theorem y3a_convFull (j : S128x4x256.Idx) (w : ℕ → EReal)
    (hw : ∀ k kw, k < 640 → kw < 5 → wcatN c M1 f1 (j 2).val k kw = w ((k / 128 * 5 + kw) * 128 + k % 128)) :
    run1.sl.v54 (F := Ideal) c M0 M1 M2 C0 C1 f0 f1 f2 j
      = max (TapSum.convFull 5 5 128 (padN c M0 f0 ((j 0).val / 16)) w ((j 0).val % 16) (j 1).val
              + M2.view.read (Elt Ideal) f2 (ix2 (0 : Fin 1) (⟨(j 2).val, (j 2).isLt⟩ : Fin 256))) 0 := by
  rw [y3a_apply]
  rw [← TapSum.convRows_eq_convFull 5 5 128 (by decide) (by decide) _ w
        (fun k kw => w ((k / 128 * 5 + kw) * 128 + k % 128)) (fun _ _ => rfl)]
  unfold TapSum.convRows
  refine congrArg (fun s => max (s + _) 0) (Finset.sum_congr rfl fun kw hkw => Finset.sum_congr rfl fun k hk => ?_)
  have hk' : k < 640 := Finset.mem_range.mp hk
  rw [hw k kw hk' (Finset.mem_range.mp hkw)]

end LawFull

end Conv3a

end Cert.KernelIdeal.Hand

end
-- ==== Proof.KernelConv3bValue.lean ====
/-
  The kernel's second third-stage convolution and the width-4 max pool after it, read at an index.

  The body first fills a scratch buffer [8, 20, 8, 256] with zeros and stores the first convolution's result
  ([128, 4, 256], regrouped to [8, 16, 4, 256]) at offsets (0, 2, 2, 0): the zero-padded copy (`pad3b`).  It then
  builds a patch matrix [1024, 1280] by five slice stores: the store for the row tap kh writes columns
  [256 kh, 256 (kh + 1)) with the [8, 16, 8, 256] window of the padded copy at row offset kh, its first three axes
  flattened.  The five column blocks tile the matrix and each is a block of ONE function of the matrix index: at row
  p = (16 b + h) 8 + x and column k = 256 kh + ci the matrix holds the padded copy at (b, h + kh, x, ci)
  (`patch3b_apply`), whatever the order of the stores.

  At the ideal values the product of the patch matrix with the re-laid weight [1280, 1280] (row 256 kh + ci, column
  256 kw + co) into the zero accumulator is a plain sum over the 1280 patch columns; regrouped to [128, 8, 1280], its
  five slices at column offset kw and channel offset 256 kw are added: for each column tap ONE contraction over (row
  tap, channel), the column-shifted partial results added — the convolution law's `TapSum.convRows 5 5 256`.  The bias
  row is added, the maximum with zero taken, and the pool takes the maximum over the 4 columns.
-/
import proofs.«147627_g2000402439390779_pallasbulk_891_17_alg».proof.Proof.KernelIdealRegion1
import proofs.«147627_g2000402439390779_pallasbulk_891_17_alg».proof.Proof.LibConvLaw
import Idealize.ShloMosaic.Lib.Pipeline.Value
import Idealize.ShloMosaic.Lib.Ring
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F] [Cert.KernelIdeal.Facts]

section Conv3b

variable (c : Dev nD) (M0 : Memref sig .tc .vmem S8x16x4x128 .bf16) (M1 : Memref sig .tc .vmem S640x1280 .bf16) (M2 : Memref sig .tc .vmem S1x256 .f32)
  (C0 : Memref sig .tc .vmem S8x20x8x128 .bf16) (C1 : Memref sig .tc .vmem S1024x640 .bf16)
  (f0 : Bf1 (F := F) c M0) (f1 : Bf1 (F := F) c M1) (f2 : Bf1 (F := F) c M2)

/-! ## The padded copy of the first convolution's result -/

/-- The first convolution's result after the cast, as the run names it: one value per (image row, column, channel),
    the image rows of the 8 images flattened (row index 16 b + h). -/
abbrev conv3bIn : S128x4x256.Idx → Elt F .bf16 := run1.sl.v55 c M0 M1 M2 C0 C1 f0 f1 f2

/-- The zero-padded copy the second convolution reads: what its two stores leave in the scratch buffer. -/
abbrev pad3b : S8x20x8x256.Idx → Elt F .bf16 := View.canon (run1.sl.G2_2 c M0 M1 M2 C0 C1 f0 f1 f2)

theorem c3b_hz4 : (![0, 0, 0, 0] : Fin 4 → Nat) = fun _ => 0 := funext fun a => by fin_cases a <;> rfl
theorem c3b_hz2 : (![0, 0] : Fin 2 → Nat) = fun _ => 0 := funext fun a => by fin_cases a <;> rfl

/-- In the interior (rows 2 … 17, columns 2 … 5) the padded copy is the first convolution's result two rows up and two
    columns left: the second store, through the rectangle of the result's shape at offsets (0, 2, 2, 0), is the last
    one, and its payload is the result regrouped from [128, 4, 256] to [8, 16, 4, 256] (same row-major position). -/
theorem pad3b_mid (b : Fin 8) (h : Fin 16) (x : Fin 4) (ci : Fin 256) :
    pad3b c M0 M1 M2 C0 C1 f0 f1 f2 (ix4 b (⟨h.val + 2, by omega⟩ : Fin 20) (⟨x.val + 2, by omega⟩ : Fin 8) ci)
      = conv3bIn c M0 M1 M2 C0 C1 f0 f1 f2 (ix3 (⟨b.val * 16 + h.val, by omega⟩ : Fin 128) x ci) := by
  unfold pad3b run1.sl.G2_2
  have e := View.canon_cons_emb (Val := Elt F) (Rect.unit (s := S8x20x8x256) ![0, 2, 2, 0] S8x16x4x256.size k1_part3._proof_7)
    (run1.sl.v63 c M0 M1 M2 C0 C1 f0 f1 f2) run1.sl.G2_1 (ix4 b h x ci)
  refine Eq.trans (congrArg _ ?_) (e.trans ?_)
  · funext a
    apply Fin.ext
    rw [Rect.emb_apply]
    match a with
    | ⟨0, _⟩ => show b.val = 0 + 1 * b.val; omega
    | ⟨1, _⟩ => show h.val + 2 = 2 + 1 * h.val; omega
    | ⟨2, _⟩ => show x.val + 2 = 2 + 1 * x.val; omega
    | ⟨3, _⟩ => show ci.val = 0 + 1 * ci.val; omega
  · unfold run1.sl.v63 run1.sl.v60
    rw [shapeCast_self]
    exact shapeCast_apply _ _ _ (ix3 (⟨b.val * 16 + h.val, by omega⟩ : Fin 128) x ci) (by
      rw [Shape.rowMajor_val_three, Shape.rowMajor_val_four]
      show ((b.val * 16 + h.val) * 4 + x.val) * 256 + ci.val = ((b.val * 16 + h.val) * 4 + x.val) * 256 + ci.val
      rfl)

/-- On the border it is the zero the first store splats: the second store's rectangle does not hold the index, and the
    first store, through the whole buffer, leaves its payload — the broadcast of the bf16 zero. -/
theorem pad3b_out (b : Fin 8) (hh : Fin 20) (xx : Fin 8) (ci : Fin 256)
    (h : hh.val < 2 ∨ 18 ≤ hh.val ∨ xx.val < 2 ∨ 6 ≤ xx.val) :
    pad3b c M0 M1 M2 C0 C1 f0 f1 f2 (ix4 b hh xx ci) = (run1.sl.cst : F .bf16) := by
  unfold pad3b run1.sl.G2_2
  rw [View.canon_cons_of_not_mem _ _ (fun hm => by
    have hm' : ix4 b hh xx ci ∈ (Rect.unit (s := S8x20x8x256) ![0, 2, 2, 0] S8x16x4x256.size k1_part3._proof_7).set := hm
    have h1 : 2 ≤ hh.val ∧ hh.val < 2 + 16 := (Rect.mem_set_unit.mp hm') (1 : Fin 4)
    have h2 : 2 ≤ xx.val ∧ xx.val < 2 + 4 := (Rect.mem_set_unit.mp hm') (2 : Fin 4)
    omega)]
  unfold run1.sl.G2_1
  rw [View.canon_unit_zero c3b_hz4]
  unfold run1.sl.v59
  rw [shapeCast_self]
  rfl

/-- THE PADDED COPY AT ANY INDEX: the first convolution's result at (16 b + hh - 2, xx - 2, ci) in the interior
    2 ≤ hh < 18, 2 ≤ xx < 6, the zero elsewhere. -/
theorem pad3b_apply (b : Fin 8) (hh : Fin 20) (xx : Fin 8) (ci : Fin 256) :
    pad3b c M0 M1 M2 C0 C1 f0 f1 f2 (ix4 b hh xx ci)
      = if h : (2 ≤ hh.val ∧ hh.val < 18) ∧ (2 ≤ xx.val ∧ xx.val < 6) then
          conv3bIn c M0 M1 M2 C0 C1 f0 f1 f2 (ix3 (⟨b.val * 16 + (hh.val - 2), by omega⟩ : Fin 128) (⟨xx.val - 2, by omega⟩ : Fin 4) ci)
        else (run1.sl.cst : F .bf16) := by
  by_cases h : (2 ≤ hh.val ∧ hh.val < 18) ∧ (2 ≤ xx.val ∧ xx.val < 6)
  · rw [dif_pos h]
    refine Eq.trans (congrArg _ ?_) (pad3b_mid c M0 M1 M2 C0 C1 f0 f1 f2 b (⟨hh.val - 2, by omega⟩ : Fin 16) (⟨xx.val - 2, by omega⟩ : Fin 4) ci)
    funext a
    apply Fin.ext
    match a with
    | ⟨0, _⟩ => rfl
    | ⟨1, _⟩ => show hh.val = hh.val - 2 + 2; omega
    | ⟨2, _⟩ => show xx.val = xx.val - 2 + 2; omega
    | ⟨3, _⟩ => rfl
  · rw [dif_neg h]
    exact pad3b_out c M0 M1 M2 C0 C1 f0 f1 f2 b hh xx ci (by omega)

/-! ## The patch matrix -/

variable (C2 : Memref sig .tc .vmem S8x20x8x256 .bf16) (C3 : Memref sig .tc .vmem S1024x1280 .bf16)

/-- One row tap's block: the padded copy loaded through the rectangle [8, 16, 8, 256] at row offset `kh`, the
    (image, row, column) triple flattened to one axis of 1024. At (p, ci), p = (16 b + h) 8 + x, it is the padded
    copy at (b, h + kh, x, ci). -/
theorem c3b_tap_apply (kh : Fin 5) (inb : ∀ a, (![0, kh.val, 0, 0] : Fin 4 → Nat) a + S8x16x8x256.size a ≤ S8x20x8x256.size a)
    (h1 : S8x16x8x256.ShapeCasts S1024x256) (h2 : S1024x256.ShapeCasts S1024x256) (x : S1024x256.Idx) :
    shapeCast S1024x256 (shapeCast S1024x256
        (C2.view.readCov (run1.sl.G2_2 c M0 M1 M2 C0 C1 f0 f1 f2) (Rect.unit (s := S8x20x8x256) ![0, kh.val, 0, 0] S8x16x8x256.size inb).toLoadRect) h1) h2 x
      = pad3b c M0 M1 M2 C0 C1 f0 f1 f2 (ix4 (⟨(x 0).val / 128, by have h : (x 0).val < 1024 := (x 0).isLt; omega⟩ : Fin 8)
          (⟨(x 0).val / 8 % 16 + kh.val, by omega⟩ : Fin 20) (⟨(x 0).val % 8, by omega⟩ : Fin 8) (⟨(x 1).val, (x 1).isLt⟩ : Fin 256)) := by
  have hx0 : (x 0).val < 1024 := (x 0).isLt
  have hx1 : (x 1).val < 256 := (x 1).isLt
  rw [shapeCast_self]
  rw [shapeCast_apply _ h1 _ (ix4 (⟨(x 0).val / 128, by omega⟩ : Fin 8) (⟨(x 0).val / 8 % 16, by omega⟩ : Fin 16)
      (⟨(x 0).val % 8, by omega⟩ : Fin 8) (⟨(x 1).val, hx1⟩ : Fin 256)) (by
    rw [Shape.rowMajor_val_four, Shape.rowMajor_val_two]
    show ((((x 0).val / 128) * 16 + (x 0).val / 8 % 16) * 8 + (x 0).val % 8) * 256 + (x 1).val = (x 0).val * 256 + (x 1).val
    omega)]
  rw [View.readCov_eq_canon']
  show View.canon _ _ = View.canon _ _
  congr 1
  funext a
  apply Fin.ext
  rw [LoadRect.idx_apply]
  match a with
  | ⟨0, _⟩ => show 0 + 1 * ((x 0).val / 128) = (x 0).val / 128; omega
  | ⟨1, _⟩ => show kh.val + 1 * ((x 0).val / 8 % 16) = (x 0).val / 8 % 16 + kh.val; omega
  | ⟨2, _⟩ => show 0 + 1 * ((x 0).val % 8) = (x 0).val % 8; omega
  | ⟨3, _⟩ => show 0 + 1 * (x 1).val = (x 1).val; omega

/-- The patch matrix as the run reads it back, -/
abbrev patch3b : S1024x1280.Idx → Elt F .bf16 := run1.sl.v89 c M0 M1 M2 C0 C1 C2 C3 f0 f1 f2

/-- and the one function its five stores are tiles of: at (p, k), the padded copy at image p / 128, row
    p / 8 % 16 + k / 256, column p % 8, channel k % 256. -/
def patchFn3b (y : S1024x1280.Idx) : Elt F .bf16 :=
  pad3b c M0 M1 M2 C0 C1 f0 f1 f2 (ix4 (⟨(y 0).val / 128, by have h : (y 0).val < 1024 := (y 0).isLt; omega⟩ : Fin 8)
    (⟨(y 0).val / 8 % 16 + (y 1).val / 256, by have h : (y 1).val < 1280 := (y 1).isLt; omega⟩ : Fin 20)
    (⟨(y 0).val % 8, by omega⟩ : Fin 8) (⟨(y 1).val % 256, by omega⟩ : Fin 256))

/-- The read-back is the canon of the five stores: the load is through the whole buffer. -/
theorem patch3b_eq_canon : patch3b c M0 M1 M2 C0 C1 f0 f1 f2 C2 C3 = View.canon (run1.sl.G3_5 c M0 M1 M2 C0 C1 C2 f0 f1 f2) := by
  unfold patch3b run1.sl.v89
  rw [View.readCov_eq_canon']
  funext j
  show View.canon _ _ = View.canon _ _
  congr 1
  funext a
  apply Fin.ext
  rw [LoadRect.idx_apply]
  match a with
  | ⟨0, _⟩ => show 0 + 1 * (j 0).val = (j 0).val; omega
  | ⟨1, _⟩ => show 0 + 1 * (j 1).val = (j 1).val; omega

/-- Each store's payload is its tile of that function: row tap `kh`'s block, stored at column offset 256 kh. -/
theorem c3b_piece_ok (kh : Fin 5) (inbP : ∀ a, (![0, kh.val * 256] : Fin 2 → Nat) a + S1024x256.size a ≤ S1024x1280.size a)
    (inb : ∀ a, (![0, kh.val, 0, 0] : Fin 4 → Nat) a + S8x16x8x256.size a ≤ S8x20x8x256.size a)
    (h1 : S8x16x8x256.ShapeCasts S1024x256) (h2 : S1024x256.ShapeCasts S1024x256) (x : S1024x256.Idx) :
    shapeCast S1024x256 (shapeCast S1024x256
        (C2.view.readCov (run1.sl.G2_2 c M0 M1 M2 C0 C1 f0 f1 f2) (Rect.unit (s := S8x20x8x256) ![0, kh.val, 0, 0] S8x16x8x256.size inb).toLoadRect) h1) h2 x
      = patchFn3b c M0 M1 M2 C0 C1 f0 f1 f2 ((Rect.unit (s := S1024x1280) ![0, kh.val * 256] S1024x256.size inbP).emb x) := by
  rw [c3b_tap_apply c M0 M1 M2 C0 C1 f0 f1 f2 C2 kh inb h1 h2 x]
  unfold patchFn3b
  have hx0 : (x 0).val < 1024 := (x 0).isLt
  have hx1 : (x 1).val < 256 := (x 1).isLt
  have hk : kh.val < 5 := kh.isLt
  congr 1
  funext a
  apply Fin.ext
  match a with
  | ⟨0, _⟩ => show (x 0).val / 128 = (0 + 1 * (x 0).val) / 128; omega
  | ⟨1, _⟩ => show (x 0).val / 8 % 16 + kh.val = (0 + 1 * (x 0).val) / 8 % 16 + (kh.val * 256 + 1 * (x 1).val) / 256; omega
  | ⟨2, _⟩ => show (x 0).val % 8 = (0 + 1 * (x 0).val) % 8; omega
  | ⟨3, _⟩ => show (x 1).val = (kh.val * 256 + 1 * (x 1).val) % 256; omega

/-- THE PATCH MATRIX AT AN INDEX: at (p, k), p < 1024, k < 1280, it is the padded copy at
    (p / 128, p / 8 % 16 + k / 256, p % 8, k % 256) — whatever the order of the five stores, whose blocks tile it. -/
theorem patch3b_apply (y : S1024x1280.Idx) :
    patch3b c M0 M1 M2 C0 C1 f0 f1 f2 C2 C3 y = patchFn3b c M0 M1 M2 C0 C1 f0 f1 f2 y := by
  rw [patch3b_eq_canon]
  refine View.canon_apply_of_pieces (patchFn3b c M0 M1 M2 C0 C1 f0 f1 f2) _ (fun p hp x => ?_) y
    (View.cover_of_tiledL (run1.sl.G3_5 c M0 M1 M2 C0 C1 C2 f0 f1 f2) S1024x256.size (by first | rfl | decide) y)
  unfold run1.sl.G3_5 at hp
  simp only [List.mem_cons, List.mem_nil_iff, or_false] at hp
  rcases hp with rfl | rfl | rfl | rfl | rfl
  · show run1.sl.v88 c M0 M1 M2 C0 C1 C2 f0 f1 f2 x = _
    unfold run1.sl.v88 run1.sl.v85 run1.sl.v84
    exact c3b_piece_ok c M0 M1 M2 C0 C1 f0 f1 f2 C2 (4 : Fin 5) k1_part4._proof_5 _ _ _ x
  · show run1.sl.v83 c M0 M1 M2 C0 C1 C2 f0 f1 f2 x = _
    unfold run1.sl.v83 run1.sl.v80 run1.sl.v79
    exact c3b_piece_ok c M0 M1 M2 C0 C1 f0 f1 f2 C2 (3 : Fin 5) k1_part3._proof_34 _ _ _ x
  · show run1.sl.v78 c M0 M1 M2 C0 C1 C2 f0 f1 f2 x = _
    unfold run1.sl.v78 run1.sl.v75 run1.sl.v74
    exact c3b_piece_ok c M0 M1 M2 C0 C1 f0 f1 f2 C2 (2 : Fin 5) k1_part3._proof_28 _ _ _ x
  · show run1.sl.v73 c M0 M1 M2 C0 C1 C2 f0 f1 f2 x = _
    unfold run1.sl.v73 run1.sl.v70 run1.sl.v69
    exact c3b_piece_ok c M0 M1 M2 C0 C1 f0 f1 f2 C2 (1 : Fin 5) k1_part3._proof_22 _ _ _ x
  · show run1.sl.v68 c M0 M1 M2 C0 C1 C2 f0 f1 f2 x = _
    unfold run1.sl.v68 run1.sl.v65 run1.sl.v64
    exact c3b_piece_ok c M0 M1 M2 C0 C1 f0 f1 f2 C2 (0 : Fin 5) k1_part3._proof_15 _ _ _ x

/-- The same with the padded copy spelt out, at row (16 b + h) 8 + x and column 256 kh + ci. -/
theorem patch3b_apply' (b : Fin 8) (h : Fin 16) (x : Fin 8) (k : Fin 1280) :
    patch3b c M0 M1 M2 C0 C1 f0 f1 f2 C2 C3 (ix2 (⟨(b.val * 16 + h.val) * 8 + x.val, by omega⟩ : Fin 1024) k)
      = pad3b c M0 M1 M2 C0 C1 f0 f1 f2 (ix4 b (⟨h.val + k.val / 256, by omega⟩ : Fin 20) x (⟨k.val % 256, by omega⟩ : Fin 256)) := by
  rw [patch3b_apply]
  unfold patchFn3b
  have hb : b.val < 8 := b.isLt
  have hh : h.val < 16 := h.isLt
  have hx : x.val < 8 := x.isLt
  congr 1
  funext a
  apply Fin.ext
  match a with
  | ⟨0, _⟩ => show ((b.val * 16 + h.val) * 8 + x.val) / 128 = b.val; omega
  | ⟨1, _⟩ => show ((b.val * 16 + h.val) * 8 + x.val) / 8 % 16 + k.val / 256 = h.val + k.val / 256; omega
  | ⟨2, _⟩ => show ((b.val * 16 + h.val) * 8 + x.val) % 8 = x.val; omega
  | ⟨3, _⟩ => rfl

/-! ## The weight block and the bias row, loaded whole -/

/-- The weight block as the run loads it reads the staging buffer's contents. -/
theorem c3b_weight_apply (M3 : Memref sig .tc .vmem S1280x1280 .bf16) (f3 : Bf1 (F := F) c M3) (j : S1280x1280.Idx) :
    run1.sl.v91 c M3 f3 j = M3.view.read (Elt F) f3 j := by
  unfold run1.sl.v91
  rw [shapeCast_self, View.readAt_eq_ld, View.ld_unit_zero (S := S1280x1280) c3b_hz2]

/-- The bias row broadcast to [128, 4, 256] reads the bias at the channel. -/
theorem c3b_bias_apply (M4 : Memref sig .tc .vmem S1x256 .f32) (f4 : Bf1 (F := F) c M4) (r : Fin 128) (x : Fin 4) (co : Fin 256) :
    run1.sl.v106 c M4 f4 (ix3 r x co) = M4.view.read (Elt F) f4 (ix2 (0 : Fin 1) co) := by
  unfold run1.sl.v106
  refine (broadcastTo_apply _ _ (ix3 r x co) (ix3 (0 : Fin 1) (0 : Fin 1) co)
    (fun a => match a with | ⟨0, _⟩ => rfl | ⟨1, _⟩ => rfl | ⟨2, _⟩ => rfl)).trans ?_
  unfold run1.sl.v105
  refine (shapeCast_apply _ _ _ (ix2 (0 : Fin 1) co) (by
    rw [Shape.rowMajor_val_two, Shape.rowMajor_val_three]
    show 0 * 256 + co.val = (0 * 1 + 0) * 256 + co.val
    omega)).trans ?_
  unfold run1.sl.v104
  rw [shapeCast_self, View.readAt_eq_ld, View.ld_unit_zero (S := S1x256) c3b_hz2]

/-- One of the five shifted slices of the product regrouped to [128, 8, 1280]: the slice at column offset `kw` and
    channel offset 256 kw, read at (r, x, co), is the product at row 8 r + (x + kw) and column 256 kw + co. -/
theorem c3b_slice_apply {α : Type} (kw off : ℕ) (hkw : kw < 5) (hoff : off = kw * 256)
    (hs : S128x8x1280.Slices (![0, kw, off] : Fin 3 → ℕ) S128x4x256) (hc : S1024x1280.ShapeCasts S128x8x1280)
    (v : S1024x1280.Idx → α) (r : Fin 128) (x : Fin 4) (co : Fin 256) :
    extractStridedSlice S128x4x256 (![0, kw, off] : Fin 3 → ℕ) (shapeCast S128x8x1280 v hc) hs (ix3 r x co)
      = v (ix2 (⟨r.val * 8 + (x.val + kw), by omega⟩ : Fin 1024) (⟨kw * 256 + co.val, by omega⟩ : Fin 1280)) := by
  subst hoff
  refine (extractStridedSlice_apply _ _ hs _
    (ix3 r (⟨x.val + kw, by omega⟩ : Fin 8) (⟨kw * 256 + co.val, by omega⟩ : Fin 1280)) (fun a => ?_)).trans ?_
  · match a with
    | ⟨0, _⟩ => show r.val = 0 + r.val; omega
    | ⟨1, _⟩ => show x.val + kw = kw + x.val; omega
    | ⟨2, _⟩ => show kw * 256 + co.val = kw * 256 + co.val; rfl
  · exact shapeCast_apply _ hc _ _ (by
      rw [Shape.rowMajor_val_two, Shape.rowMajor_val_three]
      show (r.val * 8 + (x.val + kw)) * 1280 + (kw * 256 + co.val) = (r.val * 8 + (x.val + kw)) * 1280 + (kw * 256 + co.val)
      rfl)

end Conv3b

/-! ## The product, the five shifted slices, the bias, the rectifier and the pool, at the ideal instance -/

section Product3b

variable (c : Dev nD) (M0 : Memref sig .tc .vmem S8x16x4x128 .bf16) (M1 : Memref sig .tc .vmem S640x1280 .bf16) (M2 : Memref sig .tc .vmem S1x256 .f32)
  (M3 : Memref sig .tc .vmem S1280x1280 .bf16) (M4 : Memref sig .tc .vmem S1x256 .f32)
  (C0 : Memref sig .tc .vmem S8x20x8x128 .bf16) (C1 : Memref sig .tc .vmem S1024x640 .bf16) (C2 : Memref sig .tc .vmem S8x20x8x256 .bf16) (C3 : Memref sig .tc .vmem S1024x1280 .bf16)
  (f0 : Bf1 (F := Ideal) c M0) (f1 : Bf1 (F := Ideal) c M1) (f2 : Bf1 (F := Ideal) c M2) (f3 : Bf1 (F := Ideal) c M3) (f4 : Bf1 (F := Ideal) c M4)

/-- The dot's left index at result (p, q) and contraction position k is (p, k); -/
theorem c3b_lhsIdx (p : Fin 1024) (q : Fin 1280) (k : Fin 1280) :
    dot_S1024x1280_S1280x1280_S1024x1280_1_0_0_1_n_n.lhsIdx (ix2 p q) ((contrEquiv1 dot_S1024x1280_S1280x1280_S1024x1280_1_0_0_1_n_n 1280 rfl rfl).symm k) = ix2 p k := by
  funext a
  apply Fin.ext
  match a with
  | ⟨0, _⟩ => rfl
  | ⟨1, _⟩ => exact (DotDims.lhsIdx_val_of_single dot_S1024x1280_S1280x1280_S1024x1280_1_0_0_1_n_n (cl := (1 : Fin 2)) rfl _ _).trans (contrEquiv1_symm_val dot_S1024x1280_S1280x1280_S1024x1280_1_0_0_1_n_n 1280 rfl rfl k)

/-- its right index is (k, q). -/
theorem c3b_rhsIdx (p : Fin 1024) (q : Fin 1280) (k : Fin 1280) :
    dot_S1024x1280_S1280x1280_S1024x1280_1_0_0_1_n_n.rhsIdx (ix2 p q) ((contrEquiv1 dot_S1024x1280_S1280x1280_S1024x1280_1_0_0_1_n_n 1280 rfl rfl).symm k) = ix2 k q := by
  funext a
  apply Fin.ext
  match a with
  | ⟨0, _⟩ => exact (DotDims.rhsIdx_val_of_single dot_S1024x1280_S1280x1280_S1024x1280_1_0_0_1_n_n (cr := (0 : Fin 2)) rfl _ _).trans (contrEquiv1_symm_val dot_S1024x1280_S1280x1280_S1024x1280_1_0_0_1_n_n 1280 rfl rfl k)
  | ⟨1, _⟩ => rfl

/-- THE PRODUCT AT AN INDEX: into the zero accumulator, the matrix product at (p, q) is the sum over the 1280 patch
    columns of the patch entry times the weight entry (extended reals: the ideal reading). -/
theorem z3b_apply (p : Fin 1024) (q : Fin 1280) :
    run1.sl.v92 (F := Ideal) c M0 M1 M2 M3 C0 C1 C2 C3 f0 f1 f2 f3 (ix2 p q)
      = ∑ k : Fin 1280, (patch3b (F := Ideal) c M0 M1 M2 C0 C1 f0 f1 f2 C2 C3 (ix2 p k) : Ideal .bf16)
          * (run1.sl.v91 (F := Ideal) c M3 f3 (ix2 k q) : Ideal .bf16) := by
  unfold run1.sl.v92 run1.sl.cst_37
  simp only [matmul]
  rw [Ideal.matmul_constant_zero_apply]
  rw [← Equiv.sum_comp (contrEquiv1 dot_S1024x1280_S1280x1280_S1024x1280_1_0_0_1_n_n 1280 rfl rfl).symm]
  refine Finset.sum_congr rfl fun k _ => ?_
  rw [c3b_lhsIdx, c3b_rhsIdx]

/-- THE FIVE SHIFTED SLICES ADDED: at (r, x, co) the sum over the column taps kw of the product at row 8 r + (x + kw)
    and column 256 kw + co. -/
theorem y3b_apply (r : Fin 128) (x : Fin 4) (co : Fin 256) :
    run1.sl.v102 (F := Ideal) c M0 M1 M2 M3 C0 C1 C2 C3 f0 f1 f2 f3 (ix3 r x co)
      = ∑ kw : Fin 5, run1.sl.v92 (F := Ideal) c M0 M1 M2 M3 C0 C1 C2 C3 f0 f1 f2 f3
          (ix2 (⟨r.val * 8 + (x.val + kw.val), by omega⟩ : Fin 1024) (⟨kw.val * 256 + co.val, by omega⟩ : Fin 1280)) := by
  unfold run1.sl.v102 run1.sl.v100 run1.sl.v98 run1.sl.v96 run1.sl.v101 run1.sl.v99 run1.sl.v97 run1.sl.v95 run1.sl.v94 run1.sl.v93
  rw [addf_apply, addf_apply, addf_apply, addf_apply]
  rw [c3b_slice_apply 0 0 (by omega) rfl, c3b_slice_apply 1 256 (by omega) rfl, c3b_slice_apply 2 512 (by omega) rfl,
    c3b_slice_apply 3 768 (by omega) rfl, c3b_slice_apply 4 1024 (by omega) rfl]
  rw [Fin.sum_univ_five]
  rfl

/-- The padded copy of image b and the re-laid weight's column block for the channel co as functions of plain
    natural-number indices (zero outside the arrays), the form the convolution law is stated over: the weight entry
    for (flattened row tap and channel k, column tap kw) sits at row k, column 256 kw + co. -/
def pad3bN (b : ℕ) : ℕ → ℕ → ℕ → EReal :=
  fun r s ci => if h : b < 8 ∧ r < 20 ∧ s < 8 ∧ ci < 256
    then pad3b (F := Ideal) c M0 M1 M2 C0 C1 f0 f1 f2 (ix4 ⟨b, h.1⟩ ⟨r, h.2.1⟩ ⟨s, h.2.2.1⟩ ⟨ci, h.2.2.2⟩) else 0
def w3bN (co : ℕ) : ℕ → ℕ → EReal :=
  fun k kw => if h : k < 1280 ∧ kw * 256 + co < 1280
    then run1.sl.v91 (F := Ideal) c M3 f3 (ix2 ⟨k, h.1⟩ ⟨kw * 256 + co, h.2⟩) else 0

theorem pad3bN_eq (b r s ci : ℕ) (h0 : b < 8) (h1 : r < 20) (h2 : s < 8) (h3 : ci < 256) :
    pad3bN c M0 M1 M2 C0 C1 f0 f1 f2 b r s ci = pad3b (F := Ideal) c M0 M1 M2 C0 C1 f0 f1 f2 (ix4 ⟨b, h0⟩ ⟨r, h1⟩ ⟨s, h2⟩ ⟨ci, h3⟩) := by
  unfold pad3bN; exact dif_pos ⟨h0, h1, h2, h3⟩
theorem w3bN_eq (co k kw : ℕ) (h0 : k < 1280) (h1 : kw * 256 + co < 1280) :
    w3bN c M3 f3 co k kw = run1.sl.v91 (F := Ideal) c M3 f3 (ix2 ⟨k, h0⟩ ⟨kw * 256 + co, h1⟩) := by
  unfold w3bN; exact dif_pos ⟨h0, h1⟩

/-- THE SAME IN THE CONVOLUTION LAW'S FORM: at row r = 16 b + h the five added slices are, for each column tap, ONE
    contraction over the flattened (row tap, channel) index of image b's padded copy against the re-laid weight, the
    column-shifted partial results added. -/
theorem y3b_convRows (b : Fin 8) (h : Fin 16) (x : Fin 4) (co : Fin 256) :
    run1.sl.v102 (F := Ideal) c M0 M1 M2 M3 C0 C1 C2 C3 f0 f1 f2 f3 (ix3 (⟨b.val * 16 + h.val, by omega⟩ : Fin 128) x co)
      = TapSum.convRows 5 5 256 (pad3bN c M0 M1 M2 C0 C1 f0 f1 f2 b.val) (w3bN c M3 f3 co.val) h.val x.val := by
  rw [y3b_apply]
  refine Eq.trans ?_ (Fin.sum_univ_eq_sum_range (fun kw => ∑ k ∈ Finset.range (5 * 256),
    pad3bN c M0 M1 M2 C0 C1 f0 f1 f2 b.val (h.val + k / 256) (x.val + kw) (k % 256) * w3bN c M3 f3 co.val k kw) 5)
  refine Finset.sum_congr rfl fun kw _ => ?_
  have hkw : kw.val < 5 := kw.isLt
  have hb : b.val < 8 := b.isLt
  have hh : h.val < 16 := h.isLt
  have hx : x.val < 4 := x.isLt
  have hco : co.val < 256 := co.isLt
  refine (z3b_apply c M0 M1 M2 M3 C0 C1 C2 C3 f0 f1 f2 f3 _ _).trans ?_
  refine Eq.trans ?_ (Fin.sum_univ_eq_sum_range (fun k =>
    pad3bN c M0 M1 M2 C0 C1 f0 f1 f2 b.val (h.val + k / 256) (x.val + kw.val) (k % 256) * w3bN c M3 f3 co.val k kw.val) 1280)
  refine Finset.sum_congr rfl fun k _ => ?_
  have hk : k.val < 1280 := k.isLt
  show _ = pad3bN c M0 M1 M2 C0 C1 f0 f1 f2 b.val (h.val + k.val / 256) (x.val + kw.val) (k.val % 256) * w3bN c M3 f3 co.val k.val kw.val
  rw [pad3bN_eq c M0 M1 M2 C0 C1 f0 f1 f2 _ _ _ _ hb (by omega) (by omega) (Nat.mod_lt _ (by decide)), w3bN_eq c M3 f3 _ _ _ hk (by omega)]
  exact congrArg₂ (· * ·) (patch3b_apply' (F := Ideal) c M0 M1 M2 C0 C1 f0 f1 f2 C2 C3 b h (⟨x.val + kw.val, by omega⟩ : Fin 8) k) rfl

/-- THE SECOND CONVOLUTION'S RESULT BEFORE THE POOL, read at (r, x, co): the rectifier of the added slices plus
    the bias. -/
theorem relu3b_apply (r : Fin 128) (x : Fin 4) (co : Fin 256) :
    run1.sl.v109 (F := Ideal) c M0 M1 M2 M3 M4 C0 C1 C2 C3 f0 f1 f2 f3 f4 (ix3 r x co)
      = max (run1.sl.v102 (F := Ideal) c M0 M1 M2 M3 C0 C1 C2 C3 f0 f1 f2 f3 (ix3 r x co) + M4.view.read (Elt Ideal) f4 (ix2 (0 : Fin 1) co)) 0 := by
  unfold run1.sl.v109 run1.sl.v107 run1.sl.v53 run1.sl.cst_40
  rw [maximumf_apply, addf_apply, broadcast_apply, c3b_bias_apply]
  show max _ (Ideal.ofBits .f32 0x00000000#32) = _
  rw [Ideal.ofBits_zero_f32]

/-- THE POOLED VALUE, read at (r, co): the maximum over the 4 columns (the fold of `max` from the accumulator's value,
    the f32 pattern of minus infinity); the cast to bf16 changes nothing at the ideal values. -/
theorem pool3b_apply (r : Fin 128) (co : Fin 256) :
    run1.sl.v111 (F := Ideal) c M0 M1 M2 M3 M4 C0 C1 C2 C3 f0 f1 f2 f3 f4 (ix2 r co)
      = (Finset.univ : Finset (Fin 4)).fold max (FloatOps.ofBits (F := Ideal) .f32 4286578688#32)
          (fun x => run1.sl.v109 (F := Ideal) c M0 M1 M2 M3 M4 C0 C1 C2 C3 f0 f1 f2 f3 f4 (ix3 r x co)) := by
  unfold run1.sl.v111
  rw [truncf_apply]
  unfold run1.sl.v110
  refine (Ideal.multiReduction_maximumf_single (run1.sl.v109 (F := Ideal) c M0 M1 M2 M3 M4 C0 C1 C2 C3 f0 f1 f2 f3 f4) _ _ _ _ (ix2 r co)).trans ?_
  refine congrArg (fun g => (Finset.univ : Finset (Fin 4)).fold max _ g) (funext fun x => ?_)
  show run1.sl.v109 (F := Ideal) c M0 M1 M2 M3 M4 C0 C1 C2 C3 f0 f1 f2 f3 f4 _ = _
  refine congrArg _ (funext fun a => Fin.ext ?_)
  match a with
  | ⟨0, _⟩ => rfl
  | ⟨1, _⟩ => rfl
  | ⟨2, _⟩ => rfl

/-- The pooled third-stage activation at image b, row h and channel co, in closed form: the maximum over the 4
    columns of the rectified convolution (the law's form) plus bias. -/
theorem pool3b_value (b : Fin 8) (h : Fin 16) (co : Fin 256) :
    run1.sl.v111 (F := Ideal) c M0 M1 M2 M3 M4 C0 C1 C2 C3 f0 f1 f2 f3 f4 (ix2 (⟨b.val * 16 + h.val, by omega⟩ : Fin 128) co)
      = (Finset.univ : Finset (Fin 4)).fold max (FloatOps.ofBits (F := Ideal) .f32 4286578688#32)
          (fun x => max (TapSum.convRows 5 5 256 (pad3bN c M0 M1 M2 C0 C1 f0 f1 f2 b.val) (w3bN c M3 f3 co.val) h.val x.val
            + M4.view.read (Elt Ideal) f4 (ix2 (0 : Fin 1) co)) 0) := by
  rw [pool3b_apply]
  refine congrArg (fun g => (Finset.univ : Finset (Fin 4)).fold max _ g) (funext fun x => ?_)
  rw [relu3b_apply, y3b_convRows]

end Product3b

end Cert.KernelIdeal.Hand

end
-- ==== Proof.LibStage3.lean ====
/-
  The third stage of the network as ONE function of plain arrays, at the extended reals.

  An activation [8, 16, 4, C] is read, for one image, as a function of plain natural-number indices (row, column,
  channel) zero-padded by two rows and two columns on each side.  A 5x5 convolution output is the ONE contraction over
  (row tap, column tap, channel) of the padded input against a column of the weight stored tap-major, plus the bias,
  rectified.  The stage is two such convolutions (128 → 256 → 256 channels) and the maximum over the 4 columns.
  Both programs' third stages are instances of these definitions, so their equality is a congruence.
-/
import proofs.«147627_g2000402439390779_pallasbulk_891_17_alg».proof.Proof.LibConvLaw
import Idealize.ShloMosaic.Lib.ValueIdx
import Mathlib.Data.EReal.Basic

noncomputable section

namespace Cert.Hand.Stage3

open Idealize.ShloMosaic Idealize.ShloMosaic.ValueIdx

/-- The shapes, as literals. -/
abbrev Act (C : ℕ) : Shape := ⟨4, ![8, 16, 4, C]⟩
abbrev Mat (n k : ℕ) : Shape := ⟨2, ![n, k]⟩
abbrev Vec (n : ℕ) : Shape := ⟨1, ![n]⟩

/-- Image `b` of an activation [8, 16, 4, C], zero-padded by two rows and two columns, at plain naturals:
    position (r, s) of the padded image is position (r - 2, s - 2) of the image for 2 ≤ r < 18, 2 ≤ s < 6. -/
def actPadN {C : ℕ} (A : (Act C).Idx → EReal) (b : Fin 8) : ℕ → ℕ → ℕ → EReal :=
  fun r s ci => if h : ((2 ≤ r ∧ r < 18) ∧ (2 ≤ s ∧ s < 6)) ∧ ci < C
    then A (ix4 b (⟨r - 2, by omega⟩ : Fin 16) (⟨s - 2, by omega⟩ : Fin 4) (⟨ci, h.2⟩ : Fin C)) else 0

/-- Column `co` of a stored matrix [n, k] at a plain natural row, zero past the last row. -/
def colN {n k : ℕ} (W : (Mat n k).Idx → EReal) (co : Fin k) (t : ℕ) : EReal :=
  if h : t < n then W (ix2 (⟨t, h⟩ : Fin n) co) else 0

/-- One output of a rectified 5x5 convolution with `C` input channels. -/
def convRelu (C : ℕ) (inp : ℕ → ℕ → ℕ → EReal) (w : ℕ → EReal) (bias : EReal) (h x : ℕ) : EReal :=
  max (TapSum.convFull 5 5 C inp w h x + bias) 0

/-- Image `b` of the first convolution's rectified result [8, 16, 4, 256], zero-padded, at plain naturals. -/
def midPadN (H2 : (Act 128).Idx → EReal) (W3a : (Mat 3200 256).Idx → EReal) (B3a : (Vec 256).Idx → EReal) (b : Fin 8) :
    ℕ → ℕ → ℕ → EReal :=
  fun r s ci => if h : ((2 ≤ r ∧ r < 18) ∧ (2 ≤ s ∧ s < 6)) ∧ ci < 256
    then convRelu 128 (actPadN H2 b) (colN W3a (⟨ci, h.2⟩ : Fin 256)) (B3a (ix1 (⟨ci, h.2⟩ : Fin 256))) (r - 2) (s - 2) else 0

/-- THE POOLED THIRD STAGE at image `b`, row `h`, channel `co`: the maximum over the 4 columns of the second
    convolution's rectified result. -/
def pool (H2 : (Act 128).Idx → EReal) (W3a : (Mat 3200 256).Idx → EReal) (B3a : (Vec 256).Idx → EReal)
    (W3b : (Mat 6400 256).Idx → EReal) (B3b : (Vec 256).Idx → EReal) (b : Fin 8) (h : Fin 16) (co : Fin 256) : EReal :=
  (Finset.univ : Finset (Fin 4)).fold max (⊥ : EReal)
    (fun x : Fin 4 => convRelu 256 (midPadN H2 W3a B3a b) (colN W3b co) (B3b (ix1 co)) h.val x.val)

/-- The contraction reads its input only at channels below `C` and its weight only below a * b * C. -/
theorem convFull_congr (a b C : ℕ) (hC : 0 < C) {inp inp' : ℕ → ℕ → ℕ → EReal} {w w' : ℕ → EReal}
    (hi : ∀ r s ci, ci < C → inp r s ci = inp' r s ci) (hw : ∀ t, t < a * b * C → w t = w' t) (h x : ℕ) :
    TapSum.convFull a b C inp w h x = TapSum.convFull a b C inp' w' h x := by
  unfold TapSum.convFull
  refine Finset.sum_congr rfl fun t ht => ?_
  rw [hi _ _ _ (Nat.mod_lt _ hC), hw t (Finset.mem_range.mp ht)]

theorem convRelu_congr (C : ℕ) (hC : 0 < C) {inp inp' : ℕ → ℕ → ℕ → EReal} {w w' : ℕ → EReal} {bias bias' : EReal}
    (hi : ∀ r s ci, ci < C → inp r s ci = inp' r s ci) (hw : ∀ t, t < 5 * 5 * C → w t = w' t) (hb : bias = bias') (h x : ℕ) :
    convRelu C inp w bias h x = convRelu C inp' w' bias' h x := by
  unfold convRelu
  rw [convFull_congr 5 5 C hC hi hw, hb]

end Cert.Hand.Stage3

end
-- ==== Proof.KernelStage3Closed.lean ====
/-
  The kernel's pooled third-stage activation in closed form over arrays, at the ideal values.

  The two convolutions of the stage, each read at an index in its own module, are joined here: the second padded copy's
  interior is the first convolution's rectified result, so image b of it is the zero-padded image of that result; each
  product against a re-laid weight (row kh C + ci, column 256 kw + co) is the ONE contraction over (row tap, column tap,
  channel) against the column of the weight as stored; the pool is the maximum over the 4 columns.  First over
  arbitrary staging buffers, with what they read as hypotheses; then at the staged blocks of the region, which are
  the whole arrays the region finds; then with the weights and biases as launched and the input array as the
  first region's output.  The result is the stage's one neutral function of plain arrays.
-/
import proofs.«147627_g2000402439390779_pallasbulk_891_17_alg».proof.Proof.KernelConv3aValue
import proofs.«147627_g2000402439390779_pallasbulk_891_17_alg».proof.Proof.KernelConv3bValue
import proofs.«147627_g2000402439390779_pallasbulk_891_17_alg».proof.Proof.KernelConv4Value
import proofs.«147627_g2000402439390779_pallasbulk_891_17_alg».proof.Proof.KernelWeightLayout
import proofs.«147627_g2000402439390779_pallasbulk_891_17_alg».proof.Proof.ResultArrays
import proofs.«147627_g2000402439390779_pallasbulk_891_17_alg».proof.Proof.LibStage3
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.ShloMosaic.StableHlo
open Idealize.SL Idealize.SL.Sem
open Cert.Hand.Stage3 (Act Mat Vec actPadN colN convRelu midPadN)

variable [Cert.KernelIdeal.Facts]

namespace Stage3K

/-- The bit patterns of minus infinity (f32) and of zero (bf16) at the extended reals. -/
theorem neg_inf_f32 : (FloatOps.ofBits (F := Ideal) .f32 0xFF800000#32 : EReal) = ⊥ := by
  show Ideal.ofBits .f32 0xFF800000#32 = ⊥
  simp [Ideal.ofBits, Ideal.ieee]
theorem zero_bf16 : (run1.sl.cst (F := Ideal) : EReal) = 0 := by
  show Ideal.ofBits .bf16 0x0000#16 = 0
  simp [Ideal.ofBits, Ideal.ieee]

/-! ## Over arbitrary staging buffers whose contents read given arrays -/

section Generic

variable (c : Dev nD) (M0 : Memref sig .tc .vmem S8x16x4x128 .bf16) (M1 : Memref sig .tc .vmem S640x1280 .bf16) (M2 : Memref sig .tc .vmem S1x256 .f32)
  (M3 : Memref sig .tc .vmem S1280x1280 .bf16) (M4 : Memref sig .tc .vmem S1x256 .f32)
  (C0 : Memref sig .tc .vmem S8x20x8x128 .bf16) (C1 : Memref sig .tc .vmem S1024x640 .bf16) (C2 : Memref sig .tc .vmem S8x20x8x256 .bf16) (C3 : Memref sig .tc .vmem S1024x1280 .bf16)
  (f0 : Bf1 (F := Ideal) c M0) (f1 : Bf1 (F := Ideal) c M1) (f2 : Bf1 (F := Ideal) c M2) (f3 : Bf1 (F := Ideal) c M3) (f4 : Bf1 (F := Ideal) c M4)
  (H2 : (Act 128).Idx → EReal) (W3a : (Mat 3200 256).Idx → EReal) (B3a : (Vec 256).Idx → EReal)
  (W3b : (Mat 6400 256).Idx → EReal) (B3b : (Vec 256).Idx → EReal)

/-- Image b of the first padded copy is the zero-padded image b of the activation the first buffer holds. -/
theorem padN_eq_actPad (hH2 : (M0.view.read (Elt Ideal) f0 : S8x16x4x128.Idx → EReal) = H2) (b : Fin 8) (r s ci : ℕ) :
    Conv3a.padN c M0 f0 b.val r s ci = actPadN H2 b r s ci := by
  subst hH2
  unfold actPadN
  by_cases h : ((2 ≤ r ∧ r < 18) ∧ (2 ≤ s ∧ s < 6)) ∧ ci < 128
  · rw [dif_pos h, Conv3a.padN_interior c M0 f0 b.val r s ci b.isLt h.1.1.1 h.1.1.2 h.1.2.1 h.1.2.2 h.2]
  · rw [dif_neg h]
    by_cases hb : (2 ≤ r ∧ r < 18) ∧ (2 ≤ s ∧ s < 6)
    · unfold Conv3a.padN
      exact dif_neg (by omega)
    · exact Conv3a.padN_border c M0 f0 b.val r s ci hb

/-- The first convolution's result after the cast, in the stage's form. -/
theorem ya3_convRelu (hH2 : (M0.view.read (Elt Ideal) f0 : S8x16x4x128.Idx → EReal) = H2)
    (hW3a : ∀ (co : Fin 256) (k kw : ℕ) (hk : k < 640) (hkw : kw < 5),
      M1.view.read (Elt Ideal) f1 (ix2 (⟨k, hk⟩ : Fin 640) (⟨kw * 256 + co.val, by omega⟩ : Fin 1280))
        = W3a (ix2 (⟨(k / 128 * 5 + kw) * 128 + k % 128, by omega⟩ : Fin 3200) co))
    (hB3a : ∀ co : Fin 256, M2.view.read (Elt Ideal) f2 (ix2 (0 : Fin 1) co) = B3a (ix1 co))
    (b : Fin 8) (h : Fin 16) (x : Fin 4) (co : Fin 256) :
    run1.sl.v55 (F := Ideal) c M0 M1 M2 C0 C1 f0 f1 f2 (ix3 (⟨b.val * 16 + h.val, by omega⟩ : Fin 128) x co)
      = convRelu 128 (actPadN H2 b) (colN W3a co) (B3a (ix1 co)) h.val x.val := by
  unfold run1.sl.v55
  rw [truncf_apply]
  rw [Conv3a.y3a_convFull c M0 M1 M2 C0 C1 f0 f1 f2 _ (colN W3a co) (fun k kw hk hkw => by
    rw [Conv3a.wcatN_eq c M1 f1 co.val k kw hk hkw co.isLt]
    refine (hW3a co k kw hk hkw).trans ?_
    unfold colN
    rw [dif_pos (by omega)])]
  unfold convRelu
  have e0 : (b.val * 16 + h.val) / 16 = b.val := by omega
  have e1 : (b.val * 16 + h.val) % 16 = h.val := by omega
  show max (TapSum.convFull 5 5 128 (Conv3a.padN c M0 f0 ((b.val * 16 + h.val) / 16)) (colN W3a co) ((b.val * 16 + h.val) % 16) x.val
    + M2.view.read (Elt Ideal) f2 (ix2 (0 : Fin 1) co)) 0 = _
  rw [e0, e1, hB3a co]
  rw [Cert.Hand.Stage3.convFull_congr 5 5 128 (by decide)
    (fun r s ci _ => padN_eq_actPad c M0 f0 H2 hH2 b r s ci) (fun _ _ => rfl)]

/-- Image b of the second padded copy is, at the channels below 256, the zero-padded first convolution's result. -/
theorem pad3bN_eq_midPad (hH2 : (M0.view.read (Elt Ideal) f0 : S8x16x4x128.Idx → EReal) = H2)
    (hW3a : ∀ (co : Fin 256) (k kw : ℕ) (hk : k < 640) (hkw : kw < 5),
      M1.view.read (Elt Ideal) f1 (ix2 (⟨k, hk⟩ : Fin 640) (⟨kw * 256 + co.val, by omega⟩ : Fin 1280))
        = W3a (ix2 (⟨(k / 128 * 5 + kw) * 128 + k % 128, by omega⟩ : Fin 3200) co))
    (hB3a : ∀ co : Fin 256, M2.view.read (Elt Ideal) f2 (ix2 (0 : Fin 1) co) = B3a (ix1 co))
    (b : Fin 8) (r s ci : ℕ) (hci : ci < 256) :
    pad3bN c M0 M1 M2 C0 C1 f0 f1 f2 b.val r s ci = midPadN H2 W3a B3a b r s ci := by
  unfold midPadN
  by_cases h : (2 ≤ r ∧ r < 18) ∧ (2 ≤ s ∧ s < 6)
  · rw [dif_pos ⟨h, hci⟩, pad3bN_eq c M0 M1 M2 C0 C1 f0 f1 f2 b.val r s ci b.isLt (by omega) (by omega) hci]
    refine (pad3b_apply (F := Ideal) c M0 M1 M2 C0 C1 f0 f1 f2 b (⟨r, by omega⟩ : Fin 20) (⟨s, by omega⟩ : Fin 8) (⟨ci, hci⟩ : Fin 256)).trans ?_
    rw [dif_pos h]
    exact ya3_convRelu c M0 M1 M2 C0 C1 f0 f1 f2 H2 W3a B3a hH2 hW3a hB3a b (⟨r - 2, by omega⟩ : Fin 16) (⟨s - 2, by omega⟩ : Fin 4) (⟨ci, hci⟩ : Fin 256)
  · rw [dif_neg (fun hh => h hh.1)]
    by_cases hr : r < 20 ∧ s < 8
    · rw [pad3bN_eq c M0 M1 M2 C0 C1 f0 f1 f2 b.val r s ci b.isLt hr.1 hr.2 hci]
      refine (pad3b_apply (F := Ideal) c M0 M1 M2 C0 C1 f0 f1 f2 b (⟨r, hr.1⟩ : Fin 20) (⟨s, hr.2⟩ : Fin 8) (⟨ci, hci⟩ : Fin 256)).trans ?_
      rw [dif_neg h]
      exact zero_bf16
    · unfold pad3bN
      exact dif_neg (by omega)

/-- The five added slices as the ONE contraction against the stored second weight's column. -/
theorem y3b_convFull (hW3b : ∀ (co : Fin 256) (k kw : ℕ) (hk : k < 1280) (hkw : kw < 5),
      M3.view.read (Elt Ideal) f3 (ix2 (⟨k, hk⟩ : Fin 1280) (⟨kw * 256 + co.val, by omega⟩ : Fin 1280))
        = W3b (ix2 (⟨(k / 256 * 5 + kw) * 256 + k % 256, by omega⟩ : Fin 6400) co))
    (b : Fin 8) (h : Fin 16) (x : Fin 4) (co : Fin 256) :
    run1.sl.v102 (F := Ideal) c M0 M1 M2 M3 C0 C1 C2 C3 f0 f1 f2 f3 (ix3 (⟨b.val * 16 + h.val, by omega⟩ : Fin 128) x co)
      = TapSum.convFull 5 5 256 (pad3bN c M0 M1 M2 C0 C1 f0 f1 f2 b.val) (colN W3b co) h.val x.val := by
  rw [y3b_convRows]
  rw [← TapSum.convRows_eq_convFull 5 5 256 (by decide) (by decide) _ (colN W3b co)
        (fun k kw => colN W3b co ((k / 256 * 5 + kw) * 256 + k % 256)) (fun _ _ => rfl)]
  unfold TapSum.convRows
  refine Finset.sum_congr rfl fun kw hkw => Finset.sum_congr rfl fun k hk => ?_
  have hk' : k < 5 * 256 := Finset.mem_range.mp hk
  have hkw' : kw < 5 := Finset.mem_range.mp hkw
  have hco : co.val < 256 := co.isLt
  rw [w3bN_eq c M3 f3 co.val k kw (by omega) (by omega), c3b_weight_apply]
  refine congrArg (_ * ·) ((hW3b co k kw (by omega) hkw').trans ?_)
  show W3b _ = colN W3b co ((k / 256 * 5 + kw) * 256 + k % 256)
  unfold colN
  rw [dif_pos (by omega)]

/-- THE POOLED THIRD-STAGE ACTIVATION IN CLOSED FORM over what the five staging buffers read. -/
theorem pool3_closed (hH2 : (M0.view.read (Elt Ideal) f0 : S8x16x4x128.Idx → EReal) = H2)
    (hW3a : ∀ (co : Fin 256) (k kw : ℕ) (hk : k < 640) (hkw : kw < 5),
      M1.view.read (Elt Ideal) f1 (ix2 (⟨k, hk⟩ : Fin 640) (⟨kw * 256 + co.val, by omega⟩ : Fin 1280))
        = W3a (ix2 (⟨(k / 128 * 5 + kw) * 128 + k % 128, by omega⟩ : Fin 3200) co))
    (hB3a : ∀ co : Fin 256, M2.view.read (Elt Ideal) f2 (ix2 (0 : Fin 1) co) = B3a (ix1 co))
    (hW3b : ∀ (co : Fin 256) (k kw : ℕ) (hk : k < 1280) (hkw : kw < 5),
      M3.view.read (Elt Ideal) f3 (ix2 (⟨k, hk⟩ : Fin 1280) (⟨kw * 256 + co.val, by omega⟩ : Fin 1280))
        = W3b (ix2 (⟨(k / 256 * 5 + kw) * 256 + k % 256, by omega⟩ : Fin 6400) co))
    (hB3b : ∀ co : Fin 256, M4.view.read (Elt Ideal) f4 (ix2 (0 : Fin 1) co) = B3b (ix1 co))
    (b : Fin 8) (h : Fin 16) (co : Fin 256) :
    run1.sl.v119 (F := Ideal) c M0 M1 M2 M3 M4 C0 C1 C2 C3 f0 f1 f2 f3 f4 (ix3 b h co)
      = Cert.Hand.Stage3.pool H2 W3a B3a W3b B3b b h co := by
  unfold run1.sl.v119 run1.sl.v116
  rw [shapeCast_self]
  refine (shapeCast_apply _ _ _ (ix2 (⟨b.val * 16 + h.val, by omega⟩ : Fin 128) co) (by
    rw [Shape.rowMajor_val_two, Shape.rowMajor_val_three]
    rfl)).trans ?_
  rw [pool3b_apply]
  unfold Cert.Hand.Stage3.pool
  rw [neg_inf_f32]
  refine congrArg (fun g : Fin 4 → EReal => Finset.fold max (⊥ : EReal) g Finset.univ) (funext fun x => ?_)
  rw [relu3b_apply, y3b_convFull c M0 M1 M2 M3 C0 C1 C2 C3 f0 f1 f2 f3 W3b hW3b b h x co, hB3b co]
  unfold convRelu
  rw [Cert.Hand.Stage3.convFull_congr 5 5 256 (by decide)
    (fun r s ci hci => pad3bN_eq_midPad c M0 M1 M2 C0 C1 f0 f1 f2 H2 W3a B3a hH2 hW3a hB3a b r s ci hci) (fun _ _ => rfl)]

end Generic

/-! ## From the staged blocks to the arrays -/

section Arrays

variable (V : (c : Dev nD) → (b : Ref sig .tc) → Buf (Elt Ideal) ((c : Thread nD τ).loc b))

/-- At the one grid point the stage's five windows start at the origin of their arrays, -/
theorem origin1_0 : (fun a => win1_0.index t1_0 a * (Pipeline.arrRef spec1 0).ty.shape.size a) = fun _ => 0 := funext fun a => by fin_cases a <;> decide
theorem origin1_1 : (fun a => win1_1.index t1_0 a * (Pipeline.arrRef spec1 1).ty.shape.size a) = fun _ => 0 := funext fun a => by fin_cases a <;> decide
theorem origin1_2 : (fun a => win1_2.index t1_0 a * (Pipeline.arrRef spec1 2).ty.shape.size a) = fun _ => 0 := funext fun a => by fin_cases a <;> decide
theorem origin1_3 : (fun a => win1_3.index t1_0 a * (Pipeline.arrRef spec1 3).ty.shape.size a) = fun _ => 0 := funext fun a => by fin_cases a <;> decide
theorem origin1_4 : (fun a => win1_4.index t1_0 a * (Pipeline.arrRef spec1 4).ty.shape.size a) = fun _ => 0 := funext fun a => by fin_cases a <;> decide

/-- so their blocks are the whole arrays they window. -/
theorem blk1_0_eq (c : Dev nD) : blk1_0 V c = (V c main_v70 : S8x16x4x128.Idx → Elt Ideal .bf16) :=
  Memref.read_access_unit_zero (Elt Ideal) (Pipeline.arrRef spec1 0) origin1_0 (fun a => by rw [congrFun origin1_0 a]; simp) (V c (Pipeline.arrRef spec1 0))
theorem blk1_1_eq (c : Dev nD) : blk1_1 V c = (V c main_v77 : S640x1280.Idx → Elt Ideal .bf16) :=
  Memref.read_access_unit_zero (Elt Ideal) (Pipeline.arrRef spec1 1) origin1_1 (fun a => by rw [congrFun origin1_1 a]; simp) (V c (Pipeline.arrRef spec1 1))
theorem blk1_2_eq (c : Dev nD) : blk1_2 V c = (V c main_v81 : S1x256.Idx → Elt Ideal .f32) :=
  Memref.read_access_unit_zero (Elt Ideal) (Pipeline.arrRef spec1 2) origin1_2 (fun a => by rw [congrFun origin1_2 a]; simp) (V c (Pipeline.arrRef spec1 2))
theorem blk1_3_eq (c : Dev nD) : blk1_3 V c = (V c main_v80 : S1280x1280.Idx → Elt Ideal .bf16) :=
  Memref.read_access_unit_zero (Elt Ideal) (Pipeline.arrRef spec1 3) origin1_3 (fun a => by rw [congrFun origin1_3 a]; simp) (V c (Pipeline.arrRef spec1 3))
theorem blk1_4_eq (c : Dev nD) : blk1_4 V c = (V c main_v82 : S1x256.Idx → Elt Ideal .f32) :=
  Memref.read_access_unit_zero (Elt Ideal) (Pipeline.arrRef spec1 4) origin1_4 (fun a => by rw [congrFun origin1_4 a]; simp) (V c (Pipeline.arrRef spec1 4))

/-- THE POOLED THIRD-STAGE ACTIVATION, the run's values taken at the staged blocks of `V`, IN CLOSED FORM over the five
    arrays the region finds. -/
theorem pool3_arrays (c : Dev nD) (H2 : (Act 128).Idx → EReal) (W3a : (Mat 3200 256).Idx → EReal) (B3a : (Vec 256).Idx → EReal)
    (W3b : (Mat 6400 256).Idx → EReal) (B3b : (Vec 256).Idx → EReal)
    (hH2 : (V c main_v70 : S8x16x4x128.Idx → EReal) = H2)
    (hW3a : ∀ (co : Fin 256) (k kw : ℕ) (hk : k < 640) (hkw : kw < 5),
      (V c main_v77 : S640x1280.Idx → EReal) (ix2 (⟨k, hk⟩ : Fin 640) (⟨kw * 256 + co.val, by omega⟩ : Fin 1280))
        = W3a (ix2 (⟨(k / 128 * 5 + kw) * 128 + k % 128, by omega⟩ : Fin 3200) co))
    (hB3a : ∀ co : Fin 256, (V c main_v81 : S1x256.Idx → EReal) (ix2 (0 : Fin 1) co) = B3a (ix1 co))
    (hW3b : ∀ (co : Fin 256) (k kw : ℕ) (hk : k < 1280) (hkw : kw < 5),
      (V c main_v80 : S1280x1280.Idx → EReal) (ix2 (⟨k, hk⟩ : Fin 1280) (⟨kw * 256 + co.val, by omega⟩ : Fin 1280))
        = W3b (ix2 (⟨(k / 256 * 5 + kw) * 256 + k % 256, by omega⟩ : Fin 6400) co))
    (hB3b : ∀ co : Fin 256, (V c main_v82 : S1x256.Idx → EReal) (ix2 (0 : Fin 1) co) = B3b (ix1 co))
    (b : Fin 8) (h : Fin 16) (co : Fin 256) :
    pool3 (F := Ideal) c (win1_0.stage (cfg1.slots t1_0 0)) (win1_1.stage (cfg1.slots t1_0 1)) (win1_2.stage (cfg1.slots t1_0 2)) (win1_3.stage (cfg1.slots t1_0 3)) (win1_4.stage (cfg1.slots t1_0 4)) (Memref.whole cc1_scratch0) (Memref.whole cc1_scratch1) (Memref.whole cc1_scratch2) (Memref.whole cc1_scratch3) ((hstage1_0 0).unread (blk1_0 V c)) ((hstage1_1 0).unread (blk1_1 V c)) ((hstage1_2 0).unread (blk1_2 V c)) ((hstage1_3 0).unread (blk1_3 V c)) ((hstage1_4 0).unread (blk1_4 V c)) (ix3 b h co)
      = Cert.Hand.Stage3.pool H2 W3a B3a W3b B3b b h co :=
  pool3_closed c (win1_0.stage (cfg1.slots t1_0 0)) (win1_1.stage (cfg1.slots t1_0 1)) (win1_2.stage (cfg1.slots t1_0 2)) (win1_3.stage (cfg1.slots t1_0 3)) (win1_4.stage (cfg1.slots t1_0 4)) (Memref.whole cc1_scratch0) (Memref.whole cc1_scratch1) (Memref.whole cc1_scratch2) (Memref.whole cc1_scratch3) ((hstage1_0 0).unread (blk1_0 V c)) ((hstage1_1 0).unread (blk1_1 V c)) ((hstage1_2 0).unread (blk1_2 V c)) ((hstage1_3 0).unread (blk1_3 V c)) ((hstage1_4 0).unread (blk1_4 V c)) H2 W3a B3a W3b B3b
    ((((hstage1_0 0).read_unread _).trans (blk1_0_eq V c)).trans hH2)
    (fun co k kw hk hkw => (congrFun (((hstage1_1 0).read_unread _).trans (blk1_1_eq V c)) _).trans (hW3a co k kw hk hkw))
    (fun co => (congrFun (((hstage1_2 0).read_unread _).trans (blk1_2_eq V c)) _).trans (hB3a co))
    (fun co k kw hk hkw => (congrFun (((hstage1_3 0).read_unread _).trans (blk1_3_eq V c)) _).trans (hW3b co k kw hk hkw))
    (fun co => (congrFun (((hstage1_4 0).read_unread _).trans (blk1_4_eq V c)) _).trans (hB3b co))
    b h co

end Arrays

/-! ## The weights and the biases as launched -/

section Launched

variable (m : (ℓ : Loc nD τ sig) → Buf (Elt Ideal) ℓ) (outs : Outs (F := Ideal))

/-- Before the last host stretch the two stored weights and the two bias vectors of the stage are as launched. -/
theorem pre1_arg9 (c : Dev nD) : V6 m outs c main_arg9 = m ((c : Thread nD τ).loc main_arg9) :=
  (V6_of m outs c main_arg9 (by decide)).trans <| (V5_of m c main_arg9 (by decide)).trans <| (V4_of m c main_arg9 (by decide)).trans <| (V3_of m c main_arg9 (by decide)).trans <| (V2_of m c main_arg9 (by decide)).trans <| (V1_of m c main_arg9 (by decide)).trans rfl
theorem pre1_arg10 (c : Dev nD) : V6 m outs c main_arg10 = m ((c : Thread nD τ).loc main_arg10) :=
  (V6_of m outs c main_arg10 (by decide)).trans <| (V5_of m c main_arg10 (by decide)).trans <| (V4_of m c main_arg10 (by decide)).trans <| (V3_of m c main_arg10 (by decide)).trans <| (V2_of m c main_arg10 (by decide)).trans <| (V1_of m c main_arg10 (by decide)).trans rfl
theorem pre1_arg11 (c : Dev nD) : V6 m outs c main_arg11 = m ((c : Thread nD τ).loc main_arg11) :=
  (V6_of m outs c main_arg11 (by decide)).trans <| (V5_of m c main_arg11 (by decide)).trans <| (V4_of m c main_arg11 (by decide)).trans <| (V3_of m c main_arg11 (by decide)).trans <| (V2_of m c main_arg11 (by decide)).trans <| (V1_of m c main_arg11 (by decide)).trans rfl
theorem pre1_arg12 (c : Dev nD) : V6 m outs c main_arg12 = m ((c : Thread nD τ).loc main_arg12) :=
  (V6_of m outs c main_arg12 (by decide)).trans <| (V5_of m c main_arg12 (by decide)).trans <| (V4_of m c main_arg12 (by decide)).trans <| (V3_of m c main_arg12 (by decide)).trans <| (V2_of m c main_arg12 (by decide)).trans <| (V1_of m c main_arg12 (by decide)).trans rfl

set_option maxHeartbeats 4000000 in
/-- The last host stretch makes each bias row by reshaping its vector. -/
theorem bias3a_ops (c : Dev nD) :
    (V7 m outs c main_v81 : S1x256.Idx → Elt Ideal .f32)
      = shapeCast S1x256 (V6 m outs c main_arg10 : S256.Idx → Elt Ideal .f32) shapeCasts_S256_S1x256 := by
  show StableHlo.after hostOps1 (V6 m outs c) (Proc.devRef .tc main_v81) = _
  unfold hostOps1
  after_results
  rfl
set_option maxHeartbeats 4000000 in
theorem bias3b_ops (c : Dev nD) :
    (V7 m outs c main_v82 : S1x256.Idx → Elt Ideal .f32)
      = shapeCast S1x256 (V6 m outs c main_arg12 : S256.Idx → Elt Ideal .f32) shapeCasts_S256_S1x256 := by
  show StableHlo.after hostOps1 (V6 m outs c) (Proc.devRef .tc main_v82) = _
  unfold hostOps1
  after_results
  rfl

/-- A bias row's entry at `co` is the launched bias vector's. -/
theorem bias3a_entry (c : Dev nD) (co : Fin 256) :
    (V7 m outs c main_v81 : S1x256.Idx → Elt Ideal .f32) (ix2 (0 : Fin 1) co)
      = (m ((c : Thread nD τ).loc main_arg10) : S256.Idx → Elt Ideal .f32) (ix1 co) := by
  refine (congrFun (bias3a_ops m outs c) _).trans ?_
  refine (shapeCast_apply _ _ _ (ix1 co) ?_).trans (congrFun (pre1_arg10 m outs c) _)
  rw [Shape.rowMajor_val_one, Shape.rowMajor_val_two]
  show co.val = 0 * 256 + co.val
  omega
theorem bias3b_entry (c : Dev nD) (co : Fin 256) :
    (V7 m outs c main_v82 : S1x256.Idx → Elt Ideal .f32) (ix2 (0 : Fin 1) co)
      = (m ((c : Thread nD τ).loc main_arg12) : S256.Idx → Elt Ideal .f32) (ix1 co) := by
  refine (congrFun (bias3b_ops m outs c) _).trans ?_
  refine (shapeCast_apply _ _ _ (ix1 co) ?_).trans (congrFun (pre1_arg12 m outs c) _)
  rw [Shape.rowMajor_val_one, Shape.rowMajor_val_two]
  show co.val = 0 * 256 + co.val
  omega

/-- Entry (k, 256 kw + co) of a re-laid weight is the launched weight's entry in row (k / C · 5 + kw) · C + k % C,
    column co. -/
theorem w3a_entry (c : Dev nD) (co : Fin 256) (k kw : ℕ) (hk : k < 640) (hkw : kw < 5) :
    (V7 m outs c main_v77 : S640x1280.Idx → Elt Ideal .bf16) (ix2 (⟨k, hk⟩ : Fin 640) (⟨kw * 256 + co.val, by omega⟩ : Fin 1280))
      = (m ((c : Thread nD τ).loc main_arg9) : S3200x256.Idx → Elt Ideal .bf16)
          (ix2 (⟨(k / 128 * 5 + kw) * 128 + k % 128, by omega⟩ : Fin 3200) co) := by
  have e := w3a_relaid m outs c (⟨k / 128, by omega⟩ : Fin 5) (⟨k % 128, by omega⟩ : Fin 128) (⟨kw, hkw⟩ : Fin 5) co
  refine Eq.trans (congrArg _ ?_) (e.trans (congrFun (pre1_arg9 m outs c) _))
  congr 1
  apply Fin.ext
  show k = k / 128 * 128 + k % 128
  omega
theorem w3b_entry (c : Dev nD) (co : Fin 256) (k kw : ℕ) (hk : k < 1280) (hkw : kw < 5) :
    (V7 m outs c main_v80 : S1280x1280.Idx → Elt Ideal .bf16) (ix2 (⟨k, hk⟩ : Fin 1280) (⟨kw * 256 + co.val, by omega⟩ : Fin 1280))
      = (m ((c : Thread nD τ).loc main_arg11) : S6400x256.Idx → Elt Ideal .bf16)
          (ix2 (⟨(k / 256 * 5 + kw) * 256 + k % 256, by omega⟩ : Fin 6400) co) := by
  have e := w3b_relaid m outs c (⟨k / 256, by omega⟩ : Fin 5) (⟨k % 256, by omega⟩ : Fin 256) (⟨kw, hkw⟩ : Fin 5) co
  refine Eq.trans (congrArg _ ?_) (e.trans (congrFun (pre1_arg11 m outs c) _))
  congr 1
  apply Fin.ext
  show k = k / 256 * 256 + k % 256
  omega

/-- THE KERNEL'S POOLED THIRD-STAGE ACTIVATION OVER THE SECOND STAGE'S OUTPUT AND THE LAUNCHED WEIGHTS AND BIASES: the
    region entered at the contents the last host stretch leaves, at image `b`, row `h`, channel `co`. -/
theorem pool3_launched (c : Dev nD) (b : Fin 8) (h : Fin 16) (co : Fin 256) :
    pool3 (F := Ideal) c (win1_0.stage (cfg1.slots t1_0 0)) (win1_1.stage (cfg1.slots t1_0 1)) (win1_2.stage (cfg1.slots t1_0 2)) (win1_3.stage (cfg1.slots t1_0 3)) (win1_4.stage (cfg1.slots t1_0 4)) (Memref.whole cc1_scratch0) (Memref.whole cc1_scratch1) (Memref.whole cc1_scratch2) (Memref.whole cc1_scratch3) ((hstage1_0 0).unread (blk1_0 (fun c b => V7 m (outs1 m) c b) c)) ((hstage1_1 0).unread (blk1_1 (fun c b => V7 m (outs1 m) c b) c)) ((hstage1_2 0).unread (blk1_2 (fun c b => V7 m (outs1 m) c b) c)) ((hstage1_3 0).unread (blk1_3 (fun c b => V7 m (outs1 m) c b) c)) ((hstage1_4 0).unread (blk1_4 (fun c b => V7 m (outs1 m) c b) c)) (ix3 b h co)
      = Cert.Hand.Stage3.pool (o0 m c : S8x16x4x128.Idx → Elt Ideal .bf16)
          (m ((c : Thread nD τ).loc main_arg9) : S3200x256.Idx → Elt Ideal .bf16)
          (m ((c : Thread nD τ).loc main_arg10) : S256.Idx → Elt Ideal .f32)
          (m ((c : Thread nD τ).loc main_arg11) : S6400x256.Idx → Elt Ideal .bf16)
          (m ((c : Thread nD τ).loc main_arg12) : S256.Idx → Elt Ideal .f32) b h co :=
  pool3_arrays (fun c b => V7 m (outs1 m) c b) c _ _ _ _ _
    (entry1_v70 m c)
    (fun co k kw hk hkw => w3a_entry m (outs1 m) c co k kw hk hkw)
    (fun co => bias3a_entry m (outs1 m) c co)
    (fun co k kw hk hkw => w3b_entry m (outs1 m) c co k kw hk hkw)
    (fun co => bias3b_entry m (outs1 m) c co)
    b h co

end Launched

end Stage3K

end Cert.KernelIdeal.Hand

end
-- ==== Proof.RefConv3aValue.lean ====
/-
  The reference's region 2, first convolution of the pair, read at an index.

  The kernel builds a patch matrix [512, 3200] in scratch by 25 slice stores: the store for the tap (kh, kw) writes
  columns [(kh * 5 + kw) * 128, (kh * 5 + kw + 1) * 128) with the [8,16,4,128] window of the zero-padded activation
  [8,20,8,128] at offsets (0, kh, kw, 0), flattened row-major to [512,128].  The 25 column blocks tile the matrix, and
  each is a block of ONE function of the matrix index: at row p = (b * 16 + h) * 4 + x and column
  t = (kh * 5 + kw) * 128 + ci the matrix holds the activation at (b, kh + h, kw + x, ci).  So the load of the whole
  matrix after the stores reads that function (`patch_apply`), whatever the order of the stores.

  At the ideal values (extended reals, the format changes the identity) the product of the patch matrix with the
  weight [3200, 256] into the zero accumulator is, at (p, co), the plain sum over the flattened index t of the
  activation at the shifted index times the weight at (t, co) (`conv_sum_apply`); adding the bias row and taking the
  maximum with zero gives the convolution's result before the cast (`ya_apply`), and the sum is the ONE contraction
  over (row tap, column tap, channel) of the general convolution law, `TapSum.convFull 5 5 128`, of image b's padded
  activation against the weight's column, at output position (h, x) (`ya_convFull`).
-/
import proofs.«147627_g2000402439390779_pallasbulk_891_17_alg».proof.Proof.RefPairRegion2
import Idealize.ShloMosaic.Lib.Pipeline.Value
import Idealize.ShloMosaic.Lib.ValueIdx
import Idealize.ShloMosaic.Lib.Ring
import Idealize.ShloMosaic.PureOps.Ideal.Laws
import proofs.«147627_g2000402439390779_pallasbulk_891_17_alg».proof.Proof.LibConvLaw

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [Cert.ReferenceIdeal.Facts]

/-- One tap's block of the patch matrix read at a local index: the block stored for the tap (kh, kw) is the
    [8,16,4,128] window of the padded activation at offsets (0, kh, kw, 0), flattened row-major to [512,128]; so at
    (p, ci) it reads the activation at (p / 64, kh + p / 4 % 16, kw + p % 4, ci). -/
theorem tap_apply (c : Dev nD) (M0 : Memref sig .tc .vmem S8x20x8x128 .bf16) (f0 : Bf2 (F := F) c M0)
    (kh kw : ℕ) (inbM : ∀ a, (![0, kh, kw, 0] : Fin 4 → ℕ) a + S8x16x4x128.size a ≤ S8x20x8x128.size a)
    (h1 : (Rect.unit (s := S8x20x8x128) ![0, kh, kw, 0] S8x16x4x128.size inbM).toLoadRect.shape.ShapeCasts S8x16x4x128)
    (h2 : S8x16x4x128.ShapeCasts S512x128) (h3 : S512x128.ShapeCasts S512x128)
    (x : S512x128.Idx) (k : S8x20x8x128.Idx)
    (hk0 : (k 0).val = (x 0).val / 64) (hk1 : (k 1).val = kh + (x 0).val / 4 % 16)
    (hk2 : (k 2).val = kw + (x 0).val % 4) (hk3 : (k 3).val = (x 1).val) :
    shapeCast S512x128 (shapeCast S512x128 (shapeCast S8x16x4x128
      (View.readAt (Elt F) M0.view (Rect.unit (s := S8x20x8x128) ![0, kh, kw, 0] S8x16x4x128.size inbM).toLoadRect f0) h1) h2) h3 x
      = M0.view.read (Elt F) f0 k := by
  have hx0 : (x 0).val < 512 := idx2_lt0 x
  have hx1 : (x 1).val < 128 := idx2_lt1 x
  rw [shapeCast_self]
  refine (shapeCast_apply _ _ x
    (ix4 ⟨(x 0).val / 64, by omega⟩ ⟨(x 0).val / 4 % 16, by omega⟩ ⟨(x 0).val % 4, by omega⟩ ⟨(x 1).val, hx1⟩)
    (by rw [Shape.rowMajor_val_two, Shape.rowMajor_val_four]
        show ((((x 0).val / 64) * 16 + (x 0).val / 4 % 16) * 4 + (x 0).val % 4) * 128 + (x 1).val = (x 0).val * 128 + (x 1).val
        omega)).trans ?_
  refine (shapeCast_apply _ _ _
    (ix4 ⟨(x 0).val / 64, by omega⟩ ⟨(x 0).val / 4 % 16, by omega⟩ ⟨(x 0).val % 4, by omega⟩ ⟨(x 1).val, hx1⟩) rfl).trans ?_
  rw [View.readAt_apply]
  refine congrArg _ (funext fun a => Fin.ext ?_)
  match a with
  | ⟨0, _⟩ => show 0 + 1 * ((x 0).val / 64) = (k 0).val; omega
  | ⟨1, _⟩ => show kh + 1 * ((x 0).val / 4 % 16) = (k 1).val; omega
  | ⟨2, _⟩ => show kw + 1 * ((x 0).val % 4) = (k 2).val; omega
  | ⟨3, _⟩ => show 0 + 1 * (x 1).val = (k 3).val; omega

/-- The padded activation's index that the patch matrix's entry (p, t) reads: with p = (b * 16 + h) * 4 + x and
    t = (kh * 5 + kw) * 128 + ci it is (b, kh + h, kw + x, ci). -/
def xaIdx (y : S512x3200.Idx) : S8x20x8x128.Idx :=
  ix4 ⟨(y 0).val / 64, by have := idx2_lt0 y; omega⟩
      ⟨(y 1).val / 640 + (y 0).val / 4 % 16, by have := idx2_lt1 y; omega⟩
      ⟨(y 1).val / 128 % 5 + (y 0).val % 4, by omega⟩
      ⟨(y 1).val % 128, Nat.mod_lt _ (by decide)⟩

theorem hz2p : (![0, 0] : Fin 2 → Nat) = fun _ => 0 := funext fun a => by fin_cases a <;> rfl

/-- The block the tap (kh, kw) stores at columns [off, off + 128), off = (kh * 5 + kw) * 128, agrees with the one
    function of the patch matrix's index. -/
theorem tap_piece (c : Dev nD) (M0 : Memref sig .tc .vmem S8x20x8x128 .bf16) (f0 : Bf2 (F := F) c M0)
    (kh kw off : ℕ) (hkh : kh < 5) (hkw : kw < 5) (hoff : off = (kh * 5 + kw) * 128)
    (inbM : ∀ a, (![0, kh, kw, 0] : Fin 4 → ℕ) a + S8x16x4x128.size a ≤ S8x20x8x128.size a)
    (h1 : (Rect.unit (s := S8x20x8x128) ![0, kh, kw, 0] S8x16x4x128.size inbM).toLoadRect.shape.ShapeCasts S8x16x4x128)
    (h2 : S8x16x4x128.ShapeCasts S512x128) (h3 : S512x128.ShapeCasts S512x128)
    (inbC : ∀ a, (![0, off] : Fin 2 → ℕ) a + S512x128.size a ≤ S512x3200.size a)
    (x : (Rect.unit (s := S512x3200) ![0, off] S512x128.size inbC).shape.Idx) :
    shapeCast S512x128 (shapeCast S512x128 (shapeCast S8x16x4x128
      (View.readAt (Elt F) M0.view (Rect.unit (s := S8x20x8x128) ![0, kh, kw, 0] S8x16x4x128.size inbM).toLoadRect f0) h1) h2) h3 x
      = M0.view.read (Elt F) f0 (xaIdx ((Rect.unit (s := S512x3200) ![0, off] S512x128.size inbC).emb x)) := by
  have hx0 : (x 0).val < 512 := (x 0).isLt
  have hx1 : (x 1).val < 128 := (x 1).isLt
  subst hoff
  exact tap_apply c M0 f0 kh kw inbM h1 h2 h3 x _
    (by show (0 + 1 * (x 0).val) / 64 = (x 0).val / 64; omega)
    (by show ((kh * 5 + kw) * 128 + 1 * (x 1).val) / 640 + (0 + 1 * (x 0).val) / 4 % 16 = kh + (x 0).val / 4 % 16; omega)
    (by show ((kh * 5 + kw) * 128 + 1 * (x 1).val) / 128 % 5 + (0 + 1 * (x 0).val) % 4 = kw + (x 0).val % 4; omega)
    (by show ((kh * 5 + kw) * 128 + 1 * (x 1).val) % 128 = (x 1).val; omega)

set_option maxHeartbeats 4000000 in
/-- Every one of the 25 stored blocks is a block of that one function. -/
theorem pieces0 (c : Dev nD) (M0 : Memref sig .tc .vmem S8x20x8x128 .bf16) (f0 : Bf2 (F := F) c M0) :
    ∀ p ∈ run2.sl.G0_25 c M0 f0, ∀ x : p.1.shape.Idx, p.2 x = M0.view.read (Elt F) f0 (xaIdx (p.1.emb x)) := by
  unfold run2.sl.G0_25
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl
  · intro x; unfold run2.sl.v149 run2.sl.v146 run2.sl.v145
    exact tap_piece c M0 f0 4 4 3072 (by omega) (by omega) rfl _ _ _ _ (Rect.inb₂ (by decide) (by decide)) _
  · intro x; unfold run2.sl.v143 run2.sl.v140 run2.sl.v139
    exact tap_piece c M0 f0 4 3 2944 (by omega) (by omega) rfl _ _ _ _ (Rect.inb₂ (by decide) (by decide)) _
  · intro x; unfold run2.sl.v137 run2.sl.v134 run2.sl.v133
    exact tap_piece c M0 f0 4 2 2816 (by omega) (by omega) rfl _ _ _ _ (Rect.inb₂ (by decide) (by decide)) _
  · intro x; unfold run2.sl.v131 run2.sl.v128 run2.sl.v127
    exact tap_piece c M0 f0 4 1 2688 (by omega) (by omega) rfl _ _ _ _ (Rect.inb₂ (by decide) (by decide)) _
  · intro x; unfold run2.sl.v125 run2.sl.v122 run2.sl.v121
    exact tap_piece c M0 f0 4 0 2560 (by omega) (by omega) rfl _ _ _ _ (Rect.inb₂ (by decide) (by decide)) _
  · intro x; unfold run2.sl.v119 run2.sl.v116 run2.sl.v115
    exact tap_piece c M0 f0 3 4 2432 (by omega) (by omega) rfl _ _ _ _ (Rect.inb₂ (by decide) (by decide)) _
  · intro x; unfold run2.sl.v113 run2.sl.v110 run2.sl.v109 run2.sl.r
    exact tap_piece c M0 f0 3 3 2304 (by omega) (by omega) rfl _ _ _ _ (Rect.inb₂ (by decide) (by decide)) _
  · intro x; unfold run2.sl.v107 run2.sl.v104 run2.sl.v103
    exact tap_piece c M0 f0 3 2 2176 (by omega) (by omega) rfl _ _ _ _ (Rect.inb₂ (by decide) (by decide)) _
  · intro x; unfold run2.sl.v101 run2.sl.v98 run2.sl.v97
    exact tap_piece c M0 f0 3 1 2048 (by omega) (by omega) rfl _ _ _ _ (Rect.inb₂ (by decide) (by decide)) _
  · intro x; unfold run2.sl.v95 run2.sl.v92 run2.sl.v91
    exact tap_piece c M0 f0 3 0 1920 (by omega) (by omega) rfl _ _ _ _ (Rect.inb₂ (by decide) (by decide)) _
  · intro x; unfold run2.sl.v89 run2.sl.v86 run2.sl.v85
    exact tap_piece c M0 f0 2 4 1792 (by omega) (by omega) rfl _ _ _ _ (Rect.inb₂ (by decide) (by decide)) _
  · intro x; unfold run2.sl.v83 run2.sl.v80 run2.sl.v79
    exact tap_piece c M0 f0 2 3 1664 (by omega) (by omega) rfl _ _ _ _ (Rect.inb₂ (by decide) (by decide)) _
  · intro x; unfold run2.sl.v77 run2.sl.v74 run2.sl.v73
    exact tap_piece c M0 f0 2 2 1536 (by omega) (by omega) rfl _ _ _ _ (Rect.inb₂ (by decide) (by decide)) _
  · intro x; unfold run2.sl.v71 run2.sl.v68 run2.sl.v67
    exact tap_piece c M0 f0 2 1 1408 (by omega) (by omega) rfl _ _ _ _ (Rect.inb₂ (by decide) (by decide)) _
  · intro x; unfold run2.sl.v65 run2.sl.v62 run2.sl.v61
    exact tap_piece c M0 f0 2 0 1280 (by omega) (by omega) rfl _ _ _ _ (Rect.inb₂ (by decide) (by decide)) _
  · intro x; unfold run2.sl.v59 run2.sl.v56 run2.sl.v55
    exact tap_piece c M0 f0 1 4 1152 (by omega) (by omega) rfl _ _ _ _ (Rect.inb₂ (by decide) (by decide)) _
  · intro x; unfold run2.sl.v53 run2.sl.v50 run2.sl.v49
    exact tap_piece c M0 f0 1 3 1024 (by omega) (by omega) rfl _ _ _ _ (Rect.inb₂ (by decide) (by decide)) _
  · intro x; unfold run2.sl.v47 run2.sl.v44 run2.sl.v43
    exact tap_piece c M0 f0 1 2 896 (by omega) (by omega) rfl _ _ _ _ (Rect.inb₂ (by decide) (by decide)) _
  · intro x; unfold run2.sl.v41 run2.sl.v38 run2.sl.v37
    exact tap_piece c M0 f0 1 1 768 (by omega) (by omega) rfl _ _ _ _ (Rect.inb₂ (by decide) (by decide)) _
  · intro x; unfold run2.sl.v35 run2.sl.v32 run2.sl.v31
    exact tap_piece c M0 f0 1 0 640 (by omega) (by omega) rfl _ _ _ _ (Rect.inb₂ (by decide) (by decide)) _
  · intro x; unfold run2.sl.v29 run2.sl.v26 run2.sl.v25
    exact tap_piece c M0 f0 0 4 512 (by omega) (by omega) rfl _ _ _ _ (Rect.inb₂ (by decide) (by decide)) _
  · intro x; unfold run2.sl.v23 run2.sl.v20 run2.sl.v19
    exact tap_piece c M0 f0 0 3 384 (by omega) (by omega) rfl _ _ _ _ (Rect.inb₂ (by decide) (by decide)) _
  · intro x; unfold run2.sl.v17 run2.sl.v14 run2.sl.v13
    exact tap_piece c M0 f0 0 2 256 (by omega) (by omega) rfl _ _ _ _ (Rect.inb₂ (by decide) (by decide)) _
  · intro x; unfold run2.sl.v11 run2.sl.v8 run2.sl.v7
    exact tap_piece c M0 f0 0 1 128 (by omega) (by omega) rfl _ _ _ _ (Rect.inb₂ (by decide) (by decide)) _
  · intro x; unfold run2.sl.v5 run2.sl.v2 run2.sl.v1
    exact tap_piece c M0 f0 0 0 0 (by omega) (by omega) rfl _ _ _ _ (Rect.inb₂ (by decide) (by decide)) _

/-- The 25 blocks tile the patch matrix. -/
theorem cover0 (c : Dev nD) (M0 : Memref sig .tc .vmem S8x20x8x128 .bf16) (f0 : Bf2 (F := F) c M0) (y : S512x3200.Idx) :
    ∃ p ∈ run2.sl.G0_25 c M0 f0, y ∈ p.1.set :=
  View.cover_of_tiledL (run2.sl.G0_25 c M0 f0) S512x128.size (by sl_kernel_rfl) y

/-- THE PATCH MATRIX READ AT AN INDEX: what the load after the 25 slice stores returns, at (p, t), is the padded
    activation's raw contents read at the shifted index. -/
theorem patch_apply (c : Dev nD) (M0 : Memref sig .tc .vmem S8x20x8x128 .bf16) (C0 : Memref sig .tc .vmem S512x3200 .bf16)
    (f0 : Bf2 (F := F) c M0) (y : S512x3200.Idx) :
    run2.sl.v150 c M0 C0 f0 y = M0.view.read (Elt F) f0 (xaIdx y) := by
  unfold run2.sl.v150
  rw [View.readCov_eq_canon_ld _ _ _ (cover0 c M0 f0), View.ld_unit_zero hz2p]
  exact View.canon_apply_of_pieces (fun y => M0.view.read (Elt F) f0 (xaIdx y)) _ (pieces0 c M0 f0) y (cover0 c M0 f0 y)

/-- The contraction index of the patch-matrix product is its one coordinate, below 3200. -/
abbrev ctr : (dot_S512x3200_S3200x256_S512x256_1_0_0_1_n_n).contr.Idx ≃ Fin 3200 :=
  contrEquiv1 dot_S512x3200_S3200x256_S512x256_1_0_0_1_n_n 3200 rfl rfl

/-- THE PRODUCT READ AT AN INDEX, at the ideal values: row p of the patch matrix against column co of the weight is
    the sum over the flattened (row tap, column tap, channel) index t of the activation at the shifted index times
    the weight at (t, co). -/
theorem conv_sum_apply (c : Dev nD) (M0 : Memref sig .tc .vmem S8x20x8x128 .bf16) (M1 : Memref sig .tc .vmem S3200x256 .bf16)
    (C0 : Memref sig .tc .vmem S512x3200 .bf16) (f0 : Bf2 (F := Ideal) c M0) (f1 : Bf2 (F := Ideal) c M1) (j : S512x256.Idx) :
    run2.sl.v152 (F := Ideal) c M0 M1 C0 f0 f1 j
      = ∑ t : Fin 3200, M0.view.read (Elt Ideal) f0 (xaIdx (ix2 (j 0) t)) * M1.view.read (Elt Ideal) f1 (ix2 t (j 1)) := by
  unfold run2.sl.v152 run2.sl.cst
  simp only [matmul]
  rw [Ideal.matmul_constant_zero_apply]
  rw [← Equiv.sum_comp ctr
        (fun t : Fin 3200 => M0.view.read (Elt Ideal) f0 (xaIdx (ix2 (j 0) t)) * M1.view.read (Elt Ideal) f1 (ix2 t (j 1)))]
  refine Finset.sum_congr rfl fun k _ => ?_
  rw [patch_apply, View.readAt_apply]
  refine congrArg₂ (· * ·) (congrArg _ (congrArg xaIdx ?_)) (congrArg _ ?_)
  · funext a
    match a with
    | ⟨0, _⟩ => exact Fin.ext rfl
    | ⟨1, _⟩ => exact Fin.ext rfl
  · funext a
    match a with
    | ⟨0, _⟩ => exact Fin.ext (by show 0 + 1 * _ = _; rw [Nat.zero_add, Nat.one_mul]; rfl)
    | ⟨1, _⟩ => exact Fin.ext (by show 0 + 1 * _ = _; rw [Nat.zero_add, Nat.one_mul]; rfl)

/-- The bias row broadcast to [512, 256] reads the bias at the column. -/
theorem bias_apply (c : Dev nD) (M2 : Memref sig .tc .vmem S1x256 .f32) (f2 : Bf2 (F := F) c M2) (j : S512x256.Idx) :
    run2.sl.v155 c M2 f2 j = M2.view.read (Elt F) f2 (ix2 (0 : Fin 1) (j 1)) := by
  unfold run2.sl.v155
  refine (broadcastTo_apply _ _ j (ix2 (0 : Fin 1) (j 1)) (fun a => match a with | ⟨0, _⟩ => rfl | ⟨1, _⟩ => rfl)).trans ?_
  unfold run2.sl.v154
  rw [shapeCast_self, View.readAt_eq_ld, View.ld_unit_zero (S := S1x256) hz2p]
  rfl

/-- THE FIRST CONVOLUTION'S RESULT BEFORE THE CAST, at the ideal values, read at (p, co): the rectifier of the
    product's sum plus the bias. -/
theorem ya_apply (c : Dev nD) (M0 : Memref sig .tc .vmem S8x20x8x128 .bf16) (M1 : Memref sig .tc .vmem S3200x256 .bf16)
    (M2 : Memref sig .tc .vmem S1x256 .f32) (C0 : Memref sig .tc .vmem S512x3200 .bf16)
    (f0 : Bf2 (F := Ideal) c M0) (f1 : Bf2 (F := Ideal) c M1) (f2 : Bf2 (F := Ideal) c M2) (j : S512x256.Idx) :
    run2.sl.v158 (F := Ideal) c M0 M1 M2 C0 f0 f1 f2 j
      = max ((∑ t : Fin 3200, M0.view.read (Elt Ideal) f0 (xaIdx (ix2 (j 0) t)) * M1.view.read (Elt Ideal) f1 (ix2 t (j 1)))
              + M2.view.read (Elt Ideal) f2 (ix2 (0 : Fin 1) (j 1))) 0 := by
  unfold run2.sl.v158 run2.sl.v156 run2.sl.v157 run2.sl.cst_127
  rw [maximumf_apply, addf_apply, broadcast_apply, conv_sum_apply, bias_apply]
  show max _ (Ideal.ofBits .f32 0x00000000#32) = _
  rw [Ideal.ofBits_zero_f32]

/-- The padded activation of image b and the weight's column co as functions of plain natural-number indices
    (zero outside the arrays), the form the convolution law is stated over. -/
def xaN (c : Dev nD) (M0 : Memref sig .tc .vmem S8x20x8x128 .bf16) (f0 : Bf2 (F := Ideal) c M0) (b : ℕ) : ℕ → ℕ → ℕ → EReal :=
  fun r s ci => if h : b < 8 ∧ r < 20 ∧ s < 8 ∧ ci < 128
    then M0.view.read (Elt Ideal) f0 (ix4 ⟨b, h.1⟩ ⟨r, h.2.1⟩ ⟨s, h.2.2.1⟩ ⟨ci, h.2.2.2⟩) else 0
def waN (c : Dev nD) (M1 : Memref sig .tc .vmem S3200x256 .bf16) (f1 : Bf2 (F := Ideal) c M1) (co : ℕ) : ℕ → EReal :=
  fun t => if h : t < 3200 ∧ co < 256 then M1.view.read (Elt Ideal) f1 (ix2 ⟨t, h.1⟩ ⟨co, h.2⟩) else 0

theorem xaN_eq (c : Dev nD) (M0 : Memref sig .tc .vmem S8x20x8x128 .bf16) (f0 : Bf2 (F := Ideal) c M0) (b r s ci : ℕ)
    (h0 : b < 8) (h1 : r < 20) (h2 : s < 8) (h3 : ci < 128) :
    xaN c M0 f0 b r s ci = M0.view.read (Elt Ideal) f0 (ix4 ⟨b, h0⟩ ⟨r, h1⟩ ⟨s, h2⟩ ⟨ci, h3⟩) := by
  unfold xaN; exact dif_pos ⟨h0, h1, h2, h3⟩
theorem waN_eq (c : Dev nD) (M1 : Memref sig .tc .vmem S3200x256 .bf16) (f1 : Bf2 (F := Ideal) c M1) (co t : ℕ)
    (h0 : t < 3200) (h1 : co < 256) :
    waN c M1 f1 co t = M1.view.read (Elt Ideal) f1 (ix2 ⟨t, h0⟩ ⟨co, h1⟩) := by
  unfold waN; exact dif_pos ⟨h0, h1⟩

/-- The same in the convolution law's form: at p = (b * 16 + h) * 4 + x the sum is the ONE contraction over the
    flattened (row tap, column tap, channel) index of image b's padded activation against the weight's column. -/
theorem ya_convFull (c : Dev nD) (M0 : Memref sig .tc .vmem S8x20x8x128 .bf16) (M1 : Memref sig .tc .vmem S3200x256 .bf16)
    (M2 : Memref sig .tc .vmem S1x256 .f32) (C0 : Memref sig .tc .vmem S512x3200 .bf16)
    (f0 : Bf2 (F := Ideal) c M0) (f1 : Bf2 (F := Ideal) c M1) (f2 : Bf2 (F := Ideal) c M2) (j : S512x256.Idx) :
    run2.sl.v158 (F := Ideal) c M0 M1 M2 C0 f0 f1 f2 j
      = max (TapSum.convFull 5 5 128 (xaN c M0 f0 ((j 0).val / 64)) (waN c M1 f1 (j 1).val) ((j 0).val / 4 % 16) ((j 0).val % 4)
              + M2.view.read (Elt Ideal) f2 (ix2 (0 : Fin 1) (j 1))) 0 := by
  have hp : (j 0).val < 512 := idx2_lt0 j
  have hco : (j 1).val < 256 := idx2_lt1 j
  rw [ya_apply]
  unfold TapSum.convFull
  show max (_ + _) 0 = max ((∑ t ∈ Finset.range 3200,
      xaN c M0 f0 ((j 0).val / 64) ((j 0).val / 4 % 16 + t / 640) ((j 0).val % 4 + t / 128 % 5) (t % 128) * waN c M1 f1 (j 1).val t) + _) 0
  rw [← Fin.sum_univ_eq_sum_range (fun t =>
      xaN c M0 f0 ((j 0).val / 64) ((j 0).val / 4 % 16 + t / 640) ((j 0).val % 4 + t / 128 % 5) (t % 128) * waN c M1 f1 (j 1).val t) 3200]
  refine congrArg (fun s => max (s + _) 0) (Finset.sum_congr rfl fun t _ => ?_)
  have ht : t.val < 3200 := t.isLt
  show _ = xaN c M0 f0 ((j 0).val / 64) ((j 0).val / 4 % 16 + t.val / 640) ((j 0).val % 4 + t.val / 128 % 5) (t.val % 128) * waN c M1 f1 (j 1).val t.val
  rw [xaN_eq c M0 f0 _ _ _ _ (by omega) (by omega) (by omega) (Nat.mod_lt _ (by decide)), waN_eq c M1 f1 _ _ ht hco]
  refine congrArg₂ (· * ·) (congrArg _ (funext fun a => ?_)) (congrArg _ (funext fun a => ?_))
  · match a with
    | ⟨0, _⟩ => exact Fin.ext rfl
    | ⟨1, _⟩ => exact Fin.ext (Nat.add_comm _ _)
    | ⟨2, _⟩ => exact Fin.ext (Nat.add_comm _ _)
    | ⟨3, _⟩ => exact Fin.ext rfl
  · match a with
    | ⟨0, _⟩ => exact Fin.ext rfl
    | ⟨1, _⟩ => exact Fin.ext rfl

end Cert.ReferenceIdeal.Hand

end
-- ==== Proof.RefConv3bValue.lean ====
/-
  The reference's region 2, second convolution of the pair and the width-4 max pool, read at an index.

  The first convolution's result, cast, is stored into the interior (offsets (0, 2, 2, 0), sizes [8,16,4,256]) of a
  scratch buffer [8,20,8,256] first filled with zeros: what the two stores leave is ONE function of the buffer's index,
  the result at row (b * 16 + (hh - 2)) * 4 + (xx - 2) inside the border and zero on it (`ypad_apply`).  The second
  patch matrix [512, 6400] is built from it by 25 slice stores exactly as the first one was from the input: at row
  p = (b * 16 + h) * 4 + x and column t = (kh * 5 + kw) * 256 + ci it holds the padded intermediate at
  (b, kh + h, kw + x, ci) (`patchB_apply`).

  At the ideal values the second product into the zero accumulator is the plain sum over t < 6400
  (`convB_sum_apply`); with the bias and the rectifier it is the second convolution's result (`yb_apply`), in the general
  convolution law's form `TapSum.convFull 5 5 256` of image b's padded intermediate against the weight's column
  (`yb_convFull`); the padded intermediate itself is, over the raw inputs, the first convolution's rectified result
  inside the border and zero on it (`ypadG_ideal`).  The pool reshapes [512, 256] to [128, 4, 256] and takes the maximum
  over the middle axis: the output block at (b, h, 0, co) is the fold of max over x < 4 of the result at row
  (b * 16 + h) * 4 + x (`out_apply`, `out_closed`).  The run's output contents read back through the output's view are
  that block (`readW2`), so they have this closed form (`witness_closed`).
-/
import proofs.«147627_g2000402439390779_pallasbulk_891_17_alg».proof.Proof.RefConv3aValue
import Idealize.ShloMosaic.Lib.IdealHost

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [Cert.ReferenceIdeal.Facts]

theorem hz4p : (![0, 0, 0, 0] : Fin 4 → Nat) = fun _ => 0 := funext fun a => by fin_cases a <;> rfl

/-- The interior [8,16,4,256] of the padded [8,20,8,256] buffer, at offsets (0, 2, 2, 0), lies inside it. -/
theorem inbY : ∀ a, (![0, 2, 2, 0] : Fin 4 → ℕ) a + S8x16x4x256.size a ≤ S8x20x8x256.size a :=
  fun a => by fin_cases a <;> decide

/-- THE ZERO-PADDED INTERMEDIATE ACTIVATION as one function of its index (b, hh, xx, ci): inside the border
    (2 ≤ hh < 18, 2 ≤ xx < 6) the first convolution's result after the cast at row (b * 16 + (hh - 2)) * 4 + (xx - 2)
    and column ci; on the border the zero pattern. -/
def ypadG (c : Dev nD) (M0 : Memref sig .tc .vmem S8x20x8x128 .bf16) (M1 : Memref sig .tc .vmem S3200x256 .bf16) (M2 : Memref sig .tc .vmem S1x256 .f32) (C0 : Memref sig .tc .vmem S512x3200 .bf16)
    (f0 : Bf2 (F := F) c M0) (f1 : Bf2 (F := F) c M1) (f2 : Bf2 (F := F) c M2) (k : S8x20x8x256.Idx) : Elt F .bf16 :=
  if h : 2 ≤ (k 1).val ∧ (k 1).val < 18 ∧ 2 ≤ (k 2).val ∧ (k 2).val < 6 then
    run2.sl.v159 c M0 M1 M2 C0 f0 f1 f2
      (ix2 ⟨((k 0).val * 16 + ((k 1).val - 2)) * 4 + ((k 2).val - 2), by have h0 : (k 0).val < 8 := (k 0).isLt; omega⟩ ⟨(k 3).val, (k 3).isLt⟩)
  else FloatOps.ofBits .bf16 0#16

/-- What the zero fill and the interior store leave in the scratch buffer is that function. -/
theorem ypad_apply (c : Dev nD) (M0 : Memref sig .tc .vmem S8x20x8x128 .bf16) (M1 : Memref sig .tc .vmem S3200x256 .bf16) (M2 : Memref sig .tc .vmem S1x256 .f32) (C0 : Memref sig .tc .vmem S512x3200 .bf16)
    (f0 : Bf2 (F := F) c M0) (f1 : Bf2 (F := F) c M1) (f2 : Bf2 (F := F) c M2) (k : S8x20x8x256.Idx) :
    View.canon (run2.sl.G1_2 c M0 M1 M2 C0 f0 f1 f2) k = ypadG c M0 M1 M2 C0 f0 f1 f2 k := by
  have h0 : (k 0).val < 8 := (k 0).isLt
  have h3 : (k 3).val < 256 := (k 3).isLt
  unfold ypadG run2.sl.G1_2
  by_cases h : 2 ≤ (k 1).val ∧ (k 1).val < 18 ∧ 2 ≤ (k 2).val ∧ (k 2).val < 6
  · rw [dif_pos h]
    have hk : k = (Rect.unit (s := S8x20x8x256) ![0, 2, 2, 0] S8x16x4x256.size inbY).emb
        (ix4 ⟨(k 0).val, h0⟩ ⟨(k 1).val - 2, by omega⟩ ⟨(k 2).val - 2, by omega⟩ ⟨(k 3).val, h3⟩) := by
      funext a
      match a with
      | ⟨0, _⟩ => exact Fin.ext (by show (k 0).val = 0 + 1 * (k 0).val; omega)
      | ⟨1, _⟩ => exact Fin.ext (by show (k 1).val = 2 + 1 * ((k 1).val - 2); omega)
      | ⟨2, _⟩ => exact Fin.ext (by show (k 2).val = 2 + 1 * ((k 2).val - 2); omega)
      | ⟨3, _⟩ => exact Fin.ext (by show (k 3).val = 0 + 1 * (k 3).val; omega)
    refine (congrArg (View.canon _) hk).trans
      ((View.canon_cons_emb (Rect.unit (s := S8x20x8x256) ![0, 2, 2, 0] S8x16x4x256.size inbY) _ _ _).trans ?_)
    unfold run2.sl.v167 run2.sl.v164
    rw [shapeCast_self]
    exact shapeCast_apply _ _ _ _ (by
      rw [Shape.rowMajor_val_two, Shape.rowMajor_val_four]
      show (((k 0).val * 16 + ((k 1).val - 2)) * 4 + ((k 2).val - 2)) * 256 + (k 3).val
        = (((k 0).val * 16 + ((k 1).val - 2)) * 4 + ((k 2).val - 2)) * 256 + (k 3).val
      rfl)
  · rw [dif_neg h]
    have hm : k ∉ (Rect.unit (s := S8x20x8x256) ![0, 2, 2, 0] S8x16x4x256.size inbY).set := fun hm => h (by
      have h1 := Rect.mem_set_unit.mp hm 1
      have h2 := Rect.mem_set_unit.mp hm 2
      exact ⟨h1.1, h1.2, h2.1, h2.2⟩)
    refine (View.canon_cons_of_not_mem
      (⟨Rect.unit (s := S8x20x8x256) ![0, 2, 2, 0] S8x16x4x256.size inbY, _⟩ : View.Piece (Elt F) S8x20x8x256 .bf16) _ hm).trans ?_
    unfold run2.sl.G1_1
    rw [View.canon_unit_zero hz4p]
    unfold run2.sl.v163 run2.sl.v160 run2.sl.cst_128
    rw [shapeCast_self]
    rfl

/-- The padded intermediate's index that the second patch matrix's entry (p, t) reads. -/
def xbIdx (y : S512x6400.Idx) : S8x20x8x256.Idx :=
  ix4 ⟨(y 0).val / 64, by have := idx2_lt0 y; omega⟩
      ⟨(y 1).val / 1280 + (y 0).val / 4 % 16, by have := idx2_lt1 y; omega⟩
      ⟨(y 1).val / 256 % 5 + (y 0).val % 4, by omega⟩
      ⟨(y 1).val % 256, Nat.mod_lt _ (by decide)⟩

/-- One tap's block of the second patch matrix at a local index, whatever the stores L into the padded buffer were:
    the load of the [8,16,4,256] window at offsets (0, kh, kw, 0), flattened row-major to [512,256], reads what the
    stores left at (p / 64, kh + p / 4 % 16, kw + p % 4, ci). -/
theorem tapB_apply (C1 : Memref sig .tc .vmem S8x20x8x256 .bf16) (L : List (View.Piece (Elt F) S8x20x8x256 .bf16))
    (kh kw : ℕ) (inbM : ∀ a, (![0, kh, kw, 0] : Fin 4 → ℕ) a + S8x16x4x256.size a ≤ S8x20x8x256.size a)
    (h2 : (Rect.unit (s := S8x20x8x256) ![0, kh, kw, 0] S8x16x4x256.size inbM).toLoadRect.shape.ShapeCasts S512x256)
    (h3 : S512x256.ShapeCasts S512x256)
    (x : S512x256.Idx) (k : S8x20x8x256.Idx)
    (hk0 : (k 0).val = (x 0).val / 64) (hk1 : (k 1).val = kh + (x 0).val / 4 % 16)
    (hk2 : (k 2).val = kw + (x 0).val % 4) (hk3 : (k 3).val = (x 1).val) :
    shapeCast S512x256 (shapeCast S512x256
      (C1.view.readCov L (Rect.unit (s := S8x20x8x256) ![0, kh, kw, 0] S8x16x4x256.size inbM).toLoadRect) h2) h3 x
      = View.canon L k := by
  have hx0 : (x 0).val < 512 := idx2_lt0 x
  have hx1 : (x 1).val < 256 := idx2_lt1 x
  rw [shapeCast_self]
  refine (shapeCast_apply _ _ x
    (ix4 ⟨(x 0).val / 64, by omega⟩ ⟨(x 0).val / 4 % 16, by omega⟩ ⟨(x 0).val % 4, by omega⟩ ⟨(x 1).val, hx1⟩)
    (by show (Shape.rowMajor (⟨4, ![8, 16, 4, 256]⟩ : Shape)
              (ix4 ⟨(x 0).val / 64, by omega⟩ ⟨(x 0).val / 4 % 16, by omega⟩ ⟨(x 0).val % 4, by omega⟩ ⟨(x 1).val, hx1⟩)).val
            = (S512x256.rowMajor x).val
        rw [Shape.rowMajor_val_two, Shape.rowMajor_val_four]
        show ((((x 0).val / 64) * 16 + (x 0).val / 4 % 16) * 4 + (x 0).val % 4) * 256 + (x 1).val = (x 0).val * 256 + (x 1).val
        omega)).trans ?_
  rw [View.readCov_eq_canon']
  refine congrArg _ (funext fun a => Fin.ext ?_)
  match a with
  | ⟨0, _⟩ => show 0 + 1 * ((x 0).val / 64) = (k 0).val; omega
  | ⟨1, _⟩ => show kh + 1 * ((x 0).val / 4 % 16) = (k 1).val; omega
  | ⟨2, _⟩ => show kw + 1 * ((x 0).val % 4) = (k 2).val; omega
  | ⟨3, _⟩ => show 0 + 1 * (x 1).val = (k 3).val; omega

/-- The block the tap (kh, kw) stores at columns [off, off + 256), off = (kh * 5 + kw) * 256, agrees with the one
    function of the second patch matrix's index. -/
theorem tapB_piece (C1 : Memref sig .tc .vmem S8x20x8x256 .bf16) (L : List (View.Piece (Elt F) S8x20x8x256 .bf16))
    (kh kw off : ℕ) (hkh : kh < 5) (hkw : kw < 5) (hoff : off = (kh * 5 + kw) * 256)
    (inbM : ∀ a, (![0, kh, kw, 0] : Fin 4 → ℕ) a + S8x16x4x256.size a ≤ S8x20x8x256.size a)
    (h2 : (Rect.unit (s := S8x20x8x256) ![0, kh, kw, 0] S8x16x4x256.size inbM).toLoadRect.shape.ShapeCasts S512x256)
    (h3 : S512x256.ShapeCasts S512x256)
    (inbC : ∀ a, (![0, off] : Fin 2 → ℕ) a + S512x256.size a ≤ S512x6400.size a)
    (x : (Rect.unit (s := S512x6400) ![0, off] S512x256.size inbC).shape.Idx) :
    shapeCast S512x256 (shapeCast S512x256
      (C1.view.readCov L (Rect.unit (s := S8x20x8x256) ![0, kh, kw, 0] S8x16x4x256.size inbM).toLoadRect) h2) h3 x
      = View.canon L (xbIdx ((Rect.unit (s := S512x6400) ![0, off] S512x256.size inbC).emb x)) := by
  have hx0 : (x 0).val < 512 := (x 0).isLt
  have hx1 : (x 1).val < 256 := (x 1).isLt
  subst hoff
  exact tapB_apply C1 L kh kw inbM h2 h3 x _
    (by show (0 + 1 * (x 0).val) / 64 = (x 0).val / 64; omega)
    (by show ((kh * 5 + kw) * 256 + 1 * (x 1).val) / 1280 + (0 + 1 * (x 0).val) / 4 % 16 = kh + (x 0).val / 4 % 16; omega)
    (by show ((kh * 5 + kw) * 256 + 1 * (x 1).val) / 256 % 5 + (0 + 1 * (x 0).val) % 4 = kw + (x 0).val % 4; omega)
    (by show ((kh * 5 + kw) * 256 + 1 * (x 1).val) % 256 = (x 1).val; omega)

set_option maxHeartbeats 4000000 in
/-- Every one of the 25 stored blocks of the second patch matrix is a block of that one function. -/
theorem piecesB (c : Dev nD) (M0 : Memref sig .tc .vmem S8x20x8x128 .bf16) (M1 : Memref sig .tc .vmem S3200x256 .bf16) (M2 : Memref sig .tc .vmem S1x256 .f32) (C0 : Memref sig .tc .vmem S512x3200 .bf16)
    (f0 : Bf2 (F := F) c M0) (f1 : Bf2 (F := F) c M1) (f2 : Bf2 (F := F) c M2) (C1 : Memref sig .tc .vmem S8x20x8x256 .bf16) :
    ∀ p ∈ run2.sl.G2_25 c M0 M1 M2 C0 C1 f0 f1 f2, ∀ x : p.1.shape.Idx,
      p.2 x = View.canon (run2.sl.G1_2 c M0 M1 M2 C0 f0 f1 f2) (xbIdx (p.1.emb x)) := by
  unfold run2.sl.G2_25
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl
  · intro x; unfold run2.sl.v292 run2.sl.v289 run2.sl.v288
    exact tapB_piece C1 _ 4 4 6144 (by omega) (by omega) rfl _ _ _ (Rect.inb₂ (by decide) (by decide)) _
  · intro x; unfold run2.sl.v287 run2.sl.v284 run2.sl.v283
    exact tapB_piece C1 _ 4 3 5888 (by omega) (by omega) rfl _ _ _ (Rect.inb₂ (by decide) (by decide)) _
  · intro x; unfold run2.sl.v282 run2.sl.v279 run2.sl.v278
    exact tapB_piece C1 _ 4 2 5632 (by omega) (by omega) rfl _ _ _ (Rect.inb₂ (by decide) (by decide)) _
  · intro x; unfold run2.sl.v277 run2.sl.v274 run2.sl.v273
    exact tapB_piece C1 _ 4 1 5376 (by omega) (by omega) rfl _ _ _ (Rect.inb₂ (by decide) (by decide)) _
  · intro x; unfold run2.sl.v272 run2.sl.v269 run2.sl.v268
    exact tapB_piece C1 _ 4 0 5120 (by omega) (by omega) rfl _ _ _ (Rect.inb₂ (by decide) (by decide)) _
  · intro x; unfold run2.sl.v267 run2.sl.v264 run2.sl.v263
    exact tapB_piece C1 _ 3 4 4864 (by omega) (by omega) rfl _ _ _ (Rect.inb₂ (by decide) (by decide)) _
  · intro x; unfold run2.sl.v262 run2.sl.v259 run2.sl.v258
    exact tapB_piece C1 _ 3 3 4608 (by omega) (by omega) rfl _ _ _ (Rect.inb₂ (by decide) (by decide)) _
  · intro x; unfold run2.sl.v257 run2.sl.v254 run2.sl.v253
    exact tapB_piece C1 _ 3 2 4352 (by omega) (by omega) rfl _ _ _ (Rect.inb₂ (by decide) (by decide)) _
  · intro x; unfold run2.sl.v252 run2.sl.v249 run2.sl.v248
    exact tapB_piece C1 _ 3 1 4096 (by omega) (by omega) rfl _ _ _ (Rect.inb₂ (by decide) (by decide)) _
  · intro x; unfold run2.sl.v247 run2.sl.v244 run2.sl.v243
    exact tapB_piece C1 _ 3 0 3840 (by omega) (by omega) rfl _ _ _ (Rect.inb₂ (by decide) (by decide)) _
  · intro x; unfold run2.sl.v242 run2.sl.v239 run2.sl.v238
    exact tapB_piece C1 _ 2 4 3584 (by omega) (by omega) rfl _ _ _ (Rect.inb₂ (by decide) (by decide)) _
  · intro x; unfold run2.sl.v237 run2.sl.v234 run2.sl.v233
    exact tapB_piece C1 _ 2 3 3328 (by omega) (by omega) rfl _ _ _ (Rect.inb₂ (by decide) (by decide)) _
  · intro x; unfold run2.sl.v232 run2.sl.v229 run2.sl.v228
    exact tapB_piece C1 _ 2 2 3072 (by omega) (by omega) rfl _ _ _ (Rect.inb₂ (by decide) (by decide)) _
  · intro x; unfold run2.sl.v227 run2.sl.v224 run2.sl.v223
    exact tapB_piece C1 _ 2 1 2816 (by omega) (by omega) rfl _ _ _ (Rect.inb₂ (by decide) (by decide)) _
  · intro x; unfold run2.sl.v222 run2.sl.v219 run2.sl.v218
    exact tapB_piece C1 _ 2 0 2560 (by omega) (by omega) rfl _ _ _ (Rect.inb₂ (by decide) (by decide)) _
  · intro x; unfold run2.sl.v217 run2.sl.v214 run2.sl.v213
    exact tapB_piece C1 _ 1 4 2304 (by omega) (by omega) rfl _ _ _ (Rect.inb₂ (by decide) (by decide)) _
  · intro x; unfold run2.sl.v212 run2.sl.v209 run2.sl.v208
    exact tapB_piece C1 _ 1 3 2048 (by omega) (by omega) rfl _ _ _ (Rect.inb₂ (by decide) (by decide)) _
  · intro x; unfold run2.sl.v207 run2.sl.v204 run2.sl.v203
    exact tapB_piece C1 _ 1 2 1792 (by omega) (by omega) rfl _ _ _ (Rect.inb₂ (by decide) (by decide)) _
  · intro x; unfold run2.sl.v202 run2.sl.v199 run2.sl.v198
    exact tapB_piece C1 _ 1 1 1536 (by omega) (by omega) rfl _ _ _ (Rect.inb₂ (by decide) (by decide)) _
  · intro x; unfold run2.sl.v197 run2.sl.v194 run2.sl.v193
    exact tapB_piece C1 _ 1 0 1280 (by omega) (by omega) rfl _ _ _ (Rect.inb₂ (by decide) (by decide)) _
  · intro x; unfold run2.sl.v192 run2.sl.v189 run2.sl.v188
    exact tapB_piece C1 _ 0 4 1024 (by omega) (by omega) rfl _ _ _ (Rect.inb₂ (by decide) (by decide)) _
  · intro x; unfold run2.sl.v187 run2.sl.v184 run2.sl.v183
    exact tapB_piece C1 _ 0 3 768 (by omega) (by omega) rfl _ _ _ (Rect.inb₂ (by decide) (by decide)) _
  · intro x; unfold run2.sl.v182 run2.sl.v179 run2.sl.v178
    exact tapB_piece C1 _ 0 2 512 (by omega) (by omega) rfl _ _ _ (Rect.inb₂ (by decide) (by decide)) _
  · intro x; unfold run2.sl.v177 run2.sl.v174 run2.sl.v173
    exact tapB_piece C1 _ 0 1 256 (by omega) (by omega) rfl _ _ _ (Rect.inb₂ (by decide) (by decide)) _
  · intro x; unfold run2.sl.v172 run2.sl.v169 run2.sl.v168
    exact tapB_piece C1 _ 0 0 0 (by omega) (by omega) rfl _ _ _ (Rect.inb₂ (by decide) (by decide)) _

/-- The 25 blocks tile the second patch matrix. -/
theorem coverB (c : Dev nD) (M0 : Memref sig .tc .vmem S8x20x8x128 .bf16) (M1 : Memref sig .tc .vmem S3200x256 .bf16) (M2 : Memref sig .tc .vmem S1x256 .f32) (C0 : Memref sig .tc .vmem S512x3200 .bf16)
    (f0 : Bf2 (F := F) c M0) (f1 : Bf2 (F := F) c M1) (f2 : Bf2 (F := F) c M2) (C1 : Memref sig .tc .vmem S8x20x8x256 .bf16) (y : S512x6400.Idx) :
    ∃ p ∈ run2.sl.G2_25 c M0 M1 M2 C0 C1 f0 f1 f2, y ∈ p.1.set :=
  View.cover_of_tiledL (run2.sl.G2_25 c M0 M1 M2 C0 C1 f0 f1 f2) S512x256.size (by sl_kernel_rfl) y

/-- THE SECOND PATCH MATRIX READ AT AN INDEX: at (p, t) it is the padded intermediate at
    (p / 64, t / 1280 + p / 4 % 16, t / 256 % 5 + p % 4, t % 256). -/
theorem patchB_apply (c : Dev nD) (M0 : Memref sig .tc .vmem S8x20x8x128 .bf16) (M1 : Memref sig .tc .vmem S3200x256 .bf16) (M2 : Memref sig .tc .vmem S1x256 .f32) (C0 : Memref sig .tc .vmem S512x3200 .bf16)
    (f0 : Bf2 (F := F) c M0) (f1 : Bf2 (F := F) c M1) (f2 : Bf2 (F := F) c M2) (C1 : Memref sig .tc .vmem S8x20x8x256 .bf16) (C2 : Memref sig .tc .vmem S512x6400 .bf16)
    (y : S512x6400.Idx) :
    run2.sl.v293 c M0 M1 M2 C0 C1 C2 f0 f1 f2 y = ypadG c M0 M1 M2 C0 f0 f1 f2 (xbIdx y) := by
  unfold run2.sl.v293
  rw [View.readCov_eq_canon_ld _ _ _ (coverB c M0 M1 M2 C0 f0 f1 f2 C1), View.ld_unit_zero hz2p]
  exact (View.canon_apply_of_pieces (fun y => View.canon (run2.sl.G1_2 c M0 M1 M2 C0 f0 f1 f2) (xbIdx y)) _
    (piecesB c M0 M1 M2 C0 f0 f1 f2 C1) y (coverB c M0 M1 M2 C0 f0 f1 f2 C1 y)).trans (ypad_apply c M0 M1 M2 C0 f0 f1 f2 _)

/-- The contraction index of the second patch-matrix product is its one coordinate, below 6400. -/
abbrev ctrB : (dot_S512x6400_S6400x256_S512x256_1_0_0_1_n_n).contr.Idx ≃ Fin 6400 :=
  contrEquiv1 dot_S512x6400_S6400x256_S512x256_1_0_0_1_n_n 6400 rfl rfl

/-- THE SECOND PRODUCT READ AT AN INDEX, at the ideal values: the sum over the flattened (row tap, column tap, channel)
    index t of the padded intermediate at the shifted index times the weight at (t, co). -/
theorem convB_sum_apply (c : Dev nD) (M0 : Memref sig .tc .vmem S8x20x8x128 .bf16) (M1 : Memref sig .tc .vmem S3200x256 .bf16) (M2 : Memref sig .tc .vmem S1x256 .f32)
    (M3 : Memref sig .tc .vmem S6400x256 .bf16)
    (C0 : Memref sig .tc .vmem S512x3200 .bf16) (C1 : Memref sig .tc .vmem S8x20x8x256 .bf16) (C2 : Memref sig .tc .vmem S512x6400 .bf16)
    (f0 : Bf2 (F := Ideal) c M0) (f1 : Bf2 (F := Ideal) c M1) (f2 : Bf2 (F := Ideal) c M2) (f3 : Bf2 (F := Ideal) c M3) (j : S512x256.Idx) :
    run2.sl.v295 (F := Ideal) c M0 M1 M2 M3 C0 C1 C2 f0 f1 f2 f3 j
      = ∑ t : Fin 6400, ypadG (F := Ideal) c M0 M1 M2 C0 f0 f1 f2 (xbIdx (ix2 (j 0) t)) * M3.view.read (Elt Ideal) f3 (ix2 t (j 1)) := by
  unfold run2.sl.v295 run2.sl.cst
  simp only [matmul]
  rw [Ideal.matmul_constant_zero_apply]
  rw [← Equiv.sum_comp ctrB
        (fun t : Fin 6400 => ypadG (F := Ideal) c M0 M1 M2 C0 f0 f1 f2 (xbIdx (ix2 (j 0) t)) * M3.view.read (Elt Ideal) f3 (ix2 t (j 1)))]
  refine Finset.sum_congr rfl fun k _ => ?_
  rw [patchB_apply, View.readAt_apply]
  refine congrArg₂ (· * ·) (congrArg _ (congrArg xbIdx ?_)) (congrArg _ ?_)
  · funext a
    match a with
    | ⟨0, _⟩ => exact Fin.ext rfl
    | ⟨1, _⟩ => exact Fin.ext rfl
  · funext a
    match a with
    | ⟨0, _⟩ => exact Fin.ext (by show 0 + 1 * _ = _; rw [Nat.zero_add, Nat.one_mul]; rfl)
    | ⟨1, _⟩ => exact Fin.ext (by show 0 + 1 * _ = _; rw [Nat.zero_add, Nat.one_mul]; rfl)

/-- The second bias row broadcast to [512, 256] reads the bias at the column. -/
theorem biasB_apply (c : Dev nD) (M4 : Memref sig .tc .vmem S1x256 .f32) (f4 : Bf2 (F := F) c M4) (j : S512x256.Idx) :
    run2.sl.v298 c M4 f4 j = M4.view.read (Elt F) f4 (ix2 (0 : Fin 1) (j 1)) := by
  unfold run2.sl.v298
  refine (broadcastTo_apply _ _ j (ix2 (0 : Fin 1) (j 1)) (fun a => match a with | ⟨0, _⟩ => rfl | ⟨1, _⟩ => rfl)).trans ?_
  unfold run2.sl.v297
  rw [shapeCast_self, View.readAt_eq_ld, View.ld_unit_zero (S := S1x256) hz2p]
  rfl

/-- THE SECOND CONVOLUTION'S RESULT at (p, co), at the ideal values: the rectifier of the sum plus the bias. -/
theorem yb_apply (c : Dev nD) (M0 : Memref sig .tc .vmem S8x20x8x128 .bf16) (M1 : Memref sig .tc .vmem S3200x256 .bf16) (M2 : Memref sig .tc .vmem S1x256 .f32)
    (M3 : Memref sig .tc .vmem S6400x256 .bf16) (M4 : Memref sig .tc .vmem S1x256 .f32)
    (C0 : Memref sig .tc .vmem S512x3200 .bf16) (C1 : Memref sig .tc .vmem S8x20x8x256 .bf16) (C2 : Memref sig .tc .vmem S512x6400 .bf16)
    (f0 : Bf2 (F := Ideal) c M0) (f1 : Bf2 (F := Ideal) c M1) (f2 : Bf2 (F := Ideal) c M2) (f3 : Bf2 (F := Ideal) c M3) (f4 : Bf2 (F := Ideal) c M4) (j : S512x256.Idx) :
    run2.sl.v301 (F := Ideal) c M0 M1 M2 M3 M4 C0 C1 C2 f0 f1 f2 f3 f4 j
      = max ((∑ t : Fin 6400, ypadG (F := Ideal) c M0 M1 M2 C0 f0 f1 f2 (xbIdx (ix2 (j 0) t)) * M3.view.read (Elt Ideal) f3 (ix2 t (j 1)))
              + M4.view.read (Elt Ideal) f4 (ix2 (0 : Fin 1) (j 1))) 0 := by
  unfold run2.sl.v301 run2.sl.v299 run2.sl.v157 run2.sl.cst_127
  rw [maximumf_apply, addf_apply, broadcast_apply, convB_sum_apply, biasB_apply]
  show max _ (Ideal.ofBits .f32 0x00000000#32) = _
  rw [Ideal.ofBits_zero_f32]

/-- The padded intermediate of image b and the second weight's column co at plain natural-number indices (zero outside
    the arrays). -/
def ypN (c : Dev nD) (M0 : Memref sig .tc .vmem S8x20x8x128 .bf16) (M1 : Memref sig .tc .vmem S3200x256 .bf16) (M2 : Memref sig .tc .vmem S1x256 .f32) (C0 : Memref sig .tc .vmem S512x3200 .bf16)
    (f0 : Bf2 (F := Ideal) c M0) (f1 : Bf2 (F := Ideal) c M1) (f2 : Bf2 (F := Ideal) c M2) (b : ℕ) : ℕ → ℕ → ℕ → EReal :=
  fun r s ci => if h : b < 8 ∧ r < 20 ∧ s < 8 ∧ ci < 256
    then ypadG (F := Ideal) c M0 M1 M2 C0 f0 f1 f2 (ix4 ⟨b, h.1⟩ ⟨r, h.2.1⟩ ⟨s, h.2.2.1⟩ ⟨ci, h.2.2.2⟩) else 0
def wbN (c : Dev nD) (M3 : Memref sig .tc .vmem S6400x256 .bf16) (f3 : Bf2 (F := Ideal) c M3) (co : ℕ) : ℕ → EReal :=
  fun t => if h : t < 6400 ∧ co < 256 then M3.view.read (Elt Ideal) f3 (ix2 ⟨t, h.1⟩ ⟨co, h.2⟩) else 0

theorem ypN_eq (c : Dev nD) (M0 : Memref sig .tc .vmem S8x20x8x128 .bf16) (M1 : Memref sig .tc .vmem S3200x256 .bf16) (M2 : Memref sig .tc .vmem S1x256 .f32) (C0 : Memref sig .tc .vmem S512x3200 .bf16)
    (f0 : Bf2 (F := Ideal) c M0) (f1 : Bf2 (F := Ideal) c M1) (f2 : Bf2 (F := Ideal) c M2) (b r s ci : ℕ)
    (h0 : b < 8) (h1 : r < 20) (h2 : s < 8) (h3 : ci < 256) :
    ypN c M0 M1 M2 C0 f0 f1 f2 b r s ci = ypadG (F := Ideal) c M0 M1 M2 C0 f0 f1 f2 (ix4 ⟨b, h0⟩ ⟨r, h1⟩ ⟨s, h2⟩ ⟨ci, h3⟩) := by
  unfold ypN; exact dif_pos ⟨h0, h1, h2, h3⟩
theorem wbN_eq (c : Dev nD) (M3 : Memref sig .tc .vmem S6400x256 .bf16) (f3 : Bf2 (F := Ideal) c M3) (co t : ℕ)
    (h0 : t < 6400) (h1 : co < 256) :
    wbN c M3 f3 co t = M3.view.read (Elt Ideal) f3 (ix2 ⟨t, h0⟩ ⟨co, h1⟩) := by
  unfold wbN; exact dif_pos ⟨h0, h1⟩

/-- The same in the convolution law's form. -/
theorem yb_convFull (c : Dev nD) (M0 : Memref sig .tc .vmem S8x20x8x128 .bf16) (M1 : Memref sig .tc .vmem S3200x256 .bf16) (M2 : Memref sig .tc .vmem S1x256 .f32)
    (M3 : Memref sig .tc .vmem S6400x256 .bf16) (M4 : Memref sig .tc .vmem S1x256 .f32)
    (C0 : Memref sig .tc .vmem S512x3200 .bf16) (C1 : Memref sig .tc .vmem S8x20x8x256 .bf16) (C2 : Memref sig .tc .vmem S512x6400 .bf16)
    (f0 : Bf2 (F := Ideal) c M0) (f1 : Bf2 (F := Ideal) c M1) (f2 : Bf2 (F := Ideal) c M2) (f3 : Bf2 (F := Ideal) c M3) (f4 : Bf2 (F := Ideal) c M4) (j : S512x256.Idx) :
    run2.sl.v301 (F := Ideal) c M0 M1 M2 M3 M4 C0 C1 C2 f0 f1 f2 f3 f4 j
      = max (TapSum.convFull 5 5 256 (ypN c M0 M1 M2 C0 f0 f1 f2 ((j 0).val / 64)) (wbN c M3 f3 (j 1).val) ((j 0).val / 4 % 16) ((j 0).val % 4)
              + M4.view.read (Elt Ideal) f4 (ix2 (0 : Fin 1) (j 1))) 0 := by
  have hp : (j 0).val < 512 := idx2_lt0 j
  have hco : (j 1).val < 256 := idx2_lt1 j
  rw [yb_apply]
  unfold TapSum.convFull
  show max (_ + _) 0 = max ((∑ t ∈ Finset.range 6400,
      ypN c M0 M1 M2 C0 f0 f1 f2 ((j 0).val / 64) ((j 0).val / 4 % 16 + t / 1280) ((j 0).val % 4 + t / 256 % 5) (t % 256) * wbN c M3 f3 (j 1).val t) + _) 0
  rw [← Fin.sum_univ_eq_sum_range (fun t =>
      ypN c M0 M1 M2 C0 f0 f1 f2 ((j 0).val / 64) ((j 0).val / 4 % 16 + t / 1280) ((j 0).val % 4 + t / 256 % 5) (t % 256) * wbN c M3 f3 (j 1).val t) 6400]
  refine congrArg (fun s => max (s + _) 0) (Finset.sum_congr rfl fun t _ => ?_)
  have ht : t.val < 6400 := t.isLt
  show _ = ypN c M0 M1 M2 C0 f0 f1 f2 ((j 0).val / 64) ((j 0).val / 4 % 16 + t.val / 1280) ((j 0).val % 4 + t.val / 256 % 5) (t.val % 256) * wbN c M3 f3 (j 1).val t.val
  rw [ypN_eq c M0 M1 M2 C0 f0 f1 f2 _ _ _ _ (by omega) (by omega) (by omega) (Nat.mod_lt _ (by decide)), wbN_eq c M3 f3 _ _ ht hco]
  refine congrArg₂ (· * ·) (congrArg _ (funext fun a => ?_)) (congrArg _ (funext fun a => ?_))
  · match a with
    | ⟨0, _⟩ => exact Fin.ext rfl
    | ⟨1, _⟩ => exact Fin.ext (Nat.add_comm _ _)
    | ⟨2, _⟩ => exact Fin.ext (Nat.add_comm _ _)
    | ⟨3, _⟩ => exact Fin.ext rfl
  · match a with
    | ⟨0, _⟩ => exact Fin.ext rfl
    | ⟨1, _⟩ => exact Fin.ext rfl

/-- The padded intermediate at the ideal values, over the raw inputs: inside the border the first convolution's
    rectified result (the cast changes nothing) in the convolution law's form, zero on the border. -/
theorem ypadG_ideal (c : Dev nD) (M0 : Memref sig .tc .vmem S8x20x8x128 .bf16) (M1 : Memref sig .tc .vmem S3200x256 .bf16) (M2 : Memref sig .tc .vmem S1x256 .f32) (C0 : Memref sig .tc .vmem S512x3200 .bf16)
    (f0 : Bf2 (F := Ideal) c M0) (f1 : Bf2 (F := Ideal) c M1) (f2 : Bf2 (F := Ideal) c M2) (k : S8x20x8x256.Idx) :
    ypadG (F := Ideal) c M0 M1 M2 C0 f0 f1 f2 k
      = if 2 ≤ (k 1).val ∧ (k 1).val < 18 ∧ 2 ≤ (k 2).val ∧ (k 2).val < 6 then
          max (TapSum.convFull 5 5 128 (xaN c M0 f0 (k 0).val) (waN c M1 f1 (k 3).val) ((k 1).val - 2) ((k 2).val - 2)
                + M2.view.read (Elt Ideal) f2 (ix2 (0 : Fin 1) (k 3))) 0
        else 0 := by
  have h0 : (k 0).val < 8 := (k 0).isLt
  unfold ypadG
  by_cases h : 2 ≤ (k 1).val ∧ (k 1).val < 18 ∧ 2 ≤ (k 2).val ∧ (k 2).val < 6
  · rw [dif_pos h, if_pos h]
    unfold run2.sl.v159
    rw [truncf_apply, ya_convFull]
    have e0 : (((k 0).val * 16 + ((k 1).val - 2)) * 4 + ((k 2).val - 2)) / 64 = (k 0).val := by omega
    have e1 : (((k 0).val * 16 + ((k 1).val - 2)) * 4 + ((k 2).val - 2)) / 4 % 16 = (k 1).val - 2 := by omega
    have e2 : (((k 0).val * 16 + ((k 1).val - 2)) * 4 + ((k 2).val - 2)) % 4 = (k 2).val - 2 := by omega
    show max (TapSum.convFull 5 5 128 (xaN c M0 f0 ((((k 0).val * 16 + ((k 1).val - 2)) * 4 + ((k 2).val - 2)) / 64)) (waN c M1 f1 (k 3).val)
        ((((k 0).val * 16 + ((k 1).val - 2)) * 4 + ((k 2).val - 2)) / 4 % 16) ((((k 0).val * 16 + ((k 1).val - 2)) * 4 + ((k 2).val - 2)) % 4) + M2.view.read (Elt Ideal) f2 (ix2 (0 : Fin 1) (k 3))) 0 = _
    rw [e0, e1, e2]
  · rw [dif_neg h, if_neg h]
    exact Ideal.ofBits_zero_bf16

/-- THE POOLED OUTPUT BLOCK at the ideal values: at (b, h, 0, co) the fold of max, from the reduction's initial value
    (the pattern of minus infinity), over x < 4 of the second convolution's result at row (b * 16 + h) * 4 + x. -/
theorem out_apply (c : Dev nD) (M0 : Memref sig .tc .vmem S8x20x8x128 .bf16) (M1 : Memref sig .tc .vmem S3200x256 .bf16) (M2 : Memref sig .tc .vmem S1x256 .f32)
    (M3 : Memref sig .tc .vmem S6400x256 .bf16) (M4 : Memref sig .tc .vmem S1x256 .f32)
    (C0 : Memref sig .tc .vmem S512x3200 .bf16) (C1 : Memref sig .tc .vmem S8x20x8x256 .bf16) (C2 : Memref sig .tc .vmem S512x6400 .bf16)
    (f0 : Bf2 (F := Ideal) c M0) (f1 : Bf2 (F := Ideal) c M1) (f2 : Bf2 (F := Ideal) c M2) (f3 : Bf2 (F := Ideal) c M3) (f4 : Bf2 (F := Ideal) c M4) (i : S8x16x1x256.Idx) :
    run2.sl.v305 (F := Ideal) c M0 M1 M2 M3 M4 C0 C1 C2 f0 f1 f2 f3 f4 i
      = (Finset.univ : Finset (Fin 4)).fold max (Ideal.ofBits .f32 0xFF800000#32)
          (fun x : Fin 4 => run2.sl.v301 (F := Ideal) c M0 M1 M2 M3 M4 C0 C1 C2 f0 f1 f2 f3 f4
            (ix2 ⟨((i 0).val * 16 + (i 1).val) * 4 + x.val, by have h0 : (i 0).val < 8 := (i 0).isLt; have h1 : (i 1).val < 16 := (i 1).isLt; have := x.isLt; omega⟩ ⟨(i 3).val, (i 3).isLt⟩)) := by
  have h0 : (i 0).val < 8 := (i 0).isLt
  have h1 : (i 1).val < 16 := (i 1).isLt
  have h2 : (i 2).val < 1 := (i 2).isLt
  have h3 : (i 3).val < 256 := (i 3).isLt
  unfold run2.sl.v305
  rw [truncf_apply]
  unfold run2.sl.v304
  refine (shapeCast_apply _ _ i (ix2 ⟨(i 0).val * 16 + (i 1).val, by omega⟩ ⟨(i 3).val, h3⟩) (by
      rw [Shape.rowMajor_val_two, Shape.rowMajor_val_four]
      show ((i 0).val * 16 + (i 1).val) * 256 + (i 3).val = (((i 0).val * 16 + (i 1).val) * 1 + (i 2).val) * 256 + (i 3).val
      omega)).trans ?_
  unfold run2.sl.v303
  refine (Ideal.multiReduction_maximumf_single _ _ _ _ _ _).trans ?_
  refine Finset.fold_congr fun x _ => ?_
  show run2.sl.v302 (F := Ideal) c M0 M1 M2 M3 M4 C0 C1 C2 f0 f1 f2 f3 f4 _ = _
  unfold run2.sl.v302
  exact shapeCast_apply _ _ _ _ (by
    rw [Shape.rowMajor_val_two, Shape.rowMajor_val_three]
    show (((i 0).val * 16 + (i 1).val) * 4 + x.val) * 256 + (i 3).val = (((i 0).val * 16 + (i 1).val) * 4 + x.val) * 256 + (i 3).val
    rfl)

/-- The same over the raw inputs, each pooled entry in the convolution law's form. -/
theorem out_closed (c : Dev nD) (M0 : Memref sig .tc .vmem S8x20x8x128 .bf16) (M1 : Memref sig .tc .vmem S3200x256 .bf16) (M2 : Memref sig .tc .vmem S1x256 .f32)
    (M3 : Memref sig .tc .vmem S6400x256 .bf16) (M4 : Memref sig .tc .vmem S1x256 .f32)
    (C0 : Memref sig .tc .vmem S512x3200 .bf16) (C1 : Memref sig .tc .vmem S8x20x8x256 .bf16) (C2 : Memref sig .tc .vmem S512x6400 .bf16)
    (f0 : Bf2 (F := Ideal) c M0) (f1 : Bf2 (F := Ideal) c M1) (f2 : Bf2 (F := Ideal) c M2) (f3 : Bf2 (F := Ideal) c M3) (f4 : Bf2 (F := Ideal) c M4) (i : S8x16x1x256.Idx) :
    run2.sl.v305 (F := Ideal) c M0 M1 M2 M3 M4 C0 C1 C2 f0 f1 f2 f3 f4 i
      = (Finset.univ : Finset (Fin 4)).fold max (Ideal.ofBits .f32 0xFF800000#32)
          (fun x : Fin 4 => max (TapSum.convFull 5 5 256 (ypN c M0 M1 M2 C0 f0 f1 f2 (i 0).val) (wbN c M3 f3 (i 3).val) (i 1).val x.val
              + M4.view.read (Elt Ideal) f4 (ix2 (0 : Fin 1) (i 3))) 0) := by
  have h0 : (i 0).val < 8 := (i 0).isLt
  have h1 : (i 1).val < 16 := (i 1).isLt
  rw [out_apply]
  refine Finset.fold_congr fun x _ => ?_
  have hx : x.val < 4 := x.isLt
  have e0 : (((i 0).val * 16 + (i 1).val) * 4 + x.val) / 64 = (i 0).val := by omega
  have e1 : (((i 0).val * 16 + (i 1).val) * 4 + x.val) / 4 % 16 = (i 1).val := by omega
  have e2 : (((i 0).val * 16 + (i 1).val) * 4 + x.val) % 4 = x.val := by omega
  rw [yb_convFull]
  show max (TapSum.convFull 5 5 256 (ypN c M0 M1 M2 C0 f0 f1 f2 ((((i 0).val * 16 + (i 1).val) * 4 + x.val) / 64)) (wbN c M3 f3 (i 3).val)
      ((((i 0).val * 16 + (i 1).val) * 4 + x.val) / 4 % 16) ((((i 0).val * 16 + (i 1).val) * 4 + x.val) % 4) + M4.view.read (Elt Ideal) f4 (ix2 (0 : Fin 1) (i 3))) 0 = _
  rw [e0, e1, e2]

/-- THE REGION'S WITNESS read back through the output's view is the pooled block, at any values. -/
theorem readW2 (c : Dev nD) (i : grid2.Coords) (M0 : Memref sig .tc .vmem S8x20x8x128 .bf16) (h0 : M0.IsWhole) (M1 : Memref sig .tc .vmem S3200x256 .bf16) (h1 : M1.IsWhole) (M2 : Memref sig .tc .vmem S1x256 .f32) (h2 : M2.IsWhole) (M3 : Memref sig .tc .vmem S6400x256 .bf16) (h3 : M3.IsWhole) (M4 : Memref sig .tc .vmem S1x256 .f32) (h4 : M4.IsWhole) (M5 : Memref sig .tc .vmem S8x16x1x256 .bf16) (h5 : M5.IsWhole) (C0 : Memref sig .tc .vmem S512x3200 .bf16) (g0 : C0.IsWhole) (C1 : Memref sig .tc .vmem S8x20x8x256 .bf16) (g1 : C1.IsWhole) (C2 : Memref sig .tc .vmem S512x6400 .bf16) (g2 : C2.IsWhole)
    (f0 : Bf2 (F := F) c M0) (f1 : Bf2 (F := F) c M1) (f2 : Bf2 (F := F) c M2) (f3 : Bf2 (F := F) c M3) (f4 : Bf2 (F := F) c M4) :
    M5.view.read (Elt F) (run2 c i M0 h0 M1 h1 M2 h2 M3 h3 M4 h4 M5 h5 C0 g0 C1 g1 C2 g2 f0 f1 f2 f3 f4).1
      = run2.sl.v305 c M0 M1 M2 M3 M4 C0 C1 C2 f0 f1 f2 f3 f4 := by
  unfold run2
  dsimp only
  rw [View.read_writes_junk_eq_canon]
  unfold run2.sl.H5_1
  rw [View.canon_unit_zero hz4p]

/-- THE REGION'S WITNESS IN CLOSED FORM over the raw inputs, at the ideal values: what the run leaves in the output
    block, read at (b, h, 0, co), is the fold of max over x < 4 of the second convolution's rectified result at output
    position (h, x) of image b and channel co. -/
theorem witness_closed (c : Dev nD) (i : grid2.Coords) (M0 : Memref sig .tc .vmem S8x20x8x128 .bf16) (h0 : M0.IsWhole) (M1 : Memref sig .tc .vmem S3200x256 .bf16) (h1 : M1.IsWhole) (M2 : Memref sig .tc .vmem S1x256 .f32) (h2 : M2.IsWhole) (M3 : Memref sig .tc .vmem S6400x256 .bf16) (h3 : M3.IsWhole) (M4 : Memref sig .tc .vmem S1x256 .f32) (h4 : M4.IsWhole) (M5 : Memref sig .tc .vmem S8x16x1x256 .bf16) (h5 : M5.IsWhole) (C0 : Memref sig .tc .vmem S512x3200 .bf16) (g0 : C0.IsWhole) (C1 : Memref sig .tc .vmem S8x20x8x256 .bf16) (g1 : C1.IsWhole) (C2 : Memref sig .tc .vmem S512x6400 .bf16) (g2 : C2.IsWhole)
    (f0 : Bf2 (F := Ideal) c M0) (f1 : Bf2 (F := Ideal) c M1) (f2 : Bf2 (F := Ideal) c M2) (f3 : Bf2 (F := Ideal) c M3) (f4 : Bf2 (F := Ideal) c M4)
    (y : S8x16x1x256.Idx) :
    M5.view.read (Elt Ideal) (run2 (F := Ideal) c i M0 h0 M1 h1 M2 h2 M3 h3 M4 h4 M5 h5 C0 g0 C1 g1 C2 g2 f0 f1 f2 f3 f4).1 y
      = (Finset.univ : Finset (Fin 4)).fold max (Ideal.ofBits .f32 0xFF800000#32)
          (fun x : Fin 4 => max (TapSum.convFull 5 5 256 (ypN c M0 M1 M2 C0 f0 f1 f2 (y 0).val) (wbN c M3 f3 (y 3).val) (y 1).val x.val
              + M4.view.read (Elt Ideal) f4 (ix2 (0 : Fin 1) (y 3))) 0) :=
  (congrFun (readW2 c i M0 h0 M1 h1 M2 h2 M3 h3 M4 h4 M5 h5 C0 g0 C1 g1 C2 g2 f0 f1 f2 f3 f4) y).trans
    (out_closed c M0 M1 M2 M3 M4 C0 C1 C2 f0 f1 f2 f3 f4 y)

end Cert.ReferenceIdeal.Hand

end
-- ==== Proof.RefStage3Closed.lean ====
/-
  The reference's third stage in closed form over the previous stage's output and four launched arguments.

  Region 2 has one grid point and whole-array windows: the output array after the region is the block the body leaves
  (`o2_eq`), and each input block the body is given is the whole input array (`blk2_0_eq` … `blk2_4_eq`).  The body's
  output, read back, is one function `stage3F` of what its five input buffers read (`run2_of_reads`): at (b, h, 0, co)
  the maximum over the four columns x of the rectifier of the second convolution sum at output position (h, x) —
  taken over the first convolution's rectified result padded with a border of zeros (`mid3F`) — plus the second bias.
  At the region's entry the first input array is the second stage's output padded with two rows and two columns of
  zeros, the weights are the launched ones and the bias rows the launched biases, so entry (b, h, 0, co) of what
  region 2 leaves is one closed expression of the second stage's output and four launched arguments (`o2_closed`).
-/
import proofs.«147627_g2000402439390779_pallasbulk_891_17_alg».proof.Proof.RefConv3bValue
import proofs.«147627_g2000402439390779_pallasbulk_891_17_alg».proof.Proof.ReferenceIdealFrame
import proofs.«147627_g2000402439390779_pallasbulk_891_17_alg».proof.Proof.RefHostPads
import proofs.«147627_g2000402439390779_pallasbulk_891_17_alg».proof.Proof.RefConv4Value
import Idealize.ShloMosaic.Lib.Pipeline.Value

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section Generic
variable {F : FTy → Type} [FloatOps F] [Cert.ReferenceIdeal.Facts]

section Block
variable (V : (c : Dev nD) → (b : Ref sig .tc) → Buf (Elt F) ((c : Thread nD τ).loc b))

/-- What region 2's body leaves in its output block at the region's one grid point, as contents of the array
    `main_v66`: the window's block is the whole array. -/
abbrev resBlock2 (c : Dev nD) : Buf (Elt F) ((c : Thread nD τ).loc main_v66) :=
  (win2_5.stage (cfg2.slots t2_0 5)).view.read (Elt F) (K2 V c).1

/-- The output window's block at the one point starts at the array's origin on every axis. -/
theorem hz_res2 : (fun a => win2_5.index t2_0 a * main_v66.ty.shape.size a) = fun _ => 0 :=
  funext fun a => by fin_cases a <;> decide

/-- What the one write-back writes is that block. -/
theorem flushed_res2 (c : Dev nD) (t : Fin cfg2.N) (hf : (cfg2.win 5).flush t = true) :
    (dat2 V c).flushed 5 t = ((cfg2.win 5).blk t).view.read (Elt F) (resBlock2 V c) := by
  obtain rfl := fin_N2 t
  show (cfg2.win 5).cut (grid2.coords t2_0) ((dat2 V c).after 5 t2_0) = _
  rw [after2_5]
  exact (Memref.read_access_unit_zero (Elt F) main_v66 hz_res2 (fun a => by rw [congrFun hz_res2 a]; simp) (resBlock2 V c)).symm

/-- So the region leaves its output array holding that block: the one point's block covers the array. -/
theorem arrAt_res2 (c : Dev nD) : (dat2 V c).arrAt 5 cfg2.N = resBlock2 V c :=
  (dat2 V c).arrAt_eq_of_cover 5 (resBlock2 V c) (flushed_res2 V c) fun (i : S8x16x1x256.Idx) =>
    ⟨t2_0, flush2_5 t2_0, by
      show i ∈ ((View.whole main_v66).slice (win2_5.rect t2_0)).set
      rw [View.set_slice_whole]
      refine Rect.mem_set_unit.mpr fun a => ?_
      have h0 : (i 0 : Nat) < 8 := (i 0).isLt
      have h1 : (i 1 : Nat) < 16 := (i 1).isLt
      have h2 : (i 2 : Nat) < 1 := (i 2).isLt
      have h3 : (i 3 : Nat) < 256 := (i 3).isLt
      match a with
      | ⟨0, _⟩ =>
        show win2_5.index t2_0 0 * win2_5.size 0 ≤ (i 0 : Nat) ∧ (i 0 : Nat) < win2_5.index t2_0 0 * win2_5.size 0 + win2_5.xsize (grid2.coords t2_0) 0
        rw [show win2_5.index t2_0 0 * win2_5.size 0 = 0 from by decide +kernel, show win2_5.xsize (grid2.coords t2_0) 0 = 8 from by decide +kernel]; omega
      | ⟨1, _⟩ =>
        show win2_5.index t2_0 1 * win2_5.size 1 ≤ (i 1 : Nat) ∧ (i 1 : Nat) < win2_5.index t2_0 1 * win2_5.size 1 + win2_5.xsize (grid2.coords t2_0) 1
        rw [show win2_5.index t2_0 1 * win2_5.size 1 = 0 from by decide +kernel, show win2_5.xsize (grid2.coords t2_0) 1 = 16 from by decide +kernel]; omega
      | ⟨2, _⟩ =>
        show win2_5.index t2_0 2 * win2_5.size 2 ≤ (i 2 : Nat) ∧ (i 2 : Nat) < win2_5.index t2_0 2 * win2_5.size 2 + win2_5.xsize (grid2.coords t2_0) 2
        rw [show win2_5.index t2_0 2 * win2_5.size 2 = 0 from by decide +kernel, show win2_5.xsize (grid2.coords t2_0) 2 = 1 from by decide +kernel]; omega
      | ⟨3, _⟩ =>
        show win2_5.index t2_0 3 * win2_5.size 3 ≤ (i 3 : Nat) ∧ (i 3 : Nat) < win2_5.index t2_0 3 * win2_5.size 3 + win2_5.xsize (grid2.coords t2_0) 3
        rw [show win2_5.index t2_0 3 * win2_5.size 3 = 0 from by decide +kernel, show win2_5.xsize (grid2.coords t2_0) 3 = 256 from by decide +kernel]; omega⟩

theorem hzw2_0 : (fun a => win2_0.index t2_0 a * (Pipeline.arrRef spec2 0).ty.shape.size a) = fun _ => 0 :=
  funext fun a => by fin_cases a <;> decide
/-- Input window 0's block at the one point is its whole array `main_v63`. -/
theorem blk2_0_eq (c : Dev nD) : blk2_0 V c = (V c main_v63 : S8x20x8x128.Idx → Elt F .bf16) :=
  Memref.read_access_unit_zero (Elt F) (Pipeline.arrRef spec2 0) hzw2_0 (fun a => by rw [congrFun hzw2_0 a]; simp) (V c (Pipeline.arrRef spec2 0))

theorem hzw2_1 : (fun a => win2_1.index t2_0 a * (Pipeline.arrRef spec2 1).ty.shape.size a) = fun _ => 0 :=
  funext fun a => by fin_cases a <;> decide
/-- Input window 1's block at the one point is its whole array `main_arg9`. -/
theorem blk2_1_eq (c : Dev nD) : blk2_1 V c = (V c main_arg9 : S3200x256.Idx → Elt F .bf16) :=
  Memref.read_access_unit_zero (Elt F) (Pipeline.arrRef spec2 1) hzw2_1 (fun a => by rw [congrFun hzw2_1 a]; simp) (V c (Pipeline.arrRef spec2 1))

theorem hzw2_2 : (fun a => win2_2.index t2_0 a * (Pipeline.arrRef spec2 2).ty.shape.size a) = fun _ => 0 :=
  funext fun a => by fin_cases a <;> decide
/-- Input window 2's block at the one point is its whole array `main_v64`. -/
theorem blk2_2_eq (c : Dev nD) : blk2_2 V c = (V c main_v64 : S1x256.Idx → Elt F .f32) :=
  Memref.read_access_unit_zero (Elt F) (Pipeline.arrRef spec2 2) hzw2_2 (fun a => by rw [congrFun hzw2_2 a]; simp) (V c (Pipeline.arrRef spec2 2))

theorem hzw2_3 : (fun a => win2_3.index t2_0 a * (Pipeline.arrRef spec2 3).ty.shape.size a) = fun _ => 0 :=
  funext fun a => by fin_cases a <;> decide
/-- Input window 3's block at the one point is its whole array `main_arg11`. -/
theorem blk2_3_eq (c : Dev nD) : blk2_3 V c = (V c main_arg11 : S6400x256.Idx → Elt F .bf16) :=
  Memref.read_access_unit_zero (Elt F) (Pipeline.arrRef spec2 3) hzw2_3 (fun a => by rw [congrFun hzw2_3 a]; simp) (V c (Pipeline.arrRef spec2 3))

theorem hzw2_4 : (fun a => win2_4.index t2_0 a * (Pipeline.arrRef spec2 4).ty.shape.size a) = fun _ => 0 :=
  funext fun a => by fin_cases a <;> decide
/-- Input window 4's block at the one point is its whole array `main_v65`. -/
theorem blk2_4_eq (c : Dev nD) : blk2_4 V c = (V c main_v65 : S1x256.Idx → Elt F .f32) :=
  Memref.read_access_unit_zero (Elt F) (Pipeline.arrRef spec2 4) hzw2_4 (fun a => by rw [congrFun hzw2_4 a]; simp) (V c (Pipeline.arrRef spec2 4))

end Block

variable (m : (ℓ : Loc nD τ sig) → Buf (Elt F) ℓ)

/-- What region 2 leaves in `main_v66` is the block its body leaves, the region entered at the contents the earlier
    regions and host stretches leave. -/
theorem o2_eq (c : Dev nD) : o2 m c = resBlock2 (fun c b => V13 m (outs2 m) c b) c :=
  arrAt_res2 (fun c b => V13 m (outs2 m) c b) c

end Generic

section AtIdeal
variable [Cert.ReferenceIdeal.Facts]

/-! ## The run's operands as arrays at plain natural-number coordinates -/

theorem xaN_fun (c : Dev nD) (M0 : Memref sig .tc .vmem S8x20x8x128 .bf16) (f0 : Bf2 (F := Ideal) c M0) (b : Fin 8) :
    xaN c M0 f0 b.val = nat4 (M0.view.read (Elt Ideal) f0) b := by
  funext r s ci
  unfold xaN nat4
  by_cases h : r < 20 ∧ s < 8 ∧ ci < 128
  · rw [dif_pos ⟨b.isLt, h⟩, dif_pos h]
  · rw [dif_neg (fun h' => h h'.2), dif_neg h]

theorem waN_fun (c : Dev nD) (M1 : Memref sig .tc .vmem S3200x256 .bf16) (f1 : Bf2 (F := Ideal) c M1) (co : Fin 256) :
    waN c M1 f1 co.val = natCol (M1.view.read (Elt Ideal) f1) co := by
  funext t
  unfold waN natCol
  by_cases h : t < 3200
  · rw [dif_pos ⟨h, co.isLt⟩, dif_pos h]
  · rw [dif_neg (fun h' => h h'.1), dif_neg h]

theorem wbN_fun (c : Dev nD) (M3 : Memref sig .tc .vmem S6400x256 .bf16) (f3 : Bf2 (F := Ideal) c M3) (co : Fin 256) :
    wbN c M3 f3 co.val = natCol (M3.view.read (Elt Ideal) f3) co := by
  funext t
  unfold wbN natCol
  by_cases h : t < 6400
  · rw [dif_pos ⟨h, co.isLt⟩, dif_pos h]
  · rw [dif_neg (fun h' => h h'.1), dif_neg h]

/-- The first convolution's rectified result of image b with its border of zeros, as a function of (row, column,
    channel) of the padded [20, 8, 256] image, from the padded input X0, the weight X1 and the bias row X2: inside
    the border (rows 2 … 17, columns 2 … 5) the rectifier of the convolution sum at output position (row - 2,
    column - 2) plus the bias; zero on the border and outside. -/
def mid3F (X0 : S8x20x8x128.Idx → EReal) (X1 : S3200x256.Idx → EReal) (X2 : S1x256.Idx → EReal) (b : Fin 8) (r s ci : ℕ) : EReal :=
  if h : 2 ≤ r ∧ r < 18 ∧ 2 ≤ s ∧ s < 6 ∧ ci < 256 then
    max (TapSum.convFull 5 5 128 (nat4 X0 b) (natCol X1 (⟨ci, h.2.2.2.2⟩ : Fin 256)) (r - 2) (s - 2)
          + X2 (ix2 (0 : Fin 1) (⟨ci, h.2.2.2.2⟩ : Fin 256))) 0
  else 0

/-- THE THIRD STAGE AS ONE FUNCTION of the five arrays its region reads: at (b, h, 0, co) the maximum over the four
    columns x of the rectifier of the second convolution sum, over the first convolution's padded result, at output
    position (h, x), plus the second bias. -/
def stage3F (X0 : S8x20x8x128.Idx → EReal) (X1 : S3200x256.Idx → EReal) (X2 : S1x256.Idx → EReal)
    (X3 : S6400x256.Idx → EReal) (X4 : S1x256.Idx → EReal) (y : S8x16x1x256.Idx) : EReal :=
  (Finset.univ : Finset (Fin 4)).fold max (⊥ : EReal) (fun x : Fin 4 =>
    max (TapSum.convFull 5 5 256 (mid3F X0 X1 X2 (y 0)) (natCol X3 (y 3)) (y 1).val x.val + X4 (ix2 (0 : Fin 1) (y 3))) 0)

theorem ypN_fun (c : Dev nD) (M0 : Memref sig .tc .vmem S8x20x8x128 .bf16) (M1 : Memref sig .tc .vmem S3200x256 .bf16)
    (M2 : Memref sig .tc .vmem S1x256 .f32) (C0 : Memref sig .tc .vmem S512x3200 .bf16)
    (f0 : Bf2 (F := Ideal) c M0) (f1 : Bf2 (F := Ideal) c M1) (f2 : Bf2 (F := Ideal) c M2) (b : Fin 8) :
    ypN c M0 M1 M2 C0 f0 f1 f2 b.val
      = mid3F (M0.view.read (Elt Ideal) f0) (M1.view.read (Elt Ideal) f1) (M2.view.read (Elt Ideal) f2) b := by
  funext r s ci
  unfold ypN mid3F
  by_cases hin : 2 ≤ r ∧ r < 18 ∧ 2 ≤ s ∧ s < 6 ∧ ci < 256
  · rw [dif_pos (show b.val < 8 ∧ r < 20 ∧ s < 8 ∧ ci < 256 from ⟨b.isLt, by omega, by omega, hin.2.2.2.2⟩), dif_pos hin]
    refine (ypadG_ideal c M0 M1 M2 C0 f0 f1 f2 _).trans ((if_pos ⟨hin.1, hin.2.1, hin.2.2.1, hin.2.2.2.1⟩).trans ?_)
    show max (TapSum.convFull 5 5 128 (xaN c M0 f0 b.val) (waN c M1 f1 ci) (r - 2) (s - 2)
          + M2.view.read (Elt Ideal) f2 (ix2 (0 : Fin 1) (⟨ci, hin.2.2.2.2⟩ : Fin 256))) 0 = _
    rw [xaN_fun c M0 f0 b, waN_fun c M1 f1 (⟨ci, hin.2.2.2.2⟩ : Fin 256)]
  · rw [dif_neg hin]
    by_cases h2 : b.val < 8 ∧ r < 20 ∧ s < 8 ∧ ci < 256
    · rw [dif_pos h2]
      exact (ypadG_ideal c M0 M1 M2 C0 f0 f1 f2 _).trans
        (if_neg (fun h' => hin ⟨h'.1, h'.2.1, h'.2.2.1, h'.2.2.2, h2.2.2.2⟩))
    · rw [dif_neg h2]

/-- THE BODY'S OUTPUT from what its five input buffers read. -/
theorem run2_of_reads (c : Dev nD) (i : grid2.Coords) (M0 : Memref sig .tc .vmem S8x20x8x128 .bf16) (h0 : M0.IsWhole) (M1 : Memref sig .tc .vmem S3200x256 .bf16) (h1 : M1.IsWhole) (M2 : Memref sig .tc .vmem S1x256 .f32) (h2 : M2.IsWhole) (M3 : Memref sig .tc .vmem S6400x256 .bf16) (h3 : M3.IsWhole) (M4 : Memref sig .tc .vmem S1x256 .f32) (h4 : M4.IsWhole) (M5 : Memref sig .tc .vmem S8x16x1x256 .bf16) (h5 : M5.IsWhole) (C0 : Memref sig .tc .vmem S512x3200 .bf16) (g0 : C0.IsWhole) (C1 : Memref sig .tc .vmem S8x20x8x256 .bf16) (g1 : C1.IsWhole) (C2 : Memref sig .tc .vmem S512x6400 .bf16) (g2 : C2.IsWhole)
    (f0 : Bf2 (F := Ideal) c M0) (f1 : Bf2 (F := Ideal) c M1) (f2 : Bf2 (F := Ideal) c M2) (f3 : Bf2 (F := Ideal) c M3) (f4 : Bf2 (F := Ideal) c M4)
    (X0 : S8x20x8x128.Idx → EReal) (X1 : S3200x256.Idx → EReal) (X2 : S1x256.Idx → EReal) (X3 : S6400x256.Idx → EReal) (X4 : S1x256.Idx → EReal)
    (e0 : M0.view.read (Elt Ideal) f0 = X0) (e1 : M1.view.read (Elt Ideal) f1 = X1) (e2 : M2.view.read (Elt Ideal) f2 = X2)
    (e3 : M3.view.read (Elt Ideal) f3 = X3) (e4 : M4.view.read (Elt Ideal) f4 = X4) (y : S8x16x1x256.Idx) :
    M5.view.read (Elt Ideal) (run2 (F := Ideal) c i M0 h0 M1 h1 M2 h2 M3 h3 M4 h4 M5 h5 C0 g0 C1 g1 C2 g2 f0 f1 f2 f3 f4).1 y
      = stage3F X0 X1 X2 X3 X4 y := by
  subst e0 e1 e2 e3 e4
  rw [witness_closed]
  unfold stage3F
  rw [show Ideal.ofBits .f32 0xFF800000#32 = (⊥ : EReal) from ofBits_neg_inf_f32]
  refine Finset.fold_congr fun x _ => ?_
  show max (TapSum.convFull 5 5 256 (ypN c M0 M1 M2 C0 f0 f1 f2 (y 0).val) (wbN c M3 f3 (y 3).val) (y 1).val x.val + _) 0 = _
  rw [ypN_fun c M0 M1 M2 C0 f0 f1 f2 (y 0), wbN_fun c M3 f3 (y 3)]

end AtIdeal

section Closed
variable [Cert.ReferenceIdeal.Facts]
variable (m : (ℓ : Loc nD τ sig) → Buf (Elt Ideal) ℓ)

/-! ## The operands at plain natural-number coordinates -/

/-- Image `b` of the second stage's output with two rows and two columns of zeros around it, at a natural-number row,
    column and channel of the padded [20, 8, 128] image: zero off rows 2 … 17, off columns 2 … 5 and off the 128 channels. -/
def act1N (c : Dev nD) (b : Fin 8) (r s ci : ℕ) : EReal :=
  if h : 2 ≤ r ∧ r < 18 ∧ 2 ≤ s ∧ s < 6 ∧ ci < 128 then
    (o1 m c : S8x16x4x128.Idx → EReal) (ix4 b (⟨r - 2, by omega⟩ : Fin 16) (⟨s - 2, by omega⟩ : Fin 4) (⟨ci, h.2.2.2.2⟩ : Fin 128))
  else 0

/-- The padded array region 2 finds, image `b`, at natural-number coordinates: that padded image. -/
theorem v63_nat (c : Dev nD) (b : Fin 8) :
    nat4 (V13 m (outs2 m) c main_v63 : S8x20x8x128.Idx → EReal) b = act1N m c b := by
  funext r s ci
  unfold nat4 act1N
  by_cases h : r < 20 ∧ s < 8 ∧ ci < 128
  · rw [dif_pos h, v63_read]
    by_cases hin : 2 ≤ r ∧ r < 18 ∧ 2 ≤ s ∧ s < 6
    · rw [dif_pos hin, dif_pos ⟨hin.1, hin.2.1, hin.2.2.1, hin.2.2.2, h.2.2⟩]
    · rw [dif_neg hin, dif_neg (fun h' => hin ⟨h'.1, h'.2.1, h'.2.2.1, h'.2.2.2.1⟩)]
      exact padZero_ideal
  · rw [dif_neg h, dif_neg (fun h' => h ⟨by omega, by omega, h'.2.2.2.2⟩)]

/-- The first convolution's rectified result of image `b` with its border of zeros, over the second stage's output and
    the launched first weight and bias of the stage. -/
def mid3N (c : Dev nD) (b : Fin 8) (r s ci : ℕ) : EReal :=
  if h : 2 ≤ r ∧ r < 18 ∧ 2 ≤ s ∧ s < 6 ∧ ci < 256 then
    max (TapSum.convFull 5 5 128 (act1N m c b) (natCol (V0 m c main_arg9 : S3200x256.Idx → EReal) (⟨ci, h.2.2.2.2⟩ : Fin 256)) (r - 2) (s - 2)
          + (V0 m c main_arg10 : S256.Idx → EReal) (ix1 (⟨ci, h.2.2.2.2⟩ : Fin 256))) 0
  else 0

theorem mid3F_entry (c : Dev nD) (b : Fin 8) :
    mid3F (V13 m (outs2 m) c main_v63 : S8x20x8x128.Idx → EReal) (V13 m (outs2 m) c main_arg9 : S3200x256.Idx → EReal)
        (V13 m (outs2 m) c main_v64 : S1x256.Idx → EReal) b
      = mid3N m c b := by
  funext r s ci
  unfold mid3F mid3N
  by_cases h : 2 ≤ r ∧ r < 18 ∧ 2 ≤ s ∧ s < 6 ∧ ci < 256
  · rw [dif_pos h, dif_pos h, v63_nat, entry2_arg9, entry2_v64_at]
  · rw [dif_neg h, dif_neg h]

/-! ## The closed form -/

/-- THE THIRD STAGE, CLOSED: entry (b, h, 0, co) of what region 2 leaves is the maximum over the four columns `x` of the
    rectifier of the second convolution sum (5 × 5 taps, 256 channels), at output position (h, x), of image `b`'s first
    convolution result padded with zeros — itself the rectifier of the first convolution sum (5 × 5 taps, 128 channels)
    of the second stage's padded output plus the launched first bias — against column `co` of the launched second weight,
    plus the launched second bias at `co`. -/
theorem o2_closed (c : Dev nD) (b : Fin 8) (h : Fin 16) (co : Fin 256) :
    (o2 m c : S8x16x1x256.Idx → EReal) (ix4 b h (0 : Fin 1) co)
      = (Finset.univ : Finset (Fin 4)).fold max (⊥ : EReal) (fun x : Fin 4 =>
          max (TapSum.convFull 5 5 256 (mid3N m c b) (natCol (V0 m c main_arg11 : S6400x256.Idx → EReal) co) h.val x.val
                + (V0 m c main_arg12 : S256.Idx → EReal) (ix1 co)) 0) := by
  rw [o2_eq]
  refine (run2_of_reads c _ _ _ _ _ _ _ _ _ _ _ _ _ _ _ _ _ _ _ _ _ _ _ _
    (V13 m (outs2 m) c main_v63 : S8x20x8x128.Idx → EReal) (V13 m (outs2 m) c main_arg9 : S3200x256.Idx → EReal)
    (V13 m (outs2 m) c main_v64 : S1x256.Idx → EReal) (V13 m (outs2 m) c main_arg11 : S6400x256.Idx → EReal)
    (V13 m (outs2 m) c main_v65 : S1x256.Idx → EReal)
    ((Memref.IsWhole.read_unread _ _).trans (blk2_0_eq (fun c b => V13 m (outs2 m) c b) c))
    ((Memref.IsWhole.read_unread _ _).trans (blk2_1_eq (fun c b => V13 m (outs2 m) c b) c))
    ((Memref.IsWhole.read_unread _ _).trans (blk2_2_eq (fun c b => V13 m (outs2 m) c b) c))
    ((Memref.IsWhole.read_unread _ _).trans (blk2_3_eq (fun c b => V13 m (outs2 m) c b) c))
    ((Memref.IsWhole.read_unread _ _).trans (blk2_4_eq (fun c b => V13 m (outs2 m) c b) c))
    (ix4 b h (0 : Fin 1) co)).trans ?_
  unfold stage3F
  refine Finset.fold_congr fun x _ => ?_
  show max (TapSum.convFull 5 5 256
      (mid3F (V13 m (outs2 m) c main_v63 : S8x20x8x128.Idx → EReal) (V13 m (outs2 m) c main_arg9 : S3200x256.Idx → EReal)
        (V13 m (outs2 m) c main_v64 : S1x256.Idx → EReal) b)
      (natCol (V13 m (outs2 m) c main_arg11 : S6400x256.Idx → EReal) co) h.val x.val
      + (V13 m (outs2 m) c main_v65 : S1x256.Idx → EReal) (ix2 (0 : Fin 1) co)) 0 = _
  rw [mid3F_entry, entry2_arg11, entry2_v65_at]

end Closed

end Cert.ReferenceIdeal.Hand

end
-- ==== Proof.Stage3Join.lean ====
/-
  The two programs' third stages agree as soon as their second stages do.

  Each program's pooled third-stage activation has been brought to the ONE neutral function of plain arrays: the
  kernel's over its first region's output and the launched weights and biases, the reference's over its second
  region's output and the same launched arguments.  The reference's closed form is spelt with its own padded-image
  and column functions; they are the neutral ones (the same case split, the conjunctions grouped differently).  With the
  launches agreeing on the arguments and the two second-stage outputs equal, the two values are the same function of
  equal arrays.
-/
import proofs.«147627_g2000402439390779_pallasbulk_891_17_alg».proof.Proof.KernelStage3Closed
import proofs.«147627_g2000402439390779_pallasbulk_891_17_alg».proof.Proof.KernelFeatClosed
import proofs.«147627_g2000402439390779_pallasbulk_891_17_alg».proof.Proof.RefStage3Closed

set_option maxRecDepth 16384

noncomputable section

namespace Cert.Proof

open Idealize.ShloMosaic Idealize.ShloMosaic.TcCoe Idealize.ShloMosaic.ValueIdx Idealize.SL.Sem
open Cert.Hand.Stage3 (Act Mat Vec actPadN colN convRelu midPadN)

variable [Cert.KernelIdeal.Facts] [Cert.ReferenceIdeal.Facts]

/-- The stage's function respects equality of its five arrays. -/
theorem pool_congr {H2 H2' : (Act 128).Idx → EReal} {W3a W3a' : (Mat 3200 256).Idx → EReal} {B3a B3a' : (Vec 256).Idx → EReal}
    {W3b W3b' : (Mat 6400 256).Idx → EReal} {B3b B3b' : (Vec 256).Idx → EReal}
    (e0 : H2 = H2') (e1 : W3a = W3a') (e2 : B3a = B3a') (e3 : W3b = W3b') (e4 : B3b = B3b') (b : Fin 8) (h : Fin 16) (co : Fin 256) :
    Cert.Hand.Stage3.pool H2 W3a B3a W3b B3b b h co = Cert.Hand.Stage3.pool H2' W3a' B3a' W3b' B3b' b h co := by
  subst e0 e1 e2 e3 e4; rfl

/-- The reference's column function is the neutral one. -/
theorem natCol_eq_colN {n k : ℕ} (W : (Mat n k).Idx → EReal) (co : Fin k) :
    Cert.ReferenceIdeal.Hand.natCol W co = colN W co := by
  funext t
  unfold Cert.ReferenceIdeal.Hand.natCol colN
  rfl

section Reference

variable (m' : (ℓ : Loc Cert.ReferenceIdeal.nD Cert.ReferenceIdeal.τ Cert.ReferenceIdeal.sig) → Buf (Elt Ideal) ℓ)
  (c : Dev Cert.ReferenceIdeal.nD)

/-- The reference's zero-padded second-stage output of image b is the neutral padded image of that output. -/
theorem act1N_eq (b : Fin 8) (r s ci : ℕ) :
    Cert.ReferenceIdeal.Hand.act1N m' c b r s ci
      = actPadN (Cert.ReferenceIdeal.Hand.o1 m' c : Cert.ReferenceIdeal.S8x16x4x128.Idx → EReal) b r s ci := by
  unfold Cert.ReferenceIdeal.Hand.act1N actPadN
  by_cases h : 2 ≤ r ∧ r < 18 ∧ 2 ≤ s ∧ s < 6 ∧ ci < 128
  · rw [dif_pos h, dif_pos ⟨⟨⟨h.1, h.2.1⟩, ⟨h.2.2.1, h.2.2.2.1⟩⟩, h.2.2.2.2⟩]
  · rw [dif_neg h, dif_neg (fun h' => h ⟨h'.1.1.1, h'.1.1.2, h'.1.2.1, h'.1.2.2, h'.2⟩)]

/-- The reference's zero-padded first convolution result of image b is the neutral one. -/
theorem mid3N_eq (b : Fin 8) (r s ci : ℕ) :
    Cert.ReferenceIdeal.Hand.mid3N m' c b r s ci
      = midPadN (Cert.ReferenceIdeal.Hand.o1 m' c : Cert.ReferenceIdeal.S8x16x4x128.Idx → EReal)
          (Cert.ReferenceIdeal.Gen.V0 m' c Cert.ReferenceIdeal.main_arg9 : Cert.ReferenceIdeal.S3200x256.Idx → EReal)
          (Cert.ReferenceIdeal.Gen.V0 m' c Cert.ReferenceIdeal.main_arg10 : Cert.ReferenceIdeal.S256.Idx → EReal) b r s ci := by
  unfold Cert.ReferenceIdeal.Hand.mid3N midPadN
  by_cases h : 2 ≤ r ∧ r < 18 ∧ 2 ≤ s ∧ s < 6 ∧ ci < 256
  · rw [dif_pos h, dif_pos ⟨⟨⟨h.1, h.2.1⟩, ⟨h.2.2.1, h.2.2.2.1⟩⟩, h.2.2.2.2⟩]
    unfold convRelu
    rw [natCol_eq_colN]
    rw [Cert.Hand.Stage3.convFull_congr 5 5 128 (by decide) (fun r' s' ci' _ => act1N_eq m' c b r' s' ci') (fun _ _ => rfl)]
  · rw [dif_neg h, dif_neg (fun h' => h ⟨h'.1.1.1, h'.1.1.2, h'.1.2.1, h'.1.2.2, h'.2⟩)]

/-- THE REFERENCE'S POOLED THIRD STAGE is the neutral function of its second stage's output and the launched arguments. -/
theorem o2_eq_pool (b : Fin 8) (h : Fin 16) (co : Fin 256) :
    (Cert.ReferenceIdeal.Hand.o2 m' c : Cert.ReferenceIdeal.S8x16x1x256.Idx → EReal) (ix4 b h (0 : Fin 1) co)
      = Cert.Hand.Stage3.pool (Cert.ReferenceIdeal.Hand.o1 m' c : Cert.ReferenceIdeal.S8x16x4x128.Idx → EReal)
          (Cert.ReferenceIdeal.Gen.V0 m' c Cert.ReferenceIdeal.main_arg9 : Cert.ReferenceIdeal.S3200x256.Idx → EReal)
          (Cert.ReferenceIdeal.Gen.V0 m' c Cert.ReferenceIdeal.main_arg10 : Cert.ReferenceIdeal.S256.Idx → EReal)
          (Cert.ReferenceIdeal.Gen.V0 m' c Cert.ReferenceIdeal.main_arg11 : Cert.ReferenceIdeal.S6400x256.Idx → EReal)
          (Cert.ReferenceIdeal.Gen.V0 m' c Cert.ReferenceIdeal.main_arg12 : Cert.ReferenceIdeal.S256.Idx → EReal) b h co := by
  rw [Cert.ReferenceIdeal.Hand.o2_closed]
  unfold Cert.Hand.Stage3.pool
  refine Finset.fold_congr fun x _ => ?_
  unfold convRelu
  rw [natCol_eq_colN]
  rw [Cert.Hand.Stage3.convFull_congr 5 5 256 (by decide) (fun r s ci _ => mid3N_eq m' c b r s ci) (fun _ _ => rfl)]

end Reference

/-- THE JOIN: from launches agreeing on the arguments, the kernel's pooled third-stage activation (its last region
    entered at the contents the last host stretch leaves) is the reference's third region output, entry by entry, as
    soon as the kernel's first region output equals the reference's second region output. -/
theorem pool_of_stage2
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (c : Dev Cert.KernelIdeal.nD)
    (hS2 : (Cert.KernelIdeal.Hand.o0 m c : Cert.KernelIdeal.S8x16x4x128.Idx → Elt Ideal .bf16) = Cert.ReferenceIdeal.Hand.o1 m' c) :
    ∀ (b : Fin 8) (h : Fin 16) (ci : Fin 256),
      (Cert.KernelIdeal.Hand.poolAt (fun c b => Cert.KernelIdeal.Gen.V7 m (Cert.KernelIdeal.Hand.outs1 m) c b) c (ix3 b h ci) : Ideal .bf16)
        = (Cert.ReferenceIdeal.Hand.o2 m' c : Cert.ReferenceIdeal.S8x16x1x256.Idx → Elt Ideal .bf16) (ix4 b h (0 : Fin 1) ci) := by
  intro b h ci
  refine (Cert.KernelIdeal.Hand.Stage3K.pool3_launched m c b h ci).trans ?_
  refine Eq.trans ?_ (o2_eq_pool m' c b h ci).symm
  exact pool_congr hS2 (hagree c).2.2.2.2.2.2.2.2.2.1.symm (hagree c).2.2.2.2.2.2.2.2.2.2.1.symm (hagree c).2.2.2.2.2.2.2.2.2.2.2.1.symm (hagree c).2.2.2.2.2.2.2.2.2.2.2.2.1.symm b h ci

end Cert.Proof

end
-- ==== Proof.LibStage12.lean ====
/-
  The first two stages of the network as ONE function of plain arrays, at the extended reals.

  One image of an activation [8, 16, W, C] is read as a function of plain natural-number indices (row, column,
  channel), zero outside the array; a per-image function is zero-padded by two rows and two columns on each side.
  A convolution output is the ONE contraction over (row tap, column tap, channel) of its input against a column of the
  weight stored tap-major, plus the bias, rectified; a 1 x 1 "convolution" over 32 taps is the same with one row tap and
  one column tap.  A pool takes, for output column x, the maximum over the input columns 4x, 4x + 1, 4x + 2, 4x + 3.
  Stage 1 is the 32-tap contraction (32 → 64 channels, 64 columns), a 5 x 5 convolution (64 → 64) and the pool
  (64 → 16 columns); stage 2 is two 5 x 5 convolutions (64 → 128 → 128 channels, 16 columns) and the pool (16 → 4 columns).
  Both programs' first two stages are instances of these definitions, so their equality is a congruence.
-/
import proofs.«147627_g2000402439390779_pallasbulk_891_17_alg».proof.Proof.LibConvLaw
import Idealize.ShloMosaic.Lib.ValueIdx
import Mathlib.Data.EReal.Basic

noncomputable section

namespace Cert.Hand.Stage12

open Idealize.ShloMosaic Idealize.ShloMosaic.ValueIdx

/-- The shapes, as literals. -/
abbrev Act (W C : ℕ) : Shape := ⟨4, ![8, 16, W, C]⟩
abbrev Mat (n k : ℕ) : Shape := ⟨2, ![n, k]⟩
abbrev Vec (n : ℕ) : Shape := ⟨1, ![n]⟩

/-- Image `b` of an array [8, 16, W, C] at plain naturals (row, column, channel): zero outside the array. -/
def imgN {W C : ℕ} (A : (Act W C).Idx → EReal) (b : Fin 8) : ℕ → ℕ → ℕ → EReal :=
  fun h x ci => if hh : (h < 16 ∧ x < W) ∧ ci < C
    then A (ix4 b (⟨h, hh.1.1⟩ : Fin 16) (⟨x, hh.1.2⟩ : Fin W) (⟨ci, hh.2⟩ : Fin C)) else 0

/-- A per-image function of (row, column, channel) on 16 rows, `W` columns and `C` channels, zero-padded by two rows and
    two columns on each side: position (r, s) of the padded image is position (r - 2, s - 2) of the image for
    2 ≤ r < 18, 2 ≤ s < W + 2. -/
def pad2 (W C : ℕ) (f : ℕ → ℕ → ℕ → EReal) : ℕ → ℕ → ℕ → EReal :=
  fun r s ci => if ((2 ≤ r ∧ r < 18) ∧ (2 ≤ s ∧ s < W + 2)) ∧ ci < C then f (r - 2) (s - 2) ci else 0

/-- Column `co` of a stored matrix [n, k] at a plain natural row, zero past the last row. -/
def colN {n k : ℕ} (W : (Mat n k).Idx → EReal) (co : Fin k) (t : ℕ) : EReal :=
  if h : t < n then W (ix2 (⟨t, h⟩ : Fin n) co) else 0

/-- One output of a rectified convolution with `a` row taps, `b` column taps and `C` input channels. -/
def convRelu (a b C : ℕ) (inp : ℕ → ℕ → ℕ → EReal) (w : ℕ → EReal) (bias : EReal) (h x : ℕ) : EReal :=
  max (TapSum.convFull a b C inp w h x + bias) 0

/-- The pool: output column `x` is the maximum over the input columns 4x … 4x + 3. -/
def pool4 (f : ℕ → EReal) (x : ℕ) : EReal :=
  (Finset.univ : Finset (Fin 4)).fold max (⊥ : EReal) (fun x' : Fin 4 => f (4 * x + x'.val))

section Stages

variable (Taps : (Act 64 32).Idx → EReal)
  (W1a : (Mat 32 64).Idx → EReal) (B1a : (Vec 64).Idx → EReal) (W1b : (Mat 1600 64).Idx → EReal) (B1b : (Vec 64).Idx → EReal)
  (W2a : (Mat 1600 128).Idx → EReal) (B2a : (Vec 128).Idx → EReal) (W2b : (Mat 3200 128).Idx → EReal) (B2b : (Vec 128).Idx → EReal)

/-- Image `b` of the first contraction's rectified result [8, 16, 64, 64] at plain naturals. -/
def a1 (b : Fin 8) : ℕ → ℕ → ℕ → EReal :=
  fun h x co => if hc : co < 64
    then convRelu 1 1 32 (imgN Taps b) (colN W1a (⟨co, hc⟩ : Fin 64)) (B1a (ix1 (⟨co, hc⟩ : Fin 64))) h x else 0

/-- Image `b` of the pooled first stage [8, 16, 16, 64] at plain naturals. -/
def p1 (b : Fin 8) : ℕ → ℕ → ℕ → EReal :=
  fun h x co => if hc : co < 64
    then pool4 (fun s => convRelu 5 5 64 (pad2 64 64 (a1 Taps W1a B1a b)) (colN W1b (⟨co, hc⟩ : Fin 64)) (B1b (ix1 (⟨co, hc⟩ : Fin 64))) h s) x
    else 0

/-- Image `b` of the second stage's first convolution, rectified, [8, 16, 16, 128] at plain naturals. -/
def a2 (b : Fin 8) : ℕ → ℕ → ℕ → EReal :=
  fun h x co => if hc : co < 128
    then convRelu 5 5 64 (pad2 16 64 (p1 Taps W1a B1a W1b B1b b)) (colN W2a (⟨co, hc⟩ : Fin 128)) (B2a (ix1 (⟨co, hc⟩ : Fin 128))) h x
    else 0

/-- THE POOLED SECOND STAGE at image `b`, row `h`, column `x`, channel `co`: the maximum over the 4 columns 4x … 4x + 3 of
    the second convolution's rectified result. -/
def out (b : Fin 8) (h : Fin 16) (x : Fin 4) (co : Fin 128) : EReal :=
  pool4 (fun s => convRelu 5 5 128 (pad2 16 128 (a2 Taps W1a B1a W1b B1b W2a B2a b)) (colN W2b co) (B2b (ix1 co)) h.val s) x.val

/-- THE POOLED FIRST STAGE at an index of its array [8, 16, 16, 64]. -/
def out1 (b : Fin 8) (h : Fin 16) (x : Fin 16) (co : Fin 64) : EReal :=
  p1 Taps W1a B1a W1b B1b b h.val x.val co.val

end Stages

/-! ## The second stage alone, over a stored first-stage array -/

section Stage2Alone

variable (A1 : (Act 16 64).Idx → EReal)
  (W2a : (Mat 1600 128).Idx → EReal) (B2a : (Vec 128).Idx → EReal) (W2b : (Mat 3200 128).Idx → EReal) (B2b : (Vec 128).Idx → EReal)

/-- Image `b` of the second stage's first convolution, rectified, over a stored first-stage array `A1` [8, 16, 16, 64]. -/
def a2' (b : Fin 8) : ℕ → ℕ → ℕ → EReal :=
  fun h x co => if hc : co < 128
    then convRelu 5 5 64 (pad2 16 64 (imgN A1 b)) (colN W2a (⟨co, hc⟩ : Fin 128)) (B2a (ix1 (⟨co, hc⟩ : Fin 128))) h x
    else 0

/-- THE POOLED SECOND STAGE over a stored first-stage array. -/
def out' (b : Fin 8) (h : Fin 16) (x : Fin 4) (co : Fin 128) : EReal :=
  pool4 (fun s => convRelu 5 5 128 (pad2 16 128 (a2' A1 W2a B2a b)) (colN W2b co) (B2b (ix1 co)) h.val s) x.val

end Stage2Alone

section Compose

variable (Taps : (Act 64 32).Idx → EReal)
  (W1a : (Mat 32 64).Idx → EReal) (B1a : (Vec 64).Idx → EReal) (W1b : (Mat 1600 64).Idx → EReal) (B1b : (Vec 64).Idx → EReal)
  (W2a : (Mat 1600 128).Idx → EReal) (B2a : (Vec 128).Idx → EReal) (W2b : (Mat 3200 128).Idx → EReal) (B2b : (Vec 128).Idx → EReal)
  (A1 : (Act 16 64).Idx → EReal)
  (hA : ∀ (b : Fin 8) (h : Fin 16) (x : Fin 16) (co : Fin 64), A1 (ix4 b h x co) = out1 Taps W1a B1a W1b B1b b h x co)

include hA in
/-- A stored array that holds the pooled first stage, padded, is the pooled first stage padded. -/
theorem pad2_img_eq_p1 (b : Fin 8) : pad2 16 64 (imgN A1 b) = pad2 16 64 (p1 Taps W1a B1a W1b B1b b) := by
  funext r s ci
  unfold pad2
  by_cases hg : ((2 ≤ r ∧ r < 18) ∧ (2 ≤ s ∧ s < 16 + 2)) ∧ ci < 64
  · rw [if_pos hg, if_pos hg]
    unfold imgN
    rw [dif_pos ⟨⟨by omega, by omega⟩, hg.2⟩]
    exact (hA b (⟨r - 2, by omega⟩ : Fin 16) (⟨s - 2, by omega⟩ : Fin 16) (⟨ci, hg.2⟩ : Fin 64)).trans rfl
  · rw [if_neg hg, if_neg hg]

include hA in
theorem a2'_eq_a2 (b : Fin 8) : a2' A1 W2a B2a b = a2 Taps W1a B1a W1b B1b W2a B2a b := by
  unfold a2' a2
  rw [pad2_img_eq_p1 Taps W1a B1a W1b B1b A1 hA b]

include hA in
/-- THE TWO STAGES COMPOSE: the second stage alone over a stored array that holds the pooled first stage is the two
    stages together. -/
theorem out'_eq_out (b : Fin 8) (h : Fin 16) (x : Fin 4) (co : Fin 128) :
    out' A1 W2a B2a W2b B2b b h x co = out Taps W1a B1a W1b B1b W2a B2a W2b B2b b h x co := by
  unfold out' out
  rw [a2'_eq_a2 Taps W1a B1a W1b B1b W2a B2a A1 hA b]

end Compose

/-- The 32-tap contraction as a plain sum: one row tap, one column tap. -/
theorem convFull_one_one (C : ℕ) (hC : 0 < C) (inp : ℕ → ℕ → ℕ → EReal) (w : ℕ → EReal) (h x : ℕ) :
    TapSum.convFull 1 1 C inp w h x = ∑ t ∈ Finset.range C, inp h x t * w t := by
  unfold TapSum.convFull
  rw [Nat.one_mul]
  refine Finset.sum_congr rfl fun t ht => ?_
  have ht' : t < C := Finset.mem_range.mp ht
  rw [Nat.div_eq_of_lt ht', Nat.mod_one, Nat.mod_eq_of_lt ht', Nat.add_zero, Nat.add_zero]

/-- The contraction reads its input only at channels below `C` and its weight only below a * b * C. -/
theorem convFull_congr (a b C : ℕ) (hC : 0 < C) {inp inp' : ℕ → ℕ → ℕ → EReal} {w w' : ℕ → EReal}
    (hi : ∀ r s ci, ci < C → inp r s ci = inp' r s ci) (hw : ∀ t, t < a * b * C → w t = w' t) (h x : ℕ) :
    TapSum.convFull a b C inp w h x = TapSum.convFull a b C inp' w' h x := by
  unfold TapSum.convFull
  refine Finset.sum_congr rfl fun t ht => ?_
  rw [hi _ _ _ (Nat.mod_lt _ hC), hw t (Finset.mem_range.mp ht)]

theorem convRelu_congr (a b C : ℕ) (hC : 0 < C) {inp inp' : ℕ → ℕ → ℕ → EReal} {w w' : ℕ → EReal} {bias bias' : EReal}
    (hi : ∀ r s ci, ci < C → inp r s ci = inp' r s ci) (hw : ∀ t, t < a * b * C → w t = w' t) (hb : bias = bias') (h x : ℕ) :
    convRelu a b C inp w bias h x = convRelu a b C inp' w' bias' h x := by
  unfold convRelu
  rw [convFull_congr a b C hC hi hw, hb]

theorem pool4_congr {f g : ℕ → EReal} (x : ℕ) (h : ∀ x' : Fin 4, f (4 * x + x'.val) = g (4 * x + x'.val)) :
    pool4 f x = pool4 g x := by
  unfold pool4
  exact congrArg (fun k : Fin 4 → EReal => Finset.fold max (⊥ : EReal) k Finset.univ) (funext h)

end Cert.Hand.Stage12

end
-- ==== Proof.KernelStage12Arrays.lean ====
/-
  The kernel program's region 0 (stages 1 and 2 in one body), array side.

  Region 0 has one grid point and whole-array windows: the output array `main_v70` after the region is the block the
  body leaves (`o0_eq`), and each of the nine input blocks the body is given is the whole input array
  (`blk0_0_eq` … `blk0_8_eq`).  The arrays the region finds, over the launched arguments: the first weight is the
  launched `main_arg1` (`entry0_arg1`); the three re-laid weights read at (kh * C + ci, kw * Co + co) are the launched
  `main_arg3`, `main_arg5`, `main_arg7` at ((kh * 5 + kw) * C + ci, co) (`w1b_entry`, `w2a_entry`, `w2b_entry`); the four
  bias rows are the launched bias vectors `main_arg2`, `main_arg4`, `main_arg6`, `main_arg8` entry by entry
  (`main_v66_at` … `main_v69_at`).  The array `main_v56` of the gathered taps is left as the region finds it.
-/
import proofs.«147627_g2000402439390779_pallasbulk_891_17_alg».proof.Proof.KernelIdealFrame
import proofs.«147627_g2000402439390779_pallasbulk_891_17_alg».proof.Proof.KernelIdealRegion0
import proofs.«147627_g2000402439390779_pallasbulk_891_17_alg».proof.Proof.KernelWeightLayout
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.StableHlo

variable {F : FTy → Type} [FloatOps F] [Cert.KernelIdeal.Facts]

section Block
variable (V : (c : Dev nD) → (b : Ref sig .tc) → Buf (Elt F) ((c : Thread nD τ).loc b))

/-- What region 0's body leaves in its output block at the region's one grid point, as contents of the array
    `main_v70`: the window's block is the whole array. -/
abbrev resBlock0 (c : Dev nD) : Buf (Elt F) ((c : Thread nD τ).loc main_v70) :=
  (win0_9.stage (cfg0.slots t0_0 9)).view.read (Elt F) (K0 V c).1

/-- The output window's block at the one point starts at the array's origin on every axis. -/
theorem hz_res0 : (fun a => win0_9.index t0_0 a * main_v70.ty.shape.size a) = fun _ => 0 :=
  funext fun a => by fin_cases a <;> decide

/-- What the one write-back writes is that block. -/
theorem flushed_res0 (c : Dev nD) (t : Fin cfg0.N) (hf : (cfg0.win 9).flush t = true) :
    (dat0 V c).flushed 9 t = ((cfg0.win 9).blk t).view.read (Elt F) (resBlock0 V c) := by
  obtain rfl := fin_N0 t
  show (cfg0.win 9).cut (grid0.coords t0_0) ((dat0 V c).after 9 t0_0) = _
  rw [after0_9]
  exact (Memref.read_access_unit_zero (Elt F) main_v70 hz_res0 (fun a => by rw [congrFun hz_res0 a]; simp) (resBlock0 V c)).symm

/-- So the region leaves its output array holding that block: the one point's block covers the array. -/
theorem arrAt_res0 (c : Dev nD) : (dat0 V c).arrAt 9 cfg0.N = resBlock0 V c :=
  (dat0 V c).arrAt_eq_of_cover 9 (resBlock0 V c) (flushed_res0 V c) fun (i : S8x16x4x128.Idx) =>
    ⟨t0_0, flush0_9 t0_0, by
      show i ∈ ((View.whole main_v70).slice (win0_9.rect t0_0)).set
      rw [View.set_slice_whole]
      refine Rect.mem_set_unit.mpr fun a => ?_
      have h0 : (i 0 : Nat) < 8 := (i 0).isLt
      have h1 : (i 1 : Nat) < 16 := (i 1).isLt
      have h2 : (i 2 : Nat) < 4 := (i 2).isLt
      have h3 : (i 3 : Nat) < 128 := (i 3).isLt
      match a with
      | ⟨0, _⟩ =>
        show win0_9.index t0_0 0 * win0_9.size 0 ≤ (i 0 : Nat) ∧ (i 0 : Nat) < win0_9.index t0_0 0 * win0_9.size 0 + win0_9.xsize (grid0.coords t0_0) 0
        rw [show win0_9.index t0_0 0 * win0_9.size 0 = 0 from by decide +kernel, show win0_9.xsize (grid0.coords t0_0) 0 = 8 from by decide +kernel]; omega
      | ⟨1, _⟩ =>
        show win0_9.index t0_0 1 * win0_9.size 1 ≤ (i 1 : Nat) ∧ (i 1 : Nat) < win0_9.index t0_0 1 * win0_9.size 1 + win0_9.xsize (grid0.coords t0_0) 1
        rw [show win0_9.index t0_0 1 * win0_9.size 1 = 0 from by decide +kernel, show win0_9.xsize (grid0.coords t0_0) 1 = 16 from by decide +kernel]; omega
      | ⟨2, _⟩ =>
        show win0_9.index t0_0 2 * win0_9.size 2 ≤ (i 2 : Nat) ∧ (i 2 : Nat) < win0_9.index t0_0 2 * win0_9.size 2 + win0_9.xsize (grid0.coords t0_0) 2
        rw [show win0_9.index t0_0 2 * win0_9.size 2 = 0 from by decide +kernel, show win0_9.xsize (grid0.coords t0_0) 2 = 4 from by decide +kernel]; omega
      | ⟨3, _⟩ =>
        show win0_9.index t0_0 3 * win0_9.size 3 ≤ (i 3 : Nat) ∧ (i 3 : Nat) < win0_9.index t0_0 3 * win0_9.size 3 + win0_9.xsize (grid0.coords t0_0) 3
        rw [show win0_9.index t0_0 3 * win0_9.size 3 = 0 from by decide +kernel, show win0_9.xsize (grid0.coords t0_0) 3 = 128 from by decide +kernel]; omega⟩

theorem hzw0_0 : (fun a => win0_0.index t0_0 a * (Pipeline.arrRef spec0 0).ty.shape.size a) = fun _ => 0 :=
  funext fun a => by fin_cases a <;> decide
/-- Input window 0's block at the one point is its whole array `main_v56`. -/
theorem blk0_0_eq (c : Dev nD) : blk0_0 V c = (V c main_v56 : S8192x32.Idx → Elt F .bf16) :=
  Memref.read_access_unit_zero (Elt F) (Pipeline.arrRef spec0 0) hzw0_0 (fun a => by rw [congrFun hzw0_0 a]; simp) (V c (Pipeline.arrRef spec0 0))

theorem hzw0_1 : (fun a => win0_1.index t0_0 a * (Pipeline.arrRef spec0 1).ty.shape.size a) = fun _ => 0 :=
  funext fun a => by fin_cases a <;> decide
/-- Input window 1's block at the one point is its whole array `main_arg1`. -/
theorem blk0_1_eq (c : Dev nD) : blk0_1 V c = (V c main_arg1 : S32x64.Idx → Elt F .bf16) :=
  Memref.read_access_unit_zero (Elt F) (Pipeline.arrRef spec0 1) hzw0_1 (fun a => by rw [congrFun hzw0_1 a]; simp) (V c (Pipeline.arrRef spec0 1))

theorem hzw0_2 : (fun a => win0_2.index t0_0 a * (Pipeline.arrRef spec0 2).ty.shape.size a) = fun _ => 0 :=
  funext fun a => by fin_cases a <;> decide
/-- Input window 2's block at the one point is its whole array `main_v66`. -/
theorem blk0_2_eq (c : Dev nD) : blk0_2 V c = (V c main_v66 : S1x64.Idx → Elt F .f32) :=
  Memref.read_access_unit_zero (Elt F) (Pipeline.arrRef spec0 2) hzw0_2 (fun a => by rw [congrFun hzw0_2 a]; simp) (V c (Pipeline.arrRef spec0 2))

theorem hzw0_3 : (fun a => win0_3.index t0_0 a * (Pipeline.arrRef spec0 3).ty.shape.size a) = fun _ => 0 :=
  funext fun a => by fin_cases a <;> decide
/-- Input window 3's block at the one point is its whole array `main_v59`. -/
theorem blk0_3_eq (c : Dev nD) : blk0_3 V c = (V c main_v59 : S320x320.Idx → Elt F .bf16) :=
  Memref.read_access_unit_zero (Elt F) (Pipeline.arrRef spec0 3) hzw0_3 (fun a => by rw [congrFun hzw0_3 a]; simp) (V c (Pipeline.arrRef spec0 3))

theorem hzw0_4 : (fun a => win0_4.index t0_0 a * (Pipeline.arrRef spec0 4).ty.shape.size a) = fun _ => 0 :=
  funext fun a => by fin_cases a <;> decide
/-- Input window 4's block at the one point is its whole array `main_v67`. -/
theorem blk0_4_eq (c : Dev nD) : blk0_4 V c = (V c main_v67 : S1x64.Idx → Elt F .f32) :=
  Memref.read_access_unit_zero (Elt F) (Pipeline.arrRef spec0 4) hzw0_4 (fun a => by rw [congrFun hzw0_4 a]; simp) (V c (Pipeline.arrRef spec0 4))

theorem hzw0_5 : (fun a => win0_5.index t0_0 a * (Pipeline.arrRef spec0 5).ty.shape.size a) = fun _ => 0 :=
  funext fun a => by fin_cases a <;> decide
/-- Input window 5's block at the one point is its whole array `main_v62`. -/
theorem blk0_5_eq (c : Dev nD) : blk0_5 V c = (V c main_v62 : S320x640.Idx → Elt F .bf16) :=
  Memref.read_access_unit_zero (Elt F) (Pipeline.arrRef spec0 5) hzw0_5 (fun a => by rw [congrFun hzw0_5 a]; simp) (V c (Pipeline.arrRef spec0 5))

theorem hzw0_6 : (fun a => win0_6.index t0_0 a * (Pipeline.arrRef spec0 6).ty.shape.size a) = fun _ => 0 :=
  funext fun a => by fin_cases a <;> decide
/-- Input window 6's block at the one point is its whole array `main_v68`. -/
theorem blk0_6_eq (c : Dev nD) : blk0_6 V c = (V c main_v68 : S1x128.Idx → Elt F .f32) :=
  Memref.read_access_unit_zero (Elt F) (Pipeline.arrRef spec0 6) hzw0_6 (fun a => by rw [congrFun hzw0_6 a]; simp) (V c (Pipeline.arrRef spec0 6))

theorem hzw0_7 : (fun a => win0_7.index t0_0 a * (Pipeline.arrRef spec0 7).ty.shape.size a) = fun _ => 0 :=
  funext fun a => by fin_cases a <;> decide
/-- Input window 7's block at the one point is its whole array `main_v65`. -/
theorem blk0_7_eq (c : Dev nD) : blk0_7 V c = (V c main_v65 : S640x640.Idx → Elt F .bf16) :=
  Memref.read_access_unit_zero (Elt F) (Pipeline.arrRef spec0 7) hzw0_7 (fun a => by rw [congrFun hzw0_7 a]; simp) (V c (Pipeline.arrRef spec0 7))

theorem hzw0_8 : (fun a => win0_8.index t0_0 a * (Pipeline.arrRef spec0 8).ty.shape.size a) = fun _ => 0 :=
  funext fun a => by fin_cases a <;> decide
/-- Input window 8's block at the one point is its whole array `main_v69`. -/
theorem blk0_8_eq (c : Dev nD) : blk0_8 V c = (V c main_v69 : S1x128.Idx → Elt F .f32) :=
  Memref.read_access_unit_zero (Elt F) (Pipeline.arrRef spec0 8) hzw0_8 (fun a => by rw [congrFun hzw0_8 a]; simp) (V c (Pipeline.arrRef spec0 8))

end Block

variable (m : (ℓ : Loc nD τ sig) → Buf (Elt F) ℓ)

/-- What region 0 leaves in `main_v70` is the block its body leaves, the region entered at the contents the host
    stretches before it leave. -/
theorem o0_eq (c : Dev nD) : o0 m c = resBlock0 (fun c b => V5 m c b) c :=
  arrAt_res0 (fun c b => V5 m c b) c

/-! ## The arrays region 0 finds, over the launched arguments -/

/-- The first weight reaches region 0 as launched: no host operation writes an argument. -/
theorem entry0_arg1 (c : Dev nD) : (V5 m c main_arg1 : S32x64.Idx → Elt F .bf16) = V0 m c main_arg1 :=
  (V5_of m c main_arg1 (by decide)).trans <|
    (V4_of m c main_arg1 (by decide)).trans <|
    (V3_of m c main_arg1 (by decide)).trans <|
    (V2_of m c main_arg1 (by decide)).trans <|
    (V1_of m c main_arg1 (by decide))

/-- The argument `main_arg3` is, before the last host stretch, as launched: no host operation writes an argument. -/
theorem main_arg3_launched4 (c : Dev nD) : (V4 m c main_arg3 : S1600x64.Idx → Elt F .bf16) = V0 m c main_arg3 :=
  (V4_of m c main_arg3 (by decide)).trans <|
    (V3_of m c main_arg3 (by decide)).trans <|
    (V2_of m c main_arg3 (by decide)).trans <|
    (V1_of m c main_arg3 (by decide))

/-- The argument `main_arg5` is, before the last host stretch, as launched: no host operation writes an argument. -/
theorem main_arg5_launched4 (c : Dev nD) : (V4 m c main_arg5 : S1600x128.Idx → Elt F .bf16) = V0 m c main_arg5 :=
  (V4_of m c main_arg5 (by decide)).trans <|
    (V3_of m c main_arg5 (by decide)).trans <|
    (V2_of m c main_arg5 (by decide)).trans <|
    (V1_of m c main_arg5 (by decide))

/-- The argument `main_arg7` is, before the last host stretch, as launched: no host operation writes an argument. -/
theorem main_arg7_launched4 (c : Dev nD) : (V4 m c main_arg7 : S3200x128.Idx → Elt F .bf16) = V0 m c main_arg7 :=
  (V4_of m c main_arg7 (by decide)).trans <|
    (V3_of m c main_arg7 (by decide)).trans <|
    (V2_of m c main_arg7 (by decide)).trans <|
    (V1_of m c main_arg7 (by decide))

/-- The argument `main_arg2` is, before the last host stretch, as launched: no host operation writes an argument. -/
theorem main_arg2_launched4 (c : Dev nD) : (V4 m c main_arg2 : S64.Idx → Elt F .f32) = V0 m c main_arg2 :=
  (V4_of m c main_arg2 (by decide)).trans <|
    (V3_of m c main_arg2 (by decide)).trans <|
    (V2_of m c main_arg2 (by decide)).trans <|
    (V1_of m c main_arg2 (by decide))

/-- The argument `main_arg4` is, before the last host stretch, as launched: no host operation writes an argument. -/
theorem main_arg4_launched4 (c : Dev nD) : (V4 m c main_arg4 : S64.Idx → Elt F .f32) = V0 m c main_arg4 :=
  (V4_of m c main_arg4 (by decide)).trans <|
    (V3_of m c main_arg4 (by decide)).trans <|
    (V2_of m c main_arg4 (by decide)).trans <|
    (V1_of m c main_arg4 (by decide))

/-- The argument `main_arg6` is, before the last host stretch, as launched: no host operation writes an argument. -/
theorem main_arg6_launched4 (c : Dev nD) : (V4 m c main_arg6 : S128.Idx → Elt F .f32) = V0 m c main_arg6 :=
  (V4_of m c main_arg6 (by decide)).trans <|
    (V3_of m c main_arg6 (by decide)).trans <|
    (V2_of m c main_arg6 (by decide)).trans <|
    (V1_of m c main_arg6 (by decide))

/-- The argument `main_arg8` is, before the last host stretch, as launched: no host operation writes an argument. -/
theorem main_arg8_launched4 (c : Dev nD) : (V4 m c main_arg8 : S128.Idx → Elt F .f32) = V0 m c main_arg8 :=
  (V4_of m c main_arg8 (by decide)).trans <|
    (V3_of m c main_arg8 (by decide)).trans <|
    (V2_of m c main_arg8 (by decide)).trans <|
    (V1_of m c main_arg8 (by decide))

/-- Row `kh * 64 + ci`, column `kw * 64 + co` of the re-laid weight region 0 finds in `main_v59` is row
    `(kh * 5 + kw) * 64 + ci`, column `co` of the LAUNCHED weight `main_arg3`. -/
theorem w1b_entry (c : Dev nD) (kh : Fin 5) (ci : Fin 64) (kw : Fin 5) (co : Fin 64) :
    (V5 m c main_v59 : S320x320.Idx → Elt F .bf16)
        (ix2 (⟨kh.val * 64 + ci.val, by omega⟩ : Fin 320) (⟨kw.val * 64 + co.val, by omega⟩ : Fin 320))
      = (V0 m c main_arg3 : S1600x64.Idx → Elt F .bf16)
        (ix2 (⟨(kh.val * 5 + kw.val) * 64 + ci.val, by omega⟩ : Fin 1600) co) :=
  (w1b_relaid m c kh ci kw co).trans (congrFun (main_arg3_launched4 m c) _)

/-- The same for `main_v62` and the launched `main_arg5` (64 input channels, 128 output channels). -/
theorem w2a_entry (c : Dev nD) (kh : Fin 5) (ci : Fin 64) (kw : Fin 5) (co : Fin 128) :
    (V5 m c main_v62 : S320x640.Idx → Elt F .bf16)
        (ix2 (⟨kh.val * 64 + ci.val, by omega⟩ : Fin 320) (⟨kw.val * 128 + co.val, by omega⟩ : Fin 640))
      = (V0 m c main_arg5 : S1600x128.Idx → Elt F .bf16)
        (ix2 (⟨(kh.val * 5 + kw.val) * 64 + ci.val, by omega⟩ : Fin 1600) co) :=
  (w2a_relaid m c kh ci kw co).trans (congrFun (main_arg5_launched4 m c) _)

/-- The same for `main_v65` and the launched `main_arg7` (128 input channels, 128 output channels). -/
theorem w2b_entry (c : Dev nD) (kh : Fin 5) (ci : Fin 128) (kw : Fin 5) (co : Fin 128) :
    (V5 m c main_v65 : S640x640.Idx → Elt F .bf16)
        (ix2 (⟨kh.val * 128 + ci.val, by omega⟩ : Fin 640) (⟨kw.val * 128 + co.val, by omega⟩ : Fin 640))
      = (V0 m c main_arg7 : S3200x128.Idx → Elt F .bf16)
        (ix2 (⟨(kh.val * 5 + kw.val) * 128 + ci.val, by omega⟩ : Fin 3200) co) :=
  (w2b_relaid m c kh ci kw co).trans (congrFun (main_arg7_launched4 m c) _)

set_option maxHeartbeats 4000000 in
/-- The bias row `main_v66` as the reshape of the bias vector `main_arg2` (at the valuation the last host stretch finds). -/
theorem main_v66_ops (c : Dev nD) :
    (V5 m c main_v66 : S1x64.Idx → Elt F .f32)
      = shapeCast S1x64 (V4 m c main_arg2 : S64.Idx → Elt F .f32) shapeCasts_S64_S1x64 := by
  show StableHlo.after hostOps0_4 (V4 m c) (Proc.devRef .tc main_v66) = _
  unfold hostOps0_4
  after_results
  rfl

/-- Entry `j` of that row is entry `j` of the launched bias. -/
theorem main_v66_at (c : Dev nD) (j : Fin 64) :
    (V5 m c main_v66 : S1x64.Idx → Elt F .f32) (ix2 (0 : Fin 1) j) = (V0 m c main_arg2 : S64.Idx → Elt F .f32) (ix1 j) := by
  rw [main_v66_ops]
  refine (shapeCast_apply _ _ _ (ix1 j) ?_).trans (congrFun (main_arg2_launched4 m c) _)
  show (S64.rowMajor (ix1 j)).val = (S1x64.rowMajor (ix2 (0 : Fin 1) j)).val
  rw [Shape.rowMajor_val_one, Shape.rowMajor_val_two]
  show j.val = 0 * 64 + j.val
  omega

set_option maxHeartbeats 4000000 in
/-- The bias row `main_v67` as the reshape of the bias vector `main_arg4` (at the valuation the last host stretch finds). -/
theorem main_v67_ops (c : Dev nD) :
    (V5 m c main_v67 : S1x64.Idx → Elt F .f32)
      = shapeCast S1x64 (V4 m c main_arg4 : S64.Idx → Elt F .f32) shapeCasts_S64_S1x64 := by
  show StableHlo.after hostOps0_4 (V4 m c) (Proc.devRef .tc main_v67) = _
  unfold hostOps0_4
  after_results
  rfl

/-- Entry `j` of that row is entry `j` of the launched bias. -/
theorem main_v67_at (c : Dev nD) (j : Fin 64) :
    (V5 m c main_v67 : S1x64.Idx → Elt F .f32) (ix2 (0 : Fin 1) j) = (V0 m c main_arg4 : S64.Idx → Elt F .f32) (ix1 j) := by
  rw [main_v67_ops]
  refine (shapeCast_apply _ _ _ (ix1 j) ?_).trans (congrFun (main_arg4_launched4 m c) _)
  show (S64.rowMajor (ix1 j)).val = (S1x64.rowMajor (ix2 (0 : Fin 1) j)).val
  rw [Shape.rowMajor_val_one, Shape.rowMajor_val_two]
  show j.val = 0 * 64 + j.val
  omega

set_option maxHeartbeats 4000000 in
/-- The bias row `main_v68` as the reshape of the bias vector `main_arg6` (at the valuation the last host stretch finds). -/
theorem main_v68_ops (c : Dev nD) :
    (V5 m c main_v68 : S1x128.Idx → Elt F .f32)
      = shapeCast S1x128 (V4 m c main_arg6 : S128.Idx → Elt F .f32) shapeCasts_S128_S1x128 := by
  show StableHlo.after hostOps0_4 (V4 m c) (Proc.devRef .tc main_v68) = _
  unfold hostOps0_4
  after_results
  rfl

/-- Entry `j` of that row is entry `j` of the launched bias. -/
theorem main_v68_at (c : Dev nD) (j : Fin 128) :
    (V5 m c main_v68 : S1x128.Idx → Elt F .f32) (ix2 (0 : Fin 1) j) = (V0 m c main_arg6 : S128.Idx → Elt F .f32) (ix1 j) := by
  rw [main_v68_ops]
  refine (shapeCast_apply _ _ _ (ix1 j) ?_).trans (congrFun (main_arg6_launched4 m c) _)
  show (S128.rowMajor (ix1 j)).val = (S1x128.rowMajor (ix2 (0 : Fin 1) j)).val
  rw [Shape.rowMajor_val_one, Shape.rowMajor_val_two]
  show j.val = 0 * 128 + j.val
  omega

set_option maxHeartbeats 4000000 in
/-- The bias row `main_v69` as the reshape of the bias vector `main_arg8` (at the valuation the last host stretch finds). -/
theorem main_v69_ops (c : Dev nD) :
    (V5 m c main_v69 : S1x128.Idx → Elt F .f32)
      = shapeCast S1x128 (V4 m c main_arg8 : S128.Idx → Elt F .f32) shapeCasts_S128_S1x128 := by
  show StableHlo.after hostOps0_4 (V4 m c) (Proc.devRef .tc main_v69) = _
  unfold hostOps0_4
  after_results
  rfl

/-- Entry `j` of that row is entry `j` of the launched bias. -/
theorem main_v69_at (c : Dev nD) (j : Fin 128) :
    (V5 m c main_v69 : S1x128.Idx → Elt F .f32) (ix2 (0 : Fin 1) j) = (V0 m c main_arg8 : S128.Idx → Elt F .f32) (ix1 j) := by
  rw [main_v69_ops]
  refine (shapeCast_apply _ _ _ (ix1 j) ?_).trans (congrFun (main_arg8_launched4 m c) _)
  show (S128.rowMajor (ix1 j)).val = (S1x128.rowMajor (ix2 (0 : Fin 1) j)).val
  rw [Shape.rowMajor_val_one, Shape.rowMajor_val_two]
  show j.val = 0 * 128 + j.val
  omega

end Cert.KernelIdeal.Hand

end
-- ==== Proof.KernelStage1Value.lean ====
/-
  The kernel's first stage, read at an index.

  First convolution (a 1x1 convolution over 32 pre-built taps): the input block [8192, 32] times the weight [32, 64]
  into the zero accumulator, the bias row added, the maximum with zero taken and the result cast to bf16: one value
  per (flattened position p = (16 b + h) 64 + x, channel).

  Second convolution and the pool.  The body fills a scratch buffer [8, 20, 72, 64] with zeros and stores the first
  convolution's result (regrouped from [8192, 64] to [8, 16, 64, 64]) at offsets (0, 2, 2, 0): the zero-padded copy
  (`pad1b`).  It then builds a patch matrix [9216, 320] by five slice stores: the store for the row tap kh writes
  columns [64 kh, 64 (kh + 1)) with the [8, 16, 72, 64] window of the padded copy at row offset kh, its first three
  axes flattened.  The five column blocks tile the matrix and each is a block of ONE function of the matrix index:
  at row p = (16 b + h) 72 + x and column k = 64 kh + ci the matrix holds the padded copy at (b, h + kh, x, ci)
  (`patch1b_apply`), whatever the order of the stores.

  At the ideal values the product of the patch matrix with the re-laid weight [320, 320] (row 64 kh + ci, column
  64 kw + co) into the zero accumulator is a plain sum over the 320 patch columns; regrouped to [128, 72, 320], its
  five slices at column offset kw and channel offset 64 kw are added: for each column tap ONE contraction over (row
  tap, channel), the column-shifted partial results added — the convolution law's `TapSum.convRows 5 5 64`.  The
  bias row is added, the maximum with zero taken, and the pool takes the maximum over each group of 4 neighbouring
  columns (64 columns to 16).
-/
import proofs.«147627_g2000402439390779_pallasbulk_891_17_alg».proof.Proof.KernelIdealRegion0
import proofs.«147627_g2000402439390779_pallasbulk_891_17_alg».proof.Proof.LibConvLaw
import Idealize.ShloMosaic.Lib.Pipeline.Value
import Idealize.ShloMosaic.Lib.Ring
import Idealize.ShloMosaic.Lib.ValueIdx
import Idealize.ShloMosaic.PureOps.Ideal.Laws

set_option maxRecDepth 16384

noncomputable section

namespace Cert.KernelIdeal.Hand.Stage1

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem

variable {F : FTy → Type} [FloatOps F] [Cert.KernelIdeal.Facts]

section Conv1b

variable (c : Dev nD) (M0 : Memref sig .tc .vmem S8192x32 .bf16) (M1 : Memref sig .tc .vmem S32x64 .bf16) (M2 : Memref sig .tc .vmem S1x64 .f32)
  (f0 : Bf0 (F := F) c M0) (f1 : Bf0 (F := F) c M1) (f2 : Bf0 (F := F) c M2)

/-! ## The padded copy of the first convolution's result -/

/-- The first convolution's result after the cast, as the run names it: one value per (position, channel), the
    positions of the 8 images flattened (row index (16 b + h) 64 + x). -/
abbrev conv1bIn : S8192x64.Idx → Elt F .bf16 := run0.sl.v10 c M0 M1 M2 f0 f1 f2

/-- The zero-padded copy the second convolution reads: what its two stores leave in the scratch buffer. -/
abbrev pad1b : S8x20x72x64.Idx → Elt F .bf16 := View.canon (run0.sl.G0_2 c M0 M1 M2 f0 f1 f2)

theorem c1b_hz4 : (![0, 0, 0, 0] : Fin 4 → Nat) = fun _ => 0 := funext fun a => by fin_cases a <;> rfl
theorem c1b_hz2 : (![0, 0] : Fin 2 → Nat) = fun _ => 0 := funext fun a => by fin_cases a <;> rfl

/-- In the interior (rows 2 … 17, columns 2 … 65) the padded copy is the first convolution's result two rows up and
    two columns left: the second store, through the rectangle of the result's shape at offsets (0, 2, 2, 0), is the
    last one, and its payload is the result regrouped from [8192, 64] to [8, 16, 64, 64] (same row-major position). -/
theorem pad1b_mid (b : Fin 8) (h : Fin 16) (x : Fin 64) (ci : Fin 64) :
    pad1b c M0 M1 M2 f0 f1 f2 (ix4 b (⟨h.val + 2, by omega⟩ : Fin 20) (⟨x.val + 2, by omega⟩ : Fin 72) ci)
      = conv1bIn c M0 M1 M2 f0 f1 f2 (ix2 (⟨(b.val * 16 + h.val) * 64 + x.val, by omega⟩ : Fin 8192) ci) := by
  unfold pad1b run0.sl.G0_2
  have e := View.canon_cons_emb (Val := Elt F) (Rect.unit (s := S8x20x72x64) ![0, 2, 2, 0] S8x16x64x64.size k0_part1._proof_17)
    (run0.sl.v18 c M0 M1 M2 f0 f1 f2) run0.sl.G0_1 (ix4 b h x ci)
  refine Eq.trans (congrArg _ ?_) (e.trans ?_)
  · funext a
    apply Fin.ext
    rw [Rect.emb_apply]
    match a with
    | ⟨0, _⟩ => show b.val = 0 + 1 * b.val; omega
    | ⟨1, _⟩ => show h.val + 2 = 2 + 1 * h.val; omega
    | ⟨2, _⟩ => show x.val + 2 = 2 + 1 * x.val; omega
    | ⟨3, _⟩ => show ci.val = 0 + 1 * ci.val; omega
  · unfold run0.sl.v18 run0.sl.v15
    rw [shapeCast_self]
    exact shapeCast_apply _ _ _ (ix2 (⟨(b.val * 16 + h.val) * 64 + x.val, by omega⟩ : Fin 8192) ci) (by
      rw [Shape.rowMajor_val_two, Shape.rowMajor_val_four]
      show ((b.val * 16 + h.val) * 64 + x.val) * 64 + ci.val = ((b.val * 16 + h.val) * 64 + x.val) * 64 + ci.val
      rfl)

/-- On the border it is the zero the first store splats: the second store's rectangle does not hold the index, and the
    first store, through the whole buffer, leaves its payload — the broadcast of the bf16 zero. -/
theorem pad1b_out (b : Fin 8) (hh : Fin 20) (xx : Fin 72) (ci : Fin 64)
    (h : hh.val < 2 ∨ 18 ≤ hh.val ∨ xx.val < 2 ∨ 66 ≤ xx.val) :
    pad1b c M0 M1 M2 f0 f1 f2 (ix4 b hh xx ci) = (run0.sl.cst_6 : F .bf16) := by
  unfold pad1b run0.sl.G0_2
  rw [View.canon_cons_of_not_mem _ _ (fun hm => by
    have hm' : ix4 b hh xx ci ∈ (Rect.unit (s := S8x20x72x64) ![0, 2, 2, 0] S8x16x64x64.size k0_part1._proof_17).set := hm
    have h1 : 2 ≤ hh.val ∧ hh.val < 2 + 16 := (Rect.mem_set_unit.mp hm') (1 : Fin 4)
    have h2 : 2 ≤ xx.val ∧ xx.val < 2 + 64 := (Rect.mem_set_unit.mp hm') (2 : Fin 4)
    omega)]
  unfold run0.sl.G0_1
  rw [View.canon_unit_zero c1b_hz4]
  unfold run0.sl.v14
  rw [shapeCast_self]
  rfl

/-- THE PADDED COPY AT ANY INDEX: the first convolution's result at ((16 b + hh - 2) 64 + xx - 2, ci) in the interior
    2 ≤ hh < 18, 2 ≤ xx < 66, the zero elsewhere. -/
theorem pad1b_apply (b : Fin 8) (hh : Fin 20) (xx : Fin 72) (ci : Fin 64) :
    pad1b c M0 M1 M2 f0 f1 f2 (ix4 b hh xx ci)
      = if h : (2 ≤ hh.val ∧ hh.val < 18) ∧ (2 ≤ xx.val ∧ xx.val < 66) then
          conv1bIn c M0 M1 M2 f0 f1 f2 (ix2 (⟨(b.val * 16 + (hh.val - 2)) * 64 + (xx.val - 2), by omega⟩ : Fin 8192) ci)
        else (run0.sl.cst_6 : F .bf16) := by
  by_cases h : (2 ≤ hh.val ∧ hh.val < 18) ∧ (2 ≤ xx.val ∧ xx.val < 66)
  · rw [dif_pos h]
    refine Eq.trans (congrArg _ ?_) (pad1b_mid c M0 M1 M2 f0 f1 f2 b (⟨hh.val - 2, by omega⟩ : Fin 16) (⟨xx.val - 2, by omega⟩ : Fin 64) ci)
    funext a
    apply Fin.ext
    match a with
    | ⟨0, _⟩ => rfl
    | ⟨1, _⟩ => show hh.val = hh.val - 2 + 2; omega
    | ⟨2, _⟩ => show xx.val = xx.val - 2 + 2; omega
    | ⟨3, _⟩ => rfl
  · rw [dif_neg h]
    exact pad1b_out c M0 M1 M2 f0 f1 f2 b hh xx ci (by omega)

/-! ## The patch matrix -/

variable (C0 : Memref sig .tc .vmem S8x20x72x64 .bf16) (C1 : Memref sig .tc .vmem S9216x320 .bf16)

/-- One row tap's block: the padded copy loaded through the rectangle [8, 16, 72, 64] at row offset `kh`, the
    (image, row, column) triple flattened to one axis of 9216. At (p, ci), p = (16 b + h) 72 + x, it is the padded
    copy at (b, h + kh, x, ci). -/
theorem c1b_tap_apply (kh : Fin 5) (inb : ∀ a, (![0, kh.val, 0, 0] : Fin 4 → Nat) a + S8x16x72x64.size a ≤ S8x20x72x64.size a)
    (h1 : S8x16x72x64.ShapeCasts S9216x64) (h2 : S9216x64.ShapeCasts S9216x64) (x : S9216x64.Idx) :
    shapeCast S9216x64 (shapeCast S9216x64
        (C0.view.readCov (run0.sl.G0_2 c M0 M1 M2 f0 f1 f2) (Rect.unit (s := S8x20x72x64) ![0, kh.val, 0, 0] S8x16x72x64.size inb).toLoadRect) h1) h2 x
      = pad1b c M0 M1 M2 f0 f1 f2 (ix4 (⟨(x 0).val / 1152, by have h : (x 0).val < 9216 := (x 0).isLt; omega⟩ : Fin 8)
          (⟨(x 0).val / 72 % 16 + kh.val, by omega⟩ : Fin 20) (⟨(x 0).val % 72, by omega⟩ : Fin 72) (⟨(x 1).val, (x 1).isLt⟩ : Fin 64)) := by
  have hx0 : (x 0).val < 9216 := (x 0).isLt
  have hx1 : (x 1).val < 64 := (x 1).isLt
  rw [shapeCast_self]
  rw [shapeCast_apply _ h1 _ (ix4 (⟨(x 0).val / 1152, by omega⟩ : Fin 8) (⟨(x 0).val / 72 % 16, by omega⟩ : Fin 16)
      (⟨(x 0).val % 72, by omega⟩ : Fin 72) (⟨(x 1).val, hx1⟩ : Fin 64)) (by
    rw [Shape.rowMajor_val_four, Shape.rowMajor_val_two]
    show ((((x 0).val / 1152) * 16 + (x 0).val / 72 % 16) * 72 + (x 0).val % 72) * 64 + (x 1).val = (x 0).val * 64 + (x 1).val
    omega)]
  rw [View.readCov_eq_canon']
  show View.canon _ _ = View.canon _ _
  congr 1
  funext a
  apply Fin.ext
  rw [LoadRect.idx_apply]
  match a with
  | ⟨0, _⟩ => show 0 + 1 * ((x 0).val / 1152) = (x 0).val / 1152; omega
  | ⟨1, _⟩ => show kh.val + 1 * ((x 0).val / 72 % 16) = (x 0).val / 72 % 16 + kh.val; omega
  | ⟨2, _⟩ => show 0 + 1 * ((x 0).val % 72) = (x 0).val % 72; omega
  | ⟨3, _⟩ => show 0 + 1 * (x 1).val = (x 1).val; omega

/-- The patch matrix as the run reads it back, -/
abbrev patch1b : S9216x320.Idx → Elt F .bf16 := run0.sl.v44 c M0 M1 M2 C0 C1 f0 f1 f2

/-- and the one function its five stores are tiles of: at (p, k), the padded copy at image p / 1152, row
    p / 72 % 16 + k / 64, column p % 72, channel k % 64. -/
def patchFn1b (y : S9216x320.Idx) : Elt F .bf16 :=
  pad1b c M0 M1 M2 f0 f1 f2 (ix4 (⟨(y 0).val / 1152, by have h : (y 0).val < 9216 := (y 0).isLt; omega⟩ : Fin 8)
    (⟨(y 0).val / 72 % 16 + (y 1).val / 64, by have h : (y 1).val < 320 := (y 1).isLt; omega⟩ : Fin 20)
    (⟨(y 0).val % 72, by omega⟩ : Fin 72) (⟨(y 1).val % 64, by omega⟩ : Fin 64))

/-- The read-back is the canon of the five stores: the load is through the whole buffer. -/
theorem patch1b_eq_canon : patch1b c M0 M1 M2 f0 f1 f2 C0 C1 = View.canon (run0.sl.G1_5 c M0 M1 M2 C0 f0 f1 f2) := by
  unfold patch1b run0.sl.v44
  rw [View.readCov_eq_canon']
  funext j
  show View.canon _ _ = View.canon _ _
  congr 1
  funext a
  apply Fin.ext
  rw [LoadRect.idx_apply]
  match a with
  | ⟨0, _⟩ => show 0 + 1 * (j 0).val = (j 0).val; omega
  | ⟨1, _⟩ => show 0 + 1 * (j 1).val = (j 1).val; omega

/-- Each store's payload is its tile of that function: row tap `kh`'s block, stored at column offset 64 kh. -/
theorem c1b_piece_ok (kh : Fin 5) (inbP : ∀ a, (![0, kh.val * 64] : Fin 2 → Nat) a + S9216x64.size a ≤ S9216x320.size a)
    (inb : ∀ a, (![0, kh.val, 0, 0] : Fin 4 → Nat) a + S8x16x72x64.size a ≤ S8x20x72x64.size a)
    (h1 : S8x16x72x64.ShapeCasts S9216x64) (h2 : S9216x64.ShapeCasts S9216x64) (x : S9216x64.Idx) :
    shapeCast S9216x64 (shapeCast S9216x64
        (C0.view.readCov (run0.sl.G0_2 c M0 M1 M2 f0 f1 f2) (Rect.unit (s := S8x20x72x64) ![0, kh.val, 0, 0] S8x16x72x64.size inb).toLoadRect) h1) h2 x
      = patchFn1b c M0 M1 M2 f0 f1 f2 ((Rect.unit (s := S9216x320) ![0, kh.val * 64] S9216x64.size inbP).emb x) := by
  rw [c1b_tap_apply c M0 M1 M2 f0 f1 f2 C0 kh inb h1 h2 x]
  unfold patchFn1b
  have hx0 : (x 0).val < 9216 := (x 0).isLt
  have hx1 : (x 1).val < 64 := (x 1).isLt
  have hk : kh.val < 5 := kh.isLt
  congr 1
  funext a
  apply Fin.ext
  match a with
  | ⟨0, _⟩ => show (x 0).val / 1152 = (0 + 1 * (x 0).val) / 1152; omega
  | ⟨1, _⟩ => show (x 0).val / 72 % 16 + kh.val = (0 + 1 * (x 0).val) / 72 % 16 + (kh.val * 64 + 1 * (x 1).val) / 64; omega
  | ⟨2, _⟩ => show (x 0).val % 72 = (0 + 1 * (x 0).val) % 72; omega
  | ⟨3, _⟩ => show (x 1).val = (kh.val * 64 + 1 * (x 1).val) % 64; omega

/-- THE PATCH MATRIX AT AN INDEX: at (p, k), p < 9216, k < 320, it is the padded copy at
    (p / 1152, p / 72 % 16 + k / 64, p % 72, k % 64) — whatever the order of the five stores, whose blocks tile it. -/
theorem patch1b_apply (y : S9216x320.Idx) :
    patch1b c M0 M1 M2 f0 f1 f2 C0 C1 y = patchFn1b c M0 M1 M2 f0 f1 f2 y := by
  rw [patch1b_eq_canon]
  refine View.canon_apply_of_pieces (patchFn1b c M0 M1 M2 f0 f1 f2) _ (fun p hp x => ?_) y
    (View.cover_of_tiledL (run0.sl.G1_5 c M0 M1 M2 C0 f0 f1 f2) S9216x64.size (by first | rfl | decide) y)
  unfold run0.sl.G1_5 at hp
  simp only [List.mem_cons, List.mem_nil_iff, or_false] at hp
  rcases hp with rfl | rfl | rfl | rfl | rfl
  · show run0.sl.v43 c M0 M1 M2 C0 f0 f1 f2 x = _
    unfold run0.sl.v43 run0.sl.v40 run0.sl.v39
    exact c1b_piece_ok c M0 M1 M2 f0 f1 f2 C0 (4 : Fin 5) k0_part2._proof_17 _ _ _ x
  · show run0.sl.v38 c M0 M1 M2 C0 f0 f1 f2 x = _
    unfold run0.sl.v38 run0.sl.v35 run0.sl.v34
    exact c1b_piece_ok c M0 M1 M2 f0 f1 f2 C0 (3 : Fin 5) k0_part2._proof_11 _ _ _ x
  · show run0.sl.v33 c M0 M1 M2 C0 f0 f1 f2 x = _
    unfold run0.sl.v33 run0.sl.v30 run0.sl.v29
    exact c1b_piece_ok c M0 M1 M2 f0 f1 f2 C0 (2 : Fin 5) k0_part2._proof_5 _ _ _ x
  · show run0.sl.v28 c M0 M1 M2 C0 f0 f1 f2 x = _
    unfold run0.sl.v28 run0.sl.v25 run0.sl.v24
    exact c1b_piece_ok c M0 M1 M2 f0 f1 f2 C0 (1 : Fin 5) k0_part1._proof_32 _ _ _ x
  · show run0.sl.v23 c M0 M1 M2 C0 f0 f1 f2 x = _
    unfold run0.sl.v23 run0.sl.v20 run0.sl.v19
    exact c1b_piece_ok c M0 M1 M2 f0 f1 f2 C0 (0 : Fin 5) k0_part1._proof_25 _ _ _ x

/-- The same with the padded copy spelt out, at row (16 b + h) 72 + x and column 64 kh + ci. -/
theorem patch1b_apply' (b : Fin 8) (h : Fin 16) (x : Fin 72) (k : Fin 320) :
    patch1b c M0 M1 M2 f0 f1 f2 C0 C1 (ix2 (⟨(b.val * 16 + h.val) * 72 + x.val, by omega⟩ : Fin 9216) k)
      = pad1b c M0 M1 M2 f0 f1 f2 (ix4 b (⟨h.val + k.val / 64, by omega⟩ : Fin 20) x (⟨k.val % 64, by omega⟩ : Fin 64)) := by
  rw [patch1b_apply]
  unfold patchFn1b
  have hb : b.val < 8 := b.isLt
  have hh : h.val < 16 := h.isLt
  have hx : x.val < 72 := x.isLt
  congr 1
  funext a
  apply Fin.ext
  match a with
  | ⟨0, _⟩ => show ((b.val * 16 + h.val) * 72 + x.val) / 1152 = b.val; omega
  | ⟨1, _⟩ => show ((b.val * 16 + h.val) * 72 + x.val) / 72 % 16 + k.val / 64 = h.val + k.val / 64; omega
  | ⟨2, _⟩ => show ((b.val * 16 + h.val) * 72 + x.val) % 72 = x.val; omega
  | ⟨3, _⟩ => rfl

/-! ## The weight block and the bias row, loaded whole; one shifted slice -/

/-- The weight block as the run loads it reads the staging buffer's contents. -/
theorem c1b_weight_apply (M3 : Memref sig .tc .vmem S320x320 .bf16) (f3 : Bf0 (F := F) c M3) (j : S320x320.Idx) :
    run0.sl.v46 c M3 f3 j = M3.view.read (Elt F) f3 j := by
  unfold run0.sl.v46
  rw [shapeCast_self, View.readAt_eq_ld, View.ld_unit_zero (S := S320x320) c1b_hz2]

/-- The bias row broadcast to [128, 64, 64] reads the bias at the channel. -/
theorem c1b_bias_apply (M4 : Memref sig .tc .vmem S1x64 .f32) (f4 : Bf0 (F := F) c M4) (r : Fin 128) (x : Fin 64) (co : Fin 64) :
    run0.sl.v61 c M4 f4 (ix3 r x co) = M4.view.read (Elt F) f4 (ix2 (0 : Fin 1) co) := by
  unfold run0.sl.v61
  refine (broadcastTo_apply _ _ (ix3 r x co) (ix3 (0 : Fin 1) (0 : Fin 1) co)
    (fun a => match a with | ⟨0, _⟩ => rfl | ⟨1, _⟩ => rfl | ⟨2, _⟩ => rfl)).trans ?_
  unfold run0.sl.v60
  refine (shapeCast_apply _ _ _ (ix2 (0 : Fin 1) co) (by
    rw [Shape.rowMajor_val_two, Shape.rowMajor_val_three]
    show 0 * 64 + co.val = (0 * 1 + 0) * 64 + co.val
    omega)).trans ?_
  unfold run0.sl.v59 run0.sl.r
  rw [shapeCast_self, View.readAt_eq_ld, View.ld_unit_zero (S := S1x64) c1b_hz2]

/-- One of the five shifted slices of the product regrouped to [128, 72, 320]: the slice at column offset `kw` and
    channel offset 64 kw, read at (r, x, co), is the product at row 72 r + (x + kw) and column 64 kw + co. -/
theorem c1b_slice_apply {α : Type} (kw off : ℕ) (hkw : kw < 5) (hoff : off = kw * 64)
    (hs : S128x72x320.Slices (![0, kw, off] : Fin 3 → ℕ) S128x64x64) (hc : S9216x320.ShapeCasts S128x72x320)
    (v : S9216x320.Idx → α) (r : Fin 128) (x : Fin 64) (co : Fin 64) :
    extractStridedSlice S128x64x64 (![0, kw, off] : Fin 3 → ℕ) (shapeCast S128x72x320 v hc) hs (ix3 r x co)
      = v (ix2 (⟨r.val * 72 + (x.val + kw), by omega⟩ : Fin 9216) (⟨kw * 64 + co.val, by omega⟩ : Fin 320)) := by
  subst hoff
  refine (extractStridedSlice_apply _ _ hs _
    (ix3 r (⟨x.val + kw, by omega⟩ : Fin 72) (⟨kw * 64 + co.val, by omega⟩ : Fin 320)) (fun a => ?_)).trans ?_
  · match a with
    | ⟨0, _⟩ => show r.val = 0 + r.val; omega
    | ⟨1, _⟩ => show x.val + kw = kw + x.val; omega
    | ⟨2, _⟩ => show kw * 64 + co.val = kw * 64 + co.val; rfl
  · exact shapeCast_apply _ hc _ _ (by
      rw [Shape.rowMajor_val_two, Shape.rowMajor_val_three]
      show (r.val * 72 + (x.val + kw)) * 320 + (kw * 64 + co.val) = (r.val * 72 + (x.val + kw)) * 320 + (kw * 64 + co.val)
      rfl)

/-! ## The first convolution's operands, loaded whole -/

/-- The input block as the run loads it reads the staging buffer's contents. -/
theorem c1a_in_apply (j : S8192x32.Idx) : run0.sl.v1 c M0 f0 j = M0.view.read (Elt F) f0 j := by
  unfold run0.sl.v1
  rw [shapeCast_self, View.readAt_eq_ld, View.ld_unit_zero (S := S8192x32) c1b_hz2]

/-- The first convolution's bias row broadcast to [8192, 64] reads the bias at the channel. -/
theorem c1a_bias_apply (p : Fin 8192) (co : Fin 64) :
    run0.sl.v6 c M2 f2 (ix2 p co) = M2.view.read (Elt F) f2 (ix2 (0 : Fin 1) co) := by
  unfold run0.sl.v6
  refine (broadcastTo_apply _ _ (ix2 p co) (ix2 (0 : Fin 1) co)
    (fun a => match a with | ⟨0, _⟩ => rfl | ⟨1, _⟩ => rfl)).trans ?_
  unfold run0.sl.v5
  rw [shapeCast_self, View.readAt_eq_ld, View.ld_unit_zero (S := S1x64) c1b_hz2]

end Conv1b

/-! ## The first convolution at the ideal instance -/

section Product1a

variable (c : Dev nD) (M0 : Memref sig .tc .vmem S8192x32 .bf16) (M1 : Memref sig .tc .vmem S32x64 .bf16) (M2 : Memref sig .tc .vmem S1x64 .f32)
  (f0 : Bf0 (F := Ideal) c M0) (f1 : Bf0 (F := Ideal) c M1) (f2 : Bf0 (F := Ideal) c M2)

/-- The dot's left index at result (p, q) and contraction position k is (p, k); -/
theorem c1a_lhsIdx (p : Fin 8192) (q : Fin 64) (k : Fin 32) :
    dot_S8192x32_S32x64_S8192x64_1_0_0_1_n_n.lhsIdx (ix2 p q) ((contrEquiv1 dot_S8192x32_S32x64_S8192x64_1_0_0_1_n_n 32 rfl rfl).symm k) = ix2 p k := by
  funext a
  apply Fin.ext
  match a with
  | ⟨0, _⟩ => rfl
  | ⟨1, _⟩ => exact (DotDims.lhsIdx_val_of_single dot_S8192x32_S32x64_S8192x64_1_0_0_1_n_n (cl := (1 : Fin 2)) rfl _ _).trans (contrEquiv1_symm_val dot_S8192x32_S32x64_S8192x64_1_0_0_1_n_n 32 rfl rfl k)

/-- its right index is (k, q). -/
theorem c1a_rhsIdx (p : Fin 8192) (q : Fin 64) (k : Fin 32) :
    dot_S8192x32_S32x64_S8192x64_1_0_0_1_n_n.rhsIdx (ix2 p q) ((contrEquiv1 dot_S8192x32_S32x64_S8192x64_1_0_0_1_n_n 32 rfl rfl).symm k) = ix2 k q := by
  funext a
  apply Fin.ext
  match a with
  | ⟨0, _⟩ => exact (DotDims.rhsIdx_val_of_single dot_S8192x32_S32x64_S8192x64_1_0_0_1_n_n (cr := (0 : Fin 2)) rfl _ _).trans (contrEquiv1_symm_val dot_S8192x32_S32x64_S8192x64_1_0_0_1_n_n 32 rfl rfl k)
  | ⟨1, _⟩ => rfl

/-- THE FIRST PRODUCT AT AN INDEX: into the zero accumulator, the product at (p, q) is the sum over the 32 taps of the
    input entry times the weight entry (extended reals: the ideal reading). -/
theorem z1a_apply (p : Fin 8192) (q : Fin 64) :
    run0.sl.v3 (F := Ideal) c M0 M1 f0 f1 (ix2 p q)
      = ∑ k : Fin 32, (M0.view.read (Elt Ideal) f0 (ix2 p k) : Ideal .bf16) * (M1.view.read (Elt Ideal) f1 (ix2 k q) : Ideal .bf16) := by
  unfold run0.sl.v3 run0.sl.cst
  simp only [matmul]
  rw [Ideal.matmul_constant_zero_apply]
  rw [← Equiv.sum_comp (contrEquiv1 dot_S8192x32_S32x64_S8192x64_1_0_0_1_n_n 32 rfl rfl).symm]
  refine Finset.sum_congr rfl fun k _ => ?_
  rw [c1a_lhsIdx, c1a_rhsIdx, c1a_in_apply, View.readAt_eq_ld, View.ld_unit_zero (S := S32x64) c1b_hz2]

/-- THE FIRST CONVOLUTION'S RESULT, read at (p, co): the rectifier of the product plus the bias; the cast to bf16
    changes nothing at the ideal values. -/
theorem conv1a_apply (p : Fin 8192) (co : Fin 64) :
    conv1bIn (F := Ideal) c M0 M1 M2 f0 f1 f2 (ix2 p co)
      = max ((∑ k : Fin 32, (M0.view.read (Elt Ideal) f0 (ix2 p k) : Ideal .bf16) * (M1.view.read (Elt Ideal) f1 (ix2 k co) : Ideal .bf16))
          + M2.view.read (Elt Ideal) f2 (ix2 (0 : Fin 1) co)) 0 := by
  unfold conv1bIn run0.sl.v10
  rw [truncf_apply]
  unfold run0.sl.v9 run0.sl.v7 run0.sl.v8 run0.sl.cst_5
  rw [maximumf_apply, addf_apply, broadcast_apply, z1a_apply, c1a_bias_apply]
  show max _ (Ideal.ofBits .f32 0x00000000#32) = _
  rw [Ideal.ofBits_zero_f32]

end Product1a

/-! ## The product, the five shifted slices, the bias, the rectifier and the pool, at the ideal instance -/

section Product1b

variable (c : Dev nD) (M0 : Memref sig .tc .vmem S8192x32 .bf16) (M1 : Memref sig .tc .vmem S32x64 .bf16) (M2 : Memref sig .tc .vmem S1x64 .f32)
  (M3 : Memref sig .tc .vmem S320x320 .bf16) (M4 : Memref sig .tc .vmem S1x64 .f32)
  (C0 : Memref sig .tc .vmem S8x20x72x64 .bf16) (C1 : Memref sig .tc .vmem S9216x320 .bf16)
  (f0 : Bf0 (F := Ideal) c M0) (f1 : Bf0 (F := Ideal) c M1) (f2 : Bf0 (F := Ideal) c M2) (f3 : Bf0 (F := Ideal) c M3) (f4 : Bf0 (F := Ideal) c M4)

/-- The dot's left index at result (p, q) and contraction position k is (p, k); -/
theorem c1b_lhsIdx (p : Fin 9216) (q : Fin 320) (k : Fin 320) :
    dot_S9216x320_S320x320_S9216x320_1_0_0_1_n_n.lhsIdx (ix2 p q) ((contrEquiv1 dot_S9216x320_S320x320_S9216x320_1_0_0_1_n_n 320 rfl rfl).symm k) = ix2 p k := by
  funext a
  apply Fin.ext
  match a with
  | ⟨0, _⟩ => rfl
  | ⟨1, _⟩ => exact (DotDims.lhsIdx_val_of_single dot_S9216x320_S320x320_S9216x320_1_0_0_1_n_n (cl := (1 : Fin 2)) rfl _ _).trans (contrEquiv1_symm_val dot_S9216x320_S320x320_S9216x320_1_0_0_1_n_n 320 rfl rfl k)

/-- its right index is (k, q). -/
theorem c1b_rhsIdx (p : Fin 9216) (q : Fin 320) (k : Fin 320) :
    dot_S9216x320_S320x320_S9216x320_1_0_0_1_n_n.rhsIdx (ix2 p q) ((contrEquiv1 dot_S9216x320_S320x320_S9216x320_1_0_0_1_n_n 320 rfl rfl).symm k) = ix2 k q := by
  funext a
  apply Fin.ext
  match a with
  | ⟨0, _⟩ => exact (DotDims.rhsIdx_val_of_single dot_S9216x320_S320x320_S9216x320_1_0_0_1_n_n (cr := (0 : Fin 2)) rfl _ _).trans (contrEquiv1_symm_val dot_S9216x320_S320x320_S9216x320_1_0_0_1_n_n 320 rfl rfl k)
  | ⟨1, _⟩ => rfl

/-- THE PRODUCT AT AN INDEX: into the zero accumulator, the matrix product at (p, q) is the sum over the 320 patch
    columns of the patch entry times the weight entry (extended reals: the ideal reading). -/
theorem z1b_apply (p : Fin 9216) (q : Fin 320) :
    run0.sl.v47 (F := Ideal) c M0 M1 M2 M3 C0 C1 f0 f1 f2 f3 (ix2 p q)
      = ∑ k : Fin 320, (patch1b (F := Ideal) c M0 M1 M2 f0 f1 f2 C0 C1 (ix2 p k) : Ideal .bf16)
          * (run0.sl.v46 (F := Ideal) c M3 f3 (ix2 k q) : Ideal .bf16) := by
  unfold run0.sl.v47 run0.sl.cst_41
  simp only [matmul]
  rw [Ideal.matmul_constant_zero_apply]
  rw [← Equiv.sum_comp (contrEquiv1 dot_S9216x320_S320x320_S9216x320_1_0_0_1_n_n 320 rfl rfl).symm]
  refine Finset.sum_congr rfl fun k _ => ?_
  rw [c1b_lhsIdx, c1b_rhsIdx]

/-- THE FIVE SHIFTED SLICES ADDED: at (r, x, co) the sum over the column taps kw of the product at row 72 r + (x + kw)
    and column 64 kw + co. -/
theorem y1b_apply (r : Fin 128) (x : Fin 64) (co : Fin 64) :
    run0.sl.v57 (F := Ideal) c M0 M1 M2 M3 C0 C1 f0 f1 f2 f3 (ix3 r x co)
      = ∑ kw : Fin 5, run0.sl.v47 (F := Ideal) c M0 M1 M2 M3 C0 C1 f0 f1 f2 f3
          (ix2 (⟨r.val * 72 + (x.val + kw.val), by omega⟩ : Fin 9216) (⟨kw.val * 64 + co.val, by omega⟩ : Fin 320)) := by
  unfold run0.sl.v57 run0.sl.v55 run0.sl.v53 run0.sl.v51 run0.sl.v56 run0.sl.v54 run0.sl.v52 run0.sl.v50 run0.sl.v49 run0.sl.v48
  rw [addf_apply, addf_apply, addf_apply, addf_apply]
  rw [c1b_slice_apply 0 0 (by omega) rfl, c1b_slice_apply 1 64 (by omega) rfl, c1b_slice_apply 2 128 (by omega) rfl,
    c1b_slice_apply 3 192 (by omega) rfl, c1b_slice_apply 4 256 (by omega) rfl]
  rw [Fin.sum_univ_five]
  rfl

/-- The padded copy of image b and the re-laid weight's column block for the channel co as functions of plain
    natural-number indices (zero outside the arrays), the form the convolution law is stated over: the weight entry
    for (flattened row tap and channel k, column tap kw) sits at row k, column 64 kw + co. -/
def pad1bN (b : ℕ) : ℕ → ℕ → ℕ → EReal :=
  fun r s ci => if h : b < 8 ∧ r < 20 ∧ s < 72 ∧ ci < 64
    then pad1b (F := Ideal) c M0 M1 M2 f0 f1 f2 (ix4 ⟨b, h.1⟩ ⟨r, h.2.1⟩ ⟨s, h.2.2.1⟩ ⟨ci, h.2.2.2⟩) else 0
def w1bN (co : ℕ) : ℕ → ℕ → EReal :=
  fun k kw => if h : k < 320 ∧ kw * 64 + co < 320
    then run0.sl.v46 (F := Ideal) c M3 f3 (ix2 ⟨k, h.1⟩ ⟨kw * 64 + co, h.2⟩) else 0

theorem pad1bN_eq (b r s ci : ℕ) (h0 : b < 8) (h1 : r < 20) (h2 : s < 72) (h3 : ci < 64) :
    pad1bN c M0 M1 M2 f0 f1 f2 b r s ci = pad1b (F := Ideal) c M0 M1 M2 f0 f1 f2 (ix4 ⟨b, h0⟩ ⟨r, h1⟩ ⟨s, h2⟩ ⟨ci, h3⟩) := by
  unfold pad1bN; exact dif_pos ⟨h0, h1, h2, h3⟩
theorem w1bN_eq (co k kw : ℕ) (h0 : k < 320) (h1 : kw * 64 + co < 320) :
    w1bN c M3 f3 co k kw = run0.sl.v46 (F := Ideal) c M3 f3 (ix2 ⟨k, h0⟩ ⟨kw * 64 + co, h1⟩) := by
  unfold w1bN; exact dif_pos ⟨h0, h1⟩

/-- THE SAME IN THE CONVOLUTION LAW'S FORM: at row r = 16 b + h the five added slices are, for each column tap, ONE
    contraction over the flattened (row tap, channel) index of image b's padded copy against the re-laid weight, the
    column-shifted partial results added. -/
theorem y1b_convRows (b : Fin 8) (h : Fin 16) (x : Fin 64) (co : Fin 64) :
    run0.sl.v57 (F := Ideal) c M0 M1 M2 M3 C0 C1 f0 f1 f2 f3 (ix3 (⟨b.val * 16 + h.val, by omega⟩ : Fin 128) x co)
      = TapSum.convRows 5 5 64 (pad1bN c M0 M1 M2 f0 f1 f2 b.val) (w1bN c M3 f3 co.val) h.val x.val := by
  rw [y1b_apply]
  refine Eq.trans ?_ (Fin.sum_univ_eq_sum_range (fun kw => ∑ k ∈ Finset.range (5 * 64),
    pad1bN c M0 M1 M2 f0 f1 f2 b.val (h.val + k / 64) (x.val + kw) (k % 64) * w1bN c M3 f3 co.val k kw) 5)
  refine Finset.sum_congr rfl fun kw _ => ?_
  have hkw : kw.val < 5 := kw.isLt
  have hb : b.val < 8 := b.isLt
  have hh : h.val < 16 := h.isLt
  have hx : x.val < 64 := x.isLt
  have hco : co.val < 64 := co.isLt
  refine (z1b_apply c M0 M1 M2 M3 C0 C1 f0 f1 f2 f3 _ _).trans ?_
  refine Eq.trans ?_ (Fin.sum_univ_eq_sum_range (fun k =>
    pad1bN c M0 M1 M2 f0 f1 f2 b.val (h.val + k / 64) (x.val + kw.val) (k % 64) * w1bN c M3 f3 co.val k kw.val) 320)
  refine Finset.sum_congr rfl fun k _ => ?_
  have hk : k.val < 320 := k.isLt
  show _ = pad1bN c M0 M1 M2 f0 f1 f2 b.val (h.val + k.val / 64) (x.val + kw.val) (k.val % 64) * w1bN c M3 f3 co.val k.val kw.val
  rw [pad1bN_eq c M0 M1 M2 f0 f1 f2 _ _ _ _ hb (by omega) (by omega) (Nat.mod_lt _ (by decide)), w1bN_eq c M3 f3 _ _ _ hk (by omega)]
  exact congrArg₂ (· * ·) (patch1b_apply' (F := Ideal) c M0 M1 M2 f0 f1 f2 C0 C1 b h (⟨x.val + kw.val, by omega⟩ : Fin 72) k) rfl

/-- THE SECOND CONVOLUTION'S RESULT BEFORE THE POOL, read at (r, x, co): the rectifier of the added slices plus
    the bias. -/
theorem relu1b_apply (r : Fin 128) (x : Fin 64) (co : Fin 64) :
    run0.sl.v64 (F := Ideal) c M0 M1 M2 M3 M4 C0 C1 f0 f1 f2 f3 f4 (ix3 r x co)
      = max (run0.sl.v57 (F := Ideal) c M0 M1 M2 M3 C0 C1 f0 f1 f2 f3 (ix3 r x co) + M4.view.read (Elt Ideal) f4 (ix2 (0 : Fin 1) co)) 0 := by
  unfold run0.sl.v64 run0.sl.v62 run0.sl.v63 run0.sl.cst_5
  rw [maximumf_apply, addf_apply, broadcast_apply, c1b_bias_apply]
  show max _ (Ideal.ofBits .f32 0x00000000#32) = _
  rw [Ideal.ofBits_zero_f32]

/-- THE POOLED VALUE, read at (r, xo, co): the maximum over the 4 neighbouring columns 4 xo … 4 xo + 3 (the fold of
    `max` from the accumulator's value, the f32 pattern of minus infinity); the regrouping [128, 64, 64] to
    [128, 16, 4, 64] keeps the row-major position and the cast to bf16 changes nothing at the ideal values. -/
theorem pool1b_apply (r : Fin 128) (xo : Fin 16) (co : Fin 64) :
    run0.sl.v67 (F := Ideal) c M0 M1 M2 M3 M4 C0 C1 f0 f1 f2 f3 f4 (ix3 r xo co)
      = (Finset.univ : Finset (Fin 4)).fold max (FloatOps.ofBits (F := Ideal) .f32 4286578688#32)
          (fun j => run0.sl.v64 (F := Ideal) c M0 M1 M2 M3 M4 C0 C1 f0 f1 f2 f3 f4 (ix3 r (⟨xo.val * 4 + j.val, by omega⟩ : Fin 64) co)) := by
  unfold run0.sl.v67
  rw [truncf_apply]
  unfold run0.sl.v66
  refine (Ideal.multiReduction_maximumf_single (run0.sl.v65 (F := Ideal) c M0 M1 M2 M3 M4 C0 C1 f0 f1 f2 f3 f4) _ _ _ _ (ix3 r xo co)).trans ?_
  refine congrArg (fun g => (Finset.univ : Finset (Fin 4)).fold max _ g) (funext fun j => ?_)
  have hj : j.val < 4 := j.isLt
  show run0.sl.v65 (F := Ideal) c M0 M1 M2 M3 M4 C0 C1 f0 f1 f2 f3 f4 _ = _
  unfold run0.sl.v65
  exact shapeCast_apply _ _ _ (ix3 r (⟨xo.val * 4 + j.val, by omega⟩ : Fin 64) co) (by
    rw [Shape.rowMajor_val_three, Shape.rowMajor_val_four]
    show (r.val * 64 + (xo.val * 4 + j.val)) * 64 + co.val = ((r.val * 16 + xo.val) * 4 + j.val) * 64 + co.val
    omega)

/-- The pooled first-stage activation at image b, row h, pooled column xo and channel co, in closed form: the maximum
    over the 4 columns 4 xo + j of the rectified convolution (the law's form) plus bias. -/
theorem pool1b_value (b : Fin 8) (h : Fin 16) (xo : Fin 16) (co : Fin 64) :
    run0.sl.v67 (F := Ideal) c M0 M1 M2 M3 M4 C0 C1 f0 f1 f2 f3 f4 (ix3 (⟨b.val * 16 + h.val, by omega⟩ : Fin 128) xo co)
      = (Finset.univ : Finset (Fin 4)).fold max (FloatOps.ofBits (F := Ideal) .f32 4286578688#32)
          (fun j => max (TapSum.convRows 5 5 64 (pad1bN c M0 M1 M2 f0 f1 f2 b.val) (w1bN c M3 f3 co.val) h.val (xo.val * 4 + j.val)
            + M4.view.read (Elt Ideal) f4 (ix2 (0 : Fin 1) co)) 0) := by
  rw [pool1b_apply]
  refine congrArg (fun g => (Finset.univ : Finset (Fin 4)).fold max _ g) (funext fun j => ?_)
  rw [relu1b_apply]
  exact congrArg (fun s => max (s + _) 0) (y1b_convRows c M0 M1 M2 M3 C0 C1 f0 f1 f2 f3 b h (⟨xo.val * 4 + j.val, by omega⟩ : Fin 64) co)

end Product1b

/-! ## The padded copy in closed form: the first convolution inside, zero on the border -/

section Closed1b

variable (c : Dev nD) (M0 : Memref sig .tc .vmem S8192x32 .bf16) (M1 : Memref sig .tc .vmem S32x64 .bf16) (M2 : Memref sig .tc .vmem S1x64 .f32)
  (f0 : Bf0 (F := Ideal) c M0) (f1 : Bf0 (F := Ideal) c M1) (f2 : Bf0 (F := Ideal) c M2)

/-- The bf16 zero the first store splats is the extended real zero. -/
theorem c1b_cst_zero : (run0.sl.cst_6 (F := Ideal) : Ideal .bf16) = 0 := by
  unfold run0.sl.cst_6
  simp [Ideal.ofBits, Ideal.ieee]

/-- The padded copy of image b at plain naturals: the first convolution's result at ((16 b + hh - 2) 64 + xx - 2, ci)
    for 2 ≤ hh < 18 and 2 ≤ xx < 66, zero elsewhere (on the border of the buffer and off it). -/
theorem pad1bN_rows (b : Fin 8) (hh xx ci : ℕ) (hci : ci < 64) :
    pad1bN c M0 M1 M2 f0 f1 f2 b.val hh xx ci
      = if h : (2 ≤ hh ∧ hh < 18) ∧ (2 ≤ xx ∧ xx < 66) then
          (conv1bIn (F := Ideal) c M0 M1 M2 f0 f1 f2 (ix2 (⟨(b.val * 16 + (hh - 2)) * 64 + (xx - 2), by omega⟩ : Fin 8192) (⟨ci, hci⟩ : Fin 64)) : EReal)
        else 0 := by
  by_cases hr : hh < 20 ∧ xx < 72
  · rw [pad1bN_eq c M0 M1 M2 f0 f1 f2 _ _ _ _ b.isLt hr.1 hr.2 hci]
    refine (pad1b_apply (F := Ideal) c M0 M1 M2 f0 f1 f2 ⟨b.val, b.isLt⟩ ⟨hh, hr.1⟩ ⟨xx, hr.2⟩ ⟨ci, hci⟩).trans ?_
    by_cases h : (2 ≤ hh ∧ hh < 18) ∧ (2 ≤ xx ∧ xx < 66)
    · rw [dif_pos h, dif_pos h]
    · rw [dif_neg h, dif_neg h]
      exact c1b_cst_zero
  · have h : ¬((2 ≤ hh ∧ hh < 18) ∧ (2 ≤ xx ∧ xx < 66)) := by omega
    rw [dif_neg h]
    unfold pad1bN
    exact dif_neg (by omega)

/-- THE PADDED COPY IN CLOSED FORM: inside, the rectifier of the 32-tap product of the input block with the first
    weight plus the first bias; zero elsewhere. -/
theorem pad1bN_closed (b : Fin 8) (hh xx ci : ℕ) (hci : ci < 64) :
    pad1bN c M0 M1 M2 f0 f1 f2 b.val hh xx ci
      = if h : (2 ≤ hh ∧ hh < 18) ∧ (2 ≤ xx ∧ xx < 66) then
          max ((∑ k : Fin 32, (M0.view.read (Elt Ideal) f0 (ix2 (⟨(b.val * 16 + (hh - 2)) * 64 + (xx - 2), by omega⟩ : Fin 8192) k) : Ideal .bf16)
              * (M1.view.read (Elt Ideal) f1 (ix2 k (⟨ci, hci⟩ : Fin 64)) : Ideal .bf16))
            + M2.view.read (Elt Ideal) f2 (ix2 (0 : Fin 1) (⟨ci, hci⟩ : Fin 64))) 0
        else 0 := by
  rw [pad1bN_rows]
  by_cases h : (2 ≤ hh ∧ hh < 18) ∧ (2 ≤ xx ∧ xx < 66)
  · rw [dif_pos h, dif_pos h]
    exact conv1a_apply c M0 M1 M2 f0 f1 f2 _ _
  · rw [dif_neg h, dif_neg h]

end Closed1b

end Cert.KernelIdeal.Hand.Stage1

end
-- ==== Proof.KernelStage1Closed.lean ====
/-
  The kernel's pooled first-stage activation in closed form over arrays, at the ideal values.

  The first stage, read at an index in its own module, is restated here in the stage's one neutral function of plain
  arrays.  The padded copy's interior is the first convolution's rectified result, so image b of it is the zero-padded
  image of the 32-tap contraction (one row tap, one column tap) of the tap array against the first weight; the
  product against the re-laid second weight (row 64 kh + ci, column 64 kw + co) is the ONE contraction over (row tap,
  column tap, channel) against the column of the weight as stored (row (5 kh + kw) 64 + ci); the pool is the maximum
  over the 4 columns 4 xo … 4 xo + 3.  Stated over arbitrary staging buffers, with what they read as hypotheses.
-/
import proofs.«147627_g2000402439390779_pallasbulk_891_17_alg».proof.Proof.KernelStage1Value
import proofs.«147627_g2000402439390779_pallasbulk_891_17_alg».proof.Proof.LibStage12
import Idealize.ShloMosaic.Lib.Pipeline.Value
import Idealize.ShloMosaic.Lib.ValueIdx
import Idealize.ShloMosaic.PureOps.Ideal.Laws

set_option maxRecDepth 16384

noncomputable section

namespace Cert.KernelIdeal.Hand.Stage1

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Cert.Hand.Stage12 (Act Mat Vec imgN pad2 colN convRelu pool4)

/-- The tap array [8192, 32] read as an activation [8, 16, 64, 32]: position (b, h, x) is row (16 b + h) 64 + x. -/
def tapsK (X0 : (Mat 8192 32).Idx → EReal) : (Act 64 32).Idx → EReal :=
  fun i => X0 (ix2 (⟨((i 0).val * 16 + (i 1).val) * 64 + (i 2).val, by
      have h0 : (i 0).val < 8 := (i 0).isLt
      have h1 : (i 1).val < 16 := (i 1).isLt
      have h2 : (i 2).val < 64 := (i 2).isLt
      omega⟩ : Fin 8192) (⟨(i 3).val, (i 3).isLt⟩ : Fin 32))

theorem tapsK_apply (X0 : (Mat 8192 32).Idx → EReal) (b : Fin 8) (h : Fin 16) (x : Fin 64) (t : Fin 32) :
    tapsK X0 (ix4 b h x t) = X0 (ix2 (⟨(b.val * 16 + h.val) * 64 + x.val, by omega⟩ : Fin 8192) t) := rfl

/-- The bit pattern of minus infinity (f32) at the extended reals. -/
theorem c1b_neg_inf_f32 : (FloatOps.ofBits (F := Ideal) .f32 4286578688#32 : EReal) = ⊥ := by
  show Ideal.ofBits .f32 0xFF800000#32 = ⊥
  simp [Ideal.ofBits, Ideal.ieee]

/-- The first contraction of the neutral form at a position inside the image: the rectifier of the plain 32-term sum
    plus the bias. -/
theorem a1_inside (X0 : (Mat 8192 32).Idx → EReal) (W1a : (Mat 32 64).Idx → EReal) (B1a : (Vec 64).Idx → EReal)
    (b : Fin 8) (h x : ℕ) (hh : h < 16) (hx : x < 64) (co : Fin 64) :
    Cert.Hand.Stage12.a1 (tapsK X0) W1a B1a b h x co.val
      = max ((∑ k : Fin 32, X0 (ix2 (⟨(b.val * 16 + h) * 64 + x, by omega⟩ : Fin 8192) k) * W1a (ix2 k co)) + B1a (ix1 co)) 0 := by
  unfold Cert.Hand.Stage12.a1
  rw [dif_pos co.isLt]
  unfold convRelu
  rw [Cert.Hand.Stage12.convFull_one_one 32 (by decide)]
  rw [← Fin.sum_univ_eq_sum_range (fun t => imgN (tapsK X0) b h x t * colN W1a (⟨co.val, co.isLt⟩ : Fin 64) t) 32]
  refine congrArg (fun s => max (s + B1a (ix1 co)) 0) (Finset.sum_congr rfl fun k _ => ?_)
  show imgN (tapsK X0) b h x k.val * colN W1a (⟨co.val, co.isLt⟩ : Fin 64) k.val = _
  unfold imgN colN
  rw [dif_pos ⟨⟨hh, hx⟩, k.isLt⟩, dif_pos k.isLt]
  rfl

variable [Cert.KernelIdeal.Facts]

section Generic

variable (c : Dev nD) (M0 : Memref sig .tc .vmem S8192x32 .bf16) (M1 : Memref sig .tc .vmem S32x64 .bf16) (M2 : Memref sig .tc .vmem S1x64 .f32)
  (M3 : Memref sig .tc .vmem S320x320 .bf16) (M4 : Memref sig .tc .vmem S1x64 .f32)
  (C0 : Memref sig .tc .vmem S8x20x72x64 .bf16) (C1 : Memref sig .tc .vmem S9216x320 .bf16)
  (f0 : Bf0 (F := Ideal) c M0) (f1 : Bf0 (F := Ideal) c M1) (f2 : Bf0 (F := Ideal) c M2) (f3 : Bf0 (F := Ideal) c M3) (f4 : Bf0 (F := Ideal) c M4)
  (X0 : (Mat 8192 32).Idx → EReal) (W1a : (Mat 32 64).Idx → EReal) (B1a : (Vec 64).Idx → EReal)
  (W1b : (Mat 1600 64).Idx → EReal) (B1b : (Vec 64).Idx → EReal)

/-- Image b of the padded copy is, at the channels below 64, the zero-padded first contraction of the neutral form. -/
theorem pad1bN_eq_pad2 (hX0 : (M0.view.read (Elt Ideal) f0 : S8192x32.Idx → EReal) = X0)
    (hW1a : (M1.view.read (Elt Ideal) f1 : S32x64.Idx → EReal) = W1a)
    (hB1a : ∀ co : Fin 64, M2.view.read (Elt Ideal) f2 (ix2 (0 : Fin 1) co) = B1a (ix1 co))
    (b : Fin 8) (r s ci : ℕ) (hci : ci < 64) :
    pad1bN c M0 M1 M2 f0 f1 f2 b.val r s ci = pad2 64 64 (Cert.Hand.Stage12.a1 (tapsK X0) W1a B1a b) r s ci := by
  subst hX0 hW1a
  rw [pad1bN_closed c M0 M1 M2 f0 f1 f2 b r s ci hci]
  unfold pad2
  by_cases h : (2 ≤ r ∧ r < 18) ∧ (2 ≤ s ∧ s < 66)
  · rw [dif_pos h, if_pos ⟨h, hci⟩]
    rw [hB1a (⟨ci, hci⟩ : Fin 64)]
    exact (a1_inside _ _ B1a b (r - 2) (s - 2) (by omega) (by omega) (⟨ci, hci⟩ : Fin 64)).symm
  · rw [dif_neg h, if_neg (fun hh => h hh.1)]

/-- The five added slices as the ONE contraction against the stored second weight's column. -/
theorem y1b_convFull (hW1b : ∀ (kh : Fin 5) (ci : Fin 64) (kw : Fin 5) (co : Fin 64),
      M3.view.read (Elt Ideal) f3 (ix2 (⟨kh.val * 64 + ci.val, by omega⟩ : Fin 320) (⟨kw.val * 64 + co.val, by omega⟩ : Fin 320))
        = W1b (ix2 (⟨(kh.val * 5 + kw.val) * 64 + ci.val, by omega⟩ : Fin 1600) co))
    (b : Fin 8) (h : Fin 16) (x : Fin 64) (co : Fin 64) :
    run0.sl.v57 (F := Ideal) c M0 M1 M2 M3 C0 C1 f0 f1 f2 f3 (ix3 (⟨b.val * 16 + h.val, by omega⟩ : Fin 128) x co)
      = TapSum.convFull 5 5 64 (pad1bN c M0 M1 M2 f0 f1 f2 b.val) (colN W1b co) h.val x.val := by
  rw [y1b_convRows]
  rw [← TapSum.convRows_eq_convFull 5 5 64 (by decide) (by decide) _ (colN W1b co)
        (fun k kw => colN W1b co ((k / 64 * 5 + kw) * 64 + k % 64)) (fun _ _ => rfl)]
  unfold TapSum.convRows
  refine Finset.sum_congr rfl fun kw hkw => Finset.sum_congr rfl fun k hk => ?_
  have hk' : k < 5 * 64 := Finset.mem_range.mp hk
  have hkw' : kw < 5 := Finset.mem_range.mp hkw
  have hco : co.val < 64 := co.isLt
  rw [w1bN_eq c M3 f3 co.val k kw (by omega) (by omega), c1b_weight_apply]
  refine congrArg (_ * ·) ?_
  have e := hW1b (⟨k / 64, by omega⟩ : Fin 5) (⟨k % 64, Nat.mod_lt _ (by decide)⟩ : Fin 64) (⟨kw, hkw'⟩ : Fin 5) co
  refine Eq.trans (congrArg (M3.view.read (Elt Ideal) f3) ?_) (e.trans ?_)
  · funext a
    apply Fin.ext
    match a with
    | ⟨0, _⟩ => show k = k / 64 * 64 + k % 64; omega
    | ⟨1, _⟩ => rfl
  · show W1b _ = colN W1b co ((k / 64 * 5 + kw) * 64 + k % 64)
    unfold colN
    rw [dif_pos (by omega)]

/-- THE POOLED FIRST-STAGE ACTIVATION IN CLOSED FORM over what the five staging buffers read: the tap array, the first
    weight, the first bias row, the RE-LAID second weight (against the stored one) and the second bias row. -/
theorem pool1_closed (hX0 : (M0.view.read (Elt Ideal) f0 : S8192x32.Idx → EReal) = X0)
    (hW1a : (M1.view.read (Elt Ideal) f1 : S32x64.Idx → EReal) = W1a)
    (hB1a : ∀ co : Fin 64, M2.view.read (Elt Ideal) f2 (ix2 (0 : Fin 1) co) = B1a (ix1 co))
    (hW1b : ∀ (kh : Fin 5) (ci : Fin 64) (kw : Fin 5) (co : Fin 64),
      M3.view.read (Elt Ideal) f3 (ix2 (⟨kh.val * 64 + ci.val, by omega⟩ : Fin 320) (⟨kw.val * 64 + co.val, by omega⟩ : Fin 320))
        = W1b (ix2 (⟨(kh.val * 5 + kw.val) * 64 + ci.val, by omega⟩ : Fin 1600) co))
    (hB1b : ∀ co : Fin 64, M4.view.read (Elt Ideal) f4 (ix2 (0 : Fin 1) co) = B1b (ix1 co))
    (b : Fin 8) (h : Fin 16) (xo : Fin 16) (co : Fin 64) :
    run0.sl.v67 (F := Ideal) c M0 M1 M2 M3 M4 C0 C1 f0 f1 f2 f3 f4 (ix3 (⟨b.val * 16 + h.val, by omega⟩ : Fin 128) xo co)
      = Cert.Hand.Stage12.p1 (tapsK X0) W1a B1a W1b B1b b h.val xo.val co.val := by
  rw [pool1b_apply]
  unfold Cert.Hand.Stage12.p1
  rw [dif_pos co.isLt]
  unfold pool4
  rw [c1b_neg_inf_f32]
  refine congrArg (fun g : Fin 4 → EReal => Finset.fold max (⊥ : EReal) g Finset.univ) (funext fun j => ?_)
  have hj : j.val < 4 := j.isLt
  rw [relu1b_apply, y1b_convFull c M0 M1 M2 M3 C0 C1 f0 f1 f2 f3 W1b hW1b b h (⟨xo.val * 4 + j.val, by omega⟩ : Fin 64) co, hB1b co]
  unfold convRelu
  rw [Nat.mul_comm 4 xo.val]
  rw [Cert.Hand.Stage12.convFull_congr 5 5 64 (by decide)
    (fun r s ci hci => pad1bN_eq_pad2 c M0 M1 M2 f0 f1 f2 X0 W1a B1a hX0 hW1a hB1a b r s ci hci) (fun _ _ => rfl)]

/-- The same with the pooled first stage named at an index of its array [8, 16, 16, 64]. -/
theorem pool1_closed_out1 (hX0 : (M0.view.read (Elt Ideal) f0 : S8192x32.Idx → EReal) = X0)
    (hW1a : (M1.view.read (Elt Ideal) f1 : S32x64.Idx → EReal) = W1a)
    (hB1a : ∀ co : Fin 64, M2.view.read (Elt Ideal) f2 (ix2 (0 : Fin 1) co) = B1a (ix1 co))
    (hW1b : ∀ (kh : Fin 5) (ci : Fin 64) (kw : Fin 5) (co : Fin 64),
      M3.view.read (Elt Ideal) f3 (ix2 (⟨kh.val * 64 + ci.val, by omega⟩ : Fin 320) (⟨kw.val * 64 + co.val, by omega⟩ : Fin 320))
        = W1b (ix2 (⟨(kh.val * 5 + kw.val) * 64 + ci.val, by omega⟩ : Fin 1600) co))
    (hB1b : ∀ co : Fin 64, M4.view.read (Elt Ideal) f4 (ix2 (0 : Fin 1) co) = B1b (ix1 co))
    (b : Fin 8) (h : Fin 16) (xo : Fin 16) (co : Fin 64) :
    run0.sl.v67 (F := Ideal) c M0 M1 M2 M3 M4 C0 C1 f0 f1 f2 f3 f4 (ix3 (⟨b.val * 16 + h.val, by omega⟩ : Fin 128) xo co)
      = Cert.Hand.Stage12.out1 (tapsK X0) W1a B1a W1b B1b b h xo co :=
  pool1_closed c M0 M1 M2 M3 M4 C0 C1 f0 f1 f2 f3 f4 X0 W1a B1a W1b B1b hX0 hW1a hB1a hW1b hB1b b h xo co

end Generic

end Cert.KernelIdeal.Hand.Stage1

end
-- ==== Proof.KernelConv2aValue.lean ====
/-
  The kernel's first second-stage convolution, read at an index.

  The body first fills a scratch buffer [8, 20, 24, 64] with zeros and stores the pooled first-stage activation
  ([128, 16, 64], regrouped to [8, 16, 16, 64]) at offsets (0, 2, 2, 0): the zero-padded copy ("pad2a").  It then
  builds a patch matrix [3072, 320] by five slice stores: the store for the row tap kh writes columns
  [64 kh, 64 (kh + 1)) with the [8, 16, 24, 64] window of the padded copy at row offset kh, its first three axes
  flattened.  The five column blocks tile the matrix and each is a block of ONE function of the matrix index: at row
  p = (16 b + h) 24 + x and column k = 64 kh + ci the matrix holds the padded copy at (b, h + kh, x, ci)
  ("patch2a_apply"), whatever the order of the stores.

  At the ideal values the product of the patch matrix with the re-laid weight [320, 640] (row 64 kh + ci, column
  128 kw + co) into the zero accumulator is a plain sum over the 320 patch columns; regrouped to [128, 24, 640], its
  five slices at column offset kw and channel offset 128 kw are added: for each column tap ONE contraction over (row
  tap, channel), the column-shifted partial results added — the convolution law's "TapSum.convRows 5 5 64".  The bias
  row is added, the maximum with zero taken, and the result cast to bf16 (no change at the ideal values).
-/
import proofs.«147627_g2000402439390779_pallasbulk_891_17_alg».proof.Proof.KernelIdealRegion0
import proofs.«147627_g2000402439390779_pallasbulk_891_17_alg».proof.Proof.LibConvLaw
import Idealize.ShloMosaic.Lib.Pipeline.Value
import Idealize.ShloMosaic.Lib.Ring
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F] [Cert.KernelIdeal.Facts]

section Conv2a

variable (c : Dev nD) (M0 : Memref sig .tc .vmem S8192x32 .bf16) (M1 : Memref sig .tc .vmem S32x64 .bf16) (M2 : Memref sig .tc .vmem S1x64 .f32)
  (M3 : Memref sig .tc .vmem S320x320 .bf16) (M4 : Memref sig .tc .vmem S1x64 .f32)
  (C0 : Memref sig .tc .vmem S8x20x72x64 .bf16) (C1 : Memref sig .tc .vmem S9216x320 .bf16)
  (f0 : Bf0 (F := F) c M0) (f1 : Bf0 (F := F) c M1) (f2 : Bf0 (F := F) c M2) (f3 : Bf0 (F := F) c M3) (f4 : Bf0 (F := F) c M4)

/-! ## The padded copy of the pooled first-stage activation -/

/-- The pooled first-stage activation after the cast, as the run names it: one value per (image row, column, channel),
    the image rows of the 8 images flattened (row index 16 b + h). -/
abbrev conv2aIn : S128x16x64.Idx → Elt F .bf16 := run0.sl.v67 c M0 M1 M2 M3 M4 C0 C1 f0 f1 f2 f3 f4

/-- The zero-padded copy the convolution reads: what its two stores leave in the scratch buffer. -/
abbrev pad2a : S8x20x24x64.Idx → Elt F .bf16 := View.canon (run0.sl.G2_2 c M0 M1 M2 M3 M4 C0 C1 f0 f1 f2 f3 f4)

theorem c2a_hz4 : (![0, 0, 0, 0] : Fin 4 → Nat) = fun _ => 0 := funext fun a => by fin_cases a <;> rfl
theorem c2a_hz2 : (![0, 0] : Fin 2 → Nat) = fun _ => 0 := funext fun a => by fin_cases a <;> rfl

/-- In the interior (rows 2 … 17, columns 2 … 17) the padded copy is the pooled activation two rows up and two
    columns left: the second store, through the rectangle of the activation's shape at offsets (0, 2, 2, 0), is the last
    one, and its payload is the activation regrouped from [128, 16, 64] to [8, 16, 16, 64] (same row-major position). -/
theorem pad2a_mid (b : Fin 8) (h : Fin 16) (x : Fin 16) (ci : Fin 64) :
    pad2a c M0 M1 M2 M3 M4 C0 C1 f0 f1 f2 f3 f4 (ix4 b (⟨h.val + 2, by omega⟩ : Fin 20) (⟨x.val + 2, by omega⟩ : Fin 24) ci)
      = conv2aIn c M0 M1 M2 M3 M4 C0 C1 f0 f1 f2 f3 f4 (ix3 (⟨b.val * 16 + h.val, by omega⟩ : Fin 128) x ci) := by
  unfold pad2a run0.sl.G2_2
  have e := View.canon_cons_emb (Val := Elt F) (Rect.unit (s := S8x20x24x64) ![0, 2, 2, 0] S8x16x16x64.size k0_part3._proof_14)
    (run0.sl.v75 c M0 M1 M2 M3 M4 C0 C1 f0 f1 f2 f3 f4) run0.sl.G2_1 (ix4 b h x ci)
  refine Eq.trans (congrArg _ ?_) (e.trans ?_)
  · funext a
    apply Fin.ext
    rw [Rect.emb_apply]
    match a with
    | ⟨0, _⟩ => show b.val = 0 + 1 * b.val; omega
    | ⟨1, _⟩ => show h.val + 2 = 2 + 1 * h.val; omega
    | ⟨2, _⟩ => show x.val + 2 = 2 + 1 * x.val; omega
    | ⟨3, _⟩ => show ci.val = 0 + 1 * ci.val; omega
  · unfold run0.sl.v75 run0.sl.v72
    rw [shapeCast_self]
    exact shapeCast_apply _ _ _ (ix3 (⟨b.val * 16 + h.val, by omega⟩ : Fin 128) x ci) (by
      rw [Shape.rowMajor_val_three, Shape.rowMajor_val_four]
      show ((b.val * 16 + h.val) * 16 + x.val) * 64 + ci.val = ((b.val * 16 + h.val) * 16 + x.val) * 64 + ci.val
      rfl)

/-- On the border it is the zero the first store splats: the second store's rectangle does not hold the index, and the
    first store, through the whole buffer, leaves its payload — the broadcast of the bf16 zero. -/
theorem pad2a_out (b : Fin 8) (hh : Fin 20) (xx : Fin 24) (ci : Fin 64)
    (h : hh.val < 2 ∨ 18 ≤ hh.val ∨ xx.val < 2 ∨ 18 ≤ xx.val) :
    pad2a c M0 M1 M2 M3 M4 C0 C1 f0 f1 f2 f3 f4 (ix4 b hh xx ci) = (run0.sl.cst_6 : F .bf16) := by
  unfold pad2a run0.sl.G2_2
  rw [View.canon_cons_of_not_mem _ _ (fun hm => by
    have hm' : ix4 b hh xx ci ∈ (Rect.unit (s := S8x20x24x64) ![0, 2, 2, 0] S8x16x16x64.size k0_part3._proof_14).set := hm
    have h1 : 2 ≤ hh.val ∧ hh.val < 2 + 16 := (Rect.mem_set_unit.mp hm') (1 : Fin 4)
    have h2 : 2 ≤ xx.val ∧ xx.val < 2 + 16 := (Rect.mem_set_unit.mp hm') (2 : Fin 4)
    omega)]
  unfold run0.sl.G2_1
  rw [View.canon_unit_zero c2a_hz4]
  unfold run0.sl.v71
  rw [shapeCast_self]
  rfl

/-- THE PADDED COPY AT ANY INDEX: the pooled activation at (16 b + hh - 2, xx - 2, ci) in the interior
    2 ≤ hh < 18, 2 ≤ xx < 18, the zero elsewhere. -/
theorem pad2a_apply (b : Fin 8) (hh : Fin 20) (xx : Fin 24) (ci : Fin 64) :
    pad2a c M0 M1 M2 M3 M4 C0 C1 f0 f1 f2 f3 f4 (ix4 b hh xx ci)
      = if h : (2 ≤ hh.val ∧ hh.val < 18) ∧ (2 ≤ xx.val ∧ xx.val < 18) then
          conv2aIn c M0 M1 M2 M3 M4 C0 C1 f0 f1 f2 f3 f4 (ix3 (⟨b.val * 16 + (hh.val - 2), by omega⟩ : Fin 128) (⟨xx.val - 2, by omega⟩ : Fin 16) ci)
        else (run0.sl.cst_6 : F .bf16) := by
  by_cases h : (2 ≤ hh.val ∧ hh.val < 18) ∧ (2 ≤ xx.val ∧ xx.val < 18)
  · rw [dif_pos h]
    refine Eq.trans (congrArg _ ?_) (pad2a_mid c M0 M1 M2 M3 M4 C0 C1 f0 f1 f2 f3 f4 b (⟨hh.val - 2, by omega⟩ : Fin 16) (⟨xx.val - 2, by omega⟩ : Fin 16) ci)
    funext a
    apply Fin.ext
    match a with
    | ⟨0, _⟩ => rfl
    | ⟨1, _⟩ => show hh.val = hh.val - 2 + 2; omega
    | ⟨2, _⟩ => show xx.val = xx.val - 2 + 2; omega
    | ⟨3, _⟩ => rfl
  · rw [dif_neg h]
    exact pad2a_out c M0 M1 M2 M3 M4 C0 C1 f0 f1 f2 f3 f4 b hh xx ci (by omega)

/-! ## The patch matrix -/

variable (C2 : Memref sig .tc .vmem S8x20x24x64 .bf16) (C3 : Memref sig .tc .vmem S3072x320 .bf16)

/-- One row tap's block: the padded copy loaded through the rectangle [8, 16, 24, 64] at row offset kh, the
    (image, row, column) triple flattened to one axis of 3072. At (p, ci), p = (16 b + h) 24 + x, it is the padded
    copy at (b, h + kh, x, ci). -/
theorem c2a_tap_apply (kh : Fin 5) (inb : ∀ a, (![0, kh.val, 0, 0] : Fin 4 → Nat) a + S8x16x24x64.size a ≤ S8x20x24x64.size a)
    (h1 : S8x16x24x64.ShapeCasts S3072x64) (h2 : S3072x64.ShapeCasts S3072x64) (x : S3072x64.Idx) :
    shapeCast S3072x64 (shapeCast S3072x64
        (C2.view.readCov (run0.sl.G2_2 c M0 M1 M2 M3 M4 C0 C1 f0 f1 f2 f3 f4) (Rect.unit (s := S8x20x24x64) ![0, kh.val, 0, 0] S8x16x24x64.size inb).toLoadRect) h1) h2 x
      = pad2a c M0 M1 M2 M3 M4 C0 C1 f0 f1 f2 f3 f4 (ix4 (⟨(x 0).val / 384, by have h : (x 0).val < 3072 := (x 0).isLt; omega⟩ : Fin 8)
          (⟨(x 0).val / 24 % 16 + kh.val, by omega⟩ : Fin 20) (⟨(x 0).val % 24, by omega⟩ : Fin 24) (⟨(x 1).val, (x 1).isLt⟩ : Fin 64)) := by
  have hx0 : (x 0).val < 3072 := (x 0).isLt
  have hx1 : (x 1).val < 64 := (x 1).isLt
  rw [shapeCast_self]
  rw [shapeCast_apply _ h1 _ (ix4 (⟨(x 0).val / 384, by omega⟩ : Fin 8) (⟨(x 0).val / 24 % 16, by omega⟩ : Fin 16)
      (⟨(x 0).val % 24, by omega⟩ : Fin 24) (⟨(x 1).val, hx1⟩ : Fin 64)) (by
    rw [Shape.rowMajor_val_four, Shape.rowMajor_val_two]
    show ((((x 0).val / 384) * 16 + (x 0).val / 24 % 16) * 24 + (x 0).val % 24) * 64 + (x 1).val = (x 0).val * 64 + (x 1).val
    omega)]
  rw [View.readCov_eq_canon']
  show View.canon _ _ = View.canon _ _
  congr 1
  funext a
  apply Fin.ext
  rw [LoadRect.idx_apply]
  match a with
  | ⟨0, _⟩ => show 0 + 1 * ((x 0).val / 384) = (x 0).val / 384; omega
  | ⟨1, _⟩ => show kh.val + 1 * ((x 0).val / 24 % 16) = (x 0).val / 24 % 16 + kh.val; omega
  | ⟨2, _⟩ => show 0 + 1 * ((x 0).val % 24) = (x 0).val % 24; omega
  | ⟨3, _⟩ => show 0 + 1 * (x 1).val = (x 1).val; omega

/-- The patch matrix as the run reads it back, -/
abbrev patch2a : S3072x320.Idx → Elt F .bf16 := run0.sl.v101 c M0 M1 M2 M3 M4 C0 C1 C2 C3 f0 f1 f2 f3 f4

/-- and the one function its five stores are tiles of: at (p, k), the padded copy at image p / 384, row
    p / 24 % 16 + k / 64, column p % 24, channel k % 64. -/
def patchFn2a (y : S3072x320.Idx) : Elt F .bf16 :=
  pad2a c M0 M1 M2 M3 M4 C0 C1 f0 f1 f2 f3 f4 (ix4 (⟨(y 0).val / 384, by have h : (y 0).val < 3072 := (y 0).isLt; omega⟩ : Fin 8)
    (⟨(y 0).val / 24 % 16 + (y 1).val / 64, by have h : (y 1).val < 320 := (y 1).isLt; omega⟩ : Fin 20)
    (⟨(y 0).val % 24, by omega⟩ : Fin 24) (⟨(y 1).val % 64, by omega⟩ : Fin 64))

/-- The read-back is the canon of the five stores: the load is through the whole buffer. -/
theorem patch2a_eq_canon : patch2a c M0 M1 M2 M3 M4 C0 C1 f0 f1 f2 f3 f4 C2 C3 = View.canon (run0.sl.G3_5 c M0 M1 M2 M3 M4 C0 C1 C2 f0 f1 f2 f3 f4) := by
  unfold patch2a run0.sl.v101
  rw [View.readCov_eq_canon']
  funext j
  show View.canon _ _ = View.canon _ _
  congr 1
  funext a
  apply Fin.ext
  rw [LoadRect.idx_apply]
  match a with
  | ⟨0, _⟩ => show 0 + 1 * (j 0).val = (j 0).val; omega
  | ⟨1, _⟩ => show 0 + 1 * (j 1).val = (j 1).val; omega

/-- Each store's payload is its tile of that function: row tap kh's block, stored at column offset 64 kh. -/
theorem c2a_piece_ok (kh : Fin 5) (inbP : ∀ a, (![0, kh.val * 64] : Fin 2 → Nat) a + S3072x64.size a ≤ S3072x320.size a)
    (inb : ∀ a, (![0, kh.val, 0, 0] : Fin 4 → Nat) a + S8x16x24x64.size a ≤ S8x20x24x64.size a)
    (h1 : S8x16x24x64.ShapeCasts S3072x64) (h2 : S3072x64.ShapeCasts S3072x64) (x : S3072x64.Idx) :
    shapeCast S3072x64 (shapeCast S3072x64
        (C2.view.readCov (run0.sl.G2_2 c M0 M1 M2 M3 M4 C0 C1 f0 f1 f2 f3 f4) (Rect.unit (s := S8x20x24x64) ![0, kh.val, 0, 0] S8x16x24x64.size inb).toLoadRect) h1) h2 x
      = patchFn2a c M0 M1 M2 M3 M4 C0 C1 f0 f1 f2 f3 f4 ((Rect.unit (s := S3072x320) ![0, kh.val * 64] S3072x64.size inbP).emb x) := by
  rw [c2a_tap_apply c M0 M1 M2 M3 M4 C0 C1 f0 f1 f2 f3 f4 C2 kh inb h1 h2 x]
  unfold patchFn2a
  have hx0 : (x 0).val < 3072 := (x 0).isLt
  have hx1 : (x 1).val < 64 := (x 1).isLt
  have hk : kh.val < 5 := kh.isLt
  congr 1
  funext a
  apply Fin.ext
  match a with
  | ⟨0, _⟩ => show (x 0).val / 384 = (0 + 1 * (x 0).val) / 384; omega
  | ⟨1, _⟩ => show (x 0).val / 24 % 16 + kh.val = (0 + 1 * (x 0).val) / 24 % 16 + (kh.val * 64 + 1 * (x 1).val) / 64; omega
  | ⟨2, _⟩ => show (x 0).val % 24 = (0 + 1 * (x 0).val) % 24; omega
  | ⟨3, _⟩ => show (x 1).val = (kh.val * 64 + 1 * (x 1).val) % 64; omega

/-- THE PATCH MATRIX AT AN INDEX: at (p, k), p < 3072, k < 320, it is the padded copy at
    (p / 384, p / 24 % 16 + k / 64, p % 24, k % 64) — whatever the order of the five stores, whose blocks tile it. -/
theorem patch2a_apply (y : S3072x320.Idx) :
    patch2a c M0 M1 M2 M3 M4 C0 C1 f0 f1 f2 f3 f4 C2 C3 y = patchFn2a c M0 M1 M2 M3 M4 C0 C1 f0 f1 f2 f3 f4 y := by
  rw [patch2a_eq_canon]
  refine View.canon_apply_of_pieces (patchFn2a c M0 M1 M2 M3 M4 C0 C1 f0 f1 f2 f3 f4) _ (fun p hp x => ?_) y
    (View.cover_of_tiledL (run0.sl.G3_5 c M0 M1 M2 M3 M4 C0 C1 C2 f0 f1 f2 f3 f4) S3072x64.size (by first | rfl | decide) y)
  unfold run0.sl.G3_5 at hp
  simp only [List.mem_cons, List.mem_nil_iff, or_false] at hp
  rcases hp with rfl | rfl | rfl | rfl | rfl
  · show run0.sl.v100 c M0 M1 M2 M3 M4 C0 C1 C2 f0 f1 f2 f3 f4 x = _
    unfold run0.sl.v100 run0.sl.v97 run0.sl.v96
    exact c2a_piece_ok c M0 M1 M2 M3 M4 C0 C1 f0 f1 f2 f3 f4 C2 (4 : Fin 5) k0_part4._proof_13 _ _ _ x
  · show run0.sl.v95 c M0 M1 M2 M3 M4 C0 C1 C2 f0 f1 f2 f3 f4 x = _
    unfold run0.sl.v95 run0.sl.v92 run0.sl.v91
    exact c2a_piece_ok c M0 M1 M2 M3 M4 C0 C1 f0 f1 f2 f3 f4 C2 (3 : Fin 5) k0_part4._proof_7 _ _ _ x
  · show run0.sl.v90 c M0 M1 M2 M3 M4 C0 C1 C2 f0 f1 f2 f3 f4 x = _
    unfold run0.sl.v90 run0.sl.v87 run0.sl.v86
    exact c2a_piece_ok c M0 M1 M2 M3 M4 C0 C1 f0 f1 f2 f3 f4 C2 (2 : Fin 5) k0_part4._proof_1 _ _ _ x
  · show run0.sl.v85 c M0 M1 M2 M3 M4 C0 C1 C2 f0 f1 f2 f3 f4 x = _
    unfold run0.sl.v85 run0.sl.v82 run0.sl.v81
    exact c2a_piece_ok c M0 M1 M2 M3 M4 C0 C1 f0 f1 f2 f3 f4 C2 (1 : Fin 5) k0_part3._proof_29 _ _ _ x
  · show run0.sl.v80 c M0 M1 M2 M3 M4 C0 C1 C2 f0 f1 f2 f3 f4 x = _
    unfold run0.sl.v80 run0.sl.v77 run0.sl.v76
    exact c2a_piece_ok c M0 M1 M2 M3 M4 C0 C1 f0 f1 f2 f3 f4 C2 (0 : Fin 5) k0_part3._proof_22 _ _ _ x

/-- The same with the padded copy spelt out, at row (16 b + h) 24 + x and column 64 kh + ci. -/
theorem patch2a_apply' (b : Fin 8) (h : Fin 16) (x : Fin 24) (k : Fin 320) :
    patch2a c M0 M1 M2 M3 M4 C0 C1 f0 f1 f2 f3 f4 C2 C3 (ix2 (⟨(b.val * 16 + h.val) * 24 + x.val, by omega⟩ : Fin 3072) k)
      = pad2a c M0 M1 M2 M3 M4 C0 C1 f0 f1 f2 f3 f4 (ix4 b (⟨h.val + k.val / 64, by omega⟩ : Fin 20) x (⟨k.val % 64, by omega⟩ : Fin 64)) := by
  rw [patch2a_apply]
  unfold patchFn2a
  have hb : b.val < 8 := b.isLt
  have hh : h.val < 16 := h.isLt
  have hx : x.val < 24 := x.isLt
  congr 1
  funext a
  apply Fin.ext
  match a with
  | ⟨0, _⟩ => show ((b.val * 16 + h.val) * 24 + x.val) / 384 = b.val; omega
  | ⟨1, _⟩ => show ((b.val * 16 + h.val) * 24 + x.val) / 24 % 16 + k.val / 64 = h.val + k.val / 64; omega
  | ⟨2, _⟩ => show ((b.val * 16 + h.val) * 24 + x.val) % 24 = x.val; omega
  | ⟨3, _⟩ => rfl

/-! ## The weight block and the bias row, loaded whole -/

/-- The weight block as the run loads it reads the staging buffer's contents. -/
theorem c2a_weight_apply (M5 : Memref sig .tc .vmem S320x640 .bf16) (f5 : Bf0 (F := F) c M5) (j : S320x640.Idx) :
    run0.sl.v103 c M5 f5 j = M5.view.read (Elt F) f5 j := by
  unfold run0.sl.v103
  rw [shapeCast_self, View.readAt_eq_ld, View.ld_unit_zero (S := S320x640) c2a_hz2]

/-- The bias row broadcast to [128, 16, 128] reads the bias at the channel. -/
theorem c2a_bias_apply (M6 : Memref sig .tc .vmem S1x128 .f32) (f6 : Bf0 (F := F) c M6) (r : Fin 128) (x : Fin 16) (co : Fin 128) :
    run0.sl.v118 c M6 f6 (ix3 r x co) = M6.view.read (Elt F) f6 (ix2 (0 : Fin 1) co) := by
  unfold run0.sl.v118
  refine (broadcastTo_apply _ _ (ix3 r x co) (ix3 (0 : Fin 1) (0 : Fin 1) co)
    (fun a => match a with | ⟨0, _⟩ => rfl | ⟨1, _⟩ => rfl | ⟨2, _⟩ => rfl)).trans ?_
  unfold run0.sl.v117
  refine (shapeCast_apply _ _ _ (ix2 (0 : Fin 1) co) (by
    rw [Shape.rowMajor_val_two, Shape.rowMajor_val_three]
    show 0 * 128 + co.val = (0 * 1 + 0) * 128 + co.val
    omega)).trans ?_
  unfold run0.sl.v116
  rw [shapeCast_self, View.readAt_eq_ld, View.ld_unit_zero (S := S1x128) c2a_hz2]

/-- One of the five shifted slices of the product regrouped to [128, 24, 640]: the slice at column offset kw and
    channel offset 128 kw, read at (r, x, co), is the product at row 24 r + (x + kw) and column 128 kw + co. -/
theorem c2a_slice_apply {α : Type} (kw off : ℕ) (hkw : kw < 5) (hoff : off = kw * 128)
    (hs : S128x24x640.Slices (![0, kw, off] : Fin 3 → ℕ) S128x16x128) (hc : S3072x640.ShapeCasts S128x24x640)
    (v : S3072x640.Idx → α) (r : Fin 128) (x : Fin 16) (co : Fin 128) :
    extractStridedSlice S128x16x128 (![0, kw, off] : Fin 3 → ℕ) (shapeCast S128x24x640 v hc) hs (ix3 r x co)
      = v (ix2 (⟨r.val * 24 + (x.val + kw), by omega⟩ : Fin 3072) (⟨kw * 128 + co.val, by omega⟩ : Fin 640)) := by
  subst hoff
  refine (extractStridedSlice_apply _ _ hs _
    (ix3 r (⟨x.val + kw, by omega⟩ : Fin 24) (⟨kw * 128 + co.val, by omega⟩ : Fin 640)) (fun a => ?_)).trans ?_
  · match a with
    | ⟨0, _⟩ => show r.val = 0 + r.val; omega
    | ⟨1, _⟩ => show x.val + kw = kw + x.val; omega
    | ⟨2, _⟩ => show kw * 128 + co.val = kw * 128 + co.val; rfl
  · exact shapeCast_apply _ hc _ _ (by
      rw [Shape.rowMajor_val_two, Shape.rowMajor_val_three]
      show (r.val * 24 + (x.val + kw)) * 640 + (kw * 128 + co.val) = (r.val * 24 + (x.val + kw)) * 640 + (kw * 128 + co.val)
      rfl)

end Conv2a

/-! ## The product, the five shifted slices, the bias, the rectifier and the cast, at the ideal instance -/

section Product2a

variable (c : Dev nD) (M0 : Memref sig .tc .vmem S8192x32 .bf16) (M1 : Memref sig .tc .vmem S32x64 .bf16) (M2 : Memref sig .tc .vmem S1x64 .f32)
  (M3 : Memref sig .tc .vmem S320x320 .bf16) (M4 : Memref sig .tc .vmem S1x64 .f32) (M5 : Memref sig .tc .vmem S320x640 .bf16) (M6 : Memref sig .tc .vmem S1x128 .f32)
  (C0 : Memref sig .tc .vmem S8x20x72x64 .bf16) (C1 : Memref sig .tc .vmem S9216x320 .bf16) (C2 : Memref sig .tc .vmem S8x20x24x64 .bf16) (C3 : Memref sig .tc .vmem S3072x320 .bf16)
  (f0 : Bf0 (F := Ideal) c M0) (f1 : Bf0 (F := Ideal) c M1) (f2 : Bf0 (F := Ideal) c M2) (f3 : Bf0 (F := Ideal) c M3) (f4 : Bf0 (F := Ideal) c M4)
  (f5 : Bf0 (F := Ideal) c M5) (f6 : Bf0 (F := Ideal) c M6)

/-- The dot's left index at result (p, q) and contraction position k is (p, k); -/
theorem c2a_lhsIdx (p : Fin 3072) (q : Fin 640) (k : Fin 320) :
    dot_S3072x320_S320x640_S3072x640_1_0_0_1_n_n.lhsIdx (ix2 p q) ((contrEquiv1 dot_S3072x320_S320x640_S3072x640_1_0_0_1_n_n 320 rfl rfl).symm k) = ix2 p k := by
  funext a
  apply Fin.ext
  match a with
  | ⟨0, _⟩ => rfl
  | ⟨1, _⟩ => exact (DotDims.lhsIdx_val_of_single dot_S3072x320_S320x640_S3072x640_1_0_0_1_n_n (cl := (1 : Fin 2)) rfl _ _).trans (contrEquiv1_symm_val dot_S3072x320_S320x640_S3072x640_1_0_0_1_n_n 320 rfl rfl k)

/-- its right index is (k, q). -/
theorem c2a_rhsIdx (p : Fin 3072) (q : Fin 640) (k : Fin 320) :
    dot_S3072x320_S320x640_S3072x640_1_0_0_1_n_n.rhsIdx (ix2 p q) ((contrEquiv1 dot_S3072x320_S320x640_S3072x640_1_0_0_1_n_n 320 rfl rfl).symm k) = ix2 k q := by
  funext a
  apply Fin.ext
  match a with
  | ⟨0, _⟩ => exact (DotDims.rhsIdx_val_of_single dot_S3072x320_S320x640_S3072x640_1_0_0_1_n_n (cr := (0 : Fin 2)) rfl _ _).trans (contrEquiv1_symm_val dot_S3072x320_S320x640_S3072x640_1_0_0_1_n_n 320 rfl rfl k)
  | ⟨1, _⟩ => rfl

/-- THE PRODUCT AT AN INDEX: into the zero accumulator, the matrix product at (p, q) is the sum over the 320 patch
    columns of the patch entry times the weight entry (extended reals: the ideal reading). -/
theorem z2a_apply (p : Fin 3072) (q : Fin 640) :
    run0.sl.v104 (F := Ideal) c M0 M1 M2 M3 M4 M5 C0 C1 C2 C3 f0 f1 f2 f3 f4 f5 (ix2 p q)
      = ∑ k : Fin 320, (patch2a (F := Ideal) c M0 M1 M2 M3 M4 C0 C1 f0 f1 f2 f3 f4 C2 C3 (ix2 p k) : Ideal .bf16)
          * (run0.sl.v103 (F := Ideal) c M5 f5 (ix2 k q) : Ideal .bf16) := by
  unfold run0.sl.v104 run0.sl.cst_89
  simp only [matmul]
  rw [Ideal.matmul_constant_zero_apply]
  rw [← Equiv.sum_comp (contrEquiv1 dot_S3072x320_S320x640_S3072x640_1_0_0_1_n_n 320 rfl rfl).symm]
  refine Finset.sum_congr rfl fun k _ => ?_
  rw [c2a_lhsIdx, c2a_rhsIdx]

/-- THE FIVE SHIFTED SLICES ADDED: at (r, x, co) the sum over the column taps kw of the product at row 24 r + (x + kw)
    and column 128 kw + co. -/
theorem y2a_apply (r : Fin 128) (x : Fin 16) (co : Fin 128) :
    run0.sl.v114 (F := Ideal) c M0 M1 M2 M3 M4 M5 C0 C1 C2 C3 f0 f1 f2 f3 f4 f5 (ix3 r x co)
      = ∑ kw : Fin 5, run0.sl.v104 (F := Ideal) c M0 M1 M2 M3 M4 M5 C0 C1 C2 C3 f0 f1 f2 f3 f4 f5
          (ix2 (⟨r.val * 24 + (x.val + kw.val), by omega⟩ : Fin 3072) (⟨kw.val * 128 + co.val, by omega⟩ : Fin 640)) := by
  unfold run0.sl.v114 run0.sl.v112 run0.sl.v110 run0.sl.v108 run0.sl.v113 run0.sl.v111 run0.sl.v109 run0.sl.v107 run0.sl.v106 run0.sl.v105
  rw [addf_apply, addf_apply, addf_apply, addf_apply]
  rw [c2a_slice_apply 0 0 (by omega) rfl, c2a_slice_apply 1 128 (by omega) rfl, c2a_slice_apply 2 256 (by omega) rfl,
    c2a_slice_apply 3 384 (by omega) rfl, c2a_slice_apply 4 512 (by omega) rfl]
  rw [Fin.sum_univ_five]
  rfl

/-- The padded copy of image b and the re-laid weight's column block for the channel co as functions of plain
    natural-number indices (zero outside the arrays), the form the convolution law is stated over: the weight entry
    for (flattened row tap and channel k, column tap kw) sits at row k, column 128 kw + co. -/
def pad2aN (b : ℕ) : ℕ → ℕ → ℕ → EReal :=
  fun r s ci => if h : b < 8 ∧ r < 20 ∧ s < 24 ∧ ci < 64
    then pad2a (F := Ideal) c M0 M1 M2 M3 M4 C0 C1 f0 f1 f2 f3 f4 (ix4 ⟨b, h.1⟩ ⟨r, h.2.1⟩ ⟨s, h.2.2.1⟩ ⟨ci, h.2.2.2⟩) else 0
def w2aN (co : ℕ) : ℕ → ℕ → EReal :=
  fun k kw => if h : k < 320 ∧ kw * 128 + co < 640
    then run0.sl.v103 (F := Ideal) c M5 f5 (ix2 ⟨k, h.1⟩ ⟨kw * 128 + co, h.2⟩) else 0

theorem pad2aN_eq (b r s ci : ℕ) (h0 : b < 8) (h1 : r < 20) (h2 : s < 24) (h3 : ci < 64) :
    pad2aN c M0 M1 M2 M3 M4 C0 C1 f0 f1 f2 f3 f4 b r s ci = pad2a (F := Ideal) c M0 M1 M2 M3 M4 C0 C1 f0 f1 f2 f3 f4 (ix4 ⟨b, h0⟩ ⟨r, h1⟩ ⟨s, h2⟩ ⟨ci, h3⟩) := by
  unfold pad2aN; exact dif_pos ⟨h0, h1, h2, h3⟩
theorem w2aN_eq (co k kw : ℕ) (h0 : k < 320) (h1 : kw * 128 + co < 640) :
    w2aN c M5 f5 co k kw = run0.sl.v103 (F := Ideal) c M5 f5 (ix2 ⟨k, h0⟩ ⟨kw * 128 + co, h1⟩) := by
  unfold w2aN; exact dif_pos ⟨h0, h1⟩

/-- THE SAME IN THE CONVOLUTION LAW'S FORM: at row r = 16 b + h the five added slices are, for each column tap, ONE
    contraction over the flattened (row tap, channel) index of image b's padded copy against the re-laid weight, the
    column-shifted partial results added. -/
theorem y2a_convRows (b : Fin 8) (h : Fin 16) (x : Fin 16) (co : Fin 128) :
    run0.sl.v114 (F := Ideal) c M0 M1 M2 M3 M4 M5 C0 C1 C2 C3 f0 f1 f2 f3 f4 f5 (ix3 (⟨b.val * 16 + h.val, by omega⟩ : Fin 128) x co)
      = TapSum.convRows 5 5 64 (pad2aN c M0 M1 M2 M3 M4 C0 C1 f0 f1 f2 f3 f4 b.val) (w2aN c M5 f5 co.val) h.val x.val := by
  rw [y2a_apply]
  refine Eq.trans ?_ (Fin.sum_univ_eq_sum_range (fun kw => ∑ k ∈ Finset.range (5 * 64),
    pad2aN c M0 M1 M2 M3 M4 C0 C1 f0 f1 f2 f3 f4 b.val (h.val + k / 64) (x.val + kw) (k % 64) * w2aN c M5 f5 co.val k kw) 5)
  refine Finset.sum_congr rfl fun kw _ => ?_
  have hkw : kw.val < 5 := kw.isLt
  have hb : b.val < 8 := b.isLt
  have hh : h.val < 16 := h.isLt
  have hx : x.val < 16 := x.isLt
  have hco : co.val < 128 := co.isLt
  refine (z2a_apply c M0 M1 M2 M3 M4 M5 C0 C1 C2 C3 f0 f1 f2 f3 f4 f5 _ _).trans ?_
  refine Eq.trans ?_ (Fin.sum_univ_eq_sum_range (fun k =>
    pad2aN c M0 M1 M2 M3 M4 C0 C1 f0 f1 f2 f3 f4 b.val (h.val + k / 64) (x.val + kw.val) (k % 64) * w2aN c M5 f5 co.val k kw.val) 320)
  refine Finset.sum_congr rfl fun k _ => ?_
  have hk : k.val < 320 := k.isLt
  show _ = pad2aN c M0 M1 M2 M3 M4 C0 C1 f0 f1 f2 f3 f4 b.val (h.val + k.val / 64) (x.val + kw.val) (k.val % 64) * w2aN c M5 f5 co.val k.val kw.val
  rw [pad2aN_eq c M0 M1 M2 M3 M4 C0 C1 f0 f1 f2 f3 f4 _ _ _ _ hb (by omega) (by omega) (Nat.mod_lt _ (by decide)), w2aN_eq c M5 f5 _ _ _ hk (by omega)]
  exact congrArg₂ (· * ·) (patch2a_apply' (F := Ideal) c M0 M1 M2 M3 M4 C0 C1 f0 f1 f2 f3 f4 C2 C3 b h (⟨x.val + kw.val, by omega⟩ : Fin 24) k) rfl

/-- THE CONVOLUTION'S RESULT BEFORE THE CAST, read at (r, x, co): the rectifier of the added slices plus the bias. -/
theorem relu2a_apply (r : Fin 128) (x : Fin 16) (co : Fin 128) :
    run0.sl.v121 (F := Ideal) c M0 M1 M2 M3 M4 M5 M6 C0 C1 C2 C3 f0 f1 f2 f3 f4 f5 f6 (ix3 r x co)
      = max (run0.sl.v114 (F := Ideal) c M0 M1 M2 M3 M4 M5 C0 C1 C2 C3 f0 f1 f2 f3 f4 f5 (ix3 r x co) + M6.view.read (Elt Ideal) f6 (ix2 (0 : Fin 1) co)) 0 := by
  unfold run0.sl.v121 run0.sl.v119 run0.sl.v120 run0.sl.cst_5
  rw [maximumf_apply, addf_apply, broadcast_apply, c2a_bias_apply]
  show max _ (Ideal.ofBits .f32 0x00000000#32) = _
  rw [Ideal.ofBits_zero_f32]

/-- THE SAME AFTER THE CAST to bf16, the value the next layer's padded copy stores: the cast changes nothing at the
    ideal values. -/
theorem cast2a_apply (r : Fin 128) (x : Fin 16) (co : Fin 128) :
    run0.sl.v122 (F := Ideal) c M0 M1 M2 M3 M4 M5 M6 C0 C1 C2 C3 f0 f1 f2 f3 f4 f5 f6 (ix3 r x co)
      = run0.sl.v121 (F := Ideal) c M0 M1 M2 M3 M4 M5 M6 C0 C1 C2 C3 f0 f1 f2 f3 f4 f5 f6 (ix3 r x co) := by
  unfold run0.sl.v122
  rw [truncf_apply]

/-- The second-stage first convolution's activation at image b, row h, column x and channel co, in closed form: the
    rectified convolution (the law's form) plus bias. -/
theorem conv2a_value (b : Fin 8) (h : Fin 16) (x : Fin 16) (co : Fin 128) :
    run0.sl.v122 (F := Ideal) c M0 M1 M2 M3 M4 M5 M6 C0 C1 C2 C3 f0 f1 f2 f3 f4 f5 f6 (ix3 (⟨b.val * 16 + h.val, by omega⟩ : Fin 128) x co)
      = max (TapSum.convRows 5 5 64 (pad2aN c M0 M1 M2 M3 M4 C0 C1 f0 f1 f2 f3 f4 b.val) (w2aN c M5 f5 co.val) h.val x.val
          + M6.view.read (Elt Ideal) f6 (ix2 (0 : Fin 1) co)) 0 := by
  rw [cast2a_apply, relu2a_apply, y2a_convRows]

end Product2a

end Cert.KernelIdeal.Hand

end
-- ==== Proof.KernelConv2aClosed.lean ====
/-
  The kernel's first second-stage convolution in closed form over arrays, at the ideal values.

  The layer read at an index (the padded copy, the patch matrix, the product, the five added slices, bias, rectifier,
  cast) is restated here in the two stages' neutral vocabulary.  Image b of the padded copy is the zero-padded image
  of the pooled first-stage activation, given as a function P1 of plain (row, column, channel) indices; the product
  against the re-laid weight (row 64 kh + ci, column 128 kw + co) with the five column-shifted slices added is the ONE
  contraction over (row tap, column tap, channel) against column co of the weight as stored (row (5 kh + kw) 64 + ci):
  only the grouping of a finite sum changes, and the two weights are compared on the summed range only.  The result
  is the rectified convolution of the padded P1 — the body of the second stage's first layer.
-/
import proofs.«147627_g2000402439390779_pallasbulk_891_17_alg».proof.Proof.KernelConv2aValue
import proofs.«147627_g2000402439390779_pallasbulk_891_17_alg».proof.Proof.LibStage12
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Cert.Hand.Stage12 (Act Mat Vec pad2 colN convRelu)

variable [Cert.KernelIdeal.Facts]

/-- The bf16 zero pattern the padded copy is filled with is the zero of the extended reals. -/
theorem c2a_zero_bf16 : (run0.sl.cst_6 (F := Ideal) : EReal) = 0 := by
  show Ideal.ofBits .bf16 0x0000#16 = 0
  simp [Ideal.ofBits, Ideal.ieee]

section Closed2a

variable (c : Dev nD) (M0 : Memref sig .tc .vmem S8192x32 .bf16) (M1 : Memref sig .tc .vmem S32x64 .bf16) (M2 : Memref sig .tc .vmem S1x64 .f32)
  (M3 : Memref sig .tc .vmem S320x320 .bf16) (M4 : Memref sig .tc .vmem S1x64 .f32) (M5 : Memref sig .tc .vmem S320x640 .bf16) (M6 : Memref sig .tc .vmem S1x128 .f32)
  (C0 : Memref sig .tc .vmem S8x20x72x64 .bf16) (C1 : Memref sig .tc .vmem S9216x320 .bf16) (C2 : Memref sig .tc .vmem S8x20x24x64 .bf16) (C3 : Memref sig .tc .vmem S3072x320 .bf16)
  (f0 : Bf0 (F := Ideal) c M0) (f1 : Bf0 (F := Ideal) c M1) (f2 : Bf0 (F := Ideal) c M2) (f3 : Bf0 (F := Ideal) c M3) (f4 : Bf0 (F := Ideal) c M4)
  (f5 : Bf0 (F := Ideal) c M5) (f6 : Bf0 (F := Ideal) c M6)
  (b : Fin 8) (P1 : ℕ → ℕ → ℕ → EReal) (W2a : (Mat 1600 128).Idx → EReal) (B2a : (Vec 128).Idx → EReal)

/-- Image b of the padded copy is, at the channels below 64, the zero-padded image P1 of the pooled first-stage
    activation: the interior holds the activation, the border the zero fill, and off the buffer both are zero. -/
theorem pad2aN_eq_pad2
    (hP : ∀ (h : Fin 16) (x : Fin 16) (ci : Fin 64),
      conv2aIn (F := Ideal) c M0 M1 M2 M3 M4 C0 C1 f0 f1 f2 f3 f4 (ix3 (⟨b.val * 16 + h.val, by omega⟩ : Fin 128) x ci) = P1 h.val x.val ci.val)
    (r s ci : ℕ) (hci : ci < 64) :
    pad2aN c M0 M1 M2 M3 M4 C0 C1 f0 f1 f2 f3 f4 b.val r s ci = pad2 16 64 P1 r s ci := by
  unfold pad2
  by_cases h : (2 ≤ r ∧ r < 18) ∧ (2 ≤ s ∧ s < 16 + 2)
  · have h' : (2 ≤ r ∧ r < 18) ∧ (2 ≤ s ∧ s < 18) := by omega
    rw [if_pos ⟨h, hci⟩, pad2aN_eq c M0 M1 M2 M3 M4 C0 C1 f0 f1 f2 f3 f4 b.val r s ci b.isLt (by omega) (by omega) hci]
    refine (pad2a_apply (F := Ideal) c M0 M1 M2 M3 M4 C0 C1 f0 f1 f2 f3 f4 b (⟨r, by omega⟩ : Fin 20) (⟨s, by omega⟩ : Fin 24) (⟨ci, hci⟩ : Fin 64)).trans ?_
    rw [dif_pos h']
    exact hP (⟨r - 2, by omega⟩ : Fin 16) (⟨s - 2, by omega⟩ : Fin 16) (⟨ci, hci⟩ : Fin 64)
  · have h' : ¬((2 ≤ r ∧ r < 18) ∧ (2 ≤ s ∧ s < 18)) := by omega
    rw [if_neg (fun hh => h hh.1)]
    by_cases hr : r < 20 ∧ s < 24
    · rw [pad2aN_eq c M0 M1 M2 M3 M4 C0 C1 f0 f1 f2 f3 f4 b.val r s ci b.isLt hr.1 hr.2 hci]
      refine (pad2a_apply (F := Ideal) c M0 M1 M2 M3 M4 C0 C1 f0 f1 f2 f3 f4 b (⟨r, hr.1⟩ : Fin 20) (⟨s, hr.2⟩ : Fin 24) (⟨ci, hci⟩ : Fin 64)).trans ?_
      rw [dif_neg h']
      exact c2a_zero_bf16
    · unfold pad2aN
      exact dif_neg (by omega)

/-- The five added slices as the ONE contraction against the stored weight's column: the re-laid weight's entry
    (k, 128 kw + co) is the stored weight's entry in row (k / 64 · 5 + kw) 64 + k % 64, column co, for k < 320, kw < 5. -/
theorem y2a_convFull (hW2a : ∀ (co : Fin 128) (k kw : ℕ) (hk : k < 320) (hkw : kw < 5),
      M5.view.read (Elt Ideal) f5 (ix2 (⟨k, hk⟩ : Fin 320) (⟨kw * 128 + co.val, by omega⟩ : Fin 640))
        = W2a (ix2 (⟨(k / 64 * 5 + kw) * 64 + k % 64, by omega⟩ : Fin 1600) co))
    (h : Fin 16) (x : Fin 16) (co : Fin 128) :
    run0.sl.v114 (F := Ideal) c M0 M1 M2 M3 M4 M5 C0 C1 C2 C3 f0 f1 f2 f3 f4 f5 (ix3 (⟨b.val * 16 + h.val, by omega⟩ : Fin 128) x co)
      = TapSum.convFull 5 5 64 (pad2aN c M0 M1 M2 M3 M4 C0 C1 f0 f1 f2 f3 f4 b.val) (colN W2a co) h.val x.val := by
  rw [y2a_convRows]
  rw [← TapSum.convRows_eq_convFull 5 5 64 (by decide) (by decide) _ (colN W2a co)
        (fun k kw => colN W2a co ((k / 64 * 5 + kw) * 64 + k % 64)) (fun _ _ => rfl)]
  unfold TapSum.convRows
  refine Finset.sum_congr rfl fun kw hkw => Finset.sum_congr rfl fun k hk => ?_
  have hk' : k < 5 * 64 := Finset.mem_range.mp hk
  have hkw' : kw < 5 := Finset.mem_range.mp hkw
  have hco : co.val < 128 := co.isLt
  rw [w2aN_eq c M5 f5 co.val k kw (by omega) (by omega), c2a_weight_apply]
  refine congrArg (_ * ·) ((hW2a co k kw (by omega) hkw').trans ?_)
  show W2a _ = colN W2a co ((k / 64 * 5 + kw) * 64 + k % 64)
  unfold colN
  rw [dif_pos (by omega)]

/-- THE LAYER IN CLOSED FORM over what its buffers read: at image b, row h, column x and channel co the value after
    the cast is the rectified 5 x 5 convolution of the zero-padded P1 against column co of the stored weight, plus the
    bias. -/
theorem conv2a_closed
    (hP : ∀ (h : Fin 16) (x : Fin 16) (ci : Fin 64),
      conv2aIn (F := Ideal) c M0 M1 M2 M3 M4 C0 C1 f0 f1 f2 f3 f4 (ix3 (⟨b.val * 16 + h.val, by omega⟩ : Fin 128) x ci) = P1 h.val x.val ci.val)
    (hW2a : ∀ (co : Fin 128) (k kw : ℕ) (hk : k < 320) (hkw : kw < 5),
      M5.view.read (Elt Ideal) f5 (ix2 (⟨k, hk⟩ : Fin 320) (⟨kw * 128 + co.val, by omega⟩ : Fin 640))
        = W2a (ix2 (⟨(k / 64 * 5 + kw) * 64 + k % 64, by omega⟩ : Fin 1600) co))
    (hB2a : ∀ co : Fin 128, M6.view.read (Elt Ideal) f6 (ix2 (0 : Fin 1) co) = B2a (ix1 co))
    (h : Fin 16) (x : Fin 16) (co : Fin 128) :
    run0.sl.v122 (F := Ideal) c M0 M1 M2 M3 M4 M5 M6 C0 C1 C2 C3 f0 f1 f2 f3 f4 f5 f6 (ix3 (⟨b.val * 16 + h.val, by omega⟩ : Fin 128) x co)
      = convRelu 5 5 64 (pad2 16 64 P1) (colN W2a co) (B2a (ix1 co)) h.val x.val := by
  rw [cast2a_apply, relu2a_apply, y2a_convFull c M0 M1 M2 M3 M4 M5 C0 C1 C2 C3 f0 f1 f2 f3 f4 f5 b W2a hW2a h x co, hB2a co]
  unfold convRelu
  rw [Cert.Hand.Stage12.convFull_congr 5 5 64 (by decide)
    (fun r s ci hci => pad2aN_eq_pad2 c M0 M1 M2 M3 M4 C0 C1 f0 f1 f2 f3 f4 b P1 hP r s ci hci) (fun _ _ => rfl)]

/-- The same with the weight and bias buffers' contents named: X5 the re-laid weight [320, 640] whose entry
    (64 kh + ci, 128 kw + co) is the stored weight's entry ((5 kh + kw) 64 + ci, co), X6 the bias row. -/
theorem conv2a_closed_relaid
    (hP : ∀ (h : Fin 16) (x : Fin 16) (ci : Fin 64),
      conv2aIn (F := Ideal) c M0 M1 M2 M3 M4 C0 C1 f0 f1 f2 f3 f4 (ix3 (⟨b.val * 16 + h.val, by omega⟩ : Fin 128) x ci) = P1 h.val x.val ci.val)
    (X5 : S320x640.Idx → EReal) (e5 : (M5.view.read (Elt Ideal) f5 : S320x640.Idx → EReal) = X5)
    (hw : ∀ (kh : Fin 5) (ci : Fin 64) (kw : Fin 5) (co : Fin 128),
      X5 (ix2 (⟨kh.val * 64 + ci.val, by omega⟩ : Fin 320) (⟨kw.val * 128 + co.val, by omega⟩ : Fin 640))
        = W2a (ix2 (⟨(kh.val * 5 + kw.val) * 64 + ci.val, by omega⟩ : Fin 1600) co))
    (X6 : S1x128.Idx → EReal) (e6 : (M6.view.read (Elt Ideal) f6 : S1x128.Idx → EReal) = X6)
    (hb : ∀ j : Fin 128, X6 (ix2 (0 : Fin 1) j) = B2a (ix1 j))
    (h : Fin 16) (x : Fin 16) (co : Fin 128) :
    run0.sl.v122 (F := Ideal) c M0 M1 M2 M3 M4 M5 M6 C0 C1 C2 C3 f0 f1 f2 f3 f4 f5 f6 (ix3 (⟨b.val * 16 + h.val, by omega⟩ : Fin 128) x co)
      = convRelu 5 5 64 (pad2 16 64 P1) (colN W2a co) (B2a (ix1 co)) h.val x.val := by
  subst e5 e6
  refine conv2a_closed c M0 M1 M2 M3 M4 M5 M6 C0 C1 C2 C3 f0 f1 f2 f3 f4 f5 f6 b P1 W2a B2a hP (fun co k kw hk hkw => ?_) hb h x co
  have e := hw (⟨k / 64, by omega⟩ : Fin 5) (⟨k % 64, by omega⟩ : Fin 64) (⟨kw, hkw⟩ : Fin 5) co
  refine Eq.trans (congrArg _ ?_) e
  congr 1
  apply Fin.ext
  show k = k / 64 * 64 + k % 64
  omega

end Closed2a

end Cert.KernelIdeal.Hand

end
-- ==== Proof.KernelConv2bValue.lean ====
/-
  The kernel's second second-stage convolution and the width-4 max pool after it, read at an index.

  The body first fills a scratch buffer [8, 20, 24, 128] with zeros and stores the stage's first convolution's result
  ([128, 16, 128], regrouped to [8, 16, 16, 128]) at offsets (0, 2, 2, 0): the zero-padded copy (`pad2b`).  It then
  builds a patch matrix [3072, 640] by five slice stores: the store for the row tap kh writes columns
  [128 kh, 128 (kh + 1)) with the [8, 16, 24, 128] window of the padded copy at row offset kh, its first three axes
  flattened.  The five column blocks tile the matrix and each is a block of ONE function of the matrix index: at row
  p = (16 b + h) 24 + x and column k = 128 kh + ci the matrix holds the padded copy at (b, h + kh, x, ci)
  (`patch2b_apply`), whatever the order of the stores.

  At the ideal values the product of the patch matrix with the re-laid weight [640, 640] (row 128 kh + ci, column
  128 kw + co) into the zero accumulator is a plain sum over the 640 patch columns; regrouped to [128, 24, 640], its
  five slices at column offset kw and channel offset 128 kw are added: for each column tap ONE contraction over (row
  tap, channel), the column-shifted partial results added — the convolution law's `TapSum.convRows 5 5 128`.  The bias
  row is added, the maximum with zero taken, and the pool takes the maximum over each group of 4 adjacent columns
  (16 columns to 4).  Regrouped to [8, 16, 4, 128] and cast, that is the block the region's body leaves: the one
  piece of its witness.
-/
import proofs.«147627_g2000402439390779_pallasbulk_891_17_alg».proof.Proof.KernelIdealRegion0
import proofs.«147627_g2000402439390779_pallasbulk_891_17_alg».proof.Proof.LibConvLaw
import Idealize.ShloMosaic.Lib.Pipeline.Value
import Idealize.ShloMosaic.Lib.Ring
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F] [Cert.KernelIdeal.Facts]

section Conv2b

variable (c : Dev nD) (M0 : Memref sig .tc .vmem S8192x32 .bf16) (M1 : Memref sig .tc .vmem S32x64 .bf16) (M2 : Memref sig .tc .vmem S1x64 .f32)
  (M3 : Memref sig .tc .vmem S320x320 .bf16) (M4 : Memref sig .tc .vmem S1x64 .f32) (M5 : Memref sig .tc .vmem S320x640 .bf16) (M6 : Memref sig .tc .vmem S1x128 .f32)
  (C0 : Memref sig .tc .vmem S8x20x72x64 .bf16) (C1 : Memref sig .tc .vmem S9216x320 .bf16) (C2 : Memref sig .tc .vmem S8x20x24x64 .bf16) (C3 : Memref sig .tc .vmem S3072x320 .bf16)
  (f0 : Bf0 (F := F) c M0) (f1 : Bf0 (F := F) c M1) (f2 : Bf0 (F := F) c M2) (f3 : Bf0 (F := F) c M3) (f4 : Bf0 (F := F) c M4) (f5 : Bf0 (F := F) c M5) (f6 : Bf0 (F := F) c M6)

/-! ## The padded copy of the first convolution's result -/

/-- The stage's first convolution's result after the cast, as the run names it: one value per (image row, column,
    channel), the image rows of the 8 images flattened (row index 16 b + h). -/
abbrev conv2bIn : S128x16x128.Idx → Elt F .bf16 := run0.sl.v122 c M0 M1 M2 M3 M4 M5 M6 C0 C1 C2 C3 f0 f1 f2 f3 f4 f5 f6

/-- The zero-padded copy the second convolution reads: what its two stores leave in the scratch buffer. -/
abbrev pad2b : S8x20x24x128.Idx → Elt F .bf16 := View.canon (run0.sl.G4_2 c M0 M1 M2 M3 M4 M5 M6 C0 C1 C2 C3 f0 f1 f2 f3 f4 f5 f6)

theorem c2b_hz4 : (![0, 0, 0, 0] : Fin 4 → Nat) = fun _ => 0 := funext fun a => by fin_cases a <;> rfl
theorem c2b_hz2 : (![0, 0] : Fin 2 → Nat) = fun _ => 0 := funext fun a => by fin_cases a <;> rfl

/-- In the interior (rows 2 … 17, columns 2 … 17) the padded copy is the first convolution's result two rows up and
    two columns left: the second store, through the rectangle of the result's shape at offsets (0, 2, 2, 0), is the
    last one, and its payload is the result regrouped from [128, 16, 128] to [8, 16, 16, 128] (same row-major
    position). -/
theorem pad2b_mid (b : Fin 8) (h : Fin 16) (x : Fin 16) (ci : Fin 128) :
    pad2b c M0 M1 M2 M3 M4 M5 M6 C0 C1 C2 C3 f0 f1 f2 f3 f4 f5 f6 (ix4 b (⟨h.val + 2, by omega⟩ : Fin 20) (⟨x.val + 2, by omega⟩ : Fin 24) ci)
      = conv2bIn c M0 M1 M2 M3 M4 M5 M6 C0 C1 C2 C3 f0 f1 f2 f3 f4 f5 f6 (ix3 (⟨b.val * 16 + h.val, by omega⟩ : Fin 128) x ci) := by
  unfold pad2b run0.sl.G4_2
  have e := View.canon_cons_emb (Val := Elt F) (Rect.unit (s := S8x20x24x128) ![0, 2, 2, 0] S8x16x16x128.size k0_part5._proof_7)
    (run0.sl.v130 c M0 M1 M2 M3 M4 M5 M6 C0 C1 C2 C3 f0 f1 f2 f3 f4 f5 f6) run0.sl.G4_1 (ix4 b h x ci)
  refine Eq.trans (congrArg _ ?_) (e.trans ?_)
  · funext a
    apply Fin.ext
    rw [Rect.emb_apply]
    match a with
    | ⟨0, _⟩ => show b.val = 0 + 1 * b.val; omega
    | ⟨1, _⟩ => show h.val + 2 = 2 + 1 * h.val; omega
    | ⟨2, _⟩ => show x.val + 2 = 2 + 1 * x.val; omega
    | ⟨3, _⟩ => show ci.val = 0 + 1 * ci.val; omega
  · unfold run0.sl.v130 run0.sl.v127
    rw [shapeCast_self]
    exact shapeCast_apply _ _ _ (ix3 (⟨b.val * 16 + h.val, by omega⟩ : Fin 128) x ci) (by
      rw [Shape.rowMajor_val_three, Shape.rowMajor_val_four]
      show ((b.val * 16 + h.val) * 16 + x.val) * 128 + ci.val = ((b.val * 16 + h.val) * 16 + x.val) * 128 + ci.val
      rfl)

/-- On the border it is the zero the first store splats: the second store's rectangle does not hold the index, and the
    first store, through the whole buffer, leaves its payload — the broadcast of the bf16 zero. -/
theorem pad2b_out (b : Fin 8) (hh : Fin 20) (xx : Fin 24) (ci : Fin 128)
    (h : hh.val < 2 ∨ 18 ≤ hh.val ∨ xx.val < 2 ∨ 18 ≤ xx.val) :
    pad2b c M0 M1 M2 M3 M4 M5 M6 C0 C1 C2 C3 f0 f1 f2 f3 f4 f5 f6 (ix4 b hh xx ci) = (run0.sl.cst_6 : F .bf16) := by
  unfold pad2b run0.sl.G4_2
  rw [View.canon_cons_of_not_mem _ _ (fun hm => by
    have hm' : ix4 b hh xx ci ∈ (Rect.unit (s := S8x20x24x128) ![0, 2, 2, 0] S8x16x16x128.size k0_part5._proof_7).set := hm
    have h1 : 2 ≤ hh.val ∧ hh.val < 2 + 16 := (Rect.mem_set_unit.mp hm') (1 : Fin 4)
    have h2 : 2 ≤ xx.val ∧ xx.val < 2 + 16 := (Rect.mem_set_unit.mp hm') (2 : Fin 4)
    omega)]
  unfold run0.sl.G4_1
  rw [View.canon_unit_zero c2b_hz4]
  unfold run0.sl.v126
  rw [shapeCast_self]
  rfl

/-- THE PADDED COPY AT ANY INDEX: the first convolution's result at (16 b + hh - 2, xx - 2, ci) in the interior
    2 ≤ hh < 18, 2 ≤ xx < 18, the zero elsewhere. -/
theorem pad2b_apply (b : Fin 8) (hh : Fin 20) (xx : Fin 24) (ci : Fin 128) :
    pad2b c M0 M1 M2 M3 M4 M5 M6 C0 C1 C2 C3 f0 f1 f2 f3 f4 f5 f6 (ix4 b hh xx ci)
      = if h : (2 ≤ hh.val ∧ hh.val < 18) ∧ (2 ≤ xx.val ∧ xx.val < 18) then
          conv2bIn c M0 M1 M2 M3 M4 M5 M6 C0 C1 C2 C3 f0 f1 f2 f3 f4 f5 f6 (ix3 (⟨b.val * 16 + (hh.val - 2), by omega⟩ : Fin 128) (⟨xx.val - 2, by omega⟩ : Fin 16) ci)
        else (run0.sl.cst_6 : F .bf16) := by
  by_cases h : (2 ≤ hh.val ∧ hh.val < 18) ∧ (2 ≤ xx.val ∧ xx.val < 18)
  · rw [dif_pos h]
    refine Eq.trans (congrArg _ ?_) (pad2b_mid c M0 M1 M2 M3 M4 M5 M6 C0 C1 C2 C3 f0 f1 f2 f3 f4 f5 f6 b (⟨hh.val - 2, by omega⟩ : Fin 16) (⟨xx.val - 2, by omega⟩ : Fin 16) ci)
    funext a
    apply Fin.ext
    match a with
    | ⟨0, _⟩ => rfl
    | ⟨1, _⟩ => show hh.val = hh.val - 2 + 2; omega
    | ⟨2, _⟩ => show xx.val = xx.val - 2 + 2; omega
    | ⟨3, _⟩ => rfl
  · rw [dif_neg h]
    exact pad2b_out c M0 M1 M2 M3 M4 M5 M6 C0 C1 C2 C3 f0 f1 f2 f3 f4 f5 f6 b hh xx ci (by omega)

/-! ## The patch matrix -/

variable (C4 : Memref sig .tc .vmem S8x20x24x128 .bf16) (C5 : Memref sig .tc .vmem S3072x640 .bf16)

/-- One row tap's block: the padded copy loaded through the rectangle [8, 16, 24, 128] at row offset `kh`, the
    (image, row, column) triple flattened to one axis of 3072. At (p, ci), p = (16 b + h) 24 + x, it is the padded
    copy at (b, h + kh, x, ci). -/
theorem c2b_tap_apply (kh : Fin 5) (inb : ∀ a, (![0, kh.val, 0, 0] : Fin 4 → Nat) a + S8x16x24x128.size a ≤ S8x20x24x128.size a)
    (h1 : S8x16x24x128.ShapeCasts S3072x128) (h2 : S3072x128.ShapeCasts S3072x128) (x : S3072x128.Idx) :
    shapeCast S3072x128 (shapeCast S3072x128
        (C4.view.readCov (run0.sl.G4_2 c M0 M1 M2 M3 M4 M5 M6 C0 C1 C2 C3 f0 f1 f2 f3 f4 f5 f6) (Rect.unit (s := S8x20x24x128) ![0, kh.val, 0, 0] S8x16x24x128.size inb).toLoadRect) h1) h2 x
      = pad2b c M0 M1 M2 M3 M4 M5 M6 C0 C1 C2 C3 f0 f1 f2 f3 f4 f5 f6 (ix4 (⟨(x 0).val / 384, by have h : (x 0).val < 3072 := (x 0).isLt; omega⟩ : Fin 8)
          (⟨(x 0).val / 24 % 16 + kh.val, by omega⟩ : Fin 20) (⟨(x 0).val % 24, by omega⟩ : Fin 24) (⟨(x 1).val, (x 1).isLt⟩ : Fin 128)) := by
  have hx0 : (x 0).val < 3072 := (x 0).isLt
  have hx1 : (x 1).val < 128 := (x 1).isLt
  rw [shapeCast_self]
  rw [shapeCast_apply _ h1 _ (ix4 (⟨(x 0).val / 384, by omega⟩ : Fin 8) (⟨(x 0).val / 24 % 16, by omega⟩ : Fin 16)
      (⟨(x 0).val % 24, by omega⟩ : Fin 24) (⟨(x 1).val, hx1⟩ : Fin 128)) (by
    rw [Shape.rowMajor_val_four, Shape.rowMajor_val_two]
    show ((((x 0).val / 384) * 16 + (x 0).val / 24 % 16) * 24 + (x 0).val % 24) * 128 + (x 1).val = (x 0).val * 128 + (x 1).val
    omega)]
  rw [View.readCov_eq_canon']
  show View.canon _ _ = View.canon _ _
  congr 1
  funext a
  apply Fin.ext
  rw [LoadRect.idx_apply]
  match a with
  | ⟨0, _⟩ => show 0 + 1 * ((x 0).val / 384) = (x 0).val / 384; omega
  | ⟨1, _⟩ => show kh.val + 1 * ((x 0).val / 24 % 16) = (x 0).val / 24 % 16 + kh.val; omega
  | ⟨2, _⟩ => show 0 + 1 * ((x 0).val % 24) = (x 0).val % 24; omega
  | ⟨3, _⟩ => show 0 + 1 * (x 1).val = (x 1).val; omega

/-- The patch matrix as the run reads it back, -/
abbrev patch2b : S3072x640.Idx → Elt F .bf16 := run0.sl.v156 c M0 M1 M2 M3 M4 M5 M6 C0 C1 C2 C3 C4 C5 f0 f1 f2 f3 f4 f5 f6

/-- and the one function its five stores are tiles of: at (p, k), the padded copy at image p / 384, row
    p / 24 % 16 + k / 128, column p % 24, channel k % 128. -/
def patchFn2b (y : S3072x640.Idx) : Elt F .bf16 :=
  pad2b c M0 M1 M2 M3 M4 M5 M6 C0 C1 C2 C3 f0 f1 f2 f3 f4 f5 f6 (ix4 (⟨(y 0).val / 384, by have h : (y 0).val < 3072 := (y 0).isLt; omega⟩ : Fin 8)
    (⟨(y 0).val / 24 % 16 + (y 1).val / 128, by have h : (y 1).val < 640 := (y 1).isLt; omega⟩ : Fin 20)
    (⟨(y 0).val % 24, by omega⟩ : Fin 24) (⟨(y 1).val % 128, by omega⟩ : Fin 128))

/-- The read-back is the canon of the five stores: the load is through the whole buffer. -/
theorem patch2b_eq_canon : patch2b c M0 M1 M2 M3 M4 M5 M6 C0 C1 C2 C3 f0 f1 f2 f3 f4 f5 f6 C4 C5 = View.canon (run0.sl.G5_5 c M0 M1 M2 M3 M4 M5 M6 C0 C1 C2 C3 C4 f0 f1 f2 f3 f4 f5 f6) := by
  unfold patch2b run0.sl.v156
  rw [View.readCov_eq_canon']
  funext j
  show View.canon _ _ = View.canon _ _
  congr 1
  funext a
  apply Fin.ext
  rw [LoadRect.idx_apply]
  match a with
  | ⟨0, _⟩ => show 0 + 1 * (j 0).val = (j 0).val; omega
  | ⟨1, _⟩ => show 0 + 1 * (j 1).val = (j 1).val; omega

/-- Each store's payload is its tile of that function: row tap `kh`'s block, stored at column offset 128 kh. -/
theorem c2b_piece_ok (kh : Fin 5) (inbP : ∀ a, (![0, kh.val * 128] : Fin 2 → Nat) a + S3072x128.size a ≤ S3072x640.size a)
    (inb : ∀ a, (![0, kh.val, 0, 0] : Fin 4 → Nat) a + S8x16x24x128.size a ≤ S8x20x24x128.size a)
    (h1 : S8x16x24x128.ShapeCasts S3072x128) (h2 : S3072x128.ShapeCasts S3072x128) (x : S3072x128.Idx) :
    shapeCast S3072x128 (shapeCast S3072x128
        (C4.view.readCov (run0.sl.G4_2 c M0 M1 M2 M3 M4 M5 M6 C0 C1 C2 C3 f0 f1 f2 f3 f4 f5 f6) (Rect.unit (s := S8x20x24x128) ![0, kh.val, 0, 0] S8x16x24x128.size inb).toLoadRect) h1) h2 x
      = patchFn2b c M0 M1 M2 M3 M4 M5 M6 C0 C1 C2 C3 f0 f1 f2 f3 f4 f5 f6 ((Rect.unit (s := S3072x640) ![0, kh.val * 128] S3072x128.size inbP).emb x) := by
  rw [c2b_tap_apply c M0 M1 M2 M3 M4 M5 M6 C0 C1 C2 C3 f0 f1 f2 f3 f4 f5 f6 C4 kh inb h1 h2 x]
  unfold patchFn2b
  have hx0 : (x 0).val < 3072 := (x 0).isLt
  have hx1 : (x 1).val < 128 := (x 1).isLt
  have hk : kh.val < 5 := kh.isLt
  congr 1
  funext a
  apply Fin.ext
  match a with
  | ⟨0, _⟩ => show (x 0).val / 384 = (0 + 1 * (x 0).val) / 384; omega
  | ⟨1, _⟩ => show (x 0).val / 24 % 16 + kh.val = (0 + 1 * (x 0).val) / 24 % 16 + (kh.val * 128 + 1 * (x 1).val) / 128; omega
  | ⟨2, _⟩ => show (x 0).val % 24 = (0 + 1 * (x 0).val) % 24; omega
  | ⟨3, _⟩ => show (x 1).val = (kh.val * 128 + 1 * (x 1).val) % 128; omega

/-- THE PATCH MATRIX AT AN INDEX: at (p, k), p < 3072, k < 640, it is the padded copy at
    (p / 384, p / 24 % 16 + k / 128, p % 24, k % 128) — whatever the order of the five stores, whose blocks tile it. -/
theorem patch2b_apply (y : S3072x640.Idx) :
    patch2b c M0 M1 M2 M3 M4 M5 M6 C0 C1 C2 C3 f0 f1 f2 f3 f4 f5 f6 C4 C5 y = patchFn2b c M0 M1 M2 M3 M4 M5 M6 C0 C1 C2 C3 f0 f1 f2 f3 f4 f5 f6 y := by
  rw [patch2b_eq_canon]
  refine View.canon_apply_of_pieces (patchFn2b c M0 M1 M2 M3 M4 M5 M6 C0 C1 C2 C3 f0 f1 f2 f3 f4 f5 f6) _ (fun p hp x => ?_) y
    (View.cover_of_tiledL (run0.sl.G5_5 c M0 M1 M2 M3 M4 M5 M6 C0 C1 C2 C3 C4 f0 f1 f2 f3 f4 f5 f6) S3072x128.size (by first | rfl | decide) y)
  unfold run0.sl.G5_5 at hp
  simp only [List.mem_cons, List.mem_nil_iff, or_false] at hp
  rcases hp with rfl | rfl | rfl | rfl | rfl
  · show run0.sl.v155 c M0 M1 M2 M3 M4 M5 M6 C0 C1 C2 C3 C4 f0 f1 f2 f3 f4 f5 f6 x = _
    unfold run0.sl.v155 run0.sl.v152 run0.sl.v151
    exact c2b_piece_ok c M0 M1 M2 M3 M4 M5 M6 C0 C1 C2 C3 f0 f1 f2 f3 f4 f5 f6 C4 (4 : Fin 5) k0_part6._proof_7 _ _ _ x
  · show run0.sl.v150 c M0 M1 M2 M3 M4 M5 M6 C0 C1 C2 C3 C4 f0 f1 f2 f3 f4 f5 f6 x = _
    unfold run0.sl.v150 run0.sl.v147 run0.sl.v
    exact c2b_piece_ok c M0 M1 M2 M3 M4 M5 M6 C0 C1 C2 C3 f0 f1 f2 f3 f4 f5 f6 C4 (3 : Fin 5) k0_part6._proof_1 _ _ _ x
  · show run0.sl.v145 c M0 M1 M2 M3 M4 M5 M6 C0 C1 C2 C3 C4 f0 f1 f2 f3 f4 f5 f6 x = _
    unfold run0.sl.v145 run0.sl.v142 run0.sl.v141
    exact c2b_piece_ok c M0 M1 M2 M3 M4 M5 M6 C0 C1 C2 C3 f0 f1 f2 f3 f4 f5 f6 C4 (2 : Fin 5) k0_part5._proof_28 _ _ _ x
  · show run0.sl.v140 c M0 M1 M2 M3 M4 M5 M6 C0 C1 C2 C3 C4 f0 f1 f2 f3 f4 f5 f6 x = _
    unfold run0.sl.v140 run0.sl.v137 run0.sl.v136
    exact c2b_piece_ok c M0 M1 M2 M3 M4 M5 M6 C0 C1 C2 C3 f0 f1 f2 f3 f4 f5 f6 C4 (1 : Fin 5) k0_part5._proof_22 _ _ _ x
  · show run0.sl.v135 c M0 M1 M2 M3 M4 M5 M6 C0 C1 C2 C3 C4 f0 f1 f2 f3 f4 f5 f6 x = _
    unfold run0.sl.v135 run0.sl.v132 run0.sl.v131
    exact c2b_piece_ok c M0 M1 M2 M3 M4 M5 M6 C0 C1 C2 C3 f0 f1 f2 f3 f4 f5 f6 C4 (0 : Fin 5) k0_part5._proof_15 _ _ _ x

/-- The same with the padded copy spelt out, at row (16 b + h) 24 + x and column 128 kh + ci. -/
theorem patch2b_apply' (b : Fin 8) (h : Fin 16) (x : Fin 24) (k : Fin 640) :
    patch2b c M0 M1 M2 M3 M4 M5 M6 C0 C1 C2 C3 f0 f1 f2 f3 f4 f5 f6 C4 C5 (ix2 (⟨(b.val * 16 + h.val) * 24 + x.val, by omega⟩ : Fin 3072) k)
      = pad2b c M0 M1 M2 M3 M4 M5 M6 C0 C1 C2 C3 f0 f1 f2 f3 f4 f5 f6 (ix4 b (⟨h.val + k.val / 128, by omega⟩ : Fin 20) x (⟨k.val % 128, by omega⟩ : Fin 128)) := by
  rw [patch2b_apply]
  unfold patchFn2b
  have hb : b.val < 8 := b.isLt
  have hh : h.val < 16 := h.isLt
  have hx : x.val < 24 := x.isLt
  congr 1
  funext a
  apply Fin.ext
  match a with
  | ⟨0, _⟩ => show ((b.val * 16 + h.val) * 24 + x.val) / 384 = b.val; omega
  | ⟨1, _⟩ => show ((b.val * 16 + h.val) * 24 + x.val) / 24 % 16 + k.val / 128 = h.val + k.val / 128; omega
  | ⟨2, _⟩ => show ((b.val * 16 + h.val) * 24 + x.val) % 24 = x.val; omega
  | ⟨3, _⟩ => rfl

/-! ## The weight block and the bias row, loaded whole -/

/-- The weight block as the run loads it reads the staging buffer's contents. -/
theorem c2b_weight_apply (M7 : Memref sig .tc .vmem S640x640 .bf16) (f7 : Bf0 (F := F) c M7) (j : S640x640.Idx) :
    run0.sl.v158 c M7 f7 j = M7.view.read (Elt F) f7 j := by
  unfold run0.sl.v158
  rw [shapeCast_self, View.readAt_eq_ld, View.ld_unit_zero (S := S640x640) c2b_hz2]

/-- The bias row broadcast to [128, 16, 128] reads the bias at the channel. -/
theorem c2b_bias_apply (M8 : Memref sig .tc .vmem S1x128 .f32) (f8 : Bf0 (F := F) c M8) (r : Fin 128) (x : Fin 16) (co : Fin 128) :
    run0.sl.v173 c M8 f8 (ix3 r x co) = M8.view.read (Elt F) f8 (ix2 (0 : Fin 1) co) := by
  unfold run0.sl.v173
  refine (broadcastTo_apply _ _ (ix3 r x co) (ix3 (0 : Fin 1) (0 : Fin 1) co)
    (fun a => match a with | ⟨0, _⟩ => rfl | ⟨1, _⟩ => rfl | ⟨2, _⟩ => rfl)).trans ?_
  unfold run0.sl.v172
  refine (shapeCast_apply _ _ _ (ix2 (0 : Fin 1) co) (by
    rw [Shape.rowMajor_val_two, Shape.rowMajor_val_three]
    show 0 * 128 + co.val = (0 * 1 + 0) * 128 + co.val
    omega)).trans ?_
  unfold run0.sl.v171
  rw [shapeCast_self, View.readAt_eq_ld, View.ld_unit_zero (S := S1x128) c2b_hz2]

/-- One of the five shifted slices of the product regrouped to [128, 24, 640]: the slice at column offset `kw` and
    channel offset 128 kw, read at (r, x, co), is the product at row 24 r + (x + kw) and column 128 kw + co. -/
theorem c2b_slice_apply {α : Type} (kw off : ℕ) (hkw : kw < 5) (hoff : off = kw * 128)
    (hs : S128x24x640.Slices (![0, kw, off] : Fin 3 → ℕ) S128x16x128) (hc : S3072x640.ShapeCasts S128x24x640)
    (v : S3072x640.Idx → α) (r : Fin 128) (x : Fin 16) (co : Fin 128) :
    extractStridedSlice S128x16x128 (![0, kw, off] : Fin 3 → ℕ) (shapeCast S128x24x640 v hc) hs (ix3 r x co)
      = v (ix2 (⟨r.val * 24 + (x.val + kw), by omega⟩ : Fin 3072) (⟨kw * 128 + co.val, by omega⟩ : Fin 640)) := by
  subst hoff
  refine (extractStridedSlice_apply _ _ hs _
    (ix3 r (⟨x.val + kw, by omega⟩ : Fin 24) (⟨kw * 128 + co.val, by omega⟩ : Fin 640)) (fun a => ?_)).trans ?_
  · match a with
    | ⟨0, _⟩ => show r.val = 0 + r.val; omega
    | ⟨1, _⟩ => show x.val + kw = kw + x.val; omega
    | ⟨2, _⟩ => show kw * 128 + co.val = kw * 128 + co.val; rfl
  · exact shapeCast_apply _ hc _ _ (by
      rw [Shape.rowMajor_val_two, Shape.rowMajor_val_three]
      show (r.val * 24 + (x.val + kw)) * 640 + (kw * 128 + co.val) = (r.val * 24 + (x.val + kw)) * 640 + (kw * 128 + co.val)
      rfl)

end Conv2b

/-! ## The product, the five shifted slices, the bias, the rectifier and the pool, at the ideal instance -/

section Product2b

variable (c : Dev nD) (M0 : Memref sig .tc .vmem S8192x32 .bf16) (M1 : Memref sig .tc .vmem S32x64 .bf16) (M2 : Memref sig .tc .vmem S1x64 .f32)
  (M3 : Memref sig .tc .vmem S320x320 .bf16) (M4 : Memref sig .tc .vmem S1x64 .f32) (M5 : Memref sig .tc .vmem S320x640 .bf16) (M6 : Memref sig .tc .vmem S1x128 .f32)
  (M7 : Memref sig .tc .vmem S640x640 .bf16) (M8 : Memref sig .tc .vmem S1x128 .f32)
  (C0 : Memref sig .tc .vmem S8x20x72x64 .bf16) (C1 : Memref sig .tc .vmem S9216x320 .bf16) (C2 : Memref sig .tc .vmem S8x20x24x64 .bf16) (C3 : Memref sig .tc .vmem S3072x320 .bf16)
  (C4 : Memref sig .tc .vmem S8x20x24x128 .bf16) (C5 : Memref sig .tc .vmem S3072x640 .bf16)
  (f0 : Bf0 (F := Ideal) c M0) (f1 : Bf0 (F := Ideal) c M1) (f2 : Bf0 (F := Ideal) c M2) (f3 : Bf0 (F := Ideal) c M3) (f4 : Bf0 (F := Ideal) c M4) (f5 : Bf0 (F := Ideal) c M5) (f6 : Bf0 (F := Ideal) c M6) (f7 : Bf0 (F := Ideal) c M7) (f8 : Bf0 (F := Ideal) c M8)

/-- The dot's left index at result (p, q) and contraction position k is (p, k); -/
theorem c2b_lhsIdx (p : Fin 3072) (q : Fin 640) (k : Fin 640) :
    dot_S3072x640_S640x640_S3072x640_1_0_0_1_n_n.lhsIdx (ix2 p q) ((contrEquiv1 dot_S3072x640_S640x640_S3072x640_1_0_0_1_n_n 640 rfl rfl).symm k) = ix2 p k := by
  funext a
  apply Fin.ext
  match a with
  | ⟨0, _⟩ => rfl
  | ⟨1, _⟩ => exact (DotDims.lhsIdx_val_of_single dot_S3072x640_S640x640_S3072x640_1_0_0_1_n_n (cl := (1 : Fin 2)) rfl _ _).trans (contrEquiv1_symm_val dot_S3072x640_S640x640_S3072x640_1_0_0_1_n_n 640 rfl rfl k)

/-- its right index is (k, q). -/
theorem c2b_rhsIdx (p : Fin 3072) (q : Fin 640) (k : Fin 640) :
    dot_S3072x640_S640x640_S3072x640_1_0_0_1_n_n.rhsIdx (ix2 p q) ((contrEquiv1 dot_S3072x640_S640x640_S3072x640_1_0_0_1_n_n 640 rfl rfl).symm k) = ix2 k q := by
  funext a
  apply Fin.ext
  match a with
  | ⟨0, _⟩ => exact (DotDims.rhsIdx_val_of_single dot_S3072x640_S640x640_S3072x640_1_0_0_1_n_n (cr := (0 : Fin 2)) rfl _ _).trans (contrEquiv1_symm_val dot_S3072x640_S640x640_S3072x640_1_0_0_1_n_n 640 rfl rfl k)
  | ⟨1, _⟩ => rfl

/-- THE PRODUCT AT AN INDEX: into the zero accumulator, the matrix product at (p, q) is the sum over the 640 patch
    columns of the patch entry times the weight entry (extended reals: the ideal reading). -/
theorem z2b_apply (p : Fin 3072) (q : Fin 640) :
    run0.sl.v159 (F := Ideal) c M0 M1 M2 M3 M4 M5 M6 M7 C0 C1 C2 C3 C4 C5 f0 f1 f2 f3 f4 f5 f6 f7 (ix2 p q)
      = ∑ k : Fin 640, (patch2b (F := Ideal) c M0 M1 M2 M3 M4 M5 M6 C0 C1 C2 C3 f0 f1 f2 f3 f4 f5 f6 C4 C5 (ix2 p k) : Ideal .bf16)
          * (run0.sl.v158 (F := Ideal) c M7 f7 (ix2 k q) : Ideal .bf16) := by
  unfold run0.sl.v159 run0.sl.cst_89
  simp only [matmul]
  rw [Ideal.matmul_constant_zero_apply]
  rw [← Equiv.sum_comp (contrEquiv1 dot_S3072x640_S640x640_S3072x640_1_0_0_1_n_n 640 rfl rfl).symm]
  refine Finset.sum_congr rfl fun k _ => ?_
  rw [c2b_lhsIdx, c2b_rhsIdx]

/-- THE FIVE SHIFTED SLICES ADDED: at (r, x, co) the sum over the column taps kw of the product at row 24 r + (x + kw)
    and column 128 kw + co. -/
theorem y2b_apply (r : Fin 128) (x : Fin 16) (co : Fin 128) :
    run0.sl.v169 (F := Ideal) c M0 M1 M2 M3 M4 M5 M6 M7 C0 C1 C2 C3 C4 C5 f0 f1 f2 f3 f4 f5 f6 f7 (ix3 r x co)
      = ∑ kw : Fin 5, run0.sl.v159 (F := Ideal) c M0 M1 M2 M3 M4 M5 M6 M7 C0 C1 C2 C3 C4 C5 f0 f1 f2 f3 f4 f5 f6 f7
          (ix2 (⟨r.val * 24 + (x.val + kw.val), by omega⟩ : Fin 3072) (⟨kw.val * 128 + co.val, by omega⟩ : Fin 640)) := by
  unfold run0.sl.v169 run0.sl.v167 run0.sl.v165 run0.sl.v163 run0.sl.v168 run0.sl.v166 run0.sl.v164 run0.sl.v162 run0.sl.v161 run0.sl.v160
  rw [addf_apply, addf_apply, addf_apply, addf_apply]
  rw [c2b_slice_apply 0 0 (by omega) rfl, c2b_slice_apply 1 128 (by omega) rfl, c2b_slice_apply 2 256 (by omega) rfl,
    c2b_slice_apply 3 384 (by omega) rfl, c2b_slice_apply 4 512 (by omega) rfl]
  rw [Fin.sum_univ_five]
  rfl

/-- The padded copy of image b and the re-laid weight's column block for the channel co as functions of plain
    natural-number indices (zero outside the arrays), the form the convolution law is stated over: the weight entry
    for (flattened row tap and channel k, column tap kw) sits at row k, column 128 kw + co. -/
def pad2bN (b : ℕ) : ℕ → ℕ → ℕ → EReal :=
  fun r s ci => if h : b < 8 ∧ r < 20 ∧ s < 24 ∧ ci < 128
    then pad2b (F := Ideal) c M0 M1 M2 M3 M4 M5 M6 C0 C1 C2 C3 f0 f1 f2 f3 f4 f5 f6 (ix4 ⟨b, h.1⟩ ⟨r, h.2.1⟩ ⟨s, h.2.2.1⟩ ⟨ci, h.2.2.2⟩) else 0
def w2bN (co : ℕ) : ℕ → ℕ → EReal :=
  fun k kw => if h : k < 640 ∧ kw * 128 + co < 640
    then run0.sl.v158 (F := Ideal) c M7 f7 (ix2 ⟨k, h.1⟩ ⟨kw * 128 + co, h.2⟩) else 0

theorem pad2bN_eq (b r s ci : ℕ) (h0 : b < 8) (h1 : r < 20) (h2 : s < 24) (h3 : ci < 128) :
    pad2bN c M0 M1 M2 M3 M4 M5 M6 C0 C1 C2 C3 f0 f1 f2 f3 f4 f5 f6 b r s ci = pad2b (F := Ideal) c M0 M1 M2 M3 M4 M5 M6 C0 C1 C2 C3 f0 f1 f2 f3 f4 f5 f6 (ix4 ⟨b, h0⟩ ⟨r, h1⟩ ⟨s, h2⟩ ⟨ci, h3⟩) := by
  unfold pad2bN; exact dif_pos ⟨h0, h1, h2, h3⟩
theorem w2bN_eq (co k kw : ℕ) (h0 : k < 640) (h1 : kw * 128 + co < 640) :
    w2bN c M7 f7 co k kw = run0.sl.v158 (F := Ideal) c M7 f7 (ix2 ⟨k, h0⟩ ⟨kw * 128 + co, h1⟩) := by
  unfold w2bN; exact dif_pos ⟨h0, h1⟩

/-- THE SAME IN THE CONVOLUTION LAW'S FORM: at row r = 16 b + h the five added slices are, for each column tap, ONE
    contraction over the flattened (row tap, channel) index of image b's padded copy against the re-laid weight, the
    column-shifted partial results added. -/
theorem y2b_convRows (b : Fin 8) (h : Fin 16) (x : Fin 16) (co : Fin 128) :
    run0.sl.v169 (F := Ideal) c M0 M1 M2 M3 M4 M5 M6 M7 C0 C1 C2 C3 C4 C5 f0 f1 f2 f3 f4 f5 f6 f7 (ix3 (⟨b.val * 16 + h.val, by omega⟩ : Fin 128) x co)
      = TapSum.convRows 5 5 128 (pad2bN c M0 M1 M2 M3 M4 M5 M6 C0 C1 C2 C3 f0 f1 f2 f3 f4 f5 f6 b.val) (w2bN c M7 f7 co.val) h.val x.val := by
  rw [y2b_apply]
  refine Eq.trans ?_ (Fin.sum_univ_eq_sum_range (fun kw => ∑ k ∈ Finset.range (5 * 128),
    pad2bN c M0 M1 M2 M3 M4 M5 M6 C0 C1 C2 C3 f0 f1 f2 f3 f4 f5 f6 b.val (h.val + k / 128) (x.val + kw) (k % 128) * w2bN c M7 f7 co.val k kw) 5)
  refine Finset.sum_congr rfl fun kw _ => ?_
  have hkw : kw.val < 5 := kw.isLt
  have hb : b.val < 8 := b.isLt
  have hh : h.val < 16 := h.isLt
  have hx : x.val < 16 := x.isLt
  have hco : co.val < 128 := co.isLt
  refine (z2b_apply c M0 M1 M2 M3 M4 M5 M6 M7 C0 C1 C2 C3 C4 C5 f0 f1 f2 f3 f4 f5 f6 f7 _ _).trans ?_
  refine Eq.trans ?_ (Fin.sum_univ_eq_sum_range (fun k =>
    pad2bN c M0 M1 M2 M3 M4 M5 M6 C0 C1 C2 C3 f0 f1 f2 f3 f4 f5 f6 b.val (h.val + k / 128) (x.val + kw.val) (k % 128) * w2bN c M7 f7 co.val k kw.val) 640)
  refine Finset.sum_congr rfl fun k _ => ?_
  have hk : k.val < 640 := k.isLt
  show _ = pad2bN c M0 M1 M2 M3 M4 M5 M6 C0 C1 C2 C3 f0 f1 f2 f3 f4 f5 f6 b.val (h.val + k.val / 128) (x.val + kw.val) (k.val % 128) * w2bN c M7 f7 co.val k.val kw.val
  rw [pad2bN_eq c M0 M1 M2 M3 M4 M5 M6 C0 C1 C2 C3 f0 f1 f2 f3 f4 f5 f6 _ _ _ _ hb (by omega) (by omega) (Nat.mod_lt _ (by decide)), w2bN_eq c M7 f7 _ _ _ hk (by omega)]
  exact congrArg₂ (· * ·) (patch2b_apply' (F := Ideal) c M0 M1 M2 M3 M4 M5 M6 C0 C1 C2 C3 f0 f1 f2 f3 f4 f5 f6 C4 C5 b h (⟨x.val + kw.val, by omega⟩ : Fin 24) k) rfl

/-- THE SECOND CONVOLUTION'S RESULT BEFORE THE POOL, read at (r, x, co): the rectifier of the added slices plus
    the bias. -/
theorem relu2b_apply (r : Fin 128) (x : Fin 16) (co : Fin 128) :
    run0.sl.v176 (F := Ideal) c M0 M1 M2 M3 M4 M5 M6 M7 M8 C0 C1 C2 C3 C4 C5 f0 f1 f2 f3 f4 f5 f6 f7 f8 (ix3 r x co)
      = max (run0.sl.v169 (F := Ideal) c M0 M1 M2 M3 M4 M5 M6 M7 C0 C1 C2 C3 C4 C5 f0 f1 f2 f3 f4 f5 f6 f7 (ix3 r x co) + M8.view.read (Elt Ideal) f8 (ix2 (0 : Fin 1) co)) 0 := by
  unfold run0.sl.v176 run0.sl.v174 run0.sl.v120 run0.sl.cst_5
  rw [maximumf_apply, addf_apply, broadcast_apply, c2b_bias_apply]
  show max _ (Ideal.ofBits .f32 0x00000000#32) = _
  rw [Ideal.ofBits_zero_f32]

/-- THE POOLED VALUE, read at (r, g, co): the maximum over the 4 columns 4 g … 4 g + 3 (the fold of `max` from the
    accumulator's value, the f32 pattern of minus infinity). -/
theorem pool2b_apply (r : Fin 128) (g : Fin 4) (co : Fin 128) :
    run0.sl.v178 (F := Ideal) c M0 M1 M2 M3 M4 M5 M6 M7 M8 C0 C1 C2 C3 C4 C5 f0 f1 f2 f3 f4 f5 f6 f7 f8 (ix3 r g co)
      = (Finset.univ : Finset (Fin 4)).fold max (FloatOps.ofBits (F := Ideal) .f32 4286578688#32)
          (fun j => run0.sl.v176 (F := Ideal) c M0 M1 M2 M3 M4 M5 M6 M7 M8 C0 C1 C2 C3 C4 C5 f0 f1 f2 f3 f4 f5 f6 f7 f8 (ix3 r (⟨g.val * 4 + j.val, by omega⟩ : Fin 16) co)) := by
  unfold run0.sl.v178
  refine (Ideal.multiReduction_maximumf_single (run0.sl.v177 (F := Ideal) c M0 M1 M2 M3 M4 M5 M6 M7 M8 C0 C1 C2 C3 C4 C5 f0 f1 f2 f3 f4 f5 f6 f7 f8) _ _ _ _ (ix3 r g co)).trans ?_
  refine congrArg (fun f => (Finset.univ : Finset (Fin 4)).fold max _ f) (funext fun (j : Fin 4) => ?_)
  show run0.sl.v177 (F := Ideal) c M0 M1 M2 M3 M4 M5 M6 M7 M8 C0 C1 C2 C3 C4 C5 f0 f1 f2 f3 f4 f5 f6 f7 f8 _ = _
  unfold run0.sl.v177
  refine shapeCast_apply _ _ _ (ix3 r (⟨g.val * 4 + j.val, by omega⟩ : Fin 16) co) ?_
  rw [Shape.rowMajor_val_three, Shape.rowMajor_val_four]
  show (r.val * 16 + (g.val * 4 + j.val)) * 128 + co.val = ((r.val * 4 + g.val) * 4 + j.val) * 128 + co.val
  omega

/-- THE REGION'S OUTPUT BLOCK, read at (b, h, g, co): the pooled value at row 16 b + h; the cast to bf16 changes
    nothing at the ideal values. -/
theorem out2b_apply (b : Fin 8) (h : Fin 16) (g : Fin 4) (co : Fin 128) :
    run0.sl.v180 (F := Ideal) c M0 M1 M2 M3 M4 M5 M6 M7 M8 C0 C1 C2 C3 C4 C5 f0 f1 f2 f3 f4 f5 f6 f7 f8 (ix4 b h g co)
      = run0.sl.v178 (F := Ideal) c M0 M1 M2 M3 M4 M5 M6 M7 M8 C0 C1 C2 C3 C4 C5 f0 f1 f2 f3 f4 f5 f6 f7 f8 (ix3 (⟨b.val * 16 + h.val, by omega⟩ : Fin 128) g co) := by
  unfold run0.sl.v180
  rw [truncf_apply]
  unfold run0.sl.v179
  exact shapeCast_apply _ _ _ (ix3 (⟨b.val * 16 + h.val, by omega⟩ : Fin 128) g co) (by
    rw [Shape.rowMajor_val_three, Shape.rowMajor_val_four]
    show ((b.val * 16 + h.val) * 4 + g.val) * 128 + co.val = ((b.val * 16 + h.val) * 4 + g.val) * 128 + co.val
    rfl)

/-- The pooled second-stage activation at image b, row h, pooled column g and channel co, in closed form: the
    maximum over the 4 columns 4 g + j of the rectified convolution (the law's form) plus bias. -/
theorem pool2b_value (b : Fin 8) (h : Fin 16) (g : Fin 4) (co : Fin 128) :
    run0.sl.v180 (F := Ideal) c M0 M1 M2 M3 M4 M5 M6 M7 M8 C0 C1 C2 C3 C4 C5 f0 f1 f2 f3 f4 f5 f6 f7 f8 (ix4 b h g co)
      = (Finset.univ : Finset (Fin 4)).fold max (FloatOps.ofBits (F := Ideal) .f32 4286578688#32)
          (fun j => max (TapSum.convRows 5 5 128 (pad2bN c M0 M1 M2 M3 M4 M5 M6 C0 C1 C2 C3 f0 f1 f2 f3 f4 f5 f6 b.val) (w2bN c M7 f7 co.val) h.val (g.val * 4 + j.val)
            + M8.view.read (Elt Ideal) f8 (ix2 (0 : Fin 1) co)) 0) := by
  rw [out2b_apply, pool2b_apply]
  refine congrArg (fun f => (Finset.univ : Finset (Fin 4)).fold max _ f) (funext fun j => ?_)
  rw [relu2b_apply]
  exact congrArg (fun t => max (t + M8.view.read (Elt Ideal) f8 (ix2 (0 : Fin 1) co)) 0)
    (y2b_convRows c M0 M1 M2 M3 M4 M5 M6 M7 C0 C1 C2 C3 C4 C5 f0 f1 f2 f3 f4 f5 f6 f7 b h (⟨g.val * 4 + j.val, by omega⟩ : Fin 16) co)

end Product2b

/-! ## The witness -/

section Witness2b

/-- The block the region's body leaves, read back, is the run's last value: the witness is one store of that value
    through the whole output block, over anything. -/
theorem c2b_read_witness0 (c : Dev nD) (M0 : Memref sig .tc .vmem S8192x32 .bf16) (h0 : M0.IsWhole) (M1 : Memref sig .tc .vmem S32x64 .bf16) (h1 : M1.IsWhole) (M2 : Memref sig .tc .vmem S1x64 .f32) (h2 : M2.IsWhole) (M3 : Memref sig .tc .vmem S320x320 .bf16) (h3 : M3.IsWhole) (M4 : Memref sig .tc .vmem S1x64 .f32) (h4 : M4.IsWhole) (M5 : Memref sig .tc .vmem S320x640 .bf16) (h5 : M5.IsWhole) (M6 : Memref sig .tc .vmem S1x128 .f32) (h6 : M6.IsWhole) (M7 : Memref sig .tc .vmem S640x640 .bf16) (h7 : M7.IsWhole) (M8 : Memref sig .tc .vmem S1x128 .f32) (h8 : M8.IsWhole) (M9 : Memref sig .tc .vmem S8x16x4x128 .bf16) (h9 : M9.IsWhole) (C0 : Memref sig .tc .vmem S8x20x72x64 .bf16) (g0 : C0.IsWhole) (C1 : Memref sig .tc .vmem S9216x320 .bf16) (g1 : C1.IsWhole) (C2 : Memref sig .tc .vmem S8x20x24x64 .bf16) (g2 : C2.IsWhole) (C3 : Memref sig .tc .vmem S3072x320 .bf16) (g3 : C3.IsWhole) (C4 : Memref sig .tc .vmem S8x20x24x128 .bf16) (g4 : C4.IsWhole) (C5 : Memref sig .tc .vmem S3072x640 .bf16) (g5 : C5.IsWhole)
    (f0 : Bf0 (F := F) c M0) (f1 : Bf0 (F := F) c M1) (f2 : Bf0 (F := F) c M2) (f3 : Bf0 (F := F) c M3) (f4 : Bf0 (F := F) c M4) (f5 : Bf0 (F := F) c M5) (f6 : Bf0 (F := F) c M6) (f7 : Bf0 (F := F) c M7) (f8 : Bf0 (F := F) c M8) :
    M9.view.read (Elt F) (run0 (F := F) c M0 h0 M1 h1 M2 h2 M3 h3 M4 h4 M5 h5 M6 h6 M7 h7 M8 h8 M9 h9 C0 g0 C1 g1 C2 g2 C3 g3 C4 g4 C5 g5 f0 f1 f2 f3 f4 f5 f6 f7 f8).1
      = run0.sl.v180 c M0 M1 M2 M3 M4 M5 M6 M7 M8 C0 C1 C2 C3 C4 C5 f0 f1 f2 f3 f4 f5 f6 f7 f8 := by
  unfold run0
  dsimp only
  rw [View.read_writes_junk_eq_canon]
  unfold run0.sl.H9_1
  rw [View.canon_unit_zero c2b_hz4]

/-- THE WITNESS AT AN INDEX, at the ideal values: at image b, row h, pooled column g and channel co the output block
    holds the maximum over the 4 columns 4 g + j of the rectified convolution (the law's form) plus bias. -/
theorem c2b_witness_value (c : Dev nD) (M0 : Memref sig .tc .vmem S8192x32 .bf16) (h0 : M0.IsWhole) (M1 : Memref sig .tc .vmem S32x64 .bf16) (h1 : M1.IsWhole) (M2 : Memref sig .tc .vmem S1x64 .f32) (h2 : M2.IsWhole) (M3 : Memref sig .tc .vmem S320x320 .bf16) (h3 : M3.IsWhole) (M4 : Memref sig .tc .vmem S1x64 .f32) (h4 : M4.IsWhole) (M5 : Memref sig .tc .vmem S320x640 .bf16) (h5 : M5.IsWhole) (M6 : Memref sig .tc .vmem S1x128 .f32) (h6 : M6.IsWhole) (M7 : Memref sig .tc .vmem S640x640 .bf16) (h7 : M7.IsWhole) (M8 : Memref sig .tc .vmem S1x128 .f32) (h8 : M8.IsWhole) (M9 : Memref sig .tc .vmem S8x16x4x128 .bf16) (h9 : M9.IsWhole) (C0 : Memref sig .tc .vmem S8x20x72x64 .bf16) (g0 : C0.IsWhole) (C1 : Memref sig .tc .vmem S9216x320 .bf16) (g1 : C1.IsWhole) (C2 : Memref sig .tc .vmem S8x20x24x64 .bf16) (g2 : C2.IsWhole) (C3 : Memref sig .tc .vmem S3072x320 .bf16) (g3 : C3.IsWhole) (C4 : Memref sig .tc .vmem S8x20x24x128 .bf16) (g4 : C4.IsWhole) (C5 : Memref sig .tc .vmem S3072x640 .bf16) (g5 : C5.IsWhole)
    (f0 : Bf0 (F := Ideal) c M0) (f1 : Bf0 (F := Ideal) c M1) (f2 : Bf0 (F := Ideal) c M2) (f3 : Bf0 (F := Ideal) c M3) (f4 : Bf0 (F := Ideal) c M4) (f5 : Bf0 (F := Ideal) c M5) (f6 : Bf0 (F := Ideal) c M6) (f7 : Bf0 (F := Ideal) c M7) (f8 : Bf0 (F := Ideal) c M8) (b : Fin 8) (h : Fin 16) (g : Fin 4) (co : Fin 128) :
    M9.view.read (Elt Ideal) (run0 (F := Ideal) c M0 h0 M1 h1 M2 h2 M3 h3 M4 h4 M5 h5 M6 h6 M7 h7 M8 h8 M9 h9 C0 g0 C1 g1 C2 g2 C3 g3 C4 g4 C5 g5 f0 f1 f2 f3 f4 f5 f6 f7 f8).1 (ix4 b h g co)
      = (Finset.univ : Finset (Fin 4)).fold max (FloatOps.ofBits (F := Ideal) .f32 4286578688#32)
          (fun j => max (TapSum.convRows 5 5 128 (pad2bN c M0 M1 M2 M3 M4 M5 M6 C0 C1 C2 C3 f0 f1 f2 f3 f4 f5 f6 b.val) (w2bN c M7 f7 co.val) h.val (g.val * 4 + j.val)
            + M8.view.read (Elt Ideal) f8 (ix2 (0 : Fin 1) co)) 0) :=
  (congrFun (c2b_read_witness0 (F := Ideal) c M0 h0 M1 h1 M2 h2 M3 h3 M4 h4 M5 h5 M6 h6 M7 h7 M8 h8 M9 h9 C0 g0 C1 g1 C2 g2 C3 g3 C4 g4 C5 g5 f0 f1 f2 f3 f4 f5 f6 f7 f8) (ix4 b h g co)).trans
    (pool2b_value c M0 M1 M2 M3 M4 M5 M6 M7 M8 C0 C1 C2 C3 C4 C5 f0 f1 f2 f3 f4 f5 f6 f7 f8 b h g co)

end Witness2b

end Cert.KernelIdeal.Hand

end
-- ==== Proof.KernelConv2bClosed.lean ====
/-
  The kernel's second second-stage convolution and its pool in the stage's neutral form, at the ideal values.

  The layer read at an index (its own module) is restated over plain arrays: image b of the padded copy is the
  zero-padded image of the first convolution's activation, given as a function A2 of plain (row, column, channel)
  indices; the product against the re-laid weight (row 128 kh + ci, column 128 kw + co) is the ONE contraction over
  (row tap, column tap, channel) against the column co of the weight as stored (row (5 kh + kw) 128 + ci) — the
  convolution law, applied on the summed range only, where the re-laying relation holds; the bias row's entry is the
  bias vector's; the pool's accumulator, the f32 pattern of minus infinity, is the bottom element.  What the staging
  buffers of the weight and the bias read, and what the first convolution's value is, are hypotheses.
-/
import proofs.«147627_g2000402439390779_pallasbulk_891_17_alg».proof.Proof.KernelConv2bValue
import proofs.«147627_g2000402439390779_pallasbulk_891_17_alg».proof.Proof.LibStage12
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Cert.Hand.Stage12 (Act Mat Vec pad2 colN convRelu pool4)

variable [Cert.KernelIdeal.Facts]

/-- The bit patterns of minus infinity (f32) and of zero (bf16) at the extended reals. -/
theorem c2b_neg_inf_f32 : (FloatOps.ofBits (F := Ideal) .f32 0xFF800000#32 : EReal) = ⊥ := by
  show Ideal.ofBits .f32 0xFF800000#32 = ⊥
  simp [Ideal.ofBits, Ideal.ieee]
theorem c2b_zero_bf16 : (run0.sl.cst_6 (F := Ideal) : EReal) = 0 := by
  show Ideal.ofBits .bf16 0x0000#16 = 0
  simp [Ideal.ofBits, Ideal.ieee]

section Closed2b

variable (c : Dev nD) (M0 : Memref sig .tc .vmem S8192x32 .bf16) (M1 : Memref sig .tc .vmem S32x64 .bf16) (M2 : Memref sig .tc .vmem S1x64 .f32)
  (M3 : Memref sig .tc .vmem S320x320 .bf16) (M4 : Memref sig .tc .vmem S1x64 .f32) (M5 : Memref sig .tc .vmem S320x640 .bf16) (M6 : Memref sig .tc .vmem S1x128 .f32)
  (M7 : Memref sig .tc .vmem S640x640 .bf16) (M8 : Memref sig .tc .vmem S1x128 .f32)
  (C0 : Memref sig .tc .vmem S8x20x72x64 .bf16) (C1 : Memref sig .tc .vmem S9216x320 .bf16) (C2 : Memref sig .tc .vmem S8x20x24x64 .bf16) (C3 : Memref sig .tc .vmem S3072x320 .bf16)
  (C4 : Memref sig .tc .vmem S8x20x24x128 .bf16) (C5 : Memref sig .tc .vmem S3072x640 .bf16)
  (f0 : Bf0 (F := Ideal) c M0) (f1 : Bf0 (F := Ideal) c M1) (f2 : Bf0 (F := Ideal) c M2) (f3 : Bf0 (F := Ideal) c M3) (f4 : Bf0 (F := Ideal) c M4) (f5 : Bf0 (F := Ideal) c M5) (f6 : Bf0 (F := Ideal) c M6) (f7 : Bf0 (F := Ideal) c M7) (f8 : Bf0 (F := Ideal) c M8)

/-- Image b of the padded copy is, at the channels below 128, the zero-padded activation of the first convolution. -/
theorem pad2bN_eq_pad2 (b : Fin 8) (A2 : ℕ → ℕ → ℕ → EReal)
    (hA : ∀ (h x : Fin 16) (ci : Fin 128),
      conv2bIn (F := Ideal) c M0 M1 M2 M3 M4 M5 M6 C0 C1 C2 C3 f0 f1 f2 f3 f4 f5 f6 (ix3 (⟨b.val * 16 + h.val, by omega⟩ : Fin 128) x ci) = A2 h.val x.val ci.val)
    (r s ci : ℕ) (hci : ci < 128) :
    pad2bN c M0 M1 M2 M3 M4 M5 M6 C0 C1 C2 C3 f0 f1 f2 f3 f4 f5 f6 b.val r s ci = pad2 16 128 A2 r s ci := by
  unfold pad2
  by_cases h : (2 ≤ r ∧ r < 18) ∧ (2 ≤ s ∧ s < 16 + 2)
  · rw [if_pos ⟨h, hci⟩, pad2bN_eq c M0 M1 M2 M3 M4 M5 M6 C0 C1 C2 C3 f0 f1 f2 f3 f4 f5 f6 b.val r s ci b.isLt (by omega) (by omega) hci]
    refine (pad2b_apply (F := Ideal) c M0 M1 M2 M3 M4 M5 M6 C0 C1 C2 C3 f0 f1 f2 f3 f4 f5 f6 b (⟨r, by omega⟩ : Fin 20) (⟨s, by omega⟩ : Fin 24) (⟨ci, hci⟩ : Fin 128)).trans ?_
    have h' : (2 ≤ r ∧ r < 18) ∧ (2 ≤ s ∧ s < 18) := by omega
    rw [dif_pos h']
    exact hA (⟨r - 2, by omega⟩ : Fin 16) (⟨s - 2, by omega⟩ : Fin 16) (⟨ci, hci⟩ : Fin 128)
  · rw [if_neg (fun hh => h hh.1)]
    by_cases hr : r < 20 ∧ s < 24
    · rw [pad2bN_eq c M0 M1 M2 M3 M4 M5 M6 C0 C1 C2 C3 f0 f1 f2 f3 f4 f5 f6 b.val r s ci b.isLt hr.1 hr.2 hci]
      refine (pad2b_apply (F := Ideal) c M0 M1 M2 M3 M4 M5 M6 C0 C1 C2 C3 f0 f1 f2 f3 f4 f5 f6 b (⟨r, hr.1⟩ : Fin 20) (⟨s, hr.2⟩ : Fin 24) (⟨ci, hci⟩ : Fin 128)).trans ?_
      have h' : ¬((2 ≤ r ∧ r < 18) ∧ (2 ≤ s ∧ s < 18)) := by omega
      rw [dif_neg h']
      exact c2b_zero_bf16
    · unfold pad2bN
      exact dif_neg (by omega)

/-- The five added slices as the ONE contraction against the stored weight's column. -/
theorem y2b_convFull (X7 : (Mat 640 640).Idx → EReal) (e7 : (M7.view.read (Elt Ideal) f7 : S640x640.Idx → EReal) = X7)
    (W2b : (Mat 3200 128).Idx → EReal)
    (hw : ∀ (kh : Fin 5) (ci : Fin 128) (kw : Fin 5) (co : Fin 128),
      X7 (ix2 (⟨kh.val * 128 + ci.val, by omega⟩ : Fin 640) (⟨kw.val * 128 + co.val, by omega⟩ : Fin 640))
        = W2b (ix2 (⟨(kh.val * 5 + kw.val) * 128 + ci.val, by omega⟩ : Fin 3200) co))
    (b : Fin 8) (h : Fin 16) (x : Fin 16) (co : Fin 128) :
    run0.sl.v169 (F := Ideal) c M0 M1 M2 M3 M4 M5 M6 M7 C0 C1 C2 C3 C4 C5 f0 f1 f2 f3 f4 f5 f6 f7 (ix3 (⟨b.val * 16 + h.val, by omega⟩ : Fin 128) x co)
      = TapSum.convFull 5 5 128 (pad2bN c M0 M1 M2 M3 M4 M5 M6 C0 C1 C2 C3 f0 f1 f2 f3 f4 f5 f6 b.val) (colN W2b co) h.val x.val := by
  rw [y2b_convRows]
  rw [← TapSum.convRows_eq_convFull 5 5 128 (by decide) (by decide) _ (colN W2b co)
        (fun k kw => colN W2b co ((k / 128 * 5 + kw) * 128 + k % 128)) (fun _ _ => rfl)]
  unfold TapSum.convRows
  refine Finset.sum_congr rfl fun kw hkw => Finset.sum_congr rfl fun k hk => ?_
  have hk' : k < 5 * 128 := Finset.mem_range.mp hk
  have hkw' : kw < 5 := Finset.mem_range.mp hkw
  have hco : co.val < 128 := co.isLt
  rw [w2bN_eq c M7 f7 co.val k kw (by omega) (by omega), c2b_weight_apply]
  refine congrArg (_ * ·) ?_
  refine (congrFun e7 _).trans ?_
  have e := hw (⟨k / 128, by omega⟩ : Fin 5) (⟨k % 128, by omega⟩ : Fin 128) (⟨kw, hkw'⟩ : Fin 5) co
  refine Eq.trans (congrArg X7 ?_) (e.trans ?_)
  · congr 1
    apply Fin.ext
    show k = k / 128 * 128 + k % 128
    omega
  · show W2b _ = colN W2b co ((k / 128 * 5 + kw) * 128 + k % 128)
    unfold colN
    rw [dif_pos (by omega)]

/-- THE REGION'S OUTPUT BLOCK IN THE STAGE'S FORM over what the staging buffers of the weight and the bias read and
    a given first-convolution activation: at image b, row h, pooled column g and channel co, the pool of the rectified
    convolution of the zero-padded activation against the stored weight's column, plus the bias. -/
theorem conv2b_closed (b : Fin 8) (A2 : ℕ → ℕ → ℕ → EReal)
    (hA : ∀ (h x : Fin 16) (ci : Fin 128),
      conv2bIn (F := Ideal) c M0 M1 M2 M3 M4 M5 M6 C0 C1 C2 C3 f0 f1 f2 f3 f4 f5 f6 (ix3 (⟨b.val * 16 + h.val, by omega⟩ : Fin 128) x ci) = A2 h.val x.val ci.val)
    (X7 : (Mat 640 640).Idx → EReal) (e7 : (M7.view.read (Elt Ideal) f7 : S640x640.Idx → EReal) = X7)
    (W2b : (Mat 3200 128).Idx → EReal)
    (hw : ∀ (kh : Fin 5) (ci : Fin 128) (kw : Fin 5) (co : Fin 128),
      X7 (ix2 (⟨kh.val * 128 + ci.val, by omega⟩ : Fin 640) (⟨kw.val * 128 + co.val, by omega⟩ : Fin 640))
        = W2b (ix2 (⟨(kh.val * 5 + kw.val) * 128 + ci.val, by omega⟩ : Fin 3200) co))
    (X8 : (Mat 1 128).Idx → EReal) (e8 : (M8.view.read (Elt Ideal) f8 : S1x128.Idx → EReal) = X8)
    (B2b : (Vec 128).Idx → EReal) (hb : ∀ j : Fin 128, X8 (ix2 (0 : Fin 1) j) = B2b (ix1 j))
    (h : Fin 16) (g : Fin 4) (co : Fin 128) :
    run0.sl.v180 (F := Ideal) c M0 M1 M2 M3 M4 M5 M6 M7 M8 C0 C1 C2 C3 C4 C5 f0 f1 f2 f3 f4 f5 f6 f7 f8 (ix4 b h g co)
      = pool4 (fun s => convRelu 5 5 128 (pad2 16 128 A2) (colN W2b co) (B2b (ix1 co)) h.val s) g.val := by
  rw [out2b_apply, pool2b_apply]
  unfold pool4
  rw [c2b_neg_inf_f32]
  refine congrArg (fun f : Fin 4 → EReal => Finset.fold max (⊥ : EReal) f Finset.univ) (funext fun j => ?_)
  rw [relu2b_apply, y2b_convFull c M0 M1 M2 M3 M4 M5 M6 M7 C0 C1 C2 C3 C4 C5 f0 f1 f2 f3 f4 f5 f6 f7 X7 e7 W2b hw b h (⟨g.val * 4 + j.val, by omega⟩ : Fin 16) co]
  unfold convRelu
  rw [Cert.Hand.Stage12.convFull_congr 5 5 128 (by decide)
    (fun r s ci hci => pad2bN_eq_pad2 c M0 M1 M2 M3 M4 M5 M6 C0 C1 C2 C3 f0 f1 f2 f3 f4 f5 f6 b A2 hA r s ci hci) (fun _ _ => rfl)]
  have eb : (M8.view.read (Elt Ideal) f8 (ix2 (0 : Fin 1) co) : EReal) = B2b (ix1 co) := (congrFun e8 _).trans (hb co)
  have ec : g.val * 4 + j.val = 4 * g.val + j.val := by omega
  show max (TapSum.convFull 5 5 128 (pad2 16 128 A2) (colN W2b co) h.val (g.val * 4 + j.val) + M8.view.read (Elt Ideal) f8 (ix2 (0 : Fin 1) co)) 0 = _
  rw [eb, ec]

end Closed2b

/-- THE SAME FOR THE WITNESS READ BACK: the block the region's body leaves, at (b, h, g, co). -/
theorem witness2b_closed (c : Dev nD) (M0 : Memref sig .tc .vmem S8192x32 .bf16) (h0 : M0.IsWhole) (M1 : Memref sig .tc .vmem S32x64 .bf16) (h1 : M1.IsWhole) (M2 : Memref sig .tc .vmem S1x64 .f32) (h2 : M2.IsWhole) (M3 : Memref sig .tc .vmem S320x320 .bf16) (h3 : M3.IsWhole) (M4 : Memref sig .tc .vmem S1x64 .f32) (h4 : M4.IsWhole) (M5 : Memref sig .tc .vmem S320x640 .bf16) (h5 : M5.IsWhole) (M6 : Memref sig .tc .vmem S1x128 .f32) (h6 : M6.IsWhole) (M7 : Memref sig .tc .vmem S640x640 .bf16) (h7 : M7.IsWhole) (M8 : Memref sig .tc .vmem S1x128 .f32) (h8 : M8.IsWhole) (M9 : Memref sig .tc .vmem S8x16x4x128 .bf16) (h9 : M9.IsWhole) (C0 : Memref sig .tc .vmem S8x20x72x64 .bf16) (g0 : C0.IsWhole) (C1 : Memref sig .tc .vmem S9216x320 .bf16) (g1 : C1.IsWhole) (C2 : Memref sig .tc .vmem S8x20x24x64 .bf16) (g2 : C2.IsWhole) (C3 : Memref sig .tc .vmem S3072x320 .bf16) (g3 : C3.IsWhole) (C4 : Memref sig .tc .vmem S8x20x24x128 .bf16) (g4 : C4.IsWhole) (C5 : Memref sig .tc .vmem S3072x640 .bf16) (g5 : C5.IsWhole)
    (f0 : Bf0 (F := Ideal) c M0) (f1 : Bf0 (F := Ideal) c M1) (f2 : Bf0 (F := Ideal) c M2) (f3 : Bf0 (F := Ideal) c M3) (f4 : Bf0 (F := Ideal) c M4) (f5 : Bf0 (F := Ideal) c M5) (f6 : Bf0 (F := Ideal) c M6) (f7 : Bf0 (F := Ideal) c M7) (f8 : Bf0 (F := Ideal) c M8) (b : Fin 8) (A2 : ℕ → ℕ → ℕ → EReal)
    (hA : ∀ (h x : Fin 16) (ci : Fin 128),
      conv2bIn (F := Ideal) c M0 M1 M2 M3 M4 M5 M6 C0 C1 C2 C3 f0 f1 f2 f3 f4 f5 f6 (ix3 (⟨b.val * 16 + h.val, by omega⟩ : Fin 128) x ci) = A2 h.val x.val ci.val)
    (X7 : (Mat 640 640).Idx → EReal) (e7 : (M7.view.read (Elt Ideal) f7 : S640x640.Idx → EReal) = X7)
    (W2b : (Mat 3200 128).Idx → EReal)
    (hw : ∀ (kh : Fin 5) (ci : Fin 128) (kw : Fin 5) (co : Fin 128),
      X7 (ix2 (⟨kh.val * 128 + ci.val, by omega⟩ : Fin 640) (⟨kw.val * 128 + co.val, by omega⟩ : Fin 640))
        = W2b (ix2 (⟨(kh.val * 5 + kw.val) * 128 + ci.val, by omega⟩ : Fin 3200) co))
    (X8 : (Mat 1 128).Idx → EReal) (e8 : (M8.view.read (Elt Ideal) f8 : S1x128.Idx → EReal) = X8)
    (B2b : (Vec 128).Idx → EReal) (hb : ∀ j : Fin 128, X8 (ix2 (0 : Fin 1) j) = B2b (ix1 j))
    (h : Fin 16) (g : Fin 4) (co : Fin 128) :
    M9.view.read (Elt Ideal) (run0 (F := Ideal) c M0 h0 M1 h1 M2 h2 M3 h3 M4 h4 M5 h5 M6 h6 M7 h7 M8 h8 M9 h9 C0 g0 C1 g1 C2 g2 C3 g3 C4 g4 C5 g5 f0 f1 f2 f3 f4 f5 f6 f7 f8).1 (ix4 b h g co)
      = pool4 (fun s => convRelu 5 5 128 (pad2 16 128 A2) (colN W2b co) (B2b (ix1 co)) h.val s) g.val :=
  (congrFun (c2b_read_witness0 (F := Ideal) c M0 h0 M1 h1 M2 h2 M3 h3 M4 h4 M5 h5 M6 h6 M7 h7 M8 h8 M9 h9 C0 g0 C1 g1 C2 g2 C3 g3 C4 g4 C5 g5 f0 f1 f2 f3 f4 f5 f6 f7 f8) (ix4 b h g co)).trans
    (conv2b_closed c M0 M1 M2 M3 M4 M5 M6 M7 M8 C0 C1 C2 C3 C4 C5 f0 f1 f2 f3 f4 f5 f6 f7 f8 b A2 hA X7 e7 W2b hw X8 e8 B2b hb h g co)

end Cert.KernelIdeal.Hand

end
-- ==== Proof.KernelStage12Closed.lean ====
/-
  The kernel program's region 0 (stages 1 and 2 in one body) in closed form.

  Over arbitrary staging buffers, with what the nine input buffers read as hypotheses — the tap array, the first
  weight, the three RE-LAID weights (each entry (kh * C + ci, kw * Co + co) the stored weight's entry
  ((kh * 5 + kw) * C + ci, co)) and the four bias rows — the block the body leaves, read at (b, h, x, co), is the neutral
  form of the first two stages (`region0_closed`): the pooled first stage feeds the second stage's first convolution,
  whose rectified result, zero-padded, feeds the second convolution and the pool.  At the region's own data the
  buffers read the arrays the region finds, which are the launched arguments entry by entry, so entry (b, h, x, co) of
  what the region leaves in its output array is the neutral form at the tap array the region finds and the launched
  weights and biases (`o0_closed`).
-/
import proofs.«147627_g2000402439390779_pallasbulk_891_17_alg».proof.Proof.KernelStage12Arrays
import proofs.«147627_g2000402439390779_pallasbulk_891_17_alg».proof.Proof.KernelStage1Closed
import proofs.«147627_g2000402439390779_pallasbulk_891_17_alg».proof.Proof.KernelConv2aClosed
import proofs.«147627_g2000402439390779_pallasbulk_891_17_alg».proof.Proof.KernelConv2bClosed
import proofs.«147627_g2000402439390779_pallasbulk_891_17_alg».proof.Proof.LibStage12
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.StableHlo

open Cert.Hand.Stage12 (Act Mat Vec imgN pad2 colN convRelu pool4)

variable [Cert.KernelIdeal.Facts]

section Region0

variable (c : Dev nD) (M0 : Memref sig .tc .vmem S8192x32 .bf16) (M1 : Memref sig .tc .vmem S32x64 .bf16) (M2 : Memref sig .tc .vmem S1x64 .f32)
  (M3 : Memref sig .tc .vmem S320x320 .bf16) (M4 : Memref sig .tc .vmem S1x64 .f32) (M5 : Memref sig .tc .vmem S320x640 .bf16) (M6 : Memref sig .tc .vmem S1x128 .f32)
  (M7 : Memref sig .tc .vmem S640x640 .bf16) (M8 : Memref sig .tc .vmem S1x128 .f32)
  (C0 : Memref sig .tc .vmem S8x20x72x64 .bf16) (C1 : Memref sig .tc .vmem S9216x320 .bf16) (C2 : Memref sig .tc .vmem S8x20x24x64 .bf16) (C3 : Memref sig .tc .vmem S3072x320 .bf16)
  (C4 : Memref sig .tc .vmem S8x20x24x128 .bf16) (C5 : Memref sig .tc .vmem S3072x640 .bf16)
  (f0 : Bf0 (F := Ideal) c M0) (f1 : Bf0 (F := Ideal) c M1) (f2 : Bf0 (F := Ideal) c M2) (f3 : Bf0 (F := Ideal) c M3) (f4 : Bf0 (F := Ideal) c M4)
  (f5 : Bf0 (F := Ideal) c M5) (f6 : Bf0 (F := Ideal) c M6) (f7 : Bf0 (F := Ideal) c M7) (f8 : Bf0 (F := Ideal) c M8)
  (X0 : (Mat 8192 32).Idx → EReal) (W1a : (Mat 32 64).Idx → EReal) (B1a : (Vec 64).Idx → EReal)
  (W1b : (Mat 1600 64).Idx → EReal) (B1b : (Vec 64).Idx → EReal)
  (W2a : (Mat 1600 128).Idx → EReal) (B2a : (Vec 128).Idx → EReal) (W2b : (Mat 3200 128).Idx → EReal) (B2b : (Vec 128).Idx → EReal)

/-- THE REGION'S BODY IN CLOSED FORM over what its nine input buffers read: the tap array, the first weight, the three
    RE-LAID weights (each against the weight as stored) and the four bias rows.  The block the body leaves, read at
    (b, h, x, co), is the neutral form of the first two stages. -/
theorem region0_closed (h0 : M0.IsWhole) (h1 : M1.IsWhole) (h2 : M2.IsWhole) (h3 : M3.IsWhole) (h4 : M4.IsWhole) (h5 : M5.IsWhole)
    (h6 : M6.IsWhole) (h7 : M7.IsWhole) (h8 : M8.IsWhole) (M9 : Memref sig .tc .vmem S8x16x4x128 .bf16) (h9 : M9.IsWhole)
    (g0 : C0.IsWhole) (g1 : C1.IsWhole) (g2 : C2.IsWhole) (g3 : C3.IsWhole) (g4 : C4.IsWhole) (g5 : C5.IsWhole)
    (hX0 : (M0.view.read (Elt Ideal) f0 : S8192x32.Idx → EReal) = X0)
    (hW1a : (M1.view.read (Elt Ideal) f1 : S32x64.Idx → EReal) = W1a)
    (hB1a : ∀ co : Fin 64, M2.view.read (Elt Ideal) f2 (ix2 (0 : Fin 1) co) = B1a (ix1 co))
    (hW1b : ∀ (kh : Fin 5) (ci : Fin 64) (kw : Fin 5) (co : Fin 64),
      M3.view.read (Elt Ideal) f3 (ix2 (⟨kh.val * 64 + ci.val, by omega⟩ : Fin 320) (⟨kw.val * 64 + co.val, by omega⟩ : Fin 320))
        = W1b (ix2 (⟨(kh.val * 5 + kw.val) * 64 + ci.val, by omega⟩ : Fin 1600) co))
    (hB1b : ∀ co : Fin 64, M4.view.read (Elt Ideal) f4 (ix2 (0 : Fin 1) co) = B1b (ix1 co))
    (hW2a : ∀ (kh : Fin 5) (ci : Fin 64) (kw : Fin 5) (co : Fin 128),
      M5.view.read (Elt Ideal) f5 (ix2 (⟨kh.val * 64 + ci.val, by omega⟩ : Fin 320) (⟨kw.val * 128 + co.val, by omega⟩ : Fin 640))
        = W2a (ix2 (⟨(kh.val * 5 + kw.val) * 64 + ci.val, by omega⟩ : Fin 1600) co))
    (hB2a : ∀ co : Fin 128, M6.view.read (Elt Ideal) f6 (ix2 (0 : Fin 1) co) = B2a (ix1 co))
    (hW2b : ∀ (kh : Fin 5) (ci : Fin 128) (kw : Fin 5) (co : Fin 128),
      M7.view.read (Elt Ideal) f7 (ix2 (⟨kh.val * 128 + ci.val, by omega⟩ : Fin 640) (⟨kw.val * 128 + co.val, by omega⟩ : Fin 640))
        = W2b (ix2 (⟨(kh.val * 5 + kw.val) * 128 + ci.val, by omega⟩ : Fin 3200) co))
    (hB2b : ∀ co : Fin 128, M8.view.read (Elt Ideal) f8 (ix2 (0 : Fin 1) co) = B2b (ix1 co))
    (b : Fin 8) (h : Fin 16) (g : Fin 4) (co : Fin 128) :
    M9.view.read (Elt Ideal) (run0 (F := Ideal) c M0 h0 M1 h1 M2 h2 M3 h3 M4 h4 M5 h5 M6 h6 M7 h7 M8 h8 M9 h9 C0 g0 C1 g1 C2 g2 C3 g3 C4 g4 C5 g5 f0 f1 f2 f3 f4 f5 f6 f7 f8).1 (ix4 b h g co)
      = Cert.Hand.Stage12.out (Stage1.tapsK X0) W1a B1a W1b B1b W2a B2a W2b B2b b h g co := by
  have hP1 : ∀ (b : Fin 8) (h : Fin 16) (xo : Fin 16) (co : Fin 64),
      run0.sl.v67 (F := Ideal) c M0 M1 M2 M3 M4 C0 C1 f0 f1 f2 f3 f4 (ix3 (⟨b.val * 16 + h.val, by omega⟩ : Fin 128) xo co)
        = Cert.Hand.Stage12.p1 (Stage1.tapsK X0) W1a B1a W1b B1b b h.val xo.val co.val :=
    fun b h xo co => Stage1.pool1_closed (hX0 := hX0) (hW1a := hW1a) (hB1a := hB1a) (hW1b := hW1b) (hB1b := hB1b) ..
  have hA2 : ∀ (h x : Fin 16) (ci : Fin 128),
      conv2bIn (F := Ideal) c M0 M1 M2 M3 M4 M5 M6 C0 C1 C2 C3 f0 f1 f2 f3 f4 f5 f6 (ix3 (⟨b.val * 16 + h.val, by omega⟩ : Fin 128) x ci)
        = (Cert.Hand.Stage12.a2 (Stage1.tapsK X0) W1a B1a W1b B1b W2a B2a b) h.val x.val ci.val :=
    fun h x ci =>
      (conv2a_closed_relaid (b := b) (P1 := Cert.Hand.Stage12.p1 (Stage1.tapsK X0) W1a B1a W1b B1b b)
        (hP := fun h x ci => hP1 b h x ci) (e5 := rfl) (hw := hW2a) (e6 := rfl) (hb := hB2a) ..).trans
        (by unfold Cert.Hand.Stage12.a2; rw [dif_pos ci.isLt])
  unfold Cert.Hand.Stage12.out
  exact witness2b_closed (b := b) (A2 := (Cert.Hand.Stage12.a2 (Stage1.tapsK X0) W1a B1a W1b B1b W2a B2a b)) (hA := hA2) (e7 := rfl) (hw := hW2b) (e8 := rfl) (hb := hB2b) ..

end Region0

/-! ## At the region's own data: the arrays it finds and the launched arguments -/

variable (m : (ℓ : Loc nD τ sig) → Buf (Elt Ideal) ℓ)

/-- THE KERNEL'S REGION 0, CLOSED: entry (b, h, x, co) of what the region leaves in `main_v70` is the neutral form of
    the first two stages at the tap array the region finds in `main_v56` (viewed [8, 16, 64, 32]) and the launched
    weights `main_arg1`, `main_arg3`, `main_arg5`, `main_arg7` and biases `main_arg2`, `main_arg4`, `main_arg6`, `main_arg8`. -/
theorem o0_closed (c : Dev nD) (b : Fin 8) (h : Fin 16) (x : Fin 4) (co : Fin 128) :
    (o0 m c : S8x16x4x128.Idx → EReal) (ix4 b h x co)
      = Cert.Hand.Stage12.out (Stage1.tapsK (V5 m c main_v56 : S8192x32.Idx → EReal))
          (V0 m c main_arg1 : S32x64.Idx → EReal) (V0 m c main_arg2 : S64.Idx → EReal)
          (V0 m c main_arg3 : S1600x64.Idx → EReal) (V0 m c main_arg4 : S64.Idx → EReal)
          (V0 m c main_arg5 : S1600x128.Idx → EReal) (V0 m c main_arg6 : S128.Idx → EReal)
          (V0 m c main_arg7 : S3200x128.Idx → EReal) (V0 m c main_arg8 : S128.Idx → EReal) b h x co := by
  rw [o0_eq]
  exact region0_closed
    (hX0 := (Memref.IsWhole.read_unread _ _).trans (blk0_0_eq (fun c b => V5 m c b) c))
    (hW1a := (Memref.IsWhole.read_unread _ _).trans ((blk0_1_eq (fun c b => V5 m c b) c).trans (entry0_arg1 m c)))
    (hB1a := fun co => (congrFun ((Memref.IsWhole.read_unread _ _).trans (blk0_2_eq (fun c b => V5 m c b) c)) _).trans (main_v66_at m c co))
    (hW1b := fun kh ci kw co => (congrFun ((Memref.IsWhole.read_unread _ _).trans (blk0_3_eq (fun c b => V5 m c b) c)) _).trans (w1b_entry m c kh ci kw co))
    (hB1b := fun co => (congrFun ((Memref.IsWhole.read_unread _ _).trans (blk0_4_eq (fun c b => V5 m c b) c)) _).trans (main_v67_at m c co))
    (hW2a := fun kh ci kw co => (congrFun ((Memref.IsWhole.read_unread _ _).trans (blk0_5_eq (fun c b => V5 m c b) c)) _).trans (w2a_entry m c kh ci kw co))
    (hB2a := fun co => (congrFun ((Memref.IsWhole.read_unread _ _).trans (blk0_6_eq (fun c b => V5 m c b) c)) _).trans (main_v68_at m c co))
    (hW2b := fun kh ci kw co => (congrFun ((Memref.IsWhole.read_unread _ _).trans (blk0_7_eq (fun c b => V5 m c b) c)) _).trans (w2b_entry m c kh ci kw co))
    (hB2b := fun co => (congrFun ((Memref.IsWhole.read_unread _ _).trans (blk0_8_eq (fun c b => V5 m c b) c)) _).trans (main_v69_at m c co)) ..

end Cert.KernelIdeal.Hand

end
-- ==== Proof.RefConv1aValue.lean ====
/-
  The reference's region 0, first convolution of the pair, read at an index.

  The first convolution of this pair has a single tap (a 1 × 1 kernel), so its patch matrix [8192, 32] is ONE slice
  store: the whole input [8,16,64,32], flattened row-major.  Row p = (b * 16 + h) * 64 + x of the matrix is the
  input's position (b, h, x) and the column is the channel.  The load of the whole matrix after the store reads
  that function, the product with the weight [32, 64] is at each entry the sum over the channel of the input times
  the weight, and the convolution's result before the cast is the rectifier of that sum plus the bias: at the
  ideal values the ONE contraction over the flattened (row tap, column tap, channel) index, here with one tap.
-/
import proofs.«147627_g2000402439390779_pallasbulk_891_17_alg».proof.Proof.RefPairRegion0
import proofs.«147627_g2000402439390779_pallasbulk_891_17_alg».proof.Proof.RefConv4Value

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section AnyFloat

variable {F : FTy → Type} [FloatOps F] [Cert.ReferenceIdeal.Facts]

/-- The input's index that the patch matrix's entry (p, ci) reads: with p = (b * 16 + h) * 64 + x it is (b, h, x, ci). -/
def xaIdx_1a (y : S8192x32.Idx) : S8x16x64x32.Idx :=
  ix4 ⟨(y 0).val / 1024, by have := idx2_lt0 y; omega⟩
      ⟨(y 0).val / 64 % 16, Nat.mod_lt _ (by decide)⟩
      ⟨(y 0).val % 64, Nat.mod_lt _ (by decide)⟩
      ⟨(y 1).val, idx2_lt1 y⟩

/-- THE PATCH MATRIX READ AT AN INDEX: the load after the one store returns the stored block, the input flattened
    row-major; at (p, ci) it is the input's raw contents read at (p / 1024, p / 64 % 16, p % 64, ci). -/
theorem patch_apply_1a (c : Dev nD) (M0 : Memref sig .tc .vmem S8x16x64x32 .bf16) (C0 : Memref sig .tc .vmem S8192x32 .bf16)
    (f0 : Bf0 (F := F) c M0) (y : S8192x32.Idx) :
    run0.sl.v6 c M0 C0 f0 y = M0.view.read (Elt F) f0 (xaIdx_1a y) := by
  have hy0 : (y 0).val < 8192 := idx2_lt0 y
  have hy1 : (y 1).val < 32 := idx2_lt1 y
  unfold run0.sl.v6 run0.sl.G0_1
  -- one store through the whole-block rectangle, read back through it: its payload
  refine (congrFun (View.readCov_unit_zero C0.view zero2_4 _ _) y).trans ?_
  unfold run0.sl.v5 run0.sl.v2 run0.sl.v1
  -- the outer cast is between equal shapes
  rw [shapeCast_self]
  -- the flattening [8,16,64,32] → [8192,32] keeps the row-major position
  refine (shapeCast_apply _ _ y
    (ix4 ⟨(y 0).val / 1024, by omega⟩ ⟨(y 0).val / 64 % 16, Nat.mod_lt _ (by decide)⟩ ⟨(y 0).val % 64, Nat.mod_lt _ (by decide)⟩ ⟨(y 1).val, hy1⟩)
    (by rw [Shape.rowMajor_val_two, Shape.rowMajor_val_four]
        show ((((y 0).val / 1024) * 16 + (y 0).val / 64 % 16) * 64 + (y 0).val % 64) * 32 + (y 1).val = (y 0).val * 32 + (y 1).val
        omega)).trans ?_
  -- the loaded block already has the input's shape
  refine (shapeCast_apply _ _ _
    (ix4 ⟨(y 0).val / 1024, by omega⟩ ⟨(y 0).val / 64 % 16, Nat.mod_lt _ (by decide)⟩ ⟨(y 0).val % 64, Nat.mod_lt _ (by decide)⟩ ⟨(y 1).val, hy1⟩) rfl).trans ?_
  -- and the load through the whole-shape rectangle reads the contents
  rw [View.readAt_apply]
  refine congrArg _ (funext fun a => Fin.ext ?_)
  match a with
  | ⟨0, _⟩ => show 0 + 1 * ((y 0).val / 1024) = (y 0).val / 1024; omega
  | ⟨1, _⟩ => show 0 + 1 * ((y 0).val / 64 % 16) = (y 0).val / 64 % 16; omega
  | ⟨2, _⟩ => show 0 + 1 * ((y 0).val % 64) = (y 0).val % 64; omega
  | ⟨3, _⟩ => show 0 + 1 * (y 1).val = (y 1).val; omega

/-- The bias row broadcast to [8192, 64] reads the bias at the column. -/
theorem bias_apply_1a (c : Dev nD) (M2 : Memref sig .tc .vmem S1x64 .f32) (f2 : Bf0 (F := F) c M2) (j : S8192x64.Idx) :
    run0.sl.v11 c M2 f2 j = M2.view.read (Elt F) f2 (ix2 (0 : Fin 1) (j 1)) := by
  unfold run0.sl.v11
  refine (broadcastTo_apply _ _ j (ix2 (0 : Fin 1) (j 1)) (fun a => ?_)).trans ?_
  · match a with
    | ⟨0, _⟩ => rfl
    | ⟨1, _⟩ => rfl
  · unfold run0.sl.v10
    rw [shapeCast_self, readAt_unit_zero M2 zero2_4]
    rfl

end AnyFloat

/-! ## The product, the bias and the rectifier, at the ideal values -/

section AtIdeal

variable [Cert.ReferenceIdeal.Facts]

/-- The product read at (a, b): row a of the patch matrix against column b of the weight. -/
theorem conv_sum_ix_1a (c : Dev nD) (M0 : Memref sig .tc .vmem S8x16x64x32 .bf16) (M1 : Memref sig .tc .vmem S32x64 .bf16)
    (C0 : Memref sig .tc .vmem S8192x32 .bf16) (f0 : Bf0 (F := Ideal) c M0) (f1 : Bf0 (F := Ideal) c M1) (a : Fin 8192) (b : Fin 64) :
    run0.sl.v8 (F := Ideal) c M0 M1 C0 f0 f1 (ix2 a b)
      = ∑ t : Fin 32, M0.view.read (Elt Ideal) f0 (xaIdx_1a (ix2 a t)) * M1.view.read (Elt Ideal) f1 (ix2 t b) := by
  unfold run0.sl.v8 run0.sl.cst
  refine (matmul_plain_zero_apply (m := 8192) (k := 32) (n := 64) (φ₁ := .bf16) (φ₂ := .bf16) none _ _ a b).trans ?_
  refine Finset.sum_congr rfl fun t _ => ?_
  exact congrArg₂ (· * ·) (patch_apply_1a c M0 C0 f0 _) (congrFun (readAt_unit_zero M1 zero2_4 _ f1) _)

/-- THE PRODUCT READ AT AN INDEX, at the ideal values: row p of the patch matrix against column co of the weight is
    the sum over the channel t of the input at (p's position, t) times the weight at (t, co). -/
theorem conv_sum_apply_1a (c : Dev nD) (M0 : Memref sig .tc .vmem S8x16x64x32 .bf16) (M1 : Memref sig .tc .vmem S32x64 .bf16)
    (C0 : Memref sig .tc .vmem S8192x32 .bf16) (f0 : Bf0 (F := Ideal) c M0) (f1 : Bf0 (F := Ideal) c M1) (j : S8192x64.Idx) :
    run0.sl.v8 (F := Ideal) c M0 M1 C0 f0 f1 j
      = ∑ t : Fin 32, M0.view.read (Elt Ideal) f0 (xaIdx_1a (ix2 (j 0) t)) * M1.view.read (Elt Ideal) f1 (ix2 t (j 1)) := by
  have key := conv_sum_ix_1a c M0 M1 C0 f0 f1 (j 0) (j 1)
  exact (congrArg (run0.sl.v8 (F := Ideal) c M0 M1 C0 f0 f1) (eq_ix2 j)).trans key

/-- THE CONVOLUTION'S RESULT BEFORE THE CAST, at the ideal values, read at (p, co): the rectifier of the product's
    sum plus the bias. -/
theorem ya_apply_1a (c : Dev nD) (M0 : Memref sig .tc .vmem S8x16x64x32 .bf16) (M1 : Memref sig .tc .vmem S32x64 .bf16)
    (M2 : Memref sig .tc .vmem S1x64 .f32) (C0 : Memref sig .tc .vmem S8192x32 .bf16)
    (f0 : Bf0 (F := Ideal) c M0) (f1 : Bf0 (F := Ideal) c M1) (f2 : Bf0 (F := Ideal) c M2) (j : S8192x64.Idx) :
    run0.sl.v14 (F := Ideal) c M0 M1 M2 C0 f0 f1 f2 j
      = max ((∑ t : Fin 32, M0.view.read (Elt Ideal) f0 (xaIdx_1a (ix2 (j 0) t)) * M1.view.read (Elt Ideal) f1 (ix2 t (j 1)))
              + M2.view.read (Elt Ideal) f2 (ix2 (0 : Fin 1) (j 1))) 0 := by
  unfold run0.sl.v14 run0.sl.v12 run0.sl.v13 run0.sl.cst_11
  rw [maximumf_apply, addf_apply, broadcast_apply, conv_sum_apply_1a, bias_apply_1a]
  show max _ (Ideal.ofBits .f32 0x00000000#32) = _
  rw [Ideal.ofBits_zero_f32]

/-- The input of image b and the weight's column co as functions of plain natural-number indices (zero outside the
    arrays), the form the convolution law is stated over. -/
def xaN_1a (c : Dev nD) (M0 : Memref sig .tc .vmem S8x16x64x32 .bf16) (f0 : Bf0 (F := Ideal) c M0) (b : ℕ) : ℕ → ℕ → ℕ → EReal :=
  fun r s ci => if h : b < 8 ∧ r < 16 ∧ s < 64 ∧ ci < 32
    then M0.view.read (Elt Ideal) f0 (ix4 ⟨b, h.1⟩ ⟨r, h.2.1⟩ ⟨s, h.2.2.1⟩ ⟨ci, h.2.2.2⟩) else 0
def waN_1a (c : Dev nD) (M1 : Memref sig .tc .vmem S32x64 .bf16) (f1 : Bf0 (F := Ideal) c M1) (co : ℕ) : ℕ → EReal :=
  fun t => if h : t < 32 ∧ co < 64 then M1.view.read (Elt Ideal) f1 (ix2 ⟨t, h.1⟩ ⟨co, h.2⟩) else 0

theorem xaN_1a_eq (c : Dev nD) (M0 : Memref sig .tc .vmem S8x16x64x32 .bf16) (f0 : Bf0 (F := Ideal) c M0) (b r s ci : ℕ)
    (h0 : b < 8) (h1 : r < 16) (h2 : s < 64) (h3 : ci < 32) :
    xaN_1a c M0 f0 b r s ci = M0.view.read (Elt Ideal) f0 (ix4 ⟨b, h0⟩ ⟨r, h1⟩ ⟨s, h2⟩ ⟨ci, h3⟩) := by
  unfold xaN_1a; exact dif_pos ⟨h0, h1, h2, h3⟩
theorem waN_1a_eq (c : Dev nD) (M1 : Memref sig .tc .vmem S32x64 .bf16) (f1 : Bf0 (F := Ideal) c M1) (co t : ℕ)
    (h0 : t < 32) (h1 : co < 64) :
    waN_1a c M1 f1 co t = M1.view.read (Elt Ideal) f1 (ix2 ⟨t, h0⟩ ⟨co, h1⟩) := by
  unfold waN_1a; exact dif_pos ⟨h0, h1⟩

/-- The same in the convolution law's form, with one row tap and one column tap: at p = (b * 16 + h) * 64 + x the sum
    is the ONE contraction over the flattened (row tap, column tap, channel) index — here just the channel — of
    image b's input against the weight's column. -/
theorem ya_convFull_1a (c : Dev nD) (M0 : Memref sig .tc .vmem S8x16x64x32 .bf16) (M1 : Memref sig .tc .vmem S32x64 .bf16)
    (M2 : Memref sig .tc .vmem S1x64 .f32) (C0 : Memref sig .tc .vmem S8192x32 .bf16)
    (f0 : Bf0 (F := Ideal) c M0) (f1 : Bf0 (F := Ideal) c M1) (f2 : Bf0 (F := Ideal) c M2) (j : S8192x64.Idx) :
    run0.sl.v14 (F := Ideal) c M0 M1 M2 C0 f0 f1 f2 j
      = max (TapSum.convFull 1 1 32 (xaN_1a c M0 f0 ((j 0).val / 1024)) (waN_1a c M1 f1 (j 1).val) ((j 0).val / 64 % 16) ((j 0).val % 64)
              + M2.view.read (Elt Ideal) f2 (ix2 (0 : Fin 1) (j 1))) 0 := by
  have hp : (j 0).val < 8192 := idx2_lt0 j
  have hco : (j 1).val < 64 := idx2_lt1 j
  rw [ya_apply_1a]
  refine congrArg (fun s => max (s + _) 0) ?_
  show _ = ∑ t ∈ Finset.range 32, (fun t =>
      xaN_1a c M0 f0 ((j 0).val / 1024) ((j 0).val / 64 % 16 + t / 32) ((j 0).val % 64 + t / 32 % 1) (t % 32) * waN_1a c M1 f1 (j 1).val t) t
  rw [← TapSum.sum_fin_val 32]
  refine Finset.sum_congr rfl fun t _ => ?_
  have ht : t.val < 32 := t.isLt
  show _ = xaN_1a c M0 f0 ((j 0).val / 1024) ((j 0).val / 64 % 16 + t.val / 32) ((j 0).val % 64 + t.val / 32 % 1) (t.val % 32) * waN_1a c M1 f1 (j 1).val t.val
  rw [xaN_1a_eq c M0 f0 _ _ _ _ (by omega) (by omega) (by omega) (Nat.mod_lt _ (by decide)), waN_1a_eq c M1 f1 _ _ ht hco]
  refine congrArg₂ (· * ·) (congrArg _ (funext fun a => Fin.ext ?_)) (congrArg _ (funext fun a => Fin.ext ?_))
  · -- the single tap adds nothing to the position: t / 32 = 0 below 32
    match a with
    | ⟨0, _⟩ => rfl
    | ⟨1, _⟩ => show (j 0).val / 64 % 16 = (j 0).val / 64 % 16 + t.val / 32; omega
    | ⟨2, _⟩ => show (j 0).val % 64 = (j 0).val % 64 + t.val / 32 % 1; omega
    | ⟨3, _⟩ => show t.val = t.val % 32; omega
  · match a with
    | ⟨0, _⟩ => rfl
    | ⟨1, _⟩ => rfl

end AtIdeal

end Cert.ReferenceIdeal.Hand

end
-- ==== Proof.RefConv1bValue.lean ====
/-
  The reference's first region, second convolution of the pair and the width-4 max pool, read at an index.

  The first convolution of the pair is a 32-tap contraction of the host-built patches; its rectified result after
  the cast to bf16, an [8192, 64] matrix with row (b * 16 + h) * 64 + x for image b, output row h, output column x,
  is taken here as a NAMED INPUT (`ya1`).  It is stored into the interior (offsets (0, 2, 2, 0), sizes [8,16,64,64])
  of a scratch buffer [8,20,68,64] first filled with zeros: what the two stores leave is ONE function of the buffer's
  index, the input at row (b * 16 + (hh - 2)) * 64 + (xx - 2) inside the border and zero on it (`ypad1_apply`).
  The patch matrix [8192, 1600] is built from it by 25 slice stores: at row p = (b * 16 + h) * 64 + x and column
  t = (kh * 5 + kw) * 64 + ci it holds the padded intermediate at (b, kh + h, kw + x, ci) (`patch1b_apply`).

  At the ideal values the product into the zero accumulator is the plain sum over t < 1600 (`conv1b_sum_apply`);
  with the bias and the rectifier it is the second convolution's result (`yb1_apply`), in the convolution law's
  form `TapSum.convFull 5 5 64` of image b's padded intermediate against the weight's column (`yb1_convFull`).
  The pool reshapes [8192, 64] to [2048, 4, 64] and takes the maximum over the middle axis: the output block at
  (b, h, xo, co) is the fold of max over x < 4 of the result at row ((b * 16 + h) * 16 + xo) * 4 + x, that is at output
  column 4 * xo + x (`out1_apply`, `out1_closed`).  The run's output contents read back through the output's view are
  that block (`readW0`), so they have this closed form (`witness0_closed`).
-/
import proofs.«147627_g2000402439390779_pallasbulk_891_17_alg».proof.Proof.RefPairRegion0
import Idealize.ShloMosaic.Lib.Pipeline.Value
import Idealize.ShloMosaic.Lib.ValueIdx
import Idealize.ShloMosaic.Lib.Ring
import Idealize.ShloMosaic.PureOps.Ideal.Laws
import proofs.«147627_g2000402439390779_pallasbulk_891_17_alg».proof.Proof.LibConvLaw

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [Cert.ReferenceIdeal.Facts]

theorem hz2_1b : (![0, 0] : Fin 2 → Nat) = fun _ => 0 := funext fun a => by fin_cases a <;> rfl
theorem hz4_1b : (![0, 0, 0, 0] : Fin 4 → Nat) = fun _ => 0 := funext fun a => by fin_cases a <;> rfl

/-- The interior [8,16,64,64] of the padded [8,20,68,64] buffer, at offsets (0, 2, 2, 0), lies inside it. -/
theorem inbY1 : ∀ a, (![0, 2, 2, 0] : Fin 4 → ℕ) a + S8x16x64x64.size a ≤ S8x20x68x64.size a :=
  fun a => by fin_cases a <;> decide

/-- THE NAMED INPUT: the first convolution's rectified result after the cast, row (b * 16 + h) * 64 + x, column ci. -/
abbrev ya1 (c : Dev nD) (M0 : Memref sig .tc .vmem S8x16x64x32 .bf16) (M1 : Memref sig .tc .vmem S32x64 .bf16) (M2 : Memref sig .tc .vmem S1x64 .f32) (C0 : Memref sig .tc .vmem S8192x32 .bf16) (f0 : Bf0 (F := F) c M0) (f1 : Bf0 (F := F) c M1) (f2 : Bf0 (F := F) c M2) : S8192x64.Idx → Elt F .bf16 :=
  run0.sl.v15 c M0 M1 M2 C0 f0 f1 f2

/-- THE ZERO-PADDED INTERMEDIATE ACTIVATION as one function of its index (b, hh, xx, ci): inside the border
    (2 ≤ hh < 18, 2 ≤ xx < 66) the named input at row (b * 16 + (hh - 2)) * 64 + (xx - 2) and column ci; on the border
    the zero pattern. -/
def ypadG1 (c : Dev nD) (M0 : Memref sig .tc .vmem S8x16x64x32 .bf16) (M1 : Memref sig .tc .vmem S32x64 .bf16) (M2 : Memref sig .tc .vmem S1x64 .f32) (C0 : Memref sig .tc .vmem S8192x32 .bf16)
    (f0 : Bf0 (F := F) c M0) (f1 : Bf0 (F := F) c M1) (f2 : Bf0 (F := F) c M2) (k : S8x20x68x64.Idx) : Elt F .bf16 :=
  if h : 2 ≤ (k 1).val ∧ (k 1).val < 18 ∧ 2 ≤ (k 2).val ∧ (k 2).val < 66 then
    ya1 c M0 M1 M2 C0 f0 f1 f2
      (ix2 ⟨((k 0).val * 16 + ((k 1).val - 2)) * 64 + ((k 2).val - 2), by have h0 : (k 0).val < 8 := (k 0).isLt; omega⟩ ⟨(k 3).val, (k 3).isLt⟩)
  else FloatOps.ofBits .bf16 0#16

/-- What the zero fill and the interior store leave in the scratch buffer is that function. -/
theorem ypad1_apply (c : Dev nD) (M0 : Memref sig .tc .vmem S8x16x64x32 .bf16) (M1 : Memref sig .tc .vmem S32x64 .bf16) (M2 : Memref sig .tc .vmem S1x64 .f32) (C0 : Memref sig .tc .vmem S8192x32 .bf16)
    (f0 : Bf0 (F := F) c M0) (f1 : Bf0 (F := F) c M1) (f2 : Bf0 (F := F) c M2) (k : S8x20x68x64.Idx) :
    View.canon (run0.sl.G1_2 c M0 M1 M2 C0 f0 f1 f2) k = ypadG1 c M0 M1 M2 C0 f0 f1 f2 k := by
  have h0 : (k 0).val < 8 := (k 0).isLt
  have h3 : (k 3).val < 64 := (k 3).isLt
  unfold ypadG1 run0.sl.G1_2
  by_cases h : 2 ≤ (k 1).val ∧ (k 1).val < 18 ∧ 2 ≤ (k 2).val ∧ (k 2).val < 66
  · rw [dif_pos h]
    have hk : k = (Rect.unit (s := S8x20x68x64) ![0, 2, 2, 0] S8x16x64x64.size inbY1).emb
        (ix4 ⟨(k 0).val, h0⟩ ⟨(k 1).val - 2, by omega⟩ ⟨(k 2).val - 2, by omega⟩ ⟨(k 3).val, h3⟩) := by
      funext a
      match a with
      | ⟨0, _⟩ => exact Fin.ext (by show (k 0).val = 0 + 1 * (k 0).val; omega)
      | ⟨1, _⟩ => exact Fin.ext (by show (k 1).val = 2 + 1 * ((k 1).val - 2); omega)
      | ⟨2, _⟩ => exact Fin.ext (by show (k 2).val = 2 + 1 * ((k 2).val - 2); omega)
      | ⟨3, _⟩ => exact Fin.ext (by show (k 3).val = 0 + 1 * (k 3).val; omega)
    refine (congrArg (View.canon _) hk).trans
      ((View.canon_cons_emb (Rect.unit (s := S8x20x68x64) ![0, 2, 2, 0] S8x16x64x64.size inbY1) _ _ _).trans ?_)
    unfold run0.sl.v23 run0.sl.v20
    rw [shapeCast_self]
    exact shapeCast_apply _ _ _ _ (by
      rw [Shape.rowMajor_val_two, Shape.rowMajor_val_four]
      show (((k 0).val * 16 + ((k 1).val - 2)) * 64 + ((k 2).val - 2)) * 64 + (k 3).val
        = (((k 0).val * 16 + ((k 1).val - 2)) * 64 + ((k 2).val - 2)) * 64 + (k 3).val
      rfl)
  · rw [dif_neg h]
    have hm : k ∉ (Rect.unit (s := S8x20x68x64) ![0, 2, 2, 0] S8x16x64x64.size inbY1).set := fun hm => h (by
      have h1 := Rect.mem_set_unit.mp hm 1
      have h2 := Rect.mem_set_unit.mp hm 2
      exact ⟨h1.1, h1.2, h2.1, h2.2⟩)
    refine (View.canon_cons_of_not_mem
      (⟨Rect.unit (s := S8x20x68x64) ![0, 2, 2, 0] S8x16x64x64.size inbY1, _⟩ : View.Piece (Elt F) S8x20x68x64 .bf16) _ hm).trans ?_
    unfold run0.sl.G1_1
    rw [View.canon_unit_zero hz4_1b]
    unfold run0.sl.v19 run0.sl.v16 run0.sl.cst_12
    rw [shapeCast_self]
    rfl

/-- The padded intermediate's index that the patch matrix's entry (p, t) reads: with p = (b * 16 + h) * 64 + x and
    t = (kh * 5 + kw) * 64 + ci it is (b, kh + h, kw + x, ci). -/
def xbIdx1 (y : S8192x1600.Idx) : S8x20x68x64.Idx :=
  ix4 ⟨(y 0).val / 1024, by have := idx2_lt0 y; omega⟩
      ⟨(y 1).val / 320 + (y 0).val / 64 % 16, by have := idx2_lt1 y; omega⟩
      ⟨(y 1).val / 64 % 5 + (y 0).val % 64, by omega⟩
      ⟨(y 1).val % 64, Nat.mod_lt _ (by decide)⟩

/-- One tap's block of the patch matrix at a local index, whatever the stores L into the padded buffer were: the load
    of the [8,16,64,64] window at offsets (0, kh, kw, 0), flattened row-major to [8192,64], reads what the stores left
    at (p / 1024, kh + p / 64 % 16, kw + p % 64, ci). -/
theorem tap1b_apply (C1 : Memref sig .tc .vmem S8x20x68x64 .bf16) (L : List (View.Piece (Elt F) S8x20x68x64 .bf16))
    (kh kw : ℕ) (inbM : ∀ a, (![0, kh, kw, 0] : Fin 4 → ℕ) a + S8x16x64x64.size a ≤ S8x20x68x64.size a)
    (h2 : (Rect.unit (s := S8x20x68x64) ![0, kh, kw, 0] S8x16x64x64.size inbM).toLoadRect.shape.ShapeCasts S8192x64)
    (h3 : S8192x64.ShapeCasts S8192x64)
    (x : S8192x64.Idx) (k : S8x20x68x64.Idx)
    (hk0 : (k 0).val = (x 0).val / 1024) (hk1 : (k 1).val = kh + (x 0).val / 64 % 16)
    (hk2 : (k 2).val = kw + (x 0).val % 64) (hk3 : (k 3).val = (x 1).val) :
    shapeCast S8192x64 (shapeCast S8192x64
      (C1.view.readCov L (Rect.unit (s := S8x20x68x64) ![0, kh, kw, 0] S8x16x64x64.size inbM).toLoadRect) h2) h3 x
      = View.canon L k := by
  have hx0 : (x 0).val < 8192 := idx2_lt0 x
  have hx1 : (x 1).val < 64 := idx2_lt1 x
  rw [shapeCast_self]
  refine (shapeCast_apply _ _ x
    (ix4 ⟨(x 0).val / 1024, by omega⟩ ⟨(x 0).val / 64 % 16, by omega⟩ ⟨(x 0).val % 64, by omega⟩ ⟨(x 1).val, hx1⟩)
    (by show (Shape.rowMajor (⟨4, ![8, 16, 64, 64]⟩ : Shape)
              (ix4 ⟨(x 0).val / 1024, by omega⟩ ⟨(x 0).val / 64 % 16, by omega⟩ ⟨(x 0).val % 64, by omega⟩ ⟨(x 1).val, hx1⟩)).val
            = (S8192x64.rowMajor x).val
        rw [Shape.rowMajor_val_two, Shape.rowMajor_val_four]
        show ((((x 0).val / 1024) * 16 + (x 0).val / 64 % 16) * 64 + (x 0).val % 64) * 64 + (x 1).val = (x 0).val * 64 + (x 1).val
        omega)).trans ?_
  rw [View.readCov_eq_canon']
  refine congrArg _ (funext fun a => Fin.ext ?_)
  match a with
  | ⟨0, _⟩ => show 0 + 1 * ((x 0).val / 1024) = (k 0).val; omega
  | ⟨1, _⟩ => show kh + 1 * ((x 0).val / 64 % 16) = (k 1).val; omega
  | ⟨2, _⟩ => show kw + 1 * ((x 0).val % 64) = (k 2).val; omega
  | ⟨3, _⟩ => show 0 + 1 * (x 1).val = (k 3).val; omega

/-- The block the tap (kh, kw) stores at columns [off, off + 64), off = (kh * 5 + kw) * 64, agrees with the one
    function of the patch matrix's index. -/
theorem tap1b_piece (C1 : Memref sig .tc .vmem S8x20x68x64 .bf16) (L : List (View.Piece (Elt F) S8x20x68x64 .bf16))
    (kh kw off : ℕ) (hkh : kh < 5) (hkw : kw < 5) (hoff : off = (kh * 5 + kw) * 64)
    (inbM : ∀ a, (![0, kh, kw, 0] : Fin 4 → ℕ) a + S8x16x64x64.size a ≤ S8x20x68x64.size a)
    (h2 : (Rect.unit (s := S8x20x68x64) ![0, kh, kw, 0] S8x16x64x64.size inbM).toLoadRect.shape.ShapeCasts S8192x64)
    (h3 : S8192x64.ShapeCasts S8192x64)
    (inbC : ∀ a, (![0, off] : Fin 2 → ℕ) a + S8192x64.size a ≤ S8192x1600.size a)
    (x : (Rect.unit (s := S8192x1600) ![0, off] S8192x64.size inbC).shape.Idx) :
    shapeCast S8192x64 (shapeCast S8192x64
      (C1.view.readCov L (Rect.unit (s := S8x20x68x64) ![0, kh, kw, 0] S8x16x64x64.size inbM).toLoadRect) h2) h3 x
      = View.canon L (xbIdx1 ((Rect.unit (s := S8192x1600) ![0, off] S8192x64.size inbC).emb x)) := by
  have hx0 : (x 0).val < 8192 := (x 0).isLt
  have hx1 : (x 1).val < 64 := (x 1).isLt
  subst hoff
  exact tap1b_apply C1 L kh kw inbM h2 h3 x _
    (by show (0 + 1 * (x 0).val) / 1024 = (x 0).val / 1024; omega)
    (by show ((kh * 5 + kw) * 64 + 1 * (x 1).val) / 320 + (0 + 1 * (x 0).val) / 64 % 16 = kh + (x 0).val / 64 % 16; omega)
    (by show ((kh * 5 + kw) * 64 + 1 * (x 1).val) / 64 % 5 + (0 + 1 * (x 0).val) % 64 = kw + (x 0).val % 64; omega)
    (by show ((kh * 5 + kw) * 64 + 1 * (x 1).val) % 64 = (x 1).val; omega)

set_option maxHeartbeats 4000000 in
/-- Every one of the 25 stored blocks of the patch matrix is a block of that one function. -/
theorem pieces1b (c : Dev nD) (M0 : Memref sig .tc .vmem S8x16x64x32 .bf16) (M1 : Memref sig .tc .vmem S32x64 .bf16) (M2 : Memref sig .tc .vmem S1x64 .f32) (C0 : Memref sig .tc .vmem S8192x32 .bf16)
    (f0 : Bf0 (F := F) c M0) (f1 : Bf0 (F := F) c M1) (f2 : Bf0 (F := F) c M2) (C1 : Memref sig .tc .vmem S8x20x68x64 .bf16) :
    ∀ p ∈ run0.sl.G2_25 c M0 M1 M2 C0 C1 f0 f1 f2, ∀ x : p.1.shape.Idx,
      p.2 x = View.canon (run0.sl.G1_2 c M0 M1 M2 C0 f0 f1 f2) (xbIdx1 (p.1.emb x)) := by
  unfold run0.sl.G2_25
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl
  · intro x; unfold run0.sl.v148 run0.sl.v145 run0.sl.v144
    exact tap1b_piece C1 _ 4 4 1536 (by omega) (by omega) rfl _ _ _ (Rect.inb₂ (by decide) (by decide)) _
  · intro x; unfold run0.sl.v143 run0.sl.v140 run0.sl.v139
    exact tap1b_piece C1 _ 4 3 1472 (by omega) (by omega) rfl _ _ _ (Rect.inb₂ (by decide) (by decide)) _
  · intro x; unfold run0.sl.v138 run0.sl.v135 run0.sl.v134
    exact tap1b_piece C1 _ 4 2 1408 (by omega) (by omega) rfl _ _ _ (Rect.inb₂ (by decide) (by decide)) _
  · intro x; unfold run0.sl.v133 run0.sl.v130 run0.sl.v129
    exact tap1b_piece C1 _ 4 1 1344 (by omega) (by omega) rfl _ _ _ (Rect.inb₂ (by decide) (by decide)) _
  · intro x; unfold run0.sl.v128 run0.sl.v125 run0.sl.v124
    exact tap1b_piece C1 _ 4 0 1280 (by omega) (by omega) rfl _ _ _ (Rect.inb₂ (by decide) (by decide)) _
  · intro x; unfold run0.sl.v123 run0.sl.v120 run0.sl.v119
    exact tap1b_piece C1 _ 3 4 1216 (by omega) (by omega) rfl _ _ _ (Rect.inb₂ (by decide) (by decide)) _
  · intro x; unfold run0.sl.v118 run0.sl.v115 run0.sl.v114
    exact tap1b_piece C1 _ 3 3 1152 (by omega) (by omega) rfl _ _ _ (Rect.inb₂ (by decide) (by decide)) _
  · intro x; unfold run0.sl.v113 run0.sl.v110 run0.sl.v109
    exact tap1b_piece C1 _ 3 2 1088 (by omega) (by omega) rfl _ _ _ (Rect.inb₂ (by decide) (by decide)) _
  · intro x; unfold run0.sl.v108 run0.sl.v105 run0.sl.v104
    exact tap1b_piece C1 _ 3 1 1024 (by omega) (by omega) rfl _ _ _ (Rect.inb₂ (by decide) (by decide)) _
  · intro x; unfold run0.sl.v103 run0.sl.v100 run0.sl.v99
    exact tap1b_piece C1 _ 3 0 960 (by omega) (by omega) rfl _ _ _ (Rect.inb₂ (by decide) (by decide)) _
  · intro x; unfold run0.sl.v98 run0.sl.v95 run0.sl.v94
    exact tap1b_piece C1 _ 2 4 896 (by omega) (by omega) rfl _ _ _ (Rect.inb₂ (by decide) (by decide)) _
  · intro x; unfold run0.sl.v93 run0.sl.v90 run0.sl.v89
    exact tap1b_piece C1 _ 2 3 832 (by omega) (by omega) rfl _ _ _ (Rect.inb₂ (by decide) (by decide)) _
  · intro x; unfold run0.sl.v88 run0.sl.v85 run0.sl.v84
    exact tap1b_piece C1 _ 2 2 768 (by omega) (by omega) rfl _ _ _ (Rect.inb₂ (by decide) (by decide)) _
  · intro x; unfold run0.sl.v83 run0.sl.v80 run0.sl.v79
    exact tap1b_piece C1 _ 2 1 704 (by omega) (by omega) rfl _ _ _ (Rect.inb₂ (by decide) (by decide)) _
  · intro x; unfold run0.sl.v78 run0.sl.v75 run0.sl.v74
    exact tap1b_piece C1 _ 2 0 640 (by omega) (by omega) rfl _ _ _ (Rect.inb₂ (by decide) (by decide)) _
  · intro x; unfold run0.sl.v73 run0.sl.v70 run0.sl.v69
    exact tap1b_piece C1 _ 1 4 576 (by omega) (by omega) rfl _ _ _ (Rect.inb₂ (by decide) (by decide)) _
  · intro x; unfold run0.sl.v68 run0.sl.v65 run0.sl.v64
    exact tap1b_piece C1 _ 1 3 512 (by omega) (by omega) rfl _ _ _ (Rect.inb₂ (by decide) (by decide)) _
  · intro x; unfold run0.sl.v63 run0.sl.v60 run0.sl.v59
    exact tap1b_piece C1 _ 1 2 448 (by omega) (by omega) rfl _ _ _ (Rect.inb₂ (by decide) (by decide)) _
  · intro x; unfold run0.sl.v58 run0.sl.v55 run0.sl.v54
    exact tap1b_piece C1 _ 1 1 384 (by omega) (by omega) rfl _ _ _ (Rect.inb₂ (by decide) (by decide)) _
  · intro x; unfold run0.sl.v53 run0.sl.v50 run0.sl.v49
    exact tap1b_piece C1 _ 1 0 320 (by omega) (by omega) rfl _ _ _ (Rect.inb₂ (by decide) (by decide)) _
  · intro x; unfold run0.sl.v48 run0.sl.v45 run0.sl.v44
    exact tap1b_piece C1 _ 0 4 256 (by omega) (by omega) rfl _ _ _ (Rect.inb₂ (by decide) (by decide)) _
  · intro x; unfold run0.sl.v43 run0.sl.v40 run0.sl.v39
    exact tap1b_piece C1 _ 0 3 192 (by omega) (by omega) rfl _ _ _ (Rect.inb₂ (by decide) (by decide)) _
  · intro x; unfold run0.sl.v38 run0.sl.v35 run0.sl.v34
    exact tap1b_piece C1 _ 0 2 128 (by omega) (by omega) rfl _ _ _ (Rect.inb₂ (by decide) (by decide)) _
  · intro x; unfold run0.sl.v33 run0.sl.v30 run0.sl.v29
    exact tap1b_piece C1 _ 0 1 64 (by omega) (by omega) rfl _ _ _ (Rect.inb₂ (by decide) (by decide)) _
  · intro x; unfold run0.sl.v28 run0.sl.v25 run0.sl.v24
    exact tap1b_piece C1 _ 0 0 0 (by omega) (by omega) rfl _ _ _ (Rect.inb₂ (by decide) (by decide)) _

/-- The 25 blocks tile the patch matrix. -/
theorem cover1b (c : Dev nD) (M0 : Memref sig .tc .vmem S8x16x64x32 .bf16) (M1 : Memref sig .tc .vmem S32x64 .bf16) (M2 : Memref sig .tc .vmem S1x64 .f32) (C0 : Memref sig .tc .vmem S8192x32 .bf16)
    (f0 : Bf0 (F := F) c M0) (f1 : Bf0 (F := F) c M1) (f2 : Bf0 (F := F) c M2) (C1 : Memref sig .tc .vmem S8x20x68x64 .bf16) (y : S8192x1600.Idx) :
    ∃ p ∈ run0.sl.G2_25 c M0 M1 M2 C0 C1 f0 f1 f2, y ∈ p.1.set :=
  View.cover_of_tiledL (run0.sl.G2_25 c M0 M1 M2 C0 C1 f0 f1 f2) S8192x64.size (by sl_kernel_rfl) y

/-- THE PATCH MATRIX READ AT AN INDEX: at (p, t) it is the padded intermediate at
    (p / 1024, t / 320 + p / 64 % 16, t / 64 % 5 + p % 64, t % 64). -/
theorem patch1b_apply (c : Dev nD) (M0 : Memref sig .tc .vmem S8x16x64x32 .bf16) (M1 : Memref sig .tc .vmem S32x64 .bf16) (M2 : Memref sig .tc .vmem S1x64 .f32) (C0 : Memref sig .tc .vmem S8192x32 .bf16)
    (f0 : Bf0 (F := F) c M0) (f1 : Bf0 (F := F) c M1) (f2 : Bf0 (F := F) c M2) (C1 : Memref sig .tc .vmem S8x20x68x64 .bf16) (C2 : Memref sig .tc .vmem S8192x1600 .bf16)
    (y : S8192x1600.Idx) :
    run0.sl.v149 c M0 M1 M2 C0 C1 C2 f0 f1 f2 y = ypadG1 c M0 M1 M2 C0 f0 f1 f2 (xbIdx1 y) := by
  unfold run0.sl.v149
  rw [View.readCov_eq_canon_ld _ _ _ (cover1b c M0 M1 M2 C0 f0 f1 f2 C1), View.ld_unit_zero hz2_1b]
  exact (View.canon_apply_of_pieces (fun y => View.canon (run0.sl.G1_2 c M0 M1 M2 C0 f0 f1 f2) (xbIdx1 y)) _
    (pieces1b c M0 M1 M2 C0 f0 f1 f2 C1) y (cover1b c M0 M1 M2 C0 f0 f1 f2 C1 y)).trans (ypad1_apply c M0 M1 M2 C0 f0 f1 f2 _)

/-! ## The product, the bias, the rectifier, at the ideal values -/

/-- The contraction index of the patch-matrix product is its one coordinate, below 1600. -/
abbrev ctr1b : (dot_S8192x1600_S1600x64_S8192x64_1_0_0_1_n_n).contr.Idx ≃ Fin 1600 :=
  contrEquiv1 dot_S8192x1600_S1600x64_S8192x64_1_0_0_1_n_n 1600 rfl rfl

/-- THE PRODUCT READ AT AN INDEX, at the ideal values: the sum over the flattened (row tap, column tap, channel)
    index t of the padded intermediate at the shifted index times the weight at (t, co). -/
theorem conv1b_sum_apply (c : Dev nD) (M0 : Memref sig .tc .vmem S8x16x64x32 .bf16) (M1 : Memref sig .tc .vmem S32x64 .bf16) (M2 : Memref sig .tc .vmem S1x64 .f32) (C0 : Memref sig .tc .vmem S8192x32 .bf16)
    (M3 : Memref sig .tc .vmem S1600x64 .bf16) (C1 : Memref sig .tc .vmem S8x20x68x64 .bf16) (C2 : Memref sig .tc .vmem S8192x1600 .bf16)
    (f0 : Bf0 (F := Ideal) c M0) (f1 : Bf0 (F := Ideal) c M1) (f2 : Bf0 (F := Ideal) c M2) (f3 : Bf0 (F := Ideal) c M3) (j : S8192x64.Idx) :
    run0.sl.v151 (F := Ideal) c M0 M1 M2 M3 C0 C1 C2 f0 f1 f2 f3 j
      = ∑ t : Fin 1600, ypadG1 (F := Ideal) c M0 M1 M2 C0 f0 f1 f2 (xbIdx1 (ix2 (j 0) t)) * M3.view.read (Elt Ideal) f3 (ix2 t (j 1)) := by
  unfold run0.sl.v151 run0.sl.cst
  simp only [matmul]
  rw [Ideal.matmul_constant_zero_apply]
  rw [← Equiv.sum_comp ctr1b
        (fun t : Fin 1600 => ypadG1 (F := Ideal) c M0 M1 M2 C0 f0 f1 f2 (xbIdx1 (ix2 (j 0) t)) * M3.view.read (Elt Ideal) f3 (ix2 t (j 1)))]
  refine Finset.sum_congr rfl fun k _ => ?_
  rw [patch1b_apply, View.readAt_apply]
  refine congrArg₂ (· * ·) (congrArg _ (congrArg xbIdx1 ?_)) (congrArg _ ?_)
  · funext a
    match a with
    | ⟨0, _⟩ => exact Fin.ext rfl
    | ⟨1, _⟩ => exact Fin.ext rfl
  · funext a
    match a with
    | ⟨0, _⟩ => exact Fin.ext (by show 0 + 1 * _ = _; rw [Nat.zero_add, Nat.one_mul]; rfl)
    | ⟨1, _⟩ => exact Fin.ext (by show 0 + 1 * _ = _; rw [Nat.zero_add, Nat.one_mul]; rfl)

/-- The bias row broadcast to [8192, 64] reads the bias at the column. -/
theorem bias1b_apply (c : Dev nD) (M4 : Memref sig .tc .vmem S1x64 .f32) (f4 : Bf0 (F := F) c M4) (j : S8192x64.Idx) :
    run0.sl.v154 c M4 f4 j = M4.view.read (Elt F) f4 (ix2 (0 : Fin 1) (j 1)) := by
  unfold run0.sl.v154
  refine (broadcastTo_apply _ _ j (ix2 (0 : Fin 1) (j 1)) (fun a => match a with | ⟨0, _⟩ => rfl | ⟨1, _⟩ => rfl)).trans ?_
  unfold run0.sl.v153
  rw [shapeCast_self, View.readAt_eq_ld, View.ld_unit_zero (S := S1x64) hz2_1b]
  rfl

/-- THE SECOND CONVOLUTION'S RESULT at (p, co), at the ideal values: the rectifier of the sum plus the bias. -/
theorem yb1_apply (c : Dev nD) (M0 : Memref sig .tc .vmem S8x16x64x32 .bf16) (M1 : Memref sig .tc .vmem S32x64 .bf16) (M2 : Memref sig .tc .vmem S1x64 .f32)
    (M3 : Memref sig .tc .vmem S1600x64 .bf16) (M4 : Memref sig .tc .vmem S1x64 .f32)
    (C0 : Memref sig .tc .vmem S8192x32 .bf16) (C1 : Memref sig .tc .vmem S8x20x68x64 .bf16) (C2 : Memref sig .tc .vmem S8192x1600 .bf16)
    (f0 : Bf0 (F := Ideal) c M0) (f1 : Bf0 (F := Ideal) c M1) (f2 : Bf0 (F := Ideal) c M2) (f3 : Bf0 (F := Ideal) c M3) (f4 : Bf0 (F := Ideal) c M4) (j : S8192x64.Idx) :
    run0.sl.v157 (F := Ideal) c M0 M1 M2 M3 M4 C0 C1 C2 f0 f1 f2 f3 f4 j
      = max ((∑ t : Fin 1600, ypadG1 (F := Ideal) c M0 M1 M2 C0 f0 f1 f2 (xbIdx1 (ix2 (j 0) t)) * M3.view.read (Elt Ideal) f3 (ix2 t (j 1)))
              + M4.view.read (Elt Ideal) f4 (ix2 (0 : Fin 1) (j 1))) 0 := by
  unfold run0.sl.v157 run0.sl.v155 run0.sl.v13 run0.sl.cst_11
  rw [maximumf_apply, addf_apply, broadcast_apply, conv1b_sum_apply, bias1b_apply]
  show max _ (Ideal.ofBits .f32 0x00000000#32) = _
  rw [Ideal.ofBits_zero_f32]

/-- The padded intermediate of image b and the weight's column co at plain natural-number indices (zero outside the
    arrays). -/
def ypN1 (c : Dev nD) (M0 : Memref sig .tc .vmem S8x16x64x32 .bf16) (M1 : Memref sig .tc .vmem S32x64 .bf16) (M2 : Memref sig .tc .vmem S1x64 .f32) (C0 : Memref sig .tc .vmem S8192x32 .bf16)
    (f0 : Bf0 (F := Ideal) c M0) (f1 : Bf0 (F := Ideal) c M1) (f2 : Bf0 (F := Ideal) c M2) (b : ℕ) : ℕ → ℕ → ℕ → EReal :=
  fun r s ci => if h : b < 8 ∧ r < 20 ∧ s < 68 ∧ ci < 64
    then ypadG1 (F := Ideal) c M0 M1 M2 C0 f0 f1 f2 (ix4 ⟨b, h.1⟩ ⟨r, h.2.1⟩ ⟨s, h.2.2.1⟩ ⟨ci, h.2.2.2⟩) else 0
def wbN1 (c : Dev nD) (M3 : Memref sig .tc .vmem S1600x64 .bf16) (f3 : Bf0 (F := Ideal) c M3) (co : ℕ) : ℕ → EReal :=
  fun t => if h : t < 1600 ∧ co < 64 then M3.view.read (Elt Ideal) f3 (ix2 ⟨t, h.1⟩ ⟨co, h.2⟩) else 0

theorem ypN1_eq (c : Dev nD) (M0 : Memref sig .tc .vmem S8x16x64x32 .bf16) (M1 : Memref sig .tc .vmem S32x64 .bf16) (M2 : Memref sig .tc .vmem S1x64 .f32) (C0 : Memref sig .tc .vmem S8192x32 .bf16)
    (f0 : Bf0 (F := Ideal) c M0) (f1 : Bf0 (F := Ideal) c M1) (f2 : Bf0 (F := Ideal) c M2) (b r s ci : ℕ)
    (h0 : b < 8) (h1 : r < 20) (h2 : s < 68) (h3 : ci < 64) :
    ypN1 c M0 M1 M2 C0 f0 f1 f2 b r s ci = ypadG1 (F := Ideal) c M0 M1 M2 C0 f0 f1 f2 (ix4 ⟨b, h0⟩ ⟨r, h1⟩ ⟨s, h2⟩ ⟨ci, h3⟩) := by
  unfold ypN1; exact dif_pos ⟨h0, h1, h2, h3⟩
theorem wbN1_eq (c : Dev nD) (M3 : Memref sig .tc .vmem S1600x64 .bf16) (f3 : Bf0 (F := Ideal) c M3) (co t : ℕ)
    (h0 : t < 1600) (h1 : co < 64) :
    wbN1 c M3 f3 co t = M3.view.read (Elt Ideal) f3 (ix2 ⟨t, h0⟩ ⟨co, h1⟩) := by
  unfold wbN1; exact dif_pos ⟨h0, h1⟩

/-- The same in the convolution law's form. -/
theorem yb1_convFull (c : Dev nD) (M0 : Memref sig .tc .vmem S8x16x64x32 .bf16) (M1 : Memref sig .tc .vmem S32x64 .bf16) (M2 : Memref sig .tc .vmem S1x64 .f32)
    (M3 : Memref sig .tc .vmem S1600x64 .bf16) (M4 : Memref sig .tc .vmem S1x64 .f32)
    (C0 : Memref sig .tc .vmem S8192x32 .bf16) (C1 : Memref sig .tc .vmem S8x20x68x64 .bf16) (C2 : Memref sig .tc .vmem S8192x1600 .bf16)
    (f0 : Bf0 (F := Ideal) c M0) (f1 : Bf0 (F := Ideal) c M1) (f2 : Bf0 (F := Ideal) c M2) (f3 : Bf0 (F := Ideal) c M3) (f4 : Bf0 (F := Ideal) c M4) (j : S8192x64.Idx) :
    run0.sl.v157 (F := Ideal) c M0 M1 M2 M3 M4 C0 C1 C2 f0 f1 f2 f3 f4 j
      = max (TapSum.convFull 5 5 64 (ypN1 c M0 M1 M2 C0 f0 f1 f2 ((j 0).val / 1024)) (wbN1 c M3 f3 (j 1).val) ((j 0).val / 64 % 16) ((j 0).val % 64)
              + M4.view.read (Elt Ideal) f4 (ix2 (0 : Fin 1) (j 1))) 0 := by
  have hp : (j 0).val < 8192 := idx2_lt0 j
  have hco : (j 1).val < 64 := idx2_lt1 j
  rw [yb1_apply]
  unfold TapSum.convFull
  show max (_ + _) 0 = max ((∑ t ∈ Finset.range 1600,
      ypN1 c M0 M1 M2 C0 f0 f1 f2 ((j 0).val / 1024) ((j 0).val / 64 % 16 + t / 320) ((j 0).val % 64 + t / 64 % 5) (t % 64) * wbN1 c M3 f3 (j 1).val t) + _) 0
  rw [← Fin.sum_univ_eq_sum_range (fun t =>
      ypN1 c M0 M1 M2 C0 f0 f1 f2 ((j 0).val / 1024) ((j 0).val / 64 % 16 + t / 320) ((j 0).val % 64 + t / 64 % 5) (t % 64) * wbN1 c M3 f3 (j 1).val t) 1600]
  refine congrArg (fun s => max (s + _) 0) (Finset.sum_congr rfl fun t _ => ?_)
  have ht : t.val < 1600 := t.isLt
  show _ = ypN1 c M0 M1 M2 C0 f0 f1 f2 ((j 0).val / 1024) ((j 0).val / 64 % 16 + t.val / 320) ((j 0).val % 64 + t.val / 64 % 5) (t.val % 64) * wbN1 c M3 f3 (j 1).val t.val
  rw [ypN1_eq c M0 M1 M2 C0 f0 f1 f2 _ _ _ _ (by omega) (by omega) (by omega) (Nat.mod_lt _ (by decide)), wbN1_eq c M3 f3 _ _ ht hco]
  refine congrArg₂ (· * ·) (congrArg _ (funext fun a => ?_)) (congrArg _ (funext fun a => ?_))
  · match a with
    | ⟨0, _⟩ => exact Fin.ext rfl
    | ⟨1, _⟩ => exact Fin.ext (Nat.add_comm _ _)
    | ⟨2, _⟩ => exact Fin.ext (Nat.add_comm _ _)
    | ⟨3, _⟩ => exact Fin.ext rfl
  · match a with
    | ⟨0, _⟩ => exact Fin.ext rfl
    | ⟨1, _⟩ => exact Fin.ext rfl

/-! ## The pool and the witness -/

/-- THE POOLED OUTPUT BLOCK at the ideal values: at (b, h, xo, co) the fold of max, from the reduction's initial value
    (the pattern of minus infinity), over x < 4 of the second convolution's result at row
    ((b * 16 + h) * 16 + xo) * 4 + x. -/
theorem out1_apply (c : Dev nD) (M0 : Memref sig .tc .vmem S8x16x64x32 .bf16) (M1 : Memref sig .tc .vmem S32x64 .bf16) (M2 : Memref sig .tc .vmem S1x64 .f32)
    (M3 : Memref sig .tc .vmem S1600x64 .bf16) (M4 : Memref sig .tc .vmem S1x64 .f32)
    (C0 : Memref sig .tc .vmem S8192x32 .bf16) (C1 : Memref sig .tc .vmem S8x20x68x64 .bf16) (C2 : Memref sig .tc .vmem S8192x1600 .bf16)
    (f0 : Bf0 (F := Ideal) c M0) (f1 : Bf0 (F := Ideal) c M1) (f2 : Bf0 (F := Ideal) c M2) (f3 : Bf0 (F := Ideal) c M3) (f4 : Bf0 (F := Ideal) c M4) (i : S8x16x16x64.Idx) :
    run0.sl.v161 (F := Ideal) c M0 M1 M2 M3 M4 C0 C1 C2 f0 f1 f2 f3 f4 i
      = (Finset.univ : Finset (Fin 4)).fold max (Ideal.ofBits .f32 0xFF800000#32)
          (fun x : Fin 4 => run0.sl.v157 (F := Ideal) c M0 M1 M2 M3 M4 C0 C1 C2 f0 f1 f2 f3 f4
            (ix2 ⟨(((i 0).val * 16 + (i 1).val) * 16 + (i 2).val) * 4 + x.val, by have h0 : (i 0).val < 8 := (i 0).isLt; have h1 : (i 1).val < 16 := (i 1).isLt; have h2 : (i 2).val < 16 := (i 2).isLt; have := x.isLt; omega⟩ ⟨(i 3).val, (i 3).isLt⟩)) := by
  have h0 : (i 0).val < 8 := (i 0).isLt
  have h1 : (i 1).val < 16 := (i 1).isLt
  have h2 : (i 2).val < 16 := (i 2).isLt
  have h3 : (i 3).val < 64 := (i 3).isLt
  unfold run0.sl.v161
  rw [truncf_apply]
  unfold run0.sl.v160
  refine (shapeCast_apply _ _ i (ix2 ⟨((i 0).val * 16 + (i 1).val) * 16 + (i 2).val, by omega⟩ ⟨(i 3).val, h3⟩) (by
      rw [Shape.rowMajor_val_two, Shape.rowMajor_val_four]
      show (((i 0).val * 16 + (i 1).val) * 16 + (i 2).val) * 64 + (i 3).val = (((i 0).val * 16 + (i 1).val) * 16 + (i 2).val) * 64 + (i 3).val
      rfl)).trans ?_
  unfold run0.sl.v159
  refine (Ideal.multiReduction_maximumf_single _ _ _ _ _ _).trans ?_
  refine Finset.fold_congr fun x _ => ?_
  show run0.sl.v158 (F := Ideal) c M0 M1 M2 M3 M4 C0 C1 C2 f0 f1 f2 f3 f4 _ = _
  unfold run0.sl.v158
  exact shapeCast_apply _ _ _ _ (by
    rw [Shape.rowMajor_val_two, Shape.rowMajor_val_three]
    show ((((i 0).val * 16 + (i 1).val) * 16 + (i 2).val) * 4 + x.val) * 64 + (i 3).val = ((((i 0).val * 16 + (i 1).val) * 16 + (i 2).val) * 4 + x.val) * 64 + (i 3).val
    rfl)

/-- The same with each pooled entry in the convolution law's form: output column 4 * xo + x of row h of image b. -/
theorem out1_closed (c : Dev nD) (M0 : Memref sig .tc .vmem S8x16x64x32 .bf16) (M1 : Memref sig .tc .vmem S32x64 .bf16) (M2 : Memref sig .tc .vmem S1x64 .f32)
    (M3 : Memref sig .tc .vmem S1600x64 .bf16) (M4 : Memref sig .tc .vmem S1x64 .f32)
    (C0 : Memref sig .tc .vmem S8192x32 .bf16) (C1 : Memref sig .tc .vmem S8x20x68x64 .bf16) (C2 : Memref sig .tc .vmem S8192x1600 .bf16)
    (f0 : Bf0 (F := Ideal) c M0) (f1 : Bf0 (F := Ideal) c M1) (f2 : Bf0 (F := Ideal) c M2) (f3 : Bf0 (F := Ideal) c M3) (f4 : Bf0 (F := Ideal) c M4) (i : S8x16x16x64.Idx) :
    run0.sl.v161 (F := Ideal) c M0 M1 M2 M3 M4 C0 C1 C2 f0 f1 f2 f3 f4 i
      = (Finset.univ : Finset (Fin 4)).fold max (Ideal.ofBits .f32 0xFF800000#32)
          (fun x : Fin 4 => max (TapSum.convFull 5 5 64 (ypN1 c M0 M1 M2 C0 f0 f1 f2 (i 0).val) (wbN1 c M3 f3 (i 3).val) (i 1).val ((i 2).val * 4 + x.val)
              + M4.view.read (Elt Ideal) f4 (ix2 (0 : Fin 1) (i 3))) 0) := by
  have h0 : (i 0).val < 8 := (i 0).isLt
  have h1 : (i 1).val < 16 := (i 1).isLt
  have h2 : (i 2).val < 16 := (i 2).isLt
  rw [out1_apply]
  refine Finset.fold_congr fun x _ => ?_
  have hx : x.val < 4 := x.isLt
  have e0 : ((((i 0).val * 16 + (i 1).val) * 16 + (i 2).val) * 4 + x.val) / 1024 = (i 0).val := by omega
  have e1 : ((((i 0).val * 16 + (i 1).val) * 16 + (i 2).val) * 4 + x.val) / 64 % 16 = (i 1).val := by omega
  have e2 : ((((i 0).val * 16 + (i 1).val) * 16 + (i 2).val) * 4 + x.val) % 64 = (i 2).val * 4 + x.val := by omega
  rw [yb1_convFull]
  show max (TapSum.convFull 5 5 64 (ypN1 c M0 M1 M2 C0 f0 f1 f2 (((((i 0).val * 16 + (i 1).val) * 16 + (i 2).val) * 4 + x.val) / 1024)) (wbN1 c M3 f3 (i 3).val)
      (((((i 0).val * 16 + (i 1).val) * 16 + (i 2).val) * 4 + x.val) / 64 % 16) (((((i 0).val * 16 + (i 1).val) * 16 + (i 2).val) * 4 + x.val) % 64) + M4.view.read (Elt Ideal) f4 (ix2 (0 : Fin 1) (i 3))) 0 = _
  rw [e0, e1, e2]

/-- THE REGION'S WITNESS read back through the output's view is the pooled block, at any values. -/
theorem readW0 (c : Dev nD) (i : grid0.Coords) (M0 : Memref sig .tc .vmem S8x16x64x32 .bf16) (h0 : M0.IsWhole) (M1 : Memref sig .tc .vmem S32x64 .bf16) (h1 : M1.IsWhole) (M2 : Memref sig .tc .vmem S1x64 .f32) (h2 : M2.IsWhole) (M3 : Memref sig .tc .vmem S1600x64 .bf16) (h3 : M3.IsWhole) (M4 : Memref sig .tc .vmem S1x64 .f32) (h4 : M4.IsWhole) (M5 : Memref sig .tc .vmem S8x16x16x64 .bf16) (h5 : M5.IsWhole) (C0 : Memref sig .tc .vmem S8192x32 .bf16) (g0 : C0.IsWhole) (C1 : Memref sig .tc .vmem S8x20x68x64 .bf16) (g1 : C1.IsWhole) (C2 : Memref sig .tc .vmem S8192x1600 .bf16) (g2 : C2.IsWhole)
    (f0 : Bf0 (F := F) c M0) (f1 : Bf0 (F := F) c M1) (f2 : Bf0 (F := F) c M2) (f3 : Bf0 (F := F) c M3) (f4 : Bf0 (F := F) c M4) :
    M5.view.read (Elt F) (run0 c i M0 h0 M1 h1 M2 h2 M3 h3 M4 h4 M5 h5 C0 g0 C1 g1 C2 g2 f0 f1 f2 f3 f4).1
      = run0.sl.v161 c M0 M1 M2 M3 M4 C0 C1 C2 f0 f1 f2 f3 f4 := by
  unfold run0
  dsimp only
  rw [View.read_writes_junk_eq_canon]
  unfold run0.sl.H5_1
  rw [View.canon_unit_zero hz4_1b]

/-- THE REGION'S WITNESS IN CLOSED FORM over the named input, at the ideal values: what the run leaves in the output
    block, read at (b, h, xo, co), is the fold of max over x < 4 of the second convolution's rectified result at output
    position (h, 4 * xo + x) of image b and channel co. -/
theorem witness0_closed (c : Dev nD) (i : grid0.Coords) (M0 : Memref sig .tc .vmem S8x16x64x32 .bf16) (h0 : M0.IsWhole) (M1 : Memref sig .tc .vmem S32x64 .bf16) (h1 : M1.IsWhole) (M2 : Memref sig .tc .vmem S1x64 .f32) (h2 : M2.IsWhole) (M3 : Memref sig .tc .vmem S1600x64 .bf16) (h3 : M3.IsWhole) (M4 : Memref sig .tc .vmem S1x64 .f32) (h4 : M4.IsWhole) (M5 : Memref sig .tc .vmem S8x16x16x64 .bf16) (h5 : M5.IsWhole) (C0 : Memref sig .tc .vmem S8192x32 .bf16) (g0 : C0.IsWhole) (C1 : Memref sig .tc .vmem S8x20x68x64 .bf16) (g1 : C1.IsWhole) (C2 : Memref sig .tc .vmem S8192x1600 .bf16) (g2 : C2.IsWhole)
    (f0 : Bf0 (F := Ideal) c M0) (f1 : Bf0 (F := Ideal) c M1) (f2 : Bf0 (F := Ideal) c M2) (f3 : Bf0 (F := Ideal) c M3) (f4 : Bf0 (F := Ideal) c M4)
    (y : S8x16x16x64.Idx) :
    M5.view.read (Elt Ideal) (run0 (F := Ideal) c i M0 h0 M1 h1 M2 h2 M3 h3 M4 h4 M5 h5 C0 g0 C1 g1 C2 g2 f0 f1 f2 f3 f4).1 y
      = (Finset.univ : Finset (Fin 4)).fold max (Ideal.ofBits .f32 0xFF800000#32)
          (fun x : Fin 4 => max (TapSum.convFull 5 5 64 (ypN1 c M0 M1 M2 C0 f0 f1 f2 (y 0).val) (wbN1 c M3 f3 (y 3).val) (y 1).val ((y 2).val * 4 + x.val)
              + M4.view.read (Elt Ideal) f4 (ix2 (0 : Fin 1) (y 3))) 0) :=
  (congrFun (readW0 c i M0 h0 M1 h1 M2 h2 M3 h3 M4 h4 M5 h5 C0 g0 C1 g1 C2 g2 f0 f1 f2 f3 f4) y).trans
    (out1_closed c M0 M1 M2 M3 M4 C0 C1 C2 f0 f1 f2 f3 f4 y)

end Cert.ReferenceIdeal.Hand

end
-- ==== Proof.RefStage12Arrays.lean ====
/-
  The reference's first two stages: the arrays around their regions.

  Regions 0 and 1 have one grid point each and whole-array windows.  So the output array after the region is the
  block the body leaves at that point, read back (`o0_eq`, `o1_eq`), and each input block the body is given is the
  whole input array the region finds (`blk0_0_eq` … `blk1_4_eq`).  Region 0 finds its two weights as launched and its
  two bias rows as the launched biases viewed as one row (`entry0_arg1` … `entry0_v57_at`); its first input array is the
  host's gathering of the 32 input planes, taken here as it stands.  Region 1's entry arrays are described with the
  host's padding steps elsewhere.
-/
import proofs.«147627_g2000402439390779_pallasbulk_891_17_alg».proof.Proof.ReferenceIdealFrame
import proofs.«147627_g2000402439390779_pallasbulk_891_17_alg».proof.Proof.RefHostPads
import Idealize.ShloMosaic.Lib.Pipeline.Value
import Idealize.ShloMosaic.Lib.ValueIdx

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [Cert.ReferenceIdeal.Facts]

section Block
variable (V : (c : Dev nD) → (b : Ref sig .tc) → Buf (Elt F) ((c : Thread nD τ).loc b))

/-! ## Region 0: one grid point, whole-array windows -/

/-- What region 0's body leaves in its output block at the region's one grid point, as contents of the array
    `main_v58`: the window's block is the whole array. -/
abbrev resBlock0 (c : Dev nD) : Buf (Elt F) ((c : Thread nD τ).loc main_v58) :=
  (win0_5.stage (cfg0.slots t0_0 5)).view.read (Elt F) (K0 V c).1

/-- The output window's block at the one point starts at the array's origin on every axis. -/
theorem hz_res0 : (fun a => win0_5.index t0_0 a * main_v58.ty.shape.size a) = fun _ => 0 :=
  funext fun a => by fin_cases a <;> decide

/-- What the one write-back writes is that block. -/
theorem flushed_res0 (c : Dev nD) (t : Fin cfg0.N) (hf : (cfg0.win 5).flush t = true) :
    (dat0 V c).flushed 5 t = ((cfg0.win 5).blk t).view.read (Elt F) (resBlock0 V c) := by
  obtain rfl := fin_N0 t
  show (cfg0.win 5).cut (grid0.coords t0_0) ((dat0 V c).after 5 t0_0) = _
  rw [after0_5]
  exact (Memref.read_access_unit_zero (Elt F) main_v58 hz_res0 (fun a => by rw [congrFun hz_res0 a]; simp) (resBlock0 V c)).symm

/-- So the region leaves its output array holding that block: the one point's block covers the array. -/
theorem arrAt_res0 (c : Dev nD) : (dat0 V c).arrAt 5 cfg0.N = resBlock0 V c :=
  (dat0 V c).arrAt_eq_of_cover 5 (resBlock0 V c) (flushed_res0 V c) fun (i : S8x16x16x64.Idx) =>
    ⟨t0_0, flush0_5 t0_0, by
      show i ∈ ((View.whole main_v58).slice (win0_5.rect t0_0)).set
      rw [View.set_slice_whole]
      refine Rect.mem_set_unit.mpr fun a => ?_
      have h0 : (i 0 : Nat) < 8 := (i 0).isLt
      have h1 : (i 1 : Nat) < 16 := (i 1).isLt
      have h2 : (i 2 : Nat) < 16 := (i 2).isLt
      have h3 : (i 3 : Nat) < 64 := (i 3).isLt
      match a with
      | ⟨0, _⟩ =>
        show win0_5.index t0_0 0 * win0_5.size 0 ≤ (i 0 : Nat) ∧ (i 0 : Nat) < win0_5.index t0_0 0 * win0_5.size 0 + win0_5.xsize (grid0.coords t0_0) 0
        rw [show win0_5.index t0_0 0 * win0_5.size 0 = 0 from by decide +kernel, show win0_5.xsize (grid0.coords t0_0) 0 = 8 from by decide +kernel]; omega
      | ⟨1, _⟩ =>
        show win0_5.index t0_0 1 * win0_5.size 1 ≤ (i 1 : Nat) ∧ (i 1 : Nat) < win0_5.index t0_0 1 * win0_5.size 1 + win0_5.xsize (grid0.coords t0_0) 1
        rw [show win0_5.index t0_0 1 * win0_5.size 1 = 0 from by decide +kernel, show win0_5.xsize (grid0.coords t0_0) 1 = 16 from by decide +kernel]; omega
      | ⟨2, _⟩ =>
        show win0_5.index t0_0 2 * win0_5.size 2 ≤ (i 2 : Nat) ∧ (i 2 : Nat) < win0_5.index t0_0 2 * win0_5.size 2 + win0_5.xsize (grid0.coords t0_0) 2
        rw [show win0_5.index t0_0 2 * win0_5.size 2 = 0 from by decide +kernel, show win0_5.xsize (grid0.coords t0_0) 2 = 16 from by decide +kernel]; omega
      | ⟨3, _⟩ =>
        show win0_5.index t0_0 3 * win0_5.size 3 ≤ (i 3 : Nat) ∧ (i 3 : Nat) < win0_5.index t0_0 3 * win0_5.size 3 + win0_5.xsize (grid0.coords t0_0) 3
        rw [show win0_5.index t0_0 3 * win0_5.size 3 = 0 from by decide +kernel, show win0_5.xsize (grid0.coords t0_0) 3 = 64 from by decide +kernel]; omega⟩

theorem hzw0_0 : (fun a => win0_0.index t0_0 a * (Pipeline.arrRef spec0 0).ty.shape.size a) = fun _ => 0 :=
  funext fun a => by fin_cases a <;> decide
/-- Input window 0's block at the one point is its whole array `main_v55`. -/
theorem blk0_0_eq (c : Dev nD) : blk0_0 V c = (V c main_v55 : S8x16x64x32.Idx → Elt F .bf16) :=
  Memref.read_access_unit_zero (Elt F) (Pipeline.arrRef spec0 0) hzw0_0 (fun a => by rw [congrFun hzw0_0 a]; simp) (V c (Pipeline.arrRef spec0 0))

theorem hzw0_1 : (fun a => win0_1.index t0_0 a * (Pipeline.arrRef spec0 1).ty.shape.size a) = fun _ => 0 :=
  funext fun a => by fin_cases a <;> decide
/-- Input window 1's block at the one point is its whole array `main_arg1`. -/
theorem blk0_1_eq (c : Dev nD) : blk0_1 V c = (V c main_arg1 : S32x64.Idx → Elt F .bf16) :=
  Memref.read_access_unit_zero (Elt F) (Pipeline.arrRef spec0 1) hzw0_1 (fun a => by rw [congrFun hzw0_1 a]; simp) (V c (Pipeline.arrRef spec0 1))

theorem hzw0_2 : (fun a => win0_2.index t0_0 a * (Pipeline.arrRef spec0 2).ty.shape.size a) = fun _ => 0 :=
  funext fun a => by fin_cases a <;> decide
/-- Input window 2's block at the one point is its whole array `main_v56`. -/
theorem blk0_2_eq (c : Dev nD) : blk0_2 V c = (V c main_v56 : S1x64.Idx → Elt F .f32) :=
  Memref.read_access_unit_zero (Elt F) (Pipeline.arrRef spec0 2) hzw0_2 (fun a => by rw [congrFun hzw0_2 a]; simp) (V c (Pipeline.arrRef spec0 2))

theorem hzw0_3 : (fun a => win0_3.index t0_0 a * (Pipeline.arrRef spec0 3).ty.shape.size a) = fun _ => 0 :=
  funext fun a => by fin_cases a <;> decide
/-- Input window 3's block at the one point is its whole array `main_arg3`. -/
theorem blk0_3_eq (c : Dev nD) : blk0_3 V c = (V c main_arg3 : S1600x64.Idx → Elt F .bf16) :=
  Memref.read_access_unit_zero (Elt F) (Pipeline.arrRef spec0 3) hzw0_3 (fun a => by rw [congrFun hzw0_3 a]; simp) (V c (Pipeline.arrRef spec0 3))

theorem hzw0_4 : (fun a => win0_4.index t0_0 a * (Pipeline.arrRef spec0 4).ty.shape.size a) = fun _ => 0 :=
  funext fun a => by fin_cases a <;> decide
/-- Input window 4's block at the one point is its whole array `main_v57`. -/
theorem blk0_4_eq (c : Dev nD) : blk0_4 V c = (V c main_v57 : S1x64.Idx → Elt F .f32) :=
  Memref.read_access_unit_zero (Elt F) (Pipeline.arrRef spec0 4) hzw0_4 (fun a => by rw [congrFun hzw0_4 a]; simp) (V c (Pipeline.arrRef spec0 4))

/-! ## Region 1: one grid point, whole-array windows -/

/-- What region 1's body leaves in its output block at the region's one grid point, as contents of the array
    `main_v62`: the window's block is the whole array. -/
abbrev resBlock1 (c : Dev nD) : Buf (Elt F) ((c : Thread nD τ).loc main_v62) :=
  (win1_5.stage (cfg1.slots t1_0 5)).view.read (Elt F) (K1 V c).1

/-- The output window's block at the one point starts at the array's origin on every axis. -/
theorem hz_res1 : (fun a => win1_5.index t1_0 a * main_v62.ty.shape.size a) = fun _ => 0 :=
  funext fun a => by fin_cases a <;> decide

/-- What the one write-back writes is that block. -/
theorem flushed_res1 (c : Dev nD) (t : Fin cfg1.N) (hf : (cfg1.win 5).flush t = true) :
    (dat1 V c).flushed 5 t = ((cfg1.win 5).blk t).view.read (Elt F) (resBlock1 V c) := by
  obtain rfl := fin_N1 t
  show (cfg1.win 5).cut (grid1.coords t1_0) ((dat1 V c).after 5 t1_0) = _
  rw [after1_5]
  exact (Memref.read_access_unit_zero (Elt F) main_v62 hz_res1 (fun a => by rw [congrFun hz_res1 a]; simp) (resBlock1 V c)).symm

/-- So the region leaves its output array holding that block: the one point's block covers the array. -/
theorem arrAt_res1 (c : Dev nD) : (dat1 V c).arrAt 5 cfg1.N = resBlock1 V c :=
  (dat1 V c).arrAt_eq_of_cover 5 (resBlock1 V c) (flushed_res1 V c) fun (i : S8x16x4x128.Idx) =>
    ⟨t1_0, flush1_5 t1_0, by
      show i ∈ ((View.whole main_v62).slice (win1_5.rect t1_0)).set
      rw [View.set_slice_whole]
      refine Rect.mem_set_unit.mpr fun a => ?_
      have h0 : (i 0 : Nat) < 8 := (i 0).isLt
      have h1 : (i 1 : Nat) < 16 := (i 1).isLt
      have h2 : (i 2 : Nat) < 4 := (i 2).isLt
      have h3 : (i 3 : Nat) < 128 := (i 3).isLt
      match a with
      | ⟨0, _⟩ =>
        show win1_5.index t1_0 0 * win1_5.size 0 ≤ (i 0 : Nat) ∧ (i 0 : Nat) < win1_5.index t1_0 0 * win1_5.size 0 + win1_5.xsize (grid1.coords t1_0) 0
        rw [show win1_5.index t1_0 0 * win1_5.size 0 = 0 from by decide +kernel, show win1_5.xsize (grid1.coords t1_0) 0 = 8 from by decide +kernel]; omega
      | ⟨1, _⟩ =>
        show win1_5.index t1_0 1 * win1_5.size 1 ≤ (i 1 : Nat) ∧ (i 1 : Nat) < win1_5.index t1_0 1 * win1_5.size 1 + win1_5.xsize (grid1.coords t1_0) 1
        rw [show win1_5.index t1_0 1 * win1_5.size 1 = 0 from by decide +kernel, show win1_5.xsize (grid1.coords t1_0) 1 = 16 from by decide +kernel]; omega
      | ⟨2, _⟩ =>
        show win1_5.index t1_0 2 * win1_5.size 2 ≤ (i 2 : Nat) ∧ (i 2 : Nat) < win1_5.index t1_0 2 * win1_5.size 2 + win1_5.xsize (grid1.coords t1_0) 2
        rw [show win1_5.index t1_0 2 * win1_5.size 2 = 0 from by decide +kernel, show win1_5.xsize (grid1.coords t1_0) 2 = 4 from by decide +kernel]; omega
      | ⟨3, _⟩ =>
        show win1_5.index t1_0 3 * win1_5.size 3 ≤ (i 3 : Nat) ∧ (i 3 : Nat) < win1_5.index t1_0 3 * win1_5.size 3 + win1_5.xsize (grid1.coords t1_0) 3
        rw [show win1_5.index t1_0 3 * win1_5.size 3 = 0 from by decide +kernel, show win1_5.xsize (grid1.coords t1_0) 3 = 128 from by decide +kernel]; omega⟩

theorem hzw1_0 : (fun a => win1_0.index t1_0 a * (Pipeline.arrRef spec1 0).ty.shape.size a) = fun _ => 0 :=
  funext fun a => by fin_cases a <;> decide
/-- Input window 0's block at the one point is its whole array `main_v59`. -/
theorem blk1_0_eq (c : Dev nD) : blk1_0 V c = (V c main_v59 : S8x20x20x64.Idx → Elt F .bf16) :=
  Memref.read_access_unit_zero (Elt F) (Pipeline.arrRef spec1 0) hzw1_0 (fun a => by rw [congrFun hzw1_0 a]; simp) (V c (Pipeline.arrRef spec1 0))

theorem hzw1_1 : (fun a => win1_1.index t1_0 a * (Pipeline.arrRef spec1 1).ty.shape.size a) = fun _ => 0 :=
  funext fun a => by fin_cases a <;> decide
/-- Input window 1's block at the one point is its whole array `main_arg5`. -/
theorem blk1_1_eq (c : Dev nD) : blk1_1 V c = (V c main_arg5 : S1600x128.Idx → Elt F .bf16) :=
  Memref.read_access_unit_zero (Elt F) (Pipeline.arrRef spec1 1) hzw1_1 (fun a => by rw [congrFun hzw1_1 a]; simp) (V c (Pipeline.arrRef spec1 1))

theorem hzw1_2 : (fun a => win1_2.index t1_0 a * (Pipeline.arrRef spec1 2).ty.shape.size a) = fun _ => 0 :=
  funext fun a => by fin_cases a <;> decide
/-- Input window 2's block at the one point is its whole array `main_v60`. -/
theorem blk1_2_eq (c : Dev nD) : blk1_2 V c = (V c main_v60 : S1x128.Idx → Elt F .f32) :=
  Memref.read_access_unit_zero (Elt F) (Pipeline.arrRef spec1 2) hzw1_2 (fun a => by rw [congrFun hzw1_2 a]; simp) (V c (Pipeline.arrRef spec1 2))

theorem hzw1_3 : (fun a => win1_3.index t1_0 a * (Pipeline.arrRef spec1 3).ty.shape.size a) = fun _ => 0 :=
  funext fun a => by fin_cases a <;> decide
/-- Input window 3's block at the one point is its whole array `main_arg7`. -/
theorem blk1_3_eq (c : Dev nD) : blk1_3 V c = (V c main_arg7 : S3200x128.Idx → Elt F .bf16) :=
  Memref.read_access_unit_zero (Elt F) (Pipeline.arrRef spec1 3) hzw1_3 (fun a => by rw [congrFun hzw1_3 a]; simp) (V c (Pipeline.arrRef spec1 3))

theorem hzw1_4 : (fun a => win1_4.index t1_0 a * (Pipeline.arrRef spec1 4).ty.shape.size a) = fun _ => 0 :=
  funext fun a => by fin_cases a <;> decide
/-- Input window 4's block at the one point is its whole array `main_v61`. -/
theorem blk1_4_eq (c : Dev nD) : blk1_4 V c = (V c main_v61 : S1x128.Idx → Elt F .f32) :=
  Memref.read_access_unit_zero (Elt F) (Pipeline.arrRef spec1 4) hzw1_4 (fun a => by rw [congrFun hzw1_4 a]; simp) (V c (Pipeline.arrRef spec1 4))

end Block

variable (m : (ℓ : Loc nD τ sig) → Buf (Elt F) ℓ)

/-! ## In the program's chain -/

/-- What region 0 leaves in `main_v58` is the block its body leaves, the region entered at the contents the host
    stretches before it leave. -/
theorem o0_eq (c : Dev nD) : o0 m c = resBlock0 (fun c b => V5 m c b) c :=
  arrAt_res0 (fun c b => V5 m c b) c

/-- What region 1 leaves in `main_v62` is the block its body leaves, the region entered at the contents region 0 and
    the host stretches leave. -/
theorem o1_eq (c : Dev nD) : o1 m c = resBlock1 (fun c b => V9 m (outs1 m) c b) c :=
  arrAt_res1 (fun c b => V9 m (outs1 m) c b) c

/-! ## The arrays region 0 finds

Its two weights are arguments and reach it as launched: no host stretch writes an argument.  Its two bias rows are
made by the last host stretch before it, which reshapes each launched bias from `[64]` to one row `[1, 64]`. -/

/-- The first stage's first weight reaches region 0 as launched. -/
theorem entry0_arg1 (c : Dev nD) : V5 m c main_arg1 = V0 m c main_arg1 :=
  (V5_of m c main_arg1 (by decide)).trans <|
    (V4_of m c main_arg1 (by decide)).trans <|
    (V3_of m c main_arg1 (by decide)).trans <|
    (V2_of m c main_arg1 (by decide)).trans <|
    (V1_of m c main_arg1 (by decide))

/-- The first stage's second weight reaches region 0 as launched. -/
theorem entry0_arg3 (c : Dev nD) : V5 m c main_arg3 = V0 m c main_arg3 :=
  (V5_of m c main_arg3 (by decide)).trans <|
    (V4_of m c main_arg3 (by decide)).trans <|
    (V3_of m c main_arg3 (by decide)).trans <|
    (V2_of m c main_arg3 (by decide)).trans <|
    (V1_of m c main_arg3 (by decide))

set_option maxHeartbeats 4000000 in
/-- The first stage's first bias, reshaped to one row, as the shape cast of the argument (at the valuation before the stretch). -/
theorem entry0_v56_ops (c : Dev nD) :
    (V5 m c main_v56 : S1x64.Idx → Elt F .f32)
      = shapeCast S1x64 (V4 m c main_arg2 : S64.Idx → Elt F .f32) shapeCasts_S64_S1x64 := by
  show StableHlo.after hostOps0_4 (V4 m c) (Proc.devRef .tc main_v56) = _
  unfold hostOps0_4
  after_results
  rfl

/-- The first stage's first bias at region 0's entry is the launched bias viewed as one row. -/
theorem entry0_v56 (c : Dev nD) :
    (V5 m c main_v56 : S1x64.Idx → Elt F .f32)
      = shapeCast S1x64 (V0 m c main_arg2 : S64.Idx → Elt F .f32) shapeCasts_S64_S1x64 := by
  have e : (V4 m c main_arg2 : S64.Idx → Elt F .f32) = V0 m c main_arg2 :=
    (V4_of m c main_arg2 (by decide)).trans <|
    (V3_of m c main_arg2 (by decide)).trans <|
    (V2_of m c main_arg2 (by decide)).trans <|
    (V1_of m c main_arg2 (by decide))
  exact (entry0_v56_ops m c).trans
    (congrArg (fun x : S64.Idx → Elt F .f32 => shapeCast S1x64 x shapeCasts_S64_S1x64) e)

/-- Entry `j` of that row is entry `j` of the launched bias. -/
theorem entry0_v56_at (c : Dev nD) (j : Fin 64) :
    (V5 m c main_v56 : S1x64.Idx → Elt F .f32) (ix2 (0 : Fin 1) j)
      = (V0 m c main_arg2 : S64.Idx → Elt F .f32) (ix1 j) := by
  rw [entry0_v56]
  refine shapeCast_apply _ _ _ _ ?_
  show (S64.rowMajor (ix1 j)).val = (S1x64.rowMajor (ix2 (0 : Fin 1) j)).val
  rw [Shape.rowMajor_val_one, Shape.rowMajor_val_two]
  show j.val = 0 * 64 + j.val
  omega

set_option maxHeartbeats 4000000 in
/-- The first stage's second bias, reshaped to one row, as the shape cast of the argument (at the valuation before the stretch). -/
theorem entry0_v57_ops (c : Dev nD) :
    (V5 m c main_v57 : S1x64.Idx → Elt F .f32)
      = shapeCast S1x64 (V4 m c main_arg4 : S64.Idx → Elt F .f32) shapeCasts_S64_S1x64 := by
  show StableHlo.after hostOps0_4 (V4 m c) (Proc.devRef .tc main_v57) = _
  unfold hostOps0_4
  after_results
  rfl

/-- The first stage's second bias at region 0's entry is the launched bias viewed as one row. -/
theorem entry0_v57 (c : Dev nD) :
    (V5 m c main_v57 : S1x64.Idx → Elt F .f32)
      = shapeCast S1x64 (V0 m c main_arg4 : S64.Idx → Elt F .f32) shapeCasts_S64_S1x64 := by
  have e : (V4 m c main_arg4 : S64.Idx → Elt F .f32) = V0 m c main_arg4 :=
    (V4_of m c main_arg4 (by decide)).trans <|
    (V3_of m c main_arg4 (by decide)).trans <|
    (V2_of m c main_arg4 (by decide)).trans <|
    (V1_of m c main_arg4 (by decide))
  exact (entry0_v57_ops m c).trans
    (congrArg (fun x : S64.Idx → Elt F .f32 => shapeCast S1x64 x shapeCasts_S64_S1x64) e)

/-- Entry `j` of that row is entry `j` of the launched bias. -/
theorem entry0_v57_at (c : Dev nD) (j : Fin 64) :
    (V5 m c main_v57 : S1x64.Idx → Elt F .f32) (ix2 (0 : Fin 1) j)
      = (V0 m c main_arg4 : S64.Idx → Elt F .f32) (ix1 j) := by
  rw [entry0_v57]
  refine shapeCast_apply _ _ _ _ ?_
  show (S64.rowMajor (ix1 j)).val = (S1x64.rowMajor (ix2 (0 : Fin 1) j)).val
  rw [Shape.rowMajor_val_one, Shape.rowMajor_val_two]
  show j.val = 0 * 64 + j.val
  omega

end Cert.ReferenceIdeal.Hand

end
-- ==== Proof.RefStage1Closed.lean ====
/-
  The reference's first stage in closed form over its first input array and four launched arguments.

  Region 0 has one grid point and whole-array windows: the output array after the region is the block the body leaves,
  and each input block the body is given is the whole input array.  The body's output, read back, is one function
  `stage1F` of what its five input buffers read (`run0_of_reads`): at (b, h, xo, co) the maximum over the four columns
  4 * xo + x of the rectifier of the second convolution sum (5 × 5 taps, 64 channels) at output position (h, 4 * xo + x) —
  taken over the first convolution's rectified result padded with a border of zeros (`mid1F`; that convolution has a
  single tap and 32 channels) — plus the second bias.  At the region's entry the first input array is the host's
  gathering of the input planes, taken as it stands; the weights are the launched ones and the bias rows the launched
  biases, so entry (b, h, xo, co) of what region 0 leaves is one closed expression of that array and four launched
  arguments (`o0_closed`), which is the pooled first stage of the two programs' common description at those arrays
  (`o0_eq_out1`).
-/
import proofs.«147627_g2000402439390779_pallasbulk_891_17_alg».proof.Proof.RefConv1aValue
import proofs.«147627_g2000402439390779_pallasbulk_891_17_alg».proof.Proof.RefConv1bValue
import proofs.«147627_g2000402439390779_pallasbulk_891_17_alg».proof.Proof.RefStage12Arrays
import proofs.«147627_g2000402439390779_pallasbulk_891_17_alg».proof.Proof.LibStage12
import Idealize.ShloMosaic.Lib.Pipeline.Value
import Idealize.ShloMosaic.Lib.IdealHost

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section AtIdeal
variable [Cert.ReferenceIdeal.Facts]

/-! ## The run's operands as arrays at plain natural-number coordinates -/

theorem xaN_1a_fun (c : Dev nD) (M0 : Memref sig .tc .vmem S8x16x64x32 .bf16) (f0 : Bf0 (F := Ideal) c M0) (b : Fin 8) :
    xaN_1a c M0 f0 b.val = nat4 (M0.view.read (Elt Ideal) f0) b := by
  funext r s ci
  unfold xaN_1a nat4
  by_cases h : r < 16 ∧ s < 64 ∧ ci < 32
  · rw [dif_pos ⟨b.isLt, h⟩, dif_pos h]
  · rw [dif_neg (fun h' => h h'.2), dif_neg h]

theorem waN_1a_fun (c : Dev nD) (M1 : Memref sig .tc .vmem S32x64 .bf16) (f1 : Bf0 (F := Ideal) c M1) (co : Fin 64) :
    waN_1a c M1 f1 co.val = natCol (M1.view.read (Elt Ideal) f1) co := by
  funext t
  unfold waN_1a natCol
  by_cases h : t < 32
  · rw [dif_pos ⟨h, co.isLt⟩, dif_pos h]
  · rw [dif_neg (fun h' => h h'.1), dif_neg h]

theorem wbN1_fun (c : Dev nD) (M3 : Memref sig .tc .vmem S1600x64 .bf16) (f3 : Bf0 (F := Ideal) c M3) (co : Fin 64) :
    wbN1 c M3 f3 co.val = natCol (M3.view.read (Elt Ideal) f3) co := by
  funext t
  unfold wbN1 natCol
  by_cases h : t < 1600
  · rw [dif_pos ⟨h, co.isLt⟩, dif_pos h]
  · rw [dif_neg (fun h' => h h'.1), dif_neg h]

/-- The padded intermediate at the ideal values, over the raw inputs: inside the border the first convolution's
    rectified result (the cast changes nothing) in the convolution law's form, zero on the border. -/
theorem ypadG1_ideal (c : Dev nD) (M0 : Memref sig .tc .vmem S8x16x64x32 .bf16) (M1 : Memref sig .tc .vmem S32x64 .bf16)
    (M2 : Memref sig .tc .vmem S1x64 .f32) (C0 : Memref sig .tc .vmem S8192x32 .bf16)
    (f0 : Bf0 (F := Ideal) c M0) (f1 : Bf0 (F := Ideal) c M1) (f2 : Bf0 (F := Ideal) c M2) (k : S8x20x68x64.Idx) :
    ypadG1 (F := Ideal) c M0 M1 M2 C0 f0 f1 f2 k
      = if 2 ≤ (k 1).val ∧ (k 1).val < 18 ∧ 2 ≤ (k 2).val ∧ (k 2).val < 66 then
          max (TapSum.convFull 1 1 32 (xaN_1a c M0 f0 (k 0).val) (waN_1a c M1 f1 (k 3).val) ((k 1).val - 2) ((k 2).val - 2)
                + M2.view.read (Elt Ideal) f2 (ix2 (0 : Fin 1) (k 3))) 0
        else 0 := by
  have h0 : (k 0).val < 8 := (k 0).isLt
  unfold ypadG1
  by_cases h : 2 ≤ (k 1).val ∧ (k 1).val < 18 ∧ 2 ≤ (k 2).val ∧ (k 2).val < 66
  · rw [dif_pos h, if_pos h]
    show run0.sl.v15 (F := Ideal) c M0 M1 M2 C0 f0 f1 f2 _ = _
    unfold run0.sl.v15
    rw [truncf_apply, ya_convFull_1a]
    have e0 : (((k 0).val * 16 + ((k 1).val - 2)) * 64 + ((k 2).val - 2)) / 1024 = (k 0).val := by omega
    have e1 : (((k 0).val * 16 + ((k 1).val - 2)) * 64 + ((k 2).val - 2)) / 64 % 16 = (k 1).val - 2 := by omega
    have e2 : (((k 0).val * 16 + ((k 1).val - 2)) * 64 + ((k 2).val - 2)) % 64 = (k 2).val - 2 := by omega
    show max (TapSum.convFull 1 1 32 (xaN_1a c M0 f0 ((((k 0).val * 16 + ((k 1).val - 2)) * 64 + ((k 2).val - 2)) / 1024)) (waN_1a c M1 f1 (k 3).val)
        ((((k 0).val * 16 + ((k 1).val - 2)) * 64 + ((k 2).val - 2)) / 64 % 16) ((((k 0).val * 16 + ((k 1).val - 2)) * 64 + ((k 2).val - 2)) % 64)
          + M2.view.read (Elt Ideal) f2 (ix2 (0 : Fin 1) (k 3))) 0 = _
    rw [e0, e1, e2]
  · rw [dif_neg h, if_neg h]
    exact Ideal.ofBits_zero_bf16

/-- The first convolution's rectified result of image b with its border of zeros, as a function of (row, column,
    channel) of the padded [20, 68, 64] image, from the input X0, the weight X1 and the bias row X2: inside the border
    (rows 2 … 17, columns 2 … 65) the rectifier of the one-tap convolution sum at output position (row - 2, column - 2)
    plus the bias; zero on the border and outside. -/
def mid1F (X0 : S8x16x64x32.Idx → EReal) (X1 : S32x64.Idx → EReal) (X2 : S1x64.Idx → EReal) (b : Fin 8) (r s ci : ℕ) : EReal :=
  if h : 2 ≤ r ∧ r < 18 ∧ 2 ≤ s ∧ s < 66 ∧ ci < 64 then
    max (TapSum.convFull 1 1 32 (nat4 X0 b) (natCol X1 (⟨ci, h.2.2.2.2⟩ : Fin 64)) (r - 2) (s - 2)
          + X2 (ix2 (0 : Fin 1) (⟨ci, h.2.2.2.2⟩ : Fin 64))) 0
  else 0

/-- THE FIRST STAGE AS ONE FUNCTION of the five arrays its region reads: at (b, h, xo, co) the maximum over the four
    columns 4 * xo + x of the rectifier of the second convolution sum, over the first convolution's padded result, at
    output position (h, 4 * xo + x), plus the second bias. -/
def stage1F (X0 : S8x16x64x32.Idx → EReal) (X1 : S32x64.Idx → EReal) (X2 : S1x64.Idx → EReal)
    (X3 : S1600x64.Idx → EReal) (X4 : S1x64.Idx → EReal) (y : S8x16x16x64.Idx) : EReal :=
  (Finset.univ : Finset (Fin 4)).fold max (⊥ : EReal) (fun x : Fin 4 =>
    max (TapSum.convFull 5 5 64 (mid1F X0 X1 X2 (y 0)) (natCol X3 (y 3)) (y 1).val ((y 2).val * 4 + x.val) + X4 (ix2 (0 : Fin 1) (y 3))) 0)

theorem ypN1_fun (c : Dev nD) (M0 : Memref sig .tc .vmem S8x16x64x32 .bf16) (M1 : Memref sig .tc .vmem S32x64 .bf16)
    (M2 : Memref sig .tc .vmem S1x64 .f32) (C0 : Memref sig .tc .vmem S8192x32 .bf16)
    (f0 : Bf0 (F := Ideal) c M0) (f1 : Bf0 (F := Ideal) c M1) (f2 : Bf0 (F := Ideal) c M2) (b : Fin 8) :
    ypN1 c M0 M1 M2 C0 f0 f1 f2 b.val
      = mid1F (M0.view.read (Elt Ideal) f0) (M1.view.read (Elt Ideal) f1) (M2.view.read (Elt Ideal) f2) b := by
  funext r s ci
  unfold ypN1 mid1F
  by_cases hin : 2 ≤ r ∧ r < 18 ∧ 2 ≤ s ∧ s < 66 ∧ ci < 64
  · rw [dif_pos (show b.val < 8 ∧ r < 20 ∧ s < 68 ∧ ci < 64 from ⟨b.isLt, by omega, by omega, hin.2.2.2.2⟩), dif_pos hin]
    refine (ypadG1_ideal c M0 M1 M2 C0 f0 f1 f2 _).trans ((if_pos ⟨hin.1, hin.2.1, hin.2.2.1, hin.2.2.2.1⟩).trans ?_)
    show max (TapSum.convFull 1 1 32 (xaN_1a c M0 f0 b.val) (waN_1a c M1 f1 ci) (r - 2) (s - 2)
          + M2.view.read (Elt Ideal) f2 (ix2 (0 : Fin 1) (⟨ci, hin.2.2.2.2⟩ : Fin 64))) 0 = _
    rw [xaN_1a_fun c M0 f0 b, waN_1a_fun c M1 f1 (⟨ci, hin.2.2.2.2⟩ : Fin 64)]
  · rw [dif_neg hin]
    by_cases h2 : b.val < 8 ∧ r < 20 ∧ s < 68 ∧ ci < 64
    · rw [dif_pos h2]
      exact (ypadG1_ideal c M0 M1 M2 C0 f0 f1 f2 _).trans
        (if_neg (fun h' => hin ⟨h'.1, h'.2.1, h'.2.2.1, h'.2.2.2, h2.2.2.2⟩))
    · rw [dif_neg h2]

/-- THE BODY'S OUTPUT from what its five input buffers read. -/
theorem run0_of_reads (c : Dev nD) (i : grid0.Coords) (M0 : Memref sig .tc .vmem S8x16x64x32 .bf16) (h0 : M0.IsWhole) (M1 : Memref sig .tc .vmem S32x64 .bf16) (h1 : M1.IsWhole) (M2 : Memref sig .tc .vmem S1x64 .f32) (h2 : M2.IsWhole) (M3 : Memref sig .tc .vmem S1600x64 .bf16) (h3 : M3.IsWhole) (M4 : Memref sig .tc .vmem S1x64 .f32) (h4 : M4.IsWhole) (M5 : Memref sig .tc .vmem S8x16x16x64 .bf16) (h5 : M5.IsWhole) (C0 : Memref sig .tc .vmem S8192x32 .bf16) (g0 : C0.IsWhole) (C1 : Memref sig .tc .vmem S8x20x68x64 .bf16) (g1 : C1.IsWhole) (C2 : Memref sig .tc .vmem S8192x1600 .bf16) (g2 : C2.IsWhole)
    (f0 : Bf0 (F := Ideal) c M0) (f1 : Bf0 (F := Ideal) c M1) (f2 : Bf0 (F := Ideal) c M2) (f3 : Bf0 (F := Ideal) c M3) (f4 : Bf0 (F := Ideal) c M4)
    (X0 : S8x16x64x32.Idx → EReal) (X1 : S32x64.Idx → EReal) (X2 : S1x64.Idx → EReal) (X3 : S1600x64.Idx → EReal) (X4 : S1x64.Idx → EReal)
    (e0 : M0.view.read (Elt Ideal) f0 = X0) (e1 : M1.view.read (Elt Ideal) f1 = X1) (e2 : M2.view.read (Elt Ideal) f2 = X2)
    (e3 : M3.view.read (Elt Ideal) f3 = X3) (e4 : M4.view.read (Elt Ideal) f4 = X4) (y : S8x16x16x64.Idx) :
    M5.view.read (Elt Ideal) (run0 (F := Ideal) c i M0 h0 M1 h1 M2 h2 M3 h3 M4 h4 M5 h5 C0 g0 C1 g1 C2 g2 f0 f1 f2 f3 f4).1 y
      = stage1F X0 X1 X2 X3 X4 y := by
  subst e0 e1 e2 e3 e4
  rw [witness0_closed]
  unfold stage1F
  rw [show Ideal.ofBits .f32 0xFF800000#32 = (⊥ : EReal) from ofBits_neg_inf_f32]
  refine Finset.fold_congr fun x _ => ?_
  show max (TapSum.convFull 5 5 64 (ypN1 c M0 M1 M2 C0 f0 f1 f2 (y 0).val) (wbN1 c M3 f3 (y 3).val) (y 1).val ((y 2).val * 4 + x.val) + _) 0 = _
  rw [ypN1_fun c M0 M1 M2 C0 f0 f1 f2 (y 0), wbN1_fun c M3 f3 (y 3)]

end AtIdeal

section Closed
variable [Cert.ReferenceIdeal.Facts]
variable (m : (ℓ : Loc nD τ sig) → Buf (Elt Ideal) ℓ)

/-- The first convolution's rectified result of image `b` with its border of zeros, over the region's first input array
    as the host leaves it and the launched first weight and bias of the stage. -/
def mid1N (c : Dev nD) (b : Fin 8) (r s ci : ℕ) : EReal :=
  if h : 2 ≤ r ∧ r < 18 ∧ 2 ≤ s ∧ s < 66 ∧ ci < 64 then
    max (TapSum.convFull 1 1 32 (nat4 (V5 m c main_v55 : S8x16x64x32.Idx → EReal) b)
            (natCol (V0 m c main_arg1 : S32x64.Idx → EReal) (⟨ci, h.2.2.2.2⟩ : Fin 64)) (r - 2) (s - 2)
          + (V0 m c main_arg2 : S64.Idx → EReal) (ix1 (⟨ci, h.2.2.2.2⟩ : Fin 64))) 0
  else 0

theorem mid1F_entry (c : Dev nD) (b : Fin 8) :
    mid1F (V5 m c main_v55 : S8x16x64x32.Idx → EReal) (V5 m c main_arg1 : S32x64.Idx → EReal)
        (V5 m c main_v56 : S1x64.Idx → EReal) b
      = mid1N m c b := by
  funext r s ci
  unfold mid1F mid1N
  by_cases h : 2 ≤ r ∧ r < 18 ∧ 2 ≤ s ∧ s < 66 ∧ ci < 64
  · rw [dif_pos h, dif_pos h, entry0_arg1, entry0_v56_at]
  · rw [dif_neg h, dif_neg h]

/-! ## The closed form -/

/-- THE FIRST STAGE, CLOSED: entry (b, h, xo, co) of what region 0 leaves is the maximum over the four columns
    `4 * xo + x` of the rectifier of the second convolution sum (5 × 5 taps, 64 channels), at output position
    (h, 4 * xo + x), of image `b`'s first convolution result padded with zeros — itself the rectifier of the one-tap,
    32-channel contraction of the region's first input array against the launched first weight, plus the launched first
    bias — against column `co` of the launched second weight, plus the launched second bias at `co`. -/
theorem o0_closed (c : Dev nD) (b : Fin 8) (h : Fin 16) (xo : Fin 16) (co : Fin 64) :
    (o0 m c : S8x16x16x64.Idx → EReal) (ix4 b h xo co)
      = (Finset.univ : Finset (Fin 4)).fold max (⊥ : EReal) (fun x : Fin 4 =>
          max (TapSum.convFull 5 5 64 (mid1N m c b) (natCol (V0 m c main_arg3 : S1600x64.Idx → EReal) co) h.val (xo.val * 4 + x.val)
                + (V0 m c main_arg4 : S64.Idx → EReal) (ix1 co)) 0) := by
  rw [o0_eq]
  refine (run0_of_reads c _ _ _ _ _ _ _ _ _ _ _ _ _ _ _ _ _ _ _ _ _ _ _ _
    (V5 m c main_v55 : S8x16x64x32.Idx → EReal) (V5 m c main_arg1 : S32x64.Idx → EReal)
    (V5 m c main_v56 : S1x64.Idx → EReal) (V5 m c main_arg3 : S1600x64.Idx → EReal)
    (V5 m c main_v57 : S1x64.Idx → EReal)
    ((Memref.IsWhole.read_unread _ _).trans (blk0_0_eq (fun c b => V5 m c b) c))
    ((Memref.IsWhole.read_unread _ _).trans (blk0_1_eq (fun c b => V5 m c b) c))
    ((Memref.IsWhole.read_unread _ _).trans (blk0_2_eq (fun c b => V5 m c b) c))
    ((Memref.IsWhole.read_unread _ _).trans (blk0_3_eq (fun c b => V5 m c b) c))
    ((Memref.IsWhole.read_unread _ _).trans (blk0_4_eq (fun c b => V5 m c b) c))
    (ix4 b h xo co)).trans ?_
  unfold stage1F
  refine Finset.fold_congr fun x _ => ?_
  show max (TapSum.convFull 5 5 64
      (mid1F (V5 m c main_v55 : S8x16x64x32.Idx → EReal) (V5 m c main_arg1 : S32x64.Idx → EReal)
        (V5 m c main_v56 : S1x64.Idx → EReal) b)
      (natCol (V5 m c main_arg3 : S1600x64.Idx → EReal) co) h.val (xo.val * 4 + x.val)
      + (V5 m c main_v57 : S1x64.Idx → EReal) (ix2 (0 : Fin 1) co)) 0 = _
  rw [mid1F_entry, entry0_arg3, entry0_v57_at]

/-! ## In the common description of the first two stages -/

open Cert.Hand

/-- One image of an array at plain naturals, in the two spellings. -/
theorem nat4_eq_imgN {W C : ℕ} (A : (Stage12.Act W C).Idx → EReal) (b : Fin 8) : nat4 A b = Stage12.imgN A b := by
  funext h x ci
  unfold nat4 Stage12.imgN
  by_cases hh : (h < 16 ∧ x < W) ∧ ci < C
  · rw [dif_pos hh, dif_pos ⟨hh.1.1, hh.1.2, hh.2⟩]
  · rw [dif_neg hh, dif_neg (fun h' => hh ⟨⟨h'.1, h'.2.1⟩, h'.2.2⟩)]

/-- One column of a stored matrix at a plain natural row, in the two spellings. -/
theorem natCol_eq_colN {n k : ℕ} (W : (Stage12.Mat n k).Idx → EReal) (co : Fin k) : natCol W co = Stage12.colN W co := rfl

/-- The first convolution's padded result of image `b` is the common description's padded first contraction. -/
theorem mid1N_eq (c : Dev nD) (b : Fin 8) :
    mid1N m c b = Stage12.pad2 64 64 (Stage12.a1 (V5 m c main_v55 : (Stage12.Act 64 32).Idx → EReal)
      (V0 m c main_arg1 : (Stage12.Mat 32 64).Idx → EReal) (V0 m c main_arg2 : (Stage12.Vec 64).Idx → EReal) b) := by
  funext r s ci
  unfold mid1N Stage12.pad2 Stage12.a1
  by_cases h : 2 ≤ r ∧ r < 18 ∧ 2 ≤ s ∧ s < 66 ∧ ci < 64
  · rw [dif_pos h, if_pos ⟨⟨⟨h.1, h.2.1⟩, ⟨h.2.2.1, h.2.2.2.1⟩⟩, h.2.2.2.2⟩, dif_pos h.2.2.2.2]
    unfold Stage12.convRelu
    rw [nat4_eq_imgN, natCol_eq_colN]
  · rw [dif_neg h, if_neg (fun h' => h ⟨h'.1.1.1, h'.1.1.2, h'.1.2.1, h'.1.2.2, h'.2⟩)]

/-- THE FIRST STAGE IN THE COMMON DESCRIPTION: what region 0 leaves, entry by entry, is the pooled first stage of the
    region's first input array and the four launched arguments. -/
theorem o0_eq_out1 (c : Dev nD) (b : Fin 8) (h : Fin 16) (x : Fin 16) (co : Fin 64) :
    (o0 m c : S8x16x16x64.Idx → EReal) (ix4 b h x co)
      = Stage12.out1 (V5 m c main_v55 : (Stage12.Act 64 32).Idx → EReal)
          (V0 m c main_arg1 : (Stage12.Mat 32 64).Idx → EReal) (V0 m c main_arg2 : (Stage12.Vec 64).Idx → EReal)
          (V0 m c main_arg3 : (Stage12.Mat 1600 64).Idx → EReal) (V0 m c main_arg4 : (Stage12.Vec 64).Idx → EReal) b h x co := by
  rw [o0_closed]
  unfold Stage12.out1 Stage12.p1
  rw [dif_pos co.isLt]
  unfold Stage12.pool4
  refine Finset.fold_congr fun x' _ => ?_
  unfold Stage12.convRelu
  rw [mid1N_eq, natCol_eq_colN, Nat.mul_comm x.val 4]

end Closed

end Cert.ReferenceIdeal.Hand

end
-- ==== Proof.RefConv2bValue.lean ====
/-
  The reference's region 1, second convolution of the pair and the width-4 max pool, read at an index.

  The first convolution's result, cast, [2048, 128] with row (b * 16 + h) * 16 + x, is stored into the interior
  (offsets (0, 2, 2, 0), sizes [8,16,16,128]) of a scratch buffer [8,20,20,128] first filled with zeros: what the two
  stores leave is ONE function of the buffer's index, the result at row (b * 16 + (hh - 2)) * 16 + (xx - 2) inside the
  border and zero on it (`ypad_apply`).  The second patch matrix [2048, 3200] is built from it by 25 slice stores: the
  store for the tap (kh, kw) writes columns [(kh * 5 + kw) * 128, (kh * 5 + kw + 1) * 128) with the [8,16,16,128]
  window of the padded buffer at offsets (0, kh, kw, 0) flattened row-major to [2048,128]; so at row
  p = (b * 16 + h) * 16 + x and column t = (kh * 5 + kw) * 128 + ci it holds the padded intermediate at
  (b, kh + h, kw + x, ci) (`patchB_apply`).

  At the ideal values (extended reals) the product with the weight [3200, 128] into the zero accumulator is the plain
  sum over t < 3200 (`convB_sum_apply`); with the bias and the rectifier it is the second convolution's result
  (`yb_apply`), in the general convolution law's form `TapSum.convFull 5 5 128` of image b's padded intermediate
  against the weight's column (`yb_convFull`).  The pool regroups [2048, 128] as [512, 4, 128] and takes the maximum
  over the middle axis, then regroups [512, 128] as [8, 16, 4, 128]: the output block at (b, h, xo, co) is the fold of
  max over x' < 4 of the result at row ((b * 16 + h) * 4 + xo) * 4 + x', output column xo * 4 + x' (`out_apply`,
  `out_closed`).  The run's output contents read back through the output's view are that block (`readW1`), so they
  have this closed form (`witness_closed`).  The first convolution's cast result enters as the value the run names.
-/
import proofs.«147627_g2000402439390779_pallasbulk_891_17_alg».proof.Proof.RefPairRegion1
import proofs.«147627_g2000402439390779_pallasbulk_891_17_alg».proof.Proof.LibConvLaw
import Idealize.ShloMosaic.Lib.Pipeline.Value
import Idealize.ShloMosaic.Lib.ValueIdx
import Idealize.ShloMosaic.Lib.Ring
import Idealize.ShloMosaic.Lib.IdealHost
import Idealize.ShloMosaic.PureOps.Ideal.Laws

set_option maxRecDepth 16384

noncomputable section

namespace Cert.ReferenceIdeal.Hand

open Cert.ReferenceIdeal Cert.ReferenceIdeal.Gen
open Idealize.ShloMosaic Idealize.ShloMosaic.TcCoe Idealize.ShloMosaic.Tactic Idealize.ShloMosaic.ValueIdx
open Idealize.SL Idealize.SL.Sem

variable {F : FTy → Type} [FloatOps F] [Cert.ReferenceIdeal.Facts]

namespace Conv2b

theorem zero4 : (![0, 0, 0, 0] : Fin 4 → Nat) = fun _ => 0 := funext fun a => by fin_cases a <;> rfl
theorem zero2 : (![0, 0] : Fin 2 → Nat) = fun _ => 0 := funext fun a => by fin_cases a <;> rfl

/-- The interior [8,16,16,128] of the padded [8,20,20,128] buffer, at offsets (0, 2, 2, 0), lies inside it. -/
theorem inbY : ∀ a, (![0, 2, 2, 0] : Fin 4 → ℕ) a + S8x16x16x128.size a ≤ S8x20x20x128.size a :=
  fun a => by fin_cases a <;> decide

section Pad

variable (c : Dev nD) (M0 : Memref sig .tc .vmem S8x20x20x64 .bf16) (M1 : Memref sig .tc .vmem S1600x128 .bf16)
  (M2 : Memref sig .tc .vmem S1x128 .f32) (C0 : Memref sig .tc .vmem S2048x1600 .bf16)
  (f0 : Bf1 (F := F) c M0) (f1 : Bf1 (F := F) c M1) (f2 : Bf1 (F := F) c M2)

/-! ## The padded intermediate -/

/-- The first convolution's result after the cast, as the run names it: [2048, 128], row (b * 16 + h) * 16 + x. -/
abbrev ya : S2048x128.Idx → Elt F .bf16 := run1.sl.v159 c M0 M1 M2 C0 f0 f1 f2

/-- THE ZERO-PADDED INTERMEDIATE ACTIVATION as one function of its index (b, hh, xx, ci): inside the border
    (2 ≤ hh < 18, 2 ≤ xx < 18) the first convolution's result after the cast at row
    (b * 16 + (hh - 2)) * 16 + (xx - 2) and column ci; on the border the zero pattern. -/
def ypadG (k : S8x20x20x128.Idx) : Elt F .bf16 :=
  if h : 2 ≤ (k 1).val ∧ (k 1).val < 18 ∧ 2 ≤ (k 2).val ∧ (k 2).val < 18 then
    ya c M0 M1 M2 C0 f0 f1 f2
      (ix2 (⟨((k 0).val * 16 + ((k 1).val - 2)) * 16 + ((k 2).val - 2), by have h0 : (k 0).val < 8 := (k 0).isLt; omega⟩ : Fin 2048)
        (⟨(k 3).val, (k 3).isLt⟩ : Fin 128))
  else FloatOps.ofBits .bf16 0#16

/-- What the zero fill and the interior store leave in the scratch buffer is that function. -/
theorem ypad_apply (k : S8x20x20x128.Idx) :
    View.canon (run1.sl.G1_2 c M0 M1 M2 C0 f0 f1 f2) k = ypadG c M0 M1 M2 C0 f0 f1 f2 k := by
  have h0 : (k 0).val < 8 := (k 0).isLt
  have h3 : (k 3).val < 128 := (k 3).isLt
  unfold ypadG run1.sl.G1_2
  by_cases h : 2 ≤ (k 1).val ∧ (k 1).val < 18 ∧ 2 ≤ (k 2).val ∧ (k 2).val < 18
  · rw [dif_pos h]
    have hk : k = (Rect.unit (s := S8x20x20x128) ![0, 2, 2, 0] S8x16x16x128.size inbY).emb
        (ix4 (⟨(k 0).val, h0⟩ : Fin 8) (⟨(k 1).val - 2, by omega⟩ : Fin 16) (⟨(k 2).val - 2, by omega⟩ : Fin 16) (⟨(k 3).val, h3⟩ : Fin 128)) := by
      funext a
      match a with
      | ⟨0, _⟩ => exact Fin.ext (by show (k 0).val = 0 + 1 * (k 0).val; omega)
      | ⟨1, _⟩ => exact Fin.ext (by show (k 1).val = 2 + 1 * ((k 1).val - 2); omega)
      | ⟨2, _⟩ => exact Fin.ext (by show (k 2).val = 2 + 1 * ((k 2).val - 2); omega)
      | ⟨3, _⟩ => exact Fin.ext (by show (k 3).val = 0 + 1 * (k 3).val; omega)
    refine (congrArg (View.canon _) hk).trans
      ((View.canon_cons_emb (Rect.unit (s := S8x20x20x128) ![0, 2, 2, 0] S8x16x16x128.size inbY) _ _ _).trans ?_)
    unfold run1.sl.v167 run1.sl.v164
    rw [shapeCast_self]
    exact shapeCast_apply _ _ _ _ (by
      rw [Shape.rowMajor_val_two, Shape.rowMajor_val_four]
      show (((k 0).val * 16 + ((k 1).val - 2)) * 16 + ((k 2).val - 2)) * 128 + (k 3).val
        = (((k 0).val * 16 + ((k 1).val - 2)) * 16 + ((k 2).val - 2)) * 128 + (k 3).val
      rfl)
  · rw [dif_neg h]
    have hm : k ∉ (Rect.unit (s := S8x20x20x128) ![0, 2, 2, 0] S8x16x16x128.size inbY).set := fun hm => h (by
      have h1 : 2 ≤ (k 1).val ∧ (k 1).val < 2 + 16 := Rect.mem_set_unit.mp hm 1
      have h2 : 2 ≤ (k 2).val ∧ (k 2).val < 2 + 16 := Rect.mem_set_unit.mp hm 2
      omega)
    refine (View.canon_cons_of_not_mem
      (⟨Rect.unit (s := S8x20x20x128) ![0, 2, 2, 0] S8x16x16x128.size inbY, _⟩ : View.Piece (Elt F) S8x20x20x128 .bf16) _ hm).trans ?_
    unfold run1.sl.G1_1
    rw [View.canon_unit_zero zero4]
    unfold run1.sl.v163 run1.sl.v160 run1.sl.cst_128
    rw [shapeCast_self]
    rfl

end Pad

/-! ## The second patch matrix -/

/-- The padded intermediate's index that the second patch matrix's entry (p, t) reads: with p = (b * 16 + h) * 16 + x
    and t = (kh * 5 + kw) * 128 + ci it is (b, kh + h, kw + x, ci). -/
def xbIdx (y : S2048x3200.Idx) : S8x20x20x128.Idx :=
  ix4 (⟨(y 0).val / 256, by have := idx2_lt0 y; omega⟩ : Fin 8)
      (⟨(y 1).val / 640 + (y 0).val / 16 % 16, by have := idx2_lt1 y; omega⟩ : Fin 20)
      (⟨(y 1).val / 128 % 5 + (y 0).val % 16, by omega⟩ : Fin 20)
      (⟨(y 1).val % 128, Nat.mod_lt _ (by decide)⟩ : Fin 128)

/-- One tap's block of the second patch matrix at a local index, whatever the stores L into the padded buffer were:
    the load of the [8,16,16,128] window at offsets (0, kh, kw, 0), flattened row-major to [2048,128], reads what the
    stores left at (p / 256, kh + p / 16 % 16, kw + p % 16, ci). -/
theorem tapB_apply (C1 : Memref sig .tc .vmem S8x20x20x128 .bf16) (L : List (View.Piece (Elt F) S8x20x20x128 .bf16))
    (kh kw : ℕ) (inbM : ∀ a, (![0, kh, kw, 0] : Fin 4 → ℕ) a + S8x16x16x128.size a ≤ S8x20x20x128.size a)
    (h2 : (Rect.unit (s := S8x20x20x128) ![0, kh, kw, 0] S8x16x16x128.size inbM).toLoadRect.shape.ShapeCasts S2048x128)
    (h3 : S2048x128.ShapeCasts S2048x128)
    (x : S2048x128.Idx) (k : S8x20x20x128.Idx)
    (hk0 : (k 0).val = (x 0).val / 256) (hk1 : (k 1).val = kh + (x 0).val / 16 % 16)
    (hk2 : (k 2).val = kw + (x 0).val % 16) (hk3 : (k 3).val = (x 1).val) :
    shapeCast S2048x128 (shapeCast S2048x128
      (C1.view.readCov L (Rect.unit (s := S8x20x20x128) ![0, kh, kw, 0] S8x16x16x128.size inbM).toLoadRect) h2) h3 x
      = View.canon L k := by
  have hx0 : (x 0).val < 2048 := idx2_lt0 x
  have hx1 : (x 1).val < 128 := idx2_lt1 x
  rw [shapeCast_self]
  refine (shapeCast_apply _ _ x
    (ix4 (⟨(x 0).val / 256, by omega⟩ : Fin 8) (⟨(x 0).val / 16 % 16, by omega⟩ : Fin 16)
      (⟨(x 0).val % 16, by omega⟩ : Fin 16) (⟨(x 1).val, hx1⟩ : Fin 128))
    (by
      refine (Shape.rowMajor_val_four (d := ![8, 16, 16, 128]) _).trans
        (Eq.trans ?_ (Shape.rowMajor_val_two (d := ![2048, 128]) x).symm)
      show (((x 0).val / 256 * 16 + (x 0).val / 16 % 16) * 16 + (x 0).val % 16) * 128 + (x 1).val = (x 0).val * 128 + (x 1).val
      omega)).trans ?_
  rw [View.readCov_eq_canon']
  refine congrArg _ (funext fun a => Fin.ext ?_)
  match a with
  | ⟨0, _⟩ => show 0 + 1 * ((x 0).val / 256) = (k 0).val; omega
  | ⟨1, _⟩ => show kh + 1 * ((x 0).val / 16 % 16) = (k 1).val; omega
  | ⟨2, _⟩ => show kw + 1 * ((x 0).val % 16) = (k 2).val; omega
  | ⟨3, _⟩ => show 0 + 1 * (x 1).val = (k 3).val; omega

/-- The block the tap (kh, kw) stores at columns [off, off + 128), off = (kh * 5 + kw) * 128, agrees with the one
    function of the second patch matrix's index. -/
theorem tapB_piece (C1 : Memref sig .tc .vmem S8x20x20x128 .bf16) (L : List (View.Piece (Elt F) S8x20x20x128 .bf16))
    (kh kw off : ℕ) (hkh : kh < 5) (hkw : kw < 5) (hoff : off = (kh * 5 + kw) * 128)
    (inbM : ∀ a, (![0, kh, kw, 0] : Fin 4 → ℕ) a + S8x16x16x128.size a ≤ S8x20x20x128.size a)
    (h2 : (Rect.unit (s := S8x20x20x128) ![0, kh, kw, 0] S8x16x16x128.size inbM).toLoadRect.shape.ShapeCasts S2048x128)
    (h3 : S2048x128.ShapeCasts S2048x128)
    (inbC : ∀ a, (![0, off] : Fin 2 → ℕ) a + S2048x128.size a ≤ S2048x3200.size a)
    (x : (Rect.unit (s := S2048x3200) ![0, off] S2048x128.size inbC).shape.Idx) :
    shapeCast S2048x128 (shapeCast S2048x128
      (C1.view.readCov L (Rect.unit (s := S8x20x20x128) ![0, kh, kw, 0] S8x16x16x128.size inbM).toLoadRect) h2) h3 x
      = View.canon L (xbIdx ((Rect.unit (s := S2048x3200) ![0, off] S2048x128.size inbC).emb x)) := by
  have hx0 : (x 0).val < 2048 := (x 0).isLt
  have hx1 : (x 1).val < 128 := (x 1).isLt
  subst hoff
  exact tapB_apply C1 L kh kw inbM h2 h3 x _
    (by show (0 + 1 * (x 0).val) / 256 = (x 0).val / 256; omega)
    (by show ((kh * 5 + kw) * 128 + 1 * (x 1).val) / 640 + (0 + 1 * (x 0).val) / 16 % 16 = kh + (x 0).val / 16 % 16; omega)
    (by show ((kh * 5 + kw) * 128 + 1 * (x 1).val) / 128 % 5 + (0 + 1 * (x 0).val) % 16 = kw + (x 0).val % 16; omega)
    (by show ((kh * 5 + kw) * 128 + 1 * (x 1).val) % 128 = (x 1).val; omega)

section Patch

variable (c : Dev nD) (M0 : Memref sig .tc .vmem S8x20x20x64 .bf16) (M1 : Memref sig .tc .vmem S1600x128 .bf16)
  (M2 : Memref sig .tc .vmem S1x128 .f32) (C0 : Memref sig .tc .vmem S2048x1600 .bf16)
  (f0 : Bf1 (F := F) c M0) (f1 : Bf1 (F := F) c M1) (f2 : Bf1 (F := F) c M2)
  (C1 : Memref sig .tc .vmem S8x20x20x128 .bf16) (C2 : Memref sig .tc .vmem S2048x3200 .bf16)

set_option maxHeartbeats 4000000 in
/-- Every one of the 25 stored blocks of the second patch matrix is a block of that one function. -/
theorem piecesB :
    ∀ p ∈ run1.sl.G2_25 c M0 M1 M2 C0 C1 f0 f1 f2, ∀ x : p.1.shape.Idx,
      p.2 x = View.canon (run1.sl.G1_2 c M0 M1 M2 C0 f0 f1 f2) (xbIdx (p.1.emb x)) := by
  unfold run1.sl.G2_25
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl
  · intro x; unfold run1.sl.v292 run1.sl.v289 run1.sl.v288
    exact tapB_piece C1 _ 4 4 3072 (by omega) (by omega) rfl _ _ _ (Rect.inb₂ (by decide) (by decide)) _
  · intro x; unfold run1.sl.v287 run1.sl.v284 run1.sl.v283
    exact tapB_piece C1 _ 4 3 2944 (by omega) (by omega) rfl _ _ _ (Rect.inb₂ (by decide) (by decide)) _
  · intro x; unfold run1.sl.v282 run1.sl.v279 run1.sl.v278
    exact tapB_piece C1 _ 4 2 2816 (by omega) (by omega) rfl _ _ _ (Rect.inb₂ (by decide) (by decide)) _
  · intro x; unfold run1.sl.v277 run1.sl.v274 run1.sl.v273
    exact tapB_piece C1 _ 4 1 2688 (by omega) (by omega) rfl _ _ _ (Rect.inb₂ (by decide) (by decide)) _
  · intro x; unfold run1.sl.v272 run1.sl.v269 run1.sl.v268
    exact tapB_piece C1 _ 4 0 2560 (by omega) (by omega) rfl _ _ _ (Rect.inb₂ (by decide) (by decide)) _
  · intro x; unfold run1.sl.v267 run1.sl.v264 run1.sl.v263
    exact tapB_piece C1 _ 3 4 2432 (by omega) (by omega) rfl _ _ _ (Rect.inb₂ (by decide) (by decide)) _
  · intro x; unfold run1.sl.v262 run1.sl.v259 run1.sl.v258
    exact tapB_piece C1 _ 3 3 2304 (by omega) (by omega) rfl _ _ _ (Rect.inb₂ (by decide) (by decide)) _
  · intro x; unfold run1.sl.v257 run1.sl.v254 run1.sl.v253
    exact tapB_piece C1 _ 3 2 2176 (by omega) (by omega) rfl _ _ _ (Rect.inb₂ (by decide) (by decide)) _
  · intro x; unfold run1.sl.v252 run1.sl.v249 run1.sl.v248
    exact tapB_piece C1 _ 3 1 2048 (by omega) (by omega) rfl _ _ _ (Rect.inb₂ (by decide) (by decide)) _
  · intro x; unfold run1.sl.v247 run1.sl.v244 run1.sl.v243
    exact tapB_piece C1 _ 3 0 1920 (by omega) (by omega) rfl _ _ _ (Rect.inb₂ (by decide) (by decide)) _
  · intro x; unfold run1.sl.v242 run1.sl.v239 run1.sl.v238
    exact tapB_piece C1 _ 2 4 1792 (by omega) (by omega) rfl _ _ _ (Rect.inb₂ (by decide) (by decide)) _
  · intro x; unfold run1.sl.v237 run1.sl.v234 run1.sl.v233
    exact tapB_piece C1 _ 2 3 1664 (by omega) (by omega) rfl _ _ _ (Rect.inb₂ (by decide) (by decide)) _
  · intro x; unfold run1.sl.v232 run1.sl.v229 run1.sl.v228
    exact tapB_piece C1 _ 2 2 1536 (by omega) (by omega) rfl _ _ _ (Rect.inb₂ (by decide) (by decide)) _
  · intro x; unfold run1.sl.v227 run1.sl.v224 run1.sl.v223
    exact tapB_piece C1 _ 2 1 1408 (by omega) (by omega) rfl _ _ _ (Rect.inb₂ (by decide) (by decide)) _
  · intro x; unfold run1.sl.v222 run1.sl.v219 run1.sl.v218
    exact tapB_piece C1 _ 2 0 1280 (by omega) (by omega) rfl _ _ _ (Rect.inb₂ (by decide) (by decide)) _
  · intro x; unfold run1.sl.v217 run1.sl.v214 run1.sl.v213
    exact tapB_piece C1 _ 1 4 1152 (by omega) (by omega) rfl _ _ _ (Rect.inb₂ (by decide) (by decide)) _
  · intro x; unfold run1.sl.v212 run1.sl.v209 run1.sl.v208
    exact tapB_piece C1 _ 1 3 1024 (by omega) (by omega) rfl _ _ _ (Rect.inb₂ (by decide) (by decide)) _
  · intro x; unfold run1.sl.v207 run1.sl.v204 run1.sl.v203
    exact tapB_piece C1 _ 1 2 896 (by omega) (by omega) rfl _ _ _ (Rect.inb₂ (by decide) (by decide)) _
  · intro x; unfold run1.sl.v202 run1.sl.v199 run1.sl.v198
    exact tapB_piece C1 _ 1 1 768 (by omega) (by omega) rfl _ _ _ (Rect.inb₂ (by decide) (by decide)) _
  · intro x; unfold run1.sl.v197 run1.sl.v194 run1.sl.v193
    exact tapB_piece C1 _ 1 0 640 (by omega) (by omega) rfl _ _ _ (Rect.inb₂ (by decide) (by decide)) _
  · intro x; unfold run1.sl.v192 run1.sl.v189 run1.sl.v188
    exact tapB_piece C1 _ 0 4 512 (by omega) (by omega) rfl _ _ _ (Rect.inb₂ (by decide) (by decide)) _
  · intro x; unfold run1.sl.v187 run1.sl.v184 run1.sl.v183
    exact tapB_piece C1 _ 0 3 384 (by omega) (by omega) rfl _ _ _ (Rect.inb₂ (by decide) (by decide)) _
  · intro x; unfold run1.sl.v182 run1.sl.v179 run1.sl.v178
    exact tapB_piece C1 _ 0 2 256 (by omega) (by omega) rfl _ _ _ (Rect.inb₂ (by decide) (by decide)) _
  · intro x; unfold run1.sl.v177 run1.sl.v174 run1.sl.v173
    exact tapB_piece C1 _ 0 1 128 (by omega) (by omega) rfl _ _ _ (Rect.inb₂ (by decide) (by decide)) _
  · intro x; unfold run1.sl.v172 run1.sl.v169 run1.sl.v168
    exact tapB_piece C1 _ 0 0 0 (by omega) (by omega) rfl _ _ _ (Rect.inb₂ (by decide) (by decide)) _

/-- The 25 blocks tile the second patch matrix. -/
theorem coverB (y : S2048x3200.Idx) : ∃ p ∈ run1.sl.G2_25 c M0 M1 M2 C0 C1 f0 f1 f2, y ∈ p.1.set :=
  View.cover_of_tiledL (run1.sl.G2_25 c M0 M1 M2 C0 C1 f0 f1 f2) S2048x128.size (by sl_kernel_rfl) y

/-- THE SECOND PATCH MATRIX READ AT AN INDEX: at (p, t) it is the padded intermediate at
    (p / 256, t / 640 + p / 16 % 16, t / 128 % 5 + p % 16, t % 128). -/
theorem patchB_apply (y : S2048x3200.Idx) :
    run1.sl.v293 c M0 M1 M2 C0 C1 C2 f0 f1 f2 y = ypadG c M0 M1 M2 C0 f0 f1 f2 (xbIdx y) := by
  unfold run1.sl.v293
  rw [View.readCov_eq_canon_ld _ _ _ (coverB c M0 M1 M2 C0 f0 f1 f2 C1), View.ld_unit_zero zero2]
  exact (View.canon_apply_of_pieces (fun y => View.canon (run1.sl.G1_2 c M0 M1 M2 C0 f0 f1 f2) (xbIdx y)) _
    (piecesB c M0 M1 M2 C0 f0 f1 f2 C1) y (coverB c M0 M1 M2 C0 f0 f1 f2 C1 y)).trans (ypad_apply c M0 M1 M2 C0 f0 f1 f2 _)

end Patch

section Bias

variable (c : Dev nD) (M4 : Memref sig .tc .vmem S1x128 .f32) (f4 : Bf1 (F := F) c M4)

/-- The second bias row broadcast to [2048, 128] reads the bias at the column. -/
theorem biasB_apply (j : S2048x128.Idx) :
    run1.sl.v298 c M4 f4 j = M4.view.read (Elt F) f4 (ix2 (0 : Fin 1) (j 1)) := by
  unfold run1.sl.v298
  refine (broadcastTo_apply _ _ j (ix2 (0 : Fin 1) (j 1)) (fun a => match a with | ⟨0, _⟩ => rfl | ⟨1, _⟩ => rfl)).trans ?_
  unfold run1.sl.v297
  rw [shapeCast_self, View.readAt_eq_ld, View.ld_unit_zero (S := S1x128) zero2]
  rfl

end Bias

/-! ## The product, the bias, the rectifier and the pool, at the ideal values -/

section Product

variable (c : Dev nD) (M0 : Memref sig .tc .vmem S8x20x20x64 .bf16) (M1 : Memref sig .tc .vmem S1600x128 .bf16)
  (M2 : Memref sig .tc .vmem S1x128 .f32) (M3 : Memref sig .tc .vmem S3200x128 .bf16) (M4 : Memref sig .tc .vmem S1x128 .f32)
  (C0 : Memref sig .tc .vmem S2048x1600 .bf16) (C1 : Memref sig .tc .vmem S8x20x20x128 .bf16) (C2 : Memref sig .tc .vmem S2048x3200 .bf16)
  (f0 : Bf1 (F := Ideal) c M0) (f1 : Bf1 (F := Ideal) c M1) (f2 : Bf1 (F := Ideal) c M2) (f3 : Bf1 (F := Ideal) c M3)
  (f4 : Bf1 (F := Ideal) c M4)

/-- The contraction index of the second patch-matrix product is its one coordinate, below 3200. -/
abbrev ctrB : (dot_S2048x3200_S3200x128_S2048x128_1_0_0_1_n_n).contr.Idx ≃ Fin 3200 :=
  contrEquiv1 dot_S2048x3200_S3200x128_S2048x128_1_0_0_1_n_n 3200 rfl rfl

/-- THE SECOND PRODUCT READ AT AN INDEX, at the ideal values: the sum over the flattened (row tap, column tap, channel)
    index t of the padded intermediate at the shifted index times the weight at (t, co). -/
theorem convB_sum_apply (j : S2048x128.Idx) :
    run1.sl.v295 (F := Ideal) c M0 M1 M2 M3 C0 C1 C2 f0 f1 f2 f3 j
      = ∑ t : Fin 3200, ypadG (F := Ideal) c M0 M1 M2 C0 f0 f1 f2 (xbIdx (ix2 (j 0) t)) * M3.view.read (Elt Ideal) f3 (ix2 t (j 1)) := by
  unfold run1.sl.v295 run1.sl.cst
  simp only [matmul]
  rw [Ideal.matmul_constant_zero_apply]
  rw [← Equiv.sum_comp ctrB
        (fun t : Fin 3200 => ypadG (F := Ideal) c M0 M1 M2 C0 f0 f1 f2 (xbIdx (ix2 (j 0) t)) * M3.view.read (Elt Ideal) f3 (ix2 t (j 1)))]
  refine Finset.sum_congr rfl fun k _ => ?_
  rw [patchB_apply, View.readAt_apply]
  refine congrArg₂ (· * ·) (congrArg _ (congrArg xbIdx ?_)) (congrArg _ ?_)
  · funext a
    match a with
    | ⟨0, _⟩ => exact Fin.ext rfl
    | ⟨1, _⟩ => exact Fin.ext rfl
  · funext a
    match a with
    | ⟨0, _⟩ => exact Fin.ext (by show 0 + 1 * _ = _; rw [Nat.zero_add, Nat.one_mul]; rfl)
    | ⟨1, _⟩ => exact Fin.ext (by show 0 + 1 * _ = _; rw [Nat.zero_add, Nat.one_mul]; rfl)

/-- THE SECOND CONVOLUTION'S RESULT at (p, co), at the ideal values: the rectifier of the sum plus the bias. -/
theorem yb_apply (j : S2048x128.Idx) :
    run1.sl.v301 (F := Ideal) c M0 M1 M2 M3 M4 C0 C1 C2 f0 f1 f2 f3 f4 j
      = max ((∑ t : Fin 3200, ypadG (F := Ideal) c M0 M1 M2 C0 f0 f1 f2 (xbIdx (ix2 (j 0) t)) * M3.view.read (Elt Ideal) f3 (ix2 t (j 1)))
              + M4.view.read (Elt Ideal) f4 (ix2 (0 : Fin 1) (j 1))) 0 := by
  unfold run1.sl.v301 run1.sl.v299 run1.sl.v157 run1.sl.cst_127
  rw [maximumf_apply, addf_apply, broadcast_apply, convB_sum_apply, biasB_apply]
  show max _ (Ideal.ofBits .f32 0x00000000#32) = _
  rw [Ideal.ofBits_zero_f32]

/-- The padded intermediate of image b and the second weight's column co at plain natural-number indices (zero outside
    the arrays): the form the convolution law is stated over. -/
def ypN (b : ℕ) : ℕ → ℕ → ℕ → EReal :=
  fun r s ci => if h : b < 8 ∧ r < 20 ∧ s < 20 ∧ ci < 128
    then ypadG (F := Ideal) c M0 M1 M2 C0 f0 f1 f2 (ix4 (⟨b, h.1⟩ : Fin 8) (⟨r, h.2.1⟩ : Fin 20) (⟨s, h.2.2.1⟩ : Fin 20) (⟨ci, h.2.2.2⟩ : Fin 128)) else 0
def wbN (co : ℕ) : ℕ → EReal :=
  fun t => if h : t < 3200 ∧ co < 128 then M3.view.read (Elt Ideal) f3 (ix2 (⟨t, h.1⟩ : Fin 3200) (⟨co, h.2⟩ : Fin 128)) else 0

theorem ypN_eq (b r s ci : ℕ) (h0 : b < 8) (h1 : r < 20) (h2 : s < 20) (h3 : ci < 128) :
    ypN c M0 M1 M2 C0 f0 f1 f2 b r s ci
      = ypadG (F := Ideal) c M0 M1 M2 C0 f0 f1 f2 (ix4 (⟨b, h0⟩ : Fin 8) (⟨r, h1⟩ : Fin 20) (⟨s, h2⟩ : Fin 20) (⟨ci, h3⟩ : Fin 128)) := by
  unfold ypN; exact dif_pos ⟨h0, h1, h2, h3⟩
theorem wbN_eq (co t : ℕ) (h0 : t < 3200) (h1 : co < 128) :
    wbN c M3 f3 co t = M3.view.read (Elt Ideal) f3 (ix2 (⟨t, h0⟩ : Fin 3200) (⟨co, h1⟩ : Fin 128)) := by
  unfold wbN; exact dif_pos ⟨h0, h1⟩

/-- Inside the border the padded intermediate is the first convolution's cast result at row
    (b * 16 + (r - 2)) * 16 + (s - 2); -/
theorem ypN_interior (b r s ci : ℕ) (hb : b < 8) (hr2 : 2 ≤ r) (hr18 : r < 18) (hs2 : 2 ≤ s) (hs18 : s < 18) (hci : ci < 128) :
    ypN c M0 M1 M2 C0 f0 f1 f2 b r s ci
      = ya (F := Ideal) c M0 M1 M2 C0 f0 f1 f2 (ix2 (⟨(b * 16 + (r - 2)) * 16 + (s - 2), by omega⟩ : Fin 2048) (⟨ci, hci⟩ : Fin 128)) := by
  rw [ypN_eq c M0 M1 M2 C0 f0 f1 f2 b r s ci hb (by omega) (by omega) hci]
  unfold ypadG
  exact dif_pos ⟨hr2, hr18, hs2, hs18⟩

/-- on the border (and outside the array) it is zero. -/
theorem ypN_border (b r s ci : ℕ) (h : ¬(2 ≤ r ∧ r < 18 ∧ 2 ≤ s ∧ s < 18)) : ypN c M0 M1 M2 C0 f0 f1 f2 b r s ci = 0 := by
  unfold ypN
  split
  · unfold ypadG
    rw [dif_neg h]
    exact Ideal.ofBits_zero_bf16
  · rfl

/-- THE SECOND CONVOLUTION'S RESULT IN THE CONVOLUTION LAW'S FORM: at p = (b * 16 + h) * 16 + x the sum is the ONE
    contraction over the flattened (row tap, column tap, channel) index of image b's padded intermediate against the
    weight's column, at output position (h, x). -/
theorem yb_convFull (j : S2048x128.Idx) :
    run1.sl.v301 (F := Ideal) c M0 M1 M2 M3 M4 C0 C1 C2 f0 f1 f2 f3 f4 j
      = max (TapSum.convFull 5 5 128 (ypN c M0 M1 M2 C0 f0 f1 f2 ((j 0).val / 256)) (wbN c M3 f3 (j 1).val) ((j 0).val / 16 % 16) ((j 0).val % 16)
              + M4.view.read (Elt Ideal) f4 (ix2 (0 : Fin 1) (j 1))) 0 := by
  have hp : (j 0).val < 2048 := idx2_lt0 j
  have hco : (j 1).val < 128 := idx2_lt1 j
  rw [yb_apply]
  unfold TapSum.convFull
  show max (_ + _) 0 = max ((∑ t ∈ Finset.range 3200,
      ypN c M0 M1 M2 C0 f0 f1 f2 ((j 0).val / 256) ((j 0).val / 16 % 16 + t / 640) ((j 0).val % 16 + t / 128 % 5) (t % 128) * wbN c M3 f3 (j 1).val t) + _) 0
  rw [← Fin.sum_univ_eq_sum_range (fun t =>
      ypN c M0 M1 M2 C0 f0 f1 f2 ((j 0).val / 256) ((j 0).val / 16 % 16 + t / 640) ((j 0).val % 16 + t / 128 % 5) (t % 128) * wbN c M3 f3 (j 1).val t) 3200]
  refine congrArg (fun s => max (s + _) 0) (Finset.sum_congr rfl fun t _ => ?_)
  have ht : t.val < 3200 := t.isLt
  show _ = ypN c M0 M1 M2 C0 f0 f1 f2 ((j 0).val / 256) ((j 0).val / 16 % 16 + t.val / 640) ((j 0).val % 16 + t.val / 128 % 5) (t.val % 128) * wbN c M3 f3 (j 1).val t.val
  rw [ypN_eq c M0 M1 M2 C0 f0 f1 f2 _ _ _ _ (by omega) (by omega) (by omega) (Nat.mod_lt _ (by decide)), wbN_eq c M3 f3 _ _ ht hco]
  refine congrArg₂ (· * ·) (congrArg _ (funext fun a => ?_)) (congrArg _ (funext fun a => ?_))
  · match a with
    | ⟨0, _⟩ => exact Fin.ext rfl
    | ⟨1, _⟩ => exact Fin.ext (Nat.add_comm _ _)
    | ⟨2, _⟩ => exact Fin.ext (Nat.add_comm _ _)
    | ⟨3, _⟩ => exact Fin.ext rfl
  · match a with
    | ⟨0, _⟩ => exact Fin.ext rfl
    | ⟨1, _⟩ => exact Fin.ext rfl

/-- THE POOLED OUTPUT BLOCK at the ideal values: at (b, h, xo, co) the fold of max, from the reduction's initial value
    (the pattern of minus infinity), over x' < 4 of the second convolution's result at row
    ((b * 16 + h) * 4 + xo) * 4 + x'. -/
theorem out_apply (i : S8x16x4x128.Idx) :
    run1.sl.v305 (F := Ideal) c M0 M1 M2 M3 M4 C0 C1 C2 f0 f1 f2 f3 f4 i
      = (Finset.univ : Finset (Fin 4)).fold max (Ideal.ofBits .f32 0xFF800000#32)
          (fun x : Fin 4 => run1.sl.v301 (F := Ideal) c M0 M1 M2 M3 M4 C0 C1 C2 f0 f1 f2 f3 f4
            (ix2 (⟨(((i 0).val * 16 + (i 1).val) * 4 + (i 2).val) * 4 + x.val, by
                have h0 : (i 0).val < 8 := (i 0).isLt; have h1 : (i 1).val < 16 := (i 1).isLt
                have h2 : (i 2).val < 4 := (i 2).isLt; have := x.isLt; omega⟩ : Fin 2048)
              (⟨(i 3).val, (i 3).isLt⟩ : Fin 128))) := by
  have h0 : (i 0).val < 8 := (i 0).isLt
  have h1 : (i 1).val < 16 := (i 1).isLt
  have h2 : (i 2).val < 4 := (i 2).isLt
  have h3 : (i 3).val < 128 := (i 3).isLt
  unfold run1.sl.v305
  rw [truncf_apply]
  unfold run1.sl.v304
  refine (shapeCast_apply _ _ i (ix2 (⟨((i 0).val * 16 + (i 1).val) * 4 + (i 2).val, by omega⟩ : Fin 512) (⟨(i 3).val, h3⟩ : Fin 128)) (by
      rw [Shape.rowMajor_val_two, Shape.rowMajor_val_four]
      show (((i 0).val * 16 + (i 1).val) * 4 + (i 2).val) * 128 + (i 3).val = (((i 0).val * 16 + (i 1).val) * 4 + (i 2).val) * 128 + (i 3).val
      rfl)).trans ?_
  unfold run1.sl.v303
  refine (Ideal.multiReduction_maximumf_single _ _ _ _ _ _).trans ?_
  refine Finset.fold_congr fun x _ => ?_
  show run1.sl.v302 (F := Ideal) c M0 M1 M2 M3 M4 C0 C1 C2 f0 f1 f2 f3 f4 _ = _
  unfold run1.sl.v302
  exact shapeCast_apply _ _ _ _ (by
    rw [Shape.rowMajor_val_two, Shape.rowMajor_val_three]
    show ((((i 0).val * 16 + (i 1).val) * 4 + (i 2).val) * 4 + x.val) * 128 + (i 3).val
      = ((((i 0).val * 16 + (i 1).val) * 4 + (i 2).val) * 4 + x.val) * 128 + (i 3).val
    rfl)

/-- The same, each pooled entry in the convolution law's form: output position (h, xo * 4 + x'). -/
theorem out_closed (i : S8x16x4x128.Idx) :
    run1.sl.v305 (F := Ideal) c M0 M1 M2 M3 M4 C0 C1 C2 f0 f1 f2 f3 f4 i
      = (Finset.univ : Finset (Fin 4)).fold max (Ideal.ofBits .f32 0xFF800000#32)
          (fun x : Fin 4 => max (TapSum.convFull 5 5 128 (ypN c M0 M1 M2 C0 f0 f1 f2 (i 0).val) (wbN c M3 f3 (i 3).val) (i 1).val ((i 2).val * 4 + x.val)
              + M4.view.read (Elt Ideal) f4 (ix2 (0 : Fin 1) (⟨(i 3).val, (i 3).isLt⟩ : Fin 128))) 0) := by
  have h0 : (i 0).val < 8 := (i 0).isLt
  have h1 : (i 1).val < 16 := (i 1).isLt
  have h2 : (i 2).val < 4 := (i 2).isLt
  rw [out_apply]
  refine Finset.fold_congr fun x _ => ?_
  have hx : x.val < 4 := x.isLt
  have e0 : ((((i 0).val * 16 + (i 1).val) * 4 + (i 2).val) * 4 + x.val) / 256 = (i 0).val := by omega
  have e1 : ((((i 0).val * 16 + (i 1).val) * 4 + (i 2).val) * 4 + x.val) / 16 % 16 = (i 1).val := by omega
  have e2 : ((((i 0).val * 16 + (i 1).val) * 4 + (i 2).val) * 4 + x.val) % 16 = (i 2).val * 4 + x.val := by omega
  rw [yb_convFull]
  show max (TapSum.convFull 5 5 128 (ypN c M0 M1 M2 C0 f0 f1 f2 (((((i 0).val * 16 + (i 1).val) * 4 + (i 2).val) * 4 + x.val) / 256)) (wbN c M3 f3 (i 3).val)
      (((((i 0).val * 16 + (i 1).val) * 4 + (i 2).val) * 4 + x.val) / 16 % 16) (((((i 0).val * 16 + (i 1).val) * 4 + (i 2).val) * 4 + x.val) % 16)
      + M4.view.read (Elt Ideal) f4 (ix2 (0 : Fin 1) (⟨(i 3).val, (i 3).isLt⟩ : Fin 128))) 0 = _
  rw [e0, e1, e2]

end Product

/-! ## The witness -/

section Witness

variable (c : Dev nD) (i : grid1.Coords) (M0 : Memref sig .tc .vmem S8x20x20x64 .bf16) (h0 : M0.IsWhole)
  (M1 : Memref sig .tc .vmem S1600x128 .bf16) (h1 : M1.IsWhole) (M2 : Memref sig .tc .vmem S1x128 .f32) (h2 : M2.IsWhole)
  (M3 : Memref sig .tc .vmem S3200x128 .bf16) (h3 : M3.IsWhole) (M4 : Memref sig .tc .vmem S1x128 .f32) (h4 : M4.IsWhole)
  (M5 : Memref sig .tc .vmem S8x16x4x128 .bf16) (h5 : M5.IsWhole)
  (C0 : Memref sig .tc .vmem S2048x1600 .bf16) (g0 : C0.IsWhole) (C1 : Memref sig .tc .vmem S8x20x20x128 .bf16) (g1 : C1.IsWhole)
  (C2 : Memref sig .tc .vmem S2048x3200 .bf16) (g2 : C2.IsWhole)

/-- THE REGION'S WITNESS read back through the output's view is the pooled block, at any values. -/
theorem readW1 (f0 : Bf1 (F := F) c M0) (f1 : Bf1 (F := F) c M1) (f2 : Bf1 (F := F) c M2) (f3 : Bf1 (F := F) c M3)
    (f4 : Bf1 (F := F) c M4) :
    M5.view.read (Elt F) (run1 c i M0 h0 M1 h1 M2 h2 M3 h3 M4 h4 M5 h5 C0 g0 C1 g1 C2 g2 f0 f1 f2 f3 f4).1
      = run1.sl.v305 c M0 M1 M2 M3 M4 C0 C1 C2 f0 f1 f2 f3 f4 := by
  unfold run1
  dsimp only
  rw [View.read_writes_junk_eq_canon]
  unfold run1.sl.H5_1
  rw [View.canon_unit_zero zero4]

/-- THE REGION'S WITNESS IN CLOSED FORM, at the ideal values: what the run leaves in the output block, read at
    (b, h, xo, co), is the fold of max over x' < 4 of the second convolution's rectified result at output position
    (h, xo * 4 + x') of image b and channel co. -/
theorem witness_closed (f0 : Bf1 (F := Ideal) c M0) (f1 : Bf1 (F := Ideal) c M1) (f2 : Bf1 (F := Ideal) c M2)
    (f3 : Bf1 (F := Ideal) c M3) (f4 : Bf1 (F := Ideal) c M4) (y : S8x16x4x128.Idx) :
    M5.view.read (Elt Ideal) (run1 (F := Ideal) c i M0 h0 M1 h1 M2 h2 M3 h3 M4 h4 M5 h5 C0 g0 C1 g1 C2 g2 f0 f1 f2 f3 f4).1 y
      = (Finset.univ : Finset (Fin 4)).fold max (Ideal.ofBits .f32 0xFF800000#32)
          (fun x : Fin 4 => max (TapSum.convFull 5 5 128 (ypN c M0 M1 M2 C0 f0 f1 f2 (y 0).val) (wbN c M3 f3 (y 3).val) (y 1).val ((y 2).val * 4 + x.val)
              + M4.view.read (Elt Ideal) f4 (ix2 (0 : Fin 1) (⟨(y 3).val, (y 3).isLt⟩ : Fin 128))) 0) :=
  (congrFun (readW1 c i M0 h0 M1 h1 M2 h2 M3 h3 M4 h4 M5 h5 C0 g0 C1 g1 C2 g2 f0 f1 f2 f3 f4) y).trans
    (out_closed c M0 M1 M2 M3 M4 C0 C1 C2 f0 f1 f2 f3 f4 y)

end Witness

end Conv2b

end Cert.ReferenceIdeal.Hand

end
-- ==== Proof.RefConv2aValue.lean ====
/-
  The reference's region 1, first convolution of the pair, read at an index.

  The body builds a patch matrix [2048, 1600] in scratch by 25 slice stores: the store for the tap (kh, kw) writes the
  columns [(kh * 5 + kw) * 64, (kh * 5 + kw + 1) * 64) with the [8,16,16,64] window of the zero-padded activation
  [8,20,20,64] at offsets (0, kh, kw, 0), flattened row-major to [2048,64].  The 25 column blocks tile the matrix, and each
  is a block of ONE function of the matrix index: at row p = (b * 16 + h) * 16 + x and column t = (kh * 5 + kw) * 64 + ci
  the matrix holds the activation at (b, kh + h, kw + x, ci).  So the load of the whole matrix after the stores reads
  that function, the product with the weight is at each entry the sum over t of the shifted activation times the
  weight, and the convolution's result before the cast is the rectifier of that sum plus the bias: at the ideal
  values, the ONE contraction over the flattened (row tap, column tap, channel) index.
-/
import proofs.«147627_g2000402439390779_pallasbulk_891_17_alg».proof.Proof.RefPairRegion1
import proofs.«147627_g2000402439390779_pallasbulk_891_17_alg».proof.Proof.RefConv4Value

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section AnyFloat

variable {F : FTy → Type} [FloatOps F] [Cert.ReferenceIdeal.Facts]

/-- One tap's block of the patch matrix read at a local index: the block stored for the tap (kh, kw) is the
    [8,16,16,64] window of the padded activation at offsets (0, kh, kw, 0), flattened row-major to [2048,64]; so at
    (p, ci) it reads the activation at (p / 256, kh + p / 16 % 16, kw + p % 16, ci). -/
theorem tap_apply_2a (c : Dev nD) (M0 : Memref sig .tc .vmem S8x20x20x64 .bf16) (f0 : Bf1 (F := F) c M0)
    (kh kw : ℕ) (inbM : ∀ a, (![0, kh, kw, 0] : Fin 4 → ℕ) a + S8x16x16x64.size a ≤ S8x20x20x64.size a)
    (h1 : (Rect.unit (s := S8x20x20x64) ![0, kh, kw, 0] S8x16x16x64.size inbM).toLoadRect.shape.ShapeCasts S8x16x16x64)
    (h2 : S8x16x16x64.ShapeCasts S2048x64) (h3 : S2048x64.ShapeCasts S2048x64)
    (x : S2048x64.Idx) (k : S8x20x20x64.Idx)
    (hk0 : (k 0).val = (x 0).val / 256) (hk1 : (k 1).val = kh + (x 0).val / 16 % 16)
    (hk2 : (k 2).val = kw + (x 0).val % 16) (hk3 : (k 3).val = (x 1).val) :
    shapeCast S2048x64 (shapeCast S2048x64 (shapeCast S8x16x16x64
      (View.readAt (Elt F) M0.view (Rect.unit (s := S8x20x20x64) ![0, kh, kw, 0] S8x16x16x64.size inbM).toLoadRect f0) h1) h2) h3 x
      = M0.view.read (Elt F) f0 k := by
  have hx0 : (x 0).val < 2048 := idx2_lt0 x
  have hx1 : (x 1).val < 64 := idx2_lt1 x
  -- the outer cast is between equal shapes
  rw [shapeCast_self]
  -- the flattening [8,16,16,64] → [2048,64] keeps the row-major position
  refine (shapeCast_apply _ _ x (ix4 ⟨(x 0).val / 256, by omega⟩ ⟨(x 0).val / 16 % 16, Nat.mod_lt _ (by decide)⟩ ⟨(x 0).val % 16, Nat.mod_lt _ (by decide)⟩ ⟨(x 1).val, hx1⟩)
    (by rw [Shape.rowMajor_val_two, Shape.rowMajor_val_four]
        show ((((x 0).val / 256) * 16 + (x 0).val / 16 % 16) * 16 + (x 0).val % 16) * 64 + (x 1).val = (x 0).val * 64 + (x 1).val
        omega)).trans ?_
  -- the loaded window already has the window's shape
  refine (shapeCast_apply _ _ _ (ix4 ⟨(x 0).val / 256, by omega⟩ ⟨(x 0).val / 16 % 16, Nat.mod_lt _ (by decide)⟩ ⟨(x 0).val % 16, Nat.mod_lt _ (by decide)⟩ ⟨(x 1).val, hx1⟩) rfl).trans ?_
  -- and a load through a unit-stride rectangle reads the contents at offset + local index
  rw [View.readAt_apply]
  refine congrArg _ (funext fun a => Fin.ext ?_)
  match a with
  | ⟨0, _⟩ => show 0 + 1 * ((x 0).val / 256) = (k 0).val; omega
  | ⟨1, _⟩ => show kh + 1 * ((x 0).val / 16 % 16) = (k 1).val; omega
  | ⟨2, _⟩ => show kw + 1 * ((x 0).val % 16) = (k 2).val; omega
  | ⟨3, _⟩ => show 0 + 1 * (x 1).val = (k 3).val; omega

/-- The padded activation's index that the patch matrix's entry (p, t) reads: with p = (b * 16 + h) * 16 + x and
    t = (kh * 5 + kw) * 64 + ci it is (b, kh + h, kw + x, ci). -/
def xaIdx_2a (y : S2048x1600.Idx) : S8x20x20x64.Idx :=
  ix4 ⟨(y 0).val / 256, by have := idx2_lt0 y; omega⟩
      ⟨(y 1).val / 320 + (y 0).val / 16 % 16, by have := idx2_lt1 y; omega⟩
      ⟨(y 1).val / 64 % 5 + (y 0).val % 16, by omega⟩
      ⟨(y 1).val % 64, Nat.mod_lt _ (by decide)⟩

/-- The block the tap (kh, kw) stores at columns [off, off + 64), off = (kh * 5 + kw) * 64, agrees with the one
    function of the patch matrix's index. -/
theorem tap_piece_2a (c : Dev nD) (M0 : Memref sig .tc .vmem S8x20x20x64 .bf16) (f0 : Bf1 (F := F) c M0)
    (kh kw off : ℕ) (hkh : kh < 5) (hkw : kw < 5) (hoff : off = (kh * 5 + kw) * 64)
    (inbM : ∀ a, (![0, kh, kw, 0] : Fin 4 → ℕ) a + S8x16x16x64.size a ≤ S8x20x20x64.size a)
    (h1 : (Rect.unit (s := S8x20x20x64) ![0, kh, kw, 0] S8x16x16x64.size inbM).toLoadRect.shape.ShapeCasts S8x16x16x64)
    (h2 : S8x16x16x64.ShapeCasts S2048x64) (h3 : S2048x64.ShapeCasts S2048x64)
    (inbC : ∀ a, (![0, off] : Fin 2 → ℕ) a + S2048x64.size a ≤ S2048x1600.size a)
    (x : (Rect.unit (s := S2048x1600) ![0, off] S2048x64.size inbC).shape.Idx) :
    shapeCast S2048x64 (shapeCast S2048x64 (shapeCast S8x16x16x64
      (View.readAt (Elt F) M0.view (Rect.unit (s := S8x20x20x64) ![0, kh, kw, 0] S8x16x16x64.size inbM).toLoadRect f0) h1) h2) h3 x
      = M0.view.read (Elt F) f0 (xaIdx_2a ((Rect.unit (s := S2048x1600) ![0, off] S2048x64.size inbC).emb x)) := by
  have hx0 : (x 0).val < 2048 := (x 0).isLt
  have hx1 : (x 1).val < 64 := (x 1).isLt
  subst hoff
  exact tap_apply_2a c M0 f0 kh kw inbM h1 h2 h3 x _
    (by show (0 + 1 * (x 0).val) / 256 = (x 0).val / 256; omega)
    (by show ((kh * 5 + kw) * 64 + 1 * (x 1).val) / 320 + (0 + 1 * (x 0).val) / 16 % 16 = kh + (x 0).val / 16 % 16; omega)
    (by show ((kh * 5 + kw) * 64 + 1 * (x 1).val) / 64 % 5 + (0 + 1 * (x 0).val) % 16 = kw + (x 0).val % 16; omega)
    (by show ((kh * 5 + kw) * 64 + 1 * (x 1).val) % 64 = (x 1).val; omega)

set_option maxHeartbeats 4000000 in
/-- Every one of the 25 stored blocks is a block of that one function. -/
theorem pieces_2a (c : Dev nD) (M0 : Memref sig .tc .vmem S8x20x20x64 .bf16) (f0 : Bf1 (F := F) c M0) :
    ∀ p ∈ run1.sl.G0_25 c M0 f0, ∀ x : p.1.shape.Idx, p.2 x = M0.view.read (Elt F) f0 (xaIdx_2a (p.1.emb x)) := by
  unfold run1.sl.G0_25
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl
  · intro x; unfold run1.sl.v149 run1.sl.v146 run1.sl.v145
    exact tap_piece_2a c M0 f0 4 4 1536 (by omega) (by omega) rfl _ _ _ _ (Rect.inb₂ (by decide) (by decide)) _
  · intro x; unfold run1.sl.v143 run1.sl.v140 run1.sl.v139
    exact tap_piece_2a c M0 f0 4 3 1472 (by omega) (by omega) rfl _ _ _ _ (Rect.inb₂ (by decide) (by decide)) _
  · intro x; unfold run1.sl.v137 run1.sl.v134 run1.sl.v133
    exact tap_piece_2a c M0 f0 4 2 1408 (by omega) (by omega) rfl _ _ _ _ (Rect.inb₂ (by decide) (by decide)) _
  · intro x; unfold run1.sl.v131 run1.sl.v128 run1.sl.v127
    exact tap_piece_2a c M0 f0 4 1 1344 (by omega) (by omega) rfl _ _ _ _ (Rect.inb₂ (by decide) (by decide)) _
  · intro x; unfold run1.sl.v125 run1.sl.v122 run1.sl.v121
    exact tap_piece_2a c M0 f0 4 0 1280 (by omega) (by omega) rfl _ _ _ _ (Rect.inb₂ (by decide) (by decide)) _
  · intro x; unfold run1.sl.v119 run1.sl.v116 run1.sl.v115
    exact tap_piece_2a c M0 f0 3 4 1216 (by omega) (by omega) rfl _ _ _ _ (Rect.inb₂ (by decide) (by decide)) _
  · intro x; unfold run1.sl.v113 run1.sl.v110 run1.sl.v109 run1.sl.r
    exact tap_piece_2a c M0 f0 3 3 1152 (by omega) (by omega) rfl _ _ _ _ (Rect.inb₂ (by decide) (by decide)) _
  · intro x; unfold run1.sl.v107 run1.sl.v104 run1.sl.v103
    exact tap_piece_2a c M0 f0 3 2 1088 (by omega) (by omega) rfl _ _ _ _ (Rect.inb₂ (by decide) (by decide)) _
  · intro x; unfold run1.sl.v101 run1.sl.v98 run1.sl.v97
    exact tap_piece_2a c M0 f0 3 1 1024 (by omega) (by omega) rfl _ _ _ _ (Rect.inb₂ (by decide) (by decide)) _
  · intro x; unfold run1.sl.v95 run1.sl.v92 run1.sl.v91
    exact tap_piece_2a c M0 f0 3 0 960 (by omega) (by omega) rfl _ _ _ _ (Rect.inb₂ (by decide) (by decide)) _
  · intro x; unfold run1.sl.v89 run1.sl.v86 run1.sl.v85
    exact tap_piece_2a c M0 f0 2 4 896 (by omega) (by omega) rfl _ _ _ _ (Rect.inb₂ (by decide) (by decide)) _
  · intro x; unfold run1.sl.v83 run1.sl.v80 run1.sl.v79
    exact tap_piece_2a c M0 f0 2 3 832 (by omega) (by omega) rfl _ _ _ _ (Rect.inb₂ (by decide) (by decide)) _
  · intro x; unfold run1.sl.v77 run1.sl.v74 run1.sl.v73
    exact tap_piece_2a c M0 f0 2 2 768 (by omega) (by omega) rfl _ _ _ _ (Rect.inb₂ (by decide) (by decide)) _
  · intro x; unfold run1.sl.v71 run1.sl.v68 run1.sl.v67
    exact tap_piece_2a c M0 f0 2 1 704 (by omega) (by omega) rfl _ _ _ _ (Rect.inb₂ (by decide) (by decide)) _
  · intro x; unfold run1.sl.v65 run1.sl.v62 run1.sl.v61
    exact tap_piece_2a c M0 f0 2 0 640 (by omega) (by omega) rfl _ _ _ _ (Rect.inb₂ (by decide) (by decide)) _
  · intro x; unfold run1.sl.v59 run1.sl.v56 run1.sl.v55
    exact tap_piece_2a c M0 f0 1 4 576 (by omega) (by omega) rfl _ _ _ _ (Rect.inb₂ (by decide) (by decide)) _
  · intro x; unfold run1.sl.v53 run1.sl.v50 run1.sl.v49
    exact tap_piece_2a c M0 f0 1 3 512 (by omega) (by omega) rfl _ _ _ _ (Rect.inb₂ (by decide) (by decide)) _
  · intro x; unfold run1.sl.v47 run1.sl.v44 run1.sl.v43
    exact tap_piece_2a c M0 f0 1 2 448 (by omega) (by omega) rfl _ _ _ _ (Rect.inb₂ (by decide) (by decide)) _
  · intro x; unfold run1.sl.v41 run1.sl.v38 run1.sl.v37
    exact tap_piece_2a c M0 f0 1 1 384 (by omega) (by omega) rfl _ _ _ _ (Rect.inb₂ (by decide) (by decide)) _
  · intro x; unfold run1.sl.v35 run1.sl.v32 run1.sl.v31
    exact tap_piece_2a c M0 f0 1 0 320 (by omega) (by omega) rfl _ _ _ _ (Rect.inb₂ (by decide) (by decide)) _
  · intro x; unfold run1.sl.v29 run1.sl.v26 run1.sl.v25
    exact tap_piece_2a c M0 f0 0 4 256 (by omega) (by omega) rfl _ _ _ _ (Rect.inb₂ (by decide) (by decide)) _
  · intro x; unfold run1.sl.v23 run1.sl.v20 run1.sl.v19
    exact tap_piece_2a c M0 f0 0 3 192 (by omega) (by omega) rfl _ _ _ _ (Rect.inb₂ (by decide) (by decide)) _
  · intro x; unfold run1.sl.v17 run1.sl.v14 run1.sl.v13
    exact tap_piece_2a c M0 f0 0 2 128 (by omega) (by omega) rfl _ _ _ _ (Rect.inb₂ (by decide) (by decide)) _
  · intro x; unfold run1.sl.v11 run1.sl.v8 run1.sl.v7
    exact tap_piece_2a c M0 f0 0 1 64 (by omega) (by omega) rfl _ _ _ _ (Rect.inb₂ (by decide) (by decide)) _
  · intro x; unfold run1.sl.v5 run1.sl.v2 run1.sl.v1
    exact tap_piece_2a c M0 f0 0 0 0 (by omega) (by omega) rfl _ _ _ _ (Rect.inb₂ (by decide) (by decide)) _

/-- The 25 blocks tile the patch matrix. -/
theorem cover_2a (c : Dev nD) (M0 : Memref sig .tc .vmem S8x20x20x64 .bf16) (f0 : Bf1 (F := F) c M0) (y : S2048x1600.Idx) :
    ∃ p ∈ run1.sl.G0_25 c M0 f0, y ∈ p.1.set :=
  View.cover_of_tiledL (run1.sl.G0_25 c M0 f0) S2048x64.size (by sl_kernel_rfl) y

/-- THE PATCH MATRIX READ AT AN INDEX: what the load after the 25 slice stores returns, at (p, t), is the padded
    activation's raw contents read at the shifted index. -/
theorem patch_apply_2a (c : Dev nD) (M0 : Memref sig .tc .vmem S8x20x20x64 .bf16) (C0 : Memref sig .tc .vmem S2048x1600 .bf16)
    (f0 : Bf1 (F := F) c M0) (y : S2048x1600.Idx) :
    run1.sl.v150 c M0 C0 f0 y = M0.view.read (Elt F) f0 (xaIdx_2a y) := by
  unfold run1.sl.v150
  rw [View.readCov_eq_canon_ld _ _ _ (cover_2a c M0 f0), View.ld_unit_zero zero2_4]
  exact View.canon_apply_of_pieces (fun y => M0.view.read (Elt F) f0 (xaIdx_2a y)) _ (pieces_2a c M0 f0) y (cover_2a c M0 f0 y)

/-- The bias row broadcast to [2048, 128] reads the bias at the column. -/
theorem bias_apply_2a (c : Dev nD) (M2 : Memref sig .tc .vmem S1x128 .f32) (f2 : Bf1 (F := F) c M2) (j : S2048x128.Idx) :
    run1.sl.v155 c M2 f2 j = M2.view.read (Elt F) f2 (ix2 (0 : Fin 1) (j 1)) := by
  unfold run1.sl.v155
  refine (broadcastTo_apply _ _ j (ix2 (0 : Fin 1) (j 1)) (fun a => ?_)).trans ?_
  · match a with
    | ⟨0, _⟩ => rfl
    | ⟨1, _⟩ => rfl
  · unfold run1.sl.v154
    rw [shapeCast_self, readAt_unit_zero M2 zero2_4]
    rfl

end AnyFloat

/-! ## The product, the bias and the rectifier, at the ideal values -/

section AtIdeal

variable [Cert.ReferenceIdeal.Facts]

/-- The product read at (a, b): row a of the patch matrix against column b of the weight. -/
theorem conv_sum_ix_2a (c : Dev nD) (M0 : Memref sig .tc .vmem S8x20x20x64 .bf16) (M1 : Memref sig .tc .vmem S1600x128 .bf16)
    (C0 : Memref sig .tc .vmem S2048x1600 .bf16) (f0 : Bf1 (F := Ideal) c M0) (f1 : Bf1 (F := Ideal) c M1) (a : Fin 2048) (b : Fin 128) :
    run1.sl.v152 (F := Ideal) c M0 M1 C0 f0 f1 (ix2 a b)
      = ∑ t : Fin 1600, M0.view.read (Elt Ideal) f0 (xaIdx_2a (ix2 a t)) * M1.view.read (Elt Ideal) f1 (ix2 t b) := by
  unfold run1.sl.v152 run1.sl.cst
  refine (matmul_plain_zero_apply (m := 2048) (k := 1600) (n := 128) (φ₁ := .bf16) (φ₂ := .bf16) none _ _ a b).trans ?_
  refine Finset.sum_congr rfl fun t _ => ?_
  exact congrArg₂ (· * ·) (patch_apply_2a c M0 C0 f0 _) (congrFun (readAt_unit_zero M1 zero2_4 _ f1) _)

/-- THE PRODUCT READ AT AN INDEX, at the ideal values: row p of the patch matrix against column co of the weight is
    the sum over the flattened (row tap, column tap, channel) index t of the activation at the shifted index times
    the weight at (t, co). -/
theorem conv_sum_apply_2a (c : Dev nD) (M0 : Memref sig .tc .vmem S8x20x20x64 .bf16) (M1 : Memref sig .tc .vmem S1600x128 .bf16)
    (C0 : Memref sig .tc .vmem S2048x1600 .bf16) (f0 : Bf1 (F := Ideal) c M0) (f1 : Bf1 (F := Ideal) c M1) (j : S2048x128.Idx) :
    run1.sl.v152 (F := Ideal) c M0 M1 C0 f0 f1 j
      = ∑ t : Fin 1600, M0.view.read (Elt Ideal) f0 (xaIdx_2a (ix2 (j 0) t)) * M1.view.read (Elt Ideal) f1 (ix2 t (j 1)) := by
  have key := conv_sum_ix_2a c M0 M1 C0 f0 f1 (j 0) (j 1)
  exact (congrArg (run1.sl.v152 (F := Ideal) c M0 M1 C0 f0 f1) (eq_ix2 j)).trans key

/-- THE CONVOLUTION'S RESULT BEFORE THE CAST, at the ideal values, read at (p, co): the rectifier of the product's
    sum plus the bias. -/
theorem ya_apply_2a (c : Dev nD) (M0 : Memref sig .tc .vmem S8x20x20x64 .bf16) (M1 : Memref sig .tc .vmem S1600x128 .bf16)
    (M2 : Memref sig .tc .vmem S1x128 .f32) (C0 : Memref sig .tc .vmem S2048x1600 .bf16)
    (f0 : Bf1 (F := Ideal) c M0) (f1 : Bf1 (F := Ideal) c M1) (f2 : Bf1 (F := Ideal) c M2) (j : S2048x128.Idx) :
    run1.sl.v158 (F := Ideal) c M0 M1 M2 C0 f0 f1 f2 j
      = max ((∑ t : Fin 1600, M0.view.read (Elt Ideal) f0 (xaIdx_2a (ix2 (j 0) t)) * M1.view.read (Elt Ideal) f1 (ix2 t (j 1)))
              + M2.view.read (Elt Ideal) f2 (ix2 (0 : Fin 1) (j 1))) 0 := by
  unfold run1.sl.v158 run1.sl.v156 run1.sl.v157 run1.sl.cst_127
  rw [maximumf_apply, addf_apply, broadcast_apply, conv_sum_apply_2a, bias_apply_2a]
  show max _ (Ideal.ofBits .f32 0x00000000#32) = _
  rw [Ideal.ofBits_zero_f32]

/-- The padded activation of image b and the weight's column co as functions of plain natural-number indices
    (zero outside the arrays), the form the convolution law is stated over. -/
def xaN_2a (c : Dev nD) (M0 : Memref sig .tc .vmem S8x20x20x64 .bf16) (f0 : Bf1 (F := Ideal) c M0) (b : ℕ) : ℕ → ℕ → ℕ → EReal :=
  fun r s ci => if h : b < 8 ∧ r < 20 ∧ s < 20 ∧ ci < 64
    then M0.view.read (Elt Ideal) f0 (ix4 ⟨b, h.1⟩ ⟨r, h.2.1⟩ ⟨s, h.2.2.1⟩ ⟨ci, h.2.2.2⟩) else 0
def waN_2a (c : Dev nD) (M1 : Memref sig .tc .vmem S1600x128 .bf16) (f1 : Bf1 (F := Ideal) c M1) (co : ℕ) : ℕ → EReal :=
  fun t => if h : t < 1600 ∧ co < 128 then M1.view.read (Elt Ideal) f1 (ix2 ⟨t, h.1⟩ ⟨co, h.2⟩) else 0

theorem xaN_2a_eq (c : Dev nD) (M0 : Memref sig .tc .vmem S8x20x20x64 .bf16) (f0 : Bf1 (F := Ideal) c M0) (b r s ci : ℕ)
    (h0 : b < 8) (h1 : r < 20) (h2 : s < 20) (h3 : ci < 64) :
    xaN_2a c M0 f0 b r s ci = M0.view.read (Elt Ideal) f0 (ix4 ⟨b, h0⟩ ⟨r, h1⟩ ⟨s, h2⟩ ⟨ci, h3⟩) := by
  unfold xaN_2a; exact dif_pos ⟨h0, h1, h2, h3⟩
theorem waN_2a_eq (c : Dev nD) (M1 : Memref sig .tc .vmem S1600x128 .bf16) (f1 : Bf1 (F := Ideal) c M1) (co t : ℕ)
    (h0 : t < 1600) (h1 : co < 128) :
    waN_2a c M1 f1 co t = M1.view.read (Elt Ideal) f1 (ix2 ⟨t, h0⟩ ⟨co, h1⟩) := by
  unfold waN_2a; exact dif_pos ⟨h0, h1⟩

/-- The same in the convolution law's form: at p = (b * 16 + h) * 16 + x the sum is the ONE contraction over the
    flattened (row tap, column tap, channel) index of image b's padded activation against the weight's column. -/
theorem ya_convFull_2a (c : Dev nD) (M0 : Memref sig .tc .vmem S8x20x20x64 .bf16) (M1 : Memref sig .tc .vmem S1600x128 .bf16)
    (M2 : Memref sig .tc .vmem S1x128 .f32) (C0 : Memref sig .tc .vmem S2048x1600 .bf16)
    (f0 : Bf1 (F := Ideal) c M0) (f1 : Bf1 (F := Ideal) c M1) (f2 : Bf1 (F := Ideal) c M2) (j : S2048x128.Idx) :
    run1.sl.v158 (F := Ideal) c M0 M1 M2 C0 f0 f1 f2 j
      = max (TapSum.convFull 5 5 64 (xaN_2a c M0 f0 ((j 0).val / 256)) (waN_2a c M1 f1 (j 1).val) ((j 0).val / 16 % 16) ((j 0).val % 16)
              + M2.view.read (Elt Ideal) f2 (ix2 (0 : Fin 1) (j 1))) 0 := by
  have hp : (j 0).val < 2048 := idx2_lt0 j
  have hco : (j 1).val < 128 := idx2_lt1 j
  rw [ya_apply_2a]
  refine congrArg (fun s => max (s + _) 0) ?_
  show _ = ∑ t ∈ Finset.range 1600, (fun t =>
      xaN_2a c M0 f0 ((j 0).val / 256) ((j 0).val / 16 % 16 + t / 320) ((j 0).val % 16 + t / 64 % 5) (t % 64) * waN_2a c M1 f1 (j 1).val t) t
  rw [← TapSum.sum_fin_val 1600]
  refine Finset.sum_congr rfl fun t _ => ?_
  have ht : t.val < 1600 := t.isLt
  show _ = xaN_2a c M0 f0 ((j 0).val / 256) ((j 0).val / 16 % 16 + t.val / 320) ((j 0).val % 16 + t.val / 64 % 5) (t.val % 64) * waN_2a c M1 f1 (j 1).val t.val
  rw [xaN_2a_eq c M0 f0 _ _ _ _ (by omega) (by omega) (by omega) (Nat.mod_lt _ (by decide)), waN_2a_eq c M1 f1 _ _ ht hco]
  refine congrArg₂ (· * ·) (congrArg _ (funext fun a => Fin.ext ?_)) (congrArg _ (funext fun a => Fin.ext ?_))
  · match a with
    | ⟨0, _⟩ => rfl
    | ⟨1, _⟩ => exact Nat.add_comm _ _
    | ⟨2, _⟩ => exact Nat.add_comm _ _
    | ⟨3, _⟩ => rfl
  · match a with
    | ⟨0, _⟩ => rfl
    | ⟨1, _⟩ => rfl

end AtIdeal

end Cert.ReferenceIdeal.Hand

end
-- ==== Proof.RefStage2Closed.lean ====
/-
  The reference's second stage in closed form over the first stage's output and four launched arguments.

  Region 1 has one grid point and whole-array windows: the output array after the region is the block the body leaves,
  and each input block the body is given is the whole input array.  The body's output, read back, is one function
  `stage2F` of what its five input buffers read (`run1_of_reads`): at (b, h, xo, co) the maximum over four adjacent
  columns x = xo * 4 + x' of the rectifier of the second convolution sum at output position (h, x) — taken over the
  first convolution's rectified result padded with a border of zeros (`mid2F`) — plus the second bias.  At the region's
  entry the first input array is the first stage's output padded with two rows and two columns of zeros, the weights
  are the launched ones and the bias rows the launched biases, so entry (b, h, xo, co) of what region 1 leaves is one
  closed expression of the first stage's output and four launched arguments (`o1_closed`), and the same in the
  neutral vocabulary of the two stages written once over plain arrays (`o1_stage12`).
-/
import proofs.«147627_g2000402439390779_pallasbulk_891_17_alg».proof.Proof.RefConv2bValue
import proofs.«147627_g2000402439390779_pallasbulk_891_17_alg».proof.Proof.RefConv2aValue
import proofs.«147627_g2000402439390779_pallasbulk_891_17_alg».proof.Proof.ReferenceIdealFrame
import proofs.«147627_g2000402439390779_pallasbulk_891_17_alg».proof.Proof.RefHostPads
import proofs.«147627_g2000402439390779_pallasbulk_891_17_alg».proof.Proof.RefStage12Arrays
import proofs.«147627_g2000402439390779_pallasbulk_891_17_alg».proof.Proof.RefConv4Value
import proofs.«147627_g2000402439390779_pallasbulk_891_17_alg».proof.Proof.LibStage12
import Idealize.ShloMosaic.Lib.Pipeline.Value

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.Sem
open Idealize.ShloMosaic.Pipeline (Dat Cfg Window BodyObligation cellOf)
open Idealize.ShloMosaic.ValueIdx

section AtIdeal
variable [Cert.ReferenceIdeal.Facts]

/-! ## The run's operands as arrays at plain natural-number coordinates -/

theorem xaN_2a_fun (c : Dev nD) (M0 : Memref sig .tc .vmem S8x20x20x64 .bf16) (f0 : Bf1 (F := Ideal) c M0) (b : Fin 8) :
    xaN_2a c M0 f0 b.val = nat4 (M0.view.read (Elt Ideal) f0) b := by
  funext r s ci
  unfold xaN_2a nat4
  by_cases h : r < 20 ∧ s < 20 ∧ ci < 64
  · rw [dif_pos ⟨b.isLt, h⟩, dif_pos h]
  · rw [dif_neg (fun h' => h h'.2), dif_neg h]

theorem waN_2a_fun (c : Dev nD) (M1 : Memref sig .tc .vmem S1600x128 .bf16) (f1 : Bf1 (F := Ideal) c M1) (co : Fin 128) :
    waN_2a c M1 f1 co.val = natCol (M1.view.read (Elt Ideal) f1) co := by
  funext t
  unfold waN_2a natCol
  by_cases h : t < 1600
  · rw [dif_pos ⟨h, co.isLt⟩, dif_pos h]
  · rw [dif_neg (fun h' => h h'.1), dif_neg h]

theorem wbN_2b_fun (c : Dev nD) (M3 : Memref sig .tc .vmem S3200x128 .bf16) (f3 : Bf1 (F := Ideal) c M3) (co : Fin 128) :
    Conv2b.wbN c M3 f3 co.val = natCol (M3.view.read (Elt Ideal) f3) co := by
  funext t
  unfold Conv2b.wbN natCol
  by_cases h : t < 3200
  · rw [dif_pos ⟨h, co.isLt⟩, dif_pos h]
  · rw [dif_neg (fun h' => h h'.1), dif_neg h]

/-- The first convolution's rectified result of image b with its border of zeros, as a function of (row, column,
    channel) of the padded [20, 20, 128] image, from the padded input X0, the weight X1 and the bias row X2: inside
    the border (rows 2 … 17, columns 2 … 17) the rectifier of the convolution sum at output position (row - 2,
    column - 2) plus the bias; zero on the border and outside. -/
def mid2F (X0 : S8x20x20x64.Idx → EReal) (X1 : S1600x128.Idx → EReal) (X2 : S1x128.Idx → EReal) (b : Fin 8) (r s ci : ℕ) : EReal :=
  if h : 2 ≤ r ∧ r < 18 ∧ 2 ≤ s ∧ s < 18 ∧ ci < 128 then
    max (TapSum.convFull 5 5 64 (nat4 X0 b) (natCol X1 (⟨ci, h.2.2.2.2⟩ : Fin 128)) (r - 2) (s - 2)
          + X2 (ix2 (0 : Fin 1) (⟨ci, h.2.2.2.2⟩ : Fin 128))) 0
  else 0

/-- THE SECOND STAGE AS ONE FUNCTION of the five arrays its region reads: at (b, h, xo, co) the maximum over the four
    columns x = xo * 4 + x' of the rectifier of the second convolution sum, over the first convolution's padded result,
    at output position (h, x), plus the second bias. -/
def stage2F (X0 : S8x20x20x64.Idx → EReal) (X1 : S1600x128.Idx → EReal) (X2 : S1x128.Idx → EReal)
    (X3 : S3200x128.Idx → EReal) (X4 : S1x128.Idx → EReal) (y : S8x16x4x128.Idx) : EReal :=
  (Finset.univ : Finset (Fin 4)).fold max (⊥ : EReal) (fun x : Fin 4 =>
    max (TapSum.convFull 5 5 128 (mid2F X0 X1 X2 (y 0)) (natCol X3 (y 3)) (y 1).val ((y 2).val * 4 + x.val)
          + X4 (ix2 (0 : Fin 1) (y 3))) 0)

/-- The padded intermediate of image b, over what the first three input buffers read: the first convolution's
    rectified result (the cast changes nothing at the ideal values) inside the border, zero on it. -/
theorem ypN_2b_fun (c : Dev nD) (M0 : Memref sig .tc .vmem S8x20x20x64 .bf16) (M1 : Memref sig .tc .vmem S1600x128 .bf16)
    (M2 : Memref sig .tc .vmem S1x128 .f32) (C0 : Memref sig .tc .vmem S2048x1600 .bf16)
    (f0 : Bf1 (F := Ideal) c M0) (f1 : Bf1 (F := Ideal) c M1) (f2 : Bf1 (F := Ideal) c M2) (b : Fin 8) :
    Conv2b.ypN c M0 M1 M2 C0 f0 f1 f2 b.val
      = mid2F (M0.view.read (Elt Ideal) f0) (M1.view.read (Elt Ideal) f1) (M2.view.read (Elt Ideal) f2) b := by
  have hb : b.val < 8 := b.isLt
  funext r s ci
  unfold mid2F
  by_cases hin : 2 ≤ r ∧ r < 18 ∧ 2 ≤ s ∧ s < 18 ∧ ci < 128
  · rw [dif_pos hin]
    refine (Conv2b.ypN_interior c M0 M1 M2 C0 f0 f1 f2 b.val r s ci hb hin.1 hin.2.1 hin.2.2.1 hin.2.2.2.1 hin.2.2.2.2).trans ?_
    show run1.sl.v159 (F := Ideal) c M0 M1 M2 C0 f0 f1 f2 _ = _
    unfold run1.sl.v159
    rw [truncf_apply, ya_convFull_2a]
    have e0 : ((b.val * 16 + (r - 2)) * 16 + (s - 2)) / 256 = b.val := by omega
    have e1 : ((b.val * 16 + (r - 2)) * 16 + (s - 2)) / 16 % 16 = r - 2 := by omega
    have e2 : ((b.val * 16 + (r - 2)) * 16 + (s - 2)) % 16 = s - 2 := by omega
    show max (TapSum.convFull 5 5 64 (xaN_2a c M0 f0 (((b.val * 16 + (r - 2)) * 16 + (s - 2)) / 256)) (waN_2a c M1 f1 ci)
        (((b.val * 16 + (r - 2)) * 16 + (s - 2)) / 16 % 16) (((b.val * 16 + (r - 2)) * 16 + (s - 2)) % 16)
        + M2.view.read (Elt Ideal) f2 (ix2 (0 : Fin 1) (⟨ci, hin.2.2.2.2⟩ : Fin 128))) 0 = _
    rw [e0, e1, e2, xaN_2a_fun c M0 f0 b, waN_2a_fun c M1 f1 (⟨ci, hin.2.2.2.2⟩ : Fin 128)]
  · rw [dif_neg hin]
    by_cases h2 : 2 ≤ r ∧ r < 18 ∧ 2 ≤ s ∧ s < 18
    · unfold Conv2b.ypN
      rw [dif_neg (fun h' => hin ⟨h2.1, h2.2.1, h2.2.2.1, h2.2.2.2, h'.2.2.2⟩)]
    · exact Conv2b.ypN_border c M0 M1 M2 C0 f0 f1 f2 b.val r s ci h2

/-- THE BODY'S OUTPUT from what its five input buffers read. -/
theorem run1_of_reads (c : Dev nD) (i : grid1.Coords) (M0 : Memref sig .tc .vmem S8x20x20x64 .bf16) (h0 : M0.IsWhole)
    (M1 : Memref sig .tc .vmem S1600x128 .bf16) (h1 : M1.IsWhole) (M2 : Memref sig .tc .vmem S1x128 .f32) (h2 : M2.IsWhole)
    (M3 : Memref sig .tc .vmem S3200x128 .bf16) (h3 : M3.IsWhole) (M4 : Memref sig .tc .vmem S1x128 .f32) (h4 : M4.IsWhole)
    (M5 : Memref sig .tc .vmem S8x16x4x128 .bf16) (h5 : M5.IsWhole)
    (C0 : Memref sig .tc .vmem S2048x1600 .bf16) (g0 : C0.IsWhole) (C1 : Memref sig .tc .vmem S8x20x20x128 .bf16) (g1 : C1.IsWhole)
    (C2 : Memref sig .tc .vmem S2048x3200 .bf16) (g2 : C2.IsWhole)
    (f0 : Bf1 (F := Ideal) c M0) (f1 : Bf1 (F := Ideal) c M1) (f2 : Bf1 (F := Ideal) c M2) (f3 : Bf1 (F := Ideal) c M3) (f4 : Bf1 (F := Ideal) c M4)
    (X0 : S8x20x20x64.Idx → EReal) (X1 : S1600x128.Idx → EReal) (X2 : S1x128.Idx → EReal) (X3 : S3200x128.Idx → EReal) (X4 : S1x128.Idx → EReal)
    (e0 : M0.view.read (Elt Ideal) f0 = X0) (e1 : M1.view.read (Elt Ideal) f1 = X1) (e2 : M2.view.read (Elt Ideal) f2 = X2)
    (e3 : M3.view.read (Elt Ideal) f3 = X3) (e4 : M4.view.read (Elt Ideal) f4 = X4) (y : S8x16x4x128.Idx) :
    M5.view.read (Elt Ideal) (run1 (F := Ideal) c i M0 h0 M1 h1 M2 h2 M3 h3 M4 h4 M5 h5 C0 g0 C1 g1 C2 g2 f0 f1 f2 f3 f4).1 y
      = stage2F X0 X1 X2 X3 X4 y := by
  subst e0 e1 e2 e3 e4
  rw [Conv2b.witness_closed]
  unfold stage2F
  rw [show Ideal.ofBits .f32 0xFF800000#32 = (⊥ : EReal) from ofBits_neg_inf_f32]
  refine Finset.fold_congr fun x _ => ?_
  show max (TapSum.convFull 5 5 128 (Conv2b.ypN c M0 M1 M2 C0 f0 f1 f2 (y 0).val) (Conv2b.wbN c M3 f3 (y 3).val) (y 1).val ((y 2).val * 4 + x.val) + _) 0 = _
  rw [ypN_2b_fun c M0 M1 M2 C0 f0 f1 f2 (y 0), wbN_2b_fun c M3 f3 (y 3)]
  rfl

end AtIdeal

section Closed
variable [Cert.ReferenceIdeal.Facts]
variable (m : (ℓ : Loc nD τ sig) → Buf (Elt Ideal) ℓ)

/-! ## The operands at plain natural-number coordinates -/

/-- Image `b` of the first stage's output with two rows and two columns of zeros around it, at a natural-number row,
    column and channel of the padded [20, 20, 64] image: zero off rows 2 … 17, off columns 2 … 17 and off the 64 channels. -/
def act0N (c : Dev nD) (b : Fin 8) (r s ci : ℕ) : EReal :=
  if h : 2 ≤ r ∧ r < 18 ∧ 2 ≤ s ∧ s < 18 ∧ ci < 64 then
    (o0 m c : S8x16x16x64.Idx → EReal) (ix4 b (⟨r - 2, by omega⟩ : Fin 16) (⟨s - 2, by omega⟩ : Fin 16) (⟨ci, h.2.2.2.2⟩ : Fin 64))
  else 0

/-- The padded array region 1 finds, image `b`, at natural-number coordinates: that padded image. -/
theorem v59_nat (c : Dev nD) (b : Fin 8) :
    nat4 (V9 m (outs1 m) c main_v59 : S8x20x20x64.Idx → EReal) b = act0N m c b := by
  funext r s ci
  unfold nat4 act0N
  by_cases h : r < 20 ∧ s < 20 ∧ ci < 64
  · rw [dif_pos h, v59_read]
    by_cases hin : 2 ≤ r ∧ r < 18 ∧ 2 ≤ s ∧ s < 18
    · rw [dif_pos hin, dif_pos ⟨hin.1, hin.2.1, hin.2.2.1, hin.2.2.2, h.2.2⟩]
    · rw [dif_neg hin, dif_neg (fun h' => hin ⟨h'.1, h'.2.1, h'.2.2.1, h'.2.2.2.1⟩)]
      exact padZero_ideal
  · rw [dif_neg h, dif_neg (fun h' => h ⟨by omega, by omega, h'.2.2.2.2⟩)]

/-- The first convolution's rectified result of image `b` with its border of zeros, over the first stage's output and
    the launched first weight and bias of the stage. -/
def mid2N (c : Dev nD) (b : Fin 8) (r s ci : ℕ) : EReal :=
  if h : 2 ≤ r ∧ r < 18 ∧ 2 ≤ s ∧ s < 18 ∧ ci < 128 then
    max (TapSum.convFull 5 5 64 (act0N m c b) (natCol (V0 m c main_arg5 : S1600x128.Idx → EReal) (⟨ci, h.2.2.2.2⟩ : Fin 128)) (r - 2) (s - 2)
          + (V0 m c main_arg6 : S128.Idx → EReal) (ix1 (⟨ci, h.2.2.2.2⟩ : Fin 128))) 0
  else 0

theorem mid2F_entry (c : Dev nD) (b : Fin 8) :
    mid2F (V9 m (outs1 m) c main_v59 : S8x20x20x64.Idx → EReal) (V9 m (outs1 m) c main_arg5 : S1600x128.Idx → EReal)
        (V9 m (outs1 m) c main_v60 : S1x128.Idx → EReal) b
      = mid2N m c b := by
  funext r s ci
  unfold mid2F mid2N
  by_cases h : 2 ≤ r ∧ r < 18 ∧ 2 ≤ s ∧ s < 18 ∧ ci < 128
  · rw [dif_pos h, dif_pos h, v59_nat, entry1_arg5, entry1_v60_at]
  · rw [dif_neg h, dif_neg h]

/-! ## The closed form -/

/-- THE SECOND STAGE, CLOSED: entry (b, h, x, co) of what region 1 leaves is the maximum over the four columns
    `x * 4 + x'` of the rectifier of the second convolution sum (5 × 5 taps, 128 channels), at output position
    (h, x * 4 + x'), of image `b`'s first convolution result padded with zeros — itself the rectifier of the first
    convolution sum (5 × 5 taps, 64 channels) of the first stage's padded output plus the launched first bias — against
    column `co` of the launched second weight, plus the launched second bias at `co`. -/
theorem o1_closed (c : Dev nD) (b : Fin 8) (h : Fin 16) (x : Fin 4) (co : Fin 128) :
    (o1 m c : S8x16x4x128.Idx → EReal) (ix4 b h x co)
      = (Finset.univ : Finset (Fin 4)).fold max (⊥ : EReal) (fun x' : Fin 4 =>
          max (TapSum.convFull 5 5 128 (mid2N m c b) (natCol (V0 m c main_arg7 : S3200x128.Idx → EReal) co) h.val (x.val * 4 + x'.val)
                + (V0 m c main_arg8 : S128.Idx → EReal) (ix1 co)) 0) := by
  rw [o1_eq]
  refine (run1_of_reads c _ _ _ _ _ _ _ _ _ _ _ _ _ _ _ _ _ _ _ _ _ _ _ _
    (V9 m (outs1 m) c main_v59 : S8x20x20x64.Idx → EReal) (V9 m (outs1 m) c main_arg5 : S1600x128.Idx → EReal)
    (V9 m (outs1 m) c main_v60 : S1x128.Idx → EReal) (V9 m (outs1 m) c main_arg7 : S3200x128.Idx → EReal)
    (V9 m (outs1 m) c main_v61 : S1x128.Idx → EReal)
    ((Memref.IsWhole.read_unread _ _).trans (blk1_0_eq (fun c b => V9 m (outs1 m) c b) c))
    ((Memref.IsWhole.read_unread _ _).trans (blk1_1_eq (fun c b => V9 m (outs1 m) c b) c))
    ((Memref.IsWhole.read_unread _ _).trans (blk1_2_eq (fun c b => V9 m (outs1 m) c b) c))
    ((Memref.IsWhole.read_unread _ _).trans (blk1_3_eq (fun c b => V9 m (outs1 m) c b) c))
    ((Memref.IsWhole.read_unread _ _).trans (blk1_4_eq (fun c b => V9 m (outs1 m) c b) c))
    (ix4 b h x co)).trans ?_
  unfold stage2F
  refine Finset.fold_congr fun x' _ => ?_
  show max (TapSum.convFull 5 5 128
      (mid2F (V9 m (outs1 m) c main_v59 : S8x20x20x64.Idx → EReal) (V9 m (outs1 m) c main_arg5 : S1600x128.Idx → EReal)
        (V9 m (outs1 m) c main_v60 : S1x128.Idx → EReal) b)
      (natCol (V9 m (outs1 m) c main_arg7 : S3200x128.Idx → EReal) co) h.val (x.val * 4 + x'.val)
      + (V9 m (outs1 m) c main_v61 : S1x128.Idx → EReal) (ix2 (0 : Fin 1) co)) 0 = _
  rw [mid2F_entry, entry1_arg7, entry1_v61_at]

/-! ## The same in the neutral vocabulary -/

section Neutral
open Cert.Hand.Stage12

/-- A column of a stored matrix at a natural-number row: the two spellings are one definition. -/
theorem natCol_eq_colN_s2 {n k : ℕ} (W : (⟨2, ![n, k]⟩ : Shape).Idx → EReal) (co : Fin k) : natCol W co = colN W co := rfl

/-- The first stage's output of image `b` padded with zeros is the neutral padding of that image read at plain naturals. -/
theorem act0N_eq_pad2 (c : Dev nD) (b : Fin 8) :
    act0N m c b = pad2 16 64 (imgN (o0 m c : (Act 16 64).Idx → EReal) b) := by
  funext r s ci
  unfold act0N pad2 imgN
  by_cases h : 2 ≤ r ∧ r < 18 ∧ 2 ≤ s ∧ s < 18 ∧ ci < 64
  · rw [dif_pos h, if_pos ⟨⟨⟨h.1, h.2.1⟩, ⟨h.2.2.1, by omega⟩⟩, h.2.2.2.2⟩, dif_pos ⟨⟨by omega, by omega⟩, h.2.2.2.2⟩]
  · rw [dif_neg h, if_neg (fun h' => h ⟨h'.1.1.1, h'.1.1.2, h'.1.2.1, by omega, h'.2⟩)]

/-- The first convolution's padded result of image `b` is the neutral padding of the neutral first convolution over the
    stored first-stage output. -/
theorem mid2N_eq_pad2 (c : Dev nD) (b : Fin 8) :
    mid2N m c b
      = pad2 16 128 (a2' (o0 m c : (Act 16 64).Idx → EReal) (V0 m c main_arg5 : (Mat 1600 128).Idx → EReal)
          (V0 m c main_arg6 : (Vec 128).Idx → EReal) b) := by
  funext r s ci
  unfold mid2N
  by_cases h : 2 ≤ r ∧ r < 18 ∧ 2 ≤ s ∧ s < 18 ∧ ci < 128
  · rw [dif_pos h]
    refine Eq.trans ?_ (if_pos (show ((2 ≤ r ∧ r < 18) ∧ (2 ≤ s ∧ s < 16 + 2)) ∧ ci < 128 from
      ⟨⟨⟨h.1, h.2.1⟩, ⟨h.2.2.1, by omega⟩⟩, h.2.2.2.2⟩)).symm
    unfold a2'
    rw [dif_pos h.2.2.2.2, act0N_eq_pad2, natCol_eq_colN_s2]
    rfl
  · rw [dif_neg h]
    exact (if_neg (fun h' => h ⟨h'.1.1.1, h'.1.1.2, h'.1.2.1, by omega, h'.2⟩)).symm

/-- THE SECOND STAGE, CLOSED, IN THE NEUTRAL VOCABULARY: what region 1 leaves is the pooled second stage of the stored
    first-stage output and the four launched arguments. -/
theorem o1_stage12 (c : Dev nD) (b : Fin 8) (h : Fin 16) (x : Fin 4) (co : Fin 128) :
    (o1 m c : S8x16x4x128.Idx → EReal) (ix4 b h x co)
      = out' (o0 m c : (Act 16 64).Idx → EReal) (V0 m c main_arg5 : (Mat 1600 128).Idx → EReal)
          (V0 m c main_arg6 : (Vec 128).Idx → EReal) (V0 m c main_arg7 : (Mat 3200 128).Idx → EReal)
          (V0 m c main_arg8 : (Vec 128).Idx → EReal) b h x co := by
  refine (o1_closed m c b h x co).trans ?_
  unfold out' pool4
  refine Finset.fold_congr fun x' _ => ?_
  unfold convRelu
  rw [mid2N_eq_pad2, natCol_eq_colN_s2, Nat.mul_comm x.val 4]

end Neutral

end Closed

end Cert.ReferenceIdeal.Hand

end
-- ==== Proof.Stage12Join.lean ====
/-
  The join of the first two stages. Each program's second-stage output [8, 16, 4, 128] is, in closed form, ONE function
  of nine plain arrays — the 32 taps of every input position, and a weight and a bias for each of the four
  convolutions — and the two programs apply it to equal arrays: the tap arrays hold the same values, and the launches
  agree on the weights and biases. So the two outputs are equal.
-/
import proofs.«147627_g2000402439390779_pallasbulk_891_17_alg».proof.Proof.KernelIdealFrame
import proofs.«147627_g2000402439390779_pallasbulk_891_17_alg».proof.Proof.ReferenceIdealFrame
import proofs.«147627_g2000402439390779_pallasbulk_891_17_alg».proof.Proof.LibStage12
import proofs.«147627_g2000402439390779_pallasbulk_891_17_alg».proof.Proof.KernelStage12Closed
import proofs.«147627_g2000402439390779_pallasbulk_891_17_alg».proof.Proof.RefStage1Closed
import proofs.«147627_g2000402439390779_pallasbulk_891_17_alg».proof.Proof.RefStage2Closed

set_option maxRecDepth 16384

noncomputable section

namespace Cert.Proof

open Idealize.ShloMosaic Idealize.ShloMosaic.TcCoe Idealize.ShloMosaic.ValueIdx Idealize.SL.Sem
open Cert.Hand.Stage12

variable [Cert.KernelIdeal.Facts] [Cert.ReferenceIdeal.Facts]

/-- Two arrays [8, 16, 4, 128] that are, entry by entry, the same function of the same operands are equal. -/
theorem stage2_eq_of_closed
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (Taps : (Act 64 32).Idx → EReal)
    (W1a : (Mat 32 64).Idx → EReal) (B1a : (Vec 64).Idx → EReal) (W1b : (Mat 1600 64).Idx → EReal) (B1b : (Vec 64).Idx → EReal)
    (W2a : (Mat 1600 128).Idx → EReal) (B2a : (Vec 128).Idx → EReal) (W2b : (Mat 3200 128).Idx → EReal) (B2b : (Vec 128).Idx → EReal)
    (hK : ∀ (b : Fin 8) (h : Fin 16) (x : Fin 4) (co : Fin 128),
      (Cert.KernelIdeal.Hand.o0 m c : (Act 4 128).Idx → EReal) (ix4 b h x co) = out Taps W1a B1a W1b B1b W2a B2a W2b B2b b h x co)
    (hR : ∀ (b : Fin 8) (h : Fin 16) (x : Fin 4) (co : Fin 128),
      (Cert.ReferenceIdeal.Hand.o1 m' c : (Act 4 128).Idx → EReal) (ix4 b h x co) = out Taps W1a B1a W1b B1b W2a B2a W2b B2b b h x co) :
    (Cert.KernelIdeal.Hand.o0 m c : Cert.KernelIdeal.S8x16x4x128.Idx → Elt Ideal .bf16) = Cert.ReferenceIdeal.Hand.o1 m' c := by
  show (Cert.KernelIdeal.Hand.o0 m c : (Act 4 128).Idx → EReal) = Cert.ReferenceIdeal.Hand.o1 m' c
  funext j
  rw [eq_ix4 j]
  exact (hK _ _ _ _).trans (hR _ _ _ _).symm

/-- The same with each program's own operands, equal one by one. -/
theorem stage2_eq_of_halves
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (TapsK : (Act 64 32).Idx → EReal)
    (W1aK : (Mat 32 64).Idx → EReal) (B1aK : (Vec 64).Idx → EReal) (W1bK : (Mat 1600 64).Idx → EReal) (B1bK : (Vec 64).Idx → EReal)
    (W2aK : (Mat 1600 128).Idx → EReal) (B2aK : (Vec 128).Idx → EReal) (W2bK : (Mat 3200 128).Idx → EReal) (B2bK : (Vec 128).Idx → EReal)
    (TapsR : (Act 64 32).Idx → EReal)
    (W1aR : (Mat 32 64).Idx → EReal) (B1aR : (Vec 64).Idx → EReal) (W1bR : (Mat 1600 64).Idx → EReal) (B1bR : (Vec 64).Idx → EReal)
    (W2aR : (Mat 1600 128).Idx → EReal) (B2aR : (Vec 128).Idx → EReal) (W2bR : (Mat 3200 128).Idx → EReal) (B2bR : (Vec 128).Idx → EReal)
    (eT : TapsK = TapsR) (e1 : W1aK = W1aR) (e2 : B1aK = B1aR) (e3 : W1bK = W1bR) (e4 : B1bK = B1bR)
    (e5 : W2aK = W2aR) (e6 : B2aK = B2aR) (e7 : W2bK = W2bR) (e8 : B2bK = B2bR)
    (hK : ∀ (b : Fin 8) (h : Fin 16) (x : Fin 4) (co : Fin 128),
      (Cert.KernelIdeal.Hand.o0 m c : (Act 4 128).Idx → EReal) (ix4 b h x co) = out TapsK W1aK B1aK W1bK B1bK W2aK B2aK W2bK B2bK b h x co)
    (hR : ∀ (b : Fin 8) (h : Fin 16) (x : Fin 4) (co : Fin 128),
      (Cert.ReferenceIdeal.Hand.o1 m' c : (Act 4 128).Idx → EReal) (ix4 b h x co) = out TapsR W1aR B1aR W1bR B1bR W2aR B2aR W2bR B2bR b h x co) :
    (Cert.KernelIdeal.Hand.o0 m c : Cert.KernelIdeal.S8x16x4x128.Idx → Elt Ideal .bf16) = Cert.ReferenceIdeal.Hand.o1 m' c := by
  subst eT e1 e2 e3 e4 e5 e6 e7 e8
  exact stage2_eq_of_closed m m' c TapsK W1aK B1aK W1bK B1bK W2aK B2aK W2bK B2bK hK hR

/-! ## The launched weights and biases of the two programs -/

/-- The launches agree on argument 1. -/
theorem arg1_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (c : Dev Cert.KernelIdeal.nD) :
    (Cert.KernelIdeal.Gen.V0 m c Cert.KernelIdeal.main_arg1 : (Mat 32 64).Idx → EReal)
      = Cert.ReferenceIdeal.Gen.V0 m' c Cert.ReferenceIdeal.main_arg1 :=
  ((hagree c).2.1).symm

/-- The launches agree on argument 2. -/
theorem arg2_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (c : Dev Cert.KernelIdeal.nD) :
    (Cert.KernelIdeal.Gen.V0 m c Cert.KernelIdeal.main_arg2 : (Vec 64).Idx → EReal)
      = Cert.ReferenceIdeal.Gen.V0 m' c Cert.ReferenceIdeal.main_arg2 :=
  ((hagree c).2.2.1).symm

/-- The launches agree on argument 3. -/
theorem arg3_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (c : Dev Cert.KernelIdeal.nD) :
    (Cert.KernelIdeal.Gen.V0 m c Cert.KernelIdeal.main_arg3 : (Mat 1600 64).Idx → EReal)
      = Cert.ReferenceIdeal.Gen.V0 m' c Cert.ReferenceIdeal.main_arg3 :=
  ((hagree c).2.2.2.1).symm

/-- The launches agree on argument 4. -/
theorem arg4_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (c : Dev Cert.KernelIdeal.nD) :
    (Cert.KernelIdeal.Gen.V0 m c Cert.KernelIdeal.main_arg4 : (Vec 64).Idx → EReal)
      = Cert.ReferenceIdeal.Gen.V0 m' c Cert.ReferenceIdeal.main_arg4 :=
  ((hagree c).2.2.2.2.1).symm

/-- The launches agree on argument 5. -/
theorem arg5_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (c : Dev Cert.KernelIdeal.nD) :
    (Cert.KernelIdeal.Gen.V0 m c Cert.KernelIdeal.main_arg5 : (Mat 1600 128).Idx → EReal)
      = Cert.ReferenceIdeal.Gen.V0 m' c Cert.ReferenceIdeal.main_arg5 :=
  ((hagree c).2.2.2.2.2.1).symm

/-- The launches agree on argument 6. -/
theorem arg6_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (c : Dev Cert.KernelIdeal.nD) :
    (Cert.KernelIdeal.Gen.V0 m c Cert.KernelIdeal.main_arg6 : (Vec 128).Idx → EReal)
      = Cert.ReferenceIdeal.Gen.V0 m' c Cert.ReferenceIdeal.main_arg6 :=
  ((hagree c).2.2.2.2.2.2.1).symm

/-- The launches agree on argument 7. -/
theorem arg7_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (c : Dev Cert.KernelIdeal.nD) :
    (Cert.KernelIdeal.Gen.V0 m c Cert.KernelIdeal.main_arg7 : (Mat 3200 128).Idx → EReal)
      = Cert.ReferenceIdeal.Gen.V0 m' c Cert.ReferenceIdeal.main_arg7 :=
  ((hagree c).2.2.2.2.2.2.2.1).symm

/-- The launches agree on argument 8. -/
theorem arg8_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (c : Dev Cert.KernelIdeal.nD) :
    (Cert.KernelIdeal.Gen.V0 m c Cert.KernelIdeal.main_arg8 : (Vec 128).Idx → EReal)
      = Cert.ReferenceIdeal.Gen.V0 m' c Cert.ReferenceIdeal.main_arg8 :=
  ((hagree c).2.2.2.2.2.2.2.2.1).symm

/-! ## The join from the programs' closed forms -/

/-- THE SECOND-STAGE OUTPUTS ARE EQUAL, given each program's closed form in the common description: the kernel's first
    region as the two stages of its tap array and the eight launched arguments (`hK`); the reference's first region as
    the first stage of its tap array and four launched arguments (`hR1`) and its second region as the second stage alone
    over what the first region left and the other four (`hR2`); and the two tap arrays holding the same values (`hT`). -/
theorem stage2_eq_of_three
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (c : Dev Cert.KernelIdeal.nD)
    (TapsK : (Act 64 32).Idx → EReal)
    (hT : TapsK = ((Cert.ReferenceIdeal.Gen.V5 m' c Cert.ReferenceIdeal.main_v55) : (Act 64 32).Idx → EReal))
    (hK : ∀ (b : Fin 8) (h : Fin 16) (x : Fin 4) (co : Fin 128),
      (Cert.KernelIdeal.Hand.o0 m c : (Act 4 128).Idx → EReal) (ix4 b h x co)
        = out TapsK (Cert.KernelIdeal.Gen.V0 m c Cert.KernelIdeal.main_arg1) (Cert.KernelIdeal.Gen.V0 m c Cert.KernelIdeal.main_arg2) (Cert.KernelIdeal.Gen.V0 m c Cert.KernelIdeal.main_arg3) (Cert.KernelIdeal.Gen.V0 m c Cert.KernelIdeal.main_arg4) (Cert.KernelIdeal.Gen.V0 m c Cert.KernelIdeal.main_arg5) (Cert.KernelIdeal.Gen.V0 m c Cert.KernelIdeal.main_arg6) (Cert.KernelIdeal.Gen.V0 m c Cert.KernelIdeal.main_arg7) (Cert.KernelIdeal.Gen.V0 m c Cert.KernelIdeal.main_arg8) b h x co)
    (hR1 : ∀ (b : Fin 8) (h : Fin 16) (x : Fin 16) (co : Fin 64),
      (Cert.ReferenceIdeal.Hand.o0 m' c : (Act 16 64).Idx → EReal) (ix4 b h x co)
        = out1 (Cert.ReferenceIdeal.Gen.V5 m' c Cert.ReferenceIdeal.main_v55) (Cert.ReferenceIdeal.Gen.V0 m' c Cert.ReferenceIdeal.main_arg1) (Cert.ReferenceIdeal.Gen.V0 m' c Cert.ReferenceIdeal.main_arg2) (Cert.ReferenceIdeal.Gen.V0 m' c Cert.ReferenceIdeal.main_arg3) (Cert.ReferenceIdeal.Gen.V0 m' c Cert.ReferenceIdeal.main_arg4) b h x co)
    (hR2 : ∀ (b : Fin 8) (h : Fin 16) (x : Fin 4) (co : Fin 128),
      (Cert.ReferenceIdeal.Hand.o1 m' c : (Act 4 128).Idx → EReal) (ix4 b h x co)
        = out' (Cert.ReferenceIdeal.Hand.o0 m' c : (Act 16 64).Idx → EReal) (Cert.ReferenceIdeal.Gen.V0 m' c Cert.ReferenceIdeal.main_arg5) (Cert.ReferenceIdeal.Gen.V0 m' c Cert.ReferenceIdeal.main_arg6) (Cert.ReferenceIdeal.Gen.V0 m' c Cert.ReferenceIdeal.main_arg7) (Cert.ReferenceIdeal.Gen.V0 m' c Cert.ReferenceIdeal.main_arg8) b h x co) :
    (Cert.KernelIdeal.Hand.o0 m c : Cert.KernelIdeal.S8x16x4x128.Idx → Elt Ideal .bf16) = Cert.ReferenceIdeal.Hand.o1 m' c :=
  stage2_eq_of_halves m m' c
    TapsK (Cert.KernelIdeal.Gen.V0 m c Cert.KernelIdeal.main_arg1) (Cert.KernelIdeal.Gen.V0 m c Cert.KernelIdeal.main_arg2) (Cert.KernelIdeal.Gen.V0 m c Cert.KernelIdeal.main_arg3) (Cert.KernelIdeal.Gen.V0 m c Cert.KernelIdeal.main_arg4) (Cert.KernelIdeal.Gen.V0 m c Cert.KernelIdeal.main_arg5) (Cert.KernelIdeal.Gen.V0 m c Cert.KernelIdeal.main_arg6) (Cert.KernelIdeal.Gen.V0 m c Cert.KernelIdeal.main_arg7) (Cert.KernelIdeal.Gen.V0 m c Cert.KernelIdeal.main_arg8)
    (Cert.ReferenceIdeal.Gen.V5 m' c Cert.ReferenceIdeal.main_v55) (Cert.ReferenceIdeal.Gen.V0 m' c Cert.ReferenceIdeal.main_arg1) (Cert.ReferenceIdeal.Gen.V0 m' c Cert.ReferenceIdeal.main_arg2) (Cert.ReferenceIdeal.Gen.V0 m' c Cert.ReferenceIdeal.main_arg3) (Cert.ReferenceIdeal.Gen.V0 m' c Cert.ReferenceIdeal.main_arg4) (Cert.ReferenceIdeal.Gen.V0 m' c Cert.ReferenceIdeal.main_arg5) (Cert.ReferenceIdeal.Gen.V0 m' c Cert.ReferenceIdeal.main_arg6) (Cert.ReferenceIdeal.Gen.V0 m' c Cert.ReferenceIdeal.main_arg7) (Cert.ReferenceIdeal.Gen.V0 m' c Cert.ReferenceIdeal.main_arg8)
    hT (arg1_agree m m' hagree c) (arg2_agree m m' hagree c) (arg3_agree m m' hagree c) (arg4_agree m m' hagree c)
    (arg5_agree m m' hagree c) (arg6_agree m m' hagree c) (arg7_agree m m' hagree c) (arg8_agree m m' hagree c)
    hK
    (fun b h x co => (hR2 b h x co).trans
      (out'_eq_out (Cert.ReferenceIdeal.Gen.V5 m' c Cert.ReferenceIdeal.main_v55) (Cert.ReferenceIdeal.Gen.V0 m' c Cert.ReferenceIdeal.main_arg1) (Cert.ReferenceIdeal.Gen.V0 m' c Cert.ReferenceIdeal.main_arg2) (Cert.ReferenceIdeal.Gen.V0 m' c Cert.ReferenceIdeal.main_arg3) (Cert.ReferenceIdeal.Gen.V0 m' c Cert.ReferenceIdeal.main_arg4) (Cert.ReferenceIdeal.Gen.V0 m' c Cert.ReferenceIdeal.main_arg5) (Cert.ReferenceIdeal.Gen.V0 m' c Cert.ReferenceIdeal.main_arg6) (Cert.ReferenceIdeal.Gen.V0 m' c Cert.ReferenceIdeal.main_arg7) (Cert.ReferenceIdeal.Gen.V0 m' c Cert.ReferenceIdeal.main_arg8)
        (Cert.ReferenceIdeal.Hand.o0 m' c : (Act 16 64).Idx → EReal) hR1 b h x co))

/-- THE SECOND-STAGE OUTPUTS ARE EQUAL as soon as the two tap arrays hold the same values: the kernel's [8192, 32] tap
    array, read as [8, 16, 64, 32], against the reference's. The three closed forms are the programs' own. -/
theorem stage2_eq_of_taps
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (c : Dev Cert.KernelIdeal.nD)
    (hT : Cert.KernelIdeal.Hand.Stage1.tapsK (Cert.KernelIdeal.Gen.V5 m c Cert.KernelIdeal.main_v56 : (Mat 8192 32).Idx → EReal)
        = (Cert.ReferenceIdeal.Gen.V5 m' c Cert.ReferenceIdeal.main_v55 : (Act 64 32).Idx → EReal)) :
    (Cert.KernelIdeal.Hand.o0 m c : Cert.KernelIdeal.S8x16x4x128.Idx → Elt Ideal .bf16) = Cert.ReferenceIdeal.Hand.o1 m' c :=
  stage2_eq_of_three m m' hagree c _ hT
    (Cert.KernelIdeal.Hand.o0_closed m c) (Cert.ReferenceIdeal.Hand.o0_eq_out1 m' c) (Cert.ReferenceIdeal.Hand.o1_stage12 m' c)

end Cert.Proof

end
-- ==== Proof.RefTaps.lean ====
/-
  The reference program's host operations before its first region, one stretch at a time, as functions of the contents
  they find: the integer zero converted to the pad value; the input [8, 16, 64] padded by two rows and two columns on
  each side; the 25 unit-stride windows [8, 16, 64] of the padded input at offsets (kh, kw), each given a last axis of
  length one and laid side by side along it (16 and 9, then the two together: 25 channels, tap kh 5 + kw at channel
  kh 5 + kw); the pad of the channel axis to 32; the cast to bf16.  Each stretch is evaluated over an ARBITRARY
  valuation of the buffers, so the five compose by congruence.
-/
import proofs.«147627_g2000402439390779_pallasbulk_891_17_alg».proof.Proof.Gen.ReferenceIdeal.Regions
import Idealize.ShloMosaic.Lib.Pipeline.Value
import Idealize.ShloMosaic.Lib.ValueIdx
import Idealize.ShloMosaic.Lib.StableHlo.Run

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx Idealize.ShloMosaic.StableHlo

variable {F : FTy → Type} [FloatOps F] [Cert.ReferenceIdeal.Facts]

/-- The zero the two pads fill with: the integer constant 0 converted. -/
def padZeroR : S_.Idx → Elt F .f32 := sitofp .f32 (constantI S_ 32 0#32)

/-- The input padded by two rows and two columns on each side. -/
def xpadR (x : S8x16x64.Idx → Elt F .f32) : S8x20x68.Idx → Elt F .f32 :=
  pad S8x20x68 ![0, 2, 2] ![0, 2, 2] ![0, 0, 0] x padZeroR pads_S8x16x64_S8x20x68_000_220_220 h_S_

/-- The 25 shifted windows of a padded input, each with a last axis of length one, laid side by side along it. -/
def catR (xp : S8x20x68.Idx → Elt F .f32) : S8x16x64x25.Idx → Elt F .f32 :=
  (concatenate S8x16x64x25 3 [⟨S8x16x64x16, concatenate S8x16x64x16 3 [⟨S8x16x64x1, (broadcastInDim S8x16x64x1 ![0, 1, 2] bcast_S8x16x64_S8x16x64x1_0_1_2 (extractStridedSlice S8x16x64 ![0, 0, 0] xp slices_S8x20x68_S8x16x64_0_0_0))⟩, ⟨S8x16x64x1, (broadcastInDim S8x16x64x1 ![0, 1, 2] bcast_S8x16x64_S8x16x64x1_0_1_2 (extractStridedSlice S8x16x64 ![0, 0, 1] xp slices_S8x20x68_S8x16x64_0_0_1))⟩, ⟨S8x16x64x1, (broadcastInDim S8x16x64x1 ![0, 1, 2] bcast_S8x16x64_S8x16x64x1_0_1_2 (extractStridedSlice S8x16x64 ![0, 0, 2] xp slices_S8x20x68_S8x16x64_0_0_2))⟩, ⟨S8x16x64x1, (broadcastInDim S8x16x64x1 ![0, 1, 2] bcast_S8x16x64_S8x16x64x1_0_1_2 (extractStridedSlice S8x16x64 ![0, 0, 3] xp slices_S8x20x68_S8x16x64_0_0_3))⟩, ⟨S8x16x64x1, (broadcastInDim S8x16x64x1 ![0, 1, 2] bcast_S8x16x64_S8x16x64x1_0_1_2 (extractStridedSlice S8x16x64 ![0, 0, 4] xp slices_S8x20x68_S8x16x64_0_0_4))⟩, ⟨S8x16x64x1, (broadcastInDim S8x16x64x1 ![0, 1, 2] bcast_S8x16x64_S8x16x64x1_0_1_2 (extractStridedSlice S8x16x64 ![0, 1, 0] xp slices_S8x20x68_S8x16x64_0_1_0))⟩, ⟨S8x16x64x1, (broadcastInDim S8x16x64x1 ![0, 1, 2] bcast_S8x16x64_S8x16x64x1_0_1_2 (extractStridedSlice S8x16x64 ![0, 1, 1] xp slices_S8x20x68_S8x16x64_0_1_1))⟩, ⟨S8x16x64x1, (broadcastInDim S8x16x64x1 ![0, 1, 2] bcast_S8x16x64_S8x16x64x1_0_1_2 (extractStridedSlice S8x16x64 ![0, 1, 2] xp slices_S8x20x68_S8x16x64_0_1_2))⟩, ⟨S8x16x64x1, (broadcastInDim S8x16x64x1 ![0, 1, 2] bcast_S8x16x64_S8x16x64x1_0_1_2 (extractStridedSlice S8x16x64 ![0, 1, 3] xp slices_S8x20x68_S8x16x64_0_1_3))⟩, ⟨S8x16x64x1, (broadcastInDim S8x16x64x1 ![0, 1, 2] bcast_S8x16x64_S8x16x64x1_0_1_2 (extractStridedSlice S8x16x64 ![0, 1, 4] xp slices_S8x20x68_S8x16x64_0_1_4))⟩, ⟨S8x16x64x1, (broadcastInDim S8x16x64x1 ![0, 1, 2] bcast_S8x16x64_S8x16x64x1_0_1_2 (extractStridedSlice S8x16x64 ![0, 2, 0] xp slices_S8x20x68_S8x16x64_0_2_0))⟩, ⟨S8x16x64x1, (broadcastInDim S8x16x64x1 ![0, 1, 2] bcast_S8x16x64_S8x16x64x1_0_1_2 (extractStridedSlice S8x16x64 ![0, 2, 1] xp slices_S8x20x68_S8x16x64_0_2_1))⟩, ⟨S8x16x64x1, (broadcastInDim S8x16x64x1 ![0, 1, 2] bcast_S8x16x64_S8x16x64x1_0_1_2 (extractStridedSlice S8x16x64 ![0, 2, 2] xp slices_S8x20x68_S8x16x64_0_2_2))⟩, ⟨S8x16x64x1, (broadcastInDim S8x16x64x1 ![0, 1, 2] bcast_S8x16x64_S8x16x64x1_0_1_2 (extractStridedSlice S8x16x64 ![0, 2, 3] xp slices_S8x20x68_S8x16x64_0_2_3))⟩, ⟨S8x16x64x1, (broadcastInDim S8x16x64x1 ![0, 1, 2] bcast_S8x16x64_S8x16x64x1_0_1_2 (extractStridedSlice S8x16x64 ![0, 2, 4] xp slices_S8x20x68_S8x16x64_0_2_4))⟩, ⟨S8x16x64x1, (broadcastInDim S8x16x64x1 ![0, 1, 2] bcast_S8x16x64_S8x16x64x1_0_1_2 (extractStridedSlice S8x16x64 ![0, 3, 0] xp slices_S8x20x68_S8x16x64_0_3_0))⟩] concatenates_S8x16x64x1_S8x16x64x1_S8x16x64x1_S8x16x64x1_S8x16x64x1_S8x16x64x1_S8x16x64x1_S8x16x64x1_S8x16x64x1_S8x16x64x1_S8x16x64x1_S8x16x64x1_S8x16x64x1_S8x16x64x1_S8x16x64x1_S8x16x64x1_S8x16x64x16_d3⟩, ⟨S8x16x64x9, concatenate S8x16x64x9 3 [⟨S8x16x64x1, (broadcastInDim S8x16x64x1 ![0, 1, 2] bcast_S8x16x64_S8x16x64x1_0_1_2 (extractStridedSlice S8x16x64 ![0, 3, 1] xp slices_S8x20x68_S8x16x64_0_3_1))⟩, ⟨S8x16x64x1, (broadcastInDim S8x16x64x1 ![0, 1, 2] bcast_S8x16x64_S8x16x64x1_0_1_2 (extractStridedSlice S8x16x64 ![0, 3, 2] xp slices_S8x20x68_S8x16x64_0_3_2))⟩, ⟨S8x16x64x1, (broadcastInDim S8x16x64x1 ![0, 1, 2] bcast_S8x16x64_S8x16x64x1_0_1_2 (extractStridedSlice S8x16x64 ![0, 3, 3] xp slices_S8x20x68_S8x16x64_0_3_3))⟩, ⟨S8x16x64x1, (broadcastInDim S8x16x64x1 ![0, 1, 2] bcast_S8x16x64_S8x16x64x1_0_1_2 (extractStridedSlice S8x16x64 ![0, 3, 4] xp slices_S8x20x68_S8x16x64_0_3_4))⟩, ⟨S8x16x64x1, (broadcastInDim S8x16x64x1 ![0, 1, 2] bcast_S8x16x64_S8x16x64x1_0_1_2 (extractStridedSlice S8x16x64 ![0, 4, 0] xp slices_S8x20x68_S8x16x64_0_4_0))⟩, ⟨S8x16x64x1, (broadcastInDim S8x16x64x1 ![0, 1, 2] bcast_S8x16x64_S8x16x64x1_0_1_2 (extractStridedSlice S8x16x64 ![0, 4, 1] xp slices_S8x20x68_S8x16x64_0_4_1))⟩, ⟨S8x16x64x1, (broadcastInDim S8x16x64x1 ![0, 1, 2] bcast_S8x16x64_S8x16x64x1_0_1_2 (extractStridedSlice S8x16x64 ![0, 4, 2] xp slices_S8x20x68_S8x16x64_0_4_2))⟩, ⟨S8x16x64x1, (broadcastInDim S8x16x64x1 ![0, 1, 2] bcast_S8x16x64_S8x16x64x1_0_1_2 (extractStridedSlice S8x16x64 ![0, 4, 3] xp slices_S8x20x68_S8x16x64_0_4_3))⟩, ⟨S8x16x64x1, (broadcastInDim S8x16x64x1 ![0, 1, 2] bcast_S8x16x64_S8x16x64x1_0_1_2 (extractStridedSlice S8x16x64 ![0, 4, 4] xp slices_S8x20x68_S8x16x64_0_4_4))⟩] concatenates_S8x16x64x1_S8x16x64x1_S8x16x64x1_S8x16x64x1_S8x16x64x1_S8x16x64x1_S8x16x64x1_S8x16x64x1_S8x16x64x1_S8x16x64x9_d3⟩] concatenates_S8x16x64x16_S8x16x64x9_S8x16x64x25_d3)

/-- The 32-tap array as a function of the input. -/
def tapsR (x : S8x16x64.Idx → Elt F .f32) : S8x16x64x32.Idx → Elt F .bf16 :=
  truncf .bf16 (pad S8x16x64x32 ![0, 0, 0, 0] ![0, 0, 0, 7] ![0, 0, 0, 0] (catR (xpadR x)) padZeroR pads_S8x16x64x25_S8x16x64x32_000_000_000_070 h_S_) bitsLt_bf16_f32

local macro "results_simp" : tactic =>
  `(tactic| simp (disch := decide) only [after_cons, after_nil,
      nullary_result', unary_result', binary_result', reshape_result', nary_result',
      nullary_result_ne', unary_result_ne', binary_result_ne', reshape_result_ne', nary_result_ne', Matrix.cons_val])

section Ops
variable (W : Valuation τ sig (Elt F))

theorem c_opsR : (StableHlo.after hostOps0 W (Proc.devRef .tc main_c) : S_.Idx → Elt F .i32) = constantI S_ 32 0#32 := by
  unfold hostOps0
  after_results

theorem arg0_opsR : (StableHlo.after hostOps0 W (Proc.devRef .tc main_arg0) : S8x16x64.Idx → Elt F .f32) = W (Proc.devRef .tc main_arg0) := by
  unfold hostOps0
  after_results

theorem v0_opsR : (StableHlo.after hostOps0_1 W (Proc.devRef .tc main_v0) : S8x20x68.Idx → Elt F .f32)
    = pad S8x20x68 ![0, 2, 2] ![0, 2, 2] ![0, 0, 0] (W (Proc.devRef .tc main_arg0) : S8x16x64.Idx → Elt F .f32)
        (sitofp .f32 (W (Proc.devRef .tc main_c) : S_.Idx → Elt F .i32)) pads_S8x16x64_S8x20x68_000_220_220 h_S_ := by
  unfold hostOps0_1
  after_results
  rfl

theorem v54_opsR : (StableHlo.after hostOps0_3 W (Proc.devRef .tc main_v54) : S8x16x64x32.Idx → Elt F .f32)
    = pad S8x16x64x32 ![0, 0, 0, 0] ![0, 0, 0, 7] ![0, 0, 0, 0] (W (Proc.devRef .tc main_v53) : S8x16x64x25.Idx → Elt F .f32)
        (sitofp .f32 (W (Proc.devRef .tc main_c_0) : S_.Idx → Elt F .i32)) pads_S8x16x64x25_S8x16x64x32_000_000_000_070 h_S_ := by
  unfold hostOps0_3
  after_results
  rfl

theorem v55_opsR : (StableHlo.after hostOps0_4 W (Proc.devRef .tc main_v55) : S8x16x64x32.Idx → Elt F .bf16)
    = truncf .bf16 (W (Proc.devRef .tc main_v54) : S8x16x64x32.Idx → Elt F .f32) bitsLt_bf16_f32 := by
  unfold hostOps0_4
  after_results

set_option maxHeartbeats 4000000 in
theorem c0_opsR : (StableHlo.after hostOps0_2 W (Proc.devRef .tc main_c_0) : S_.Idx → Elt F .i32) = constantI S_ 32 0#32 := by
  unfold hostOps0_2
  after_results

set_option maxHeartbeats 40000000 in
theorem v53_opsR : (StableHlo.after hostOps0_2 W (Proc.devRef .tc main_v53) : S8x16x64x25.Idx → Elt F .f32)
    = catR (W (Proc.devRef .tc main_v0) : S8x20x68.Idx → Elt F .f32) := by
  unfold hostOps0_2
  results_simp
  rfl

end Ops

section Composed

variable (m : (ℓ : Loc nD τ sig) → Buf (Elt F) ℓ)

/-- THE 32-TAP ARRAY IS ONE FUNCTION OF THE INPUT: what the five host stretches leave in the tap array is the cast of
    the channel-padded 25 windows of the padded launched input. -/
theorem v55_eq_tapsR (c : Dev nD) :
    (V5 m c main_v55 : S8x16x64x32.Idx → Elt F .bf16) = tapsR (V0 m c main_arg0 : S8x16x64.Idx → Elt F .f32) :=
  (v55_opsR (V4 m c)).trans
    (congrArg (fun X : S8x16x64x32.Idx → Elt F .f32 => truncf .bf16 X bitsLt_bf16_f32)
      ((v54_opsR (V3 m c)).trans
        (congrArg₂ (fun (X : S8x16x64x25.Idx → Elt F .f32) (z : S_.Idx → Elt F .i32) =>
            pad S8x16x64x32 ![0, 0, 0, 0] ![0, 0, 0, 7] ![0, 0, 0, 0] X (sitofp .f32 z) pads_S8x16x64x25_S8x16x64x32_000_000_000_070 h_S_)
          ((v53_opsR (V2 m c)).trans
            (congrArg catR
              ((v0_opsR (V1 m c)).trans
                (congrArg₂ (fun (x : S8x16x64.Idx → Elt F .f32) (z : S_.Idx → Elt F .i32) =>
                    pad S8x20x68 ![0, 2, 2] ![0, 2, 2] ![0, 0, 0] x (sitofp .f32 z) pads_S8x16x64_S8x20x68_000_220_220 h_S_)
                  (arg0_opsR (V0 m c)) (c_opsR (V0 m c))))))
          (c0_opsR (V2 m c)))))

end Composed

end Cert.ReferenceIdeal.Hand

end
-- ==== Proof.KernelTaps.lean ====
/-
  The kernel program's 32-tap input array as ONE closed function of the network's input.

  The host side pads the input [8, 16, 64] with two rows and two columns of zeros on each side to [8, 20, 68]; tap
  t = 5 kh + kw is the [8, 16, 64] window of the padded input at offset (kh, kw), given a trailing unit axis; the 25
  planes are laid side by side along that axis (the first 16, then the last 9, then the two groups); the result
  [8, 16, 64, 25] is padded with 7 zero channels to [8, 16, 64, 32] and rounded to bf16.  The zero both pads fill with is
  the integer constant 0 converted to f32.  The function is written over literal shapes, with every side condition
  decided on the literals, so it mentions neither memory nor this program's names.

  The 54 operations between the two pads are run in four groups (the 25 slices, the 25 axis insertions, the first
  concatenate, the rest): each group's result at one array is read off over ANY valuation, and the groups compose.
  The last operation of the stretch regroups the array to [8192, 32]: row (16 b + h) 64 + w is position (b, h, w).
-/
import proofs.«147627_g2000402439390779_pallasbulk_891_17_alg».proof.Proof.Gen.KernelIdeal.Regions
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo

variable {F : FTy → Type} [FloatOps F]

/-! ## The tap array as a function of the input, over literal shapes -/

/-- The shapes: the input, the padded input, n planes side by side, a scalar. -/
abbrev TapIn : Shape := ⟨3, ![8, 16, 64]⟩
abbrev TapPadded : Shape := ⟨3, ![8, 20, 68]⟩
abbrev TapPlanes (n : ℕ) : Shape := ⟨4, ![8, 16, 64, n]⟩
abbrev TapScalar : Shape := ⟨0, ![]⟩

/-- The zero the pads fill with: the integer constant 0 converted to f32. -/
def tapKZero : FVec F TapScalar .f32 := sitofp .f32 (constantI TapScalar 32 0#32)

/-- The input padded by two rows and two columns of zeros on each side. -/
def tapKPadded (x : FVec F TapIn .f32) : FVec F TapPadded .f32 :=
  pad TapPadded ![0, 2, 2] ![0, 2, 2] ![0, 0, 0] x (tapKZero (F := F))

/-- One tap's plane: the [8, 16, 64] window of the padded input at offset (kh, kw), with a trailing unit axis. -/
def tapKPlane (xp : FVec F TapPadded .f32) (kh kw : ℕ) (h : TapPadded.Slices ![0, kh, kw] TapIn := by decide) :
    FVec F (TapPlanes 1) .f32 :=
  broadcastInDim (TapPlanes 1) ![0, 1, 2] (by decide) (extractStridedSlice TapIn ![0, kh, kw] xp h)

/-- The planes' shapes concatenate along the last axis. -/
theorem tapKCat16 : Shape.Concatenates [TapPlanes 1, TapPlanes 1, TapPlanes 1, TapPlanes 1, TapPlanes 1, TapPlanes 1, TapPlanes 1, TapPlanes 1, TapPlanes 1, TapPlanes 1, TapPlanes 1, TapPlanes 1, TapPlanes 1, TapPlanes 1, TapPlanes 1, TapPlanes 1] (TapPlanes 16) 3 := by decide
theorem tapKCat9 : Shape.Concatenates [TapPlanes 1, TapPlanes 1, TapPlanes 1, TapPlanes 1, TapPlanes 1, TapPlanes 1, TapPlanes 1, TapPlanes 1, TapPlanes 1] (TapPlanes 9) 3 := by decide
theorem tapKCat25 : Shape.Concatenates [TapPlanes 16, TapPlanes 9] (TapPlanes 25) 3 := by decide

/-- The 25 planes of a padded input side by side: the first 16, the last 9, then the two groups. -/
def tapKCat (xp : FVec F TapPadded .f32) : FVec F (TapPlanes 25) .f32 :=
  concatenate (TapPlanes 25) 3
    [⟨TapPlanes 16, concatenate (TapPlanes 16) 3
        [ ⟨TapPlanes 1, tapKPlane xp 0 0⟩,
          ⟨TapPlanes 1, tapKPlane xp 0 1⟩,
          ⟨TapPlanes 1, tapKPlane xp 0 2⟩,
          ⟨TapPlanes 1, tapKPlane xp 0 3⟩,
          ⟨TapPlanes 1, tapKPlane xp 0 4⟩,
          ⟨TapPlanes 1, tapKPlane xp 1 0⟩,
          ⟨TapPlanes 1, tapKPlane xp 1 1⟩,
          ⟨TapPlanes 1, tapKPlane xp 1 2⟩,
          ⟨TapPlanes 1, tapKPlane xp 1 3⟩,
          ⟨TapPlanes 1, tapKPlane xp 1 4⟩,
          ⟨TapPlanes 1, tapKPlane xp 2 0⟩,
          ⟨TapPlanes 1, tapKPlane xp 2 1⟩,
          ⟨TapPlanes 1, tapKPlane xp 2 2⟩,
          ⟨TapPlanes 1, tapKPlane xp 2 3⟩,
          ⟨TapPlanes 1, tapKPlane xp 2 4⟩,
          ⟨TapPlanes 1, tapKPlane xp 3 0⟩ ] tapKCat16⟩,
     ⟨TapPlanes 9, concatenate (TapPlanes 9) 3
        [ ⟨TapPlanes 1, tapKPlane xp 3 1⟩,
          ⟨TapPlanes 1, tapKPlane xp 3 2⟩,
          ⟨TapPlanes 1, tapKPlane xp 3 3⟩,
          ⟨TapPlanes 1, tapKPlane xp 3 4⟩,
          ⟨TapPlanes 1, tapKPlane xp 4 0⟩,
          ⟨TapPlanes 1, tapKPlane xp 4 1⟩,
          ⟨TapPlanes 1, tapKPlane xp 4 2⟩,
          ⟨TapPlanes 1, tapKPlane xp 4 3⟩,
          ⟨TapPlanes 1, tapKPlane xp 4 4⟩ ] tapKCat9⟩] tapKCat25

/-- THE TAP ARRAY: the 25 planes of the padded input, 7 zero channels appended, rounded to bf16. -/
def tapsKfn (x : FVec F TapIn .f32) : FVec F (TapPlanes 32) .bf16 :=
  truncf .bf16 (pad (TapPlanes 32) ![0, 0, 0, 0] ![0, 0, 0, 7] ![0, 0, 0, 0] (tapKCat (tapKPadded x)) (tapKZero (F := F)))

variable [Cert.KernelIdeal.Facts]

/-! ## The 54 host operations between the first pad and the second, in four groups -/

/-- The 25 window slices, the 25 trailing-axis insertions, the first concatenate, and the rest. -/
abbrev tapOpsA : List (HloOp τ sig (Elt F)) := (hostOps0_2 (F := F)).take 25
abbrev tapOpsB : List (HloOp τ sig (Elt F)) := ((hostOps0_2 (F := F)).drop 25).take 25
abbrev tapOpsC : List (HloOp τ sig (Elt F)) := ((hostOps0_2 (F := F)).drop 50).take 1
abbrev tapOpsD : List (HloOp τ sig (Elt F)) := (hostOps0_2 (F := F)).drop 51

/-- Running the 54 operations is running the four groups in turn. -/
theorem tap_split (W : Valuation τ sig (Elt F)) :
    StableHlo.after hostOps0_2 W
      = StableHlo.after tapOpsD (StableHlo.after tapOpsC (StableHlo.after tapOpsB (StableHlo.after tapOpsA W))) := rfl

/-! ## Each group's results over any valuation -/

set_option maxHeartbeats 4000000 in
theorem tapA_0 (W : Valuation τ sig (Elt F)) :
    (StableHlo.after tapOpsA W (Proc.devRef .tc main_v1) : S8x16x64.Idx → Elt F .f32)
      = extractStridedSlice S8x16x64 ![0, 0, 0] (W (Proc.devRef .tc main_v0) : S8x20x68.Idx → Elt F .f32) slices_S8x20x68_S8x16x64_0_0_0 := by
  simp only [tapOpsA, hostOps0_2, List.take_succ_cons, List.take_zero]
  after_results

set_option maxHeartbeats 4000000 in
theorem tapA_1 (W : Valuation τ sig (Elt F)) :
    (StableHlo.after tapOpsA W (Proc.devRef .tc main_v2) : S8x16x64.Idx → Elt F .f32)
      = extractStridedSlice S8x16x64 ![0, 0, 1] (W (Proc.devRef .tc main_v0) : S8x20x68.Idx → Elt F .f32) slices_S8x20x68_S8x16x64_0_0_1 := by
  simp only [tapOpsA, hostOps0_2, List.take_succ_cons, List.take_zero]
  after_results

set_option maxHeartbeats 4000000 in
theorem tapA_2 (W : Valuation τ sig (Elt F)) :
    (StableHlo.after tapOpsA W (Proc.devRef .tc main_v3) : S8x16x64.Idx → Elt F .f32)
      = extractStridedSlice S8x16x64 ![0, 0, 2] (W (Proc.devRef .tc main_v0) : S8x20x68.Idx → Elt F .f32) slices_S8x20x68_S8x16x64_0_0_2 := by
  simp only [tapOpsA, hostOps0_2, List.take_succ_cons, List.take_zero]
  after_results

set_option maxHeartbeats 4000000 in
theorem tapA_3 (W : Valuation τ sig (Elt F)) :
    (StableHlo.after tapOpsA W (Proc.devRef .tc main_v4) : S8x16x64.Idx → Elt F .f32)
      = extractStridedSlice S8x16x64 ![0, 0, 3] (W (Proc.devRef .tc main_v0) : S8x20x68.Idx → Elt F .f32) slices_S8x20x68_S8x16x64_0_0_3 := by
  simp only [tapOpsA, hostOps0_2, List.take_succ_cons, List.take_zero]
  after_results

set_option maxHeartbeats 4000000 in
theorem tapA_4 (W : Valuation τ sig (Elt F)) :
    (StableHlo.after tapOpsA W (Proc.devRef .tc main_v5) : S8x16x64.Idx → Elt F .f32)
      = extractStridedSlice S8x16x64 ![0, 0, 4] (W (Proc.devRef .tc main_v0) : S8x20x68.Idx → Elt F .f32) slices_S8x20x68_S8x16x64_0_0_4 := by
  simp only [tapOpsA, hostOps0_2, List.take_succ_cons, List.take_zero]
  after_results

set_option maxHeartbeats 4000000 in
theorem tapA_5 (W : Valuation τ sig (Elt F)) :
    (StableHlo.after tapOpsA W (Proc.devRef .tc main_v6) : S8x16x64.Idx → Elt F .f32)
      = extractStridedSlice S8x16x64 ![0, 1, 0] (W (Proc.devRef .tc main_v0) : S8x20x68.Idx → Elt F .f32) slices_S8x20x68_S8x16x64_0_1_0 := by
  simp only [tapOpsA, hostOps0_2, List.take_succ_cons, List.take_zero]
  after_results

set_option maxHeartbeats 4000000 in
theorem tapA_6 (W : Valuation τ sig (Elt F)) :
    (StableHlo.after tapOpsA W (Proc.devRef .tc main_v7) : S8x16x64.Idx → Elt F .f32)
      = extractStridedSlice S8x16x64 ![0, 1, 1] (W (Proc.devRef .tc main_v0) : S8x20x68.Idx → Elt F .f32) slices_S8x20x68_S8x16x64_0_1_1 := by
  simp only [tapOpsA, hostOps0_2, List.take_succ_cons, List.take_zero]
  after_results

set_option maxHeartbeats 4000000 in
theorem tapA_7 (W : Valuation τ sig (Elt F)) :
    (StableHlo.after tapOpsA W (Proc.devRef .tc main_v8) : S8x16x64.Idx → Elt F .f32)
      = extractStridedSlice S8x16x64 ![0, 1, 2] (W (Proc.devRef .tc main_v0) : S8x20x68.Idx → Elt F .f32) slices_S8x20x68_S8x16x64_0_1_2 := by
  simp only [tapOpsA, hostOps0_2, List.take_succ_cons, List.take_zero]
  after_results

set_option maxHeartbeats 4000000 in
theorem tapA_8 (W : Valuation τ sig (Elt F)) :
    (StableHlo.after tapOpsA W (Proc.devRef .tc main_v9) : S8x16x64.Idx → Elt F .f32)
      = extractStridedSlice S8x16x64 ![0, 1, 3] (W (Proc.devRef .tc main_v0) : S8x20x68.Idx → Elt F .f32) slices_S8x20x68_S8x16x64_0_1_3 := by
  simp only [tapOpsA, hostOps0_2, List.take_succ_cons, List.take_zero]
  after_results

set_option maxHeartbeats 4000000 in
theorem tapA_9 (W : Valuation τ sig (Elt F)) :
    (StableHlo.after tapOpsA W (Proc.devRef .tc main_v10) : S8x16x64.Idx → Elt F .f32)
      = extractStridedSlice S8x16x64 ![0, 1, 4] (W (Proc.devRef .tc main_v0) : S8x20x68.Idx → Elt F .f32) slices_S8x20x68_S8x16x64_0_1_4 := by
  simp only [tapOpsA, hostOps0_2, List.take_succ_cons, List.take_zero]
  after_results

set_option maxHeartbeats 4000000 in
theorem tapA_10 (W : Valuation τ sig (Elt F)) :
    (StableHlo.after tapOpsA W (Proc.devRef .tc main_v11) : S8x16x64.Idx → Elt F .f32)
      = extractStridedSlice S8x16x64 ![0, 2, 0] (W (Proc.devRef .tc main_v0) : S8x20x68.Idx → Elt F .f32) slices_S8x20x68_S8x16x64_0_2_0 := by
  simp only [tapOpsA, hostOps0_2, List.take_succ_cons, List.take_zero]
  after_results

set_option maxHeartbeats 4000000 in
theorem tapA_11 (W : Valuation τ sig (Elt F)) :
    (StableHlo.after tapOpsA W (Proc.devRef .tc main_v12) : S8x16x64.Idx → Elt F .f32)
      = extractStridedSlice S8x16x64 ![0, 2, 1] (W (Proc.devRef .tc main_v0) : S8x20x68.Idx → Elt F .f32) slices_S8x20x68_S8x16x64_0_2_1 := by
  simp only [tapOpsA, hostOps0_2, List.take_succ_cons, List.take_zero]
  after_results

set_option maxHeartbeats 4000000 in
theorem tapA_12 (W : Valuation τ sig (Elt F)) :
    (StableHlo.after tapOpsA W (Proc.devRef .tc main_v13) : S8x16x64.Idx → Elt F .f32)
      = extractStridedSlice S8x16x64 ![0, 2, 2] (W (Proc.devRef .tc main_v0) : S8x20x68.Idx → Elt F .f32) slices_S8x20x68_S8x16x64_0_2_2 := by
  simp only [tapOpsA, hostOps0_2, List.take_succ_cons, List.take_zero]
  after_results

set_option maxHeartbeats 4000000 in
theorem tapA_13 (W : Valuation τ sig (Elt F)) :
    (StableHlo.after tapOpsA W (Proc.devRef .tc main_v14) : S8x16x64.Idx → Elt F .f32)
      = extractStridedSlice S8x16x64 ![0, 2, 3] (W (Proc.devRef .tc main_v0) : S8x20x68.Idx → Elt F .f32) slices_S8x20x68_S8x16x64_0_2_3 := by
  simp only [tapOpsA, hostOps0_2, List.take_succ_cons, List.take_zero]
  after_results

set_option maxHeartbeats 4000000 in
theorem tapA_14 (W : Valuation τ sig (Elt F)) :
    (StableHlo.after tapOpsA W (Proc.devRef .tc main_v15) : S8x16x64.Idx → Elt F .f32)
      = extractStridedSlice S8x16x64 ![0, 2, 4] (W (Proc.devRef .tc main_v0) : S8x20x68.Idx → Elt F .f32) slices_S8x20x68_S8x16x64_0_2_4 := by
  simp only [tapOpsA, hostOps0_2, List.take_succ_cons, List.take_zero]
  after_results

set_option maxHeartbeats 4000000 in
theorem tapA_15 (W : Valuation τ sig (Elt F)) :
    (StableHlo.after tapOpsA W (Proc.devRef .tc main_v16) : S8x16x64.Idx → Elt F .f32)
      = extractStridedSlice S8x16x64 ![0, 3, 0] (W (Proc.devRef .tc main_v0) : S8x20x68.Idx → Elt F .f32) slices_S8x20x68_S8x16x64_0_3_0 := by
  simp only [tapOpsA, hostOps0_2, List.take_succ_cons, List.take_zero]
  after_results

set_option maxHeartbeats 4000000 in
theorem tapA_16 (W : Valuation τ sig (Elt F)) :
    (StableHlo.after tapOpsA W (Proc.devRef .tc main_v17) : S8x16x64.Idx → Elt F .f32)
      = extractStridedSlice S8x16x64 ![0, 3, 1] (W (Proc.devRef .tc main_v0) : S8x20x68.Idx → Elt F .f32) slices_S8x20x68_S8x16x64_0_3_1 := by
  simp only [tapOpsA, hostOps0_2, List.take_succ_cons, List.take_zero]
  after_results

set_option maxHeartbeats 4000000 in
theorem tapA_17 (W : Valuation τ sig (Elt F)) :
    (StableHlo.after tapOpsA W (Proc.devRef .tc main_v18) : S8x16x64.Idx → Elt F .f32)
      = extractStridedSlice S8x16x64 ![0, 3, 2] (W (Proc.devRef .tc main_v0) : S8x20x68.Idx → Elt F .f32) slices_S8x20x68_S8x16x64_0_3_2 := by
  simp only [tapOpsA, hostOps0_2, List.take_succ_cons, List.take_zero]
  after_results

set_option maxHeartbeats 4000000 in
theorem tapA_18 (W : Valuation τ sig (Elt F)) :
    (StableHlo.after tapOpsA W (Proc.devRef .tc main_v19) : S8x16x64.Idx → Elt F .f32)
      = extractStridedSlice S8x16x64 ![0, 3, 3] (W (Proc.devRef .tc main_v0) : S8x20x68.Idx → Elt F .f32) slices_S8x20x68_S8x16x64_0_3_3 := by
  simp only [tapOpsA, hostOps0_2, List.take_succ_cons, List.take_zero]
  after_results

set_option maxHeartbeats 4000000 in
theorem tapA_19 (W : Valuation τ sig (Elt F)) :
    (StableHlo.after tapOpsA W (Proc.devRef .tc main_v20) : S8x16x64.Idx → Elt F .f32)
      = extractStridedSlice S8x16x64 ![0, 3, 4] (W (Proc.devRef .tc main_v0) : S8x20x68.Idx → Elt F .f32) slices_S8x20x68_S8x16x64_0_3_4 := by
  simp only [tapOpsA, hostOps0_2, List.take_succ_cons, List.take_zero]
  after_results

set_option maxHeartbeats 4000000 in
theorem tapA_20 (W : Valuation τ sig (Elt F)) :
    (StableHlo.after tapOpsA W (Proc.devRef .tc main_v21) : S8x16x64.Idx → Elt F .f32)
      = extractStridedSlice S8x16x64 ![0, 4, 0] (W (Proc.devRef .tc main_v0) : S8x20x68.Idx → Elt F .f32) slices_S8x20x68_S8x16x64_0_4_0 := by
  simp only [tapOpsA, hostOps0_2, List.take_succ_cons, List.take_zero]
  after_results

set_option maxHeartbeats 4000000 in
theorem tapA_21 (W : Valuation τ sig (Elt F)) :
    (StableHlo.after tapOpsA W (Proc.devRef .tc main_v22) : S8x16x64.Idx → Elt F .f32)
      = extractStridedSlice S8x16x64 ![0, 4, 1] (W (Proc.devRef .tc main_v0) : S8x20x68.Idx → Elt F .f32) slices_S8x20x68_S8x16x64_0_4_1 := by
  simp only [tapOpsA, hostOps0_2, List.take_succ_cons, List.take_zero]
  after_results

set_option maxHeartbeats 4000000 in
theorem tapA_22 (W : Valuation τ sig (Elt F)) :
    (StableHlo.after tapOpsA W (Proc.devRef .tc main_v23) : S8x16x64.Idx → Elt F .f32)
      = extractStridedSlice S8x16x64 ![0, 4, 2] (W (Proc.devRef .tc main_v0) : S8x20x68.Idx → Elt F .f32) slices_S8x20x68_S8x16x64_0_4_2 := by
  simp only [tapOpsA, hostOps0_2, List.take_succ_cons, List.take_zero]
  after_results

set_option maxHeartbeats 4000000 in
theorem tapA_23 (W : Valuation τ sig (Elt F)) :
    (StableHlo.after tapOpsA W (Proc.devRef .tc main_v24) : S8x16x64.Idx → Elt F .f32)
      = extractStridedSlice S8x16x64 ![0, 4, 3] (W (Proc.devRef .tc main_v0) : S8x20x68.Idx → Elt F .f32) slices_S8x20x68_S8x16x64_0_4_3 := by
  simp only [tapOpsA, hostOps0_2, List.take_succ_cons, List.take_zero]
  after_results

set_option maxHeartbeats 4000000 in
theorem tapA_24 (W : Valuation τ sig (Elt F)) :
    (StableHlo.after tapOpsA W (Proc.devRef .tc main_v25) : S8x16x64.Idx → Elt F .f32)
      = extractStridedSlice S8x16x64 ![0, 4, 4] (W (Proc.devRef .tc main_v0) : S8x20x68.Idx → Elt F .f32) slices_S8x20x68_S8x16x64_0_4_4 := by
  simp only [tapOpsA, hostOps0_2, List.take_succ_cons, List.take_zero]
  after_results

set_option maxHeartbeats 4000000 in
theorem tapB_0 (W : Valuation τ sig (Elt F)) :
    (StableHlo.after tapOpsB W (Proc.devRef .tc main_v26) : S8x16x64x1.Idx → Elt F .f32)
      = broadcastInDim S8x16x64x1 ![0, 1, 2] bcast_S8x16x64_S8x16x64x1_0_1_2 (W (Proc.devRef .tc main_v1) : S8x16x64.Idx → Elt F .f32) := by
  simp only [tapOpsB, hostOps0_2, List.drop_succ_cons, List.drop_zero, List.take_succ_cons, List.take_zero]
  after_results

set_option maxHeartbeats 4000000 in
theorem tapB_1 (W : Valuation τ sig (Elt F)) :
    (StableHlo.after tapOpsB W (Proc.devRef .tc main_v27) : S8x16x64x1.Idx → Elt F .f32)
      = broadcastInDim S8x16x64x1 ![0, 1, 2] bcast_S8x16x64_S8x16x64x1_0_1_2 (W (Proc.devRef .tc main_v2) : S8x16x64.Idx → Elt F .f32) := by
  simp only [tapOpsB, hostOps0_2, List.drop_succ_cons, List.drop_zero, List.take_succ_cons, List.take_zero]
  after_results

set_option maxHeartbeats 4000000 in
theorem tapB_2 (W : Valuation τ sig (Elt F)) :
    (StableHlo.after tapOpsB W (Proc.devRef .tc main_v28) : S8x16x64x1.Idx → Elt F .f32)
      = broadcastInDim S8x16x64x1 ![0, 1, 2] bcast_S8x16x64_S8x16x64x1_0_1_2 (W (Proc.devRef .tc main_v3) : S8x16x64.Idx → Elt F .f32) := by
  simp only [tapOpsB, hostOps0_2, List.drop_succ_cons, List.drop_zero, List.take_succ_cons, List.take_zero]
  after_results

set_option maxHeartbeats 4000000 in
theorem tapB_3 (W : Valuation τ sig (Elt F)) :
    (StableHlo.after tapOpsB W (Proc.devRef .tc main_v29) : S8x16x64x1.Idx → Elt F .f32)
      = broadcastInDim S8x16x64x1 ![0, 1, 2] bcast_S8x16x64_S8x16x64x1_0_1_2 (W (Proc.devRef .tc main_v4) : S8x16x64.Idx → Elt F .f32) := by
  simp only [tapOpsB, hostOps0_2, List.drop_succ_cons, List.drop_zero, List.take_succ_cons, List.take_zero]
  after_results

set_option maxHeartbeats 4000000 in
theorem tapB_4 (W : Valuation τ sig (Elt F)) :
    (StableHlo.after tapOpsB W (Proc.devRef .tc main_v30) : S8x16x64x1.Idx → Elt F .f32)
      = broadcastInDim S8x16x64x1 ![0, 1, 2] bcast_S8x16x64_S8x16x64x1_0_1_2 (W (Proc.devRef .tc main_v5) : S8x16x64.Idx → Elt F .f32) := by
  simp only [tapOpsB, hostOps0_2, List.drop_succ_cons, List.drop_zero, List.take_succ_cons, List.take_zero]
  after_results

set_option maxHeartbeats 4000000 in
theorem tapB_5 (W : Valuation τ sig (Elt F)) :
    (StableHlo.after tapOpsB W (Proc.devRef .tc main_v31) : S8x16x64x1.Idx → Elt F .f32)
      = broadcastInDim S8x16x64x1 ![0, 1, 2] bcast_S8x16x64_S8x16x64x1_0_1_2 (W (Proc.devRef .tc main_v6) : S8x16x64.Idx → Elt F .f32) := by
  simp only [tapOpsB, hostOps0_2, List.drop_succ_cons, List.drop_zero, List.take_succ_cons, List.take_zero]
  after_results

set_option maxHeartbeats 4000000 in
theorem tapB_6 (W : Valuation τ sig (Elt F)) :
    (StableHlo.after tapOpsB W (Proc.devRef .tc main_v32) : S8x16x64x1.Idx → Elt F .f32)
      = broadcastInDim S8x16x64x1 ![0, 1, 2] bcast_S8x16x64_S8x16x64x1_0_1_2 (W (Proc.devRef .tc main_v7) : S8x16x64.Idx → Elt F .f32) := by
  simp only [tapOpsB, hostOps0_2, List.drop_succ_cons, List.drop_zero, List.take_succ_cons, List.take_zero]
  after_results

set_option maxHeartbeats 4000000 in
theorem tapB_7 (W : Valuation τ sig (Elt F)) :
    (StableHlo.after tapOpsB W (Proc.devRef .tc main_v33) : S8x16x64x1.Idx → Elt F .f32)
      = broadcastInDim S8x16x64x1 ![0, 1, 2] bcast_S8x16x64_S8x16x64x1_0_1_2 (W (Proc.devRef .tc main_v8) : S8x16x64.Idx → Elt F .f32) := by
  simp only [tapOpsB, hostOps0_2, List.drop_succ_cons, List.drop_zero, List.take_succ_cons, List.take_zero]
  after_results

set_option maxHeartbeats 4000000 in
theorem tapB_8 (W : Valuation τ sig (Elt F)) :
    (StableHlo.after tapOpsB W (Proc.devRef .tc main_v34) : S8x16x64x1.Idx → Elt F .f32)
      = broadcastInDim S8x16x64x1 ![0, 1, 2] bcast_S8x16x64_S8x16x64x1_0_1_2 (W (Proc.devRef .tc main_v9) : S8x16x64.Idx → Elt F .f32) := by
  simp only [tapOpsB, hostOps0_2, List.drop_succ_cons, List.drop_zero, List.take_succ_cons, List.take_zero]
  after_results

set_option maxHeartbeats 4000000 in
theorem tapB_9 (W : Valuation τ sig (Elt F)) :
    (StableHlo.after tapOpsB W (Proc.devRef .tc main_v35) : S8x16x64x1.Idx → Elt F .f32)
      = broadcastInDim S8x16x64x1 ![0, 1, 2] bcast_S8x16x64_S8x16x64x1_0_1_2 (W (Proc.devRef .tc main_v10) : S8x16x64.Idx → Elt F .f32) := by
  simp only [tapOpsB, hostOps0_2, List.drop_succ_cons, List.drop_zero, List.take_succ_cons, List.take_zero]
  after_results

set_option maxHeartbeats 4000000 in
theorem tapB_10 (W : Valuation τ sig (Elt F)) :
    (StableHlo.after tapOpsB W (Proc.devRef .tc main_v36) : S8x16x64x1.Idx → Elt F .f32)
      = broadcastInDim S8x16x64x1 ![0, 1, 2] bcast_S8x16x64_S8x16x64x1_0_1_2 (W (Proc.devRef .tc main_v11) : S8x16x64.Idx → Elt F .f32) := by
  simp only [tapOpsB, hostOps0_2, List.drop_succ_cons, List.drop_zero, List.take_succ_cons, List.take_zero]
  after_results

set_option maxHeartbeats 4000000 in
theorem tapB_11 (W : Valuation τ sig (Elt F)) :
    (StableHlo.after tapOpsB W (Proc.devRef .tc main_v37) : S8x16x64x1.Idx → Elt F .f32)
      = broadcastInDim S8x16x64x1 ![0, 1, 2] bcast_S8x16x64_S8x16x64x1_0_1_2 (W (Proc.devRef .tc main_v12) : S8x16x64.Idx → Elt F .f32) := by
  simp only [tapOpsB, hostOps0_2, List.drop_succ_cons, List.drop_zero, List.take_succ_cons, List.take_zero]
  after_results

set_option maxHeartbeats 4000000 in
theorem tapB_12 (W : Valuation τ sig (Elt F)) :
    (StableHlo.after tapOpsB W (Proc.devRef .tc main_v38) : S8x16x64x1.Idx → Elt F .f32)
      = broadcastInDim S8x16x64x1 ![0, 1, 2] bcast_S8x16x64_S8x16x64x1_0_1_2 (W (Proc.devRef .tc main_v13) : S8x16x64.Idx → Elt F .f32) := by
  simp only [tapOpsB, hostOps0_2, List.drop_succ_cons, List.drop_zero, List.take_succ_cons, List.take_zero]
  after_results

set_option maxHeartbeats 4000000 in
theorem tapB_13 (W : Valuation τ sig (Elt F)) :
    (StableHlo.after tapOpsB W (Proc.devRef .tc main_v39) : S8x16x64x1.Idx → Elt F .f32)
      = broadcastInDim S8x16x64x1 ![0, 1, 2] bcast_S8x16x64_S8x16x64x1_0_1_2 (W (Proc.devRef .tc main_v14) : S8x16x64.Idx → Elt F .f32) := by
  simp only [tapOpsB, hostOps0_2, List.drop_succ_cons, List.drop_zero, List.take_succ_cons, List.take_zero]
  after_results

set_option maxHeartbeats 4000000 in
theorem tapB_14 (W : Valuation τ sig (Elt F)) :
    (StableHlo.after tapOpsB W (Proc.devRef .tc main_v40) : S8x16x64x1.Idx → Elt F .f32)
      = broadcastInDim S8x16x64x1 ![0, 1, 2] bcast_S8x16x64_S8x16x64x1_0_1_2 (W (Proc.devRef .tc main_v15) : S8x16x64.Idx → Elt F .f32) := by
  simp only [tapOpsB, hostOps0_2, List.drop_succ_cons, List.drop_zero, List.take_succ_cons, List.take_zero]
  after_results

set_option maxHeartbeats 4000000 in
theorem tapB_15 (W : Valuation τ sig (Elt F)) :
    (StableHlo.after tapOpsB W (Proc.devRef .tc main_v41) : S8x16x64x1.Idx → Elt F .f32)
      = broadcastInDim S8x16x64x1 ![0, 1, 2] bcast_S8x16x64_S8x16x64x1_0_1_2 (W (Proc.devRef .tc main_v16) : S8x16x64.Idx → Elt F .f32) := by
  simp only [tapOpsB, hostOps0_2, List.drop_succ_cons, List.drop_zero, List.take_succ_cons, List.take_zero]
  after_results

set_option maxHeartbeats 4000000 in
theorem tapB_16 (W : Valuation τ sig (Elt F)) :
    (StableHlo.after tapOpsB W (Proc.devRef .tc main_v42) : S8x16x64x1.Idx → Elt F .f32)
      = broadcastInDim S8x16x64x1 ![0, 1, 2] bcast_S8x16x64_S8x16x64x1_0_1_2 (W (Proc.devRef .tc main_v17) : S8x16x64.Idx → Elt F .f32) := by
  simp only [tapOpsB, hostOps0_2, List.drop_succ_cons, List.drop_zero, List.take_succ_cons, List.take_zero]
  after_results

set_option maxHeartbeats 4000000 in
theorem tapB_17 (W : Valuation τ sig (Elt F)) :
    (StableHlo.after tapOpsB W (Proc.devRef .tc main_v43) : S8x16x64x1.Idx → Elt F .f32)
      = broadcastInDim S8x16x64x1 ![0, 1, 2] bcast_S8x16x64_S8x16x64x1_0_1_2 (W (Proc.devRef .tc main_v18) : S8x16x64.Idx → Elt F .f32) := by
  simp only [tapOpsB, hostOps0_2, List.drop_succ_cons, List.drop_zero, List.take_succ_cons, List.take_zero]
  after_results

set_option maxHeartbeats 4000000 in
theorem tapB_18 (W : Valuation τ sig (Elt F)) :
    (StableHlo.after tapOpsB W (Proc.devRef .tc main_v44) : S8x16x64x1.Idx → Elt F .f32)
      = broadcastInDim S8x16x64x1 ![0, 1, 2] bcast_S8x16x64_S8x16x64x1_0_1_2 (W (Proc.devRef .tc main_v19) : S8x16x64.Idx → Elt F .f32) := by
  simp only [tapOpsB, hostOps0_2, List.drop_succ_cons, List.drop_zero, List.take_succ_cons, List.take_zero]
  after_results

set_option maxHeartbeats 4000000 in
theorem tapB_19 (W : Valuation τ sig (Elt F)) :
    (StableHlo.after tapOpsB W (Proc.devRef .tc main_v45) : S8x16x64x1.Idx → Elt F .f32)
      = broadcastInDim S8x16x64x1 ![0, 1, 2] bcast_S8x16x64_S8x16x64x1_0_1_2 (W (Proc.devRef .tc main_v20) : S8x16x64.Idx → Elt F .f32) := by
  simp only [tapOpsB, hostOps0_2, List.drop_succ_cons, List.drop_zero, List.take_succ_cons, List.take_zero]
  after_results

set_option maxHeartbeats 4000000 in
theorem tapB_20 (W : Valuation τ sig (Elt F)) :
    (StableHlo.after tapOpsB W (Proc.devRef .tc main_v46) : S8x16x64x1.Idx → Elt F .f32)
      = broadcastInDim S8x16x64x1 ![0, 1, 2] bcast_S8x16x64_S8x16x64x1_0_1_2 (W (Proc.devRef .tc main_v21) : S8x16x64.Idx → Elt F .f32) := by
  simp only [tapOpsB, hostOps0_2, List.drop_succ_cons, List.drop_zero, List.take_succ_cons, List.take_zero]
  after_results

set_option maxHeartbeats 4000000 in
theorem tapB_21 (W : Valuation τ sig (Elt F)) :
    (StableHlo.after tapOpsB W (Proc.devRef .tc main_v47) : S8x16x64x1.Idx → Elt F .f32)
      = broadcastInDim S8x16x64x1 ![0, 1, 2] bcast_S8x16x64_S8x16x64x1_0_1_2 (W (Proc.devRef .tc main_v22) : S8x16x64.Idx → Elt F .f32) := by
  simp only [tapOpsB, hostOps0_2, List.drop_succ_cons, List.drop_zero, List.take_succ_cons, List.take_zero]
  after_results

set_option maxHeartbeats 4000000 in
theorem tapB_22 (W : Valuation τ sig (Elt F)) :
    (StableHlo.after tapOpsB W (Proc.devRef .tc main_v48) : S8x16x64x1.Idx → Elt F .f32)
      = broadcastInDim S8x16x64x1 ![0, 1, 2] bcast_S8x16x64_S8x16x64x1_0_1_2 (W (Proc.devRef .tc main_v23) : S8x16x64.Idx → Elt F .f32) := by
  simp only [tapOpsB, hostOps0_2, List.drop_succ_cons, List.drop_zero, List.take_succ_cons, List.take_zero]
  after_results

set_option maxHeartbeats 4000000 in
theorem tapB_23 (W : Valuation τ sig (Elt F)) :
    (StableHlo.after tapOpsB W (Proc.devRef .tc main_v49) : S8x16x64x1.Idx → Elt F .f32)
      = broadcastInDim S8x16x64x1 ![0, 1, 2] bcast_S8x16x64_S8x16x64x1_0_1_2 (W (Proc.devRef .tc main_v24) : S8x16x64.Idx → Elt F .f32) := by
  simp only [tapOpsB, hostOps0_2, List.drop_succ_cons, List.drop_zero, List.take_succ_cons, List.take_zero]
  after_results

set_option maxHeartbeats 4000000 in
theorem tapB_24 (W : Valuation τ sig (Elt F)) :
    (StableHlo.after tapOpsB W (Proc.devRef .tc main_v50) : S8x16x64x1.Idx → Elt F .f32)
      = broadcastInDim S8x16x64x1 ![0, 1, 2] bcast_S8x16x64_S8x16x64x1_0_1_2 (W (Proc.devRef .tc main_v25) : S8x16x64.Idx → Elt F .f32) := by
  simp only [tapOpsB, hostOps0_2, List.drop_succ_cons, List.drop_zero, List.take_succ_cons, List.take_zero]
  after_results

set_option maxHeartbeats 4000000 in
/-- The first concatenate lays its 16 operands side by side; -/
theorem tapC_low (W : Valuation τ sig (Elt F)) :
    (StableHlo.after tapOpsC W (Proc.devRef .tc main_v51) : S8x16x64x16.Idx → Elt F .f32)
      = concatenate S8x16x64x16 3 [⟨S8x16x64x1, (W (Proc.devRef .tc main_v26) : S8x16x64x1.Idx → Elt F .f32)⟩, ⟨S8x16x64x1, (W (Proc.devRef .tc main_v27) : S8x16x64x1.Idx → Elt F .f32)⟩, ⟨S8x16x64x1, (W (Proc.devRef .tc main_v28) : S8x16x64x1.Idx → Elt F .f32)⟩, ⟨S8x16x64x1, (W (Proc.devRef .tc main_v29) : S8x16x64x1.Idx → Elt F .f32)⟩, ⟨S8x16x64x1, (W (Proc.devRef .tc main_v30) : S8x16x64x1.Idx → Elt F .f32)⟩, ⟨S8x16x64x1, (W (Proc.devRef .tc main_v31) : S8x16x64x1.Idx → Elt F .f32)⟩, ⟨S8x16x64x1, (W (Proc.devRef .tc main_v32) : S8x16x64x1.Idx → Elt F .f32)⟩, ⟨S8x16x64x1, (W (Proc.devRef .tc main_v33) : S8x16x64x1.Idx → Elt F .f32)⟩, ⟨S8x16x64x1, (W (Proc.devRef .tc main_v34) : S8x16x64x1.Idx → Elt F .f32)⟩, ⟨S8x16x64x1, (W (Proc.devRef .tc main_v35) : S8x16x64x1.Idx → Elt F .f32)⟩, ⟨S8x16x64x1, (W (Proc.devRef .tc main_v36) : S8x16x64x1.Idx → Elt F .f32)⟩, ⟨S8x16x64x1, (W (Proc.devRef .tc main_v37) : S8x16x64x1.Idx → Elt F .f32)⟩, ⟨S8x16x64x1, (W (Proc.devRef .tc main_v38) : S8x16x64x1.Idx → Elt F .f32)⟩, ⟨S8x16x64x1, (W (Proc.devRef .tc main_v39) : S8x16x64x1.Idx → Elt F .f32)⟩, ⟨S8x16x64x1, (W (Proc.devRef .tc main_v40) : S8x16x64x1.Idx → Elt F .f32)⟩, ⟨S8x16x64x1, (W (Proc.devRef .tc main_v41) : S8x16x64x1.Idx → Elt F .f32)⟩] concatenates_S8x16x64x1_S8x16x64x1_S8x16x64x1_S8x16x64x1_S8x16x64x1_S8x16x64x1_S8x16x64x1_S8x16x64x1_S8x16x64x1_S8x16x64x1_S8x16x64x1_S8x16x64x1_S8x16x64x1_S8x16x64x1_S8x16x64x1_S8x16x64x1_S8x16x64x16_d3 := by
  simp only [tapOpsC, hostOps0_2, List.drop_succ_cons, List.drop_zero, List.take_succ_cons, List.take_zero]
  after_results
  try rfl

/-- it leaves every other array as it was. -/
theorem tapC_ne (W : Valuation τ sig (Elt F)) (r : Ref sig .tc) (h : r ≠ main_v51) :
    StableHlo.after tapOpsC W (Proc.devRef .tc r) = W (Proc.devRef .tc r) := by
  simp only [tapOpsC, hostOps0_2, List.drop_succ_cons, List.drop_zero, List.take_succ_cons, List.take_zero, after_cons, after_nil]
  exact nary_result_ne _ _ _ _ _ W h

set_option maxHeartbeats 4000000 in
/-- The second concatenate lays the last 9 planes side by side and the third the two groups. -/
theorem tapD (W : Valuation τ sig (Elt F)) :
    (StableHlo.after tapOpsD W (Proc.devRef .tc main_v53) : S8x16x64x25.Idx → Elt F .f32)
      = concatenate S8x16x64x25 3 [⟨S8x16x64x16, (W (Proc.devRef .tc main_v51) : S8x16x64x16.Idx → Elt F .f32)⟩,
          ⟨S8x16x64x9, concatenate S8x16x64x9 3 [⟨S8x16x64x1, (W (Proc.devRef .tc main_v42) : S8x16x64x1.Idx → Elt F .f32)⟩, ⟨S8x16x64x1, (W (Proc.devRef .tc main_v43) : S8x16x64x1.Idx → Elt F .f32)⟩, ⟨S8x16x64x1, (W (Proc.devRef .tc main_v44) : S8x16x64x1.Idx → Elt F .f32)⟩, ⟨S8x16x64x1, (W (Proc.devRef .tc main_v45) : S8x16x64x1.Idx → Elt F .f32)⟩, ⟨S8x16x64x1, (W (Proc.devRef .tc main_v46) : S8x16x64x1.Idx → Elt F .f32)⟩, ⟨S8x16x64x1, (W (Proc.devRef .tc main_v47) : S8x16x64x1.Idx → Elt F .f32)⟩, ⟨S8x16x64x1, (W (Proc.devRef .tc main_v48) : S8x16x64x1.Idx → Elt F .f32)⟩, ⟨S8x16x64x1, (W (Proc.devRef .tc main_v49) : S8x16x64x1.Idx → Elt F .f32)⟩, ⟨S8x16x64x1, (W (Proc.devRef .tc main_v50) : S8x16x64x1.Idx → Elt F .f32)⟩] concatenates_S8x16x64x1_S8x16x64x1_S8x16x64x1_S8x16x64x1_S8x16x64x1_S8x16x64x1_S8x16x64x1_S8x16x64x1_S8x16x64x1_S8x16x64x9_d3⟩] concatenates_S8x16x64x16_S8x16x64x9_S8x16x64x25_d3 := by
  simp only [tapOpsD, hostOps0_2, List.drop_succ_cons, List.drop_zero]
  after_results
  try rfl

/-! ## The stretch between the pads, and the short stretches around it -/

set_option maxHeartbeats 4000000 in
/-- THE 25 PLANES: what the 54 operations leave in the concatenated array is the planes of the padded input they
    start from. -/
theorem tap_v53 (W : Valuation τ sig (Elt F)) :
    (StableHlo.after hostOps0_2 W (Proc.devRef .tc main_v53) : S8x16x64x25.Idx → Elt F .f32)
      = tapKCat (W (Proc.devRef .tc main_v0) : S8x20x68.Idx → Elt F .f32) := by
  rw [tap_split, tapD, tapC_low, tapC_ne _ main_v42 (by decide), tapC_ne _ main_v43 (by decide), tapC_ne _ main_v44 (by decide), tapC_ne _ main_v45 (by decide), tapC_ne _ main_v46 (by decide), tapC_ne _ main_v47 (by decide), tapC_ne _ main_v48 (by decide), tapC_ne _ main_v49 (by decide), tapC_ne _ main_v50 (by decide)]
  rw [tapB_0, tapB_1, tapB_2, tapB_3, tapB_4, tapB_5, tapB_6, tapB_7, tapB_8, tapB_9, tapB_10, tapB_11, tapB_12, tapB_13, tapB_14, tapB_15, tapB_16, tapB_17, tapB_18, tapB_19, tapB_20, tapB_21, tapB_22, tapB_23, tapB_24]
  rw [tapA_0, tapA_1, tapA_2, tapA_3, tapA_4, tapA_5, tapA_6, tapA_7, tapA_8, tapA_9, tapA_10, tapA_11, tapA_12, tapA_13, tapA_14, tapA_15, tapA_16, tapA_17, tapA_18, tapA_19, tapA_20, tapA_21, tapA_22, tapA_23, tapA_24]
  rfl

theorem tap_c (W : Valuation τ sig (Elt F)) :
    (StableHlo.after hostOps0 W (Proc.devRef .tc main_c) : S_.Idx → Elt F .i32) = constantI S_ 32 0#32 := by
  unfold hostOps0
  after_results

theorem tap_arg0 (W : Valuation τ sig (Elt F)) :
    (StableHlo.after hostOps0 W (Proc.devRef .tc main_arg0) : S8x16x64.Idx → Elt F .f32) = W (Proc.devRef .tc main_arg0) := by
  unfold hostOps0
  after_results

theorem tap_v0 (W : Valuation τ sig (Elt F)) :
    (StableHlo.after hostOps0_1 W (Proc.devRef .tc main_v0) : S8x20x68.Idx → Elt F .f32)
      = pad S8x20x68 ![0, 2, 2] ![0, 2, 2] ![0, 0, 0] (W (Proc.devRef .tc main_arg0) : S8x16x64.Idx → Elt F .f32)
          (sitofp .f32 (W (Proc.devRef .tc main_c) : S_.Idx → Elt F .i32)) pads_S8x16x64_S8x20x68_000_220_220 h_S_ := by
  unfold hostOps0_1
  after_results
  try rfl

set_option maxHeartbeats 4000000 in
theorem tap_c0 (W : Valuation τ sig (Elt F)) :
    (StableHlo.after hostOps0_2 W (Proc.devRef .tc main_c_0) : S_.Idx → Elt F .i32) = constantI S_ 32 0#32 := by
  unfold hostOps0_2
  after_results

theorem tap_v54 (W : Valuation τ sig (Elt F)) :
    (StableHlo.after hostOps0_3 W (Proc.devRef .tc main_v54) : S8x16x64x32.Idx → Elt F .f32)
      = pad S8x16x64x32 ![0, 0, 0, 0] ![0, 0, 0, 7] ![0, 0, 0, 0] (W (Proc.devRef .tc main_v53) : S8x16x64x25.Idx → Elt F .f32)
          (sitofp .f32 (W (Proc.devRef .tc main_c_0) : S_.Idx → Elt F .i32)) pads_S8x16x64x25_S8x16x64x32_000_000_000_070 h_S_ := by
  unfold hostOps0_3
  after_results
  try rfl

theorem tap_v55 (W : Valuation τ sig (Elt F)) :
    (StableHlo.after hostOps0_4 W (Proc.devRef .tc main_v55) : S8x16x64x32.Idx → Elt F .bf16)
      = truncf .bf16 (W (Proc.devRef .tc main_v54) : S8x16x64x32.Idx → Elt F .f32) bitsLt_bf16_f32 := by
  unfold hostOps0_4
  after_results
  try rfl

theorem tap_v56 (W : Valuation τ sig (Elt F)) :
    (StableHlo.after hostOps0_4 W (Proc.devRef .tc main_v56) : S8192x32.Idx → Elt F .bf16)
      = shapeCast S8192x32 (truncf .bf16 (W (Proc.devRef .tc main_v54) : S8x16x64x32.Idx → Elt F .f32) bitsLt_bf16_f32)
          shapeCasts_S8x16x64x32_S8192x32 := by
  unfold hostOps0_4
  after_results
  try rfl

/-! ## The tap array the first region finds -/

variable (m : (ℓ : Loc nD τ sig) → Buf (Elt F) ℓ)

/-- THE KERNEL PROGRAM'S TAP ARRAY is the closed function of its input. -/
theorem v55_eq_tapsK (c : Dev nD) :
    (V5 m c main_v55 : S8x16x64x32.Idx → Elt F .bf16) = tapsKfn (V0 m c main_arg0 : S8x16x64.Idx → Elt F .f32) := by
  have e0 : (V1 m c (Proc.devRef .tc main_arg0) : S8x16x64.Idx → Elt F .f32) = V0 m c main_arg0 := tap_arg0 (V0 m c)
  have ec : (V1 m c (Proc.devRef .tc main_c) : S_.Idx → Elt F .i32) = constantI S_ 32 0#32 := tap_c (V0 m c)
  have e1 : (V2 m c (Proc.devRef .tc main_v0) : S8x20x68.Idx → Elt F .f32) = tapKPadded (V0 m c main_arg0 : S8x16x64.Idx → Elt F .f32) := by
    refine (tap_v0 (V1 m c)).trans ?_
    rw [e0, ec]
    rfl
  have e3 : (V3 m c (Proc.devRef .tc main_v53) : S8x16x64x25.Idx → Elt F .f32) = tapKCat (tapKPadded (V0 m c main_arg0 : S8x16x64.Idx → Elt F .f32)) := by
    refine (tap_v53 (V2 m c)).trans ?_
    rw [e1]
  have ec0 : (V3 m c (Proc.devRef .tc main_c_0) : S_.Idx → Elt F .i32) = constantI S_ 32 0#32 := tap_c0 (V2 m c)
  have e4 : (V4 m c (Proc.devRef .tc main_v54) : S8x16x64x32.Idx → Elt F .f32)
      = pad (TapPlanes 32) ![0, 0, 0, 0] ![0, 0, 0, 7] ![0, 0, 0, 0] (tapKCat (tapKPadded (V0 m c main_arg0 : S8x16x64.Idx → Elt F .f32))) (tapKZero (F := F)) := by
    refine (tap_v54 (V3 m c)).trans ?_
    rw [e3, ec0]
    rfl
  refine (tap_v55 (V4 m c)).trans ?_
  rw [e4]
  rfl

/-- The regrouped tap array [8192, 32] the first region's first window reads: row (16 b + h) 64 + w is position
    (b, h, w) of the tap array. -/
theorem v56_apply (c : Dev nD) (b : Fin 8) (h : Fin 16) (w : Fin 64) (t : Fin 32) :
    (V5 m c main_v56 : S8192x32.Idx → Elt F .bf16) (ix2 (⟨(b.val * 16 + h.val) * 64 + w.val, by omega⟩ : Fin 8192) t)
      = (V5 m c main_v55 : S8x16x64x32.Idx → Elt F .bf16) (ix4 b h w t) := by
  have e6 : (V5 m c (Proc.devRef .tc main_v56) : S8192x32.Idx → Elt F .bf16)
      = shapeCast S8192x32 (V5 m c main_v55 : S8x16x64x32.Idx → Elt F .bf16) shapeCasts_S8x16x64x32_S8192x32 :=
    (tap_v56 (V4 m c)).trans (congrArg (fun z => shapeCast S8192x32 z shapeCasts_S8x16x64x32_S8192x32) (tap_v55 (V4 m c)).symm)
  refine (congrFun e6 _).trans ?_
  refine shapeCast_apply _ _ _ (ix4 b h w t) ?_
  rw [Shape.rowMajor_val_four, Shape.rowMajor_val_two]
  show ((b.val * 16 + h.val) * 64 + w.val) * 32 + t.val = ((b.val * 16 + h.val) * 64 + w.val) * 32 + t.val
  rfl

end Cert.KernelIdeal.Hand

end
-- ==== Proof.SharedTapsTerm.lean ====
/-
  The two programs' tap arrays agree, and with them the two second-stage outputs.

  Both programs build, on the host, the 32-tap array of the first convolution from the input by the same
  operations: the input padded by two rows and two columns on each side, its 25 shifted windows laid side by side,
  the tap axis padded to 32, the cast.  Each program's tap array has been shown to be one function of its launched
  input; the two functions are the same function, because they are the same operations applied at shapes that are
  the same ranks and sizes under each program's own names, with side conditions that are propositions.  The kernel
  keeps its tap array flattened to a matrix with one row per position; read back at (image, row, column) it is the
  array.  The launches agree on the input, so the two tap arrays agree, and the equality of the two second-stage
  outputs follows from the two programs' closed forms.
-/
import proofs.«147627_g2000402439390779_pallasbulk_891_17_alg».proof.Proof.RefTaps
import proofs.«147627_g2000402439390779_pallasbulk_891_17_alg».proof.Proof.KernelTaps
import proofs.«147627_g2000402439390779_pallasbulk_891_17_alg».proof.Proof.Stage12Join

set_option maxRecDepth 16384

noncomputable section

namespace Cert.Proof

open Idealize.ShloMosaic Idealize.ShloMosaic.TcCoe Idealize.ShloMosaic.ValueIdx Idealize.SL.Sem
open Cert.Hand.Stage12

variable [Cert.KernelIdeal.Facts] [Cert.ReferenceIdeal.Facts]

/-- The two programs build their tap arrays by the same operations: as functions of the input the two are one function
    (each program's shape names unfold to the same literals, and the operations' side conditions are propositions). -/
theorem tapsKfn_eq_tapsR (x : Cert.KernelIdeal.S8x16x64.Idx → Elt Ideal .f32) :
    (Cert.KernelIdeal.Hand.tapsKfn (F := Ideal) x : (Act 64 32).Idx → EReal) = Cert.ReferenceIdeal.Hand.tapsR (F := Ideal) x := rfl

/-- THE TAP ARRAYS AGREE: the kernel's tap matrix [8192, 32] read as [8, 16, 64, 32] is the reference's tap array, the
    launches agreeing on the input. -/
theorem taps_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (c : Dev Cert.KernelIdeal.nD) :
    Cert.KernelIdeal.Hand.Stage1.tapsK (Cert.KernelIdeal.Gen.V5 m c Cert.KernelIdeal.main_v56 : (Mat 8192 32).Idx → EReal)
        = (Cert.ReferenceIdeal.Gen.V5 m' c Cert.ReferenceIdeal.main_v55 : (Act 64 32).Idx → EReal) := by
  funext i
  rw [eq_ix4 i]
  refine (Cert.KernelIdeal.Hand.Stage1.tapsK_apply _ (i 0) (i 1) (i 2) (i 3)).trans ?_
  -- the kernel's tap matrix is its tap array, flattened
  refine (Cert.KernelIdeal.Hand.v56_apply (F := Ideal) m c (i 0) (i 1) (i 2) (i 3)).trans ?_
  -- both tap arrays are the one function of the launched input
  refine (congrFun (Cert.KernelIdeal.Hand.v55_eq_tapsK (F := Ideal) m c) _).trans
    (Eq.trans ?_ (congrFun (Cert.ReferenceIdeal.Hand.v55_eq_tapsR (F := Ideal) m' c) _).symm)
  refine (congrFun (tapsKfn_eq_tapsR _) _).trans ?_
  refine congrFun (congrArg (Cert.ReferenceIdeal.Hand.tapsR (F := Ideal)) ?_) _
  exact ((hagree c).1).symm

/-- THE SECOND-STAGE OUTPUTS ARE EQUAL. -/
theorem stage2_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (c : Dev Cert.KernelIdeal.nD) :
    (Cert.KernelIdeal.Hand.o0 m c : Cert.KernelIdeal.S8x16x4x128.Idx → Elt Ideal .bf16) = Cert.ReferenceIdeal.Hand.o1 m' c :=
  stage2_eq_of_taps m m' hagree c (taps_agree m m' hagree c)

end Cert.Proof

end
-- ==== Proof.lean ====
/-
  Two programs for one convolutional network on a batch of 8 spectrogram strips of 16 x 64 samples: seven
  5x5 convolutions (the first on one input channel, folded on the host into a 32-tap contraction), three
  width-4 max pools, a global maximum over the 16 rows, three dense layers and a log-softmax over 16 classes.

  The reference computes every 5x5 convolution as ONE matrix product over the flattened triple
  (row tap, column tap, input channel) of a patch matrix built inside its kernels.  The kernel re-lays each
  weight on the host as [(row tap, channel), (column tap, output channel)], takes ONE product over the
  flattened pair (row tap, channel) on rows padded to a multiple of 8, and adds the five column-shifted
  slices of that product; for the last convolution, whose input is one column wide, it keeps only the middle
  column tap, every other tap meeting nothing but the zero padding.  On the extended reals both are the same
  iterated sum over the taps and channels (Proof/LibTapSum.lean): only the order and the grouping of a
  finite sum differ, and a product with a zero entry is zero, so neither distributivity nor finiteness of
  the data is needed.  Bias, rectifier, the pools, the dense layers and the log-softmax are the same
  operations on both sides, and a change of float format is the identity there.

  Each program is a chain of host operations and kernel regions (two for the kernel, five for the reference).
  For every region the kernel body is run once from its input blocks, which gives the block it leaves in its
  output window as a function of the input blocks; the regions' records are then chained with the host
  stretches.  This gives, for each program, that it runs to its end without a fault and leaves its argument
  arrays unchanged, and names the array its result ends at: what the last region leaves, as a function of the
  launch memory through every earlier region and host stretch.  The value conjunct is thereby reduced to one
  equation between the two programs' result arrays as functions of the (equal) argument arrays.  That equation is
  then taken apart from the output backwards: the head (three dense layers and the log-softmax) is one function of the
  2048-feature vector on both sides; the last convolution with the maximum over the rows one function of the pooled
  third-stage activation; the third stage one function of the second stage's output; the first two stages one
  function of the 32-tap array, which both programs build on the host by the same operations.  Each step opens the
  witnesses of the regions concerned into closed functions of their entry arrays and joins the two convolution forms
  by the law of the taps.
-/
import proofs.«147627_g2000402439390779_pallasbulk_891_17_alg».proof.Defs
import proofs.«147627_g2000402439390779_pallasbulk_891_17_alg».proof.Proof.Gen.Kernel
import proofs.«147627_g2000402439390779_pallasbulk_891_17_alg».proof.Proof.Gen.KernelIdeal
import proofs.«147627_g2000402439390779_pallasbulk_891_17_alg».proof.Proof.Gen.ReferenceIdeal
import proofs.«147627_g2000402439390779_pallasbulk_891_17_alg».proof.Proof.Gen.Pre_finite_inputs
import proofs.«147627_g2000402439390779_pallasbulk_891_17_alg».proof.Proof.KernelFrame
import proofs.«147627_g2000402439390779_pallasbulk_891_17_alg».proof.Proof.KernelIdealFrame
import proofs.«147627_g2000402439390779_pallasbulk_891_17_alg».proof.Proof.ReferenceIdealFrame
import proofs.«147627_g2000402439390779_pallasbulk_891_17_alg».proof.Proof.LibTapSum
import proofs.«147627_g2000402439390779_pallasbulk_891_17_alg».proof.Proof.LibConvLaw
import proofs.«147627_g2000402439390779_pallasbulk_891_17_alg».proof.Proof.KernelWeightLayout
import proofs.«147627_g2000402439390779_pallasbulk_891_17_alg».proof.Proof.HeadReduction
import proofs.«147627_g2000402439390779_pallasbulk_891_17_alg».proof.Proof.FeatureJoin
import proofs.«147627_g2000402439390779_pallasbulk_891_17_alg».proof.Proof.Stage3Join
import proofs.«147627_g2000402439390779_pallasbulk_891_17_alg».proof.Proof.Stage12Join
import proofs.«147627_g2000402439390779_pallasbulk_891_17_alg».proof.Proof.KernelStage12Closed
import proofs.«147627_g2000402439390779_pallasbulk_891_17_alg».proof.Proof.RefStage1Closed
import proofs.«147627_g2000402439390779_pallasbulk_891_17_alg».proof.Proof.RefStage2Closed
import proofs.«147627_g2000402439390779_pallasbulk_891_17_alg».proof.Proof.SharedTapsTerm
import Idealize.ShloMosaic.Adequacy
import Idealize.ShloMosaic.Init

noncomputable section

namespace Cert.Proof

open Idealize.ShloMosaic Idealize.SL.Sem

/-- The word-level kernel runs to its end, faults nowhere and leaves its arguments unchanged. -/
theorem frame_Kernel : Cert.frame_Kernel := fun m ρ _ => Cert.Kernel.Hand.frame (F := Bits) m ρ

/-- So does the kernel read on the extended reals, -/
theorem frame_KernelIdeal : Cert.frame_KernelIdeal := fun m ρ _ => Cert.KernelIdeal.Hand.frame (F := Ideal) m ρ

/-- and so does the reference. -/
theorem frame_ReferenceIdeal : Cert.frame_ReferenceIdeal := fun m ρ _ => Cert.ReferenceIdeal.Hand.frame (F := Ideal) m ρ

/-- The idealization rewrote no operation: the idealized kernel is the kernel's own text read on the
    extended reals, and the conjunct is `True`. -/
theorem preserves : Cert.preserves_Kernel_KernelIdeal := trivial

/-- Both idealized programs run; the kernel's result array ends at what its second region leaves, the
    reference's at what its fifth region leaves, each a function of its launch memory; the two are equal when
    the argument arrays are. -/
theorem algebraic : Cert.algebraic_KernelIdeal_ReferenceIdeal := by
  intro m ρ m' ρ' _ hagree
  refine ⟨fun c => Cert.KernelIdeal.Gen.V8 m (Cert.KernelIdeal.Hand.outs m) c (Proc.devRef .tc Cert.KernelIdeal.main_v87),
    Cert.KernelIdeal.Hand.run_full (F := Ideal) m ρ, ?_⟩
  refine (θ_run (Cert.ReferenceIdeal.defs (F := Ideal)) _ _).mono (fun r h c => ⟨(h c).1.trans ?_, (h c).2⟩)
    (Cert.ReferenceIdeal.Hand.run_full (F := Ideal) m' ρ')
  -- the three dense layers and the log-softmax are one function of the 2048 features on both sides: what is
  -- left is that the two programs' feature vectors agree
  refine Cert.Proof.value_eq_of_features (F := Ideal) m m' hagree c ?_
  -- the last convolution (on a one-column input only its middle column tap meets data) and the maximum over the
  -- 16 rows are one function of the pooled third-stage activation on both sides
  refine Cert.Proof.features_of_pool m m' hagree c ?_
  -- the third stage's two convolutions (rows-then-columns on one side, all 25 taps at once on the other), their
  -- rectifiers and the width-4 pool are one function of the second stage's output on both sides
  refine Cert.Proof.pool_of_stage2 m m' hagree c ?_
  -- the first two stages (a 32-tap product, three 5x5 convolutions, two width-4 pools) are one function of the
  -- 32-tap array and the eight weight and bias arguments on both sides, and the two programs build that array on the
  -- host by the same operations of the same input
  exact Cert.Proof.stage2_eq m m' hagree c

theorem claim : Cert.Claim := ⟨Cert.Kernel.Gen.facts, Cert.KernelIdeal.Gen.facts, Cert.ReferenceIdeal.Gen.facts, Cert.Pre_finite_inputs.Gen.facts,
  frame_Kernel, frame_KernelIdeal, frame_ReferenceIdeal, preserves, algebraic⟩

end Cert.Proof

end
